-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S16384x13 : Shape := ⟨2, ![16384, 13]⟩
abbrev S26x1000x128 : Shape := ⟨3, ![26, 1000, 128]⟩
abbrev S13 : Shape := ⟨1, ![13]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x1000x128 : S_.BroadcastsInDim S26x1000x128 (![] : Fin 0 → Fin S26x1000x128.rank)
  reducesTo_S26x1000x128_S_d0_1_2 : S26x1000x128.ReducesTo [0, 1, 2] S_
  bcast_S_S13 : S_.BroadcastsInDim S13 (![] : Fin 0 → Fin S13.rank)
  reducesTo_S13_S_d0 : S13.ReducesTo [0] S_
  bcast_S_S16384x26 : S_.BroadcastsInDim S16384x26 (![] : Fin 0 → Fin S16384x26.rank)
  reducesTo_S16384x26_S_d0_1 : S16384x26.ReducesTo [0, 1] S_

variable [Facts]

def fn_part1 {F : FTy → Type} [FloatOps F] (main_arg0 : IVec S16384x26 32) (main_v13 : IVec S_ 1) (main_v16 : IVec S13 1) : IVec S_ 1 :=
  let main_c_5 : IVec S_ 1 := constantI S_ 1 1#1
  let main_v17 : IVec S_ 1 := (fun x v => Host.reduce IntOp.andi x v reducesTo_S13_S_d0 h_S_) main_v16 main_c_5
  let main_v18 : IVec S_ 1 := andi main_v13 main_v17
  let main_c_6 : IVec S_ 32 := constantI S_ 32 0#32
  let main_v19 : IVec S16384x26 32 := broadcastInDim S16384x26 ![] bcast_S_S16384x26 main_c_6
  let main_v20 : IVec S16384x26 1 := cmpi .sge main_arg0 main_v19
  let main_c_7 : IVec S_ 32 := constantI S_ 32 999#32
  let main_v21 : IVec S16384x26 32 := broadcastInDim S16384x26 ![] bcast_S_S16384x26 main_c_7
  let main_v22 : IVec S16384x26 1 := cmpi .sle main_arg0 main_v21
  let main_v23 : IVec S16384x26 1 := andi main_v20 main_v22
  let main_c_8 : IVec S_ 1 := constantI S_ 1 1#1
  let main_v24 : IVec S_ 1 := (fun x v => Host.reduce IntOp.andi x v reducesTo_S16384x26_S_d0_1 h_S_) main_v23 main_c_8
  let main_v25 : IVec S_ 1 := andi main_v18 main_v24
  main_v25

def fn {F : FTy → Type} [FloatOps F] (main_arg0 : IVec S16384x26 32) (main_arg1 : FVec F S16384x13 .f32) (main_arg2 : FVec F S26x1000x128 .f32) (main_arg3 : FVec F S13 .f32) (main_arg4 : FVec F S13 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x1000x128 .f32 := Host.absf main_arg2
  let main_cst_0 : FVec F S_ .f32 := constant S_ .f32 0x7F800000#32
  let main_v5 : FVec F S26x1000x128 .f32 := broadcastInDim S26x1000x128 ![] bcast_S_S26x1000x128 main_cst_0
  let main_v6 : IVec S26x1000x128 1 := cmpf .olt main_v4 main_v5
  let main_c_1 : IVec S_ 1 := constantI S_ 1 1#1
  let main_v7 : IVec S_ 1 := (fun x v => Host.reduce IntOp.andi x v reducesTo_S26x1000x128_S_d0_1_2 h_S_) main_v6 main_c_1
  let main_v8 : IVec S_ 1 := andi main_v3 main_v7
  let main_v9 : FVec F S13 .f32 := Host.absf main_arg3
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  let main_v14 : FVec F S13 .f32 := Host.absf main_arg4
  let main_cst_4 : FVec F S_ .f32 := constant S_ .f32 0x7F800000#32
  let main_v15 : FVec F S13 .f32 := broadcastInDim S13 ![] bcast_S_S13 main_cst_4
  let main_v16 : IVec S13 1 := cmpf .olt main_v14 main_v15
  fn_part1 (F := F) main_arg0 main_v13 main_v16
-- ==== Kernel.lean ====
abbrev S16384x26 : Shape := ⟨2, ![16384, 26]⟩
abbrev S16384x13 : Shape := ⟨2, ![16384, 13]⟩
abbrev S26x1000x128 : Shape := ⟨3, ![26, 1000, 128]⟩
abbrev S13 : Shape := ⟨1, ![13]⟩
abbrev S26000x128 : Shape := ⟨2, ![26000, 128]⟩
abbrev S13x16384 : Shape := ⟨2, ![13, 16384]⟩
abbrev S13x1 : Shape := ⟨2, ![13, 1]⟩
abbrev S8192x26 : Shape := ⟨2, ![8192, 26]⟩
abbrev S212992 : Shape := ⟨1, ![212992]⟩
abbrev S212992x128 : Shape := ⟨2, ![212992, 128]⟩
abbrev S6656 : Shape := ⟨1, ![6656]⟩
abbrev S128x128 : Shape := ⟨2, ![128, 128]⟩
abbrev S_ : Shape := ⟨0, ![]⟩
abbrev S16 : Shape := ⟨1, ![16]⟩
abbrev S128 : Shape := ⟨1, ![128]⟩
abbrev S13x8192 : Shape := ⟨2, ![13, 8192]⟩
abbrev S3341x16384 : Shape := ⟨2, ![3341, 16384]⟩
abbrev S13312x128 : Shape := ⟨2, ![13312, 128]⟩
abbrev S13x512 : Shape := ⟨2, ![13, 512]⟩
abbrev S3341x512 : Shape := ⟨2, ![3341, 512]⟩
abbrev S8x128 : Shape := ⟨2, ![8, 128]⟩
abbrev S512x128 : Shape := ⟨2, ![512, 128]⟩
abbrev S128x512 : Shape := ⟨2, ![128, 512]⟩
abbrev S16384x3341 : Shape := ⟨2, ![16384, 3341]⟩

abbrev nBuf : Table → Nat
  | .hbm => 20
  | .local .tc .vmem => 16
  | .local .scVector .vmem => 12
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x1000x128, .f32⟩
  | .hbm, ⟨3, _⟩ => ⟨S13, .f32⟩
  | .hbm, ⟨4, _⟩ => ⟨S13, .f32⟩
  | .hbm, ⟨5, _⟩ => ⟨S26000x128, .f32⟩
  | .hbm, ⟨6, _⟩ => ⟨S13x16384, .f32⟩
  | .hbm, ⟨7, _⟩ => ⟨S13x1, .f32⟩
  | .hbm, ⟨8, _⟩ => ⟨S13x1, .f32⟩
  | .hbm, ⟨9, _⟩ => ⟨S8192x26, .i32⟩
  | .hbm, ⟨10, _⟩ => ⟨S212992, .i32⟩
  | .hbm, ⟨11, _⟩ => ⟨S212992x128, .f32⟩
  | .hbm, ⟨12, _⟩ => ⟨S8192x26, .i32⟩
  | .hbm, ⟨13, _⟩ => ⟨S212992, .i32⟩
  | .hbm, ⟨14, _⟩ => ⟨S212992x128, .f32⟩
  | .hbm, ⟨15, _⟩ => ⟨S13x8192, .f32⟩
  | .hbm, ⟨16, _⟩ => ⟨S3341x16384, .f32⟩
  | .hbm, ⟨17, _⟩ => ⟨S13x8192, .f32⟩
  | .hbm, ⟨18, _⟩ => ⟨S3341x16384, .f32⟩
  | .hbm, ⟨19, _⟩ => ⟨S16384x3341, .f32⟩
  | .local .tc .vmem, ⟨0, _⟩ => ⟨S13312x128, .f32⟩
  | .local .tc .vmem, ⟨1, _⟩ => ⟨S13312x128, .f32⟩
  | .local .tc .vmem, ⟨2, _⟩ => ⟨S13x512, .f32⟩
  | .local .tc .vmem, ⟨3, _⟩ => ⟨S13x512, .f32⟩
  | .local .tc .vmem, ⟨4, _⟩ => ⟨S13x1, .f32⟩
  | .local .tc .vmem, ⟨5, _⟩ => ⟨S13x1, .f32⟩
  | .local .tc .vmem, ⟨6, _⟩ => ⟨S3341x512, .f32⟩
  | .local .tc .vmem, ⟨7, _⟩ => ⟨S3341x512, .f32⟩
  | .local .tc .vmem, ⟨8, _⟩ => ⟨S13312x128, .f32⟩
  | .local .tc .vmem, ⟨9, _⟩ => ⟨S13312x128, .f32⟩
  | .local .tc .vmem, ⟨10, _⟩ => ⟨S13x512, .f32⟩
  | .local .tc .vmem, ⟨11, _⟩ => ⟨S13x512, .f32⟩
  | .local .tc .vmem, ⟨12, _⟩ => ⟨S13x1, .f32⟩
  | .local .tc .vmem, ⟨13, _⟩ => ⟨S13x1, .f32⟩
  | .local .tc .vmem, ⟨14, _⟩ => ⟨S3341x512, .f32⟩
  | .local .tc .vmem, ⟨15, _⟩ => ⟨S3341x512, .f32⟩
  | .local .scVector .vmem, ⟨0, _⟩ => ⟨S6656, .i32⟩
  | .local .scVector .vmem, ⟨1, _⟩ => ⟨S6656, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S6656, .i32⟩
  | .local .scVector .vmem, ⟨7, _⟩ => ⟨S6656, .i32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v0_scv : Ref sig .scVector := ⟨.hbm, 5, rfl⟩
abbrev main_v5_scv : Ref sig .scVector := ⟨.hbm, 10, rfl⟩
abbrev main_v6_scv : Ref sig .scVector := ⟨.hbm, 11, rfl⟩
abbrev main_v8_scv : Ref sig .scVector := ⟨.hbm, 13, rfl⟩
abbrev main_v9_scv : Ref sig .scVector := ⟨.hbm, 14, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg4_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  ![v2.toNat]
@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩

def k0_chk1 (v27 : IVec S16 32) : Prop :=
  (∀ a x, ((![v27] : Fin 1 → IVec S16 32) a x).toNat < S6656.size a)
instance k0_chk1.dec : ∀ (v27 : IVec S16 32), Decidable (k0_chk1 v27) := fun v27 => decidable_of_iff' _ (Iff.of_eq (k0_chk1.eq_1 v27))
theorem k0_idx1_inb : ∀ (v27 : IVec S16 32) (k0_hw1 : k0_chk1 v27), ∀ a x, ((![v27] : Fin 1 → IVec S16 32) a x).toNat < S6656.size a := fun v27 k0_hw1 => k0_hw1
def k0_off2 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c0_i32_15 : BitVec 32 := 0#32
  let v32 : BitVec 32 := Scalar.addi v16 c0_i32_15
  let v33 : Index := Scalar.indexCast v32
  ![v33.toNat]

def k0_chk2 (v45 : IVec S16 32) : Prop :=
  (∀ a x, ((![v45] : Fin 1 → IVec S16 32) a x).toNat < S6656.size a)
instance k0_chk2.dec : ∀ (v45 : IVec S16 32), Decidable (k0_chk2 v45) := fun v45 => decidable_of_iff' _ (Iff.of_eq (k0_chk2.eq_1 v45))
theorem k0_idx2_inb : ∀ (v45 : IVec S16 32) (k0_hw2 : k0_chk2 v45), ∀ a x, ((![v45] : Fin 1 → IVec S16 32) a x).toNat < S6656.size a := fun v45 k0_hw2 => k0_hw2
def k0_off3 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c16_i32_20 : BitVec 32 := 16#32
  let v50 : BitVec 32 := Scalar.addi v16 c16_i32_20
  let v51 : Index := Scalar.indexCast v50
  ![v51.toNat]

def k0_chk3 (v63 : IVec S16 32) : Prop :=
  (∀ a x, ((![v63] : Fin 1 → IVec S16 32) a x).toNat < S6656.size a)
instance k0_chk3.dec : ∀ (v63 : IVec S16 32), Decidable (k0_chk3 v63) := fun v63 => decidable_of_iff' _ (Iff.of_eq (k0_chk3.eq_1 v63))
theorem k0_idx3_inb : ∀ (v63 : IVec S16 32) (k0_hw3 : k0_chk3 v63), ∀ a x, ((![v63] : Fin 1 → IVec S16 32) a x).toNat < S6656.size a := fun v63 k0_hw3 => k0_hw3
def k0_off4 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c32_i32_26 : BitVec 32 := 32#32
  let v68 : BitVec 32 := Scalar.addi v16 c32_i32_26
  let v69 : Index := Scalar.indexCast v68
  ![v69.toNat]

def k0_chk4 (v81 : IVec S16 32) : Prop :=
  (∀ a x, ((![v81] : Fin 1 → IVec S16 32) a x).toNat < S6656.size a)
instance k0_chk4.dec : ∀ (v81 : IVec S16 32), Decidable (k0_chk4 v81) := fun v81 => decidable_of_iff' _ (Iff.of_eq (k0_chk4.eq_1 v81))
theorem k0_idx4_inb : ∀ (v81 : IVec S16 32) (k0_hw4 : k0_chk4 v81), ∀ a x, ((![v81] : Fin 1 → IVec S16 32) a x).toNat < S6656.size a := fun v81 k0_hw4 => k0_hw4
def k0_off5 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c48_i32_31 : BitVec 32 := 48#32
  let v86 : BitVec 32 := Scalar.addi v16 c48_i32_31
  let v87 : Index := Scalar.indexCast v86
  ![v87.toNat]

def k0_chk5 (v99 : IVec S16 32) : Prop :=
  (∀ a x, ((![v99] : Fin 1 → IVec S16 32) a x).toNat < S6656.size a)
instance k0_chk5.dec : ∀ (v99 : IVec S16 32), Decidable (k0_chk5 v99) := fun v99 => decidable_of_iff' _ (Iff.of_eq (k0_chk5.eq_1 v99))
theorem k0_idx5_inb : ∀ (v99 : IVec S16 32) (k0_hw5 : k0_chk5 v99), ∀ a x, ((![v99] : Fin 1 → IVec S16 32) a x).toNat < S6656.size a := fun v99 k0_hw5 => k0_hw5
def k0_off6 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c64_i32_36 : BitVec 32 := 64#32
  let v104 : BitVec 32 := Scalar.addi v16 c64_i32_36
  let v105 : Index := Scalar.indexCast v104
  ![v105.toNat]

def k0_chk6 (v117 : IVec S16 32) : Prop :=
  (∀ a x, ((![v117] : Fin 1 → IVec S16 32) a x).toNat < S6656.size a)
instance k0_chk6.dec : ∀ (v117 : IVec S16 32), Decidable (k0_chk6 v117) := fun v117 => decidable_of_iff' _ (Iff.of_eq (k0_chk6.eq_1 v117))
theorem k0_idx6_inb : ∀ (v117 : IVec S16 32) (k0_hw6 : k0_chk6 v117), ∀ a x, ((![v117] : Fin 1 → IVec S16 32) a x).toNat < S6656.size a := fun v117 k0_hw6 => k0_hw6
def k0_off7 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c80_i32_41 : BitVec 32 := 80#32
  let v122 : BitVec 32 := Scalar.addi v16 c80_i32_41
  let v123 : Index := Scalar.indexCast v122
  ![v123.toNat]

def k0_chk7 (v135 : IVec S16 32) : Prop :=
  (∀ a x, ((![v135] : Fin 1 → IVec S16 32) a x).toNat < S6656.size a)
instance k0_chk7.dec : ∀ (v135 : IVec S16 32), Decidable (k0_chk7 v135) := fun v135 => decidable_of_iff' _ (Iff.of_eq (k0_chk7.eq_1 v135))
theorem k0_idx7_inb : ∀ (v135 : IVec S16 32) (k0_hw7 : k0_chk7 v135), ∀ a x, ((![v135] : Fin 1 → IVec S16 32) a x).toNat < S6656.size a := fun v135 k0_hw7 => k0_hw7
def k0_off8 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c96_i32_46 : BitVec 32 := 96#32
  let v140 : BitVec 32 := Scalar.addi v16 c96_i32_46
  let v141 : Index := Scalar.indexCast v140
  ![v141.toNat]

def k0_chk8 (v153 : IVec S16 32) : Prop :=
  (∀ a x, ((![v153] : Fin 1 → IVec S16 32) a x).toNat < S6656.size a)
instance k0_chk8.dec : ∀ (v153 : IVec S16 32), Decidable (k0_chk8 v153) := fun v153 => decidable_of_iff' _ (Iff.of_eq (k0_chk8.eq_1 v153))
theorem k0_idx8_inb : ∀ (v153 : IVec S16 32) (k0_hw8 : k0_chk8 v153), ∀ a x, ((![v153] : Fin 1 → IVec S16 32) a x).toNat < S6656.size a := fun v153 k0_hw8 => k0_hw8
def k0_off9 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c112_i32_51 : BitVec 32 := 112#32
  let v158 : BitVec 32 := Scalar.addi v16 c112_i32_51
  let v159 : Index := Scalar.indexCast v158
  ![v159.toNat]

def k0_chk9 (v171 : IVec S16 32) : Prop :=
  (∀ a x, ((![v171] : Fin 1 → IVec S16 32) a x).toNat < S6656.size a)
instance k0_chk9.dec : ∀ (v171 : IVec S16 32), Decidable (k0_chk9 v171) := fun v171 => decidable_of_iff' _ (Iff.of_eq (k0_chk9.eq_1 v171))
theorem k0_idx9_inb : ∀ (v171 : IVec S16 32) (k0_hw9 : k0_chk9 v171), ∀ a x, ((![v171] : Fin 1 → IVec S16 32) a x).toNat < S6656.size a := fun v171 k0_hw9 => k0_hw9
def k0_off10 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c128_i32_56 : BitVec 32 := 128#32
  let v176 : BitVec 32 := Scalar.addi v16 c128_i32_56
  let v177 : Index := Scalar.indexCast v176
  ![v177.toNat]

def k0_chk10 (v189 : IVec S16 32) : Prop :=
  (∀ a x, ((![v189] : Fin 1 → IVec S16 32) a x).toNat < S6656.size a)
instance k0_chk10.dec : ∀ (v189 : IVec S16 32), Decidable (k0_chk10 v189) := fun v189 => decidable_of_iff' _ (Iff.of_eq (k0_chk10.eq_1 v189))
theorem k0_idx10_inb : ∀ (v189 : IVec S16 32) (k0_hw10 : k0_chk10 v189), ∀ a x, ((![v189] : Fin 1 → IVec S16 32) a x).toNat < S6656.size a := fun v189 k0_hw10 => k0_hw10
def k0_off11 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c144_i32_61 : BitVec 32 := 144#32
  let v194 : BitVec 32 := Scalar.addi v16 c144_i32_61
  let v195 : Index := Scalar.indexCast v194
  ![v195.toNat]

def k0_chk11 (v207 : IVec S16 32) : Prop :=
  (∀ a x, ((![v207] : Fin 1 → IVec S16 32) a x).toNat < S6656.size a)
instance k0_chk11.dec : ∀ (v207 : IVec S16 32), Decidable (k0_chk11 v207) := fun v207 => decidable_of_iff' _ (Iff.of_eq (k0_chk11.eq_1 v207))
theorem k0_idx11_inb : ∀ (v207 : IVec S16 32) (k0_hw11 : k0_chk11 v207), ∀ a x, ((![v207] : Fin 1 → IVec S16 32) a x).toNat < S6656.size a := fun v207 k0_hw11 => k0_hw11
def k0_off12 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c160_i32_66 : BitVec 32 := 160#32
  let v212 : BitVec 32 := Scalar.addi v16 c160_i32_66
  let v213 : Index := Scalar.indexCast v212
  ![v213.toNat]

def k0_chk12 (v225 : IVec S16 32) : Prop :=
  (∀ a x, ((![v225] : Fin 1 → IVec S16 32) a x).toNat < S6656.size a)
instance k0_chk12.dec : ∀ (v225 : IVec S16 32), Decidable (k0_chk12 v225) := fun v225 => decidable_of_iff' _ (Iff.of_eq (k0_chk12.eq_1 v225))
theorem k0_idx12_inb : ∀ (v225 : IVec S16 32) (k0_hw12 : k0_chk12 v225), ∀ a x, ((![v225] : Fin 1 → IVec S16 32) a x).toNat < S6656.size a := fun v225 k0_hw12 => k0_hw12
def k0_off13 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c176_i32_71 : BitVec 32 := 176#32
  let v230 : BitVec 32 := Scalar.addi v16 c176_i32_71
  let v231 : Index := Scalar.indexCast v230
  ![v231.toNat]

def k0_chk13 (v243 : IVec S16 32) : Prop :=
  (∀ a x, ((![v243] : Fin 1 → IVec S16 32) a x).toNat < S6656.size a)
instance k0_chk13.dec : ∀ (v243 : IVec S16 32), Decidable (k0_chk13 v243) := fun v243 => decidable_of_iff' _ (Iff.of_eq (k0_chk13.eq_1 v243))
theorem k0_idx13_inb : ∀ (v243 : IVec S16 32) (k0_hw13 : k0_chk13 v243), ∀ a x, ((![v243] : Fin 1 → IVec S16 32) a x).toNat < S6656.size a := fun v243 k0_hw13 => k0_hw13
def k0_off14 (k0_t1 : Fin k0_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k0_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c192_i32_76 : BitVec 32 := 192#32
  let v248 : BitVec 32 := Scalar.addi v16 c192_i32_76
  let v249 : Index := Scalar.indexCast v248
  ![v249.toNat]
@[reducible] def k0_t2_loop : Scf.Loop 32 :=
  let c0_i32_1 : BitVec 32 := 0#32
  let c13_i32 : BitVec 32 := 13#32
  let v5 : BitVec 32 := Scalar.addi c0_i32_1 c13_i32
  let c1_i32_2 : BitVec 32 := 1#32
  ⟨c0_i32_1, v5, c1_i32_2⟩
def k0_cond1 (k0_t2 : Fin k0_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let c0_i32_13 : BitVec 32 := 0#32
  let v16 : BitVec 1 := Scalar.cmpi .sgt v15 c0_i32_13
  let v17 : BitVec 32 := Scalar.extui v16
  let c0_i32_14 : BitVec 32 := 0#32
  let v18 : BitVec 1 := Scalar.cmpi .ne v17 c0_i32_14
  v18

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k0_off16 (k0_t2 : Fin k0_t2_loop.trips) (c0_i32_15 : BitVec 32) : Fin 1 → Nat :=
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let v19 : BitVec 32 := Scalar.addi v15 c0_i32_15
  let c128_i32 : BitVec 32 := 128#32
  let v20 : BitVec 32 := Scalar.muli v19 c128_i32
  ![v20.toNat]
def k0_cond2 (k0_t2 : Fin k0_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let c0_i32_18 : BitVec 32 := 0#32
  let v23 : BitVec 1 := Scalar.cmpi .sgt v15 c0_i32_18
  let v24 : BitVec 32 := Scalar.extui v23
  let c0_i32_19 : BitVec 32 := 0#32
  let v25 : BitVec 1 := Scalar.cmpi .ne v24 c0_i32_19
  v25

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k0_cond3 (k0_t2 : Fin k0_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let c0_i32_24 : BitVec 32 := 0#32
  let v30 : BitVec 1 := Scalar.cmpi .sgt v15 c0_i32_24
  let v31 : BitVec 32 := Scalar.extui v30
  let c0_i32_25 : BitVec 32 := 0#32
  let v32 : BitVec 1 := Scalar.cmpi .ne v31 c0_i32_25
  v32

def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k0_cond4 (k0_t2 : Fin k0_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let c0_i32_30 : BitVec 32 := 0#32
  let v37 : BitVec 1 := Scalar.cmpi .sgt v15 c0_i32_30
  let v38 : BitVec 32 := Scalar.extui v37
  let c0_i32_31 : BitVec 32 := 0#32
  let v39 : BitVec 1 := Scalar.cmpi .ne v38 c0_i32_31
  v39

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k0_off20 (i : grid0.Coords) (k0_t2 : Fin k0_t2_loop.trips) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_12 : BitVec 32 := 0#32
  let c0_i32_1 : BitVec 32 := 0#32
  let c1_i32_2 : BitVec 32 := 1#32
  let arg19 : BitVec 32 := Scf.iv c0_i32_1 c1_i32_2 k0_t2
  let c4_i32 : BitVec 32 := 4#32
  let v14 : BitVec 32 := Scalar.muli arg19 c4_i32
  let v15 : BitVec 32 := Scalar.addi c0_i32_12 v14
  let v48 : BitVec 32 := Scalar.addi v15 c0_i32_39
  let c128_i32_40 : BitVec 32 := 128#32
  let v49 : BitVec 32 := Scalar.muli v48 c128_i32_40
  let v50 : BitVec 32 := Scalar.addi v2 v49
  let c0_i32_41 : BitVec 32 := 0#32
  ![v50.toNat, 0]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_4 : BitVec 32 := 0#32
  ![v2.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  ![v2.toNat]
@[reducible] def k1_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩

def k1_chk1 (v27 : IVec S16 32) : Prop :=
  (∀ a x, ((![v27] : Fin 1 → IVec S16 32) a x).toNat < S6656.size a)
instance k1_chk1.dec : ∀ (v27 : IVec S16 32), Decidable (k1_chk1 v27) := fun v27 => decidable_of_iff' _ (Iff.of_eq (k1_chk1.eq_1 v27))
theorem k1_idx1_inb : ∀ (v27 : IVec S16 32) (k1_hw1 : k1_chk1 v27), ∀ a x, ((![v27] : Fin 1 → IVec S16 32) a x).toNat < S6656.size a := fun v27 k1_hw1 => k1_hw1
def k1_off2 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c0_i32_15 : BitVec 32 := 0#32
  let v32 : BitVec 32 := Scalar.addi v16 c0_i32_15
  let v33 : Index := Scalar.indexCast v32
  ![v33.toNat]

def k1_chk2 (v45 : IVec S16 32) : Prop :=
  (∀ a x, ((![v45] : Fin 1 → IVec S16 32) a x).toNat < S6656.size a)
instance k1_chk2.dec : ∀ (v45 : IVec S16 32), Decidable (k1_chk2 v45) := fun v45 => decidable_of_iff' _ (Iff.of_eq (k1_chk2.eq_1 v45))
theorem k1_idx2_inb : ∀ (v45 : IVec S16 32) (k1_hw2 : k1_chk2 v45), ∀ a x, ((![v45] : Fin 1 → IVec S16 32) a x).toNat < S6656.size a := fun v45 k1_hw2 => k1_hw2
def k1_off3 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c16_i32_20 : BitVec 32 := 16#32
  let v50 : BitVec 32 := Scalar.addi v16 c16_i32_20
  let v51 : Index := Scalar.indexCast v50
  ![v51.toNat]

def k1_chk3 (v63 : IVec S16 32) : Prop :=
  (∀ a x, ((![v63] : Fin 1 → IVec S16 32) a x).toNat < S6656.size a)
instance k1_chk3.dec : ∀ (v63 : IVec S16 32), Decidable (k1_chk3 v63) := fun v63 => decidable_of_iff' _ (Iff.of_eq (k1_chk3.eq_1 v63))
theorem k1_idx3_inb : ∀ (v63 : IVec S16 32) (k1_hw3 : k1_chk3 v63), ∀ a x, ((![v63] : Fin 1 → IVec S16 32) a x).toNat < S6656.size a := fun v63 k1_hw3 => k1_hw3
def k1_off4 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c32_i32_26 : BitVec 32 := 32#32
  let v68 : BitVec 32 := Scalar.addi v16 c32_i32_26
  let v69 : Index := Scalar.indexCast v68
  ![v69.toNat]

def k1_chk4 (v81 : IVec S16 32) : Prop :=
  (∀ a x, ((![v81] : Fin 1 → IVec S16 32) a x).toNat < S6656.size a)
instance k1_chk4.dec : ∀ (v81 : IVec S16 32), Decidable (k1_chk4 v81) := fun v81 => decidable_of_iff' _ (Iff.of_eq (k1_chk4.eq_1 v81))
theorem k1_idx4_inb : ∀ (v81 : IVec S16 32) (k1_hw4 : k1_chk4 v81), ∀ a x, ((![v81] : Fin 1 → IVec S16 32) a x).toNat < S6656.size a := fun v81 k1_hw4 => k1_hw4
def k1_off5 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c48_i32_31 : BitVec 32 := 48#32
  let v86 : BitVec 32 := Scalar.addi v16 c48_i32_31
  let v87 : Index := Scalar.indexCast v86
  ![v87.toNat]

def k1_chk5 (v99 : IVec S16 32) : Prop :=
  (∀ a x, ((![v99] : Fin 1 → IVec S16 32) a x).toNat < S6656.size a)
instance k1_chk5.dec : ∀ (v99 : IVec S16 32), Decidable (k1_chk5 v99) := fun v99 => decidable_of_iff' _ (Iff.of_eq (k1_chk5.eq_1 v99))
theorem k1_idx5_inb : ∀ (v99 : IVec S16 32) (k1_hw5 : k1_chk5 v99), ∀ a x, ((![v99] : Fin 1 → IVec S16 32) a x).toNat < S6656.size a := fun v99 k1_hw5 => k1_hw5
def k1_off6 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c64_i32_36 : BitVec 32 := 64#32
  let v104 : BitVec 32 := Scalar.addi v16 c64_i32_36
  let v105 : Index := Scalar.indexCast v104
  ![v105.toNat]

def k1_chk6 (v117 : IVec S16 32) : Prop :=
  (∀ a x, ((![v117] : Fin 1 → IVec S16 32) a x).toNat < S6656.size a)
instance k1_chk6.dec : ∀ (v117 : IVec S16 32), Decidable (k1_chk6 v117) := fun v117 => decidable_of_iff' _ (Iff.of_eq (k1_chk6.eq_1 v117))
theorem k1_idx6_inb : ∀ (v117 : IVec S16 32) (k1_hw6 : k1_chk6 v117), ∀ a x, ((![v117] : Fin 1 → IVec S16 32) a x).toNat < S6656.size a := fun v117 k1_hw6 => k1_hw6
def k1_off7 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c80_i32_41 : BitVec 32 := 80#32
  let v122 : BitVec 32 := Scalar.addi v16 c80_i32_41
  let v123 : Index := Scalar.indexCast v122
  ![v123.toNat]

def k1_chk7 (v135 : IVec S16 32) : Prop :=
  (∀ a x, ((![v135] : Fin 1 → IVec S16 32) a x).toNat < S6656.size a)
instance k1_chk7.dec : ∀ (v135 : IVec S16 32), Decidable (k1_chk7 v135) := fun v135 => decidable_of_iff' _ (Iff.of_eq (k1_chk7.eq_1 v135))
theorem k1_idx7_inb : ∀ (v135 : IVec S16 32) (k1_hw7 : k1_chk7 v135), ∀ a x, ((![v135] : Fin 1 → IVec S16 32) a x).toNat < S6656.size a := fun v135 k1_hw7 => k1_hw7
def k1_off8 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c96_i32_46 : BitVec 32 := 96#32
  let v140 : BitVec 32 := Scalar.addi v16 c96_i32_46
  let v141 : Index := Scalar.indexCast v140
  ![v141.toNat]

def k1_chk8 (v153 : IVec S16 32) : Prop :=
  (∀ a x, ((![v153] : Fin 1 → IVec S16 32) a x).toNat < S6656.size a)
instance k1_chk8.dec : ∀ (v153 : IVec S16 32), Decidable (k1_chk8 v153) := fun v153 => decidable_of_iff' _ (Iff.of_eq (k1_chk8.eq_1 v153))
theorem k1_idx8_inb : ∀ (v153 : IVec S16 32) (k1_hw8 : k1_chk8 v153), ∀ a x, ((![v153] : Fin 1 → IVec S16 32) a x).toNat < S6656.size a := fun v153 k1_hw8 => k1_hw8
def k1_off9 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c112_i32_51 : BitVec 32 := 112#32
  let v158 : BitVec 32 := Scalar.addi v16 c112_i32_51
  let v159 : Index := Scalar.indexCast v158
  ![v159.toNat]

def k1_chk9 (v171 : IVec S16 32) : Prop :=
  (∀ a x, ((![v171] : Fin 1 → IVec S16 32) a x).toNat < S6656.size a)
instance k1_chk9.dec : ∀ (v171 : IVec S16 32), Decidable (k1_chk9 v171) := fun v171 => decidable_of_iff' _ (Iff.of_eq (k1_chk9.eq_1 v171))
theorem k1_idx9_inb : ∀ (v171 : IVec S16 32) (k1_hw9 : k1_chk9 v171), ∀ a x, ((![v171] : Fin 1 → IVec S16 32) a x).toNat < S6656.size a := fun v171 k1_hw9 => k1_hw9
def k1_off10 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c128_i32_56 : BitVec 32 := 128#32
  let v176 : BitVec 32 := Scalar.addi v16 c128_i32_56
  let v177 : Index := Scalar.indexCast v176
  ![v177.toNat]

def k1_chk10 (v189 : IVec S16 32) : Prop :=
  (∀ a x, ((![v189] : Fin 1 → IVec S16 32) a x).toNat < S6656.size a)
instance k1_chk10.dec : ∀ (v189 : IVec S16 32), Decidable (k1_chk10 v189) := fun v189 => decidable_of_iff' _ (Iff.of_eq (k1_chk10.eq_1 v189))
theorem k1_idx10_inb : ∀ (v189 : IVec S16 32) (k1_hw10 : k1_chk10 v189), ∀ a x, ((![v189] : Fin 1 → IVec S16 32) a x).toNat < S6656.size a := fun v189 k1_hw10 => k1_hw10
def k1_off11 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c144_i32_61 : BitVec 32 := 144#32
  let v194 : BitVec 32 := Scalar.addi v16 c144_i32_61
  let v195 : Index := Scalar.indexCast v194
  ![v195.toNat]

def k1_chk11 (v207 : IVec S16 32) : Prop :=
  (∀ a x, ((![v207] : Fin 1 → IVec S16 32) a x).toNat < S6656.size a)
instance k1_chk11.dec : ∀ (v207 : IVec S16 32), Decidable (k1_chk11 v207) := fun v207 => decidable_of_iff' _ (Iff.of_eq (k1_chk11.eq_1 v207))
theorem k1_idx11_inb : ∀ (v207 : IVec S16 32) (k1_hw11 : k1_chk11 v207), ∀ a x, ((![v207] : Fin 1 → IVec S16 32) a x).toNat < S6656.size a := fun v207 k1_hw11 => k1_hw11
def k1_off12 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c160_i32_66 : BitVec 32 := 160#32
  let v212 : BitVec 32 := Scalar.addi v16 c160_i32_66
  let v213 : Index := Scalar.indexCast v212
  ![v213.toNat]

def k1_chk12 (v225 : IVec S16 32) : Prop :=
  (∀ a x, ((![v225] : Fin 1 → IVec S16 32) a x).toNat < S6656.size a)
instance k1_chk12.dec : ∀ (v225 : IVec S16 32), Decidable (k1_chk12 v225) := fun v225 => decidable_of_iff' _ (Iff.of_eq (k1_chk12.eq_1 v225))
theorem k1_idx12_inb : ∀ (v225 : IVec S16 32) (k1_hw12 : k1_chk12 v225), ∀ a x, ((![v225] : Fin 1 → IVec S16 32) a x).toNat < S6656.size a := fun v225 k1_hw12 => k1_hw12
def k1_off13 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c176_i32_71 : BitVec 32 := 176#32
  let v230 : BitVec 32 := Scalar.addi v16 c176_i32_71
  let v231 : Index := Scalar.indexCast v230
  ![v231.toNat]

def k1_chk13 (v243 : IVec S16 32) : Prop :=
  (∀ a x, ((![v243] : Fin 1 → IVec S16 32) a x).toNat < S6656.size a)
instance k1_chk13.dec : ∀ (v243 : IVec S16 32), Decidable (k1_chk13 v243) := fun v243 => decidable_of_iff' _ (Iff.of_eq (k1_chk13.eq_1 v243))
theorem k1_idx13_inb : ∀ (v243 : IVec S16 32) (k1_hw13 : k1_chk13 v243), ∀ a x, ((![v243] : Fin 1 → IVec S16 32) a x).toNat < S6656.size a := fun v243 k1_hw13 => k1_hw13
def k1_off14 (k1_t1 : Fin k1_t1_loop.trips) : Fin 1 → Nat :=
  let c0_i32_13 : BitVec 32 := 0#32
  let c0_i32 : BitVec 32 := 0#32
  let c1_i32 : BitVec 32 := 1#32
  let arg19 : BitVec 32 := Scf.iv c0_i32 c1_i32 k1_t1
  let c1_i32_12 : BitVec 32 := 1#32
  let v14 : BitVec 32 := Scalar.muli arg19 c1_i32_12
  let v15 : BitVec 32 := Scalar.addi c0_i32_13 v14
  let c208_i32 : BitVec 32 := 208#32
  let v16 : BitVec 32 := Scalar.muli v15 c208_i32
  let c192_i32_76 : BitVec 32 := 192#32
  let v248 : BitVec 32 := Scalar.addi v16 c192_i32_76
  let v249 : Index := Scalar.indexCast v248
  ![v249.toNat]
@[reducible] def k1_t2_loop : Scf.Loop 32 :=
  let c0_i32_1 : BitVec 32 := 0#32
  let c13_i32 : BitVec 32 := 13#32
  let v5 : BitVec 32 := Scalar.addi c0_i32_1 c13_i32
  let c1_i32_2 : BitVec 32 := 1#32
  ⟨c0_i32_1, v5, c1_i32_2⟩
def k1_cond1 (k1_t2 : Fin k1_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let c0_i32_13 : BitVec 32 := 0#32
  let v16 : BitVec 1 := Scalar.cmpi .sgt v15 c0_i32_13
  let v17 : BitVec 32 := Scalar.extui v16
  let c0_i32_14 : BitVec 32 := 0#32
  let v18 : BitVec 1 := Scalar.cmpi .ne v17 c0_i32_14
  v18

def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k1_off16 (k1_t2 : Fin k1_t2_loop.trips) (c0_i32_15 : BitVec 32) : Fin 1 → Nat :=
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let v19 : BitVec 32 := Scalar.addi v15 c0_i32_15
  let c128_i32 : BitVec 32 := 128#32
  let v20 : BitVec 32 := Scalar.muli v19 c128_i32
  ![v20.toNat]
def k1_cond2 (k1_t2 : Fin k1_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let c0_i32_18 : BitVec 32 := 0#32
  let v23 : BitVec 1 := Scalar.cmpi .sgt v15 c0_i32_18
  let v24 : BitVec 32 := Scalar.extui v23
  let c0_i32_19 : BitVec 32 := 0#32
  let v25 : BitVec 1 := Scalar.cmpi .ne v24 c0_i32_19
  v25

def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k1_cond3 (k1_t2 : Fin k1_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let c0_i32_24 : BitVec 32 := 0#32
  let v30 : BitVec 1 := Scalar.cmpi .sgt v15 c0_i32_24
  let v31 : BitVec 32 := Scalar.extui v30
  let c0_i32_25 : BitVec 32 := 0#32
  let v32 : BitVec 1 := Scalar.cmpi .ne v31 c0_i32_25
  v32

def k1_off18 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k1_cond4 (k1_t2 : Fin k1_t2_loop.trips) : BitVec 1 :=
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let c0_i32_30 : BitVec 32 := 0#32
  let v37 : BitVec 1 := Scalar.cmpi .sgt v15 c0_i32_30
  let v38 : BitVec 32 := Scalar.extui v37
  let c0_i32_31 : BitVec 32 := 0#32
  let v39 : BitVec 1 := Scalar.cmpi .ne v38 c0_i32_31
  v39

def k1_off19 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_67 : BitVec 32 := 0#32
  ![v2.toNat, 0]
def k1_off20 (i : grid1.Coords) (k1_t2 : Fin k1_t2_loop.trips) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_12 : BitVec 32 := 0#32
  let c0_i32_1 : BitVec 32 := 0#32
  let c1_i32_2 : BitVec 32 := 1#32
  let arg19 : BitVec 32 := Scf.iv c0_i32_1 c1_i32_2 k1_t2
  let c4_i32 : BitVec 32 := 4#32
  let v14 : BitVec 32 := Scalar.muli arg19 c4_i32
  let v15 : BitVec 32 := Scalar.addi c0_i32_12 v14
  let v48 : BitVec 32 := Scalar.addi v15 c0_i32_39
  let c128_i32_40 : BitVec 32 := 128#32
  let v49 : BitVec 32 := Scalar.muli v48 c128_i32_40
  let v50 : BitVec 32 := Scalar.addi v2 v49
  let c0_i32_41 : BitVec 32 := 0#32
  ![v50.toNat, 0]
def k1_off21 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_4 : BitVec 32 := 0#32
  ![v2.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage2_0 : Fin 2 → Memref sig .tc .vmem S13312x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S13x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S13x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S13x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3341x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

abbrev stage3_0 : Fin 2 → Memref sig .tc .vmem S13312x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S13x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S13x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S13x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S3341x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ a, (k0_off1 i) a + S6656.size a ≤ S212992.size a
  k0_t1_ok : k0_t1_loop.OK
  k0_off2_inb : ∀ k0_t1 : Fin k0_t1_loop.trips, ∀ a, (k0_off2 k0_t1) a + S16.size a ≤ S6656.size a
  k0_off3_inb : ∀ k0_t1 : Fin k0_t1_loop.trips, ∀ a, (k0_off3 k0_t1) a + S16.size a ≤ S6656.size a
  k0_off4_inb : ∀ k0_t1 : Fin k0_t1_loop.trips, ∀ a, (k0_off4 k0_t1) a + S16.size a ≤ S6656.size a
  k0_off5_inb : ∀ k0_t1 : Fin k0_t1_loop.trips, ∀ a, (k0_off5 k0_t1) a + S16.size a ≤ S6656.size a
  k0_off6_inb : ∀ k0_t1 : Fin k0_t1_loop.trips, ∀ a, (k0_off6 k0_t1) a + S16.size a ≤ S6656.size a
  k0_off7_inb : ∀ k0_t1 : Fin k0_t1_loop.trips, ∀ a, (k0_off7 k0_t1) a + S16.size a ≤ S6656.size a
  k0_off8_inb : ∀ k0_t1 : Fin k0_t1_loop.trips, ∀ a, (k0_off8 k0_t1) a + S16.size a ≤ S6656.size a
  k0_off9_inb : ∀ k0_t1 : Fin k0_t1_loop.trips, ∀ a, (k0_off9 k0_t1) a + S16.size a ≤ S6656.size a
  k0_off10_inb : ∀ k0_t1 : Fin k0_t1_loop.trips, ∀ a, (k0_off10 k0_t1) a + S16.size a ≤ S6656.size a
  k0_off11_inb : ∀ k0_t1 : Fin k0_t1_loop.trips, ∀ a, (k0_off11 k0_t1) a + S16.size a ≤ S6656.size a
  k0_off12_inb : ∀ k0_t1 : Fin k0_t1_loop.trips, ∀ a, (k0_off12 k0_t1) a + S16.size a ≤ S6656.size a
  k0_off13_inb : ∀ k0_t1 : Fin k0_t1_loop.trips, ∀ a, (k0_off13 k0_t1) a + S16.size a ≤ S6656.size a
  k0_off14_inb : ∀ k0_t1 : Fin k0_t1_loop.trips, ∀ a, (k0_off14 k0_t1) a + S16.size a ≤ S6656.size a
  k0_t2_ok : k0_t2_loop.OK
  k0_off15_inb : ∀ (i : grid0.Coords) (k0_t2 : Fin k0_t2_loop.trips), ∀ (k0_h1 : k0_cond1 k0_t2 = 1#1), ∀ a, (k0_off15 i) a + S128x128.size a ≤ S212992x128.size a
  k0_off16_inb : ∀ k0_t2 : Fin k0_t2_loop.trips, ∀ (r : Fin 4), ∀ a, (k0_off16 k0_t2 (BitVec.ofNat 32 r.val)) a + S128.size a ≤ S6656.size a
  k0_off17_inb : ∀ (i : grid0.Coords) (k0_t2 : Fin k0_t2_loop.trips), ∀ (k0_h2 : k0_cond2 k0_t2 = 1#1), ∀ a, (k0_off17 i) a + S128x128.size a ≤ S212992x128.size a
  k0_off18_inb : ∀ (i : grid0.Coords) (k0_t2 : Fin k0_t2_loop.trips), ∀ (k0_h3 : k0_cond3 k0_t2 = 1#1), ∀ a, (k0_off18 i) a + S128x128.size a ≤ S212992x128.size a
  k0_off19_inb : ∀ (i : grid0.Coords) (k0_t2 : Fin k0_t2_loop.trips), ∀ (k0_h4 : k0_cond4 k0_t2 = 1#1), ∀ a, (k0_off19 i) a + S128x128.size a ≤ S212992x128.size a
  k0_off20_inb : ∀ (i : grid0.Coords) (k0_t2 : Fin k0_t2_loop.trips), ∀ (r : Fin 4), ∀ a, (k0_off20 i k0_t2 (BitVec.ofNat 32 r.val)) a + S128x128.size a ≤ S212992x128.size a
  k0_off21_inb : ∀ i : grid0.Coords, ∀ a, (k0_off21 i) a + S128x128.size a ≤ S212992x128.size a

class K1.Facts₀ : Prop where
  hcore1 : grid1.bound 0 ≤ τ.nSC
  hsub1 : grid1.bound 1 ≤ τ.nSub
  k1_off1_inb : ∀ i : grid1.Coords, ∀ a, (k1_off1 i) a + S6656.size a ≤ S212992.size a
  k1_t1_ok : k1_t1_loop.OK
  k1_off2_inb : ∀ k1_t1 : Fin k1_t1_loop.trips, ∀ a, (k1_off2 k1_t1) a + S16.size a ≤ S6656.size a
  k1_off3_inb : ∀ k1_t1 : Fin k1_t1_loop.trips, ∀ a, (k1_off3 k1_t1) a + S16.size a ≤ S6656.size a
  k1_off4_inb : ∀ k1_t1 : Fin k1_t1_loop.trips, ∀ a, (k1_off4 k1_t1) a + S16.size a ≤ S6656.size a
  k1_off5_inb : ∀ k1_t1 : Fin k1_t1_loop.trips, ∀ a, (k1_off5 k1_t1) a + S16.size a ≤ S6656.size a
  k1_off6_inb : ∀ k1_t1 : Fin k1_t1_loop.trips, ∀ a, (k1_off6 k1_t1) a + S16.size a ≤ S6656.size a
  k1_off7_inb : ∀ k1_t1 : Fin k1_t1_loop.trips, ∀ a, (k1_off7 k1_t1) a + S16.size a ≤ S6656.size a
  k1_off8_inb : ∀ k1_t1 : Fin k1_t1_loop.trips, ∀ a, (k1_off8 k1_t1) a + S16.size a ≤ S6656.size a
  k1_off9_inb : ∀ k1_t1 : Fin k1_t1_loop.trips, ∀ a, (k1_off9 k1_t1) a + S16.size a ≤ S6656.size a
  k1_off10_inb : ∀ k1_t1 : Fin k1_t1_loop.trips, ∀ a, (k1_off10 k1_t1) a + S16.size a ≤ S6656.size a
  k1_off11_inb : ∀ k1_t1 : Fin k1_t1_loop.trips, ∀ a, (k1_off11 k1_t1) a + S16.size a ≤ S6656.size a
  k1_off12_inb : ∀ k1_t1 : Fin k1_t1_loop.trips, ∀ a, (k1_off12 k1_t1) a + S16.size a ≤ S6656.size a
  k1_off13_inb : ∀ k1_t1 : Fin k1_t1_loop.trips, ∀ a, (k1_off13 k1_t1) a + S16.size a ≤ S6656.size a
  k1_off14_inb : ∀ k1_t1 : Fin k1_t1_loop.trips, ∀ a, (k1_off14 k1_t1) a + S16.size a ≤ S6656.size a
  k1_t2_ok : k1_t2_loop.OK
  k1_off15_inb : ∀ (i : grid1.Coords) (k1_t2 : Fin k1_t2_loop.trips), ∀ (k1_h1 : k1_cond1 k1_t2 = 1#1), ∀ a, (k1_off15 i) a + S128x128.size a ≤ S212992x128.size a
  k1_off16_inb : ∀ k1_t2 : Fin k1_t2_loop.trips, ∀ (r : Fin 4), ∀ a, (k1_off16 k1_t2 (BitVec.ofNat 32 r.val)) a + S128.size a ≤ S6656.size a
  k1_off17_inb : ∀ (i : grid1.Coords) (k1_t2 : Fin k1_t2_loop.trips), ∀ (k1_h2 : k1_cond2 k1_t2 = 1#1), ∀ a, (k1_off17 i) a + S128x128.size a ≤ S212992x128.size a
  k1_off18_inb : ∀ (i : grid1.Coords) (k1_t2 : Fin k1_t2_loop.trips), ∀ (k1_h3 : k1_cond3 k1_t2 = 1#1), ∀ a, (k1_off18 i) a + S128x128.size a ≤ S212992x128.size a
  k1_off19_inb : ∀ (i : grid1.Coords) (k1_t2 : Fin k1_t2_loop.trips), ∀ (k1_h4 : k1_cond4 k1_t2 = 1#1), ∀ a, (k1_off19 i) a + S128x128.size a ≤ S212992x128.size a
  k1_off20_inb : ∀ (i : grid1.Coords) (k1_t2 : Fin k1_t2_loop.trips), ∀ (r : Fin 4), ∀ a, (k1_off20 i k1_t2 (BitVec.ofNat 32 r.val)) a + S128x128.size a ≤ S212992x128.size a
  k1_off21_inb : ∀ i : grid1.Coords, ∀ a, (k1_off21 i) a + S128x128.size a ≤ S212992x128.size a

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S13312x128.size a ≤ S212992x128.size a
  hwx2_0 : ∀ i : grid2.Coords, EltTy.bits .f32 = 32 ∨ (Rect.block (s := S212992x128) S13312x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S13x512.size a ≤ S13x8192.size a
  hwx2_1 : ∀ i : grid2.Coords, EltTy.bits .f32 = 32 ∨ (Rect.block (s := S13x8192) S13x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S13x1.size a ≤ S13x1.size a
  hwx2_2 : ∀ i : grid2.Coords, EltTy.bits .f32 = 32 ∨ (Rect.block (s := S13x1) S13x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S13x1.size a ≤ S13x1.size a
  hwx2_3 : ∀ i : grid2.Coords, EltTy.bits .f32 = 32 ∨ (Rect.block (s := S13x1) S13x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3341x512.size a ≤ S3341x16384.size a
  hwx2_4 : ∀ i : grid2.Coords, EltTy.bits .f32 = 32 ∨ (Rect.block (s := S3341x16384) S3341x512.size (cc2_transform_4 i) (hinb2_4 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S13312x128.size a ≤ S212992x128.size a
  hwx3_0 : ∀ i : grid3.Coords, EltTy.bits .f32 = 32 ∨ (Rect.block (s := S212992x128) S13312x128.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S13x512.size a ≤ S13x8192.size a
  hwx3_1 : ∀ i : grid3.Coords, EltTy.bits .f32 = 32 ∨ (Rect.block (s := S13x8192) S13x512.size (cc3_transform_2 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_3 i = cc3_transform_3 i'
  hinb3_2 : ∀ (i : grid3.Coords) a, (cc3_transform_3 i a + 1) * S13x1.size a ≤ S13x1.size a
  hwx3_2 : ∀ i : grid3.Coords, EltTy.bits .f32 = 32 ∨ (Rect.block (s := S13x1) S13x1.size (cc3_transform_3 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_4 i = cc3_transform_4 i'
  hinb3_3 : ∀ (i : grid3.Coords) a, (cc3_transform_4 i a + 1) * S13x1.size a ≤ S13x1.size a
  hwx3_3 : ∀ i : grid3.Coords, EltTy.bits .f32 = 32 ∨ (Rect.block (s := S13x1) S13x1.size (cc3_transform_4 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_5 i = cc3_transform_5 i'
  hinb3_4 : ∀ (i : grid3.Coords) a, (cc3_transform_5 i a + 1) * S3341x512.size a ≤ S3341x16384.size a
  hwx3_4 : ∀ i : grid3.Coords, EltTy.bits .f32 = 32 ∨ (Rect.block (s := S3341x16384) S3341x512.size (cc3_transform_5 i) (hinb3_4 i)).WholeWords (EltTy.packing .f32)

class Shapes1.Facts₀ : Prop where
  shapeCasts_S26x1000x128_S26000x128 : S26x1000x128.ShapeCasts S26000x128
  transposes_S16384x13_S13x16384_1_0 : S16384x13.Transposes [1, 0] S13x16384
  shapeCasts_S13_S13x1 : S13.ShapeCasts S13x1
  slices_S16384x26_S8192x26_0_0 : S16384x26.Slices ![0, 0] S8192x26
  shapeCasts_S8192x26_S212992 : S8192x26.ShapeCasts S212992
  iota_S16_d0_w32_scVector : S16.Iotas .scVector 32 [0]
  h_S6656 : 0 < S6656.numel
  h_S16 : 0 < S16.numel
  inb_S26000x128_S26000x128_0_0 : ∀ a, (![0, 0] : Fin 2 → Nat) a + S26000x128.size a ≤ S26000x128.size a
  gathers_S26000x128_S128x128 : S26000x128.Gathers 0 S128x128
  slices_S16384x26_S8192x26_8192_0 : S16384x26.Slices ![8192, 0] S8192x26
  slices_S13x16384_S13x8192_0_0 : S13x16384.Slices ![0, 0] S13x8192
  inb_S13312x128_S8x128_0_0 : ∀ a, (![0, 0] : Fin 2 → Nat) a + S8x128.size a ≤ S13312x128.size a
  h_S8x128 : 0 < S8x128.numel
  shapeCasts_S8x128_S8x128 : S8x128.ShapeCasts S8x128
  inb_S13312x128_S8x128_208_0 : ∀ a, (![208, 0] : Fin 2 → Nat) a + S8x128.size a ≤ S13312x128.size a
  inb_S13312x128_S8x128_416_0 : ∀ a, (![416, 0] : Fin 2 → Nat) a + S8x128.size a ≤ S13312x128.size a
  inb_S13312x128_S8x128_624_0 : ∀ a, (![624, 0] : Fin 2 → Nat) a + S8x128.size a ≤ S13312x128.size a
  inb_S13312x128_S8x128_832_0 : ∀ a, (![832, 0] : Fin 2 → Nat) a + S8x128.size a ≤ S13312x128.size a
  inb_S13312x128_S8x128_1040_0 : ∀ a, (![1040, 0] : Fin 2 → Nat) a + S8x128.size a ≤ S13312x128.size a
  inb_S13312x128_S8x128_1248_0 : ∀ a, (![1248, 0] : Fin 2 → Nat) a + S8x128.size a ≤ S13312x128.size a
  inb_S13312x128_S8x128_1456_0 : ∀ a, (![1456, 0] : Fin 2 → Nat) a + S8x128.size a ≤ S13312x128.size a
  inb_S13312x128_S8x128_1664_0 : ∀ a, (![1664, 0] : Fin 2 → Nat) a + S8x128.size a ≤ S13312x128.size a
  inb_S13312x128_S8x128_1872_0 : ∀ a, (![1872, 0] : Fin 2 → Nat) a + S8x128.size a ≤ S13312x128.size a
  inb_S13312x128_S8x128_2080_0 : ∀ a, (![2080, 0] : Fin 2 → Nat) a + S8x128.size a ≤ S13312x128.size a
  inb_S13312x128_S8x128_2288_0 : ∀ a, (![2288, 0] : Fin 2 → Nat) a + S8x128.size a ≤ S13312x128.size a
  inb_S13312x128_S8x128_2496_0 : ∀ a, (![2496, 0] : Fin 2 → Nat) a + S8x128.size a ≤ S13312x128.size a
  inb_S13312x128_S8x128_2704_0 : ∀ a, (![2704, 0] : Fin 2 → Nat) a + S8x128.size a ≤ S13312x128.size a
  inb_S13312x128_S8x128_2912_0 : ∀ a, (![2912, 0] : Fin 2 → Nat) a + S8x128.size a ≤ S13312x128.size a
  inb_S13312x128_S8x128_3120_0 : ∀ a, (![3120, 0] : Fin 2 → Nat) a + S8x128.size a ≤ S13312x128.size a
  inb_S13312x128_S8x128_3328_0 : ∀ a, (![3328, 0] : Fin 2 → Nat) a + S8x128.size a ≤ S13312x128.size a
  inb_S13312x128_S8x128_3536_0 : ∀ a, (![3536, 0] : Fin 2 → Nat) a + S8x128.size a ≤ S13312x128.size a
  inb_S13312x128_S8x128_3744_0 : ∀ a, (![3744, 0] : Fin 2 → Nat) a + S8x128.size a ≤ S13312x128.size a
  inb_S13312x128_S8x128_3952_0 : ∀ a, (![3952, 0] : Fin 2 → Nat) a + S8x128.size a ≤ S13312x128.size a
  inb_S13312x128_S8x128_4160_0 : ∀ a, (![4160, 0] : Fin 2 → Nat) a + S8x128.size a ≤ S13312x128.size a
  inb_S13312x128_S8x128_4368_0 : ∀ a, (![4368, 0] : Fin 2 → Nat) a + S8x128.size a ≤ S13312x128.size a
  inb_S13312x128_S8x128_4576_0 : ∀ a, (![4576, 0] : Fin 2 → Nat) a + S8x128.size a ≤ S13312x128.size a
  inb_S13312x128_S8x128_4784_0 : ∀ a, (![4784, 0] : Fin 2 → Nat) a + S8x128.size a ≤ S13312x128.size a
  inb_S13312x128_S8x128_4992_0 : ∀ a, (![4992, 0] : Fin 2 → Nat) a + S8x128.size a ≤ S13312x128.size a
  inb_S13312x128_S8x128_5200_0 : ∀ a, (![5200, 0] : Fin 2 → Nat) a + S8x128.size a ≤ S13312x128.size a
  inb_S13312x128_S8x128_5408_0 : ∀ a, (![5408, 0] : Fin 2 → Nat) a + S8x128.size a ≤ S13312x128.size a
  inb_S13312x128_S8x128_5616_0 : ∀ a, (![5616, 0] : Fin 2 → Nat) a + S8x128.size a ≤ S13312x128.size a
  inb_S13312x128_S8x128_5824_0 : ∀ a, (![5824, 0] : Fin 2 → Nat) a + S8x128.size a ≤ S13312x128.size a
  inb_S13312x128_S8x128_6032_0 : ∀ a, (![6032, 0] : Fin 2 → Nat) a + S8x128.size a ≤ S13312x128.size a
  inb_S13312x128_S8x128_6240_0 : ∀ a, (![6240, 0] : Fin 2 → Nat) a + S8x128.size a ≤ S13312x128.size a
  inb_S13312x128_S8x128_6448_0 : ∀ a, (![6448, 0] : Fin 2 → Nat) a + S8x128.size a ≤ S13312x128.size a
  inb_S13312x128_S8x128_6656_0 : ∀ a, (![6656, 0] : Fin 2 → Nat) a + S8x128.size a ≤ S13312x128.size a
  inb_S13312x128_S8x128_6864_0 : ∀ a, (![6864, 0] : Fin 2 → Nat) a + S8x128.size a ≤ S13312x128.size a
  inb_S13312x128_S8x128_7072_0 : ∀ a, (![7072, 0] : Fin 2 → Nat) a + S8x128.size a ≤ S13312x128.size a
  inb_S13312x128_S8x128_7280_0 : ∀ a, (![7280, 0] : Fin 2 → Nat) a + S8x128.size a ≤ S13312x128.size a
  inb_S13312x128_S8x128_7488_0 : ∀ a, (![7488, 0] : Fin 2 → Nat) a + S8x128.size a ≤ S13312x128.size a
  inb_S13312x128_S8x128_7696_0 : ∀ a, (![7696, 0] : Fin 2 → Nat) a + S8x128.size a ≤ S13312x128.size a
  inb_S13312x128_S8x128_7904_0 : ∀ a, (![7904, 0] : Fin 2 → Nat) a + S8x128.size a ≤ S13312x128.size a
  inb_S13312x128_S8x128_8112_0 : ∀ a, (![8112, 0] : Fin 2 → Nat) a + S8x128.size a ≤ S13312x128.size a
  inb_S13312x128_S8x128_8320_0 : ∀ a, (![8320, 0] : Fin 2 → Nat) a + S8x128.size a ≤ S13312x128.size a
  inb_S13312x128_S8x128_8528_0 : ∀ a, (![8528, 0] : Fin 2 → Nat) a + S8x128.size a ≤ S13312x128.size a
  inb_S13312x128_S8x128_8736_0 : ∀ a, (![8736, 0] : Fin 2 → Nat) a + S8x128.size a ≤ S13312x128.size a
  inb_S13312x128_S8x128_8944_0 : ∀ a, (![8944, 0] : Fin 2 → Nat) a + S8x128.size a ≤ S13312x128.size a
  inb_S13312x128_S8x128_9152_0 : ∀ a, (![9152, 0] : Fin 2 → Nat) a + S8x128.size a ≤ S13312x128.size a
  inb_S13312x128_S8x128_9360_0 : ∀ a, (![9360, 0] : Fin 2 → Nat) a + S8x128.size a ≤ S13312x128.size a
  inb_S13312x128_S8x128_9568_0 : ∀ a, (![9568, 0] : Fin 2 → Nat) a + S8x128.size a ≤ S13312x128.size a
  inb_S13312x128_S8x128_9776_0 : ∀ a, (![9776, 0] : Fin 2 → Nat) a + S8x128.size a ≤ S13312x128.size a
  inb_S13312x128_S8x128_9984_0 : ∀ a, (![9984, 0] : Fin 2 → Nat) a + S8x128.size a ≤ S13312x128.size a
  inb_S13312x128_S8x128_10192_0 : ∀ a, (![10192, 0] : Fin 2 → Nat) a + S8x128.size a ≤ S13312x128.size a
  inb_S13312x128_S8x128_10400_0 : ∀ a, (![10400, 0] : Fin 2 → Nat) a + S8x128.size a ≤ S13312x128.size a
  inb_S13312x128_S8x128_10608_0 : ∀ a, (![10608, 0] : Fin 2 → Nat) a + S8x128.size a ≤ S13312x128.size a
  inb_S13312x128_S8x128_10816_0 : ∀ a, (![10816, 0] : Fin 2 → Nat) a + S8x128.size a ≤ S13312x128.size a
  inb_S13312x128_S8x128_11024_0 : ∀ a, (![11024, 0] : Fin 2 → Nat) a + S8x128.size a ≤ S13312x128.size a
  inb_S13312x128_S8x128_11232_0 : ∀ a, (![11232, 0] : Fin 2 → Nat) a + S8x128.size a ≤ S13312x128.size a
  inb_S13312x128_S8x128_11440_0 : ∀ a, (![11440, 0] : Fin 2 → Nat) a + S8x128.size a ≤ S13312x128.size a
  inb_S13312x128_S8x128_11648_0 : ∀ a, (![11648, 0] : Fin 2 → Nat) a + S8x128.size a ≤ S13312x128.size a
  inb_S13312x128_S8x128_11856_0 : ∀ a, (![11856, 0] : Fin 2 → Nat) a + S8x128.size a ≤ S13312x128.size a
  inb_S13312x128_S8x128_12064_0 : ∀ a, (![12064, 0] : Fin 2 → Nat) a + S8x128.size a ≤ S13312x128.size a
  inb_S13312x128_S8x128_12272_0 : ∀ a, (![12272, 0] : Fin 2 → Nat) a + S8x128.size a ≤ S13312x128.size a
  inb_S13312x128_S8x128_12480_0 : ∀ a, (![12480, 0] : Fin 2 → Nat) a + S8x128.size a ≤ S13312x128.size a
  inb_S13312x128_S8x128_12688_0 : ∀ a, (![12688, 0] : Fin 2 → Nat) a + S8x128.size a ≤ S13312x128.size a
  inb_S13312x128_S8x128_12896_0 : ∀ a, (![12896, 0] : Fin 2 → Nat) a + S8x128.size a ≤ S13312x128.size a
  inb_S13312x128_S8x128_13104_0 : ∀ a, (![13104, 0] : Fin 2 → Nat) a + S8x128.size a ≤ S13312x128.size a
  concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S512x128_d0 : Shape.Concatenates (S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: []) S512x128 0
  transposes_S512x128_p1_0_S128x512 : S512x128.Transposes [1, 0] S128x512
  inb_S3341x512_S128x512_0_0 : ∀ a, (![0, 0] : Fin 2 → Nat) a + S128x512.size a ≤ S3341x512.size a
  h_S128x512 : 0 < S128x512.numel
  inb_S13312x128_S8x128_8_0 : ∀ a, (![8, 0] : Fin 2 → Nat) a + S8x128.size a ≤ S13312x128.size a
  inb_S13312x128_S8x128_216_0 : ∀ a, (![216, 0] : Fin 2 → Nat) a + S8x128.size a ≤ S13312x128.size a
  inb_S13312x128_S8x128_424_0 : ∀ a, (![424, 0] : Fin 2 → Nat) a + S8x128.size a ≤ S13312x128.size a
  inb_S13312x128_S8x128_632_0 : ∀ a, (![632, 0] : Fin 2 → Nat) a + S8x128.size a ≤ S13312x128.size a
  inb_S13312x128_S8x128_840_0 : ∀ a, (![840, 0] : Fin 2 → Nat) a + S8x128.size a ≤ S13312x128.size a
  inb_S13312x128_S8x128_1048_0 : ∀ a, (![1048, 0] : Fin 2 → Nat) a + S8x128.size a ≤ S13312x128.size a
  inb_S13312x128_S8x128_1256_0 : ∀ a, (![1256, 0] : Fin 2 → Nat) a + S8x128.size a ≤ S13312x128.size a
  inb_S13312x128_S8x128_1464_0 : ∀ a, (![1464, 0] : Fin 2 → Nat) a + S8x128.size a ≤ S13312x128.size a
  inb_S13312x128_S8x128_1672_0 : ∀ a, (![1672, 0] : Fin 2 → Nat) a + S8x128.size a ≤ S13312x128.size a
  inb_S13312x128_S8x128_1880_0 : ∀ a, (![1880, 0] : Fin 2 → Nat) a + S8x128.size a ≤ S13312x128.size a
  inb_S13312x128_S8x128_2088_0 : ∀ a, (![2088, 0] : Fin 2 → Nat) a + S8x128.size a ≤ S13312x128.size a
  inb_S13312x128_S8x128_2296_0 : ∀ a, (![2296, 0] : Fin 2 → Nat) a + S8x128.size a ≤ S13312x128.size a
  inb_S13312x128_S8x128_2504_0 : ∀ a, (![2504, 0] : Fin 2 → Nat) a + S8x128.size a ≤ S13312x128.size a
  inb_S13312x128_S8x128_2712_0 : ∀ a, (![2712, 0] : Fin 2 → Nat) a + S8x128.size a ≤ S13312x128.size a
  inb_S13312x128_S8x128_2920_0 : ∀ a, (![2920, 0] : Fin 2 → Nat) a + S8x128.size a ≤ S13312x128.size a
  inb_S13312x128_S8x128_3128_0 : ∀ a, (![3128, 0] : Fin 2 → Nat) a + S8x128.size a ≤ S13312x128.size a
  inb_S13312x128_S8x128_3336_0 : ∀ a, (![3336, 0] : Fin 2 → Nat) a + S8x128.size a ≤ S13312x128.size a
  inb_S13312x128_S8x128_3544_0 : ∀ a, (![3544, 0] : Fin 2 → Nat) a + S8x128.size a ≤ S13312x128.size a
  inb_S13312x128_S8x128_3752_0 : ∀ a, (![3752, 0] : Fin 2 → Nat) a + S8x128.size a ≤ S13312x128.size a
  inb_S13312x128_S8x128_3960_0 : ∀ a, (![3960, 0] : Fin 2 → Nat) a + S8x128.size a ≤ S13312x128.size a
  inb_S13312x128_S8x128_4168_0 : ∀ a, (![4168, 0] : Fin 2 → Nat) a + S8x128.size a ≤ S13312x128.size a
  inb_S13312x128_S8x128_4376_0 : ∀ a, (![4376, 0] : Fin 2 → Nat) a + S8x128.size a ≤ S13312x128.size a
  inb_S13312x128_S8x128_4584_0 : ∀ a, (![4584, 0] : Fin 2 → Nat) a + S8x128.size a ≤ S13312x128.size a
  inb_S13312x128_S8x128_4792_0 : ∀ a, (![4792, 0] : Fin 2 → Nat) a + S8x128.size a ≤ S13312x128.size a
  inb_S13312x128_S8x128_5000_0 : ∀ a, (![5000, 0] : Fin 2 → Nat) a + S8x128.size a ≤ S13312x128.size a
  inb_S13312x128_S8x128_5208_0 : ∀ a, (![5208, 0] : Fin 2 → Nat) a + S8x128.size a ≤ S13312x128.size a
  inb_S13312x128_S8x128_5416_0 : ∀ a, (![5416, 0] : Fin 2 → Nat) a + S8x128.size a ≤ S13312x128.size a
  inb_S13312x128_S8x128_5624_0 : ∀ a, (![5624, 0] : Fin 2 → Nat) a + S8x128.size a ≤ S13312x128.size a
  inb_S13312x128_S8x128_5832_0 : ∀ a, (![5832, 0] : Fin 2 → Nat) a + S8x128.size a ≤ S13312x128.size a
  inb_S13312x128_S8x128_6040_0 : ∀ a, (![6040, 0] : Fin 2 → Nat) a + S8x128.size a ≤ S13312x128.size a
  inb_S13312x128_S8x128_6248_0 : ∀ a, (![6248, 0] : Fin 2 → Nat) a + S8x128.size a ≤ S13312x128.size a
  inb_S13312x128_S8x128_6456_0 : ∀ a, (![6456, 0] : Fin 2 → Nat) a + S8x128.size a ≤ S13312x128.size a
  inb_S13312x128_S8x128_6664_0 : ∀ a, (![6664, 0] : Fin 2 → Nat) a + S8x128.size a ≤ S13312x128.size a
  inb_S13312x128_S8x128_6872_0 : ∀ a, (![6872, 0] : Fin 2 → Nat) a + S8x128.size a ≤ S13312x128.size a
  inb_S13312x128_S8x128_7080_0 : ∀ a, (![7080, 0] : Fin 2 → Nat) a + S8x128.size a ≤ S13312x128.size a
  inb_S13312x128_S8x128_7288_0 : ∀ a, (![7288, 0] : Fin 2 → Nat) a + S8x128.size a ≤ S13312x128.size a
  inb_S13312x128_S8x128_7496_0 : ∀ a, (![7496, 0] : Fin 2 → Nat) a + S8x128.size a ≤ S13312x128.size a
  inb_S13312x128_S8x128_7704_0 : ∀ a, (![7704, 0] : Fin 2 → Nat) a + S8x128.size a ≤ S13312x128.size a
  inb_S13312x128_S8x128_7912_0 : ∀ a, (![7912, 0] : Fin 2 → Nat) a + S8x128.size a ≤ S13312x128.size a
  inb_S13312x128_S8x128_8120_0 : ∀ a, (![8120, 0] : Fin 2 → Nat) a + S8x128.size a ≤ S13312x128.size a
  inb_S13312x128_S8x128_8328_0 : ∀ a, (![8328, 0] : Fin 2 → Nat) a + S8x128.size a ≤ S13312x128.size a
  inb_S13312x128_S8x128_8536_0 : ∀ a, (![8536, 0] : Fin 2 → Nat) a + S8x128.size a ≤ S13312x128.size a
  inb_S13312x128_S8x128_8744_0 : ∀ a, (![8744, 0] : Fin 2 → Nat) a + S8x128.size a ≤ S13312x128.size a
  inb_S13312x128_S8x128_8952_0 : ∀ a, (![8952, 0] : Fin 2 → Nat) a + S8x128.size a ≤ S13312x128.size a
  inb_S13312x128_S8x128_9160_0 : ∀ a, (![9160, 0] : Fin 2 → Nat) a + S8x128.size a ≤ S13312x128.size a
  inb_S13312x128_S8x128_9368_0 : ∀ a, (![9368, 0] : Fin 2 → Nat) a + S8x128.size a ≤ S13312x128.size a
  inb_S13312x128_S8x128_9576_0 : ∀ a, (![9576, 0] : Fin 2 → Nat) a + S8x128.size a ≤ S13312x128.size a
  inb_S13312x128_S8x128_9784_0 : ∀ a, (![9784, 0] : Fin 2 → Nat) a + S8x128.size a ≤ S13312x128.size a
  inb_S13312x128_S8x128_9992_0 : ∀ a, (![9992, 0] : Fin 2 → Nat) a + S8x128.size a ≤ S13312x128.size a
  inb_S13312x128_S8x128_10200_0 : ∀ a, (![10200, 0] : Fin 2 → Nat) a + S8x128.size a ≤ S13312x128.size a
  inb_S13312x128_S8x128_10408_0 : ∀ a, (![10408, 0] : Fin 2 → Nat) a + S8x128.size a ≤ S13312x128.size a
  inb_S13312x128_S8x128_10616_0 : ∀ a, (![10616, 0] : Fin 2 → Nat) a + S8x128.size a ≤ S13312x128.size a
  inb_S13312x128_S8x128_10824_0 : ∀ a, (![10824, 0] : Fin 2 → Nat) a + S8x128.size a ≤ S13312x128.size a
  inb_S13312x128_S8x128_11032_0 : ∀ a, (![11032, 0] : Fin 2 → Nat) a + S8x128.size a ≤ S13312x128.size a
  inb_S13312x128_S8x128_11240_0 : ∀ a, (![11240, 0] : Fin 2 → Nat) a + S8x128.size a ≤ S13312x128.size a
  inb_S13312x128_S8x128_11448_0 : ∀ a, (![11448, 0] : Fin 2 → Nat) a + S8x128.size a ≤ S13312x128.size a
  inb_S13312x128_S8x128_11656_0 : ∀ a, (![11656, 0] : Fin 2 → Nat) a + S8x128.size a ≤ S13312x128.size a
  inb_S13312x128_S8x128_11864_0 : ∀ a, (![11864, 0] : Fin 2 → Nat) a + S8x128.size a ≤ S13312x128.size a
  inb_S13312x128_S8x128_12072_0 : ∀ a, (![12072, 0] : Fin 2 → Nat) a + S8x128.size a ≤ S13312x128.size a
  inb_S13312x128_S8x128_12280_0 : ∀ a, (![12280, 0] : Fin 2 → Nat) a + S8x128.size a ≤ S13312x128.size a
  inb_S13312x128_S8x128_12488_0 : ∀ a, (![12488, 0] : Fin 2 → Nat) a + S8x128.size a ≤ S13312x128.size a
  inb_S13312x128_S8x128_12696_0 : ∀ a, (![12696, 0] : Fin 2 → Nat) a + S8x128.size a ≤ S13312x128.size a
  inb_S13312x128_S8x128_12904_0 : ∀ a, (![12904, 0] : Fin 2 → Nat) a + S8x128.size a ≤ S13312x128.size a
  inb_S13312x128_S8x128_13112_0 : ∀ a, (![13112, 0] : Fin 2 → Nat) a + S8x128.size a ≤ S13312x128.size a
  inb_S3341x512_S128x512_128_0 : ∀ a, (![128, 0] : Fin 2 → Nat) a + S128x512.size a ≤ S3341x512.size a
  inb_S13312x128_S8x128_16_0 : ∀ a, (![16, 0] : Fin 2 → Nat) a + S8x128.size a ≤ S13312x128.size a
  inb_S13312x128_S8x128_224_0 : ∀ a, (![224, 0] : Fin 2 → Nat) a + S8x128.size a ≤ S13312x128.size a
  inb_S13312x128_S8x128_432_0 : ∀ a, (![432, 0] : Fin 2 → Nat) a + S8x128.size a ≤ S13312x128.size a
  inb_S13312x128_S8x128_640_0 : ∀ a, (![640, 0] : Fin 2 → Nat) a + S8x128.size a ≤ S13312x128.size a
  inb_S13312x128_S8x128_848_0 : ∀ a, (![848, 0] : Fin 2 → Nat) a + S8x128.size a ≤ S13312x128.size a
  inb_S13312x128_S8x128_1056_0 : ∀ a, (![1056, 0] : Fin 2 → Nat) a + S8x128.size a ≤ S13312x128.size a
  inb_S13312x128_S8x128_1264_0 : ∀ a, (![1264, 0] : Fin 2 → Nat) a + S8x128.size a ≤ S13312x128.size a
  inb_S13312x128_S8x128_1472_0 : ∀ a, (![1472, 0] : Fin 2 → Nat) a + S8x128.size a ≤ S13312x128.size a
  inb_S13312x128_S8x128_1680_0 : ∀ a, (![1680, 0] : Fin 2 → Nat) a + S8x128.size a ≤ S13312x128.size a
  inb_S13312x128_S8x128_1888_0 : ∀ a, (![1888, 0] : Fin 2 → Nat) a + S8x128.size a ≤ S13312x128.size a
  inb_S13312x128_S8x128_2096_0 : ∀ a, (![2096, 0] : Fin 2 → Nat) a + S8x128.size a ≤ S13312x128.size a
  inb_S13312x128_S8x128_2304_0 : ∀ a, (![2304, 0] : Fin 2 → Nat) a + S8x128.size a ≤ S13312x128.size a
  inb_S13312x128_S8x128_2512_0 : ∀ a, (![2512, 0] : Fin 2 → Nat) a + S8x128.size a ≤ S13312x128.size a
  inb_S13312x128_S8x128_2720_0 : ∀ a, (![2720, 0] : Fin 2 → Nat) a + S8x128.size a ≤ S13312x128.size a
  inb_S13312x128_S8x128_2928_0 : ∀ a, (![2928, 0] : Fin 2 → Nat) a + S8x128.size a ≤ S13312x128.size a
  inb_S13312x128_S8x128_3136_0 : ∀ a, (![3136, 0] : Fin 2 → Nat) a + S8x128.size a ≤ S13312x128.size a
  inb_S13312x128_S8x128_3344_0 : ∀ a, (![3344, 0] : Fin 2 → Nat) a + S8x128.size a ≤ S13312x128.size a
  inb_S13312x128_S8x128_3552_0 : ∀ a, (![3552, 0] : Fin 2 → Nat) a + S8x128.size a ≤ S13312x128.size a
  inb_S13312x128_S8x128_3760_0 : ∀ a, (![3760, 0] : Fin 2 → Nat) a + S8x128.size a ≤ S13312x128.size a
  inb_S13312x128_S8x128_3968_0 : ∀ a, (![3968, 0] : Fin 2 → Nat) a + S8x128.size a ≤ S13312x128.size a
  inb_S13312x128_S8x128_4176_0 : ∀ a, (![4176, 0] : Fin 2 → Nat) a + S8x128.size a ≤ S13312x128.size a
  inb_S13312x128_S8x128_4384_0 : ∀ a, (![4384, 0] : Fin 2 → Nat) a + S8x128.size a ≤ S13312x128.size a
  inb_S13312x128_S8x128_4592_0 : ∀ a, (![4592, 0] : Fin 2 → Nat) a + S8x128.size a ≤ S13312x128.size a
  inb_S13312x128_S8x128_4800_0 : ∀ a, (![4800, 0] : Fin 2 → Nat) a + S8x128.size a ≤ S13312x128.size a
  inb_S13312x128_S8x128_5008_0 : ∀ a, (![5008, 0] : Fin 2 → Nat) a + S8x128.size a ≤ S13312x128.size a
  inb_S13312x128_S8x128_5216_0 : ∀ a, (![5216, 0] : Fin 2 → Nat) a + S8x128.size a ≤ S13312x128.size a
  inb_S13312x128_S8x128_5424_0 : ∀ a, (![5424, 0] : Fin 2 → Nat) a + S8x128.size a ≤ S13312x128.size a
  inb_S13312x128_S8x128_5632_0 : ∀ a, (![5632, 0] : Fin 2 → Nat) a + S8x128.size a ≤ S13312x128.size a
  inb_S13312x128_S8x128_5840_0 : ∀ a, (![5840, 0] : Fin 2 → Nat) a + S8x128.size a ≤ S13312x128.size a
  inb_S13312x128_S8x128_6048_0 : ∀ a, (![6048, 0] : Fin 2 → Nat) a + S8x128.size a ≤ S13312x128.size a
  inb_S13312x128_S8x128_6256_0 : ∀ a, (![6256, 0] : Fin 2 → Nat) a + S8x128.size a ≤ S13312x128.size a
  inb_S13312x128_S8x128_6464_0 : ∀ a, (![6464, 0] : Fin 2 → Nat) a + S8x128.size a ≤ S13312x128.size a
  inb_S13312x128_S8x128_6672_0 : ∀ a, (![6672, 0] : Fin 2 → Nat) a + S8x128.size a ≤ S13312x128.size a
  inb_S13312x128_S8x128_6880_0 : ∀ a, (![6880, 0] : Fin 2 → Nat) a + S8x128.size a ≤ S13312x128.size a
  inb_S13312x128_S8x128_7088_0 : ∀ a, (![7088, 0] : Fin 2 → Nat) a + S8x128.size a ≤ S13312x128.size a
  inb_S13312x128_S8x128_7296_0 : ∀ a, (![7296, 0] : Fin 2 → Nat) a + S8x128.size a ≤ S13312x128.size a
  inb_S13312x128_S8x128_7504_0 : ∀ a, (![7504, 0] : Fin 2 → Nat) a + S8x128.size a ≤ S13312x128.size a
  inb_S13312x128_S8x128_7712_0 : ∀ a, (![7712, 0] : Fin 2 → Nat) a + S8x128.size a ≤ S13312x128.size a
  inb_S13312x128_S8x128_7920_0 : ∀ a, (![7920, 0] : Fin 2 → Nat) a + S8x128.size a ≤ S13312x128.size a
  inb_S13312x128_S8x128_8128_0 : ∀ a, (![8128, 0] : Fin 2 → Nat) a + S8x128.size a ≤ S13312x128.size a
  inb_S13312x128_S8x128_8336_0 : ∀ a, (![8336, 0] : Fin 2 → Nat) a + S8x128.size a ≤ S13312x128.size a
  inb_S13312x128_S8x128_8544_0 : ∀ a, (![8544, 0] : Fin 2 → Nat) a + S8x128.size a ≤ S13312x128.size a
  inb_S13312x128_S8x128_8752_0 : ∀ a, (![8752, 0] : Fin 2 → Nat) a + S8x128.size a ≤ S13312x128.size a
  inb_S13312x128_S8x128_8960_0 : ∀ a, (![8960, 0] : Fin 2 → Nat) a + S8x128.size a ≤ S13312x128.size a
  inb_S13312x128_S8x128_9168_0 : ∀ a, (![9168, 0] : Fin 2 → Nat) a + S8x128.size a ≤ S13312x128.size a
  inb_S13312x128_S8x128_9376_0 : ∀ a, (![9376, 0] : Fin 2 → Nat) a + S8x128.size a ≤ S13312x128.size a
  inb_S13312x128_S8x128_9584_0 : ∀ a, (![9584, 0] : Fin 2 → Nat) a + S8x128.size a ≤ S13312x128.size a
  inb_S13312x128_S8x128_9792_0 : ∀ a, (![9792, 0] : Fin 2 → Nat) a + S8x128.size a ≤ S13312x128.size a
  inb_S13312x128_S8x128_10000_0 : ∀ a, (![10000, 0] : Fin 2 → Nat) a + S8x128.size a ≤ S13312x128.size a
  inb_S13312x128_S8x128_10208_0 : ∀ a, (![10208, 0] : Fin 2 → Nat) a + S8x128.size a ≤ S13312x128.size a
  inb_S13312x128_S8x128_10416_0 : ∀ a, (![10416, 0] : Fin 2 → Nat) a + S8x128.size a ≤ S13312x128.size a
  inb_S13312x128_S8x128_10624_0 : ∀ a, (![10624, 0] : Fin 2 → Nat) a + S8x128.size a ≤ S13312x128.size a
  inb_S13312x128_S8x128_10832_0 : ∀ a, (![10832, 0] : Fin 2 → Nat) a + S8x128.size a ≤ S13312x128.size a
  inb_S13312x128_S8x128_11040_0 : ∀ a, (![11040, 0] : Fin 2 → Nat) a + S8x128.size a ≤ S13312x128.size a
  inb_S13312x128_S8x128_11248_0 : ∀ a, (![11248, 0] : Fin 2 → Nat) a + S8x128.size a ≤ S13312x128.size a
  inb_S13312x128_S8x128_11456_0 : ∀ a, (![11456, 0] : Fin 2 → Nat) a + S8x128.size a ≤ S13312x128.size a
  inb_S13312x128_S8x128_11664_0 : ∀ a, (![11664, 0] : Fin 2 → Nat) a + S8x128.size a ≤ S13312x128.size a
  inb_S13312x128_S8x128_11872_0 : ∀ a, (![11872, 0] : Fin 2 → Nat) a + S8x128.size a ≤ S13312x128.size a
  inb_S13312x128_S8x128_12080_0 : ∀ a, (![12080, 0] : Fin 2 → Nat) a + S8x128.size a ≤ S13312x128.size a
  inb_S13312x128_S8x128_12288_0 : ∀ a, (![12288, 0] : Fin 2 → Nat) a + S8x128.size a ≤ S13312x128.size a
  inb_S13312x128_S8x128_12496_0 : ∀ a, (![12496, 0] : Fin 2 → Nat) a + S8x128.size a ≤ S13312x128.size a
  inb_S13312x128_S8x128_12704_0 : ∀ a, (![12704, 0] : Fin 2 → Nat) a + S8x128.size a ≤ S13312x128.size a
  inb_S13312x128_S8x128_12912_0 : ∀ a, (![12912, 0] : Fin 2 → Nat) a + S8x128.size a ≤ S13312x128.size a
  inb_S13312x128_S8x128_13120_0 : ∀ a, (![13120, 0] : Fin 2 → Nat) a + S8x128.size a ≤ S13312x128.size a
  inb_S3341x512_S128x512_256_0 : ∀ a, (![256, 0] : Fin 2 → Nat) a + S128x512.size a ≤ S3341x512.size a
  inb_S13312x128_S8x128_24_0 : ∀ a, (![24, 0] : Fin 2 → Nat) a + S8x128.size a ≤ S13312x128.size a
  inb_S13312x128_S8x128_232_0 : ∀ a, (![232, 0] : Fin 2 → Nat) a + S8x128.size a ≤ S13312x128.size a
  inb_S13312x128_S8x128_440_0 : ∀ a, (![440, 0] : Fin 2 → Nat) a + S8x128.size a ≤ S13312x128.size a
  inb_S13312x128_S8x128_648_0 : ∀ a, (![648, 0] : Fin 2 → Nat) a + S8x128.size a ≤ S13312x128.size a
  inb_S13312x128_S8x128_856_0 : ∀ a, (![856, 0] : Fin 2 → Nat) a + S8x128.size a ≤ S13312x128.size a
  inb_S13312x128_S8x128_1064_0 : ∀ a, (![1064, 0] : Fin 2 → Nat) a + S8x128.size a ≤ S13312x128.size a
  inb_S13312x128_S8x128_1272_0 : ∀ a, (![1272, 0] : Fin 2 → Nat) a + S8x128.size a ≤ S13312x128.size a
  inb_S13312x128_S8x128_1480_0 : ∀ a, (![1480, 0] : Fin 2 → Nat) a + S8x128.size a ≤ S13312x128.size a
  inb_S13312x128_S8x128_1688_0 : ∀ a, (![1688, 0] : Fin 2 → Nat) a + S8x128.size a ≤ S13312x128.size a
  inb_S13312x128_S8x128_1896_0 : ∀ a, (![1896, 0] : Fin 2 → Nat) a + S8x128.size a ≤ S13312x128.size a
  inb_S13312x128_S8x128_2104_0 : ∀ a, (![2104, 0] : Fin 2 → Nat) a + S8x128.size a ≤ S13312x128.size a
  inb_S13312x128_S8x128_2312_0 : ∀ a, (![2312, 0] : Fin 2 → Nat) a + S8x128.size a ≤ S13312x128.size a
  inb_S13312x128_S8x128_2520_0 : ∀ a, (![2520, 0] : Fin 2 → Nat) a + S8x128.size a ≤ S13312x128.size a
  inb_S13312x128_S8x128_2728_0 : ∀ a, (![2728, 0] : Fin 2 → Nat) a + S8x128.size a ≤ S13312x128.size a
  inb_S13312x128_S8x128_2936_0 : ∀ a, (![2936, 0] : Fin 2 → Nat) a + S8x128.size a ≤ S13312x128.size a
  inb_S13312x128_S8x128_3144_0 : ∀ a, (![3144, 0] : Fin 2 → Nat) a + S8x128.size a ≤ S13312x128.size a
  inb_S13312x128_S8x128_3352_0 : ∀ a, (![3352, 0] : Fin 2 → Nat) a + S8x128.size a ≤ S13312x128.size a
  inb_S13312x128_S8x128_3560_0 : ∀ a, (![3560, 0] : Fin 2 → Nat) a + S8x128.size a ≤ S13312x128.size a
  inb_S13312x128_S8x128_3768_0 : ∀ a, (![3768, 0] : Fin 2 → Nat) a + S8x128.size a ≤ S13312x128.size a
  inb_S13312x128_S8x128_3976_0 : ∀ a, (![3976, 0] : Fin 2 → Nat) a + S8x128.size a ≤ S13312x128.size a
  inb_S13312x128_S8x128_4184_0 : ∀ a, (![4184, 0] : Fin 2 → Nat) a + S8x128.size a ≤ S13312x128.size a
  inb_S13312x128_S8x128_4392_0 : ∀ a, (![4392, 0] : Fin 2 → Nat) a + S8x128.size a ≤ S13312x128.size a
  inb_S13312x128_S8x128_4600_0 : ∀ a, (![4600, 0] : Fin 2 → Nat) a + S8x128.size a ≤ S13312x128.size a
  inb_S13312x128_S8x128_4808_0 : ∀ a, (![4808, 0] : Fin 2 → Nat) a + S8x128.size a ≤ S13312x128.size a
  inb_S13312x128_S8x128_5016_0 : ∀ a, (![5016, 0] : Fin 2 → Nat) a + S8x128.size a ≤ S13312x128.size a
  inb_S13312x128_S8x128_5224_0 : ∀ a, (![5224, 0] : Fin 2 → Nat) a + S8x128.size a ≤ S13312x128.size a
  inb_S13312x128_S8x128_5432_0 : ∀ a, (![5432, 0] : Fin 2 → Nat) a + S8x128.size a ≤ S13312x128.size a
  inb_S13312x128_S8x128_5640_0 : ∀ a, (![5640, 0] : Fin 2 → Nat) a + S8x128.size a ≤ S13312x128.size a
  inb_S13312x128_S8x128_5848_0 : ∀ a, (![5848, 0] : Fin 2 → Nat) a + S8x128.size a ≤ S13312x128.size a
  inb_S13312x128_S8x128_6056_0 : ∀ a, (![6056, 0] : Fin 2 → Nat) a + S8x128.size a ≤ S13312x128.size a
  inb_S13312x128_S8x128_6264_0 : ∀ a, (![6264, 0] : Fin 2 → Nat) a + S8x128.size a ≤ S13312x128.size a
  inb_S13312x128_S8x128_6472_0 : ∀ a, (![6472, 0] : Fin 2 → Nat) a + S8x128.size a ≤ S13312x128.size a
  inb_S13312x128_S8x128_6680_0 : ∀ a, (![6680, 0] : Fin 2 → Nat) a + S8x128.size a ≤ S13312x128.size a
  inb_S13312x128_S8x128_6888_0 : ∀ a, (![6888, 0] : Fin 2 → Nat) a + S8x128.size a ≤ S13312x128.size a
  inb_S13312x128_S8x128_7096_0 : ∀ a, (![7096, 0] : Fin 2 → Nat) a + S8x128.size a ≤ S13312x128.size a
  inb_S13312x128_S8x128_7304_0 : ∀ a, (![7304, 0] : Fin 2 → Nat) a + S8x128.size a ≤ S13312x128.size a
  inb_S13312x128_S8x128_7512_0 : ∀ a, (![7512, 0] : Fin 2 → Nat) a + S8x128.size a ≤ S13312x128.size a
  inb_S13312x128_S8x128_7720_0 : ∀ a, (![7720, 0] : Fin 2 → Nat) a + S8x128.size a ≤ S13312x128.size a
  inb_S13312x128_S8x128_7928_0 : ∀ a, (![7928, 0] : Fin 2 → Nat) a + S8x128.size a ≤ S13312x128.size a
  inb_S13312x128_S8x128_8136_0 : ∀ a, (![8136, 0] : Fin 2 → Nat) a + S8x128.size a ≤ S13312x128.size a
  inb_S13312x128_S8x128_8344_0 : ∀ a, (![8344, 0] : Fin 2 → Nat) a + S8x128.size a ≤ S13312x128.size a
  inb_S13312x128_S8x128_8552_0 : ∀ a, (![8552, 0] : Fin 2 → Nat) a + S8x128.size a ≤ S13312x128.size a
  inb_S13312x128_S8x128_8760_0 : ∀ a, (![8760, 0] : Fin 2 → Nat) a + S8x128.size a ≤ S13312x128.size a
  inb_S13312x128_S8x128_8968_0 : ∀ a, (![8968, 0] : Fin 2 → Nat) a + S8x128.size a ≤ S13312x128.size a
  inb_S13312x128_S8x128_9176_0 : ∀ a, (![9176, 0] : Fin 2 → Nat) a + S8x128.size a ≤ S13312x128.size a
  inb_S13312x128_S8x128_9384_0 : ∀ a, (![9384, 0] : Fin 2 → Nat) a + S8x128.size a ≤ S13312x128.size a
  inb_S13312x128_S8x128_9592_0 : ∀ a, (![9592, 0] : Fin 2 → Nat) a + S8x128.size a ≤ S13312x128.size a
  inb_S13312x128_S8x128_9800_0 : ∀ a, (![9800, 0] : Fin 2 → Nat) a + S8x128.size a ≤ S13312x128.size a
  inb_S13312x128_S8x128_10008_0 : ∀ a, (![10008, 0] : Fin 2 → Nat) a + S8x128.size a ≤ S13312x128.size a
  inb_S13312x128_S8x128_10216_0 : ∀ a, (![10216, 0] : Fin 2 → Nat) a + S8x128.size a ≤ S13312x128.size a
  inb_S13312x128_S8x128_10424_0 : ∀ a, (![10424, 0] : Fin 2 → Nat) a + S8x128.size a ≤ S13312x128.size a
  inb_S13312x128_S8x128_10632_0 : ∀ a, (![10632, 0] : Fin 2 → Nat) a + S8x128.size a ≤ S13312x128.size a
  inb_S13312x128_S8x128_10840_0 : ∀ a, (![10840, 0] : Fin 2 → Nat) a + S8x128.size a ≤ S13312x128.size a
  inb_S13312x128_S8x128_11048_0 : ∀ a, (![11048, 0] : Fin 2 → Nat) a + S8x128.size a ≤ S13312x128.size a
  inb_S13312x128_S8x128_11256_0 : ∀ a, (![11256, 0] : Fin 2 → Nat) a + S8x128.size a ≤ S13312x128.size a
  inb_S13312x128_S8x128_11464_0 : ∀ a, (![11464, 0] : Fin 2 → Nat) a + S8x128.size a ≤ S13312x128.size a
  inb_S13312x128_S8x128_11672_0 : ∀ a, (![11672, 0] : Fin 2 → Nat) a + S8x128.size a ≤ S13312x128.size a
  inb_S13312x128_S8x128_11880_0 : ∀ a, (![11880, 0] : Fin 2 → Nat) a + S8x128.size a ≤ S13312x128.size a
  inb_S13312x128_S8x128_12088_0 : ∀ a, (![12088, 0] : Fin 2 → Nat) a + S8x128.size a ≤ S13312x128.size a
  inb_S13312x128_S8x128_12296_0 : ∀ a, (![12296, 0] : Fin 2 → Nat) a + S8x128.size a ≤ S13312x128.size a
  inb_S13312x128_S8x128_12504_0 : ∀ a, (![12504, 0] : Fin 2 → Nat) a + S8x128.size a ≤ S13312x128.size a
  inb_S13312x128_S8x128_12712_0 : ∀ a, (![12712, 0] : Fin 2 → Nat) a + S8x128.size a ≤ S13312x128.size a
  inb_S13312x128_S8x128_12920_0 : ∀ a, (![12920, 0] : Fin 2 → Nat) a + S8x128.size a ≤ S13312x128.size a
  inb_S13312x128_S8x128_13128_0 : ∀ a, (![13128, 0] : Fin 2 → Nat) a + S8x128.size a ≤ S13312x128.size a
  inb_S3341x512_S128x512_384_0 : ∀ a, (![384, 0] : Fin 2 → Nat) a + S128x512.size a ≤ S3341x512.size a
  inb_S13312x128_S8x128_32_0 : ∀ a, (![32, 0] : Fin 2 → Nat) a + S8x128.size a ≤ S13312x128.size a
  inb_S13312x128_S8x128_240_0 : ∀ a, (![240, 0] : Fin 2 → Nat) a + S8x128.size a ≤ S13312x128.size a
  inb_S13312x128_S8x128_448_0 : ∀ a, (![448, 0] : Fin 2 → Nat) a + S8x128.size a ≤ S13312x128.size a
  inb_S13312x128_S8x128_656_0 : ∀ a, (![656, 0] : Fin 2 → Nat) a + S8x128.size a ≤ S13312x128.size a
  inb_S13312x128_S8x128_864_0 : ∀ a, (![864, 0] : Fin 2 → Nat) a + S8x128.size a ≤ S13312x128.size a
  inb_S13312x128_S8x128_1072_0 : ∀ a, (![1072, 0] : Fin 2 → Nat) a + S8x128.size a ≤ S13312x128.size a
  inb_S13312x128_S8x128_1280_0 : ∀ a, (![1280, 0] : Fin 2 → Nat) a + S8x128.size a ≤ S13312x128.size a
  inb_S13312x128_S8x128_1488_0 : ∀ a, (![1488, 0] : Fin 2 → Nat) a + S8x128.size a ≤ S13312x128.size a
  inb_S13312x128_S8x128_1696_0 : ∀ a, (![1696, 0] : Fin 2 → Nat) a + S8x128.size a ≤ S13312x128.size a
  inb_S13312x128_S8x128_1904_0 : ∀ a, (![1904, 0] : Fin 2 → Nat) a + S8x128.size a ≤ S13312x128.size a
  inb_S13312x128_S8x128_2112_0 : ∀ a, (![2112, 0] : Fin 2 → Nat) a + S8x128.size a ≤ S13312x128.size a
  inb_S13312x128_S8x128_2320_0 : ∀ a, (![2320, 0] : Fin 2 → Nat) a + S8x128.size a ≤ S13312x128.size a
  inb_S13312x128_S8x128_2528_0 : ∀ a, (![2528, 0] : Fin 2 → Nat) a + S8x128.size a ≤ S13312x128.size a
  inb_S13312x128_S8x128_2736_0 : ∀ a, (![2736, 0] : Fin 2 → Nat) a + S8x128.size a ≤ S13312x128.size a
  inb_S13312x128_S8x128_2944_0 : ∀ a, (![2944, 0] : Fin 2 → Nat) a + S8x128.size a ≤ S13312x128.size a
  inb_S13312x128_S8x128_3152_0 : ∀ a, (![3152, 0] : Fin 2 → Nat) a + S8x128.size a ≤ S13312x128.size a
  inb_S13312x128_S8x128_3360_0 : ∀ a, (![3360, 0] : Fin 2 → Nat) a + S8x128.size a ≤ S13312x128.size a
  inb_S13312x128_S8x128_3568_0 : ∀ a, (![3568, 0] : Fin 2 → Nat) a + S8x128.size a ≤ S13312x128.size a
  inb_S13312x128_S8x128_3776_0 : ∀ a, (![3776, 0] : Fin 2 → Nat) a + S8x128.size a ≤ S13312x128.size a
  inb_S13312x128_S8x128_3984_0 : ∀ a, (![3984, 0] : Fin 2 → Nat) a + S8x128.size a ≤ S13312x128.size a
  inb_S13312x128_S8x128_4192_0 : ∀ a, (![4192, 0] : Fin 2 → Nat) a + S8x128.size a ≤ S13312x128.size a
  inb_S13312x128_S8x128_4400_0 : ∀ a, (![4400, 0] : Fin 2 → Nat) a + S8x128.size a ≤ S13312x128.size a
  inb_S13312x128_S8x128_4608_0 : ∀ a, (![4608, 0] : Fin 2 → Nat) a + S8x128.size a ≤ S13312x128.size a
  inb_S13312x128_S8x128_4816_0 : ∀ a, (![4816, 0] : Fin 2 → Nat) a + S8x128.size a ≤ S13312x128.size a
  inb_S13312x128_S8x128_5024_0 : ∀ a, (![5024, 0] : Fin 2 → Nat) a + S8x128.size a ≤ S13312x128.size a
  inb_S13312x128_S8x128_5232_0 : ∀ a, (![5232, 0] : Fin 2 → Nat) a + S8x128.size a ≤ S13312x128.size a
  inb_S13312x128_S8x128_5440_0 : ∀ a, (![5440, 0] : Fin 2 → Nat) a + S8x128.size a ≤ S13312x128.size a
  inb_S13312x128_S8x128_5648_0 : ∀ a, (![5648, 0] : Fin 2 → Nat) a + S8x128.size a ≤ S13312x128.size a
  inb_S13312x128_S8x128_5856_0 : ∀ a, (![5856, 0] : Fin 2 → Nat) a + S8x128.size a ≤ S13312x128.size a
  inb_S13312x128_S8x128_6064_0 : ∀ a, (![6064, 0] : Fin 2 → Nat) a + S8x128.size a ≤ S13312x128.size a
  inb_S13312x128_S8x128_6272_0 : ∀ a, (![6272, 0] : Fin 2 → Nat) a + S8x128.size a ≤ S13312x128.size a
  inb_S13312x128_S8x128_6480_0 : ∀ a, (![6480, 0] : Fin 2 → Nat) a + S8x128.size a ≤ S13312x128.size a
  inb_S13312x128_S8x128_6688_0 : ∀ a, (![6688, 0] : Fin 2 → Nat) a + S8x128.size a ≤ S13312x128.size a
  inb_S13312x128_S8x128_6896_0 : ∀ a, (![6896, 0] : Fin 2 → Nat) a + S8x128.size a ≤ S13312x128.size a
  inb_S13312x128_S8x128_7104_0 : ∀ a, (![7104, 0] : Fin 2 → Nat) a + S8x128.size a ≤ S13312x128.size a
  inb_S13312x128_S8x128_7312_0 : ∀ a, (![7312, 0] : Fin 2 → Nat) a + S8x128.size a ≤ S13312x128.size a
  inb_S13312x128_S8x128_7520_0 : ∀ a, (![7520, 0] : Fin 2 → Nat) a + S8x128.size a ≤ S13312x128.size a
  inb_S13312x128_S8x128_7728_0 : ∀ a, (![7728, 0] : Fin 2 → Nat) a + S8x128.size a ≤ S13312x128.size a
  inb_S13312x128_S8x128_7936_0 : ∀ a, (![7936, 0] : Fin 2 → Nat) a + S8x128.size a ≤ S13312x128.size a
  inb_S13312x128_S8x128_8144_0 : ∀ a, (![8144, 0] : Fin 2 → Nat) a + S8x128.size a ≤ S13312x128.size a
  inb_S13312x128_S8x128_8352_0 : ∀ a, (![8352, 0] : Fin 2 → Nat) a + S8x128.size a ≤ S13312x128.size a
  inb_S13312x128_S8x128_8560_0 : ∀ a, (![8560, 0] : Fin 2 → Nat) a + S8x128.size a ≤ S13312x128.size a
  inb_S13312x128_S8x128_8768_0 : ∀ a, (![8768, 0] : Fin 2 → Nat) a + S8x128.size a ≤ S13312x128.size a
  inb_S13312x128_S8x128_8976_0 : ∀ a, (![8976, 0] : Fin 2 → Nat) a + S8x128.size a ≤ S13312x128.size a
  inb_S13312x128_S8x128_9184_0 : ∀ a, (![9184, 0] : Fin 2 → Nat) a + S8x128.size a ≤ S13312x128.size a
  inb_S13312x128_S8x128_9392_0 : ∀ a, (![9392, 0] : Fin 2 → Nat) a + S8x128.size a ≤ S13312x128.size a
  inb_S13312x128_S8x128_9600_0 : ∀ a, (![9600, 0] : Fin 2 → Nat) a + S8x128.size a ≤ S13312x128.size a
  inb_S13312x128_S8x128_9808_0 : ∀ a, (![9808, 0] : Fin 2 → Nat) a + S8x128.size a ≤ S13312x128.size a
  inb_S13312x128_S8x128_10016_0 : ∀ a, (![10016, 0] : Fin 2 → Nat) a + S8x128.size a ≤ S13312x128.size a
  inb_S13312x128_S8x128_10224_0 : ∀ a, (![10224, 0] : Fin 2 → Nat) a + S8x128.size a ≤ S13312x128.size a
  inb_S13312x128_S8x128_10432_0 : ∀ a, (![10432, 0] : Fin 2 → Nat) a + S8x128.size a ≤ S13312x128.size a
  inb_S13312x128_S8x128_10640_0 : ∀ a, (![10640, 0] : Fin 2 → Nat) a + S8x128.size a ≤ S13312x128.size a
  inb_S13312x128_S8x128_10848_0 : ∀ a, (![10848, 0] : Fin 2 → Nat) a + S8x128.size a ≤ S13312x128.size a
  inb_S13312x128_S8x128_11056_0 : ∀ a, (![11056, 0] : Fin 2 → Nat) a + S8x128.size a ≤ S13312x128.size a
  inb_S13312x128_S8x128_11264_0 : ∀ a, (![11264, 0] : Fin 2 → Nat) a + S8x128.size a ≤ S13312x128.size a
  inb_S13312x128_S8x128_11472_0 : ∀ a, (![11472, 0] : Fin 2 → Nat) a + S8x128.size a ≤ S13312x128.size a
  inb_S13312x128_S8x128_11680_0 : ∀ a, (![11680, 0] : Fin 2 → Nat) a + S8x128.size a ≤ S13312x128.size a
  inb_S13312x128_S8x128_11888_0 : ∀ a, (![11888, 0] : Fin 2 → Nat) a + S8x128.size a ≤ S13312x128.size a
  inb_S13312x128_S8x128_12096_0 : ∀ a, (![12096, 0] : Fin 2 → Nat) a + S8x128.size a ≤ S13312x128.size a
  inb_S13312x128_S8x128_12304_0 : ∀ a, (![12304, 0] : Fin 2 → Nat) a + S8x128.size a ≤ S13312x128.size a
  inb_S13312x128_S8x128_12512_0 : ∀ a, (![12512, 0] : Fin 2 → Nat) a + S8x128.size a ≤ S13312x128.size a
  inb_S13312x128_S8x128_12720_0 : ∀ a, (![12720, 0] : Fin 2 → Nat) a + S8x128.size a ≤ S13312x128.size a
  inb_S13312x128_S8x128_12928_0 : ∀ a, (![12928, 0] : Fin 2 → Nat) a + S8x128.size a ≤ S13312x128.size a
  inb_S13312x128_S8x128_13136_0 : ∀ a, (![13136, 0] : Fin 2 → Nat) a + S8x128.size a ≤ S13312x128.size a
  inb_S3341x512_S128x512_512_0 : ∀ a, (![512, 0] : Fin 2 → Nat) a + S128x512.size a ≤ S3341x512.size a
  inb_S13312x128_S8x128_40_0 : ∀ a, (![40, 0] : Fin 2 → Nat) a + S8x128.size a ≤ S13312x128.size a
  inb_S13312x128_S8x128_248_0 : ∀ a, (![248, 0] : Fin 2 → Nat) a + S8x128.size a ≤ S13312x128.size a
  inb_S13312x128_S8x128_456_0 : ∀ a, (![456, 0] : Fin 2 → Nat) a + S8x128.size a ≤ S13312x128.size a
  inb_S13312x128_S8x128_664_0 : ∀ a, (![664, 0] : Fin 2 → Nat) a + S8x128.size a ≤ S13312x128.size a
  inb_S13312x128_S8x128_872_0 : ∀ a, (![872, 0] : Fin 2 → Nat) a + S8x128.size a ≤ S13312x128.size a
  inb_S13312x128_S8x128_1080_0 : ∀ a, (![1080, 0] : Fin 2 → Nat) a + S8x128.size a ≤ S13312x128.size a
  inb_S13312x128_S8x128_1288_0 : ∀ a, (![1288, 0] : Fin 2 → Nat) a + S8x128.size a ≤ S13312x128.size a
  inb_S13312x128_S8x128_1496_0 : ∀ a, (![1496, 0] : Fin 2 → Nat) a + S8x128.size a ≤ S13312x128.size a
  inb_S13312x128_S8x128_1704_0 : ∀ a, (![1704, 0] : Fin 2 → Nat) a + S8x128.size a ≤ S13312x128.size a
  inb_S13312x128_S8x128_1912_0 : ∀ a, (![1912, 0] : Fin 2 → Nat) a + S8x128.size a ≤ S13312x128.size a
  inb_S13312x128_S8x128_2120_0 : ∀ a, (![2120, 0] : Fin 2 → Nat) a + S8x128.size a ≤ S13312x128.size a
  inb_S13312x128_S8x128_2328_0 : ∀ a, (![2328, 0] : Fin 2 → Nat) a + S8x128.size a ≤ S13312x128.size a
  inb_S13312x128_S8x128_2536_0 : ∀ a, (![2536, 0] : Fin 2 → Nat) a + S8x128.size a ≤ S13312x128.size a
  inb_S13312x128_S8x128_2744_0 : ∀ a, (![2744, 0] : Fin 2 → Nat) a + S8x128.size a ≤ S13312x128.size a
  inb_S13312x128_S8x128_2952_0 : ∀ a, (![2952, 0] : Fin 2 → Nat) a + S8x128.size a ≤ S13312x128.size a
  inb_S13312x128_S8x128_3160_0 : ∀ a, (![3160, 0] : Fin 2 → Nat) a + S8x128.size a ≤ S13312x128.size a
  inb_S13312x128_S8x128_3368_0 : ∀ a, (![3368, 0] : Fin 2 → Nat) a + S8x128.size a ≤ S13312x128.size a
  inb_S13312x128_S8x128_3576_0 : ∀ a, (![3576, 0] : Fin 2 → Nat) a + S8x128.size a ≤ S13312x128.size a
  inb_S13312x128_S8x128_3784_0 : ∀ a, (![3784, 0] : Fin 2 → Nat) a + S8x128.size a ≤ S13312x128.size a
  inb_S13312x128_S8x128_3992_0 : ∀ a, (![3992, 0] : Fin 2 → Nat) a + S8x128.size a ≤ S13312x128.size a
  inb_S13312x128_S8x128_4200_0 : ∀ a, (![4200, 0] : Fin 2 → Nat) a + S8x128.size a ≤ S13312x128.size a
  inb_S13312x128_S8x128_4408_0 : ∀ a, (![4408, 0] : Fin 2 → Nat) a + S8x128.size a ≤ S13312x128.size a
  inb_S13312x128_S8x128_4616_0 : ∀ a, (![4616, 0] : Fin 2 → Nat) a + S8x128.size a ≤ S13312x128.size a
  inb_S13312x128_S8x128_4824_0 : ∀ a, (![4824, 0] : Fin 2 → Nat) a + S8x128.size a ≤ S13312x128.size a
  inb_S13312x128_S8x128_5032_0 : ∀ a, (![5032, 0] : Fin 2 → Nat) a + S8x128.size a ≤ S13312x128.size a
  inb_S13312x128_S8x128_5240_0 : ∀ a, (![5240, 0] : Fin 2 → Nat) a + S8x128.size a ≤ S13312x128.size a
  inb_S13312x128_S8x128_5448_0 : ∀ a, (![5448, 0] : Fin 2 → Nat) a + S8x128.size a ≤ S13312x128.size a
  inb_S13312x128_S8x128_5656_0 : ∀ a, (![5656, 0] : Fin 2 → Nat) a + S8x128.size a ≤ S13312x128.size a
  inb_S13312x128_S8x128_5864_0 : ∀ a, (![5864, 0] : Fin 2 → Nat) a + S8x128.size a ≤ S13312x128.size a
  inb_S13312x128_S8x128_6072_0 : ∀ a, (![6072, 0] : Fin 2 → Nat) a + S8x128.size a ≤ S13312x128.size a
  inb_S13312x128_S8x128_6280_0 : ∀ a, (![6280, 0] : Fin 2 → Nat) a + S8x128.size a ≤ S13312x128.size a
  inb_S13312x128_S8x128_6488_0 : ∀ a, (![6488, 0] : Fin 2 → Nat) a + S8x128.size a ≤ S13312x128.size a
  inb_S13312x128_S8x128_6696_0 : ∀ a, (![6696, 0] : Fin 2 → Nat) a + S8x128.size a ≤ S13312x128.size a
  inb_S13312x128_S8x128_6904_0 : ∀ a, (![6904, 0] : Fin 2 → Nat) a + S8x128.size a ≤ S13312x128.size a
  inb_S13312x128_S8x128_7112_0 : ∀ a, (![7112, 0] : Fin 2 → Nat) a + S8x128.size a ≤ S13312x128.size a
  inb_S13312x128_S8x128_7320_0 : ∀ a, (![7320, 0] : Fin 2 → Nat) a + S8x128.size a ≤ S13312x128.size a
  inb_S13312x128_S8x128_7528_0 : ∀ a, (![7528, 0] : Fin 2 → Nat) a + S8x128.size a ≤ S13312x128.size a
  inb_S13312x128_S8x128_7736_0 : ∀ a, (![7736, 0] : Fin 2 → Nat) a + S8x128.size a ≤ S13312x128.size a
  inb_S13312x128_S8x128_7944_0 : ∀ a, (![7944, 0] : Fin 2 → Nat) a + S8x128.size a ≤ S13312x128.size a
  inb_S13312x128_S8x128_8152_0 : ∀ a, (![8152, 0] : Fin 2 → Nat) a + S8x128.size a ≤ S13312x128.size a
  inb_S13312x128_S8x128_8360_0 : ∀ a, (![8360, 0] : Fin 2 → Nat) a + S8x128.size a ≤ S13312x128.size a
  inb_S13312x128_S8x128_8568_0 : ∀ a, (![8568, 0] : Fin 2 → Nat) a + S8x128.size a ≤ S13312x128.size a
  inb_S13312x128_S8x128_8776_0 : ∀ a, (![8776, 0] : Fin 2 → Nat) a + S8x128.size a ≤ S13312x128.size a
  inb_S13312x128_S8x128_8984_0 : ∀ a, (![8984, 0] : Fin 2 → Nat) a + S8x128.size a ≤ S13312x128.size a
  inb_S13312x128_S8x128_9192_0 : ∀ a, (![9192, 0] : Fin 2 → Nat) a + S8x128.size a ≤ S13312x128.size a
  inb_S13312x128_S8x128_9400_0 : ∀ a, (![9400, 0] : Fin 2 → Nat) a + S8x128.size a ≤ S13312x128.size a
  inb_S13312x128_S8x128_9608_0 : ∀ a, (![9608, 0] : Fin 2 → Nat) a + S8x128.size a ≤ S13312x128.size a
  inb_S13312x128_S8x128_9816_0 : ∀ a, (![9816, 0] : Fin 2 → Nat) a + S8x128.size a ≤ S13312x128.size a
  inb_S13312x128_S8x128_10024_0 : ∀ a, (![10024, 0] : Fin 2 → Nat) a + S8x128.size a ≤ S13312x128.size a
  inb_S13312x128_S8x128_10232_0 : ∀ a, (![10232, 0] : Fin 2 → Nat) a + S8x128.size a ≤ S13312x128.size a
  inb_S13312x128_S8x128_10440_0 : ∀ a, (![10440, 0] : Fin 2 → Nat) a + S8x128.size a ≤ S13312x128.size a
  inb_S13312x128_S8x128_10648_0 : ∀ a, (![10648, 0] : Fin 2 → Nat) a + S8x128.size a ≤ S13312x128.size a
  inb_S13312x128_S8x128_10856_0 : ∀ a, (![10856, 0] : Fin 2 → Nat) a + S8x128.size a ≤ S13312x128.size a
  inb_S13312x128_S8x128_11064_0 : ∀ a, (![11064, 0] : Fin 2 → Nat) a + S8x128.size a ≤ S13312x128.size a
  inb_S13312x128_S8x128_11272_0 : ∀ a, (![11272, 0] : Fin 2 → Nat) a + S8x128.size a ≤ S13312x128.size a
  inb_S13312x128_S8x128_11480_0 : ∀ a, (![11480, 0] : Fin 2 → Nat) a + S8x128.size a ≤ S13312x128.size a
  inb_S13312x128_S8x128_11688_0 : ∀ a, (![11688, 0] : Fin 2 → Nat) a + S8x128.size a ≤ S13312x128.size a
  inb_S13312x128_S8x128_11896_0 : ∀ a, (![11896, 0] : Fin 2 → Nat) a + S8x128.size a ≤ S13312x128.size a
  inb_S13312x128_S8x128_12104_0 : ∀ a, (![12104, 0] : Fin 2 → Nat) a + S8x128.size a ≤ S13312x128.size a
  inb_S13312x128_S8x128_12312_0 : ∀ a, (![12312, 0] : Fin 2 → Nat) a + S8x128.size a ≤ S13312x128.size a
  inb_S13312x128_S8x128_12520_0 : ∀ a, (![12520, 0] : Fin 2 → Nat) a + S8x128.size a ≤ S13312x128.size a
  inb_S13312x128_S8x128_12728_0 : ∀ a, (![12728, 0] : Fin 2 → Nat) a + S8x128.size a ≤ S13312x128.size a
  inb_S13312x128_S8x128_12936_0 : ∀ a, (![12936, 0] : Fin 2 → Nat) a + S8x128.size a ≤ S13312x128.size a
  inb_S13312x128_S8x128_13144_0 : ∀ a, (![13144, 0] : Fin 2 → Nat) a + S8x128.size a ≤ S13312x128.size a
  inb_S3341x512_S128x512_640_0 : ∀ a, (![640, 0] : Fin 2 → Nat) a + S128x512.size a ≤ S3341x512.size a
  inb_S13312x128_S8x128_48_0 : ∀ a, (![48, 0] : Fin 2 → Nat) a + S8x128.size a ≤ S13312x128.size a
  inb_S13312x128_S8x128_256_0 : ∀ a, (![256, 0] : Fin 2 → Nat) a + S8x128.size a ≤ S13312x128.size a
  inb_S13312x128_S8x128_464_0 : ∀ a, (![464, 0] : Fin 2 → Nat) a + S8x128.size a ≤ S13312x128.size a
  inb_S13312x128_S8x128_672_0 : ∀ a, (![672, 0] : Fin 2 → Nat) a + S8x128.size a ≤ S13312x128.size a
  inb_S13312x128_S8x128_880_0 : ∀ a, (![880, 0] : Fin 2 → Nat) a + S8x128.size a ≤ S13312x128.size a
  inb_S13312x128_S8x128_1088_0 : ∀ a, (![1088, 0] : Fin 2 → Nat) a + S8x128.size a ≤ S13312x128.size a
  inb_S13312x128_S8x128_1296_0 : ∀ a, (![1296, 0] : Fin 2 → Nat) a + S8x128.size a ≤ S13312x128.size a
  inb_S13312x128_S8x128_1504_0 : ∀ a, (![1504, 0] : Fin 2 → Nat) a + S8x128.size a ≤ S13312x128.size a
  inb_S13312x128_S8x128_1712_0 : ∀ a, (![1712, 0] : Fin 2 → Nat) a + S8x128.size a ≤ S13312x128.size a
  inb_S13312x128_S8x128_1920_0 : ∀ a, (![1920, 0] : Fin 2 → Nat) a + S8x128.size a ≤ S13312x128.size a
  inb_S13312x128_S8x128_2128_0 : ∀ a, (![2128, 0] : Fin 2 → Nat) a + S8x128.size a ≤ S13312x128.size a
  inb_S13312x128_S8x128_2336_0 : ∀ a, (![2336, 0] : Fin 2 → Nat) a + S8x128.size a ≤ S13312x128.size a
  inb_S13312x128_S8x128_2544_0 : ∀ a, (![2544, 0] : Fin 2 → Nat) a + S8x128.size a ≤ S13312x128.size a
  inb_S13312x128_S8x128_2752_0 : ∀ a, (![2752, 0] : Fin 2 → Nat) a + S8x128.size a ≤ S13312x128.size a
  inb_S13312x128_S8x128_2960_0 : ∀ a, (![2960, 0] : Fin 2 → Nat) a + S8x128.size a ≤ S13312x128.size a
  inb_S13312x128_S8x128_3168_0 : ∀ a, (![3168, 0] : Fin 2 → Nat) a + S8x128.size a ≤ S13312x128.size a
  inb_S13312x128_S8x128_3376_0 : ∀ a, (![3376, 0] : Fin 2 → Nat) a + S8x128.size a ≤ S13312x128.size a
  inb_S13312x128_S8x128_3584_0 : ∀ a, (![3584, 0] : Fin 2 → Nat) a + S8x128.size a ≤ S13312x128.size a
  inb_S13312x128_S8x128_3792_0 : ∀ a, (![3792, 0] : Fin 2 → Nat) a + S8x128.size a ≤ S13312x128.size a
  inb_S13312x128_S8x128_4000_0 : ∀ a, (![4000, 0] : Fin 2 → Nat) a + S8x128.size a ≤ S13312x128.size a
  inb_S13312x128_S8x128_4208_0 : ∀ a, (![4208, 0] : Fin 2 → Nat) a + S8x128.size a ≤ S13312x128.size a
  inb_S13312x128_S8x128_4416_0 : ∀ a, (![4416, 0] : Fin 2 → Nat) a + S8x128.size a ≤ S13312x128.size a
  inb_S13312x128_S8x128_4624_0 : ∀ a, (![4624, 0] : Fin 2 → Nat) a + S8x128.size a ≤ S13312x128.size a
  inb_S13312x128_S8x128_4832_0 : ∀ a, (![4832, 0] : Fin 2 → Nat) a + S8x128.size a ≤ S13312x128.size a
  inb_S13312x128_S8x128_5040_0 : ∀ a, (![5040, 0] : Fin 2 → Nat) a + S8x128.size a ≤ S13312x128.size a
  inb_S13312x128_S8x128_5248_0 : ∀ a, (![5248, 0] : Fin 2 → Nat) a + S8x128.size a ≤ S13312x128.size a
  inb_S13312x128_S8x128_5456_0 : ∀ a, (![5456, 0] : Fin 2 → Nat) a + S8x128.size a ≤ S13312x128.size a
  inb_S13312x128_S8x128_5664_0 : ∀ a, (![5664, 0] : Fin 2 → Nat) a + S8x128.size a ≤ S13312x128.size a
  inb_S13312x128_S8x128_5872_0 : ∀ a, (![5872, 0] : Fin 2 → Nat) a + S8x128.size a ≤ S13312x128.size a
  inb_S13312x128_S8x128_6080_0 : ∀ a, (![6080, 0] : Fin 2 → Nat) a + S8x128.size a ≤ S13312x128.size a
  inb_S13312x128_S8x128_6288_0 : ∀ a, (![6288, 0] : Fin 2 → Nat) a + S8x128.size a ≤ S13312x128.size a
  inb_S13312x128_S8x128_6496_0 : ∀ a, (![6496, 0] : Fin 2 → Nat) a + S8x128.size a ≤ S13312x128.size a
  inb_S13312x128_S8x128_6704_0 : ∀ a, (![6704, 0] : Fin 2 → Nat) a + S8x128.size a ≤ S13312x128.size a
  inb_S13312x128_S8x128_6912_0 : ∀ a, (![6912, 0] : Fin 2 → Nat) a + S8x128.size a ≤ S13312x128.size a
  inb_S13312x128_S8x128_7120_0 : ∀ a, (![7120, 0] : Fin 2 → Nat) a + S8x128.size a ≤ S13312x128.size a
  inb_S13312x128_S8x128_7328_0 : ∀ a, (![7328, 0] : Fin 2 → Nat) a + S8x128.size a ≤ S13312x128.size a
  inb_S13312x128_S8x128_7536_0 : ∀ a, (![7536, 0] : Fin 2 → Nat) a + S8x128.size a ≤ S13312x128.size a
  inb_S13312x128_S8x128_7744_0 : ∀ a, (![7744, 0] : Fin 2 → Nat) a + S8x128.size a ≤ S13312x128.size a
  inb_S13312x128_S8x128_7952_0 : ∀ a, (![7952, 0] : Fin 2 → Nat) a + S8x128.size a ≤ S13312x128.size a
  inb_S13312x128_S8x128_8160_0 : ∀ a, (![8160, 0] : Fin 2 → Nat) a + S8x128.size a ≤ S13312x128.size a
  inb_S13312x128_S8x128_8368_0 : ∀ a, (![8368, 0] : Fin 2 → Nat) a + S8x128.size a ≤ S13312x128.size a
  inb_S13312x128_S8x128_8576_0 : ∀ a, (![8576, 0] : Fin 2 → Nat) a + S8x128.size a ≤ S13312x128.size a
  inb_S13312x128_S8x128_8784_0 : ∀ a, (![8784, 0] : Fin 2 → Nat) a + S8x128.size a ≤ S13312x128.size a
  inb_S13312x128_S8x128_8992_0 : ∀ a, (![8992, 0] : Fin 2 → Nat) a + S8x128.size a ≤ S13312x128.size a
  inb_S13312x128_S8x128_9200_0 : ∀ a, (![9200, 0] : Fin 2 → Nat) a + S8x128.size a ≤ S13312x128.size a
  inb_S13312x128_S8x128_9408_0 : ∀ a, (![9408, 0] : Fin 2 → Nat) a + S8x128.size a ≤ S13312x128.size a
  inb_S13312x128_S8x128_9616_0 : ∀ a, (![9616, 0] : Fin 2 → Nat) a + S8x128.size a ≤ S13312x128.size a
  inb_S13312x128_S8x128_9824_0 : ∀ a, (![9824, 0] : Fin 2 → Nat) a + S8x128.size a ≤ S13312x128.size a
  inb_S13312x128_S8x128_10032_0 : ∀ a, (![10032, 0] : Fin 2 → Nat) a + S8x128.size a ≤ S13312x128.size a
  inb_S13312x128_S8x128_10240_0 : ∀ a, (![10240, 0] : Fin 2 → Nat) a + S8x128.size a ≤ S13312x128.size a
  inb_S13312x128_S8x128_10448_0 : ∀ a, (![10448, 0] : Fin 2 → Nat) a + S8x128.size a ≤ S13312x128.size a
  inb_S13312x128_S8x128_10656_0 : ∀ a, (![10656, 0] : Fin 2 → Nat) a + S8x128.size a ≤ S13312x128.size a
  inb_S13312x128_S8x128_10864_0 : ∀ a, (![10864, 0] : Fin 2 → Nat) a + S8x128.size a ≤ S13312x128.size a
  inb_S13312x128_S8x128_11072_0 : ∀ a, (![11072, 0] : Fin 2 → Nat) a + S8x128.size a ≤ S13312x128.size a
  inb_S13312x128_S8x128_11280_0 : ∀ a, (![11280, 0] : Fin 2 → Nat) a + S8x128.size a ≤ S13312x128.size a
  inb_S13312x128_S8x128_11488_0 : ∀ a, (![11488, 0] : Fin 2 → Nat) a + S8x128.size a ≤ S13312x128.size a
  inb_S13312x128_S8x128_11696_0 : ∀ a, (![11696, 0] : Fin 2 → Nat) a + S8x128.size a ≤ S13312x128.size a
  inb_S13312x128_S8x128_11904_0 : ∀ a, (![11904, 0] : Fin 2 → Nat) a + S8x128.size a ≤ S13312x128.size a
  inb_S13312x128_S8x128_12112_0 : ∀ a, (![12112, 0] : Fin 2 → Nat) a + S8x128.size a ≤ S13312x128.size a
  inb_S13312x128_S8x128_12320_0 : ∀ a, (![12320, 0] : Fin 2 → Nat) a + S8x128.size a ≤ S13312x128.size a
  inb_S13312x128_S8x128_12528_0 : ∀ a, (![12528, 0] : Fin 2 → Nat) a + S8x128.size a ≤ S13312x128.size a
  inb_S13312x128_S8x128_12736_0 : ∀ a, (![12736, 0] : Fin 2 → Nat) a + S8x128.size a ≤ S13312x128.size a
  inb_S13312x128_S8x128_12944_0 : ∀ a, (![12944, 0] : Fin 2 → Nat) a + S8x128.size a ≤ S13312x128.size a
  inb_S13312x128_S8x128_13152_0 : ∀ a, (![13152, 0] : Fin 2 → Nat) a + S8x128.size a ≤ S13312x128.size a
  inb_S3341x512_S128x512_768_0 : ∀ a, (![768, 0] : Fin 2 → Nat) a + S128x512.size a ≤ S3341x512.size a
  inb_S13312x128_S8x128_56_0 : ∀ a, (![56, 0] : Fin 2 → Nat) a + S8x128.size a ≤ S13312x128.size a
  inb_S13312x128_S8x128_264_0 : ∀ a, (![264, 0] : Fin 2 → Nat) a + S8x128.size a ≤ S13312x128.size a
  inb_S13312x128_S8x128_472_0 : ∀ a, (![472, 0] : Fin 2 → Nat) a + S8x128.size a ≤ S13312x128.size a
  inb_S13312x128_S8x128_680_0 : ∀ a, (![680, 0] : Fin 2 → Nat) a + S8x128.size a ≤ S13312x128.size a
  inb_S13312x128_S8x128_888_0 : ∀ a, (![888, 0] : Fin 2 → Nat) a + S8x128.size a ≤ S13312x128.size a
  inb_S13312x128_S8x128_1096_0 : ∀ a, (![1096, 0] : Fin 2 → Nat) a + S8x128.size a ≤ S13312x128.size a
  inb_S13312x128_S8x128_1304_0 : ∀ a, (![1304, 0] : Fin 2 → Nat) a + S8x128.size a ≤ S13312x128.size a
  inb_S13312x128_S8x128_1512_0 : ∀ a, (![1512, 0] : Fin 2 → Nat) a + S8x128.size a ≤ S13312x128.size a
  inb_S13312x128_S8x128_1720_0 : ∀ a, (![1720, 0] : Fin 2 → Nat) a + S8x128.size a ≤ S13312x128.size a
  inb_S13312x128_S8x128_1928_0 : ∀ a, (![1928, 0] : Fin 2 → Nat) a + S8x128.size a ≤ S13312x128.size a
  inb_S13312x128_S8x128_2136_0 : ∀ a, (![2136, 0] : Fin 2 → Nat) a + S8x128.size a ≤ S13312x128.size a
  inb_S13312x128_S8x128_2344_0 : ∀ a, (![2344, 0] : Fin 2 → Nat) a + S8x128.size a ≤ S13312x128.size a
  inb_S13312x128_S8x128_2552_0 : ∀ a, (![2552, 0] : Fin 2 → Nat) a + S8x128.size a ≤ S13312x128.size a
  inb_S13312x128_S8x128_2760_0 : ∀ a, (![2760, 0] : Fin 2 → Nat) a + S8x128.size a ≤ S13312x128.size a
  inb_S13312x128_S8x128_2968_0 : ∀ a, (![2968, 0] : Fin 2 → Nat) a + S8x128.size a ≤ S13312x128.size a
  inb_S13312x128_S8x128_3176_0 : ∀ a, (![3176, 0] : Fin 2 → Nat) a + S8x128.size a ≤ S13312x128.size a
  inb_S13312x128_S8x128_3384_0 : ∀ a, (![3384, 0] : Fin 2 → Nat) a + S8x128.size a ≤ S13312x128.size a
  inb_S13312x128_S8x128_3592_0 : ∀ a, (![3592, 0] : Fin 2 → Nat) a + S8x128.size a ≤ S13312x128.size a
  inb_S13312x128_S8x128_3800_0 : ∀ a, (![3800, 0] : Fin 2 → Nat) a + S8x128.size a ≤ S13312x128.size a
  inb_S13312x128_S8x128_4008_0 : ∀ a, (![4008, 0] : Fin 2 → Nat) a + S8x128.size a ≤ S13312x128.size a
  inb_S13312x128_S8x128_4216_0 : ∀ a, (![4216, 0] : Fin 2 → Nat) a + S8x128.size a ≤ S13312x128.size a
  inb_S13312x128_S8x128_4424_0 : ∀ a, (![4424, 0] : Fin 2 → Nat) a + S8x128.size a ≤ S13312x128.size a
  inb_S13312x128_S8x128_4632_0 : ∀ a, (![4632, 0] : Fin 2 → Nat) a + S8x128.size a ≤ S13312x128.size a
  inb_S13312x128_S8x128_4840_0 : ∀ a, (![4840, 0] : Fin 2 → Nat) a + S8x128.size a ≤ S13312x128.size a
  inb_S13312x128_S8x128_5048_0 : ∀ a, (![5048, 0] : Fin 2 → Nat) a + S8x128.size a ≤ S13312x128.size a
  inb_S13312x128_S8x128_5256_0 : ∀ a, (![5256, 0] : Fin 2 → Nat) a + S8x128.size a ≤ S13312x128.size a
  inb_S13312x128_S8x128_5464_0 : ∀ a, (![5464, 0] : Fin 2 → Nat) a + S8x128.size a ≤ S13312x128.size a
  inb_S13312x128_S8x128_5672_0 : ∀ a, (![5672, 0] : Fin 2 → Nat) a + S8x128.size a ≤ S13312x128.size a
  inb_S13312x128_S8x128_5880_0 : ∀ a, (![5880, 0] : Fin 2 → Nat) a + S8x128.size a ≤ S13312x128.size a
  inb_S13312x128_S8x128_6088_0 : ∀ a, (![6088, 0] : Fin 2 → Nat) a + S8x128.size a ≤ S13312x128.size a
  inb_S13312x128_S8x128_6296_0 : ∀ a, (![6296, 0] : Fin 2 → Nat) a + S8x128.size a ≤ S13312x128.size a
  inb_S13312x128_S8x128_6504_0 : ∀ a, (![6504, 0] : Fin 2 → Nat) a + S8x128.size a ≤ S13312x128.size a
  inb_S13312x128_S8x128_6712_0 : ∀ a, (![6712, 0] : Fin 2 → Nat) a + S8x128.size a ≤ S13312x128.size a
  inb_S13312x128_S8x128_6920_0 : ∀ a, (![6920, 0] : Fin 2 → Nat) a + S8x128.size a ≤ S13312x128.size a
  inb_S13312x128_S8x128_7128_0 : ∀ a, (![7128, 0] : Fin 2 → Nat) a + S8x128.size a ≤ S13312x128.size a
  inb_S13312x128_S8x128_7336_0 : ∀ a, (![7336, 0] : Fin 2 → Nat) a + S8x128.size a ≤ S13312x128.size a
  inb_S13312x128_S8x128_7544_0 : ∀ a, (![7544, 0] : Fin 2 → Nat) a + S8x128.size a ≤ S13312x128.size a
  inb_S13312x128_S8x128_7752_0 : ∀ a, (![7752, 0] : Fin 2 → Nat) a + S8x128.size a ≤ S13312x128.size a
  inb_S13312x128_S8x128_7960_0 : ∀ a, (![7960, 0] : Fin 2 → Nat) a + S8x128.size a ≤ S13312x128.size a
  inb_S13312x128_S8x128_8168_0 : ∀ a, (![8168, 0] : Fin 2 → Nat) a + S8x128.size a ≤ S13312x128.size a
  inb_S13312x128_S8x128_8376_0 : ∀ a, (![8376, 0] : Fin 2 → Nat) a + S8x128.size a ≤ S13312x128.size a
  inb_S13312x128_S8x128_8584_0 : ∀ a, (![8584, 0] : Fin 2 → Nat) a + S8x128.size a ≤ S13312x128.size a
  inb_S13312x128_S8x128_8792_0 : ∀ a, (![8792, 0] : Fin 2 → Nat) a + S8x128.size a ≤ S13312x128.size a
  inb_S13312x128_S8x128_9000_0 : ∀ a, (![9000, 0] : Fin 2 → Nat) a + S8x128.size a ≤ S13312x128.size a
  inb_S13312x128_S8x128_9208_0 : ∀ a, (![9208, 0] : Fin 2 → Nat) a + S8x128.size a ≤ S13312x128.size a
  inb_S13312x128_S8x128_9416_0 : ∀ a, (![9416, 0] : Fin 2 → Nat) a + S8x128.size a ≤ S13312x128.size a
  inb_S13312x128_S8x128_9624_0 : ∀ a, (![9624, 0] : Fin 2 → Nat) a + S8x128.size a ≤ S13312x128.size a
  inb_S13312x128_S8x128_9832_0 : ∀ a, (![9832, 0] : Fin 2 → Nat) a + S8x128.size a ≤ S13312x128.size a
  inb_S13312x128_S8x128_10040_0 : ∀ a, (![10040, 0] : Fin 2 → Nat) a + S8x128.size a ≤ S13312x128.size a
  inb_S13312x128_S8x128_10248_0 : ∀ a, (![10248, 0] : Fin 2 → Nat) a + S8x128.size a ≤ S13312x128.size a
  inb_S13312x128_S8x128_10456_0 : ∀ a, (![10456, 0] : Fin 2 → Nat) a + S8x128.size a ≤ S13312x128.size a
  inb_S13312x128_S8x128_10664_0 : ∀ a, (![10664, 0] : Fin 2 → Nat) a + S8x128.size a ≤ S13312x128.size a
  inb_S13312x128_S8x128_10872_0 : ∀ a, (![10872, 0] : Fin 2 → Nat) a + S8x128.size a ≤ S13312x128.size a
  inb_S13312x128_S8x128_11080_0 : ∀ a, (![11080, 0] : Fin 2 → Nat) a + S8x128.size a ≤ S13312x128.size a
  inb_S13312x128_S8x128_11288_0 : ∀ a, (![11288, 0] : Fin 2 → Nat) a + S8x128.size a ≤ S13312x128.size a
  inb_S13312x128_S8x128_11496_0 : ∀ a, (![11496, 0] : Fin 2 → Nat) a + S8x128.size a ≤ S13312x128.size a
  inb_S13312x128_S8x128_11704_0 : ∀ a, (![11704, 0] : Fin 2 → Nat) a + S8x128.size a ≤ S13312x128.size a
  inb_S13312x128_S8x128_11912_0 : ∀ a, (![11912, 0] : Fin 2 → Nat) a + S8x128.size a ≤ S13312x128.size a
  inb_S13312x128_S8x128_12120_0 : ∀ a, (![12120, 0] : Fin 2 → Nat) a + S8x128.size a ≤ S13312x128.size a
  inb_S13312x128_S8x128_12328_0 : ∀ a, (![12328, 0] : Fin 2 → Nat) a + S8x128.size a ≤ S13312x128.size a
  inb_S13312x128_S8x128_12536_0 : ∀ a, (![12536, 0] : Fin 2 → Nat) a + S8x128.size a ≤ S13312x128.size a
  inb_S13312x128_S8x128_12744_0 : ∀ a, (![12744, 0] : Fin 2 → Nat) a + S8x128.size a ≤ S13312x128.size a
  inb_S13312x128_S8x128_12952_0 : ∀ a, (![12952, 0] : Fin 2 → Nat) a + S8x128.size a ≤ S13312x128.size a
  inb_S13312x128_S8x128_13160_0 : ∀ a, (![13160, 0] : Fin 2 → Nat) a + S8x128.size a ≤ S13312x128.size a
  inb_S3341x512_S128x512_896_0 : ∀ a, (![896, 0] : Fin 2 → Nat) a + S128x512.size a ≤ S3341x512.size a
  inb_S13312x128_S8x128_64_0 : ∀ a, (![64, 0] : Fin 2 → Nat) a + S8x128.size a ≤ S13312x128.size a
  inb_S13312x128_S8x128_272_0 : ∀ a, (![272, 0] : Fin 2 → Nat) a + S8x128.size a ≤ S13312x128.size a
  inb_S13312x128_S8x128_480_0 : ∀ a, (![480, 0] : Fin 2 → Nat) a + S8x128.size a ≤ S13312x128.size a
  inb_S13312x128_S8x128_688_0 : ∀ a, (![688, 0] : Fin 2 → Nat) a + S8x128.size a ≤ S13312x128.size a
  inb_S13312x128_S8x128_896_0 : ∀ a, (![896, 0] : Fin 2 → Nat) a + S8x128.size a ≤ S13312x128.size a
  inb_S13312x128_S8x128_1104_0 : ∀ a, (![1104, 0] : Fin 2 → Nat) a + S8x128.size a ≤ S13312x128.size a
  inb_S13312x128_S8x128_1312_0 : ∀ a, (![1312, 0] : Fin 2 → Nat) a + S8x128.size a ≤ S13312x128.size a
  inb_S13312x128_S8x128_1520_0 : ∀ a, (![1520, 0] : Fin 2 → Nat) a + S8x128.size a ≤ S13312x128.size a
  inb_S13312x128_S8x128_1728_0 : ∀ a, (![1728, 0] : Fin 2 → Nat) a + S8x128.size a ≤ S13312x128.size a
  inb_S13312x128_S8x128_1936_0 : ∀ a, (![1936, 0] : Fin 2 → Nat) a + S8x128.size a ≤ S13312x128.size a
  inb_S13312x128_S8x128_2144_0 : ∀ a, (![2144, 0] : Fin 2 → Nat) a + S8x128.size a ≤ S13312x128.size a
  inb_S13312x128_S8x128_2352_0 : ∀ a, (![2352, 0] : Fin 2 → Nat) a + S8x128.size a ≤ S13312x128.size a
  inb_S13312x128_S8x128_2560_0 : ∀ a, (![2560, 0] : Fin 2 → Nat) a + S8x128.size a ≤ S13312x128.size a
  inb_S13312x128_S8x128_2768_0 : ∀ a, (![2768, 0] : Fin 2 → Nat) a + S8x128.size a ≤ S13312x128.size a
  inb_S13312x128_S8x128_2976_0 : ∀ a, (![2976, 0] : Fin 2 → Nat) a + S8x128.size a ≤ S13312x128.size a
  inb_S13312x128_S8x128_3184_0 : ∀ a, (![3184, 0] : Fin 2 → Nat) a + S8x128.size a ≤ S13312x128.size a
  inb_S13312x128_S8x128_3392_0 : ∀ a, (![3392, 0] : Fin 2 → Nat) a + S8x128.size a ≤ S13312x128.size a
  inb_S13312x128_S8x128_3600_0 : ∀ a, (![3600, 0] : Fin 2 → Nat) a + S8x128.size a ≤ S13312x128.size a
  inb_S13312x128_S8x128_3808_0 : ∀ a, (![3808, 0] : Fin 2 → Nat) a + S8x128.size a ≤ S13312x128.size a
  inb_S13312x128_S8x128_4016_0 : ∀ a, (![4016, 0] : Fin 2 → Nat) a + S8x128.size a ≤ S13312x128.size a
  inb_S13312x128_S8x128_4224_0 : ∀ a, (![4224, 0] : Fin 2 → Nat) a + S8x128.size a ≤ S13312x128.size a
  inb_S13312x128_S8x128_4432_0 : ∀ a, (![4432, 0] : Fin 2 → Nat) a + S8x128.size a ≤ S13312x128.size a
  inb_S13312x128_S8x128_4640_0 : ∀ a, (![4640, 0] : Fin 2 → Nat) a + S8x128.size a ≤ S13312x128.size a
  inb_S13312x128_S8x128_4848_0 : ∀ a, (![4848, 0] : Fin 2 → Nat) a + S8x128.size a ≤ S13312x128.size a
  inb_S13312x128_S8x128_5056_0 : ∀ a, (![5056, 0] : Fin 2 → Nat) a + S8x128.size a ≤ S13312x128.size a
  inb_S13312x128_S8x128_5264_0 : ∀ a, (![5264, 0] : Fin 2 → Nat) a + S8x128.size a ≤ S13312x128.size a
  inb_S13312x128_S8x128_5472_0 : ∀ a, (![5472, 0] : Fin 2 → Nat) a + S8x128.size a ≤ S13312x128.size a
  inb_S13312x128_S8x128_5680_0 : ∀ a, (![5680, 0] : Fin 2 → Nat) a + S8x128.size a ≤ S13312x128.size a
  inb_S13312x128_S8x128_5888_0 : ∀ a, (![5888, 0] : Fin 2 → Nat) a + S8x128.size a ≤ S13312x128.size a
  inb_S13312x128_S8x128_6096_0 : ∀ a, (![6096, 0] : Fin 2 → Nat) a + S8x128.size a ≤ S13312x128.size a
  inb_S13312x128_S8x128_6304_0 : ∀ a, (![6304, 0] : Fin 2 → Nat) a + S8x128.size a ≤ S13312x128.size a
  inb_S13312x128_S8x128_6512_0 : ∀ a, (![6512, 0] : Fin 2 → Nat) a + S8x128.size a ≤ S13312x128.size a
  inb_S13312x128_S8x128_6720_0 : ∀ a, (![6720, 0] : Fin 2 → Nat) a + S8x128.size a ≤ S13312x128.size a
  inb_S13312x128_S8x128_6928_0 : ∀ a, (![6928, 0] : Fin 2 → Nat) a + S8x128.size a ≤ S13312x128.size a
  inb_S13312x128_S8x128_7136_0 : ∀ a, (![7136, 0] : Fin 2 → Nat) a + S8x128.size a ≤ S13312x128.size a
  inb_S13312x128_S8x128_7344_0 : ∀ a, (![7344, 0] : Fin 2 → Nat) a + S8x128.size a ≤ S13312x128.size a
  inb_S13312x128_S8x128_7552_0 : ∀ a, (![7552, 0] : Fin 2 → Nat) a + S8x128.size a ≤ S13312x128.size a
  inb_S13312x128_S8x128_7760_0 : ∀ a, (![7760, 0] : Fin 2 → Nat) a + S8x128.size a ≤ S13312x128.size a
  inb_S13312x128_S8x128_7968_0 : ∀ a, (![7968, 0] : Fin 2 → Nat) a + S8x128.size a ≤ S13312x128.size a
  inb_S13312x128_S8x128_8176_0 : ∀ a, (![8176, 0] : Fin 2 → Nat) a + S8x128.size a ≤ S13312x128.size a
  inb_S13312x128_S8x128_8384_0 : ∀ a, (![8384, 0] : Fin 2 → Nat) a + S8x128.size a ≤ S13312x128.size a
  inb_S13312x128_S8x128_8592_0 : ∀ a, (![8592, 0] : Fin 2 → Nat) a + S8x128.size a ≤ S13312x128.size a
  inb_S13312x128_S8x128_8800_0 : ∀ a, (![8800, 0] : Fin 2 → Nat) a + S8x128.size a ≤ S13312x128.size a
  inb_S13312x128_S8x128_9008_0 : ∀ a, (![9008, 0] : Fin 2 → Nat) a + S8x128.size a ≤ S13312x128.size a
  inb_S13312x128_S8x128_9216_0 : ∀ a, (![9216, 0] : Fin 2 → Nat) a + S8x128.size a ≤ S13312x128.size a
  inb_S13312x128_S8x128_9424_0 : ∀ a, (![9424, 0] : Fin 2 → Nat) a + S8x128.size a ≤ S13312x128.size a
  inb_S13312x128_S8x128_9632_0 : ∀ a, (![9632, 0] : Fin 2 → Nat) a + S8x128.size a ≤ S13312x128.size a
  inb_S13312x128_S8x128_9840_0 : ∀ a, (![9840, 0] : Fin 2 → Nat) a + S8x128.size a ≤ S13312x128.size a
  inb_S13312x128_S8x128_10048_0 : ∀ a, (![10048, 0] : Fin 2 → Nat) a + S8x128.size a ≤ S13312x128.size a
  inb_S13312x128_S8x128_10256_0 : ∀ a, (![10256, 0] : Fin 2 → Nat) a + S8x128.size a ≤ S13312x128.size a
  inb_S13312x128_S8x128_10464_0 : ∀ a, (![10464, 0] : Fin 2 → Nat) a + S8x128.size a ≤ S13312x128.size a
  inb_S13312x128_S8x128_10672_0 : ∀ a, (![10672, 0] : Fin 2 → Nat) a + S8x128.size a ≤ S13312x128.size a
  inb_S13312x128_S8x128_10880_0 : ∀ a, (![10880, 0] : Fin 2 → Nat) a + S8x128.size a ≤ S13312x128.size a
  inb_S13312x128_S8x128_11088_0 : ∀ a, (![11088, 0] : Fin 2 → Nat) a + S8x128.size a ≤ S13312x128.size a
  inb_S13312x128_S8x128_11296_0 : ∀ a, (![11296, 0] : Fin 2 → Nat) a + S8x128.size a ≤ S13312x128.size a
  inb_S13312x128_S8x128_11504_0 : ∀ a, (![11504, 0] : Fin 2 → Nat) a + S8x128.size a ≤ S13312x128.size a
  inb_S13312x128_S8x128_11712_0 : ∀ a, (![11712, 0] : Fin 2 → Nat) a + S8x128.size a ≤ S13312x128.size a
  inb_S13312x128_S8x128_11920_0 : ∀ a, (![11920, 0] : Fin 2 → Nat) a + S8x128.size a ≤ S13312x128.size a
  inb_S13312x128_S8x128_12128_0 : ∀ a, (![12128, 0] : Fin 2 → Nat) a + S8x128.size a ≤ S13312x128.size a
  inb_S13312x128_S8x128_12336_0 : ∀ a, (![12336, 0] : Fin 2 → Nat) a + S8x128.size a ≤ S13312x128.size a
  inb_S13312x128_S8x128_12544_0 : ∀ a, (![12544, 0] : Fin 2 → Nat) a + S8x128.size a ≤ S13312x128.size a
  inb_S13312x128_S8x128_12752_0 : ∀ a, (![12752, 0] : Fin 2 → Nat) a + S8x128.size a ≤ S13312x128.size a
  inb_S13312x128_S8x128_12960_0 : ∀ a, (![12960, 0] : Fin 2 → Nat) a + S8x128.size a ≤ S13312x128.size a
  inb_S13312x128_S8x128_13168_0 : ∀ a, (![13168, 0] : Fin 2 → Nat) a + S8x128.size a ≤ S13312x128.size a
  inb_S3341x512_S128x512_1024_0 : ∀ a, (![1024, 0] : Fin 2 → Nat) a + S128x512.size a ≤ S3341x512.size a
  inb_S13312x128_S8x128_72_0 : ∀ a, (![72, 0] : Fin 2 → Nat) a + S8x128.size a ≤ S13312x128.size a
  inb_S13312x128_S8x128_280_0 : ∀ a, (![280, 0] : Fin 2 → Nat) a + S8x128.size a ≤ S13312x128.size a
  inb_S13312x128_S8x128_488_0 : ∀ a, (![488, 0] : Fin 2 → Nat) a + S8x128.size a ≤ S13312x128.size a
  inb_S13312x128_S8x128_696_0 : ∀ a, (![696, 0] : Fin 2 → Nat) a + S8x128.size a ≤ S13312x128.size a
  inb_S13312x128_S8x128_904_0 : ∀ a, (![904, 0] : Fin 2 → Nat) a + S8x128.size a ≤ S13312x128.size a
  inb_S13312x128_S8x128_1112_0 : ∀ a, (![1112, 0] : Fin 2 → Nat) a + S8x128.size a ≤ S13312x128.size a
  inb_S13312x128_S8x128_1320_0 : ∀ a, (![1320, 0] : Fin 2 → Nat) a + S8x128.size a ≤ S13312x128.size a
  inb_S13312x128_S8x128_1528_0 : ∀ a, (![1528, 0] : Fin 2 → Nat) a + S8x128.size a ≤ S13312x128.size a
  inb_S13312x128_S8x128_1736_0 : ∀ a, (![1736, 0] : Fin 2 → Nat) a + S8x128.size a ≤ S13312x128.size a
  inb_S13312x128_S8x128_1944_0 : ∀ a, (![1944, 0] : Fin 2 → Nat) a + S8x128.size a ≤ S13312x128.size a
  inb_S13312x128_S8x128_2152_0 : ∀ a, (![2152, 0] : Fin 2 → Nat) a + S8x128.size a ≤ S13312x128.size a
  inb_S13312x128_S8x128_2360_0 : ∀ a, (![2360, 0] : Fin 2 → Nat) a + S8x128.size a ≤ S13312x128.size a
  inb_S13312x128_S8x128_2568_0 : ∀ a, (![2568, 0] : Fin 2 → Nat) a + S8x128.size a ≤ S13312x128.size a
  inb_S13312x128_S8x128_2776_0 : ∀ a, (![2776, 0] : Fin 2 → Nat) a + S8x128.size a ≤ S13312x128.size a
  inb_S13312x128_S8x128_2984_0 : ∀ a, (![2984, 0] : Fin 2 → Nat) a + S8x128.size a ≤ S13312x128.size a
  inb_S13312x128_S8x128_3192_0 : ∀ a, (![3192, 0] : Fin 2 → Nat) a + S8x128.size a ≤ S13312x128.size a
  inb_S13312x128_S8x128_3400_0 : ∀ a, (![3400, 0] : Fin 2 → Nat) a + S8x128.size a ≤ S13312x128.size a
  inb_S13312x128_S8x128_3608_0 : ∀ a, (![3608, 0] : Fin 2 → Nat) a + S8x128.size a ≤ S13312x128.size a
  inb_S13312x128_S8x128_3816_0 : ∀ a, (![3816, 0] : Fin 2 → Nat) a + S8x128.size a ≤ S13312x128.size a
  inb_S13312x128_S8x128_4024_0 : ∀ a, (![4024, 0] : Fin 2 → Nat) a + S8x128.size a ≤ S13312x128.size a
  inb_S13312x128_S8x128_4232_0 : ∀ a, (![4232, 0] : Fin 2 → Nat) a + S8x128.size a ≤ S13312x128.size a
  inb_S13312x128_S8x128_4440_0 : ∀ a, (![4440, 0] : Fin 2 → Nat) a + S8x128.size a ≤ S13312x128.size a
  inb_S13312x128_S8x128_4648_0 : ∀ a, (![4648, 0] : Fin 2 → Nat) a + S8x128.size a ≤ S13312x128.size a
  inb_S13312x128_S8x128_4856_0 : ∀ a, (![4856, 0] : Fin 2 → Nat) a + S8x128.size a ≤ S13312x128.size a
  inb_S13312x128_S8x128_5064_0 : ∀ a, (![5064, 0] : Fin 2 → Nat) a + S8x128.size a ≤ S13312x128.size a
  inb_S13312x128_S8x128_5272_0 : ∀ a, (![5272, 0] : Fin 2 → Nat) a + S8x128.size a ≤ S13312x128.size a
  inb_S13312x128_S8x128_5480_0 : ∀ a, (![5480, 0] : Fin 2 → Nat) a + S8x128.size a ≤ S13312x128.size a
  inb_S13312x128_S8x128_5688_0 : ∀ a, (![5688, 0] : Fin 2 → Nat) a + S8x128.size a ≤ S13312x128.size a
  inb_S13312x128_S8x128_5896_0 : ∀ a, (![5896, 0] : Fin 2 → Nat) a + S8x128.size a ≤ S13312x128.size a
  inb_S13312x128_S8x128_6104_0 : ∀ a, (![6104, 0] : Fin 2 → Nat) a + S8x128.size a ≤ S13312x128.size a
  inb_S13312x128_S8x128_6312_0 : ∀ a, (![6312, 0] : Fin 2 → Nat) a + S8x128.size a ≤ S13312x128.size a
  inb_S13312x128_S8x128_6520_0 : ∀ a, (![6520, 0] : Fin 2 → Nat) a + S8x128.size a ≤ S13312x128.size a
  inb_S13312x128_S8x128_6728_0 : ∀ a, (![6728, 0] : Fin 2 → Nat) a + S8x128.size a ≤ S13312x128.size a
  inb_S13312x128_S8x128_6936_0 : ∀ a, (![6936, 0] : Fin 2 → Nat) a + S8x128.size a ≤ S13312x128.size a
  inb_S13312x128_S8x128_7144_0 : ∀ a, (![7144, 0] : Fin 2 → Nat) a + S8x128.size a ≤ S13312x128.size a
  inb_S13312x128_S8x128_7352_0 : ∀ a, (![7352, 0] : Fin 2 → Nat) a + S8x128.size a ≤ S13312x128.size a
  inb_S13312x128_S8x128_7560_0 : ∀ a, (![7560, 0] : Fin 2 → Nat) a + S8x128.size a ≤ S13312x128.size a
  inb_S13312x128_S8x128_7768_0 : ∀ a, (![7768, 0] : Fin 2 → Nat) a + S8x128.size a ≤ S13312x128.size a
  inb_S13312x128_S8x128_7976_0 : ∀ a, (![7976, 0] : Fin 2 → Nat) a + S8x128.size a ≤ S13312x128.size a
  inb_S13312x128_S8x128_8184_0 : ∀ a, (![8184, 0] : Fin 2 → Nat) a + S8x128.size a ≤ S13312x128.size a
  inb_S13312x128_S8x128_8392_0 : ∀ a, (![8392, 0] : Fin 2 → Nat) a + S8x128.size a ≤ S13312x128.size a
  inb_S13312x128_S8x128_8600_0 : ∀ a, (![8600, 0] : Fin 2 → Nat) a + S8x128.size a ≤ S13312x128.size a
  inb_S13312x128_S8x128_8808_0 : ∀ a, (![8808, 0] : Fin 2 → Nat) a + S8x128.size a ≤ S13312x128.size a
  inb_S13312x128_S8x128_9016_0 : ∀ a, (![9016, 0] : Fin 2 → Nat) a + S8x128.size a ≤ S13312x128.size a
  inb_S13312x128_S8x128_9224_0 : ∀ a, (![9224, 0] : Fin 2 → Nat) a + S8x128.size a ≤ S13312x128.size a
  inb_S13312x128_S8x128_9432_0 : ∀ a, (![9432, 0] : Fin 2 → Nat) a + S8x128.size a ≤ S13312x128.size a
  inb_S13312x128_S8x128_9640_0 : ∀ a, (![9640, 0] : Fin 2 → Nat) a + S8x128.size a ≤ S13312x128.size a
  inb_S13312x128_S8x128_9848_0 : ∀ a, (![9848, 0] : Fin 2 → Nat) a + S8x128.size a ≤ S13312x128.size a
  inb_S13312x128_S8x128_10056_0 : ∀ a, (![10056, 0] : Fin 2 → Nat) a + S8x128.size a ≤ S13312x128.size a
  inb_S13312x128_S8x128_10264_0 : ∀ a, (![10264, 0] : Fin 2 → Nat) a + S8x128.size a ≤ S13312x128.size a
  inb_S13312x128_S8x128_10472_0 : ∀ a, (![10472, 0] : Fin 2 → Nat) a + S8x128.size a ≤ S13312x128.size a
  inb_S13312x128_S8x128_10680_0 : ∀ a, (![10680, 0] : Fin 2 → Nat) a + S8x128.size a ≤ S13312x128.size a
  inb_S13312x128_S8x128_10888_0 : ∀ a, (![10888, 0] : Fin 2 → Nat) a + S8x128.size a ≤ S13312x128.size a
  inb_S13312x128_S8x128_11096_0 : ∀ a, (![11096, 0] : Fin 2 → Nat) a + S8x128.size a ≤ S13312x128.size a
  inb_S13312x128_S8x128_11304_0 : ∀ a, (![11304, 0] : Fin 2 → Nat) a + S8x128.size a ≤ S13312x128.size a
  inb_S13312x128_S8x128_11512_0 : ∀ a, (![11512, 0] : Fin 2 → Nat) a + S8x128.size a ≤ S13312x128.size a
  inb_S13312x128_S8x128_11720_0 : ∀ a, (![11720, 0] : Fin 2 → Nat) a + S8x128.size a ≤ S13312x128.size a
  inb_S13312x128_S8x128_11928_0 : ∀ a, (![11928, 0] : Fin 2 → Nat) a + S8x128.size a ≤ S13312x128.size a
  inb_S13312x128_S8x128_12136_0 : ∀ a, (![12136, 0] : Fin 2 → Nat) a + S8x128.size a ≤ S13312x128.size a
  inb_S13312x128_S8x128_12344_0 : ∀ a, (![12344, 0] : Fin 2 → Nat) a + S8x128.size a ≤ S13312x128.size a
  inb_S13312x128_S8x128_12552_0 : ∀ a, (![12552, 0] : Fin 2 → Nat) a + S8x128.size a ≤ S13312x128.size a
  inb_S13312x128_S8x128_12760_0 : ∀ a, (![12760, 0] : Fin 2 → Nat) a + S8x128.size a ≤ S13312x128.size a
  inb_S13312x128_S8x128_12968_0 : ∀ a, (![12968, 0] : Fin 2 → Nat) a + S8x128.size a ≤ S13312x128.size a
  inb_S13312x128_S8x128_13176_0 : ∀ a, (![13176, 0] : Fin 2 → Nat) a + S8x128.size a ≤ S13312x128.size a
  inb_S3341x512_S128x512_1152_0 : ∀ a, (![1152, 0] : Fin 2 → Nat) a + S128x512.size a ≤ S3341x512.size a
  inb_S13312x128_S8x128_80_0 : ∀ a, (![80, 0] : Fin 2 → Nat) a + S8x128.size a ≤ S13312x128.size a
  inb_S13312x128_S8x128_288_0 : ∀ a, (![288, 0] : Fin 2 → Nat) a + S8x128.size a ≤ S13312x128.size a
  inb_S13312x128_S8x128_496_0 : ∀ a, (![496, 0] : Fin 2 → Nat) a + S8x128.size a ≤ S13312x128.size a
  inb_S13312x128_S8x128_704_0 : ∀ a, (![704, 0] : Fin 2 → Nat) a + S8x128.size a ≤ S13312x128.size a
  inb_S13312x128_S8x128_912_0 : ∀ a, (![912, 0] : Fin 2 → Nat) a + S8x128.size a ≤ S13312x128.size a
  inb_S13312x128_S8x128_1120_0 : ∀ a, (![1120, 0] : Fin 2 → Nat) a + S8x128.size a ≤ S13312x128.size a
  inb_S13312x128_S8x128_1328_0 : ∀ a, (![1328, 0] : Fin 2 → Nat) a + S8x128.size a ≤ S13312x128.size a
  inb_S13312x128_S8x128_1536_0 : ∀ a, (![1536, 0] : Fin 2 → Nat) a + S8x128.size a ≤ S13312x128.size a
  inb_S13312x128_S8x128_1744_0 : ∀ a, (![1744, 0] : Fin 2 → Nat) a + S8x128.size a ≤ S13312x128.size a
  inb_S13312x128_S8x128_1952_0 : ∀ a, (![1952, 0] : Fin 2 → Nat) a + S8x128.size a ≤ S13312x128.size a
  inb_S13312x128_S8x128_2160_0 : ∀ a, (![2160, 0] : Fin 2 → Nat) a + S8x128.size a ≤ S13312x128.size a
  inb_S13312x128_S8x128_2368_0 : ∀ a, (![2368, 0] : Fin 2 → Nat) a + S8x128.size a ≤ S13312x128.size a
  inb_S13312x128_S8x128_2576_0 : ∀ a, (![2576, 0] : Fin 2 → Nat) a + S8x128.size a ≤ S13312x128.size a
  inb_S13312x128_S8x128_2784_0 : ∀ a, (![2784, 0] : Fin 2 → Nat) a + S8x128.size a ≤ S13312x128.size a
  inb_S13312x128_S8x128_2992_0 : ∀ a, (![2992, 0] : Fin 2 → Nat) a + S8x128.size a ≤ S13312x128.size a
  inb_S13312x128_S8x128_3200_0 : ∀ a, (![3200, 0] : Fin 2 → Nat) a + S8x128.size a ≤ S13312x128.size a
  inb_S13312x128_S8x128_3408_0 : ∀ a, (![3408, 0] : Fin 2 → Nat) a + S8x128.size a ≤ S13312x128.size a
  inb_S13312x128_S8x128_3616_0 : ∀ a, (![3616, 0] : Fin 2 → Nat) a + S8x128.size a ≤ S13312x128.size a
  inb_S13312x128_S8x128_3824_0 : ∀ a, (![3824, 0] : Fin 2 → Nat) a + S8x128.size a ≤ S13312x128.size a
  inb_S13312x128_S8x128_4032_0 : ∀ a, (![4032, 0] : Fin 2 → Nat) a + S8x128.size a ≤ S13312x128.size a
  inb_S13312x128_S8x128_4240_0 : ∀ a, (![4240, 0] : Fin 2 → Nat) a + S8x128.size a ≤ S13312x128.size a
  inb_S13312x128_S8x128_4448_0 : ∀ a, (![4448, 0] : Fin 2 → Nat) a + S8x128.size a ≤ S13312x128.size a
  inb_S13312x128_S8x128_4656_0 : ∀ a, (![4656, 0] : Fin 2 → Nat) a + S8x128.size a ≤ S13312x128.size a
  inb_S13312x128_S8x128_4864_0 : ∀ a, (![4864, 0] : Fin 2 → Nat) a + S8x128.size a ≤ S13312x128.size a
  inb_S13312x128_S8x128_5072_0 : ∀ a, (![5072, 0] : Fin 2 → Nat) a + S8x128.size a ≤ S13312x128.size a
  inb_S13312x128_S8x128_5280_0 : ∀ a, (![5280, 0] : Fin 2 → Nat) a + S8x128.size a ≤ S13312x128.size a
  inb_S13312x128_S8x128_5488_0 : ∀ a, (![5488, 0] : Fin 2 → Nat) a + S8x128.size a ≤ S13312x128.size a
  inb_S13312x128_S8x128_5696_0 : ∀ a, (![5696, 0] : Fin 2 → Nat) a + S8x128.size a ≤ S13312x128.size a
  inb_S13312x128_S8x128_5904_0 : ∀ a, (![5904, 0] : Fin 2 → Nat) a + S8x128.size a ≤ S13312x128.size a
  inb_S13312x128_S8x128_6112_0 : ∀ a, (![6112, 0] : Fin 2 → Nat) a + S8x128.size a ≤ S13312x128.size a
  inb_S13312x128_S8x128_6320_0 : ∀ a, (![6320, 0] : Fin 2 → Nat) a + S8x128.size a ≤ S13312x128.size a
  inb_S13312x128_S8x128_6528_0 : ∀ a, (![6528, 0] : Fin 2 → Nat) a + S8x128.size a ≤ S13312x128.size a
  inb_S13312x128_S8x128_6736_0 : ∀ a, (![6736, 0] : Fin 2 → Nat) a + S8x128.size a ≤ S13312x128.size a
  inb_S13312x128_S8x128_6944_0 : ∀ a, (![6944, 0] : Fin 2 → Nat) a + S8x128.size a ≤ S13312x128.size a
  inb_S13312x128_S8x128_7152_0 : ∀ a, (![7152, 0] : Fin 2 → Nat) a + S8x128.size a ≤ S13312x128.size a
  inb_S13312x128_S8x128_7360_0 : ∀ a, (![7360, 0] : Fin 2 → Nat) a + S8x128.size a ≤ S13312x128.size a
  inb_S13312x128_S8x128_7568_0 : ∀ a, (![7568, 0] : Fin 2 → Nat) a + S8x128.size a ≤ S13312x128.size a
  inb_S13312x128_S8x128_7776_0 : ∀ a, (![7776, 0] : Fin 2 → Nat) a + S8x128.size a ≤ S13312x128.size a
  inb_S13312x128_S8x128_7984_0 : ∀ a, (![7984, 0] : Fin 2 → Nat) a + S8x128.size a ≤ S13312x128.size a
  inb_S13312x128_S8x128_8192_0 : ∀ a, (![8192, 0] : Fin 2 → Nat) a + S8x128.size a ≤ S13312x128.size a
  inb_S13312x128_S8x128_8400_0 : ∀ a, (![8400, 0] : Fin 2 → Nat) a + S8x128.size a ≤ S13312x128.size a
  inb_S13312x128_S8x128_8608_0 : ∀ a, (![8608, 0] : Fin 2 → Nat) a + S8x128.size a ≤ S13312x128.size a
  inb_S13312x128_S8x128_8816_0 : ∀ a, (![8816, 0] : Fin 2 → Nat) a + S8x128.size a ≤ S13312x128.size a
  inb_S13312x128_S8x128_9024_0 : ∀ a, (![9024, 0] : Fin 2 → Nat) a + S8x128.size a ≤ S13312x128.size a
  inb_S13312x128_S8x128_9232_0 : ∀ a, (![9232, 0] : Fin 2 → Nat) a + S8x128.size a ≤ S13312x128.size a
  inb_S13312x128_S8x128_9440_0 : ∀ a, (![9440, 0] : Fin 2 → Nat) a + S8x128.size a ≤ S13312x128.size a
  inb_S13312x128_S8x128_9648_0 : ∀ a, (![9648, 0] : Fin 2 → Nat) a + S8x128.size a ≤ S13312x128.size a
  inb_S13312x128_S8x128_9856_0 : ∀ a, (![9856, 0] : Fin 2 → Nat) a + S8x128.size a ≤ S13312x128.size a
  inb_S13312x128_S8x128_10064_0 : ∀ a, (![10064, 0] : Fin 2 → Nat) a + S8x128.size a ≤ S13312x128.size a
  inb_S13312x128_S8x128_10272_0 : ∀ a, (![10272, 0] : Fin 2 → Nat) a + S8x128.size a ≤ S13312x128.size a
  inb_S13312x128_S8x128_10480_0 : ∀ a, (![10480, 0] : Fin 2 → Nat) a + S8x128.size a ≤ S13312x128.size a
  inb_S13312x128_S8x128_10688_0 : ∀ a, (![10688, 0] : Fin 2 → Nat) a + S8x128.size a ≤ S13312x128.size a
  inb_S13312x128_S8x128_10896_0 : ∀ a, (![10896, 0] : Fin 2 → Nat) a + S8x128.size a ≤ S13312x128.size a
  inb_S13312x128_S8x128_11104_0 : ∀ a, (![11104, 0] : Fin 2 → Nat) a + S8x128.size a ≤ S13312x128.size a
  inb_S13312x128_S8x128_11312_0 : ∀ a, (![11312, 0] : Fin 2 → Nat) a + S8x128.size a ≤ S13312x128.size a
  inb_S13312x128_S8x128_11520_0 : ∀ a, (![11520, 0] : Fin 2 → Nat) a + S8x128.size a ≤ S13312x128.size a
  inb_S13312x128_S8x128_11728_0 : ∀ a, (![11728, 0] : Fin 2 → Nat) a + S8x128.size a ≤ S13312x128.size a
  inb_S13312x128_S8x128_11936_0 : ∀ a, (![11936, 0] : Fin 2 → Nat) a + S8x128.size a ≤ S13312x128.size a
  inb_S13312x128_S8x128_12144_0 : ∀ a, (![12144, 0] : Fin 2 → Nat) a + S8x128.size a ≤ S13312x128.size a
  inb_S13312x128_S8x128_12352_0 : ∀ a, (![12352, 0] : Fin 2 → Nat) a + S8x128.size a ≤ S13312x128.size a
  inb_S13312x128_S8x128_12560_0 : ∀ a, (![12560, 0] : Fin 2 → Nat) a + S8x128.size a ≤ S13312x128.size a
  inb_S13312x128_S8x128_12768_0 : ∀ a, (![12768, 0] : Fin 2 → Nat) a + S8x128.size a ≤ S13312x128.size a
  inb_S13312x128_S8x128_12976_0 : ∀ a, (![12976, 0] : Fin 2 → Nat) a + S8x128.size a ≤ S13312x128.size a
  inb_S13312x128_S8x128_13184_0 : ∀ a, (![13184, 0] : Fin 2 → Nat) a + S8x128.size a ≤ S13312x128.size a
  inb_S3341x512_S128x512_1280_0 : ∀ a, (![1280, 0] : Fin 2 → Nat) a + S128x512.size a ≤ S3341x512.size a
  inb_S13312x128_S8x128_88_0 : ∀ a, (![88, 0] : Fin 2 → Nat) a + S8x128.size a ≤ S13312x128.size a
  inb_S13312x128_S8x128_296_0 : ∀ a, (![296, 0] : Fin 2 → Nat) a + S8x128.size a ≤ S13312x128.size a
  inb_S13312x128_S8x128_504_0 : ∀ a, (![504, 0] : Fin 2 → Nat) a + S8x128.size a ≤ S13312x128.size a
  inb_S13312x128_S8x128_712_0 : ∀ a, (![712, 0] : Fin 2 → Nat) a + S8x128.size a ≤ S13312x128.size a
  inb_S13312x128_S8x128_920_0 : ∀ a, (![920, 0] : Fin 2 → Nat) a + S8x128.size a ≤ S13312x128.size a
  inb_S13312x128_S8x128_1128_0 : ∀ a, (![1128, 0] : Fin 2 → Nat) a + S8x128.size a ≤ S13312x128.size a
  inb_S13312x128_S8x128_1336_0 : ∀ a, (![1336, 0] : Fin 2 → Nat) a + S8x128.size a ≤ S13312x128.size a
  inb_S13312x128_S8x128_1544_0 : ∀ a, (![1544, 0] : Fin 2 → Nat) a + S8x128.size a ≤ S13312x128.size a
  inb_S13312x128_S8x128_1752_0 : ∀ a, (![1752, 0] : Fin 2 → Nat) a + S8x128.size a ≤ S13312x128.size a
  inb_S13312x128_S8x128_1960_0 : ∀ a, (![1960, 0] : Fin 2 → Nat) a + S8x128.size a ≤ S13312x128.size a
  inb_S13312x128_S8x128_2168_0 : ∀ a, (![2168, 0] : Fin 2 → Nat) a + S8x128.size a ≤ S13312x128.size a
  inb_S13312x128_S8x128_2376_0 : ∀ a, (![2376, 0] : Fin 2 → Nat) a + S8x128.size a ≤ S13312x128.size a
  inb_S13312x128_S8x128_2584_0 : ∀ a, (![2584, 0] : Fin 2 → Nat) a + S8x128.size a ≤ S13312x128.size a
  inb_S13312x128_S8x128_2792_0 : ∀ a, (![2792, 0] : Fin 2 → Nat) a + S8x128.size a ≤ S13312x128.size a
  inb_S13312x128_S8x128_3000_0 : ∀ a, (![3000, 0] : Fin 2 → Nat) a + S8x128.size a ≤ S13312x128.size a
  inb_S13312x128_S8x128_3208_0 : ∀ a, (![3208, 0] : Fin 2 → Nat) a + S8x128.size a ≤ S13312x128.size a
  inb_S13312x128_S8x128_3416_0 : ∀ a, (![3416, 0] : Fin 2 → Nat) a + S8x128.size a ≤ S13312x128.size a
  inb_S13312x128_S8x128_3624_0 : ∀ a, (![3624, 0] : Fin 2 → Nat) a + S8x128.size a ≤ S13312x128.size a
  inb_S13312x128_S8x128_3832_0 : ∀ a, (![3832, 0] : Fin 2 → Nat) a + S8x128.size a ≤ S13312x128.size a
  inb_S13312x128_S8x128_4040_0 : ∀ a, (![4040, 0] : Fin 2 → Nat) a + S8x128.size a ≤ S13312x128.size a
  inb_S13312x128_S8x128_4248_0 : ∀ a, (![4248, 0] : Fin 2 → Nat) a + S8x128.size a ≤ S13312x128.size a
  inb_S13312x128_S8x128_4456_0 : ∀ a, (![4456, 0] : Fin 2 → Nat) a + S8x128.size a ≤ S13312x128.size a
  inb_S13312x128_S8x128_4664_0 : ∀ a, (![4664, 0] : Fin 2 → Nat) a + S8x128.size a ≤ S13312x128.size a
  inb_S13312x128_S8x128_4872_0 : ∀ a, (![4872, 0] : Fin 2 → Nat) a + S8x128.size a ≤ S13312x128.size a
  inb_S13312x128_S8x128_5080_0 : ∀ a, (![5080, 0] : Fin 2 → Nat) a + S8x128.size a ≤ S13312x128.size a
  inb_S13312x128_S8x128_5288_0 : ∀ a, (![5288, 0] : Fin 2 → Nat) a + S8x128.size a ≤ S13312x128.size a
  inb_S13312x128_S8x128_5496_0 : ∀ a, (![5496, 0] : Fin 2 → Nat) a + S8x128.size a ≤ S13312x128.size a
  inb_S13312x128_S8x128_5704_0 : ∀ a, (![5704, 0] : Fin 2 → Nat) a + S8x128.size a ≤ S13312x128.size a
  inb_S13312x128_S8x128_5912_0 : ∀ a, (![5912, 0] : Fin 2 → Nat) a + S8x128.size a ≤ S13312x128.size a
  inb_S13312x128_S8x128_6120_0 : ∀ a, (![6120, 0] : Fin 2 → Nat) a + S8x128.size a ≤ S13312x128.size a
  inb_S13312x128_S8x128_6328_0 : ∀ a, (![6328, 0] : Fin 2 → Nat) a + S8x128.size a ≤ S13312x128.size a
  inb_S13312x128_S8x128_6536_0 : ∀ a, (![6536, 0] : Fin 2 → Nat) a + S8x128.size a ≤ S13312x128.size a
  inb_S13312x128_S8x128_6744_0 : ∀ a, (![6744, 0] : Fin 2 → Nat) a + S8x128.size a ≤ S13312x128.size a
  inb_S13312x128_S8x128_6952_0 : ∀ a, (![6952, 0] : Fin 2 → Nat) a + S8x128.size a ≤ S13312x128.size a
  inb_S13312x128_S8x128_7160_0 : ∀ a, (![7160, 0] : Fin 2 → Nat) a + S8x128.size a ≤ S13312x128.size a
  inb_S13312x128_S8x128_7368_0 : ∀ a, (![7368, 0] : Fin 2 → Nat) a + S8x128.size a ≤ S13312x128.size a
  inb_S13312x128_S8x128_7576_0 : ∀ a, (![7576, 0] : Fin 2 → Nat) a + S8x128.size a ≤ S13312x128.size a
  inb_S13312x128_S8x128_7784_0 : ∀ a, (![7784, 0] : Fin 2 → Nat) a + S8x128.size a ≤ S13312x128.size a
  inb_S13312x128_S8x128_7992_0 : ∀ a, (![7992, 0] : Fin 2 → Nat) a + S8x128.size a ≤ S13312x128.size a
  inb_S13312x128_S8x128_8200_0 : ∀ a, (![8200, 0] : Fin 2 → Nat) a + S8x128.size a ≤ S13312x128.size a
  inb_S13312x128_S8x128_8408_0 : ∀ a, (![8408, 0] : Fin 2 → Nat) a + S8x128.size a ≤ S13312x128.size a
  inb_S13312x128_S8x128_8616_0 : ∀ a, (![8616, 0] : Fin 2 → Nat) a + S8x128.size a ≤ S13312x128.size a
  inb_S13312x128_S8x128_8824_0 : ∀ a, (![8824, 0] : Fin 2 → Nat) a + S8x128.size a ≤ S13312x128.size a
  inb_S13312x128_S8x128_9032_0 : ∀ a, (![9032, 0] : Fin 2 → Nat) a + S8x128.size a ≤ S13312x128.size a
  inb_S13312x128_S8x128_9240_0 : ∀ a, (![9240, 0] : Fin 2 → Nat) a + S8x128.size a ≤ S13312x128.size a
  inb_S13312x128_S8x128_9448_0 : ∀ a, (![9448, 0] : Fin 2 → Nat) a + S8x128.size a ≤ S13312x128.size a
  inb_S13312x128_S8x128_9656_0 : ∀ a, (![9656, 0] : Fin 2 → Nat) a + S8x128.size a ≤ S13312x128.size a
  inb_S13312x128_S8x128_9864_0 : ∀ a, (![9864, 0] : Fin 2 → Nat) a + S8x128.size a ≤ S13312x128.size a
  inb_S13312x128_S8x128_10072_0 : ∀ a, (![10072, 0] : Fin 2 → Nat) a + S8x128.size a ≤ S13312x128.size a
  inb_S13312x128_S8x128_10280_0 : ∀ a, (![10280, 0] : Fin 2 → Nat) a + S8x128.size a ≤ S13312x128.size a
  inb_S13312x128_S8x128_10488_0 : ∀ a, (![10488, 0] : Fin 2 → Nat) a + S8x128.size a ≤ S13312x128.size a
  inb_S13312x128_S8x128_10696_0 : ∀ a, (![10696, 0] : Fin 2 → Nat) a + S8x128.size a ≤ S13312x128.size a
  inb_S13312x128_S8x128_10904_0 : ∀ a, (![10904, 0] : Fin 2 → Nat) a + S8x128.size a ≤ S13312x128.size a
  inb_S13312x128_S8x128_11112_0 : ∀ a, (![11112, 0] : Fin 2 → Nat) a + S8x128.size a ≤ S13312x128.size a
  inb_S13312x128_S8x128_11320_0 : ∀ a, (![11320, 0] : Fin 2 → Nat) a + S8x128.size a ≤ S13312x128.size a
  inb_S13312x128_S8x128_11528_0 : ∀ a, (![11528, 0] : Fin 2 → Nat) a + S8x128.size a ≤ S13312x128.size a
  inb_S13312x128_S8x128_11736_0 : ∀ a, (![11736, 0] : Fin 2 → Nat) a + S8x128.size a ≤ S13312x128.size a
  inb_S13312x128_S8x128_11944_0 : ∀ a, (![11944, 0] : Fin 2 → Nat) a + S8x128.size a ≤ S13312x128.size a
  inb_S13312x128_S8x128_12152_0 : ∀ a, (![12152, 0] : Fin 2 → Nat) a + S8x128.size a ≤ S13312x128.size a
  inb_S13312x128_S8x128_12360_0 : ∀ a, (![12360, 0] : Fin 2 → Nat) a + S8x128.size a ≤ S13312x128.size a
  inb_S13312x128_S8x128_12568_0 : ∀ a, (![12568, 0] : Fin 2 → Nat) a + S8x128.size a ≤ S13312x128.size a
  inb_S13312x128_S8x128_12776_0 : ∀ a, (![12776, 0] : Fin 2 → Nat) a + S8x128.size a ≤ S13312x128.size a
  inb_S13312x128_S8x128_12984_0 : ∀ a, (![12984, 0] : Fin 2 → Nat) a + S8x128.size a ≤ S13312x128.size a
  inb_S13312x128_S8x128_13192_0 : ∀ a, (![13192, 0] : Fin 2 → Nat) a + S8x128.size a ≤ S13312x128.size a
  inb_S3341x512_S128x512_1408_0 : ∀ a, (![1408, 0] : Fin 2 → Nat) a + S128x512.size a ≤ S3341x512.size a
  inb_S13312x128_S8x128_96_0 : ∀ a, (![96, 0] : Fin 2 → Nat) a + S8x128.size a ≤ S13312x128.size a
  inb_S13312x128_S8x128_304_0 : ∀ a, (![304, 0] : Fin 2 → Nat) a + S8x128.size a ≤ S13312x128.size a
  inb_S13312x128_S8x128_512_0 : ∀ a, (![512, 0] : Fin 2 → Nat) a + S8x128.size a ≤ S13312x128.size a
  inb_S13312x128_S8x128_720_0 : ∀ a, (![720, 0] : Fin 2 → Nat) a + S8x128.size a ≤ S13312x128.size a
  inb_S13312x128_S8x128_928_0 : ∀ a, (![928, 0] : Fin 2 → Nat) a + S8x128.size a ≤ S13312x128.size a
  inb_S13312x128_S8x128_1136_0 : ∀ a, (![1136, 0] : Fin 2 → Nat) a + S8x128.size a ≤ S13312x128.size a
  inb_S13312x128_S8x128_1344_0 : ∀ a, (![1344, 0] : Fin 2 → Nat) a + S8x128.size a ≤ S13312x128.size a
  inb_S13312x128_S8x128_1552_0 : ∀ a, (![1552, 0] : Fin 2 → Nat) a + S8x128.size a ≤ S13312x128.size a
  inb_S13312x128_S8x128_1760_0 : ∀ a, (![1760, 0] : Fin 2 → Nat) a + S8x128.size a ≤ S13312x128.size a
  inb_S13312x128_S8x128_1968_0 : ∀ a, (![1968, 0] : Fin 2 → Nat) a + S8x128.size a ≤ S13312x128.size a
  inb_S13312x128_S8x128_2176_0 : ∀ a, (![2176, 0] : Fin 2 → Nat) a + S8x128.size a ≤ S13312x128.size a
  inb_S13312x128_S8x128_2384_0 : ∀ a, (![2384, 0] : Fin 2 → Nat) a + S8x128.size a ≤ S13312x128.size a
  inb_S13312x128_S8x128_2592_0 : ∀ a, (![2592, 0] : Fin 2 → Nat) a + S8x128.size a ≤ S13312x128.size a
  inb_S13312x128_S8x128_2800_0 : ∀ a, (![2800, 0] : Fin 2 → Nat) a + S8x128.size a ≤ S13312x128.size a
  inb_S13312x128_S8x128_3008_0 : ∀ a, (![3008, 0] : Fin 2 → Nat) a + S8x128.size a ≤ S13312x128.size a
  inb_S13312x128_S8x128_3216_0 : ∀ a, (![3216, 0] : Fin 2 → Nat) a + S8x128.size a ≤ S13312x128.size a
  inb_S13312x128_S8x128_3424_0 : ∀ a, (![3424, 0] : Fin 2 → Nat) a + S8x128.size a ≤ S13312x128.size a
  inb_S13312x128_S8x128_3632_0 : ∀ a, (![3632, 0] : Fin 2 → Nat) a + S8x128.size a ≤ S13312x128.size a
  inb_S13312x128_S8x128_3840_0 : ∀ a, (![3840, 0] : Fin 2 → Nat) a + S8x128.size a ≤ S13312x128.size a
  inb_S13312x128_S8x128_4048_0 : ∀ a, (![4048, 0] : Fin 2 → Nat) a + S8x128.size a ≤ S13312x128.size a
  inb_S13312x128_S8x128_4256_0 : ∀ a, (![4256, 0] : Fin 2 → Nat) a + S8x128.size a ≤ S13312x128.size a
  inb_S13312x128_S8x128_4464_0 : ∀ a, (![4464, 0] : Fin 2 → Nat) a + S8x128.size a ≤ S13312x128.size a
  inb_S13312x128_S8x128_4672_0 : ∀ a, (![4672, 0] : Fin 2 → Nat) a + S8x128.size a ≤ S13312x128.size a
  inb_S13312x128_S8x128_4880_0 : ∀ a, (![4880, 0] : Fin 2 → Nat) a + S8x128.size a ≤ S13312x128.size a
  inb_S13312x128_S8x128_5088_0 : ∀ a, (![5088, 0] : Fin 2 → Nat) a + S8x128.size a ≤ S13312x128.size a
  inb_S13312x128_S8x128_5296_0 : ∀ a, (![5296, 0] : Fin 2 → Nat) a + S8x128.size a ≤ S13312x128.size a
  inb_S13312x128_S8x128_5504_0 : ∀ a, (![5504, 0] : Fin 2 → Nat) a + S8x128.size a ≤ S13312x128.size a
  inb_S13312x128_S8x128_5712_0 : ∀ a, (![5712, 0] : Fin 2 → Nat) a + S8x128.size a ≤ S13312x128.size a
  inb_S13312x128_S8x128_5920_0 : ∀ a, (![5920, 0] : Fin 2 → Nat) a + S8x128.size a ≤ S13312x128.size a
  inb_S13312x128_S8x128_6128_0 : ∀ a, (![6128, 0] : Fin 2 → Nat) a + S8x128.size a ≤ S13312x128.size a
  inb_S13312x128_S8x128_6336_0 : ∀ a, (![6336, 0] : Fin 2 → Nat) a + S8x128.size a ≤ S13312x128.size a
  inb_S13312x128_S8x128_6544_0 : ∀ a, (![6544, 0] : Fin 2 → Nat) a + S8x128.size a ≤ S13312x128.size a
  inb_S13312x128_S8x128_6752_0 : ∀ a, (![6752, 0] : Fin 2 → Nat) a + S8x128.size a ≤ S13312x128.size a
  inb_S13312x128_S8x128_6960_0 : ∀ a, (![6960, 0] : Fin 2 → Nat) a + S8x128.size a ≤ S13312x128.size a
  inb_S13312x128_S8x128_7168_0 : ∀ a, (![7168, 0] : Fin 2 → Nat) a + S8x128.size a ≤ S13312x128.size a
  inb_S13312x128_S8x128_7376_0 : ∀ a, (![7376, 0] : Fin 2 → Nat) a + S8x128.size a ≤ S13312x128.size a
  inb_S13312x128_S8x128_7584_0 : ∀ a, (![7584, 0] : Fin 2 → Nat) a + S8x128.size a ≤ S13312x128.size a
  inb_S13312x128_S8x128_7792_0 : ∀ a, (![7792, 0] : Fin 2 → Nat) a + S8x128.size a ≤ S13312x128.size a
  inb_S13312x128_S8x128_8000_0 : ∀ a, (![8000, 0] : Fin 2 → Nat) a + S8x128.size a ≤ S13312x128.size a
  inb_S13312x128_S8x128_8208_0 : ∀ a, (![8208, 0] : Fin 2 → Nat) a + S8x128.size a ≤ S13312x128.size a
  inb_S13312x128_S8x128_8416_0 : ∀ a, (![8416, 0] : Fin 2 → Nat) a + S8x128.size a ≤ S13312x128.size a
  inb_S13312x128_S8x128_8624_0 : ∀ a, (![8624, 0] : Fin 2 → Nat) a + S8x128.size a ≤ S13312x128.size a
  inb_S13312x128_S8x128_8832_0 : ∀ a, (![8832, 0] : Fin 2 → Nat) a + S8x128.size a ≤ S13312x128.size a
  inb_S13312x128_S8x128_9040_0 : ∀ a, (![9040, 0] : Fin 2 → Nat) a + S8x128.size a ≤ S13312x128.size a
  inb_S13312x128_S8x128_9248_0 : ∀ a, (![9248, 0] : Fin 2 → Nat) a + S8x128.size a ≤ S13312x128.size a
  inb_S13312x128_S8x128_9456_0 : ∀ a, (![9456, 0] : Fin 2 → Nat) a + S8x128.size a ≤ S13312x128.size a
  inb_S13312x128_S8x128_9664_0 : ∀ a, (![9664, 0] : Fin 2 → Nat) a + S8x128.size a ≤ S13312x128.size a
  inb_S13312x128_S8x128_9872_0 : ∀ a, (![9872, 0] : Fin 2 → Nat) a + S8x128.size a ≤ S13312x128.size a
  inb_S13312x128_S8x128_10080_0 : ∀ a, (![10080, 0] : Fin 2 → Nat) a + S8x128.size a ≤ S13312x128.size a
  inb_S13312x128_S8x128_10288_0 : ∀ a, (![10288, 0] : Fin 2 → Nat) a + S8x128.size a ≤ S13312x128.size a
  inb_S13312x128_S8x128_10496_0 : ∀ a, (![10496, 0] : Fin 2 → Nat) a + S8x128.size a ≤ S13312x128.size a
  inb_S13312x128_S8x128_10704_0 : ∀ a, (![10704, 0] : Fin 2 → Nat) a + S8x128.size a ≤ S13312x128.size a
  inb_S13312x128_S8x128_10912_0 : ∀ a, (![10912, 0] : Fin 2 → Nat) a + S8x128.size a ≤ S13312x128.size a
  inb_S13312x128_S8x128_11120_0 : ∀ a, (![11120, 0] : Fin 2 → Nat) a + S8x128.size a ≤ S13312x128.size a
  inb_S13312x128_S8x128_11328_0 : ∀ a, (![11328, 0] : Fin 2 → Nat) a + S8x128.size a ≤ S13312x128.size a
  inb_S13312x128_S8x128_11536_0 : ∀ a, (![11536, 0] : Fin 2 → Nat) a + S8x128.size a ≤ S13312x128.size a
  inb_S13312x128_S8x128_11744_0 : ∀ a, (![11744, 0] : Fin 2 → Nat) a + S8x128.size a ≤ S13312x128.size a
  inb_S13312x128_S8x128_11952_0 : ∀ a, (![11952, 0] : Fin 2 → Nat) a + S8x128.size a ≤ S13312x128.size a
  inb_S13312x128_S8x128_12160_0 : ∀ a, (![12160, 0] : Fin 2 → Nat) a + S8x128.size a ≤ S13312x128.size a
  inb_S13312x128_S8x128_12368_0 : ∀ a, (![12368, 0] : Fin 2 → Nat) a + S8x128.size a ≤ S13312x128.size a
  inb_S13312x128_S8x128_12576_0 : ∀ a, (![12576, 0] : Fin 2 → Nat) a + S8x128.size a ≤ S13312x128.size a
  inb_S13312x128_S8x128_12784_0 : ∀ a, (![12784, 0] : Fin 2 → Nat) a + S8x128.size a ≤ S13312x128.size a
  inb_S13312x128_S8x128_12992_0 : ∀ a, (![12992, 0] : Fin 2 → Nat) a + S8x128.size a ≤ S13312x128.size a
  inb_S13312x128_S8x128_13200_0 : ∀ a, (![13200, 0] : Fin 2 → Nat) a + S8x128.size a ≤ S13312x128.size a
  inb_S3341x512_S128x512_1536_0 : ∀ a, (![1536, 0] : Fin 2 → Nat) a + S128x512.size a ≤ S3341x512.size a
  inb_S13312x128_S8x128_104_0 : ∀ a, (![104, 0] : Fin 2 → Nat) a + S8x128.size a ≤ S13312x128.size a
  inb_S13312x128_S8x128_312_0 : ∀ a, (![312, 0] : Fin 2 → Nat) a + S8x128.size a ≤ S13312x128.size a
  inb_S13312x128_S8x128_520_0 : ∀ a, (![520, 0] : Fin 2 → Nat) a + S8x128.size a ≤ S13312x128.size a
  inb_S13312x128_S8x128_728_0 : ∀ a, (![728, 0] : Fin 2 → Nat) a + S8x128.size a ≤ S13312x128.size a
  inb_S13312x128_S8x128_936_0 : ∀ a, (![936, 0] : Fin 2 → Nat) a + S8x128.size a ≤ S13312x128.size a
  inb_S13312x128_S8x128_1144_0 : ∀ a, (![1144, 0] : Fin 2 → Nat) a + S8x128.size a ≤ S13312x128.size a
  inb_S13312x128_S8x128_1352_0 : ∀ a, (![1352, 0] : Fin 2 → Nat) a + S8x128.size a ≤ S13312x128.size a
  inb_S13312x128_S8x128_1560_0 : ∀ a, (![1560, 0] : Fin 2 → Nat) a + S8x128.size a ≤ S13312x128.size a
  inb_S13312x128_S8x128_1768_0 : ∀ a, (![1768, 0] : Fin 2 → Nat) a + S8x128.size a ≤ S13312x128.size a
  inb_S13312x128_S8x128_1976_0 : ∀ a, (![1976, 0] : Fin 2 → Nat) a + S8x128.size a ≤ S13312x128.size a
  inb_S13312x128_S8x128_2184_0 : ∀ a, (![2184, 0] : Fin 2 → Nat) a + S8x128.size a ≤ S13312x128.size a
  inb_S13312x128_S8x128_2392_0 : ∀ a, (![2392, 0] : Fin 2 → Nat) a + S8x128.size a ≤ S13312x128.size a
  inb_S13312x128_S8x128_2600_0 : ∀ a, (![2600, 0] : Fin 2 → Nat) a + S8x128.size a ≤ S13312x128.size a
  inb_S13312x128_S8x128_2808_0 : ∀ a, (![2808, 0] : Fin 2 → Nat) a + S8x128.size a ≤ S13312x128.size a
  inb_S13312x128_S8x128_3016_0 : ∀ a, (![3016, 0] : Fin 2 → Nat) a + S8x128.size a ≤ S13312x128.size a
  inb_S13312x128_S8x128_3224_0 : ∀ a, (![3224, 0] : Fin 2 → Nat) a + S8x128.size a ≤ S13312x128.size a
  inb_S13312x128_S8x128_3432_0 : ∀ a, (![3432, 0] : Fin 2 → Nat) a + S8x128.size a ≤ S13312x128.size a
  inb_S13312x128_S8x128_3640_0 : ∀ a, (![3640, 0] : Fin 2 → Nat) a + S8x128.size a ≤ S13312x128.size a
  inb_S13312x128_S8x128_3848_0 : ∀ a, (![3848, 0] : Fin 2 → Nat) a + S8x128.size a ≤ S13312x128.size a
  inb_S13312x128_S8x128_4056_0 : ∀ a, (![4056, 0] : Fin 2 → Nat) a + S8x128.size a ≤ S13312x128.size a
  inb_S13312x128_S8x128_4264_0 : ∀ a, (![4264, 0] : Fin 2 → Nat) a + S8x128.size a ≤ S13312x128.size a
  inb_S13312x128_S8x128_4472_0 : ∀ a, (![4472, 0] : Fin 2 → Nat) a + S8x128.size a ≤ S13312x128.size a
  inb_S13312x128_S8x128_4680_0 : ∀ a, (![4680, 0] : Fin 2 → Nat) a + S8x128.size a ≤ S13312x128.size a
  inb_S13312x128_S8x128_4888_0 : ∀ a, (![4888, 0] : Fin 2 → Nat) a + S8x128.size a ≤ S13312x128.size a
  inb_S13312x128_S8x128_5096_0 : ∀ a, (![5096, 0] : Fin 2 → Nat) a + S8x128.size a ≤ S13312x128.size a
  inb_S13312x128_S8x128_5304_0 : ∀ a, (![5304, 0] : Fin 2 → Nat) a + S8x128.size a ≤ S13312x128.size a
  inb_S13312x128_S8x128_5512_0 : ∀ a, (![5512, 0] : Fin 2 → Nat) a + S8x128.size a ≤ S13312x128.size a
  inb_S13312x128_S8x128_5720_0 : ∀ a, (![5720, 0] : Fin 2 → Nat) a + S8x128.size a ≤ S13312x128.size a
  inb_S13312x128_S8x128_5928_0 : ∀ a, (![5928, 0] : Fin 2 → Nat) a + S8x128.size a ≤ S13312x128.size a
  inb_S13312x128_S8x128_6136_0 : ∀ a, (![6136, 0] : Fin 2 → Nat) a + S8x128.size a ≤ S13312x128.size a
  inb_S13312x128_S8x128_6344_0 : ∀ a, (![6344, 0] : Fin 2 → Nat) a + S8x128.size a ≤ S13312x128.size a
  inb_S13312x128_S8x128_6552_0 : ∀ a, (![6552, 0] : Fin 2 → Nat) a + S8x128.size a ≤ S13312x128.size a
  inb_S13312x128_S8x128_6760_0 : ∀ a, (![6760, 0] : Fin 2 → Nat) a + S8x128.size a ≤ S13312x128.size a
  inb_S13312x128_S8x128_6968_0 : ∀ a, (![6968, 0] : Fin 2 → Nat) a + S8x128.size a ≤ S13312x128.size a
  inb_S13312x128_S8x128_7176_0 : ∀ a, (![7176, 0] : Fin 2 → Nat) a + S8x128.size a ≤ S13312x128.size a
  inb_S13312x128_S8x128_7384_0 : ∀ a, (![7384, 0] : Fin 2 → Nat) a + S8x128.size a ≤ S13312x128.size a
  inb_S13312x128_S8x128_7592_0 : ∀ a, (![7592, 0] : Fin 2 → Nat) a + S8x128.size a ≤ S13312x128.size a
  inb_S13312x128_S8x128_7800_0 : ∀ a, (![7800, 0] : Fin 2 → Nat) a + S8x128.size a ≤ S13312x128.size a
  inb_S13312x128_S8x128_8008_0 : ∀ a, (![8008, 0] : Fin 2 → Nat) a + S8x128.size a ≤ S13312x128.size a
  inb_S13312x128_S8x128_8216_0 : ∀ a, (![8216, 0] : Fin 2 → Nat) a + S8x128.size a ≤ S13312x128.size a
  inb_S13312x128_S8x128_8424_0 : ∀ a, (![8424, 0] : Fin 2 → Nat) a + S8x128.size a ≤ S13312x128.size a
  inb_S13312x128_S8x128_8632_0 : ∀ a, (![8632, 0] : Fin 2 → Nat) a + S8x128.size a ≤ S13312x128.size a
  inb_S13312x128_S8x128_8840_0 : ∀ a, (![8840, 0] : Fin 2 → Nat) a + S8x128.size a ≤ S13312x128.size a
  inb_S13312x128_S8x128_9048_0 : ∀ a, (![9048, 0] : Fin 2 → Nat) a + S8x128.size a ≤ S13312x128.size a
  inb_S13312x128_S8x128_9256_0 : ∀ a, (![9256, 0] : Fin 2 → Nat) a + S8x128.size a ≤ S13312x128.size a
  inb_S13312x128_S8x128_9464_0 : ∀ a, (![9464, 0] : Fin 2 → Nat) a + S8x128.size a ≤ S13312x128.size a
  inb_S13312x128_S8x128_9672_0 : ∀ a, (![9672, 0] : Fin 2 → Nat) a + S8x128.size a ≤ S13312x128.size a
  inb_S13312x128_S8x128_9880_0 : ∀ a, (![9880, 0] : Fin 2 → Nat) a + S8x128.size a ≤ S13312x128.size a
  inb_S13312x128_S8x128_10088_0 : ∀ a, (![10088, 0] : Fin 2 → Nat) a + S8x128.size a ≤ S13312x128.size a
  inb_S13312x128_S8x128_10296_0 : ∀ a, (![10296, 0] : Fin 2 → Nat) a + S8x128.size a ≤ S13312x128.size a
  inb_S13312x128_S8x128_10504_0 : ∀ a, (![10504, 0] : Fin 2 → Nat) a + S8x128.size a ≤ S13312x128.size a
  inb_S13312x128_S8x128_10712_0 : ∀ a, (![10712, 0] : Fin 2 → Nat) a + S8x128.size a ≤ S13312x128.size a
  inb_S13312x128_S8x128_10920_0 : ∀ a, (![10920, 0] : Fin 2 → Nat) a + S8x128.size a ≤ S13312x128.size a
  inb_S13312x128_S8x128_11128_0 : ∀ a, (![11128, 0] : Fin 2 → Nat) a + S8x128.size a ≤ S13312x128.size a
  inb_S13312x128_S8x128_11336_0 : ∀ a, (![11336, 0] : Fin 2 → Nat) a + S8x128.size a ≤ S13312x128.size a
  inb_S13312x128_S8x128_11544_0 : ∀ a, (![11544, 0] : Fin 2 → Nat) a + S8x128.size a ≤ S13312x128.size a
  inb_S13312x128_S8x128_11752_0 : ∀ a, (![11752, 0] : Fin 2 → Nat) a + S8x128.size a ≤ S13312x128.size a
  inb_S13312x128_S8x128_11960_0 : ∀ a, (![11960, 0] : Fin 2 → Nat) a + S8x128.size a ≤ S13312x128.size a
  inb_S13312x128_S8x128_12168_0 : ∀ a, (![12168, 0] : Fin 2 → Nat) a + S8x128.size a ≤ S13312x128.size a
  inb_S13312x128_S8x128_12376_0 : ∀ a, (![12376, 0] : Fin 2 → Nat) a + S8x128.size a ≤ S13312x128.size a
  inb_S13312x128_S8x128_12584_0 : ∀ a, (![12584, 0] : Fin 2 → Nat) a + S8x128.size a ≤ S13312x128.size a
  inb_S13312x128_S8x128_12792_0 : ∀ a, (![12792, 0] : Fin 2 → Nat) a + S8x128.size a ≤ S13312x128.size a
  inb_S13312x128_S8x128_13000_0 : ∀ a, (![13000, 0] : Fin 2 → Nat) a + S8x128.size a ≤ S13312x128.size a
  inb_S13312x128_S8x128_13208_0 : ∀ a, (![13208, 0] : Fin 2 → Nat) a + S8x128.size a ≤ S13312x128.size a
  inb_S3341x512_S128x512_1664_0 : ∀ a, (![1664, 0] : Fin 2 → Nat) a + S128x512.size a ≤ S3341x512.size a
  inb_S13312x128_S8x128_112_0 : ∀ a, (![112, 0] : Fin 2 → Nat) a + S8x128.size a ≤ S13312x128.size a
  inb_S13312x128_S8x128_320_0 : ∀ a, (![320, 0] : Fin 2 → Nat) a + S8x128.size a ≤ S13312x128.size a
  inb_S13312x128_S8x128_528_0 : ∀ a, (![528, 0] : Fin 2 → Nat) a + S8x128.size a ≤ S13312x128.size a
  inb_S13312x128_S8x128_736_0 : ∀ a, (![736, 0] : Fin 2 → Nat) a + S8x128.size a ≤ S13312x128.size a
  inb_S13312x128_S8x128_944_0 : ∀ a, (![944, 0] : Fin 2 → Nat) a + S8x128.size a ≤ S13312x128.size a
  inb_S13312x128_S8x128_1152_0 : ∀ a, (![1152, 0] : Fin 2 → Nat) a + S8x128.size a ≤ S13312x128.size a
  inb_S13312x128_S8x128_1360_0 : ∀ a, (![1360, 0] : Fin 2 → Nat) a + S8x128.size a ≤ S13312x128.size a
  inb_S13312x128_S8x128_1568_0 : ∀ a, (![1568, 0] : Fin 2 → Nat) a + S8x128.size a ≤ S13312x128.size a
  inb_S13312x128_S8x128_1776_0 : ∀ a, (![1776, 0] : Fin 2 → Nat) a + S8x128.size a ≤ S13312x128.size a
  inb_S13312x128_S8x128_1984_0 : ∀ a, (![1984, 0] : Fin 2 → Nat) a + S8x128.size a ≤ S13312x128.size a
  inb_S13312x128_S8x128_2192_0 : ∀ a, (![2192, 0] : Fin 2 → Nat) a + S8x128.size a ≤ S13312x128.size a
  inb_S13312x128_S8x128_2400_0 : ∀ a, (![2400, 0] : Fin 2 → Nat) a + S8x128.size a ≤ S13312x128.size a
  inb_S13312x128_S8x128_2608_0 : ∀ a, (![2608, 0] : Fin 2 → Nat) a + S8x128.size a ≤ S13312x128.size a
  inb_S13312x128_S8x128_2816_0 : ∀ a, (![2816, 0] : Fin 2 → Nat) a + S8x128.size a ≤ S13312x128.size a
  inb_S13312x128_S8x128_3024_0 : ∀ a, (![3024, 0] : Fin 2 → Nat) a + S8x128.size a ≤ S13312x128.size a
  inb_S13312x128_S8x128_3232_0 : ∀ a, (![3232, 0] : Fin 2 → Nat) a + S8x128.size a ≤ S13312x128.size a
  inb_S13312x128_S8x128_3440_0 : ∀ a, (![3440, 0] : Fin 2 → Nat) a + S8x128.size a ≤ S13312x128.size a
  inb_S13312x128_S8x128_3648_0 : ∀ a, (![3648, 0] : Fin 2 → Nat) a + S8x128.size a ≤ S13312x128.size a
  inb_S13312x128_S8x128_3856_0 : ∀ a, (![3856, 0] : Fin 2 → Nat) a + S8x128.size a ≤ S13312x128.size a
  inb_S13312x128_S8x128_4064_0 : ∀ a, (![4064, 0] : Fin 2 → Nat) a + S8x128.size a ≤ S13312x128.size a
  inb_S13312x128_S8x128_4272_0 : ∀ a, (![4272, 0] : Fin 2 → Nat) a + S8x128.size a ≤ S13312x128.size a
  inb_S13312x128_S8x128_4480_0 : ∀ a, (![4480, 0] : Fin 2 → Nat) a + S8x128.size a ≤ S13312x128.size a
  inb_S13312x128_S8x128_4688_0 : ∀ a, (![4688, 0] : Fin 2 → Nat) a + S8x128.size a ≤ S13312x128.size a
  inb_S13312x128_S8x128_4896_0 : ∀ a, (![4896, 0] : Fin 2 → Nat) a + S8x128.size a ≤ S13312x128.size a
  inb_S13312x128_S8x128_5104_0 : ∀ a, (![5104, 0] : Fin 2 → Nat) a + S8x128.size a ≤ S13312x128.size a
  inb_S13312x128_S8x128_5312_0 : ∀ a, (![5312, 0] : Fin 2 → Nat) a + S8x128.size a ≤ S13312x128.size a
  inb_S13312x128_S8x128_5520_0 : ∀ a, (![5520, 0] : Fin 2 → Nat) a + S8x128.size a ≤ S13312x128.size a
  inb_S13312x128_S8x128_5728_0 : ∀ a, (![5728, 0] : Fin 2 → Nat) a + S8x128.size a ≤ S13312x128.size a
  inb_S13312x128_S8x128_5936_0 : ∀ a, (![5936, 0] : Fin 2 → Nat) a + S8x128.size a ≤ S13312x128.size a
  inb_S13312x128_S8x128_6144_0 : ∀ a, (![6144, 0] : Fin 2 → Nat) a + S8x128.size a ≤ S13312x128.size a
  inb_S13312x128_S8x128_6352_0 : ∀ a, (![6352, 0] : Fin 2 → Nat) a + S8x128.size a ≤ S13312x128.size a
  inb_S13312x128_S8x128_6560_0 : ∀ a, (![6560, 0] : Fin 2 → Nat) a + S8x128.size a ≤ S13312x128.size a
  inb_S13312x128_S8x128_6768_0 : ∀ a, (![6768, 0] : Fin 2 → Nat) a + S8x128.size a ≤ S13312x128.size a
  inb_S13312x128_S8x128_6976_0 : ∀ a, (![6976, 0] : Fin 2 → Nat) a + S8x128.size a ≤ S13312x128.size a
  inb_S13312x128_S8x128_7184_0 : ∀ a, (![7184, 0] : Fin 2 → Nat) a + S8x128.size a ≤ S13312x128.size a
  inb_S13312x128_S8x128_7392_0 : ∀ a, (![7392, 0] : Fin 2 → Nat) a + S8x128.size a ≤ S13312x128.size a
  inb_S13312x128_S8x128_7600_0 : ∀ a, (![7600, 0] : Fin 2 → Nat) a + S8x128.size a ≤ S13312x128.size a
  inb_S13312x128_S8x128_7808_0 : ∀ a, (![7808, 0] : Fin 2 → Nat) a + S8x128.size a ≤ S13312x128.size a
  inb_S13312x128_S8x128_8016_0 : ∀ a, (![8016, 0] : Fin 2 → Nat) a + S8x128.size a ≤ S13312x128.size a
  inb_S13312x128_S8x128_8224_0 : ∀ a, (![8224, 0] : Fin 2 → Nat) a + S8x128.size a ≤ S13312x128.size a
  inb_S13312x128_S8x128_8432_0 : ∀ a, (![8432, 0] : Fin 2 → Nat) a + S8x128.size a ≤ S13312x128.size a
  inb_S13312x128_S8x128_8640_0 : ∀ a, (![8640, 0] : Fin 2 → Nat) a + S8x128.size a ≤ S13312x128.size a
  inb_S13312x128_S8x128_8848_0 : ∀ a, (![8848, 0] : Fin 2 → Nat) a + S8x128.size a ≤ S13312x128.size a
  inb_S13312x128_S8x128_9056_0 : ∀ a, (![9056, 0] : Fin 2 → Nat) a + S8x128.size a ≤ S13312x128.size a
  inb_S13312x128_S8x128_9264_0 : ∀ a, (![9264, 0] : Fin 2 → Nat) a + S8x128.size a ≤ S13312x128.size a
  inb_S13312x128_S8x128_9472_0 : ∀ a, (![9472, 0] : Fin 2 → Nat) a + S8x128.size a ≤ S13312x128.size a
  inb_S13312x128_S8x128_9680_0 : ∀ a, (![9680, 0] : Fin 2 → Nat) a + S8x128.size a ≤ S13312x128.size a
  inb_S13312x128_S8x128_9888_0 : ∀ a, (![9888, 0] : Fin 2 → Nat) a + S8x128.size a ≤ S13312x128.size a
  inb_S13312x128_S8x128_10096_0 : ∀ a, (![10096, 0] : Fin 2 → Nat) a + S8x128.size a ≤ S13312x128.size a
  inb_S13312x128_S8x128_10304_0 : ∀ a, (![10304, 0] : Fin 2 → Nat) a + S8x128.size a ≤ S13312x128.size a
  inb_S13312x128_S8x128_10512_0 : ∀ a, (![10512, 0] : Fin 2 → Nat) a + S8x128.size a ≤ S13312x128.size a
  inb_S13312x128_S8x128_10720_0 : ∀ a, (![10720, 0] : Fin 2 → Nat) a + S8x128.size a ≤ S13312x128.size a
  inb_S13312x128_S8x128_10928_0 : ∀ a, (![10928, 0] : Fin 2 → Nat) a + S8x128.size a ≤ S13312x128.size a
  inb_S13312x128_S8x128_11136_0 : ∀ a, (![11136, 0] : Fin 2 → Nat) a + S8x128.size a ≤ S13312x128.size a
  inb_S13312x128_S8x128_11344_0 : ∀ a, (![11344, 0] : Fin 2 → Nat) a + S8x128.size a ≤ S13312x128.size a
  inb_S13312x128_S8x128_11552_0 : ∀ a, (![11552, 0] : Fin 2 → Nat) a + S8x128.size a ≤ S13312x128.size a
  inb_S13312x128_S8x128_11760_0 : ∀ a, (![11760, 0] : Fin 2 → Nat) a + S8x128.size a ≤ S13312x128.size a
  inb_S13312x128_S8x128_11968_0 : ∀ a, (![11968, 0] : Fin 2 → Nat) a + S8x128.size a ≤ S13312x128.size a
  inb_S13312x128_S8x128_12176_0 : ∀ a, (![12176, 0] : Fin 2 → Nat) a + S8x128.size a ≤ S13312x128.size a
  inb_S13312x128_S8x128_12384_0 : ∀ a, (![12384, 0] : Fin 2 → Nat) a + S8x128.size a ≤ S13312x128.size a
  inb_S13312x128_S8x128_12592_0 : ∀ a, (![12592, 0] : Fin 2 → Nat) a + S8x128.size a ≤ S13312x128.size a
  inb_S13312x128_S8x128_12800_0 : ∀ a, (![12800, 0] : Fin 2 → Nat) a + S8x128.size a ≤ S13312x128.size a
  inb_S13312x128_S8x128_13008_0 : ∀ a, (![13008, 0] : Fin 2 → Nat) a + S8x128.size a ≤ S13312x128.size a
  inb_S13312x128_S8x128_13216_0 : ∀ a, (![13216, 0] : Fin 2 → Nat) a + S8x128.size a ≤ S13312x128.size a
  inb_S3341x512_S128x512_1792_0 : ∀ a, (![1792, 0] : Fin 2 → Nat) a + S128x512.size a ≤ S3341x512.size a
  inb_S13312x128_S8x128_120_0 : ∀ a, (![120, 0] : Fin 2 → Nat) a + S8x128.size a ≤ S13312x128.size a
  inb_S13312x128_S8x128_328_0 : ∀ a, (![328, 0] : Fin 2 → Nat) a + S8x128.size a ≤ S13312x128.size a
  inb_S13312x128_S8x128_536_0 : ∀ a, (![536, 0] : Fin 2 → Nat) a + S8x128.size a ≤ S13312x128.size a
  inb_S13312x128_S8x128_744_0 : ∀ a, (![744, 0] : Fin 2 → Nat) a + S8x128.size a ≤ S13312x128.size a
  inb_S13312x128_S8x128_952_0 : ∀ a, (![952, 0] : Fin 2 → Nat) a + S8x128.size a ≤ S13312x128.size a
  inb_S13312x128_S8x128_1160_0 : ∀ a, (![1160, 0] : Fin 2 → Nat) a + S8x128.size a ≤ S13312x128.size a
  inb_S13312x128_S8x128_1368_0 : ∀ a, (![1368, 0] : Fin 2 → Nat) a + S8x128.size a ≤ S13312x128.size a
  inb_S13312x128_S8x128_1576_0 : ∀ a, (![1576, 0] : Fin 2 → Nat) a + S8x128.size a ≤ S13312x128.size a

class Shapes2.Facts₀ : Prop where
  inb_S13312x128_S8x128_1784_0 : ∀ a, (![1784, 0] : Fin 2 → Nat) a + S8x128.size a ≤ S13312x128.size a
  inb_S13312x128_S8x128_1992_0 : ∀ a, (![1992, 0] : Fin 2 → Nat) a + S8x128.size a ≤ S13312x128.size a
  inb_S13312x128_S8x128_2200_0 : ∀ a, (![2200, 0] : Fin 2 → Nat) a + S8x128.size a ≤ S13312x128.size a
  inb_S13312x128_S8x128_2408_0 : ∀ a, (![2408, 0] : Fin 2 → Nat) a + S8x128.size a ≤ S13312x128.size a
  inb_S13312x128_S8x128_2616_0 : ∀ a, (![2616, 0] : Fin 2 → Nat) a + S8x128.size a ≤ S13312x128.size a
  inb_S13312x128_S8x128_2824_0 : ∀ a, (![2824, 0] : Fin 2 → Nat) a + S8x128.size a ≤ S13312x128.size a
  inb_S13312x128_S8x128_3032_0 : ∀ a, (![3032, 0] : Fin 2 → Nat) a + S8x128.size a ≤ S13312x128.size a
  inb_S13312x128_S8x128_3240_0 : ∀ a, (![3240, 0] : Fin 2 → Nat) a + S8x128.size a ≤ S13312x128.size a
  inb_S13312x128_S8x128_3448_0 : ∀ a, (![3448, 0] : Fin 2 → Nat) a + S8x128.size a ≤ S13312x128.size a
  inb_S13312x128_S8x128_3656_0 : ∀ a, (![3656, 0] : Fin 2 → Nat) a + S8x128.size a ≤ S13312x128.size a
  inb_S13312x128_S8x128_3864_0 : ∀ a, (![3864, 0] : Fin 2 → Nat) a + S8x128.size a ≤ S13312x128.size a
  inb_S13312x128_S8x128_4072_0 : ∀ a, (![4072, 0] : Fin 2 → Nat) a + S8x128.size a ≤ S13312x128.size a
  inb_S13312x128_S8x128_4280_0 : ∀ a, (![4280, 0] : Fin 2 → Nat) a + S8x128.size a ≤ S13312x128.size a
  inb_S13312x128_S8x128_4488_0 : ∀ a, (![4488, 0] : Fin 2 → Nat) a + S8x128.size a ≤ S13312x128.size a
  inb_S13312x128_S8x128_4696_0 : ∀ a, (![4696, 0] : Fin 2 → Nat) a + S8x128.size a ≤ S13312x128.size a
  inb_S13312x128_S8x128_4904_0 : ∀ a, (![4904, 0] : Fin 2 → Nat) a + S8x128.size a ≤ S13312x128.size a
  inb_S13312x128_S8x128_5112_0 : ∀ a, (![5112, 0] : Fin 2 → Nat) a + S8x128.size a ≤ S13312x128.size a
  inb_S13312x128_S8x128_5320_0 : ∀ a, (![5320, 0] : Fin 2 → Nat) a + S8x128.size a ≤ S13312x128.size a
  inb_S13312x128_S8x128_5528_0 : ∀ a, (![5528, 0] : Fin 2 → Nat) a + S8x128.size a ≤ S13312x128.size a
  inb_S13312x128_S8x128_5736_0 : ∀ a, (![5736, 0] : Fin 2 → Nat) a + S8x128.size a ≤ S13312x128.size a
  inb_S13312x128_S8x128_5944_0 : ∀ a, (![5944, 0] : Fin 2 → Nat) a + S8x128.size a ≤ S13312x128.size a
  inb_S13312x128_S8x128_6152_0 : ∀ a, (![6152, 0] : Fin 2 → Nat) a + S8x128.size a ≤ S13312x128.size a
  inb_S13312x128_S8x128_6360_0 : ∀ a, (![6360, 0] : Fin 2 → Nat) a + S8x128.size a ≤ S13312x128.size a
  inb_S13312x128_S8x128_6568_0 : ∀ a, (![6568, 0] : Fin 2 → Nat) a + S8x128.size a ≤ S13312x128.size a
  inb_S13312x128_S8x128_6776_0 : ∀ a, (![6776, 0] : Fin 2 → Nat) a + S8x128.size a ≤ S13312x128.size a
  inb_S13312x128_S8x128_6984_0 : ∀ a, (![6984, 0] : Fin 2 → Nat) a + S8x128.size a ≤ S13312x128.size a
  inb_S13312x128_S8x128_7192_0 : ∀ a, (![7192, 0] : Fin 2 → Nat) a + S8x128.size a ≤ S13312x128.size a
  inb_S13312x128_S8x128_7400_0 : ∀ a, (![7400, 0] : Fin 2 → Nat) a + S8x128.size a ≤ S13312x128.size a
  inb_S13312x128_S8x128_7608_0 : ∀ a, (![7608, 0] : Fin 2 → Nat) a + S8x128.size a ≤ S13312x128.size a
  inb_S13312x128_S8x128_7816_0 : ∀ a, (![7816, 0] : Fin 2 → Nat) a + S8x128.size a ≤ S13312x128.size a
  inb_S13312x128_S8x128_8024_0 : ∀ a, (![8024, 0] : Fin 2 → Nat) a + S8x128.size a ≤ S13312x128.size a
  inb_S13312x128_S8x128_8232_0 : ∀ a, (![8232, 0] : Fin 2 → Nat) a + S8x128.size a ≤ S13312x128.size a
  inb_S13312x128_S8x128_8440_0 : ∀ a, (![8440, 0] : Fin 2 → Nat) a + S8x128.size a ≤ S13312x128.size a
  inb_S13312x128_S8x128_8648_0 : ∀ a, (![8648, 0] : Fin 2 → Nat) a + S8x128.size a ≤ S13312x128.size a
  inb_S13312x128_S8x128_8856_0 : ∀ a, (![8856, 0] : Fin 2 → Nat) a + S8x128.size a ≤ S13312x128.size a
  inb_S13312x128_S8x128_9064_0 : ∀ a, (![9064, 0] : Fin 2 → Nat) a + S8x128.size a ≤ S13312x128.size a
  inb_S13312x128_S8x128_9272_0 : ∀ a, (![9272, 0] : Fin 2 → Nat) a + S8x128.size a ≤ S13312x128.size a
  inb_S13312x128_S8x128_9480_0 : ∀ a, (![9480, 0] : Fin 2 → Nat) a + S8x128.size a ≤ S13312x128.size a
  inb_S13312x128_S8x128_9688_0 : ∀ a, (![9688, 0] : Fin 2 → Nat) a + S8x128.size a ≤ S13312x128.size a
  inb_S13312x128_S8x128_9896_0 : ∀ a, (![9896, 0] : Fin 2 → Nat) a + S8x128.size a ≤ S13312x128.size a
  inb_S13312x128_S8x128_10104_0 : ∀ a, (![10104, 0] : Fin 2 → Nat) a + S8x128.size a ≤ S13312x128.size a
  inb_S13312x128_S8x128_10312_0 : ∀ a, (![10312, 0] : Fin 2 → Nat) a + S8x128.size a ≤ S13312x128.size a
  inb_S13312x128_S8x128_10520_0 : ∀ a, (![10520, 0] : Fin 2 → Nat) a + S8x128.size a ≤ S13312x128.size a
  inb_S13312x128_S8x128_10728_0 : ∀ a, (![10728, 0] : Fin 2 → Nat) a + S8x128.size a ≤ S13312x128.size a
  inb_S13312x128_S8x128_10936_0 : ∀ a, (![10936, 0] : Fin 2 → Nat) a + S8x128.size a ≤ S13312x128.size a
  inb_S13312x128_S8x128_11144_0 : ∀ a, (![11144, 0] : Fin 2 → Nat) a + S8x128.size a ≤ S13312x128.size a
  inb_S13312x128_S8x128_11352_0 : ∀ a, (![11352, 0] : Fin 2 → Nat) a + S8x128.size a ≤ S13312x128.size a
  inb_S13312x128_S8x128_11560_0 : ∀ a, (![11560, 0] : Fin 2 → Nat) a + S8x128.size a ≤ S13312x128.size a
  inb_S13312x128_S8x128_11768_0 : ∀ a, (![11768, 0] : Fin 2 → Nat) a + S8x128.size a ≤ S13312x128.size a
  inb_S13312x128_S8x128_11976_0 : ∀ a, (![11976, 0] : Fin 2 → Nat) a + S8x128.size a ≤ S13312x128.size a
  inb_S13312x128_S8x128_12184_0 : ∀ a, (![12184, 0] : Fin 2 → Nat) a + S8x128.size a ≤ S13312x128.size a
  inb_S13312x128_S8x128_12392_0 : ∀ a, (![12392, 0] : Fin 2 → Nat) a + S8x128.size a ≤ S13312x128.size a
  inb_S13312x128_S8x128_12600_0 : ∀ a, (![12600, 0] : Fin 2 → Nat) a + S8x128.size a ≤ S13312x128.size a
  inb_S13312x128_S8x128_12808_0 : ∀ a, (![12808, 0] : Fin 2 → Nat) a + S8x128.size a ≤ S13312x128.size a
  inb_S13312x128_S8x128_13016_0 : ∀ a, (![13016, 0] : Fin 2 → Nat) a + S8x128.size a ≤ S13312x128.size a
  inb_S13312x128_S8x128_13224_0 : ∀ a, (![13224, 0] : Fin 2 → Nat) a + S8x128.size a ≤ S13312x128.size a
  inb_S3341x512_S128x512_1920_0 : ∀ a, (![1920, 0] : Fin 2 → Nat) a + S128x512.size a ≤ S3341x512.size a
  inb_S13312x128_S8x128_128_0 : ∀ a, (![128, 0] : Fin 2 → Nat) a + S8x128.size a ≤ S13312x128.size a
  inb_S13312x128_S8x128_336_0 : ∀ a, (![336, 0] : Fin 2 → Nat) a + S8x128.size a ≤ S13312x128.size a
  inb_S13312x128_S8x128_544_0 : ∀ a, (![544, 0] : Fin 2 → Nat) a + S8x128.size a ≤ S13312x128.size a
  inb_S13312x128_S8x128_752_0 : ∀ a, (![752, 0] : Fin 2 → Nat) a + S8x128.size a ≤ S13312x128.size a
  inb_S13312x128_S8x128_960_0 : ∀ a, (![960, 0] : Fin 2 → Nat) a + S8x128.size a ≤ S13312x128.size a
  inb_S13312x128_S8x128_1168_0 : ∀ a, (![1168, 0] : Fin 2 → Nat) a + S8x128.size a ≤ S13312x128.size a
  inb_S13312x128_S8x128_1376_0 : ∀ a, (![1376, 0] : Fin 2 → Nat) a + S8x128.size a ≤ S13312x128.size a
  inb_S13312x128_S8x128_1584_0 : ∀ a, (![1584, 0] : Fin 2 → Nat) a + S8x128.size a ≤ S13312x128.size a
  inb_S13312x128_S8x128_1792_0 : ∀ a, (![1792, 0] : Fin 2 → Nat) a + S8x128.size a ≤ S13312x128.size a
  inb_S13312x128_S8x128_2000_0 : ∀ a, (![2000, 0] : Fin 2 → Nat) a + S8x128.size a ≤ S13312x128.size a
  inb_S13312x128_S8x128_2208_0 : ∀ a, (![2208, 0] : Fin 2 → Nat) a + S8x128.size a ≤ S13312x128.size a
  inb_S13312x128_S8x128_2416_0 : ∀ a, (![2416, 0] : Fin 2 → Nat) a + S8x128.size a ≤ S13312x128.size a
  inb_S13312x128_S8x128_2624_0 : ∀ a, (![2624, 0] : Fin 2 → Nat) a + S8x128.size a ≤ S13312x128.size a
  inb_S13312x128_S8x128_2832_0 : ∀ a, (![2832, 0] : Fin 2 → Nat) a + S8x128.size a ≤ S13312x128.size a
  inb_S13312x128_S8x128_3040_0 : ∀ a, (![3040, 0] : Fin 2 → Nat) a + S8x128.size a ≤ S13312x128.size a
  inb_S13312x128_S8x128_3248_0 : ∀ a, (![3248, 0] : Fin 2 → Nat) a + S8x128.size a ≤ S13312x128.size a
  inb_S13312x128_S8x128_3456_0 : ∀ a, (![3456, 0] : Fin 2 → Nat) a + S8x128.size a ≤ S13312x128.size a
  inb_S13312x128_S8x128_3664_0 : ∀ a, (![3664, 0] : Fin 2 → Nat) a + S8x128.size a ≤ S13312x128.size a
  inb_S13312x128_S8x128_3872_0 : ∀ a, (![3872, 0] : Fin 2 → Nat) a + S8x128.size a ≤ S13312x128.size a
  inb_S13312x128_S8x128_4080_0 : ∀ a, (![4080, 0] : Fin 2 → Nat) a + S8x128.size a ≤ S13312x128.size a
  inb_S13312x128_S8x128_4288_0 : ∀ a, (![4288, 0] : Fin 2 → Nat) a + S8x128.size a ≤ S13312x128.size a
  inb_S13312x128_S8x128_4496_0 : ∀ a, (![4496, 0] : Fin 2 → Nat) a + S8x128.size a ≤ S13312x128.size a
  inb_S13312x128_S8x128_4704_0 : ∀ a, (![4704, 0] : Fin 2 → Nat) a + S8x128.size a ≤ S13312x128.size a
  inb_S13312x128_S8x128_4912_0 : ∀ a, (![4912, 0] : Fin 2 → Nat) a + S8x128.size a ≤ S13312x128.size a
  inb_S13312x128_S8x128_5120_0 : ∀ a, (![5120, 0] : Fin 2 → Nat) a + S8x128.size a ≤ S13312x128.size a
  inb_S13312x128_S8x128_5328_0 : ∀ a, (![5328, 0] : Fin 2 → Nat) a + S8x128.size a ≤ S13312x128.size a
  inb_S13312x128_S8x128_5536_0 : ∀ a, (![5536, 0] : Fin 2 → Nat) a + S8x128.size a ≤ S13312x128.size a
  inb_S13312x128_S8x128_5744_0 : ∀ a, (![5744, 0] : Fin 2 → Nat) a + S8x128.size a ≤ S13312x128.size a
  inb_S13312x128_S8x128_5952_0 : ∀ a, (![5952, 0] : Fin 2 → Nat) a + S8x128.size a ≤ S13312x128.size a
  inb_S13312x128_S8x128_6160_0 : ∀ a, (![6160, 0] : Fin 2 → Nat) a + S8x128.size a ≤ S13312x128.size a
  inb_S13312x128_S8x128_6368_0 : ∀ a, (![6368, 0] : Fin 2 → Nat) a + S8x128.size a ≤ S13312x128.size a
  inb_S13312x128_S8x128_6576_0 : ∀ a, (![6576, 0] : Fin 2 → Nat) a + S8x128.size a ≤ S13312x128.size a
  inb_S13312x128_S8x128_6784_0 : ∀ a, (![6784, 0] : Fin 2 → Nat) a + S8x128.size a ≤ S13312x128.size a
  inb_S13312x128_S8x128_6992_0 : ∀ a, (![6992, 0] : Fin 2 → Nat) a + S8x128.size a ≤ S13312x128.size a
  inb_S13312x128_S8x128_7200_0 : ∀ a, (![7200, 0] : Fin 2 → Nat) a + S8x128.size a ≤ S13312x128.size a
  inb_S13312x128_S8x128_7408_0 : ∀ a, (![7408, 0] : Fin 2 → Nat) a + S8x128.size a ≤ S13312x128.size a
  inb_S13312x128_S8x128_7616_0 : ∀ a, (![7616, 0] : Fin 2 → Nat) a + S8x128.size a ≤ S13312x128.size a
  inb_S13312x128_S8x128_7824_0 : ∀ a, (![7824, 0] : Fin 2 → Nat) a + S8x128.size a ≤ S13312x128.size a
  inb_S13312x128_S8x128_8032_0 : ∀ a, (![8032, 0] : Fin 2 → Nat) a + S8x128.size a ≤ S13312x128.size a
  inb_S13312x128_S8x128_8240_0 : ∀ a, (![8240, 0] : Fin 2 → Nat) a + S8x128.size a ≤ S13312x128.size a
  inb_S13312x128_S8x128_8448_0 : ∀ a, (![8448, 0] : Fin 2 → Nat) a + S8x128.size a ≤ S13312x128.size a
  inb_S13312x128_S8x128_8656_0 : ∀ a, (![8656, 0] : Fin 2 → Nat) a + S8x128.size a ≤ S13312x128.size a
  inb_S13312x128_S8x128_8864_0 : ∀ a, (![8864, 0] : Fin 2 → Nat) a + S8x128.size a ≤ S13312x128.size a
  inb_S13312x128_S8x128_9072_0 : ∀ a, (![9072, 0] : Fin 2 → Nat) a + S8x128.size a ≤ S13312x128.size a
  inb_S13312x128_S8x128_9280_0 : ∀ a, (![9280, 0] : Fin 2 → Nat) a + S8x128.size a ≤ S13312x128.size a
  inb_S13312x128_S8x128_9488_0 : ∀ a, (![9488, 0] : Fin 2 → Nat) a + S8x128.size a ≤ S13312x128.size a
  inb_S13312x128_S8x128_9696_0 : ∀ a, (![9696, 0] : Fin 2 → Nat) a + S8x128.size a ≤ S13312x128.size a
  inb_S13312x128_S8x128_9904_0 : ∀ a, (![9904, 0] : Fin 2 → Nat) a + S8x128.size a ≤ S13312x128.size a
  inb_S13312x128_S8x128_10112_0 : ∀ a, (![10112, 0] : Fin 2 → Nat) a + S8x128.size a ≤ S13312x128.size a
  inb_S13312x128_S8x128_10320_0 : ∀ a, (![10320, 0] : Fin 2 → Nat) a + S8x128.size a ≤ S13312x128.size a
  inb_S13312x128_S8x128_10528_0 : ∀ a, (![10528, 0] : Fin 2 → Nat) a + S8x128.size a ≤ S13312x128.size a
  inb_S13312x128_S8x128_10736_0 : ∀ a, (![10736, 0] : Fin 2 → Nat) a + S8x128.size a ≤ S13312x128.size a
  inb_S13312x128_S8x128_10944_0 : ∀ a, (![10944, 0] : Fin 2 → Nat) a + S8x128.size a ≤ S13312x128.size a
  inb_S13312x128_S8x128_11152_0 : ∀ a, (![11152, 0] : Fin 2 → Nat) a + S8x128.size a ≤ S13312x128.size a
  inb_S13312x128_S8x128_11360_0 : ∀ a, (![11360, 0] : Fin 2 → Nat) a + S8x128.size a ≤ S13312x128.size a
  inb_S13312x128_S8x128_11568_0 : ∀ a, (![11568, 0] : Fin 2 → Nat) a + S8x128.size a ≤ S13312x128.size a
  inb_S13312x128_S8x128_11776_0 : ∀ a, (![11776, 0] : Fin 2 → Nat) a + S8x128.size a ≤ S13312x128.size a
  inb_S13312x128_S8x128_11984_0 : ∀ a, (![11984, 0] : Fin 2 → Nat) a + S8x128.size a ≤ S13312x128.size a
  inb_S13312x128_S8x128_12192_0 : ∀ a, (![12192, 0] : Fin 2 → Nat) a + S8x128.size a ≤ S13312x128.size a
  inb_S13312x128_S8x128_12400_0 : ∀ a, (![12400, 0] : Fin 2 → Nat) a + S8x128.size a ≤ S13312x128.size a
  inb_S13312x128_S8x128_12608_0 : ∀ a, (![12608, 0] : Fin 2 → Nat) a + S8x128.size a ≤ S13312x128.size a
  inb_S13312x128_S8x128_12816_0 : ∀ a, (![12816, 0] : Fin 2 → Nat) a + S8x128.size a ≤ S13312x128.size a
  inb_S13312x128_S8x128_13024_0 : ∀ a, (![13024, 0] : Fin 2 → Nat) a + S8x128.size a ≤ S13312x128.size a
  inb_S13312x128_S8x128_13232_0 : ∀ a, (![13232, 0] : Fin 2 → Nat) a + S8x128.size a ≤ S13312x128.size a
  inb_S3341x512_S128x512_2048_0 : ∀ a, (![2048, 0] : Fin 2 → Nat) a + S128x512.size a ≤ S3341x512.size a
  inb_S13312x128_S8x128_136_0 : ∀ a, (![136, 0] : Fin 2 → Nat) a + S8x128.size a ≤ S13312x128.size a
  inb_S13312x128_S8x128_344_0 : ∀ a, (![344, 0] : Fin 2 → Nat) a + S8x128.size a ≤ S13312x128.size a
  inb_S13312x128_S8x128_552_0 : ∀ a, (![552, 0] : Fin 2 → Nat) a + S8x128.size a ≤ S13312x128.size a
  inb_S13312x128_S8x128_760_0 : ∀ a, (![760, 0] : Fin 2 → Nat) a + S8x128.size a ≤ S13312x128.size a
  inb_S13312x128_S8x128_968_0 : ∀ a, (![968, 0] : Fin 2 → Nat) a + S8x128.size a ≤ S13312x128.size a
  inb_S13312x128_S8x128_1176_0 : ∀ a, (![1176, 0] : Fin 2 → Nat) a + S8x128.size a ≤ S13312x128.size a
  inb_S13312x128_S8x128_1384_0 : ∀ a, (![1384, 0] : Fin 2 → Nat) a + S8x128.size a ≤ S13312x128.size a
  inb_S13312x128_S8x128_1592_0 : ∀ a, (![1592, 0] : Fin 2 → Nat) a + S8x128.size a ≤ S13312x128.size a
  inb_S13312x128_S8x128_1800_0 : ∀ a, (![1800, 0] : Fin 2 → Nat) a + S8x128.size a ≤ S13312x128.size a
  inb_S13312x128_S8x128_2008_0 : ∀ a, (![2008, 0] : Fin 2 → Nat) a + S8x128.size a ≤ S13312x128.size a
  inb_S13312x128_S8x128_2216_0 : ∀ a, (![2216, 0] : Fin 2 → Nat) a + S8x128.size a ≤ S13312x128.size a
  inb_S13312x128_S8x128_2424_0 : ∀ a, (![2424, 0] : Fin 2 → Nat) a + S8x128.size a ≤ S13312x128.size a
  inb_S13312x128_S8x128_2632_0 : ∀ a, (![2632, 0] : Fin 2 → Nat) a + S8x128.size a ≤ S13312x128.size a
  inb_S13312x128_S8x128_2840_0 : ∀ a, (![2840, 0] : Fin 2 → Nat) a + S8x128.size a ≤ S13312x128.size a
  inb_S13312x128_S8x128_3048_0 : ∀ a, (![3048, 0] : Fin 2 → Nat) a + S8x128.size a ≤ S13312x128.size a
  inb_S13312x128_S8x128_3256_0 : ∀ a, (![3256, 0] : Fin 2 → Nat) a + S8x128.size a ≤ S13312x128.size a
  inb_S13312x128_S8x128_3464_0 : ∀ a, (![3464, 0] : Fin 2 → Nat) a + S8x128.size a ≤ S13312x128.size a
  inb_S13312x128_S8x128_3672_0 : ∀ a, (![3672, 0] : Fin 2 → Nat) a + S8x128.size a ≤ S13312x128.size a
  inb_S13312x128_S8x128_3880_0 : ∀ a, (![3880, 0] : Fin 2 → Nat) a + S8x128.size a ≤ S13312x128.size a
  inb_S13312x128_S8x128_4088_0 : ∀ a, (![4088, 0] : Fin 2 → Nat) a + S8x128.size a ≤ S13312x128.size a
  inb_S13312x128_S8x128_4296_0 : ∀ a, (![4296, 0] : Fin 2 → Nat) a + S8x128.size a ≤ S13312x128.size a
  inb_S13312x128_S8x128_4504_0 : ∀ a, (![4504, 0] : Fin 2 → Nat) a + S8x128.size a ≤ S13312x128.size a
  inb_S13312x128_S8x128_4712_0 : ∀ a, (![4712, 0] : Fin 2 → Nat) a + S8x128.size a ≤ S13312x128.size a
  inb_S13312x128_S8x128_4920_0 : ∀ a, (![4920, 0] : Fin 2 → Nat) a + S8x128.size a ≤ S13312x128.size a
  inb_S13312x128_S8x128_5128_0 : ∀ a, (![5128, 0] : Fin 2 → Nat) a + S8x128.size a ≤ S13312x128.size a
  inb_S13312x128_S8x128_5336_0 : ∀ a, (![5336, 0] : Fin 2 → Nat) a + S8x128.size a ≤ S13312x128.size a
  inb_S13312x128_S8x128_5544_0 : ∀ a, (![5544, 0] : Fin 2 → Nat) a + S8x128.size a ≤ S13312x128.size a
  inb_S13312x128_S8x128_5752_0 : ∀ a, (![5752, 0] : Fin 2 → Nat) a + S8x128.size a ≤ S13312x128.size a
  inb_S13312x128_S8x128_5960_0 : ∀ a, (![5960, 0] : Fin 2 → Nat) a + S8x128.size a ≤ S13312x128.size a
  inb_S13312x128_S8x128_6168_0 : ∀ a, (![6168, 0] : Fin 2 → Nat) a + S8x128.size a ≤ S13312x128.size a
  inb_S13312x128_S8x128_6376_0 : ∀ a, (![6376, 0] : Fin 2 → Nat) a + S8x128.size a ≤ S13312x128.size a
  inb_S13312x128_S8x128_6584_0 : ∀ a, (![6584, 0] : Fin 2 → Nat) a + S8x128.size a ≤ S13312x128.size a
  inb_S13312x128_S8x128_6792_0 : ∀ a, (![6792, 0] : Fin 2 → Nat) a + S8x128.size a ≤ S13312x128.size a
  inb_S13312x128_S8x128_7000_0 : ∀ a, (![7000, 0] : Fin 2 → Nat) a + S8x128.size a ≤ S13312x128.size a
  inb_S13312x128_S8x128_7208_0 : ∀ a, (![7208, 0] : Fin 2 → Nat) a + S8x128.size a ≤ S13312x128.size a
  inb_S13312x128_S8x128_7416_0 : ∀ a, (![7416, 0] : Fin 2 → Nat) a + S8x128.size a ≤ S13312x128.size a
  inb_S13312x128_S8x128_7624_0 : ∀ a, (![7624, 0] : Fin 2 → Nat) a + S8x128.size a ≤ S13312x128.size a
  inb_S13312x128_S8x128_7832_0 : ∀ a, (![7832, 0] : Fin 2 → Nat) a + S8x128.size a ≤ S13312x128.size a
  inb_S13312x128_S8x128_8040_0 : ∀ a, (![8040, 0] : Fin 2 → Nat) a + S8x128.size a ≤ S13312x128.size a
  inb_S13312x128_S8x128_8248_0 : ∀ a, (![8248, 0] : Fin 2 → Nat) a + S8x128.size a ≤ S13312x128.size a
  inb_S13312x128_S8x128_8456_0 : ∀ a, (![8456, 0] : Fin 2 → Nat) a + S8x128.size a ≤ S13312x128.size a
  inb_S13312x128_S8x128_8664_0 : ∀ a, (![8664, 0] : Fin 2 → Nat) a + S8x128.size a ≤ S13312x128.size a
  inb_S13312x128_S8x128_8872_0 : ∀ a, (![8872, 0] : Fin 2 → Nat) a + S8x128.size a ≤ S13312x128.size a
  inb_S13312x128_S8x128_9080_0 : ∀ a, (![9080, 0] : Fin 2 → Nat) a + S8x128.size a ≤ S13312x128.size a
  inb_S13312x128_S8x128_9288_0 : ∀ a, (![9288, 0] : Fin 2 → Nat) a + S8x128.size a ≤ S13312x128.size a
  inb_S13312x128_S8x128_9496_0 : ∀ a, (![9496, 0] : Fin 2 → Nat) a + S8x128.size a ≤ S13312x128.size a
  inb_S13312x128_S8x128_9704_0 : ∀ a, (![9704, 0] : Fin 2 → Nat) a + S8x128.size a ≤ S13312x128.size a
  inb_S13312x128_S8x128_9912_0 : ∀ a, (![9912, 0] : Fin 2 → Nat) a + S8x128.size a ≤ S13312x128.size a
  inb_S13312x128_S8x128_10120_0 : ∀ a, (![10120, 0] : Fin 2 → Nat) a + S8x128.size a ≤ S13312x128.size a
  inb_S13312x128_S8x128_10328_0 : ∀ a, (![10328, 0] : Fin 2 → Nat) a + S8x128.size a ≤ S13312x128.size a
  inb_S13312x128_S8x128_10536_0 : ∀ a, (![10536, 0] : Fin 2 → Nat) a + S8x128.size a ≤ S13312x128.size a
  inb_S13312x128_S8x128_10744_0 : ∀ a, (![10744, 0] : Fin 2 → Nat) a + S8x128.size a ≤ S13312x128.size a
  inb_S13312x128_S8x128_10952_0 : ∀ a, (![10952, 0] : Fin 2 → Nat) a + S8x128.size a ≤ S13312x128.size a
  inb_S13312x128_S8x128_11160_0 : ∀ a, (![11160, 0] : Fin 2 → Nat) a + S8x128.size a ≤ S13312x128.size a
  inb_S13312x128_S8x128_11368_0 : ∀ a, (![11368, 0] : Fin 2 → Nat) a + S8x128.size a ≤ S13312x128.size a
  inb_S13312x128_S8x128_11576_0 : ∀ a, (![11576, 0] : Fin 2 → Nat) a + S8x128.size a ≤ S13312x128.size a
  inb_S13312x128_S8x128_11784_0 : ∀ a, (![11784, 0] : Fin 2 → Nat) a + S8x128.size a ≤ S13312x128.size a
  inb_S13312x128_S8x128_11992_0 : ∀ a, (![11992, 0] : Fin 2 → Nat) a + S8x128.size a ≤ S13312x128.size a
  inb_S13312x128_S8x128_12200_0 : ∀ a, (![12200, 0] : Fin 2 → Nat) a + S8x128.size a ≤ S13312x128.size a
  inb_S13312x128_S8x128_12408_0 : ∀ a, (![12408, 0] : Fin 2 → Nat) a + S8x128.size a ≤ S13312x128.size a
  inb_S13312x128_S8x128_12616_0 : ∀ a, (![12616, 0] : Fin 2 → Nat) a + S8x128.size a ≤ S13312x128.size a
  inb_S13312x128_S8x128_12824_0 : ∀ a, (![12824, 0] : Fin 2 → Nat) a + S8x128.size a ≤ S13312x128.size a
  inb_S13312x128_S8x128_13032_0 : ∀ a, (![13032, 0] : Fin 2 → Nat) a + S8x128.size a ≤ S13312x128.size a
  inb_S13312x128_S8x128_13240_0 : ∀ a, (![13240, 0] : Fin 2 → Nat) a + S8x128.size a ≤ S13312x128.size a
  inb_S3341x512_S128x512_2176_0 : ∀ a, (![2176, 0] : Fin 2 → Nat) a + S128x512.size a ≤ S3341x512.size a
  inb_S13312x128_S8x128_144_0 : ∀ a, (![144, 0] : Fin 2 → Nat) a + S8x128.size a ≤ S13312x128.size a
  inb_S13312x128_S8x128_352_0 : ∀ a, (![352, 0] : Fin 2 → Nat) a + S8x128.size a ≤ S13312x128.size a
  inb_S13312x128_S8x128_560_0 : ∀ a, (![560, 0] : Fin 2 → Nat) a + S8x128.size a ≤ S13312x128.size a
  inb_S13312x128_S8x128_768_0 : ∀ a, (![768, 0] : Fin 2 → Nat) a + S8x128.size a ≤ S13312x128.size a
  inb_S13312x128_S8x128_976_0 : ∀ a, (![976, 0] : Fin 2 → Nat) a + S8x128.size a ≤ S13312x128.size a
  inb_S13312x128_S8x128_1184_0 : ∀ a, (![1184, 0] : Fin 2 → Nat) a + S8x128.size a ≤ S13312x128.size a
  inb_S13312x128_S8x128_1392_0 : ∀ a, (![1392, 0] : Fin 2 → Nat) a + S8x128.size a ≤ S13312x128.size a
  inb_S13312x128_S8x128_1600_0 : ∀ a, (![1600, 0] : Fin 2 → Nat) a + S8x128.size a ≤ S13312x128.size a
  inb_S13312x128_S8x128_1808_0 : ∀ a, (![1808, 0] : Fin 2 → Nat) a + S8x128.size a ≤ S13312x128.size a
  inb_S13312x128_S8x128_2016_0 : ∀ a, (![2016, 0] : Fin 2 → Nat) a + S8x128.size a ≤ S13312x128.size a
  inb_S13312x128_S8x128_2224_0 : ∀ a, (![2224, 0] : Fin 2 → Nat) a + S8x128.size a ≤ S13312x128.size a
  inb_S13312x128_S8x128_2432_0 : ∀ a, (![2432, 0] : Fin 2 → Nat) a + S8x128.size a ≤ S13312x128.size a
  inb_S13312x128_S8x128_2640_0 : ∀ a, (![2640, 0] : Fin 2 → Nat) a + S8x128.size a ≤ S13312x128.size a
  inb_S13312x128_S8x128_2848_0 : ∀ a, (![2848, 0] : Fin 2 → Nat) a + S8x128.size a ≤ S13312x128.size a
  inb_S13312x128_S8x128_3056_0 : ∀ a, (![3056, 0] : Fin 2 → Nat) a + S8x128.size a ≤ S13312x128.size a
  inb_S13312x128_S8x128_3264_0 : ∀ a, (![3264, 0] : Fin 2 → Nat) a + S8x128.size a ≤ S13312x128.size a
  inb_S13312x128_S8x128_3472_0 : ∀ a, (![3472, 0] : Fin 2 → Nat) a + S8x128.size a ≤ S13312x128.size a
  inb_S13312x128_S8x128_3680_0 : ∀ a, (![3680, 0] : Fin 2 → Nat) a + S8x128.size a ≤ S13312x128.size a
  inb_S13312x128_S8x128_3888_0 : ∀ a, (![3888, 0] : Fin 2 → Nat) a + S8x128.size a ≤ S13312x128.size a
  inb_S13312x128_S8x128_4096_0 : ∀ a, (![4096, 0] : Fin 2 → Nat) a + S8x128.size a ≤ S13312x128.size a
  inb_S13312x128_S8x128_4304_0 : ∀ a, (![4304, 0] : Fin 2 → Nat) a + S8x128.size a ≤ S13312x128.size a
  inb_S13312x128_S8x128_4512_0 : ∀ a, (![4512, 0] : Fin 2 → Nat) a + S8x128.size a ≤ S13312x128.size a
  inb_S13312x128_S8x128_4720_0 : ∀ a, (![4720, 0] : Fin 2 → Nat) a + S8x128.size a ≤ S13312x128.size a
  inb_S13312x128_S8x128_4928_0 : ∀ a, (![4928, 0] : Fin 2 → Nat) a + S8x128.size a ≤ S13312x128.size a
  inb_S13312x128_S8x128_5136_0 : ∀ a, (![5136, 0] : Fin 2 → Nat) a + S8x128.size a ≤ S13312x128.size a
  inb_S13312x128_S8x128_5344_0 : ∀ a, (![5344, 0] : Fin 2 → Nat) a + S8x128.size a ≤ S13312x128.size a
  inb_S13312x128_S8x128_5552_0 : ∀ a, (![5552, 0] : Fin 2 → Nat) a + S8x128.size a ≤ S13312x128.size a
  inb_S13312x128_S8x128_5760_0 : ∀ a, (![5760, 0] : Fin 2 → Nat) a + S8x128.size a ≤ S13312x128.size a
  inb_S13312x128_S8x128_5968_0 : ∀ a, (![5968, 0] : Fin 2 → Nat) a + S8x128.size a ≤ S13312x128.size a
  inb_S13312x128_S8x128_6176_0 : ∀ a, (![6176, 0] : Fin 2 → Nat) a + S8x128.size a ≤ S13312x128.size a
  inb_S13312x128_S8x128_6384_0 : ∀ a, (![6384, 0] : Fin 2 → Nat) a + S8x128.size a ≤ S13312x128.size a
  inb_S13312x128_S8x128_6592_0 : ∀ a, (![6592, 0] : Fin 2 → Nat) a + S8x128.size a ≤ S13312x128.size a
  inb_S13312x128_S8x128_6800_0 : ∀ a, (![6800, 0] : Fin 2 → Nat) a + S8x128.size a ≤ S13312x128.size a
  inb_S13312x128_S8x128_7008_0 : ∀ a, (![7008, 0] : Fin 2 → Nat) a + S8x128.size a ≤ S13312x128.size a
  inb_S13312x128_S8x128_7216_0 : ∀ a, (![7216, 0] : Fin 2 → Nat) a + S8x128.size a ≤ S13312x128.size a
  inb_S13312x128_S8x128_7424_0 : ∀ a, (![7424, 0] : Fin 2 → Nat) a + S8x128.size a ≤ S13312x128.size a
  inb_S13312x128_S8x128_7632_0 : ∀ a, (![7632, 0] : Fin 2 → Nat) a + S8x128.size a ≤ S13312x128.size a
  inb_S13312x128_S8x128_7840_0 : ∀ a, (![7840, 0] : Fin 2 → Nat) a + S8x128.size a ≤ S13312x128.size a
  inb_S13312x128_S8x128_8048_0 : ∀ a, (![8048, 0] : Fin 2 → Nat) a + S8x128.size a ≤ S13312x128.size a
  inb_S13312x128_S8x128_8256_0 : ∀ a, (![8256, 0] : Fin 2 → Nat) a + S8x128.size a ≤ S13312x128.size a
  inb_S13312x128_S8x128_8464_0 : ∀ a, (![8464, 0] : Fin 2 → Nat) a + S8x128.size a ≤ S13312x128.size a
  inb_S13312x128_S8x128_8672_0 : ∀ a, (![8672, 0] : Fin 2 → Nat) a + S8x128.size a ≤ S13312x128.size a
  inb_S13312x128_S8x128_8880_0 : ∀ a, (![8880, 0] : Fin 2 → Nat) a + S8x128.size a ≤ S13312x128.size a
  inb_S13312x128_S8x128_9088_0 : ∀ a, (![9088, 0] : Fin 2 → Nat) a + S8x128.size a ≤ S13312x128.size a
  inb_S13312x128_S8x128_9296_0 : ∀ a, (![9296, 0] : Fin 2 → Nat) a + S8x128.size a ≤ S13312x128.size a
  inb_S13312x128_S8x128_9504_0 : ∀ a, (![9504, 0] : Fin 2 → Nat) a + S8x128.size a ≤ S13312x128.size a
  inb_S13312x128_S8x128_9712_0 : ∀ a, (![9712, 0] : Fin 2 → Nat) a + S8x128.size a ≤ S13312x128.size a
  inb_S13312x128_S8x128_9920_0 : ∀ a, (![9920, 0] : Fin 2 → Nat) a + S8x128.size a ≤ S13312x128.size a
  inb_S13312x128_S8x128_10128_0 : ∀ a, (![10128, 0] : Fin 2 → Nat) a + S8x128.size a ≤ S13312x128.size a
  inb_S13312x128_S8x128_10336_0 : ∀ a, (![10336, 0] : Fin 2 → Nat) a + S8x128.size a ≤ S13312x128.size a
  inb_S13312x128_S8x128_10544_0 : ∀ a, (![10544, 0] : Fin 2 → Nat) a + S8x128.size a ≤ S13312x128.size a
  inb_S13312x128_S8x128_10752_0 : ∀ a, (![10752, 0] : Fin 2 → Nat) a + S8x128.size a ≤ S13312x128.size a
  inb_S13312x128_S8x128_10960_0 : ∀ a, (![10960, 0] : Fin 2 → Nat) a + S8x128.size a ≤ S13312x128.size a
  inb_S13312x128_S8x128_11168_0 : ∀ a, (![11168, 0] : Fin 2 → Nat) a + S8x128.size a ≤ S13312x128.size a
  inb_S13312x128_S8x128_11376_0 : ∀ a, (![11376, 0] : Fin 2 → Nat) a + S8x128.size a ≤ S13312x128.size a
  inb_S13312x128_S8x128_11584_0 : ∀ a, (![11584, 0] : Fin 2 → Nat) a + S8x128.size a ≤ S13312x128.size a
  inb_S13312x128_S8x128_11792_0 : ∀ a, (![11792, 0] : Fin 2 → Nat) a + S8x128.size a ≤ S13312x128.size a
  inb_S13312x128_S8x128_12000_0 : ∀ a, (![12000, 0] : Fin 2 → Nat) a + S8x128.size a ≤ S13312x128.size a
  inb_S13312x128_S8x128_12208_0 : ∀ a, (![12208, 0] : Fin 2 → Nat) a + S8x128.size a ≤ S13312x128.size a
  inb_S13312x128_S8x128_12416_0 : ∀ a, (![12416, 0] : Fin 2 → Nat) a + S8x128.size a ≤ S13312x128.size a
  inb_S13312x128_S8x128_12624_0 : ∀ a, (![12624, 0] : Fin 2 → Nat) a + S8x128.size a ≤ S13312x128.size a
  inb_S13312x128_S8x128_12832_0 : ∀ a, (![12832, 0] : Fin 2 → Nat) a + S8x128.size a ≤ S13312x128.size a
  inb_S13312x128_S8x128_13040_0 : ∀ a, (![13040, 0] : Fin 2 → Nat) a + S8x128.size a ≤ S13312x128.size a
  inb_S13312x128_S8x128_13248_0 : ∀ a, (![13248, 0] : Fin 2 → Nat) a + S8x128.size a ≤ S13312x128.size a
  inb_S3341x512_S128x512_2304_0 : ∀ a, (![2304, 0] : Fin 2 → Nat) a + S128x512.size a ≤ S3341x512.size a
  inb_S13312x128_S8x128_152_0 : ∀ a, (![152, 0] : Fin 2 → Nat) a + S8x128.size a ≤ S13312x128.size a
  inb_S13312x128_S8x128_360_0 : ∀ a, (![360, 0] : Fin 2 → Nat) a + S8x128.size a ≤ S13312x128.size a
  inb_S13312x128_S8x128_568_0 : ∀ a, (![568, 0] : Fin 2 → Nat) a + S8x128.size a ≤ S13312x128.size a
  inb_S13312x128_S8x128_776_0 : ∀ a, (![776, 0] : Fin 2 → Nat) a + S8x128.size a ≤ S13312x128.size a
  inb_S13312x128_S8x128_984_0 : ∀ a, (![984, 0] : Fin 2 → Nat) a + S8x128.size a ≤ S13312x128.size a
  inb_S13312x128_S8x128_1192_0 : ∀ a, (![1192, 0] : Fin 2 → Nat) a + S8x128.size a ≤ S13312x128.size a
  inb_S13312x128_S8x128_1400_0 : ∀ a, (![1400, 0] : Fin 2 → Nat) a + S8x128.size a ≤ S13312x128.size a
  inb_S13312x128_S8x128_1608_0 : ∀ a, (![1608, 0] : Fin 2 → Nat) a + S8x128.size a ≤ S13312x128.size a
  inb_S13312x128_S8x128_1816_0 : ∀ a, (![1816, 0] : Fin 2 → Nat) a + S8x128.size a ≤ S13312x128.size a
  inb_S13312x128_S8x128_2024_0 : ∀ a, (![2024, 0] : Fin 2 → Nat) a + S8x128.size a ≤ S13312x128.size a
  inb_S13312x128_S8x128_2232_0 : ∀ a, (![2232, 0] : Fin 2 → Nat) a + S8x128.size a ≤ S13312x128.size a
  inb_S13312x128_S8x128_2440_0 : ∀ a, (![2440, 0] : Fin 2 → Nat) a + S8x128.size a ≤ S13312x128.size a
  inb_S13312x128_S8x128_2648_0 : ∀ a, (![2648, 0] : Fin 2 → Nat) a + S8x128.size a ≤ S13312x128.size a
  inb_S13312x128_S8x128_2856_0 : ∀ a, (![2856, 0] : Fin 2 → Nat) a + S8x128.size a ≤ S13312x128.size a
  inb_S13312x128_S8x128_3064_0 : ∀ a, (![3064, 0] : Fin 2 → Nat) a + S8x128.size a ≤ S13312x128.size a
  inb_S13312x128_S8x128_3272_0 : ∀ a, (![3272, 0] : Fin 2 → Nat) a + S8x128.size a ≤ S13312x128.size a
  inb_S13312x128_S8x128_3480_0 : ∀ a, (![3480, 0] : Fin 2 → Nat) a + S8x128.size a ≤ S13312x128.size a
  inb_S13312x128_S8x128_3688_0 : ∀ a, (![3688, 0] : Fin 2 → Nat) a + S8x128.size a ≤ S13312x128.size a
  inb_S13312x128_S8x128_3896_0 : ∀ a, (![3896, 0] : Fin 2 → Nat) a + S8x128.size a ≤ S13312x128.size a
  inb_S13312x128_S8x128_4104_0 : ∀ a, (![4104, 0] : Fin 2 → Nat) a + S8x128.size a ≤ S13312x128.size a
  inb_S13312x128_S8x128_4312_0 : ∀ a, (![4312, 0] : Fin 2 → Nat) a + S8x128.size a ≤ S13312x128.size a
  inb_S13312x128_S8x128_4520_0 : ∀ a, (![4520, 0] : Fin 2 → Nat) a + S8x128.size a ≤ S13312x128.size a
  inb_S13312x128_S8x128_4728_0 : ∀ a, (![4728, 0] : Fin 2 → Nat) a + S8x128.size a ≤ S13312x128.size a
  inb_S13312x128_S8x128_4936_0 : ∀ a, (![4936, 0] : Fin 2 → Nat) a + S8x128.size a ≤ S13312x128.size a
  inb_S13312x128_S8x128_5144_0 : ∀ a, (![5144, 0] : Fin 2 → Nat) a + S8x128.size a ≤ S13312x128.size a
  inb_S13312x128_S8x128_5352_0 : ∀ a, (![5352, 0] : Fin 2 → Nat) a + S8x128.size a ≤ S13312x128.size a
  inb_S13312x128_S8x128_5560_0 : ∀ a, (![5560, 0] : Fin 2 → Nat) a + S8x128.size a ≤ S13312x128.size a
  inb_S13312x128_S8x128_5768_0 : ∀ a, (![5768, 0] : Fin 2 → Nat) a + S8x128.size a ≤ S13312x128.size a
  inb_S13312x128_S8x128_5976_0 : ∀ a, (![5976, 0] : Fin 2 → Nat) a + S8x128.size a ≤ S13312x128.size a
  inb_S13312x128_S8x128_6184_0 : ∀ a, (![6184, 0] : Fin 2 → Nat) a + S8x128.size a ≤ S13312x128.size a
  inb_S13312x128_S8x128_6392_0 : ∀ a, (![6392, 0] : Fin 2 → Nat) a + S8x128.size a ≤ S13312x128.size a
  inb_S13312x128_S8x128_6600_0 : ∀ a, (![6600, 0] : Fin 2 → Nat) a + S8x128.size a ≤ S13312x128.size a
  inb_S13312x128_S8x128_6808_0 : ∀ a, (![6808, 0] : Fin 2 → Nat) a + S8x128.size a ≤ S13312x128.size a
  inb_S13312x128_S8x128_7016_0 : ∀ a, (![7016, 0] : Fin 2 → Nat) a + S8x128.size a ≤ S13312x128.size a
  inb_S13312x128_S8x128_7224_0 : ∀ a, (![7224, 0] : Fin 2 → Nat) a + S8x128.size a ≤ S13312x128.size a
  inb_S13312x128_S8x128_7432_0 : ∀ a, (![7432, 0] : Fin 2 → Nat) a + S8x128.size a ≤ S13312x128.size a
  inb_S13312x128_S8x128_7640_0 : ∀ a, (![7640, 0] : Fin 2 → Nat) a + S8x128.size a ≤ S13312x128.size a
  inb_S13312x128_S8x128_7848_0 : ∀ a, (![7848, 0] : Fin 2 → Nat) a + S8x128.size a ≤ S13312x128.size a
  inb_S13312x128_S8x128_8056_0 : ∀ a, (![8056, 0] : Fin 2 → Nat) a + S8x128.size a ≤ S13312x128.size a
  inb_S13312x128_S8x128_8264_0 : ∀ a, (![8264, 0] : Fin 2 → Nat) a + S8x128.size a ≤ S13312x128.size a
  inb_S13312x128_S8x128_8472_0 : ∀ a, (![8472, 0] : Fin 2 → Nat) a + S8x128.size a ≤ S13312x128.size a
  inb_S13312x128_S8x128_8680_0 : ∀ a, (![8680, 0] : Fin 2 → Nat) a + S8x128.size a ≤ S13312x128.size a
  inb_S13312x128_S8x128_8888_0 : ∀ a, (![8888, 0] : Fin 2 → Nat) a + S8x128.size a ≤ S13312x128.size a
  inb_S13312x128_S8x128_9096_0 : ∀ a, (![9096, 0] : Fin 2 → Nat) a + S8x128.size a ≤ S13312x128.size a
  inb_S13312x128_S8x128_9304_0 : ∀ a, (![9304, 0] : Fin 2 → Nat) a + S8x128.size a ≤ S13312x128.size a
  inb_S13312x128_S8x128_9512_0 : ∀ a, (![9512, 0] : Fin 2 → Nat) a + S8x128.size a ≤ S13312x128.size a
  inb_S13312x128_S8x128_9720_0 : ∀ a, (![9720, 0] : Fin 2 → Nat) a + S8x128.size a ≤ S13312x128.size a
  inb_S13312x128_S8x128_9928_0 : ∀ a, (![9928, 0] : Fin 2 → Nat) a + S8x128.size a ≤ S13312x128.size a
  inb_S13312x128_S8x128_10136_0 : ∀ a, (![10136, 0] : Fin 2 → Nat) a + S8x128.size a ≤ S13312x128.size a
  inb_S13312x128_S8x128_10344_0 : ∀ a, (![10344, 0] : Fin 2 → Nat) a + S8x128.size a ≤ S13312x128.size a
  inb_S13312x128_S8x128_10552_0 : ∀ a, (![10552, 0] : Fin 2 → Nat) a + S8x128.size a ≤ S13312x128.size a
  inb_S13312x128_S8x128_10760_0 : ∀ a, (![10760, 0] : Fin 2 → Nat) a + S8x128.size a ≤ S13312x128.size a
  inb_S13312x128_S8x128_10968_0 : ∀ a, (![10968, 0] : Fin 2 → Nat) a + S8x128.size a ≤ S13312x128.size a
  inb_S13312x128_S8x128_11176_0 : ∀ a, (![11176, 0] : Fin 2 → Nat) a + S8x128.size a ≤ S13312x128.size a
  inb_S13312x128_S8x128_11384_0 : ∀ a, (![11384, 0] : Fin 2 → Nat) a + S8x128.size a ≤ S13312x128.size a
  inb_S13312x128_S8x128_11592_0 : ∀ a, (![11592, 0] : Fin 2 → Nat) a + S8x128.size a ≤ S13312x128.size a
  inb_S13312x128_S8x128_11800_0 : ∀ a, (![11800, 0] : Fin 2 → Nat) a + S8x128.size a ≤ S13312x128.size a
  inb_S13312x128_S8x128_12008_0 : ∀ a, (![12008, 0] : Fin 2 → Nat) a + S8x128.size a ≤ S13312x128.size a
  inb_S13312x128_S8x128_12216_0 : ∀ a, (![12216, 0] : Fin 2 → Nat) a + S8x128.size a ≤ S13312x128.size a
  inb_S13312x128_S8x128_12424_0 : ∀ a, (![12424, 0] : Fin 2 → Nat) a + S8x128.size a ≤ S13312x128.size a
  inb_S13312x128_S8x128_12632_0 : ∀ a, (![12632, 0] : Fin 2 → Nat) a + S8x128.size a ≤ S13312x128.size a
  inb_S13312x128_S8x128_12840_0 : ∀ a, (![12840, 0] : Fin 2 → Nat) a + S8x128.size a ≤ S13312x128.size a
  inb_S13312x128_S8x128_13048_0 : ∀ a, (![13048, 0] : Fin 2 → Nat) a + S8x128.size a ≤ S13312x128.size a
  inb_S13312x128_S8x128_13256_0 : ∀ a, (![13256, 0] : Fin 2 → Nat) a + S8x128.size a ≤ S13312x128.size a
  inb_S3341x512_S128x512_2432_0 : ∀ a, (![2432, 0] : Fin 2 → Nat) a + S128x512.size a ≤ S3341x512.size a
  inb_S13312x128_S8x128_160_0 : ∀ a, (![160, 0] : Fin 2 → Nat) a + S8x128.size a ≤ S13312x128.size a
  inb_S13312x128_S8x128_368_0 : ∀ a, (![368, 0] : Fin 2 → Nat) a + S8x128.size a ≤ S13312x128.size a
  inb_S13312x128_S8x128_576_0 : ∀ a, (![576, 0] : Fin 2 → Nat) a + S8x128.size a ≤ S13312x128.size a
  inb_S13312x128_S8x128_784_0 : ∀ a, (![784, 0] : Fin 2 → Nat) a + S8x128.size a ≤ S13312x128.size a
  inb_S13312x128_S8x128_992_0 : ∀ a, (![992, 0] : Fin 2 → Nat) a + S8x128.size a ≤ S13312x128.size a
  inb_S13312x128_S8x128_1200_0 : ∀ a, (![1200, 0] : Fin 2 → Nat) a + S8x128.size a ≤ S13312x128.size a
  inb_S13312x128_S8x128_1408_0 : ∀ a, (![1408, 0] : Fin 2 → Nat) a + S8x128.size a ≤ S13312x128.size a
  inb_S13312x128_S8x128_1616_0 : ∀ a, (![1616, 0] : Fin 2 → Nat) a + S8x128.size a ≤ S13312x128.size a
  inb_S13312x128_S8x128_1824_0 : ∀ a, (![1824, 0] : Fin 2 → Nat) a + S8x128.size a ≤ S13312x128.size a
  inb_S13312x128_S8x128_2032_0 : ∀ a, (![2032, 0] : Fin 2 → Nat) a + S8x128.size a ≤ S13312x128.size a
  inb_S13312x128_S8x128_2240_0 : ∀ a, (![2240, 0] : Fin 2 → Nat) a + S8x128.size a ≤ S13312x128.size a
  inb_S13312x128_S8x128_2448_0 : ∀ a, (![2448, 0] : Fin 2 → Nat) a + S8x128.size a ≤ S13312x128.size a
  inb_S13312x128_S8x128_2656_0 : ∀ a, (![2656, 0] : Fin 2 → Nat) a + S8x128.size a ≤ S13312x128.size a
  inb_S13312x128_S8x128_2864_0 : ∀ a, (![2864, 0] : Fin 2 → Nat) a + S8x128.size a ≤ S13312x128.size a
  inb_S13312x128_S8x128_3072_0 : ∀ a, (![3072, 0] : Fin 2 → Nat) a + S8x128.size a ≤ S13312x128.size a
  inb_S13312x128_S8x128_3280_0 : ∀ a, (![3280, 0] : Fin 2 → Nat) a + S8x128.size a ≤ S13312x128.size a
  inb_S13312x128_S8x128_3488_0 : ∀ a, (![3488, 0] : Fin 2 → Nat) a + S8x128.size a ≤ S13312x128.size a
  inb_S13312x128_S8x128_3696_0 : ∀ a, (![3696, 0] : Fin 2 → Nat) a + S8x128.size a ≤ S13312x128.size a
  inb_S13312x128_S8x128_3904_0 : ∀ a, (![3904, 0] : Fin 2 → Nat) a + S8x128.size a ≤ S13312x128.size a
  inb_S13312x128_S8x128_4112_0 : ∀ a, (![4112, 0] : Fin 2 → Nat) a + S8x128.size a ≤ S13312x128.size a
  inb_S13312x128_S8x128_4320_0 : ∀ a, (![4320, 0] : Fin 2 → Nat) a + S8x128.size a ≤ S13312x128.size a
  inb_S13312x128_S8x128_4528_0 : ∀ a, (![4528, 0] : Fin 2 → Nat) a + S8x128.size a ≤ S13312x128.size a
  inb_S13312x128_S8x128_4736_0 : ∀ a, (![4736, 0] : Fin 2 → Nat) a + S8x128.size a ≤ S13312x128.size a
  inb_S13312x128_S8x128_4944_0 : ∀ a, (![4944, 0] : Fin 2 → Nat) a + S8x128.size a ≤ S13312x128.size a
  inb_S13312x128_S8x128_5152_0 : ∀ a, (![5152, 0] : Fin 2 → Nat) a + S8x128.size a ≤ S13312x128.size a
  inb_S13312x128_S8x128_5360_0 : ∀ a, (![5360, 0] : Fin 2 → Nat) a + S8x128.size a ≤ S13312x128.size a
  inb_S13312x128_S8x128_5568_0 : ∀ a, (![5568, 0] : Fin 2 → Nat) a + S8x128.size a ≤ S13312x128.size a
  inb_S13312x128_S8x128_5776_0 : ∀ a, (![5776, 0] : Fin 2 → Nat) a + S8x128.size a ≤ S13312x128.size a
  inb_S13312x128_S8x128_5984_0 : ∀ a, (![5984, 0] : Fin 2 → Nat) a + S8x128.size a ≤ S13312x128.size a
  inb_S13312x128_S8x128_6192_0 : ∀ a, (![6192, 0] : Fin 2 → Nat) a + S8x128.size a ≤ S13312x128.size a
  inb_S13312x128_S8x128_6400_0 : ∀ a, (![6400, 0] : Fin 2 → Nat) a + S8x128.size a ≤ S13312x128.size a
  inb_S13312x128_S8x128_6608_0 : ∀ a, (![6608, 0] : Fin 2 → Nat) a + S8x128.size a ≤ S13312x128.size a
  inb_S13312x128_S8x128_6816_0 : ∀ a, (![6816, 0] : Fin 2 → Nat) a + S8x128.size a ≤ S13312x128.size a
  inb_S13312x128_S8x128_7024_0 : ∀ a, (![7024, 0] : Fin 2 → Nat) a + S8x128.size a ≤ S13312x128.size a
  inb_S13312x128_S8x128_7232_0 : ∀ a, (![7232, 0] : Fin 2 → Nat) a + S8x128.size a ≤ S13312x128.size a
  inb_S13312x128_S8x128_7440_0 : ∀ a, (![7440, 0] : Fin 2 → Nat) a + S8x128.size a ≤ S13312x128.size a
  inb_S13312x128_S8x128_7648_0 : ∀ a, (![7648, 0] : Fin 2 → Nat) a + S8x128.size a ≤ S13312x128.size a
  inb_S13312x128_S8x128_7856_0 : ∀ a, (![7856, 0] : Fin 2 → Nat) a + S8x128.size a ≤ S13312x128.size a
  inb_S13312x128_S8x128_8064_0 : ∀ a, (![8064, 0] : Fin 2 → Nat) a + S8x128.size a ≤ S13312x128.size a
  inb_S13312x128_S8x128_8272_0 : ∀ a, (![8272, 0] : Fin 2 → Nat) a + S8x128.size a ≤ S13312x128.size a
  inb_S13312x128_S8x128_8480_0 : ∀ a, (![8480, 0] : Fin 2 → Nat) a + S8x128.size a ≤ S13312x128.size a
  inb_S13312x128_S8x128_8688_0 : ∀ a, (![8688, 0] : Fin 2 → Nat) a + S8x128.size a ≤ S13312x128.size a
  inb_S13312x128_S8x128_8896_0 : ∀ a, (![8896, 0] : Fin 2 → Nat) a + S8x128.size a ≤ S13312x128.size a
  inb_S13312x128_S8x128_9104_0 : ∀ a, (![9104, 0] : Fin 2 → Nat) a + S8x128.size a ≤ S13312x128.size a
  inb_S13312x128_S8x128_9312_0 : ∀ a, (![9312, 0] : Fin 2 → Nat) a + S8x128.size a ≤ S13312x128.size a
  inb_S13312x128_S8x128_9520_0 : ∀ a, (![9520, 0] : Fin 2 → Nat) a + S8x128.size a ≤ S13312x128.size a
  inb_S13312x128_S8x128_9728_0 : ∀ a, (![9728, 0] : Fin 2 → Nat) a + S8x128.size a ≤ S13312x128.size a
  inb_S13312x128_S8x128_9936_0 : ∀ a, (![9936, 0] : Fin 2 → Nat) a + S8x128.size a ≤ S13312x128.size a
  inb_S13312x128_S8x128_10144_0 : ∀ a, (![10144, 0] : Fin 2 → Nat) a + S8x128.size a ≤ S13312x128.size a
  inb_S13312x128_S8x128_10352_0 : ∀ a, (![10352, 0] : Fin 2 → Nat) a + S8x128.size a ≤ S13312x128.size a
  inb_S13312x128_S8x128_10560_0 : ∀ a, (![10560, 0] : Fin 2 → Nat) a + S8x128.size a ≤ S13312x128.size a
  inb_S13312x128_S8x128_10768_0 : ∀ a, (![10768, 0] : Fin 2 → Nat) a + S8x128.size a ≤ S13312x128.size a
  inb_S13312x128_S8x128_10976_0 : ∀ a, (![10976, 0] : Fin 2 → Nat) a + S8x128.size a ≤ S13312x128.size a
  inb_S13312x128_S8x128_11184_0 : ∀ a, (![11184, 0] : Fin 2 → Nat) a + S8x128.size a ≤ S13312x128.size a
  inb_S13312x128_S8x128_11392_0 : ∀ a, (![11392, 0] : Fin 2 → Nat) a + S8x128.size a ≤ S13312x128.size a
  inb_S13312x128_S8x128_11600_0 : ∀ a, (![11600, 0] : Fin 2 → Nat) a + S8x128.size a ≤ S13312x128.size a
  inb_S13312x128_S8x128_11808_0 : ∀ a, (![11808, 0] : Fin 2 → Nat) a + S8x128.size a ≤ S13312x128.size a
  inb_S13312x128_S8x128_12016_0 : ∀ a, (![12016, 0] : Fin 2 → Nat) a + S8x128.size a ≤ S13312x128.size a
  inb_S13312x128_S8x128_12224_0 : ∀ a, (![12224, 0] : Fin 2 → Nat) a + S8x128.size a ≤ S13312x128.size a
  inb_S13312x128_S8x128_12432_0 : ∀ a, (![12432, 0] : Fin 2 → Nat) a + S8x128.size a ≤ S13312x128.size a
  inb_S13312x128_S8x128_12640_0 : ∀ a, (![12640, 0] : Fin 2 → Nat) a + S8x128.size a ≤ S13312x128.size a
  inb_S13312x128_S8x128_12848_0 : ∀ a, (![12848, 0] : Fin 2 → Nat) a + S8x128.size a ≤ S13312x128.size a
  inb_S13312x128_S8x128_13056_0 : ∀ a, (![13056, 0] : Fin 2 → Nat) a + S8x128.size a ≤ S13312x128.size a
  inb_S13312x128_S8x128_13264_0 : ∀ a, (![13264, 0] : Fin 2 → Nat) a + S8x128.size a ≤ S13312x128.size a
  inb_S3341x512_S128x512_2560_0 : ∀ a, (![2560, 0] : Fin 2 → Nat) a + S128x512.size a ≤ S3341x512.size a
  inb_S13312x128_S8x128_168_0 : ∀ a, (![168, 0] : Fin 2 → Nat) a + S8x128.size a ≤ S13312x128.size a
  inb_S13312x128_S8x128_376_0 : ∀ a, (![376, 0] : Fin 2 → Nat) a + S8x128.size a ≤ S13312x128.size a
  inb_S13312x128_S8x128_584_0 : ∀ a, (![584, 0] : Fin 2 → Nat) a + S8x128.size a ≤ S13312x128.size a
  inb_S13312x128_S8x128_792_0 : ∀ a, (![792, 0] : Fin 2 → Nat) a + S8x128.size a ≤ S13312x128.size a
  inb_S13312x128_S8x128_1000_0 : ∀ a, (![1000, 0] : Fin 2 → Nat) a + S8x128.size a ≤ S13312x128.size a
  inb_S13312x128_S8x128_1208_0 : ∀ a, (![1208, 0] : Fin 2 → Nat) a + S8x128.size a ≤ S13312x128.size a
  inb_S13312x128_S8x128_1416_0 : ∀ a, (![1416, 0] : Fin 2 → Nat) a + S8x128.size a ≤ S13312x128.size a
  inb_S13312x128_S8x128_1624_0 : ∀ a, (![1624, 0] : Fin 2 → Nat) a + S8x128.size a ≤ S13312x128.size a
  inb_S13312x128_S8x128_1832_0 : ∀ a, (![1832, 0] : Fin 2 → Nat) a + S8x128.size a ≤ S13312x128.size a
  inb_S13312x128_S8x128_2040_0 : ∀ a, (![2040, 0] : Fin 2 → Nat) a + S8x128.size a ≤ S13312x128.size a
  inb_S13312x128_S8x128_2248_0 : ∀ a, (![2248, 0] : Fin 2 → Nat) a + S8x128.size a ≤ S13312x128.size a
  inb_S13312x128_S8x128_2456_0 : ∀ a, (![2456, 0] : Fin 2 → Nat) a + S8x128.size a ≤ S13312x128.size a
  inb_S13312x128_S8x128_2664_0 : ∀ a, (![2664, 0] : Fin 2 → Nat) a + S8x128.size a ≤ S13312x128.size a
  inb_S13312x128_S8x128_2872_0 : ∀ a, (![2872, 0] : Fin 2 → Nat) a + S8x128.size a ≤ S13312x128.size a
  inb_S13312x128_S8x128_3080_0 : ∀ a, (![3080, 0] : Fin 2 → Nat) a + S8x128.size a ≤ S13312x128.size a
  inb_S13312x128_S8x128_3288_0 : ∀ a, (![3288, 0] : Fin 2 → Nat) a + S8x128.size a ≤ S13312x128.size a
  inb_S13312x128_S8x128_3496_0 : ∀ a, (![3496, 0] : Fin 2 → Nat) a + S8x128.size a ≤ S13312x128.size a
  inb_S13312x128_S8x128_3704_0 : ∀ a, (![3704, 0] : Fin 2 → Nat) a + S8x128.size a ≤ S13312x128.size a
  inb_S13312x128_S8x128_3912_0 : ∀ a, (![3912, 0] : Fin 2 → Nat) a + S8x128.size a ≤ S13312x128.size a
  inb_S13312x128_S8x128_4120_0 : ∀ a, (![4120, 0] : Fin 2 → Nat) a + S8x128.size a ≤ S13312x128.size a
  inb_S13312x128_S8x128_4328_0 : ∀ a, (![4328, 0] : Fin 2 → Nat) a + S8x128.size a ≤ S13312x128.size a
  inb_S13312x128_S8x128_4536_0 : ∀ a, (![4536, 0] : Fin 2 → Nat) a + S8x128.size a ≤ S13312x128.size a
  inb_S13312x128_S8x128_4744_0 : ∀ a, (![4744, 0] : Fin 2 → Nat) a + S8x128.size a ≤ S13312x128.size a
  inb_S13312x128_S8x128_4952_0 : ∀ a, (![4952, 0] : Fin 2 → Nat) a + S8x128.size a ≤ S13312x128.size a
  inb_S13312x128_S8x128_5160_0 : ∀ a, (![5160, 0] : Fin 2 → Nat) a + S8x128.size a ≤ S13312x128.size a
  inb_S13312x128_S8x128_5368_0 : ∀ a, (![5368, 0] : Fin 2 → Nat) a + S8x128.size a ≤ S13312x128.size a
  inb_S13312x128_S8x128_5576_0 : ∀ a, (![5576, 0] : Fin 2 → Nat) a + S8x128.size a ≤ S13312x128.size a
  inb_S13312x128_S8x128_5784_0 : ∀ a, (![5784, 0] : Fin 2 → Nat) a + S8x128.size a ≤ S13312x128.size a
  inb_S13312x128_S8x128_5992_0 : ∀ a, (![5992, 0] : Fin 2 → Nat) a + S8x128.size a ≤ S13312x128.size a
  inb_S13312x128_S8x128_6200_0 : ∀ a, (![6200, 0] : Fin 2 → Nat) a + S8x128.size a ≤ S13312x128.size a
  inb_S13312x128_S8x128_6408_0 : ∀ a, (![6408, 0] : Fin 2 → Nat) a + S8x128.size a ≤ S13312x128.size a
  inb_S13312x128_S8x128_6616_0 : ∀ a, (![6616, 0] : Fin 2 → Nat) a + S8x128.size a ≤ S13312x128.size a
  inb_S13312x128_S8x128_6824_0 : ∀ a, (![6824, 0] : Fin 2 → Nat) a + S8x128.size a ≤ S13312x128.size a
  inb_S13312x128_S8x128_7032_0 : ∀ a, (![7032, 0] : Fin 2 → Nat) a + S8x128.size a ≤ S13312x128.size a
  inb_S13312x128_S8x128_7240_0 : ∀ a, (![7240, 0] : Fin 2 → Nat) a + S8x128.size a ≤ S13312x128.size a
  inb_S13312x128_S8x128_7448_0 : ∀ a, (![7448, 0] : Fin 2 → Nat) a + S8x128.size a ≤ S13312x128.size a
  inb_S13312x128_S8x128_7656_0 : ∀ a, (![7656, 0] : Fin 2 → Nat) a + S8x128.size a ≤ S13312x128.size a
  inb_S13312x128_S8x128_7864_0 : ∀ a, (![7864, 0] : Fin 2 → Nat) a + S8x128.size a ≤ S13312x128.size a
  inb_S13312x128_S8x128_8072_0 : ∀ a, (![8072, 0] : Fin 2 → Nat) a + S8x128.size a ≤ S13312x128.size a
  inb_S13312x128_S8x128_8280_0 : ∀ a, (![8280, 0] : Fin 2 → Nat) a + S8x128.size a ≤ S13312x128.size a
  inb_S13312x128_S8x128_8488_0 : ∀ a, (![8488, 0] : Fin 2 → Nat) a + S8x128.size a ≤ S13312x128.size a
  inb_S13312x128_S8x128_8696_0 : ∀ a, (![8696, 0] : Fin 2 → Nat) a + S8x128.size a ≤ S13312x128.size a
  inb_S13312x128_S8x128_8904_0 : ∀ a, (![8904, 0] : Fin 2 → Nat) a + S8x128.size a ≤ S13312x128.size a
  inb_S13312x128_S8x128_9112_0 : ∀ a, (![9112, 0] : Fin 2 → Nat) a + S8x128.size a ≤ S13312x128.size a
  inb_S13312x128_S8x128_9320_0 : ∀ a, (![9320, 0] : Fin 2 → Nat) a + S8x128.size a ≤ S13312x128.size a
  inb_S13312x128_S8x128_9528_0 : ∀ a, (![9528, 0] : Fin 2 → Nat) a + S8x128.size a ≤ S13312x128.size a
  inb_S13312x128_S8x128_9736_0 : ∀ a, (![9736, 0] : Fin 2 → Nat) a + S8x128.size a ≤ S13312x128.size a
  inb_S13312x128_S8x128_9944_0 : ∀ a, (![9944, 0] : Fin 2 → Nat) a + S8x128.size a ≤ S13312x128.size a
  inb_S13312x128_S8x128_10152_0 : ∀ a, (![10152, 0] : Fin 2 → Nat) a + S8x128.size a ≤ S13312x128.size a
  inb_S13312x128_S8x128_10360_0 : ∀ a, (![10360, 0] : Fin 2 → Nat) a + S8x128.size a ≤ S13312x128.size a
  inb_S13312x128_S8x128_10568_0 : ∀ a, (![10568, 0] : Fin 2 → Nat) a + S8x128.size a ≤ S13312x128.size a
  inb_S13312x128_S8x128_10776_0 : ∀ a, (![10776, 0] : Fin 2 → Nat) a + S8x128.size a ≤ S13312x128.size a
  inb_S13312x128_S8x128_10984_0 : ∀ a, (![10984, 0] : Fin 2 → Nat) a + S8x128.size a ≤ S13312x128.size a
  inb_S13312x128_S8x128_11192_0 : ∀ a, (![11192, 0] : Fin 2 → Nat) a + S8x128.size a ≤ S13312x128.size a
  inb_S13312x128_S8x128_11400_0 : ∀ a, (![11400, 0] : Fin 2 → Nat) a + S8x128.size a ≤ S13312x128.size a
  inb_S13312x128_S8x128_11608_0 : ∀ a, (![11608, 0] : Fin 2 → Nat) a + S8x128.size a ≤ S13312x128.size a
  inb_S13312x128_S8x128_11816_0 : ∀ a, (![11816, 0] : Fin 2 → Nat) a + S8x128.size a ≤ S13312x128.size a
  inb_S13312x128_S8x128_12024_0 : ∀ a, (![12024, 0] : Fin 2 → Nat) a + S8x128.size a ≤ S13312x128.size a
  inb_S13312x128_S8x128_12232_0 : ∀ a, (![12232, 0] : Fin 2 → Nat) a + S8x128.size a ≤ S13312x128.size a
  inb_S13312x128_S8x128_12440_0 : ∀ a, (![12440, 0] : Fin 2 → Nat) a + S8x128.size a ≤ S13312x128.size a
  inb_S13312x128_S8x128_12648_0 : ∀ a, (![12648, 0] : Fin 2 → Nat) a + S8x128.size a ≤ S13312x128.size a
  inb_S13312x128_S8x128_12856_0 : ∀ a, (![12856, 0] : Fin 2 → Nat) a + S8x128.size a ≤ S13312x128.size a
  inb_S13312x128_S8x128_13064_0 : ∀ a, (![13064, 0] : Fin 2 → Nat) a + S8x128.size a ≤ S13312x128.size a
  inb_S13312x128_S8x128_13272_0 : ∀ a, (![13272, 0] : Fin 2 → Nat) a + S8x128.size a ≤ S13312x128.size a
  inb_S3341x512_S128x512_2688_0 : ∀ a, (![2688, 0] : Fin 2 → Nat) a + S128x512.size a ≤ S3341x512.size a
  inb_S13312x128_S8x128_176_0 : ∀ a, (![176, 0] : Fin 2 → Nat) a + S8x128.size a ≤ S13312x128.size a
  inb_S13312x128_S8x128_384_0 : ∀ a, (![384, 0] : Fin 2 → Nat) a + S8x128.size a ≤ S13312x128.size a
  inb_S13312x128_S8x128_592_0 : ∀ a, (![592, 0] : Fin 2 → Nat) a + S8x128.size a ≤ S13312x128.size a
  inb_S13312x128_S8x128_800_0 : ∀ a, (![800, 0] : Fin 2 → Nat) a + S8x128.size a ≤ S13312x128.size a
  inb_S13312x128_S8x128_1008_0 : ∀ a, (![1008, 0] : Fin 2 → Nat) a + S8x128.size a ≤ S13312x128.size a
  inb_S13312x128_S8x128_1216_0 : ∀ a, (![1216, 0] : Fin 2 → Nat) a + S8x128.size a ≤ S13312x128.size a
  inb_S13312x128_S8x128_1424_0 : ∀ a, (![1424, 0] : Fin 2 → Nat) a + S8x128.size a ≤ S13312x128.size a
  inb_S13312x128_S8x128_1632_0 : ∀ a, (![1632, 0] : Fin 2 → Nat) a + S8x128.size a ≤ S13312x128.size a
  inb_S13312x128_S8x128_1840_0 : ∀ a, (![1840, 0] : Fin 2 → Nat) a + S8x128.size a ≤ S13312x128.size a
  inb_S13312x128_S8x128_2048_0 : ∀ a, (![2048, 0] : Fin 2 → Nat) a + S8x128.size a ≤ S13312x128.size a
  inb_S13312x128_S8x128_2256_0 : ∀ a, (![2256, 0] : Fin 2 → Nat) a + S8x128.size a ≤ S13312x128.size a
  inb_S13312x128_S8x128_2464_0 : ∀ a, (![2464, 0] : Fin 2 → Nat) a + S8x128.size a ≤ S13312x128.size a
  inb_S13312x128_S8x128_2672_0 : ∀ a, (![2672, 0] : Fin 2 → Nat) a + S8x128.size a ≤ S13312x128.size a
  inb_S13312x128_S8x128_2880_0 : ∀ a, (![2880, 0] : Fin 2 → Nat) a + S8x128.size a ≤ S13312x128.size a
  inb_S13312x128_S8x128_3088_0 : ∀ a, (![3088, 0] : Fin 2 → Nat) a + S8x128.size a ≤ S13312x128.size a
  inb_S13312x128_S8x128_3296_0 : ∀ a, (![3296, 0] : Fin 2 → Nat) a + S8x128.size a ≤ S13312x128.size a
  inb_S13312x128_S8x128_3504_0 : ∀ a, (![3504, 0] : Fin 2 → Nat) a + S8x128.size a ≤ S13312x128.size a
  inb_S13312x128_S8x128_3712_0 : ∀ a, (![3712, 0] : Fin 2 → Nat) a + S8x128.size a ≤ S13312x128.size a
  inb_S13312x128_S8x128_3920_0 : ∀ a, (![3920, 0] : Fin 2 → Nat) a + S8x128.size a ≤ S13312x128.size a
  inb_S13312x128_S8x128_4128_0 : ∀ a, (![4128, 0] : Fin 2 → Nat) a + S8x128.size a ≤ S13312x128.size a
  inb_S13312x128_S8x128_4336_0 : ∀ a, (![4336, 0] : Fin 2 → Nat) a + S8x128.size a ≤ S13312x128.size a
  inb_S13312x128_S8x128_4544_0 : ∀ a, (![4544, 0] : Fin 2 → Nat) a + S8x128.size a ≤ S13312x128.size a
  inb_S13312x128_S8x128_4752_0 : ∀ a, (![4752, 0] : Fin 2 → Nat) a + S8x128.size a ≤ S13312x128.size a
  inb_S13312x128_S8x128_4960_0 : ∀ a, (![4960, 0] : Fin 2 → Nat) a + S8x128.size a ≤ S13312x128.size a
  inb_S13312x128_S8x128_5168_0 : ∀ a, (![5168, 0] : Fin 2 → Nat) a + S8x128.size a ≤ S13312x128.size a
  inb_S13312x128_S8x128_5376_0 : ∀ a, (![5376, 0] : Fin 2 → Nat) a + S8x128.size a ≤ S13312x128.size a
  inb_S13312x128_S8x128_5584_0 : ∀ a, (![5584, 0] : Fin 2 → Nat) a + S8x128.size a ≤ S13312x128.size a
  inb_S13312x128_S8x128_5792_0 : ∀ a, (![5792, 0] : Fin 2 → Nat) a + S8x128.size a ≤ S13312x128.size a
  inb_S13312x128_S8x128_6000_0 : ∀ a, (![6000, 0] : Fin 2 → Nat) a + S8x128.size a ≤ S13312x128.size a
  inb_S13312x128_S8x128_6208_0 : ∀ a, (![6208, 0] : Fin 2 → Nat) a + S8x128.size a ≤ S13312x128.size a
  inb_S13312x128_S8x128_6416_0 : ∀ a, (![6416, 0] : Fin 2 → Nat) a + S8x128.size a ≤ S13312x128.size a
  inb_S13312x128_S8x128_6624_0 : ∀ a, (![6624, 0] : Fin 2 → Nat) a + S8x128.size a ≤ S13312x128.size a
  inb_S13312x128_S8x128_6832_0 : ∀ a, (![6832, 0] : Fin 2 → Nat) a + S8x128.size a ≤ S13312x128.size a
  inb_S13312x128_S8x128_7040_0 : ∀ a, (![7040, 0] : Fin 2 → Nat) a + S8x128.size a ≤ S13312x128.size a
  inb_S13312x128_S8x128_7248_0 : ∀ a, (![7248, 0] : Fin 2 → Nat) a + S8x128.size a ≤ S13312x128.size a
  inb_S13312x128_S8x128_7456_0 : ∀ a, (![7456, 0] : Fin 2 → Nat) a + S8x128.size a ≤ S13312x128.size a
  inb_S13312x128_S8x128_7664_0 : ∀ a, (![7664, 0] : Fin 2 → Nat) a + S8x128.size a ≤ S13312x128.size a
  inb_S13312x128_S8x128_7872_0 : ∀ a, (![7872, 0] : Fin 2 → Nat) a + S8x128.size a ≤ S13312x128.size a
  inb_S13312x128_S8x128_8080_0 : ∀ a, (![8080, 0] : Fin 2 → Nat) a + S8x128.size a ≤ S13312x128.size a
  inb_S13312x128_S8x128_8288_0 : ∀ a, (![8288, 0] : Fin 2 → Nat) a + S8x128.size a ≤ S13312x128.size a
  inb_S13312x128_S8x128_8496_0 : ∀ a, (![8496, 0] : Fin 2 → Nat) a + S8x128.size a ≤ S13312x128.size a
  inb_S13312x128_S8x128_8704_0 : ∀ a, (![8704, 0] : Fin 2 → Nat) a + S8x128.size a ≤ S13312x128.size a
  inb_S13312x128_S8x128_8912_0 : ∀ a, (![8912, 0] : Fin 2 → Nat) a + S8x128.size a ≤ S13312x128.size a
  inb_S13312x128_S8x128_9120_0 : ∀ a, (![9120, 0] : Fin 2 → Nat) a + S8x128.size a ≤ S13312x128.size a
  inb_S13312x128_S8x128_9328_0 : ∀ a, (![9328, 0] : Fin 2 → Nat) a + S8x128.size a ≤ S13312x128.size a
  inb_S13312x128_S8x128_9536_0 : ∀ a, (![9536, 0] : Fin 2 → Nat) a + S8x128.size a ≤ S13312x128.size a
  inb_S13312x128_S8x128_9744_0 : ∀ a, (![9744, 0] : Fin 2 → Nat) a + S8x128.size a ≤ S13312x128.size a
  inb_S13312x128_S8x128_9952_0 : ∀ a, (![9952, 0] : Fin 2 → Nat) a + S8x128.size a ≤ S13312x128.size a
  inb_S13312x128_S8x128_10160_0 : ∀ a, (![10160, 0] : Fin 2 → Nat) a + S8x128.size a ≤ S13312x128.size a
  inb_S13312x128_S8x128_10368_0 : ∀ a, (![10368, 0] : Fin 2 → Nat) a + S8x128.size a ≤ S13312x128.size a
  inb_S13312x128_S8x128_10576_0 : ∀ a, (![10576, 0] : Fin 2 → Nat) a + S8x128.size a ≤ S13312x128.size a
  inb_S13312x128_S8x128_10784_0 : ∀ a, (![10784, 0] : Fin 2 → Nat) a + S8x128.size a ≤ S13312x128.size a
  inb_S13312x128_S8x128_10992_0 : ∀ a, (![10992, 0] : Fin 2 → Nat) a + S8x128.size a ≤ S13312x128.size a
  inb_S13312x128_S8x128_11200_0 : ∀ a, (![11200, 0] : Fin 2 → Nat) a + S8x128.size a ≤ S13312x128.size a
  inb_S13312x128_S8x128_11408_0 : ∀ a, (![11408, 0] : Fin 2 → Nat) a + S8x128.size a ≤ S13312x128.size a
  inb_S13312x128_S8x128_11616_0 : ∀ a, (![11616, 0] : Fin 2 → Nat) a + S8x128.size a ≤ S13312x128.size a
  inb_S13312x128_S8x128_11824_0 : ∀ a, (![11824, 0] : Fin 2 → Nat) a + S8x128.size a ≤ S13312x128.size a
  inb_S13312x128_S8x128_12032_0 : ∀ a, (![12032, 0] : Fin 2 → Nat) a + S8x128.size a ≤ S13312x128.size a
  inb_S13312x128_S8x128_12240_0 : ∀ a, (![12240, 0] : Fin 2 → Nat) a + S8x128.size a ≤ S13312x128.size a
  inb_S13312x128_S8x128_12448_0 : ∀ a, (![12448, 0] : Fin 2 → Nat) a + S8x128.size a ≤ S13312x128.size a
  inb_S13312x128_S8x128_12656_0 : ∀ a, (![12656, 0] : Fin 2 → Nat) a + S8x128.size a ≤ S13312x128.size a
  inb_S13312x128_S8x128_12864_0 : ∀ a, (![12864, 0] : Fin 2 → Nat) a + S8x128.size a ≤ S13312x128.size a
  inb_S13312x128_S8x128_13072_0 : ∀ a, (![13072, 0] : Fin 2 → Nat) a + S8x128.size a ≤ S13312x128.size a
  inb_S13312x128_S8x128_13280_0 : ∀ a, (![13280, 0] : Fin 2 → Nat) a + S8x128.size a ≤ S13312x128.size a
  inb_S3341x512_S128x512_2816_0 : ∀ a, (![2816, 0] : Fin 2 → Nat) a + S128x512.size a ≤ S3341x512.size a
  inb_S13312x128_S8x128_184_0 : ∀ a, (![184, 0] : Fin 2 → Nat) a + S8x128.size a ≤ S13312x128.size a
  inb_S13312x128_S8x128_392_0 : ∀ a, (![392, 0] : Fin 2 → Nat) a + S8x128.size a ≤ S13312x128.size a
  inb_S13312x128_S8x128_600_0 : ∀ a, (![600, 0] : Fin 2 → Nat) a + S8x128.size a ≤ S13312x128.size a
  inb_S13312x128_S8x128_808_0 : ∀ a, (![808, 0] : Fin 2 → Nat) a + S8x128.size a ≤ S13312x128.size a
  inb_S13312x128_S8x128_1016_0 : ∀ a, (![1016, 0] : Fin 2 → Nat) a + S8x128.size a ≤ S13312x128.size a
  inb_S13312x128_S8x128_1224_0 : ∀ a, (![1224, 0] : Fin 2 → Nat) a + S8x128.size a ≤ S13312x128.size a
  inb_S13312x128_S8x128_1432_0 : ∀ a, (![1432, 0] : Fin 2 → Nat) a + S8x128.size a ≤ S13312x128.size a
  inb_S13312x128_S8x128_1640_0 : ∀ a, (![1640, 0] : Fin 2 → Nat) a + S8x128.size a ≤ S13312x128.size a
  inb_S13312x128_S8x128_1848_0 : ∀ a, (![1848, 0] : Fin 2 → Nat) a + S8x128.size a ≤ S13312x128.size a
  inb_S13312x128_S8x128_2056_0 : ∀ a, (![2056, 0] : Fin 2 → Nat) a + S8x128.size a ≤ S13312x128.size a
  inb_S13312x128_S8x128_2264_0 : ∀ a, (![2264, 0] : Fin 2 → Nat) a + S8x128.size a ≤ S13312x128.size a
  inb_S13312x128_S8x128_2472_0 : ∀ a, (![2472, 0] : Fin 2 → Nat) a + S8x128.size a ≤ S13312x128.size a
  inb_S13312x128_S8x128_2680_0 : ∀ a, (![2680, 0] : Fin 2 → Nat) a + S8x128.size a ≤ S13312x128.size a
  inb_S13312x128_S8x128_2888_0 : ∀ a, (![2888, 0] : Fin 2 → Nat) a + S8x128.size a ≤ S13312x128.size a
  inb_S13312x128_S8x128_3096_0 : ∀ a, (![3096, 0] : Fin 2 → Nat) a + S8x128.size a ≤ S13312x128.size a
  inb_S13312x128_S8x128_3304_0 : ∀ a, (![3304, 0] : Fin 2 → Nat) a + S8x128.size a ≤ S13312x128.size a
  inb_S13312x128_S8x128_3512_0 : ∀ a, (![3512, 0] : Fin 2 → Nat) a + S8x128.size a ≤ S13312x128.size a
  inb_S13312x128_S8x128_3720_0 : ∀ a, (![3720, 0] : Fin 2 → Nat) a + S8x128.size a ≤ S13312x128.size a
  inb_S13312x128_S8x128_3928_0 : ∀ a, (![3928, 0] : Fin 2 → Nat) a + S8x128.size a ≤ S13312x128.size a
  inb_S13312x128_S8x128_4136_0 : ∀ a, (![4136, 0] : Fin 2 → Nat) a + S8x128.size a ≤ S13312x128.size a
  inb_S13312x128_S8x128_4344_0 : ∀ a, (![4344, 0] : Fin 2 → Nat) a + S8x128.size a ≤ S13312x128.size a
  inb_S13312x128_S8x128_4552_0 : ∀ a, (![4552, 0] : Fin 2 → Nat) a + S8x128.size a ≤ S13312x128.size a
  inb_S13312x128_S8x128_4760_0 : ∀ a, (![4760, 0] : Fin 2 → Nat) a + S8x128.size a ≤ S13312x128.size a
  inb_S13312x128_S8x128_4968_0 : ∀ a, (![4968, 0] : Fin 2 → Nat) a + S8x128.size a ≤ S13312x128.size a
  inb_S13312x128_S8x128_5176_0 : ∀ a, (![5176, 0] : Fin 2 → Nat) a + S8x128.size a ≤ S13312x128.size a
  inb_S13312x128_S8x128_5384_0 : ∀ a, (![5384, 0] : Fin 2 → Nat) a + S8x128.size a ≤ S13312x128.size a
  inb_S13312x128_S8x128_5592_0 : ∀ a, (![5592, 0] : Fin 2 → Nat) a + S8x128.size a ≤ S13312x128.size a
  inb_S13312x128_S8x128_5800_0 : ∀ a, (![5800, 0] : Fin 2 → Nat) a + S8x128.size a ≤ S13312x128.size a
  inb_S13312x128_S8x128_6008_0 : ∀ a, (![6008, 0] : Fin 2 → Nat) a + S8x128.size a ≤ S13312x128.size a
  inb_S13312x128_S8x128_6216_0 : ∀ a, (![6216, 0] : Fin 2 → Nat) a + S8x128.size a ≤ S13312x128.size a
  inb_S13312x128_S8x128_6424_0 : ∀ a, (![6424, 0] : Fin 2 → Nat) a + S8x128.size a ≤ S13312x128.size a
  inb_S13312x128_S8x128_6632_0 : ∀ a, (![6632, 0] : Fin 2 → Nat) a + S8x128.size a ≤ S13312x128.size a
  inb_S13312x128_S8x128_6840_0 : ∀ a, (![6840, 0] : Fin 2 → Nat) a + S8x128.size a ≤ S13312x128.size a
  inb_S13312x128_S8x128_7048_0 : ∀ a, (![7048, 0] : Fin 2 → Nat) a + S8x128.size a ≤ S13312x128.size a
  inb_S13312x128_S8x128_7256_0 : ∀ a, (![7256, 0] : Fin 2 → Nat) a + S8x128.size a ≤ S13312x128.size a
  inb_S13312x128_S8x128_7464_0 : ∀ a, (![7464, 0] : Fin 2 → Nat) a + S8x128.size a ≤ S13312x128.size a
  inb_S13312x128_S8x128_7672_0 : ∀ a, (![7672, 0] : Fin 2 → Nat) a + S8x128.size a ≤ S13312x128.size a
  inb_S13312x128_S8x128_7880_0 : ∀ a, (![7880, 0] : Fin 2 → Nat) a + S8x128.size a ≤ S13312x128.size a
  inb_S13312x128_S8x128_8088_0 : ∀ a, (![8088, 0] : Fin 2 → Nat) a + S8x128.size a ≤ S13312x128.size a
  inb_S13312x128_S8x128_8296_0 : ∀ a, (![8296, 0] : Fin 2 → Nat) a + S8x128.size a ≤ S13312x128.size a
  inb_S13312x128_S8x128_8504_0 : ∀ a, (![8504, 0] : Fin 2 → Nat) a + S8x128.size a ≤ S13312x128.size a
  inb_S13312x128_S8x128_8712_0 : ∀ a, (![8712, 0] : Fin 2 → Nat) a + S8x128.size a ≤ S13312x128.size a
  inb_S13312x128_S8x128_8920_0 : ∀ a, (![8920, 0] : Fin 2 → Nat) a + S8x128.size a ≤ S13312x128.size a
  inb_S13312x128_S8x128_9128_0 : ∀ a, (![9128, 0] : Fin 2 → Nat) a + S8x128.size a ≤ S13312x128.size a
  inb_S13312x128_S8x128_9336_0 : ∀ a, (![9336, 0] : Fin 2 → Nat) a + S8x128.size a ≤ S13312x128.size a
  inb_S13312x128_S8x128_9544_0 : ∀ a, (![9544, 0] : Fin 2 → Nat) a + S8x128.size a ≤ S13312x128.size a
  inb_S13312x128_S8x128_9752_0 : ∀ a, (![9752, 0] : Fin 2 → Nat) a + S8x128.size a ≤ S13312x128.size a
  inb_S13312x128_S8x128_9960_0 : ∀ a, (![9960, 0] : Fin 2 → Nat) a + S8x128.size a ≤ S13312x128.size a
  inb_S13312x128_S8x128_10168_0 : ∀ a, (![10168, 0] : Fin 2 → Nat) a + S8x128.size a ≤ S13312x128.size a
  inb_S13312x128_S8x128_10376_0 : ∀ a, (![10376, 0] : Fin 2 → Nat) a + S8x128.size a ≤ S13312x128.size a
  inb_S13312x128_S8x128_10584_0 : ∀ a, (![10584, 0] : Fin 2 → Nat) a + S8x128.size a ≤ S13312x128.size a
  inb_S13312x128_S8x128_10792_0 : ∀ a, (![10792, 0] : Fin 2 → Nat) a + S8x128.size a ≤ S13312x128.size a
  inb_S13312x128_S8x128_11000_0 : ∀ a, (![11000, 0] : Fin 2 → Nat) a + S8x128.size a ≤ S13312x128.size a
  inb_S13312x128_S8x128_11208_0 : ∀ a, (![11208, 0] : Fin 2 → Nat) a + S8x128.size a ≤ S13312x128.size a
  inb_S13312x128_S8x128_11416_0 : ∀ a, (![11416, 0] : Fin 2 → Nat) a + S8x128.size a ≤ S13312x128.size a
  inb_S13312x128_S8x128_11624_0 : ∀ a, (![11624, 0] : Fin 2 → Nat) a + S8x128.size a ≤ S13312x128.size a
  inb_S13312x128_S8x128_11832_0 : ∀ a, (![11832, 0] : Fin 2 → Nat) a + S8x128.size a ≤ S13312x128.size a
  inb_S13312x128_S8x128_12040_0 : ∀ a, (![12040, 0] : Fin 2 → Nat) a + S8x128.size a ≤ S13312x128.size a
  inb_S13312x128_S8x128_12248_0 : ∀ a, (![12248, 0] : Fin 2 → Nat) a + S8x128.size a ≤ S13312x128.size a
  inb_S13312x128_S8x128_12456_0 : ∀ a, (![12456, 0] : Fin 2 → Nat) a + S8x128.size a ≤ S13312x128.size a
  inb_S13312x128_S8x128_12664_0 : ∀ a, (![12664, 0] : Fin 2 → Nat) a + S8x128.size a ≤ S13312x128.size a
  inb_S13312x128_S8x128_12872_0 : ∀ a, (![12872, 0] : Fin 2 → Nat) a + S8x128.size a ≤ S13312x128.size a
  inb_S13312x128_S8x128_13080_0 : ∀ a, (![13080, 0] : Fin 2 → Nat) a + S8x128.size a ≤ S13312x128.size a
  inb_S13312x128_S8x128_13288_0 : ∀ a, (![13288, 0] : Fin 2 → Nat) a + S8x128.size a ≤ S13312x128.size a
  inb_S3341x512_S128x512_2944_0 : ∀ a, (![2944, 0] : Fin 2 → Nat) a + S128x512.size a ≤ S3341x512.size a
  inb_S13312x128_S8x128_192_0 : ∀ a, (![192, 0] : Fin 2 → Nat) a + S8x128.size a ≤ S13312x128.size a
  inb_S13312x128_S8x128_400_0 : ∀ a, (![400, 0] : Fin 2 → Nat) a + S8x128.size a ≤ S13312x128.size a
  inb_S13312x128_S8x128_608_0 : ∀ a, (![608, 0] : Fin 2 → Nat) a + S8x128.size a ≤ S13312x128.size a
  inb_S13312x128_S8x128_816_0 : ∀ a, (![816, 0] : Fin 2 → Nat) a + S8x128.size a ≤ S13312x128.size a
  inb_S13312x128_S8x128_1024_0 : ∀ a, (![1024, 0] : Fin 2 → Nat) a + S8x128.size a ≤ S13312x128.size a
  inb_S13312x128_S8x128_1232_0 : ∀ a, (![1232, 0] : Fin 2 → Nat) a + S8x128.size a ≤ S13312x128.size a
  inb_S13312x128_S8x128_1440_0 : ∀ a, (![1440, 0] : Fin 2 → Nat) a + S8x128.size a ≤ S13312x128.size a
  inb_S13312x128_S8x128_1648_0 : ∀ a, (![1648, 0] : Fin 2 → Nat) a + S8x128.size a ≤ S13312x128.size a
  inb_S13312x128_S8x128_1856_0 : ∀ a, (![1856, 0] : Fin 2 → Nat) a + S8x128.size a ≤ S13312x128.size a
  inb_S13312x128_S8x128_2064_0 : ∀ a, (![2064, 0] : Fin 2 → Nat) a + S8x128.size a ≤ S13312x128.size a
  inb_S13312x128_S8x128_2272_0 : ∀ a, (![2272, 0] : Fin 2 → Nat) a + S8x128.size a ≤ S13312x128.size a
  inb_S13312x128_S8x128_2480_0 : ∀ a, (![2480, 0] : Fin 2 → Nat) a + S8x128.size a ≤ S13312x128.size a
  inb_S13312x128_S8x128_2688_0 : ∀ a, (![2688, 0] : Fin 2 → Nat) a + S8x128.size a ≤ S13312x128.size a
  inb_S13312x128_S8x128_2896_0 : ∀ a, (![2896, 0] : Fin 2 → Nat) a + S8x128.size a ≤ S13312x128.size a
  inb_S13312x128_S8x128_3104_0 : ∀ a, (![3104, 0] : Fin 2 → Nat) a + S8x128.size a ≤ S13312x128.size a
  inb_S13312x128_S8x128_3312_0 : ∀ a, (![3312, 0] : Fin 2 → Nat) a + S8x128.size a ≤ S13312x128.size a
  inb_S13312x128_S8x128_3520_0 : ∀ a, (![3520, 0] : Fin 2 → Nat) a + S8x128.size a ≤ S13312x128.size a
  inb_S13312x128_S8x128_3728_0 : ∀ a, (![3728, 0] : Fin 2 → Nat) a + S8x128.size a ≤ S13312x128.size a
  inb_S13312x128_S8x128_3936_0 : ∀ a, (![3936, 0] : Fin 2 → Nat) a + S8x128.size a ≤ S13312x128.size a
  inb_S13312x128_S8x128_4144_0 : ∀ a, (![4144, 0] : Fin 2 → Nat) a + S8x128.size a ≤ S13312x128.size a
  inb_S13312x128_S8x128_4352_0 : ∀ a, (![4352, 0] : Fin 2 → Nat) a + S8x128.size a ≤ S13312x128.size a
  inb_S13312x128_S8x128_4560_0 : ∀ a, (![4560, 0] : Fin 2 → Nat) a + S8x128.size a ≤ S13312x128.size a
  inb_S13312x128_S8x128_4768_0 : ∀ a, (![4768, 0] : Fin 2 → Nat) a + S8x128.size a ≤ S13312x128.size a
  inb_S13312x128_S8x128_4976_0 : ∀ a, (![4976, 0] : Fin 2 → Nat) a + S8x128.size a ≤ S13312x128.size a
  inb_S13312x128_S8x128_5184_0 : ∀ a, (![5184, 0] : Fin 2 → Nat) a + S8x128.size a ≤ S13312x128.size a
  inb_S13312x128_S8x128_5392_0 : ∀ a, (![5392, 0] : Fin 2 → Nat) a + S8x128.size a ≤ S13312x128.size a
  inb_S13312x128_S8x128_5600_0 : ∀ a, (![5600, 0] : Fin 2 → Nat) a + S8x128.size a ≤ S13312x128.size a
  inb_S13312x128_S8x128_5808_0 : ∀ a, (![5808, 0] : Fin 2 → Nat) a + S8x128.size a ≤ S13312x128.size a
  inb_S13312x128_S8x128_6016_0 : ∀ a, (![6016, 0] : Fin 2 → Nat) a + S8x128.size a ≤ S13312x128.size a
  inb_S13312x128_S8x128_6224_0 : ∀ a, (![6224, 0] : Fin 2 → Nat) a + S8x128.size a ≤ S13312x128.size a
  inb_S13312x128_S8x128_6432_0 : ∀ a, (![6432, 0] : Fin 2 → Nat) a + S8x128.size a ≤ S13312x128.size a
  inb_S13312x128_S8x128_6640_0 : ∀ a, (![6640, 0] : Fin 2 → Nat) a + S8x128.size a ≤ S13312x128.size a
  inb_S13312x128_S8x128_6848_0 : ∀ a, (![6848, 0] : Fin 2 → Nat) a + S8x128.size a ≤ S13312x128.size a
  inb_S13312x128_S8x128_7056_0 : ∀ a, (![7056, 0] : Fin 2 → Nat) a + S8x128.size a ≤ S13312x128.size a
  inb_S13312x128_S8x128_7264_0 : ∀ a, (![7264, 0] : Fin 2 → Nat) a + S8x128.size a ≤ S13312x128.size a
  inb_S13312x128_S8x128_7472_0 : ∀ a, (![7472, 0] : Fin 2 → Nat) a + S8x128.size a ≤ S13312x128.size a
  inb_S13312x128_S8x128_7680_0 : ∀ a, (![7680, 0] : Fin 2 → Nat) a + S8x128.size a ≤ S13312x128.size a
  inb_S13312x128_S8x128_7888_0 : ∀ a, (![7888, 0] : Fin 2 → Nat) a + S8x128.size a ≤ S13312x128.size a
  inb_S13312x128_S8x128_8096_0 : ∀ a, (![8096, 0] : Fin 2 → Nat) a + S8x128.size a ≤ S13312x128.size a
  inb_S13312x128_S8x128_8304_0 : ∀ a, (![8304, 0] : Fin 2 → Nat) a + S8x128.size a ≤ S13312x128.size a
  inb_S13312x128_S8x128_8512_0 : ∀ a, (![8512, 0] : Fin 2 → Nat) a + S8x128.size a ≤ S13312x128.size a
  inb_S13312x128_S8x128_8720_0 : ∀ a, (![8720, 0] : Fin 2 → Nat) a + S8x128.size a ≤ S13312x128.size a
  inb_S13312x128_S8x128_8928_0 : ∀ a, (![8928, 0] : Fin 2 → Nat) a + S8x128.size a ≤ S13312x128.size a
  inb_S13312x128_S8x128_9136_0 : ∀ a, (![9136, 0] : Fin 2 → Nat) a + S8x128.size a ≤ S13312x128.size a
  inb_S13312x128_S8x128_9344_0 : ∀ a, (![9344, 0] : Fin 2 → Nat) a + S8x128.size a ≤ S13312x128.size a
  inb_S13312x128_S8x128_9552_0 : ∀ a, (![9552, 0] : Fin 2 → Nat) a + S8x128.size a ≤ S13312x128.size a
  inb_S13312x128_S8x128_9760_0 : ∀ a, (![9760, 0] : Fin 2 → Nat) a + S8x128.size a ≤ S13312x128.size a
  inb_S13312x128_S8x128_9968_0 : ∀ a, (![9968, 0] : Fin 2 → Nat) a + S8x128.size a ≤ S13312x128.size a
  inb_S13312x128_S8x128_10176_0 : ∀ a, (![10176, 0] : Fin 2 → Nat) a + S8x128.size a ≤ S13312x128.size a
  inb_S13312x128_S8x128_10384_0 : ∀ a, (![10384, 0] : Fin 2 → Nat) a + S8x128.size a ≤ S13312x128.size a
  inb_S13312x128_S8x128_10592_0 : ∀ a, (![10592, 0] : Fin 2 → Nat) a + S8x128.size a ≤ S13312x128.size a
  inb_S13312x128_S8x128_10800_0 : ∀ a, (![10800, 0] : Fin 2 → Nat) a + S8x128.size a ≤ S13312x128.size a
  inb_S13312x128_S8x128_11008_0 : ∀ a, (![11008, 0] : Fin 2 → Nat) a + S8x128.size a ≤ S13312x128.size a
  inb_S13312x128_S8x128_11216_0 : ∀ a, (![11216, 0] : Fin 2 → Nat) a + S8x128.size a ≤ S13312x128.size a
  inb_S13312x128_S8x128_11424_0 : ∀ a, (![11424, 0] : Fin 2 → Nat) a + S8x128.size a ≤ S13312x128.size a
  inb_S13312x128_S8x128_11632_0 : ∀ a, (![11632, 0] : Fin 2 → Nat) a + S8x128.size a ≤ S13312x128.size a
  inb_S13312x128_S8x128_11840_0 : ∀ a, (![11840, 0] : Fin 2 → Nat) a + S8x128.size a ≤ S13312x128.size a
  inb_S13312x128_S8x128_12048_0 : ∀ a, (![12048, 0] : Fin 2 → Nat) a + S8x128.size a ≤ S13312x128.size a
  inb_S13312x128_S8x128_12256_0 : ∀ a, (![12256, 0] : Fin 2 → Nat) a + S8x128.size a ≤ S13312x128.size a
  inb_S13312x128_S8x128_12464_0 : ∀ a, (![12464, 0] : Fin 2 → Nat) a + S8x128.size a ≤ S13312x128.size a
  inb_S13312x128_S8x128_12672_0 : ∀ a, (![12672, 0] : Fin 2 → Nat) a + S8x128.size a ≤ S13312x128.size a
  inb_S13312x128_S8x128_12880_0 : ∀ a, (![12880, 0] : Fin 2 → Nat) a + S8x128.size a ≤ S13312x128.size a
  inb_S13312x128_S8x128_13088_0 : ∀ a, (![13088, 0] : Fin 2 → Nat) a + S8x128.size a ≤ S13312x128.size a
  inb_S13312x128_S8x128_13296_0 : ∀ a, (![13296, 0] : Fin 2 → Nat) a + S8x128.size a ≤ S13312x128.size a
  inb_S3341x512_S128x512_3072_0 : ∀ a, (![3072, 0] : Fin 2 → Nat) a + S128x512.size a ≤ S3341x512.size a
  inb_S13312x128_S8x128_200_0 : ∀ a, (![200, 0] : Fin 2 → Nat) a + S8x128.size a ≤ S13312x128.size a
  inb_S13312x128_S8x128_408_0 : ∀ a, (![408, 0] : Fin 2 → Nat) a + S8x128.size a ≤ S13312x128.size a
  inb_S13312x128_S8x128_616_0 : ∀ a, (![616, 0] : Fin 2 → Nat) a + S8x128.size a ≤ S13312x128.size a
  inb_S13312x128_S8x128_824_0 : ∀ a, (![824, 0] : Fin 2 → Nat) a + S8x128.size a ≤ S13312x128.size a
  inb_S13312x128_S8x128_1032_0 : ∀ a, (![1032, 0] : Fin 2 → Nat) a + S8x128.size a ≤ S13312x128.size a
  inb_S13312x128_S8x128_1240_0 : ∀ a, (![1240, 0] : Fin 2 → Nat) a + S8x128.size a ≤ S13312x128.size a
  inb_S13312x128_S8x128_1448_0 : ∀ a, (![1448, 0] : Fin 2 → Nat) a + S8x128.size a ≤ S13312x128.size a
  inb_S13312x128_S8x128_1656_0 : ∀ a, (![1656, 0] : Fin 2 → Nat) a + S8x128.size a ≤ S13312x128.size a
  inb_S13312x128_S8x128_1864_0 : ∀ a, (![1864, 0] : Fin 2 → Nat) a + S8x128.size a ≤ S13312x128.size a
  inb_S13312x128_S8x128_2072_0 : ∀ a, (![2072, 0] : Fin 2 → Nat) a + S8x128.size a ≤ S13312x128.size a
  inb_S13312x128_S8x128_2280_0 : ∀ a, (![2280, 0] : Fin 2 → Nat) a + S8x128.size a ≤ S13312x128.size a
  inb_S13312x128_S8x128_2488_0 : ∀ a, (![2488, 0] : Fin 2 → Nat) a + S8x128.size a ≤ S13312x128.size a
  inb_S13312x128_S8x128_2696_0 : ∀ a, (![2696, 0] : Fin 2 → Nat) a + S8x128.size a ≤ S13312x128.size a
  inb_S13312x128_S8x128_2904_0 : ∀ a, (![2904, 0] : Fin 2 → Nat) a + S8x128.size a ≤ S13312x128.size a
  inb_S13312x128_S8x128_3112_0 : ∀ a, (![3112, 0] : Fin 2 → Nat) a + S8x128.size a ≤ S13312x128.size a
  inb_S13312x128_S8x128_3320_0 : ∀ a, (![3320, 0] : Fin 2 → Nat) a + S8x128.size a ≤ S13312x128.size a
  inb_S13312x128_S8x128_3528_0 : ∀ a, (![3528, 0] : Fin 2 → Nat) a + S8x128.size a ≤ S13312x128.size a
  inb_S13312x128_S8x128_3736_0 : ∀ a, (![3736, 0] : Fin 2 → Nat) a + S8x128.size a ≤ S13312x128.size a
  inb_S13312x128_S8x128_3944_0 : ∀ a, (![3944, 0] : Fin 2 → Nat) a + S8x128.size a ≤ S13312x128.size a
  inb_S13312x128_S8x128_4152_0 : ∀ a, (![4152, 0] : Fin 2 → Nat) a + S8x128.size a ≤ S13312x128.size a
  inb_S13312x128_S8x128_4360_0 : ∀ a, (![4360, 0] : Fin 2 → Nat) a + S8x128.size a ≤ S13312x128.size a
  inb_S13312x128_S8x128_4568_0 : ∀ a, (![4568, 0] : Fin 2 → Nat) a + S8x128.size a ≤ S13312x128.size a
  inb_S13312x128_S8x128_4776_0 : ∀ a, (![4776, 0] : Fin 2 → Nat) a + S8x128.size a ≤ S13312x128.size a
  inb_S13312x128_S8x128_4984_0 : ∀ a, (![4984, 0] : Fin 2 → Nat) a + S8x128.size a ≤ S13312x128.size a
  inb_S13312x128_S8x128_5192_0 : ∀ a, (![5192, 0] : Fin 2 → Nat) a + S8x128.size a ≤ S13312x128.size a
  inb_S13312x128_S8x128_5400_0 : ∀ a, (![5400, 0] : Fin 2 → Nat) a + S8x128.size a ≤ S13312x128.size a
  inb_S13312x128_S8x128_5608_0 : ∀ a, (![5608, 0] : Fin 2 → Nat) a + S8x128.size a ≤ S13312x128.size a
  inb_S13312x128_S8x128_5816_0 : ∀ a, (![5816, 0] : Fin 2 → Nat) a + S8x128.size a ≤ S13312x128.size a
  inb_S13312x128_S8x128_6024_0 : ∀ a, (![6024, 0] : Fin 2 → Nat) a + S8x128.size a ≤ S13312x128.size a
  inb_S13312x128_S8x128_6232_0 : ∀ a, (![6232, 0] : Fin 2 → Nat) a + S8x128.size a ≤ S13312x128.size a
  inb_S13312x128_S8x128_6440_0 : ∀ a, (![6440, 0] : Fin 2 → Nat) a + S8x128.size a ≤ S13312x128.size a
  inb_S13312x128_S8x128_6648_0 : ∀ a, (![6648, 0] : Fin 2 → Nat) a + S8x128.size a ≤ S13312x128.size a
  inb_S13312x128_S8x128_6856_0 : ∀ a, (![6856, 0] : Fin 2 → Nat) a + S8x128.size a ≤ S13312x128.size a
  inb_S13312x128_S8x128_7064_0 : ∀ a, (![7064, 0] : Fin 2 → Nat) a + S8x128.size a ≤ S13312x128.size a
  inb_S13312x128_S8x128_7272_0 : ∀ a, (![7272, 0] : Fin 2 → Nat) a + S8x128.size a ≤ S13312x128.size a
  inb_S13312x128_S8x128_7480_0 : ∀ a, (![7480, 0] : Fin 2 → Nat) a + S8x128.size a ≤ S13312x128.size a
  inb_S13312x128_S8x128_7688_0 : ∀ a, (![7688, 0] : Fin 2 → Nat) a + S8x128.size a ≤ S13312x128.size a
  inb_S13312x128_S8x128_7896_0 : ∀ a, (![7896, 0] : Fin 2 → Nat) a + S8x128.size a ≤ S13312x128.size a
  inb_S13312x128_S8x128_8104_0 : ∀ a, (![8104, 0] : Fin 2 → Nat) a + S8x128.size a ≤ S13312x128.size a
  inb_S13312x128_S8x128_8312_0 : ∀ a, (![8312, 0] : Fin 2 → Nat) a + S8x128.size a ≤ S13312x128.size a
  inb_S13312x128_S8x128_8520_0 : ∀ a, (![8520, 0] : Fin 2 → Nat) a + S8x128.size a ≤ S13312x128.size a
  inb_S13312x128_S8x128_8728_0 : ∀ a, (![8728, 0] : Fin 2 → Nat) a + S8x128.size a ≤ S13312x128.size a
  inb_S13312x128_S8x128_8936_0 : ∀ a, (![8936, 0] : Fin 2 → Nat) a + S8x128.size a ≤ S13312x128.size a
  inb_S13312x128_S8x128_9144_0 : ∀ a, (![9144, 0] : Fin 2 → Nat) a + S8x128.size a ≤ S13312x128.size a
  inb_S13312x128_S8x128_9352_0 : ∀ a, (![9352, 0] : Fin 2 → Nat) a + S8x128.size a ≤ S13312x128.size a
  inb_S13312x128_S8x128_9560_0 : ∀ a, (![9560, 0] : Fin 2 → Nat) a + S8x128.size a ≤ S13312x128.size a
  inb_S13312x128_S8x128_9768_0 : ∀ a, (![9768, 0] : Fin 2 → Nat) a + S8x128.size a ≤ S13312x128.size a
  inb_S13312x128_S8x128_9976_0 : ∀ a, (![9976, 0] : Fin 2 → Nat) a + S8x128.size a ≤ S13312x128.size a
  inb_S13312x128_S8x128_10184_0 : ∀ a, (![10184, 0] : Fin 2 → Nat) a + S8x128.size a ≤ S13312x128.size a
  inb_S13312x128_S8x128_10392_0 : ∀ a, (![10392, 0] : Fin 2 → Nat) a + S8x128.size a ≤ S13312x128.size a
  inb_S13312x128_S8x128_10600_0 : ∀ a, (![10600, 0] : Fin 2 → Nat) a + S8x128.size a ≤ S13312x128.size a
  inb_S13312x128_S8x128_10808_0 : ∀ a, (![10808, 0] : Fin 2 → Nat) a + S8x128.size a ≤ S13312x128.size a
  inb_S13312x128_S8x128_11016_0 : ∀ a, (![11016, 0] : Fin 2 → Nat) a + S8x128.size a ≤ S13312x128.size a
  inb_S13312x128_S8x128_11224_0 : ∀ a, (![11224, 0] : Fin 2 → Nat) a + S8x128.size a ≤ S13312x128.size a
  inb_S13312x128_S8x128_11432_0 : ∀ a, (![11432, 0] : Fin 2 → Nat) a + S8x128.size a ≤ S13312x128.size a
  inb_S13312x128_S8x128_11640_0 : ∀ a, (![11640, 0] : Fin 2 → Nat) a + S8x128.size a ≤ S13312x128.size a
  inb_S13312x128_S8x128_11848_0 : ∀ a, (![11848, 0] : Fin 2 → Nat) a + S8x128.size a ≤ S13312x128.size a
  inb_S13312x128_S8x128_12056_0 : ∀ a, (![12056, 0] : Fin 2 → Nat) a + S8x128.size a ≤ S13312x128.size a
  inb_S13312x128_S8x128_12264_0 : ∀ a, (![12264, 0] : Fin 2 → Nat) a + S8x128.size a ≤ S13312x128.size a
  inb_S13312x128_S8x128_12472_0 : ∀ a, (![12472, 0] : Fin 2 → Nat) a + S8x128.size a ≤ S13312x128.size a
  inb_S13312x128_S8x128_12680_0 : ∀ a, (![12680, 0] : Fin 2 → Nat) a + S8x128.size a ≤ S13312x128.size a
  inb_S13312x128_S8x128_12888_0 : ∀ a, (![12888, 0] : Fin 2 → Nat) a + S8x128.size a ≤ S13312x128.size a
  inb_S13312x128_S8x128_13096_0 : ∀ a, (![13096, 0] : Fin 2 → Nat) a + S8x128.size a ≤ S13312x128.size a
  inb_S13312x128_S8x128_13304_0 : ∀ a, (![13304, 0] : Fin 2 → Nat) a + S8x128.size a ≤ S13312x128.size a
  inb_S3341x512_S128x512_3200_0 : ∀ a, (![3200, 0] : Fin 2 → Nat) a + S128x512.size a ≤ S3341x512.size a
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S13x512_S13x512_0_0 : ∀ a, (![0, 0] : Fin 2 → Nat) a + S13x512.size a ≤ S13x512.size a
  h_S13x512 : 0 < S13x512.numel
  shapeCasts_S13x512_S13x512 : S13x512.ShapeCasts S13x512
  broadcasts_S13x1_S13x512 : S13x1.Broadcasts S13x512
  inb_S3341x512_S13x512_3328_0 : ∀ a, (![3328, 0] : Fin 2 → Nat) a + S13x512.size a ≤ S3341x512.size a
  slices_S13x16384_S13x8192_0_8192 : S13x16384.Slices ![0, 8192] S13x8192
  transposes_S3341x16384_S16384x3341_1_0 : S3341x16384.Transposes [1, 0] S16384x3341
  hcc0_scratch6 : 0 + S_.numel ≤ 34
  hcc0_scratch7 : 1 + S_.numel ≤ 34
  hcc0_scratch8 : 2 + S_.numel ≤ 34
  hcc0_scratch9 : 3 + S_.numel ≤ 34
  hcc0_scratch10 : 4 + S_.numel ≤ 34
  hcc0_scratch11 : 5 + S_.numel ≤ 34
  hcc0_scratch12 : 6 + S_.numel ≤ 34
  hcc0_scratch13 : 7 + S_.numel ≤ 34
  hcc0_scoped0 : 8 + S_.numel ≤ 34
  hcc1_scratch6 : 9 + S_.numel ≤ 34
  hcc1_scratch7 : 10 + S_.numel ≤ 34
  hcc1_scratch8 : 11 + S_.numel ≤ 34
  hcc1_scratch9 : 12 + S_.numel ≤ 34
  hcc1_scratch10 : 13 + S_.numel ≤ 34
  hcc1_scratch11 : 14 + S_.numel ≤ 34
  hcc1_scratch12 : 15 + S_.numel ≤ 34
  hcc1_scratch13 : 16 + S_.numel ≤ 34
  hcc1_scoped0 : 17 + S_.numel ≤ 34
  hscKind : ∀ q, scKind q ≠ .tc
  hscCore : ∀ q, scNCore q ≤ τ.nSC
  hscSub : ∀ q, scNSub q ≤ τ.nSub

class Facts₀ : Prop where
  k0 : K0.Facts₀
  k1 : K1.Facts₀
  k2 : K2.Facts₀
  k3 : K3.Facts₀
  shapes1 : Shapes1.Facts₀
  shapes2 : Shapes2.Facts₀
attribute [instance] Facts₀.k0 Facts₀.k1 Facts₀.k2 Facts₀.k3 Facts₀.shapes1 Facts₀.shapes2

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scoped0 : DmaSems sig S_ := SemArray.consecutive 8 S_ hcc0_scoped0
abbrev cc1_scratch6 : DmaSems sig S_ := SemArray.consecutive 9 S_ hcc1_scratch6
abbrev cc1_scratch7 : DmaSems sig S_ := SemArray.consecutive 10 S_ hcc1_scratch7
abbrev cc1_scratch8 : DmaSems sig S_ := SemArray.consecutive 11 S_ hcc1_scratch8
abbrev cc1_scratch9 : DmaSems sig S_ := SemArray.consecutive 12 S_ hcc1_scratch9
abbrev cc1_scratch10 : DmaSems sig S_ := SemArray.consecutive 13 S_ hcc1_scratch10
abbrev cc1_scratch11 : DmaSems sig S_ := SemArray.consecutive 14 S_ hcc1_scratch11
abbrev cc1_scratch12 : DmaSems sig S_ := SemArray.consecutive 15 S_ hcc1_scratch12
abbrev cc1_scratch13 : DmaSems sig S_ := SemArray.consecutive 16 S_ hcc1_scratch13
abbrev cc1_scoped0 : DmaSems sig S_ := SemArray.consecutive 17 S_ hcc1_scoped0

abbrev win2_0 : Pipeline.Window sig grid2 :=
  Pipeline.Window.ofSpec (Memref.whole main_v6) S13312x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S13x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S13x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S13x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S3341x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S13312x128.size cc3_transform_1 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S13x512.size cc3_transform_2 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S13x1.size cc3_transform_3 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S13x1.size cc3_transform_4 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S3341x512.size cc3_transform_5 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x1000x128 : Shape := ⟨3, ![26, 1000, 128]⟩
abbrev S13 : Shape := ⟨1, ![13]⟩
abbrev S26000x128 : Shape := ⟨2, ![26000, 128]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1 : Shape := ⟨1, ![1]⟩
abbrev S1x1x1 : Shape := ⟨3, ![1, 1, 1]⟩
abbrev S16384x26x128 : Shape := ⟨3, ![16384, 26, 128]⟩
abbrev S16384x3328 : Shape := ⟨2, ![16384, 3328]⟩
abbrev S1x13 : Shape := ⟨2, ![1, 13]⟩
abbrev S16384x3341 : Shape := ⟨2, ![16384, 3341]⟩

abbrev nBuf : Space → Nat
  | .hbm => 46
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x1000x128, .f32⟩
  | .hbm, ⟨3, _⟩ => ⟨S13, .f32⟩
  | .hbm, ⟨4, _⟩ => ⟨S13, .f32⟩
  | .hbm, ⟨5, _⟩ => ⟨S26000x128, .f32⟩
  | .hbm, ⟨6, _⟩ => ⟨S26, .i32⟩
  | .hbm, ⟨7, _⟩ => ⟨S_, .i32⟩
  | .hbm, ⟨8, _⟩ => ⟨S26, .i32⟩
  | .hbm, ⟨9, _⟩ => ⟨S26, .i32⟩
  | .hbm, ⟨10, _⟩ => ⟨S1x26, .i32⟩
  | .hbm, ⟨11, _⟩ => ⟨S16384x26, .i32⟩
  | .hbm, ⟨12, _⟩ => ⟨S16384x26, .i32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S16384x26x1, .i32⟩
  | .hbm, ⟨21, _⟩ => ⟨S1, .i32⟩
  | .hbm, ⟨22, _⟩ => ⟨S_, .i32⟩
  | .hbm, ⟨23, _⟩ => ⟨S16384x26x1, .i32⟩
  | .hbm, ⟨24, _⟩ => ⟨S16384x26x1, .i1⟩
  | .hbm, ⟨25, _⟩ => ⟨S1x1x1, .i32⟩
  | .hbm, ⟨26, _⟩ => ⟨S16384x26x1, .i32⟩
  | .hbm, ⟨27, _⟩ => ⟨S16384x26x1, .i1⟩
  | .hbm, ⟨28, _⟩ => ⟨S16384x26x1, .i1⟩
  | .hbm, ⟨29, _⟩ => ⟨S_, .i1⟩
  | .hbm, ⟨30, _⟩ => ⟨S16384x26, .i1⟩
  | .hbm, ⟨31, _⟩ => ⟨S16384x26x128, .f32⟩
  | .hbm, ⟨32, _⟩ => ⟨S16384x26x128, .i1⟩
  | .hbm, ⟨33, _⟩ => ⟨S_, .f32⟩
  | .hbm, ⟨34, _⟩ => ⟨S16384x26x128, .f32⟩
  | .hbm, ⟨35, _⟩ => ⟨S16384x26x128, .f32⟩
  | .hbm, ⟨36, _⟩ => ⟨S16384x3328, .f32⟩
  | .hbm, ⟨37, _⟩ => ⟨S1x13, .f32⟩
  | .hbm, ⟨38, _⟩ => ⟨S16384x13, .f32⟩
  | .hbm, ⟨39, _⟩ => ⟨S16384x13, .f32⟩
  | .hbm, ⟨40, _⟩ => ⟨S1x13, .f32⟩
  | .hbm, ⟨41, _⟩ => ⟨S1x13, .f32⟩
  | .hbm, ⟨42, _⟩ => ⟨S1x13, .f32⟩
  | .hbm, ⟨43, _⟩ => ⟨S16384x13, .f32⟩
  | .hbm, ⟨44, _⟩ => ⟨S16384x13, .f32⟩
  | .hbm, ⟨45, _⟩ => ⟨S16384x3341, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  shapeCasts_S26x1000x128_S26000x128 : S26x1000x128.ShapeCasts S26000x128
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x128_0_1 : S16384x26.BroadcastsInDim S16384x26x128 (![0, 1] : Fin 2 → Fin S16384x26x128.rank)
  bcast_S_S16384x26x128 : S_.BroadcastsInDim S16384x26x128 (![] : Fin 0 → Fin S16384x26x128.rank)
  shapeCasts_S16384x26x128_S16384x3328 : S16384x26x128.ShapeCasts S16384x3328
  bcast_S13_S1x13_1 : S13.BroadcastsInDim S1x13 (![1] : Fin 1 → Fin S1x13.rank)
  bcast_S1x13_S16384x13_0_1 : S1x13.BroadcastsInDim S16384x13 (![0, 1] : Fin 2 → Fin S16384x13.rank)
  concatenates_S16384x3328_S16384x13_S16384x3341_d1 : Shape.Concatenates [S16384x3328, S16384x13] S16384x3341 1
  gather_S26000x128_S16384x26x1_S16384x26x128_2_0_n_n_0_2_1128_wf : GatherDims.WF S26000x128 S16384x26x1 S16384x26x128 [2] [0] [] [0] [] 2 ![1, 128]

variable [Facts₀]

def gather_S26000x128_S16384x26x1_S16384x26x128_2_0_n_n_0_2_1128 : GatherDims S26000x128 S16384x26x1 S16384x26x128 where
  offsetDims := [2]
  collapsedSliceDims := [0]
  operandBatchingDims := []
  startIndicesBatchingDims := []
  startIndexMap := [0]
  indexVectorDim := 2
  sliceSizes := ![1, 128]
  wf := gather_S26000x128_S16384x26x1_S16384x26x128_2_0_n_n_0_2_1128_wf

class Facts : Prop extends Facts₀ where

variable [Facts]
-- ==== Proof.RefRun.lean ====
/-
  The reference program's run. Its @main is a straight line once its two calls are unfolded: the take of rows of the
  flattened table (a wrap of negative row numbers by the row count, a row gather, and a mask that replaces rows named
  out of range by a not-a-number word) and, inside it, the choice between a row number and its wrapped form. Listed
  here are the forty-one operations in order, the callee's over the buffers of its one call, and the statement that
  every weakly fair execution ends with the result buffer at the operations' composed term of the five argument arrays
  and the argument arrays unchanged.
-/
import proofs.«202673_g7318624272670_cont_9to1c4b_526_24_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The row number in the flattened table: the category plus one thousand times the field, in 32-bit words. -/
def rowIdx (a0 : (⟨S16384x26, .i32⟩ : BufTy).Contents (Elt F)) : (⟨S16384x26, .i32⟩ : BufTy).Contents (Elt F) :=
  addi a0
    (broadcastInDim S16384x26 ![0, 1] bcast_S1x26_S16384x26_0_1
      (broadcastInDim S1x26 ![1] bcast_S26_S1x26_1
        (muli (iotaInDim S26 32 0) (broadcastInDim S26 ![] bcast_S_S26 (constantI S_ 32 1000#32)))))

/-- The row number after the wrap of negative ones, as a column of one-component index vectors. -/
def wrapped (idx : (⟨S16384x26, .i32⟩ : BufTy).Contents (Elt F)) : (⟨S16384x26x1, .i32⟩ : BufTy).Contents (Elt F) :=
  broadcastInDim S16384x26x1 ![0, 1] bcast_S16384x26_S16384x26x1_0_1
    (select (cmpi .slt idx (broadcastInDim S16384x26 ![] bcast_S_S16384x26 (constantI S_ 32 0#32)))
      (addi idx (broadcastInDim S16384x26 ![] bcast_S_S16384x26 (constantI S_ 32 26000#32))) idx)

/-- Where the wrapped row number lies in [0, 25999]: one bit per (sample, field). -/
def inRange (w : (⟨S16384x26x1, .i32⟩ : BufTy).Contents (Elt F)) : (⟨S16384x26, .i1⟩ : BufTy).Contents (Elt F) :=
  Host.reduce IntOp.andi
    (andi (cmpi .sge w (broadcastInDim S16384x26x1 ![] bcast_S_S16384x26x1 (constantI S_ 32 0#32)))
      (cmpi .sle w (broadcastInDim S16384x26x1 ![0, 1, 2] bcast_S1x1x1_S16384x26x1_0_1_2
        (broadcastInDim S1x1x1 ![2] bcast_S1_S1x1x1_2 (constantI S1 32 25999#32)))))
    (constantI S_ 1 1#1) reducesTo_S16384x26x1_S16384x26_d2 h_S_

/-- The take: rows of the flat table at the wrapped row numbers, the not-a-number word where a row number is out of
    range. -/
def takeTerm (flat : (⟨S26000x128, .f32⟩ : BufTy).Contents (Elt F)) (idx : (⟨S16384x26, .i32⟩ : BufTy).Contents (Elt F)) :
    (⟨S16384x26x128, .f32⟩ : BufTy).Contents (Elt F) :=
  select (broadcastInDim S16384x26x128 ![0, 1] bcast_S16384x26_S16384x26x128_0_1 (inRange (F := F) (wrapped (F := F) idx)))
    (Host.gather gather_S26000x128_S16384x26x1_S16384x26x128_2_0_n_n_0_2_1128 flat (wrapped (F := F) idx))
    (broadcastInDim S16384x26x128 ![] bcast_S_S16384x26x128 (constant S_ .f32 0x7FC00000#32))

/-- The continuous columns: (x − lo) / (hi − lo), the bounds broadcast along the samples. -/
def contTerm (a1 : (⟨S16384x13, .f32⟩ : BufTy).Contents (Elt F)) (a3 a4 : (⟨S13, .f32⟩ : BufTy).Contents (Elt F)) :
    (⟨S16384x13, .f32⟩ : BufTy).Contents (Elt F) :=
  Host.divf
    (subf a1 (broadcastInDim S16384x13 ![0, 1] bcast_S1x13_S16384x13_0_1 (broadcastInDim S1x13 ![1] bcast_S13_S1x13_1 a3)))
    (broadcastInDim S16384x13 ![0, 1] bcast_S1x13_S16384x13_0_1
      (subf (broadcastInDim S1x13 ![1] bcast_S13_S1x13_1 a4) (broadcastInDim S1x13 ![1] bcast_S13_S1x13_1 a3)))

/-- The result as one term of the five argument arrays: the taken rows laid side by side per sample, then the
    continuous columns. -/
def refTerm (a0 : (⟨S16384x26, .i32⟩ : BufTy).Contents (Elt F)) (a1 : (⟨S16384x13, .f32⟩ : BufTy).Contents (Elt F))
    (a2 : (⟨S26x1000x128, .f32⟩ : BufTy).Contents (Elt F)) (a3 a4 : (⟨S13, .f32⟩ : BufTy).Contents (Elt F)) :
    (⟨S16384x3341, .f32⟩ : BufTy).Contents (Elt F) :=
  concatenate S16384x3341 1
    [⟨S16384x3328, shapeCast S16384x3328
        (takeTerm (F := F) (shapeCast S26000x128 a2 shapeCasts_S26x1000x128_S26000x128) (rowIdx (F := F) a0))
        shapeCasts_S16384x26x128_S16384x3328⟩,
     ⟨S16384x13, contTerm (F := F) a1 a3 a4⟩]
    concatenates_S16384x3328_S16384x13_S16384x3341_d1

/-! ## The operations -/

/-- @main's forty-one operations, in order: eight before the call, the callee's twenty-three (the choice between a
    row number and its wrapped form is the fifteenth line), ten after it. -/
abbrev ops : List (HloOp τ sig (Elt F)) :=
  [ reshape main_arg2 main_v0 rfl shapeCasts_S26x1000x128_S26000x128,
    nullary main_v1 (iotaInDim S26 32 0),
    nullary main_c (constantI S_ 32 1000#32),
    unary main_c main_v2 (broadcastInDim S26 ![] bcast_S_S26 : (⟨S_, .i32⟩ : BufTy).Contents (Elt F) → (⟨S26, .i32⟩ : BufTy).Contents (Elt F)),
    binary main_v1 main_v2 main_v3 (muli : (⟨S26, .i32⟩ : BufTy).Contents (Elt F) → (⟨S26, .i32⟩ : BufTy).Contents (Elt F) → (⟨S26, .i32⟩ : BufTy).Contents (Elt F)),
    unary main_v3 main_v4 (broadcastInDim S1x26 ![1] bcast_S26_S1x26_1 : (⟨S26, .i32⟩ : BufTy).Contents (Elt F) → (⟨S1x26, .i32⟩ : BufTy).Contents (Elt F)),
    unary main_v4 main_v5 (broadcastInDim S16384x26 ![0, 1] bcast_S1x26_S16384x26_0_1 : (⟨S1x26, .i32⟩ : BufTy).Contents (Elt F) → (⟨S16384x26, .i32⟩ : BufTy).Contents (Elt F)),
    binary main_arg0 main_v5 main_v6 (addi : (⟨S16384x26, .i32⟩ : BufTy).Contents (Elt F) → (⟨S16384x26, .i32⟩ : BufTy).Contents (Elt F) → (⟨S16384x26, .i32⟩ : BufTy).Contents (Elt F)),
    TRef.nullary main_call0.c (constantI S_ 32 0#32),
    TRef.unary main_call0.c main_call0.v0 (broadcastInDim S16384x26 ![] bcast_S_S16384x26),
    TRef.binary (.of main_v6) main_call0.v0 main_call0.v1 (cmpi .slt),
    TRef.nullary main_call0.c_0 (constantI S_ 32 26000#32),
    TRef.unary main_call0.c_0 main_call0.v2 (broadcastInDim S16384x26 ![] bcast_S_S16384x26),
    TRef.binary (.of main_v6) main_call0.v2 main_call0.v3 addi,
    TRef.ternary main_call0.v1 main_call0.v3 (.of main_v6) main_call0.call0.v0 select,
    TRef.unary main_call0.call0.v0 main_call0.v5 (broadcastInDim S16384x26x1 ![0, 1] bcast_S16384x26_S16384x26x1_0_1),
    TRef.nullary main_call0.c_1 (constantI S1 32 25999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_v0) main_call0.v5 main_call0.v13 (fun x i => Host.gather gather_S26000x128_S16384x26x1_S16384x26x128_2_0_n_n_0_2_1128 x i),
    TRef.unary main_call0.v12 main_call0.v14 (broadcastInDim S16384x26x128 ![0, 1] bcast_S16384x26_S16384x26x128_0_1),
    TRef.nullary main_call0.cst (constant S_ .f32 0x7FC00000#32),
    TRef.unary main_call0.cst main_call0.v15 (broadcastInDim S16384x26x128 ![] bcast_S_S16384x26x128),
    TRef.ternary main_call0.v14 main_call0.v13 main_call0.v15 main_call0.v16 select,
    reshape main_v7 main_v8 rfl shapeCasts_S16384x26x128_S16384x3328,
    unary main_arg3 main_v9 (broadcastInDim S1x13 ![1] bcast_S13_S1x13_1 : (⟨S13, .f32⟩ : BufTy).Contents (Elt F) → (⟨S1x13, .f32⟩ : BufTy).Contents (Elt F)),
    unary main_v9 main_v10 (broadcastInDim S16384x13 ![0, 1] bcast_S1x13_S16384x13_0_1 : (⟨S1x13, .f32⟩ : BufTy).Contents (Elt F) → (⟨S16384x13, .f32⟩ : BufTy).Contents (Elt F)),
    binary main_arg1 main_v10 main_v11 (subf : (⟨S16384x13, .f32⟩ : BufTy).Contents (Elt F) → (⟨S16384x13, .f32⟩ : BufTy).Contents (Elt F) → (⟨S16384x13, .f32⟩ : BufTy).Contents (Elt F)),
    unary main_arg4 main_v12 (broadcastInDim S1x13 ![1] bcast_S13_S1x13_1 : (⟨S13, .f32⟩ : BufTy).Contents (Elt F) → (⟨S1x13, .f32⟩ : BufTy).Contents (Elt F)),
    unary main_arg3 main_v13 (broadcastInDim S1x13 ![1] bcast_S13_S1x13_1 : (⟨S13, .f32⟩ : BufTy).Contents (Elt F) → (⟨S1x13, .f32⟩ : BufTy).Contents (Elt F)),
    binary main_v12 main_v13 main_v14 (subf : (⟨S1x13, .f32⟩ : BufTy).Contents (Elt F) → (⟨S1x13, .f32⟩ : BufTy).Contents (Elt F) → (⟨S1x13, .f32⟩ : BufTy).Contents (Elt F)),
    unary main_v14 main_v15 (broadcastInDim S16384x13 ![0, 1] bcast_S1x13_S16384x13_0_1 : (⟨S1x13, .f32⟩ : BufTy).Contents (Elt F) → (⟨S16384x13, .f32⟩ : BufTy).Contents (Elt F)),
    binary main_v11 main_v15 main_v16 (Host.divf : (⟨S16384x13, .f32⟩ : BufTy).Contents (Elt F) → (⟨S16384x13, .f32⟩ : BufTy).Contents (Elt F) → (⟨S16384x13, .f32⟩ : BufTy).Contents (Elt F)),
    binary main_v8 main_v16 main_v17 ((fun a b => concatenate S16384x3341 1 [⟨S16384x3328, a⟩, ⟨S16384x13, b⟩] concatenates_S16384x3328_S16384x13_S16384x3341_d1) : (⟨S16384x3328, .f32⟩ : BufTy).Contents (Elt F) → (⟨S16384x13, .f32⟩ : BufTy).Contents (Elt F) → (⟨S16384x3341, .f32⟩ : BufTy).Contents (Elt F)) ]

-- forty-one binds re-associated: the rewrite under the chain recurses once per statement
set_option maxRecDepth 2048 in
/-- @main is that straight line: the two callees' definitions unfolded at their calls, both sides are one chain of
    steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., nullary_bufs_sub .., unary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., unary_bufs_sub .., binary_bufs_sub .., unary_bufs_sub .., unary_bufs_sub ..,
    binary_bufs_sub .., unary_bufs_sub .., binary_bufs_sub .., binary_bufs_sub ..⟩

/-- Every buffer after the line, from the run of a straight line of operations. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two-piece concatenations of equal pieces are equal. (The concatenation's shape condition mentions the list of
    pieces, so a rewrite does not enter the list by itself.) -/
theorem concat_congr {A A' : (⟨S16384x3328, .f32⟩ : BufTy).Contents (Elt F)} {B B' : (⟨S16384x13, .f32⟩ : BufTy).Contents (Elt F)}
    (hA : A = A') (hB : B = B') :
    concatenate S16384x3341 1 [⟨S16384x3328, A⟩, ⟨S16384x13, B⟩] concatenates_S16384x3328_S16384x13_S16384x3341_d1
      = concatenate S16384x3341 1 [⟨S16384x3328, A'⟩, ⟨S16384x13, B'⟩] concatenates_S16384x3328_S16384x13_S16384x3341_d1 := by
  cases hA; cases hB; rfl

-- the reduction and the gather stay folded: the equation never looks inside them
attribute [local irreducible] Host.reduce Host.gather in
set_option maxRecDepth 8192 in
-- three passes over a line of forty operations
set_option maxHeartbeats 1600000 in
/-- The fold at the result buffer is the composed term: the last operation joins two pieces, and each piece is read
    back operation by operation — each operation's result at its own buffer, every other buffer passed through; the
    typed references' transports are the identity at these literal references. -/
theorem after_v17 (V : Valuation τ sig (Elt F)) :
    after ops V (main_v17 : DevRef τ sig)
      = refTerm (F := F) (V (main_arg0 : DevRef τ sig)) (V (main_arg1 : DevRef τ sig)) (V (main_arg2 : DevRef τ sig))
          (V (main_arg3 : DevRef τ sig)) (V (main_arg4 : DevRef τ sig)) := by
  after_results_simp
  unfold refTerm
  refine concat_congr ?_ ?_
  · after_results_simp
    simp only [TRef.toBuf, TRef.ofBuf, cast_eq]
    unfold takeTerm inRange wrapped rowIdx
    rfl
  · after_results_simp
    unfold contTerm
    rfl

/-- No operation writes an argument buffer. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp
theorem after_arg4 (V : Valuation τ sig (Elt F)) : after ops V (main_arg4 : DevRef τ sig) = V (main_arg4 : DevRef τ sig) := by
  after_results_simp

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = refTerm (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (after_v17 _),
      (h c main_arg0).trans (after_arg0 _), (h c main_arg1).trans (after_arg1 _), (h c main_arg2).trans (after_arg2 _),
      (h c main_arg3).trans (after_arg3 _), (h c main_arg4).trans (after_arg4 _)⟩)
    (run_all m ρ)

end Cert.ReferenceIdeal.RefRun

end
-- ==== Proof.RefSpec.lean ====
/-
  The specification: the result of the embedding of one batch of samples as ONE function of the five argument arrays,
  index by index. A sample has 26 categorical fields, each with its own table of 1000 rows of 128 numbers, and 13
  continuous columns, each with a lower and an upper bound. Row b of the result is, side by side, for each field f the
  row of field f's table that the sample's category names (columns 128·f … 128·f + 127), and then for each continuous
  column k the value moved to the bounds' scale, (x − lo) / (hi − lo) (column 3328 + k).

  At the exact instance the contents of a 32-bit integer buffer are a function from the shape's indices to 32-bit words
  and the contents of a float buffer a function to the extended reals; the specification is stated over those.
  A category is read as the word's unsigned value reduced modulo 1000: for a category in [0, 999] — the domain the
  programs are compared on — that is the category itself, and the expression is total without a side condition.
-/
import Idealize.ShloMosaic.PureOps.Ideal
import Idealize.ShloMosaic.Lib.ValueIdx

noncomputable section

namespace Cert.Spec

open Idealize.ShloMosaic Idealize.ShloMosaic.ValueIdx

abbrev S16384x26 : Shape := ⟨2, ![16384, 26]⟩
abbrev S16384x13 : Shape := ⟨2, ![16384, 13]⟩
abbrev S26x1000x128 : Shape := ⟨3, ![26, 1000, 128]⟩
abbrev S13 : Shape := ⟨1, ![13]⟩
abbrev S16384x3341 : Shape := ⟨2, ![16384, 3341]⟩

/-- The field a column below 3328 belongs to. -/
abbrev fieldOf (j : Fin 3341) (h : j.val < 3328) : Fin 26 := ⟨j.val / 128, by omega⟩
/-- Its place within the field's 128 numbers. -/
abbrev laneOf (j : Fin 3341) : Fin 128 := ⟨j.val % 128, Nat.mod_lt _ (by decide)⟩
/-- The continuous column a column from 3328 on is. -/
abbrev contOf (j : Fin 3341) (h : ¬ j.val < 3328) : Fin 13 := ⟨j.val - 3328, by have := j.isLt; omega⟩
/-- The table row a category word names: its unsigned value modulo the number of rows. -/
abbrev catRow (w : BitVec 32) : Fin 1000 := ⟨w.toNat % 1000, Nat.mod_lt _ (by decide)⟩

/-- The result at sample `b`, column `j`. -/
def Gat (xcat : (⟨S16384x26, .i32⟩ : BufTy).Contents (Elt Ideal)) (xcont : (⟨S16384x13, .f32⟩ : BufTy).Contents (Elt Ideal))
    (tables : (⟨S26x1000x128, .f32⟩ : BufTy).Contents (Elt Ideal)) (cmin cmax : (⟨S13, .f32⟩ : BufTy).Contents (Elt Ideal))
    (b : Fin 16384) (j : Fin 3341) : EReal :=
  if h : j.val < 3328 then
    tables (ix3 (fieldOf j h) (catRow (xcat (ix2 b (fieldOf j h)))) (laneOf j))
  else
    Ideal.div (xcont (ix2 b (contOf j h)) - cmin (ix1 (contOf j h))) (cmax (ix1 (contOf j h)) - cmin (ix1 (contOf j h)))

/-- THE SPECIFICATION: the result array as a function of the five argument arrays. -/
def G (xcat : (⟨S16384x26, .i32⟩ : BufTy).Contents (Elt Ideal)) (xcont : (⟨S16384x13, .f32⟩ : BufTy).Contents (Elt Ideal))
    (tables : (⟨S26x1000x128, .f32⟩ : BufTy).Contents (Elt Ideal)) (cmin cmax : (⟨S13, .f32⟩ : BufTy).Contents (Elt Ideal)) :
    (⟨S16384x3341, .f32⟩ : BufTy).Contents (Elt Ideal) :=
  fun i => Gat xcat xcont tables cmin cmax ⟨(i 0).val, idx2_lt0 i⟩ ⟨(i 1).val, idx2_lt1 i⟩

variable (xcat : (⟨S16384x26, .i32⟩ : BufTy).Contents (Elt Ideal)) (xcont : (⟨S16384x13, .f32⟩ : BufTy).Contents (Elt Ideal))
  (tables : (⟨S26x1000x128, .f32⟩ : BufTy).Contents (Elt Ideal)) (cmin cmax : (⟨S13, .f32⟩ : BufTy).Contents (Elt Ideal))

/-- The specification at an index given by its coordinates. -/
theorem G_apply (b : Fin 16384) (j : Fin 3341) : G xcat xcont tables cmin cmax (ix2 b j) = Gat xcat xcont tables cmin cmax b j := rfl

/-- An embedding column: number `d` of field `f` is entry `d` of the row of field `f`'s table that the category names. -/
theorem G_emb (b : Fin 16384) (f : Fin 26) (d : Fin 128) :
    G xcat xcont tables cmin cmax (ix2 b (⟨f.val * 128 + d.val, by omega⟩ : Fin 3341))
      = tables (ix3 f (catRow (xcat (ix2 b f))) d) := by
  have hlt : f.val * 128 + d.val < 3328 := by omega
  have hf : (⟨(f.val * 128 + d.val) / 128, by omega⟩ : Fin 26) = f := Fin.ext (by show (f.val * 128 + d.val) / 128 = f.val; omega)
  have hd : (⟨(f.val * 128 + d.val) % 128, Nat.mod_lt _ (by decide)⟩ : Fin 128) = d :=
    Fin.ext (by show (f.val * 128 + d.val) % 128 = d.val; omega)
  rw [G_apply]
  unfold Gat
  rw [dif_pos hlt]
  show tables (ix3 (⟨(f.val * 128 + d.val) / 128, _⟩ : Fin 26) (catRow (xcat (ix2 b (⟨(f.val * 128 + d.val) / 128, _⟩ : Fin 26))))
    (⟨(f.val * 128 + d.val) % 128, _⟩ : Fin 128)) = _
  rw [hf, hd]

/-- A continuous column: the value less the lower bound, over the upper bound less the lower bound. -/
theorem G_cont (b : Fin 16384) (k : Fin 13) :
    G xcat xcont tables cmin cmax (ix2 b (⟨3328 + k.val, by omega⟩ : Fin 3341))
      = Ideal.div (xcont (ix2 b k) - cmin (ix1 k)) (cmax (ix1 k) - cmin (ix1 k)) := by
  have hge : ¬ 3328 + k.val < 3328 := by omega
  have hk : (⟨3328 + k.val - 3328, by omega⟩ : Fin 13) = k := Fin.ext (by show 3328 + k.val - 3328 = k.val; omega)
  rw [G_apply]
  unfold Gat
  rw [dif_neg hge]
  show Ideal.div (xcont (ix2 b (⟨3328 + k.val - 3328, _⟩ : Fin 13)) - cmin (ix1 (⟨3328 + k.val - 3328, _⟩ : Fin 13)))
    (cmax (ix1 (⟨3328 + k.val - 3328, _⟩ : Fin 13)) - cmin (ix1 (⟨3328 + k.val - 3328, _⟩ : Fin 13))) = _
  rw [hk]

/-- For a category in range the table row is the category itself. -/
theorem catRow_val_of_le (w : BitVec 32) (h0 : 0 ≤ w.toInt) (h1 : w.toInt ≤ 999) : (catRow w).val = w.toInt.toNat := by
  have h3 := BitVec.toInt_eq_toNat_cond w
  have h4 := w.isLt
  show w.toNat % 1000 = w.toInt.toNat
  split at h3 <;> omega

end Cert.Spec

end
-- ==== Proof.PreRange.lean ====
/-
  The categories' range, read out of the precondition. The precondition is a conjunction of five "all" reductions
  — four saying that a float argument is finite everywhere and one saying that every category lies in [0, 999] —
  asserted to be the bit 1. Its last conjunct, decoded: an "and" that is 1 has both operands 1, a reduction by "and"
  that is 1 met only 1s, and a signed comparison that is 1 says the inequality of the signed values.
-/
import proofs.«202673_g7318624272670_cont_9to1c4b_526_24_alg».proof.Pre_input_domain
import Idealize.ShloMosaic.Lib.ReduceAll
import Idealize.ShloMosaic.Lib.ValueIdx

namespace Cert.PreRange

open Idealize.ShloMosaic Idealize.ShloMosaic.ValueIdx Cert.Pre_input_domain

/-- The scalar shape has one index. -/
instance : Subsingleton S_.Idx := ⟨fun a b => funext fun d => d.elim0⟩

/-- Under the precondition every category, read as a signed 32-bit number, lies in [0, 999]. -/
theorem xcat_range [Cert.Pre_input_domain.Facts] {F : FTy → Type} [FloatOps F]
    (a0 : IVec S16384x26 32) (a1 : FVec F S16384x13 .f32) (a2 : FVec F S26x1000x128 .f32) (a3 a4 : FVec F S13 .f32)
    (h : Cert.Pre_input_domain.fn (F := F) a0 a1 a2 a3 a4 = fun _ => 1#1) (i : S16384x26.Idx) :
    0 ≤ (a0 i).toInt ∧ (a0 i).toInt ≤ 999 := by
  have h0 := congrFun h ix0
  unfold Cert.Pre_input_domain.fn at h0
  dsimp only at h0
  unfold Cert.Pre_input_domain.fn_part1 at h0
  dsimp only at h0
  have h24 := (IntOp.andi_eq_one.1 h0).2
  have hall := Host.reduce_andi_all _ _ _ _ _ h24 i
  obtain ⟨hge, hle⟩ := IntOp.andi_eq_one.1 hall
  have hge' : (0#32 : BitVec 32).toInt ≤ (a0 i).toInt := IntOp.cmpi_sge.1 hge
  have hle' : (a0 i).toInt ≤ (999#32 : BitVec 32).toInt := IntOp.cmpi_sle.1 hle
  have e0 : (0#32 : BitVec 32).toInt = 0 := by decide
  have e1 : (999#32 : BitVec 32).toInt = 999 := by decide
  omega

/-- The same as a bound on the unsigned value, and the two readings agree. -/
theorem xcat_toNat [Cert.Pre_input_domain.Facts] {F : FTy → Type} [FloatOps F]
    (a0 : IVec S16384x26 32) (a1 : FVec F S16384x13 .f32) (a2 : FVec F S26x1000x128 .f32) (a3 a4 : FVec F S13 .f32)
    (h : Cert.Pre_input_domain.fn (F := F) a0 a1 a2 a3 a4 = fun _ => 1#1) (i : S16384x26.Idx) :
    (a0 i).toNat ≤ 999 ∧ (a0 i).toInt = (a0 i).toNat := by
  obtain ⟨h0, h1⟩ := xcat_range a0 a1 a2 a3 a4 h i
  have h3 := BitVec.toInt_eq_toNat_cond (a0 i)
  have h4 := (a0 i).isLt
  split at h3 <;> omega

end Cert.PreRange
-- ==== Proof.LibTakeRows.lean ====
/-
  jnp.take along the first axis of a matrix at a two-dimensional array of indices, read at an index. The row gather
  from an operand [N, C] at start indices [R, S, 1] (the index vector of one component on the last axis) with result
  [R, S, C] is, at (b, s, d), entry d of the operand's row that the start index at (b, s, 0) names, the index read as
  a signed integer and clamped into [0, N − 1]. With it two pieces of the code jnp.take prints around the gather: a
  matrix [R, S] broadcast along a new last axis read at an index, and a reduction by "and" of an array whose every
  element is 1.
-/
import Idealize.ShloMosaic.Lib.ValueIdx
import Idealize.ShloMosaic.Lib.Pipeline.Value
import Idealize.ShloMosaic.Lib.Affine
import Idealize.ShloMosaic.PureOps.Reduce
import Idealize.ShloMosaic.PureOps.ShapeOps
import Idealize.ShloMosaic.PureOps.Dims

noncomputable section

open Idealize.ShloMosaic Idealize.ShloMosaic.ValueIdx

namespace Idealize.ShloMosaic.TakeRows

variable {α : Type}

/-! ## The row gather at a two-dimensional array of indices -/

/-- The dimension numbers of a row gather from an operand [N, C] at start indices [R, S, 1] with result [R, S, C]:
    axis 0 of the operand is collapsed and indexed, axis 1 is taken whole as the result's last axis, the index vector
    lies on axis 2 of the start indices. -/
abbrev takeRows (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The start-indices position that result position (b, s, d) reads is (b, s, 0). -/
theorem takeRows_siIdx {N C R S : Nat}
    (wf : GatherDims.WF ⟨2, ![N, C]⟩ ⟨3, ![R, S, 1]⟩ ⟨3, ![R, S, C]⟩ [2] [0] [] [0] [] 2 ![1, C])
    (b : Fin R) (s : Fin S) (d : Fin C) (c : Fin (takeRows N C R S wf).startIndexMap.length) :
    (takeRows N C R S wf).siIdx (ix3 b s d) c = ix3 b s 0 := by
  obtain rfl : c = ⟨0, Nat.one_pos⟩ := Fin.ext (Nat.lt_one_iff.mp c.isLt)
  funext a; refine Fin.ext ?_
  match a with
  | ⟨0, _⟩ => rfl
  | ⟨1, _⟩ => rfl
  | ⟨2, _⟩ => rfl

/-- The row coordinate that result position (b, s, d) reads: the clamped start index alone (no batching axis, and the
    row axis is collapsed, so no offset). -/
theorem takeRows_coord0 {N C R S w : Nat}
    (wf : GatherDims.WF ⟨2, ![N, C]⟩ ⟨3, ![R, S, 1]⟩ ⟨3, ![R, S, C]⟩ [2] [0] [] [0] [] 2 ![1, C])
    (idx : IVec ⟨3, ![R, S, 1]⟩ w) (b : Fin R) (s : Fin S) (d : Fin C) :
    (takeRows N C R S wf).start (ix3 b s d) idx 0 + (takeRows N C R S wf).batchCoord (ix3 b s d) 0
      + (takeRows N C R S wf).offCoord (ix3 b s d) 0 = min (idx (ix3 b s 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (takeRows N C R S wf).startIndexMap from List.mem_singleton.mpr rfl)]
  rw [takeRows_siIdx]
  rfl

/-- The column coordinate that result position (b, s, d) reads: the offset d alone (the column axis is not indexed). -/
theorem takeRows_coord1 {N C R S w : Nat}
    (wf : GatherDims.WF ⟨2, ![N, C]⟩ ⟨3, ![R, S, 1]⟩ ⟨3, ![R, S, C]⟩ [2] [0] [] [0] [] 2 ![1, C])
    (idx : IVec ⟨3, ![R, S, 1]⟩ w) (b : Fin R) (s : Fin S) (d : Fin C) :
    (takeRows N C R S wf).start (ix3 b s d) idx 1 + (takeRows N C R S wf).batchCoord (ix3 b s d) 1
      + (takeRows N C R S wf).offCoord (ix3 b s d) 1 = d.val := by
  rw [GatherDims.batchCoord_eq_zero _ _ _ List.not_mem_nil]
  have hne : ¬ (1 : Fin 2) = 0 := by decide
  have hs : (takeRows N C R S wf).start (ix3 b s d) idx 1 = 0 := by
    unfold GatherDims.start
    rw [dif_neg (fun h => hne (List.mem_singleton.mp h))]
  have hmem : (1 : Fin 2) ∈ (takeRows N C R S wf).sKept :=
    (GatherDims.mem_sKept _ _).mpr ⟨fun h => hne (List.mem_singleton.mp h), List.not_mem_nil⟩
  rw [hs]
  unfold GatherDims.offCoord
  rw [dif_pos hmem]
  simp only [Nat.zero_add, Nat.add_zero]
  rfl

/-- THE GATHER READ AT (b, s, d): entry d of the operand's row named by the start index at (b, s, 0), read signed and
    clamped into [0, N − 1]. -/
theorem gather_takeRows_apply {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (b : Fin R) (s : Fin S) (d : Fin C) :
    Host.gather (takeRows N C R S wf) x idx (ix3 b s d)
      = x (ix2 (⟨min (idx (ix3 b s 0)).toInt.toNat (N - 1), by omega⟩ : Fin N) d) := by
  unfold Host.gather
  congr 1
  funext a
  refine Fin.ext ?_
  match a with
  | ⟨0, _⟩ => exact takeRows_coord0 wf idx b s d
  | ⟨1, _⟩ => exact takeRows_coord1 wf idx b s d

/-! ## A matrix broadcast along a new last axis -/

/-- A matrix [R, S] broadcast to [R, S, C] along a new last axis (dims = [0, 1]), read at (b, s, d), is the matrix's
    entry (b, s); with C = 1 this is the matrix as a column of one-component vectors. -/
theorem alongLast_apply {R S C : Nat} (hb : (⟨2, ![R, S]⟩ : Shape).BroadcastsInDim ⟨3, ![R, S, C]⟩ ![0, 1])
    (v : (⟨2, ![R, S]⟩ : Shape).Idx → α) (b : Fin R) (s : Fin S) (d : Fin C) :
    broadcastInDim ⟨3, ![R, S, C]⟩ ![0, 1] hb v (ix3 b s d) = v (ix2 b s) := by
  refine broadcastInDim_apply _ hb v _ (ix2 b s) (fun a => ?_)
  match a with
  | ⟨0, _⟩ =>
    show b.val = if R = 1 then 0 else b.val
    split
    · next h => have := b.isLt; omega
    · rfl
  | ⟨1, _⟩ =>
    show s.val = if S = 1 then 0 else s.val
    split
    · next h => have := s.isLt; omega
    · rfl

/-! ## A reduction by "and" of ones -/

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A stablehlo.reduce by "and" from an initial 1 of an array whose every element is 1 is 1 at every result index:
    the converse, for such an array, of reading a jnp.all back. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## An index in range, read signed and unsigned -/

/-- A 32-bit word that is not negative as a signed number reads the same signed and unsigned. -/
theorem toInt_toNat_of_nonneg (v : BitVec 32) (h : 0 ≤ v.toInt) : v.toInt.toNat = v.toNat := by
  have h3 := BitVec.toInt_eq_toNat_cond v
  have h4 := v.isLt
  split at h3 <;> omega

end Idealize.ShloMosaic.TakeRows

end
-- ==== Proof.RefIsG.lean ====
/-
  The reference's result is the specification. Under the precondition every category lies in [0, 999], so the row
  number category + 1000·field lies in [0, 25999] without wrapping as a 32-bit word: it is not negative (the wrap of
  negative row numbers leaves it alone), it is in range (the mask is 1 everywhere and the not-a-number word is never
  chosen), and the gather's clamp leaves it alone. The row of the flattened table with that number is row "category"
  of the field's own table, the joined row of 3328 numbers reads field j / 128 at place j % 128, and the continuous
  columns are the broadcast bounds read at their column.
-/
import proofs.«202673_g7318624272670_cont_9to1c4b_526_24_alg».proof.Proof.RefRun
import proofs.«202673_g7318624272670_cont_9to1c4b_526_24_alg».proof.Proof.RefSpec
import proofs.«202673_g7318624272670_cont_9to1c4b_526_24_alg».proof.Proof.PreRange
import proofs.«202673_g7318624272670_cont_9to1c4b_526_24_alg».proof.Proof.LibTakeRows
import Idealize.ShloMosaic.Lib.Pipeline.Value
import Idealize.ShloMosaic.Lib.ValueIdx
import Idealize.ShloMosaic.Lib.Affine

noncomputable section

namespace Cert.ReferenceIdeal.RefIsG

open Cert.ReferenceIdeal Cert.ReferenceIdeal.Gen Cert.ReferenceIdeal.RefRun
open Idealize.ShloMosaic Idealize.ShloMosaic.ValueIdx Idealize.ShloMosaic.TakeRows Idealize.ShloMosaic.TcCoe Idealize.SL.Sem

/-! ## The row number as a word -/

/-- The row number of category word `x` in field `f`: x + f · 1000 in 32-bit arithmetic. -/
abbrev rowWord (x : BitVec 32) (f : Fin 26) : BitVec 32 := IntOp.addi x (IntOp.muli (BitVec.ofNat 32 f.val) 1000#32)

/-- For a category below 1000 the sum does not wrap. -/
theorem rowWord_toNat (x : BitVec 32) (f : Fin 26) (hx : x.toNat ≤ 999) : (rowWord x f).toNat = x.toNat + f.val * 1000 := by
  show (x + BitVec.ofNat 32 f.val * 1000#32).toNat = _
  rw [BitVec.toNat_add, BitVec.toNat_mul, BitVec.toNat_ofNat]
  have e : (1000#32 : BitVec 32).toNat = 1000 := by decide
  rw [e]
  have := f.isLt
  omega

/-- … and it is the same number read signed. -/
theorem rowWord_toInt (x : BitVec 32) (f : Fin 26) (hx : x.toNat ≤ 999) :
    (rowWord x f).toInt = ((x.toNat + f.val * 1000 : Nat) : Int) := by
  have h := rowWord_toNat x f hx
  have h3 := BitVec.toInt_eq_toNat_cond (rowWord x f)
  have := f.isLt
  split at h3 <;> omega

/-! ## Broadcasts along the samples -/

/-- A vector of 26 broadcast to [1, 26] and then to [16384, 26], read at (b, f), is its entry f. -/
theorem bcast26 {α : Type} (v : S26.Idx → α) (b : Fin 16384) (f : Fin 26) :
    broadcastInDim S16384x26 ![0, 1] bcast_S1x26_S16384x26_0_1 (broadcastInDim S1x26 ![1] bcast_S26_S1x26_1 v) (ix2 b f)
      = v (ix1 f) :=
  (broadcastInDim_apply _ bcast_S1x26_S16384x26_0_1 _ (ix2 b f) (ix2 (0 : Fin 1) f)
      (fun a => by match a with | ⟨0, _⟩ => rfl | ⟨1, _⟩ => rfl)).trans
    (broadcastInDim_apply _ bcast_S26_S1x26_1 v (ix2 (0 : Fin 1) f) (ix1 f) (fun a => by match a with | ⟨0, _⟩ => rfl))

/-- A row [1, 13] broadcast to [16384, 13], read at (b, k), is its entry (0, k). -/
theorem bcastRow13 {α : Type} (v : S1x13.Idx → α) (b : Fin 16384) (k : Fin 13) :
    broadcastInDim S16384x13 ![0, 1] bcast_S1x13_S16384x13_0_1 v (ix2 b k) = v (ix2 (0 : Fin 1) k) :=
  broadcastInDim_apply _ bcast_S1x13_S16384x13_0_1 v (ix2 b k) (ix2 (0 : Fin 1) k)
    (fun a => by match a with | ⟨0, _⟩ => rfl | ⟨1, _⟩ => rfl)

/-- A vector of 13 as a row [1, 13], read at (0, k), is its entry k. -/
theorem bcastVec13 {α : Type} (v : S13.Idx → α) (k : Fin 13) :
    broadcastInDim S1x13 ![1] bcast_S13_S1x13_1 v (ix2 (0 : Fin 1) k) = v (ix1 k) :=
  broadcastInDim_apply _ bcast_S13_S1x13_1 v (ix2 (0 : Fin 1) k) (ix1 k) (fun a => by match a with | ⟨0, _⟩ => rfl)

/-! ## The stages at an index -/

/-- The row number at (b, f). -/
theorem rowIdx_apply (a0 : (⟨S16384x26, .i32⟩ : BufTy).Contents (Elt Ideal)) (b : Fin 16384) (f : Fin 26) :
    rowIdx (F := Ideal) a0 (ix2 b f) = rowWord (a0 (ix2 b f)) f := by
  unfold rowIdx
  show IntOp.addi (a0 (ix2 b f)) (broadcastInDim S16384x26 ![0, 1] bcast_S1x26_S16384x26_0_1
    (broadcastInDim S1x26 ![1] bcast_S26_S1x26_1
      (muli (iotaInDim S26 32 0) (broadcastInDim S26 ![] bcast_S_S26 (constantI S_ 32 1000#32)))) (ix2 b f)) = _
  rw [bcast26]
  rfl

/-- A row number that is not negative is left alone by the wrap. -/
theorem wrapped_apply (idx : (⟨S16384x26, .i32⟩ : BufTy).Contents (Elt Ideal)) (b : Fin 16384) (f : Fin 26) (z : Fin 1)
    (h0 : 0 ≤ (idx (ix2 b f)).toInt) : wrapped (F := Ideal) idx (ix3 b f z) = idx (ix2 b f) := by
  unfold wrapped
  rw [alongLast_apply]
  show Scalar.select (IntOp.cmpi .slt (idx (ix2 b f)) 0#32) _ (idx (ix2 b f)) = _
  have hc : IntOp.cmpi .slt (idx (ix2 b f)) 0#32 = 0#1 := eq_zero_of_ne_one (fun h => by
    have h1 := IntOp.cmpi_slt.1 h
    have e0 : (0#32 : BitVec 32).toInt = 0 := by decide
    omega)
  rw [hc, select_zero]

/-- Where every row number lies in [0, 25999] the mask is 1. -/
theorem inRange_apply (w : (⟨S16384x26x1, .i32⟩ : BufTy).Contents (Elt Ideal))
    (hw : ∀ i, 0 ≤ (w i).toInt ∧ (w i).toInt ≤ 25999) (j : S16384x26.Idx) : inRange (F := Ideal) w j = 1#1 := by
  unfold inRange
  refine reduce_andi_of_all_one _ _ _ _ (fun i => ?_) rfl j
  show IntOp.andi (IntOp.cmpi .sge (w i) 0#32) (IntOp.cmpi .sle (w i) 25999#32) = 1#1
  refine IntOp.andi_eq_one.2 ⟨IntOp.cmpi_sge.2 ?_, IntOp.cmpi_sle.2 ?_⟩
  · have e0 : (0#32 : BitVec 32).toInt = 0 := by decide
    have := (hw i).1
    omega
  · have e1 : (25999#32 : BitVec 32).toInt = 25999 := by decide
    have := (hw i).2
    omega

/-- The take at (b, f, d), for row numbers in [0, 25999]: entry d of the flat table's row with that number. -/
theorem takeTerm_apply (flat : (⟨S26000x128, .f32⟩ : BufTy).Contents (Elt Ideal))
    (idx : (⟨S16384x26, .i32⟩ : BufTy).Contents (Elt Ideal))
    (hr : ∀ (b : Fin 16384) (f : Fin 26), 0 ≤ (idx (ix2 b f)).toInt ∧ (idx (ix2 b f)).toInt ≤ 25999)
    (b : Fin 16384) (f : Fin 26) (d : Fin 128) (r : Fin 26000) (hrv : r.val = (idx (ix2 b f)).toInt.toNat) :
    takeTerm (F := Ideal) flat idx (ix3 b f d) = flat (ix2 r d) := by
  have hw : ∀ i : S16384x26x1.Idx, 0 ≤ (wrapped (F := Ideal) idx i).toInt ∧ (wrapped (F := Ideal) idx i).toInt ≤ 25999 := by
    intro i
    obtain ⟨b', f', z, rfl⟩ : ∃ (b' : Fin 16384) (f' : Fin 26) (z : Fin 1), i = ix3 b' f' z := ⟨i 0, i 1, i 2, eq_ix3 i⟩
    rw [wrapped_apply idx b' f' z (hr b' f').1]
    exact hr b' f'
  unfold takeTerm
  show Scalar.select
      (broadcastInDim S16384x26x128 ![0, 1] bcast_S16384x26_S16384x26x128_0_1 (inRange (F := Ideal) (wrapped (F := Ideal) idx)) (ix3 b f d))
      (Host.gather gather_S26000x128_S16384x26x1_S16384x26x128_2_0_n_n_0_2_1128 flat (wrapped (F := Ideal) idx) (ix3 b f d)) _ = _
  rw [alongLast_apply, inRange_apply _ hw, select_one]
  refine (gather_takeRows_apply (by decide) gather_S26000x128_S16384x26x1_S16384x26x128_2_0_n_n_0_2_1128_wf flat
    (wrapped (F := Ideal) idx) b f d).trans ?_
  refine congrArg (fun r' : Fin 26000 => flat (ix2 r' d)) (Fin.ext ?_)
  show min (wrapped (F := Ideal) idx (ix3 b f 0)).toInt.toNat (26000 - 1) = r.val
  rw [wrapped_apply idx b f 0 (hr b f).1, hrv]
  have := hr b f
  omega

/-- The continuous columns at (b, k). -/
theorem contTerm_apply (a1 : (⟨S16384x13, .f32⟩ : BufTy).Contents (Elt Ideal)) (a3 a4 : (⟨S13, .f32⟩ : BufTy).Contents (Elt Ideal))
    (b : Fin 16384) (k : Fin 13) :
    contTerm (F := Ideal) a1 a3 a4 (ix2 b k) = Ideal.div (a1 (ix2 b k) - a3 (ix1 k)) (a4 (ix1 k) - a3 (ix1 k)) := by
  unfold contTerm
  show Ideal.div
      (a1 (ix2 b k) - broadcastInDim S16384x13 ![0, 1] bcast_S1x13_S16384x13_0_1 (broadcastInDim S1x13 ![1] bcast_S13_S1x13_1 a3) (ix2 b k))
      (broadcastInDim S16384x13 ![0, 1] bcast_S1x13_S16384x13_0_1
        (subf (F := Ideal) (φ := .f32) (broadcastInDim S1x13 ![1] bcast_S13_S1x13_1 a4) (broadcastInDim S1x13 ![1] bcast_S13_S1x13_1 a3)) (ix2 b k)) = _
  rw [bcastRow13, bcastRow13, bcastVec13]
  show Ideal.div (a1 (ix2 b k) - a3 (ix1 k))
      (broadcastInDim S1x13 ![1] bcast_S13_S1x13_1 a4 (ix2 (0 : Fin 1) k) - broadcastInDim S1x13 ![1] bcast_S13_S1x13_1 a3 (ix2 (0 : Fin 1) k)) = _
  rw [bcastVec13, bcastVec13]

/-! ## The reference is the specification -/

/-- Under the precondition the reference's composed term is the specification. -/
theorem refTerm_eq_G [Cert.Pre_input_domain.Facts]
    (a0 : (⟨S16384x26, .i32⟩ : BufTy).Contents (Elt Ideal)) (a1 : (⟨S16384x13, .f32⟩ : BufTy).Contents (Elt Ideal))
    (a2 : (⟨S26x1000x128, .f32⟩ : BufTy).Contents (Elt Ideal)) (a3 a4 : (⟨S13, .f32⟩ : BufTy).Contents (Elt Ideal))
    (h : Cert.Pre_input_domain.fn (F := Ideal) a0 a1 a2 a3 a4 = fun _ => 1#1) :
    refTerm (F := Ideal) a0 a1 a2 a3 a4 = Cert.Spec.G a0 a1 a2 a3 a4 := by
  -- the categories' range, and with it the row numbers'
  have hx : ∀ (b : Fin 16384) (f : Fin 26), (a0 (ix2 b f)).toNat ≤ 999 :=
    fun b f => (Cert.PreRange.xcat_toNat (F := Ideal) a0 a1 a2 a3 a4 h (ix2 b f)).1
  have hr : ∀ (b : Fin 16384) (f : Fin 26),
      0 ≤ (rowIdx (F := Ideal) a0 (ix2 b f)).toInt ∧ (rowIdx (F := Ideal) a0 (ix2 b f)).toInt ≤ 25999 := by
    intro b f
    rw [rowIdx_apply, rowWord_toInt _ _ (hx b f)]
    have := hx b f
    have := f.isLt
    omega
  funext i
  obtain ⟨b, j, rfl⟩ : ∃ (b : Fin 16384) (j : Fin 3341), i = ix2 b j := ⟨i 0, i 1, eq_ix2 i⟩
  rw [Cert.Spec.G_apply]
  unfold Cert.Spec.Gat refTerm
  by_cases hj : j.val < 3328
  · rw [dif_pos hj]
    have hf : j.val / 128 < 26 := by omega
    -- the row of the flat table
    have hrow : (a0 (ix2 b (Cert.Spec.fieldOf j hj))).toNat + (j.val / 128) * 1000 < 26000 := by
      have := hx b (Cert.Spec.fieldOf j hj)
      omega
    have hrv : (⟨(a0 (ix2 b (Cert.Spec.fieldOf j hj))).toNat + (j.val / 128) * 1000, hrow⟩ : Fin 26000).val
        = (rowIdx (F := Ideal) a0 (ix2 b (Cert.Spec.fieldOf j hj))).toInt.toNat := by
      rw [rowIdx_apply, rowWord_toInt _ _ (hx b _)]
      rfl
    refine (concatenate_pair_apply_left (t := S16384x3341) (s₁ := S16384x3328) (s₂ := S16384x13) (1 : Fin 2) _ _
      concatenates_S16384x3328_S16384x13_S16384x3341_d1 (ix2 b j) rfl
      (ix2 b (⟨j.val, hj⟩ : Fin 3328)) (fun a => by match a with | ⟨0, _⟩ => rfl | ⟨1, _⟩ => rfl)).trans ?_
    refine (shapeCast_apply _ shapeCasts_S16384x26x128_S16384x3328 (ix2 b (⟨j.val, hj⟩ : Fin 3328))
      (ix3 b (Cert.Spec.fieldOf j hj) (Cert.Spec.laneOf j)) (by
        rw [Shape.rowMajor_val_three, Shape.rowMajor_val_two]
        show (b.val * 26 + j.val / 128) * 128 + j.val % 128 = b.val * 3328 + j.val
        omega)).trans ?_
    refine (takeTerm_apply _ _ hr b (Cert.Spec.fieldOf j hj) (Cert.Spec.laneOf j) _ hrv).trans ?_
    refine shapeCast_apply a2 shapeCasts_S26x1000x128_S26000x128 _
      (ix3 (Cert.Spec.fieldOf j hj) (Cert.Spec.catRow (a0 (ix2 b (Cert.Spec.fieldOf j hj)))) (Cert.Spec.laneOf j)) ?_
    rw [Shape.rowMajor_val_three, Shape.rowMajor_val_two]
    show (j.val / 128 * 1000 + (a0 (ix2 b (Cert.Spec.fieldOf j hj))).toNat % 1000) * 128 + j.val % 128
      = ((a0 (ix2 b (Cert.Spec.fieldOf j hj))).toNat + j.val / 128 * 1000) * 128 + j.val % 128
    have := hx b (Cert.Spec.fieldOf j hj)
    omega
  · rw [dif_neg hj]
    refine (concatenate_pair_apply_right (t := S16384x3341) (s₁ := S16384x3328) (s₂ := S16384x13) (1 : Fin 2) _ _
      concatenates_S16384x3328_S16384x13_S16384x3341_d1 (ix2 b j) rfl rfl
      (ix2 b (Cert.Spec.contOf j hj))
      (fun a ha => by match a, ha with | ⟨0, _⟩, _ => rfl | ⟨1, _⟩, ha => exact absurd rfl ha)
      (by
        show j.val - 3328 + 3328 = j.val
        omega)).trans ?_
    exact contTerm_apply a1 a3 a4 b (Cert.Spec.contOf j hj)

/-- The reference's run with the specification in its post: from a memory whose argument arrays satisfy the
    precondition on every device, every weakly fair execution terminates with the result at the specification of the
    arguments and the arguments unchanged. -/
theorem run_G [Cert.Pre_input_domain.Facts] (m : (ℓ : Loc nD τ sig) → Buf (Elt Ideal) ℓ) (ρ : Dev nD → PrngReg)
    (hpre : ∀ c : Dev nD, Cert.Pre_input_domain.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = fun _ => 1#1) :
    θ_run (defs (F := Ideal)) (onTc (τ := τ) (main (F := Ideal))) ⟨m, fun _ => 0, ρ⟩ fun r => ∀ c : Dev nD,
      r.2.mem ((c.tc : Thread nD τ).loc main_v17)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (refTerm_eq_G _ _ _ _ _ (hpre c)), (h c).2⟩) (run (F := Ideal) m ρ)

end Cert.ReferenceIdeal.RefIsG

end
-- ==== Proof.KernelValue.lean ====
/-
  The kernel's value, as index functions. The kernel works on the two halves of the batch (samples 8192·h … 8192·h + 8191)
  one after the other. For half h a gather leaves an array of 212992 rows of 128 numbers: the rows come in groups of 208
  = 26 fields × 8 samples, group W holding samples 8W … 8W + 7 of the half, and inside a group row 8·fld + s is sample
  8W + s at field fld — the row of field fld's table that the sample's category names. A second step lays these rows,
  and the continuous columns moved to their bounds' scale, into the TRANSPOSED result [3341, 16384]: row fld·128 + dd,
  column 8192·h + c holds number dd of the gathered row of (sample c of the half, field fld), and row 3328 + k, column
  col holds (x − lo) / (hi − lo) of sample col's continuous column k. The result is that array transposed. This module
  states the three arrays index by index and proves that the last one is the specification.
-/
import proofs.«202673_g7318624272670_cont_9to1c4b_526_24_alg».proof.Proof.RefSpec
import Idealize.ShloMosaic.Lib.ValueLayout
import Idealize.ShloMosaic.Lib.Pipeline.Value

noncomputable section

namespace Cert.KSpec

open Idealize.ShloMosaic Idealize.ShloMosaic.ValueIdx Cert.Spec

abbrev S212992x128 : Shape := ⟨2, ![212992, 128]⟩
abbrev S3341x16384 : Shape := ⟨2, ![3341, 16384]⟩

/-! ## The gathered rows of one half -/

/-- The field of gathered row `q`: its place within its group of 208, over 8. -/
abbrev rowField (q : Fin 212992) : Fin 26 := ⟨q.val % 208 / 8, by omega⟩
/-- The sample (of the whole batch) of gathered row `q` of half `h`: 8 per group, the half's offset added. -/
abbrev rowBatch (h : Fin 2) (q : Fin 212992) : Fin 16384 :=
  ⟨8192 * h.val + 8 * (q.val / 208) + q.val % 8, by have := q.isLt; have := h.isLt; omega⟩

/-- Number `dd` of gathered row `q` of half `h`. -/
def embRowsAt (xcat : (⟨S16384x26, .i32⟩ : BufTy).Contents (Elt Ideal)) (tables : (⟨S26x1000x128, .f32⟩ : BufTy).Contents (Elt Ideal))
    (h : Fin 2) (q : Fin 212992) (dd : Fin 128) : EReal :=
  tables (ix3 (rowField q) (catRow (xcat (ix2 (rowBatch h q) (rowField q)))) dd)

/-- What the gather of half `h` leaves: 212992 rows of 128 numbers. -/
def embRows (xcat : (⟨S16384x26, .i32⟩ : BufTy).Contents (Elt Ideal)) (tables : (⟨S26x1000x128, .f32⟩ : BufTy).Contents (Elt Ideal))
    (h : Fin 2) : (⟨S212992x128, .f32⟩ : BufTy).Contents (Elt Ideal) :=
  fun i => embRowsAt xcat tables h ⟨(i 0).val, idx2_lt0 i⟩ ⟨(i 1).val, idx2_lt1 i⟩

theorem embRows_apply (xcat : (⟨S16384x26, .i32⟩ : BufTy).Contents (Elt Ideal))
    (tables : (⟨S26x1000x128, .f32⟩ : BufTy).Contents (Elt Ideal)) (h : Fin 2) (q : Fin 212992) (dd : Fin 128) :
    embRows xcat tables h (ix2 q dd) = embRowsAt xcat tables h q dd := rfl

/-! ## The transposed result -/

/-- The gathered row that holds sample `c` of a half at field `fld`: group c / 8, then field, then c % 8. -/
abbrev gatherRow (c : Fin 8192) (fld : Fin 26) : Fin 212992 :=
  ⟨(c.val / 8 * 26 + fld.val) * 8 + c.val % 8, by have := c.isLt; have := fld.isLt; omega⟩
/-- A sample's place within its half. -/
abbrev inHalf (col : Fin 16384) : Fin 8192 := ⟨col.val % 8192, Nat.mod_lt _ (by decide)⟩

/-- The transposed result at row `r`, column `col`, from the two halves' gathered rows. -/
def asmTAt (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (r : Fin 3341) (col : Fin 16384) : EReal :=
  if hr : r.val < 3328 then
    (if col.val < 8192 then e0 else e1) (ix2 (gatherRow (inHalf col) (fieldOf r hr)) (laneOf r))
  else
    Ideal.div (xcont (ix2 col (contOf r hr)) - cmin (ix1 (contOf r hr))) (cmax (ix1 (contOf r hr)) - cmin (ix1 (contOf r hr)))

/-- The transposed result [3341, 16384]. -/
def asmT (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) : (⟨S3341x16384, .f32⟩ : BufTy).Contents (Elt Ideal) :=
  fun i => asmTAt e0 e1 xcont cmin cmax ⟨(i 0).val, idx2_lt0 i⟩ ⟨(i 1).val, idx2_lt1 i⟩

theorem asmT_apply (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (r : Fin 3341) (col : Fin 16384) :
    asmT e0 e1 xcont cmin cmax (ix2 r col) = asmTAt e0 e1 xcont cmin cmax r col := rfl

/-- The kernel's result [16384, 3341]: the transposed result read across. -/
def outK (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) : (⟨S16384x3341, .f32⟩ : BufTy).Contents (Elt Ideal) :=
  fun i => asmT e0 e1 xcont cmin cmax (ix2 (⟨(i 1).val, idx2_lt1 i⟩ : Fin 3341) (⟨(i 0).val, idx2_lt0 i⟩ : Fin 16384))

theorem outK_apply (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (b : Fin 16384) (j : Fin 3341) :
    outK e0 e1 xcont cmin cmax (ix2 b j) = asmTAt e0 e1 xcont cmin cmax j b := rfl

/-! ## The kernel's result is the specification -/

/-- The gathered row of (sample c of the half, field fld) is a row of that field … -/
theorem rowField_gatherRow (c : Fin 8192) (fld : Fin 26) : rowField (gatherRow c fld) = fld :=
  Fin.ext (by
    show ((c.val / 8 * 26 + fld.val) * 8 + c.val % 8) % 208 / 8 = fld.val
    have := fld.isLt
    omega)

/-- … and of that sample. -/
theorem rowBatch_gatherRow (h : Fin 2) (c : Fin 8192) (fld : Fin 26) :
    (rowBatch h (gatherRow c fld)).val = 8192 * h.val + c.val := by
  show 8192 * h.val + 8 * (((c.val / 8 * 26 + fld.val) * 8 + c.val % 8) / 208) + ((c.val / 8 * 26 + fld.val) * 8 + c.val % 8) % 8
    = 8192 * h.val + c.val
  have := fld.isLt
  omega

/-- The gathered rows read where the transposed result reads them. -/
theorem embRows_gatherRow (xcat : (⟨S16384x26, .i32⟩ : BufTy).Contents (Elt Ideal))
    (tables : (⟨S26x1000x128, .f32⟩ : BufTy).Contents (Elt Ideal)) (h : Fin 2) (c : Fin 8192) (fld : Fin 26) (dd : Fin 128)
    (b : Fin 16384) (hb : b.val = 8192 * h.val + c.val) :
    embRows xcat tables h (ix2 (gatherRow c fld) dd) = tables (ix3 fld (catRow (xcat (ix2 b fld))) dd) := by
  have e2 : rowBatch h (gatherRow c fld) = b := Fin.ext ((rowBatch_gatherRow h c fld).trans hb.symm)
  rw [embRows_apply]
  unfold embRowsAt
  rw [rowField_gatherRow, e2]

/-- THE KERNEL'S RESULT IS THE SPECIFICATION, given that each half's gather leaves the rows `embRows` states. -/
theorem outK_eq_G (xcat : (⟨S16384x26, .i32⟩ : BufTy).Contents (Elt Ideal)) (xcont : (⟨S16384x13, .f32⟩ : BufTy).Contents (Elt Ideal))
    (tables : (⟨S26x1000x128, .f32⟩ : BufTy).Contents (Elt Ideal)) (cmin cmax : (⟨S13, .f32⟩ : BufTy).Contents (Elt Ideal)) :
    outK (embRows xcat tables 0) (embRows xcat tables 1) xcont cmin cmax = G xcat xcont tables cmin cmax := by
  funext i
  obtain ⟨b, j, rfl⟩ : ∃ (b : Fin 16384) (j : Fin 3341), i = ix2 b j := ⟨i 0, i 1, eq_ix2 i⟩
  rw [G_apply, outK_apply]
  unfold asmTAt Gat
  by_cases hj : j.val < 3328
  · rw [dif_pos hj, dif_pos hj]
    by_cases hb : b.val < 8192
    · rw [if_pos hb]
      exact embRows_gatherRow xcat tables 0 (inHalf b) (fieldOf j hj) (laneOf j) b (by
        show b.val = 8192 * 0 + b.val % 8192
        omega)
    · rw [if_neg hb]
      exact embRows_gatherRow xcat tables 1 (inHalf b) (fieldOf j hj) (laneOf j) b (by
        show b.val = 8192 * 1 + b.val % 8192
        have := b.isLt
        omega)
  · rw [dif_neg hj, dif_neg hj]

end Cert.KSpec

end
-- ==== Proof.KernelHost.lean ====
/-
  The host operations around the kernel's calls, each read at an index, and the gathered row in words. The flattened
  table's row fld·1000 + c is row c of field fld's table; half h of the categories, flattened, holds at position p
  the category of sample 8192·h + p / 26 at field p % 26; the transposed continuous columns, the bounds as columns
  [13, 1], the halves' column slices and the final transpose read where their names say. A gathered row q = 208·W +
  8·fld + s takes its row number from position 208·W + 26·s + fld of the flattened categories — sample 8·W + s of the
  half at field fld — plus 1000·fld; for a category below 1000 that sum does not wrap as a 32-bit word, and the row of
  the flattened table with that number is the row the specification of the gathered rows names.
-/
import proofs.«202673_g7318624272670_cont_9to1c4b_526_24_alg».proof.Proof.KernelValue
import Idealize.ShloMosaic.Lib.ValueLayout
import Idealize.ShloMosaic.Lib.Pipeline.Value

noncomputable section

namespace Cert.KSpec

open Idealize.ShloMosaic Idealize.ShloMosaic.ValueIdx Cert.Spec

abbrev S26000x128 : Shape := ⟨2, ![26000, 128]⟩
abbrev S13x16384 : Shape := ⟨2, ![13, 16384]⟩
abbrev S13x1 : Shape := ⟨2, ![13, 1]⟩
abbrev S8192x26 : Shape := ⟨2, ![8192, 26]⟩
abbrev S212992 : Shape := ⟨1, ![212992]⟩
abbrev S13x8192 : Shape := ⟨2, ![13, 8192]⟩

variable {α : Type}

/-! ## The host operations at an index -/

/-- The tables [26, 1000, 128] reshaped to [26000, 128]: row fld·1000 + c is row c of field fld's table. -/
theorem flat_apply (tables : S26x1000x128.Idx → α) (h : S26x1000x128.ShapeCasts S26000x128) (r : Fin 26000) (dd : Fin 128)
    (fld : Fin 26) (c : Fin 1000) (hr : r.val = fld.val * 1000 + c.val) :
    shapeCast S26000x128 tables h (ix2 r dd) = tables (ix3 fld c dd) :=
  shapeCast_apply tables h _ _ (by
    rw [Shape.rowMajor_val_three, Shape.rowMajor_val_two]
    show (fld.val * 1000 + c.val) * 128 + dd.val = r.val * 128 + dd.val
    rw [hr])

/-- Rows o … o + 8191 of the categories, flattened: position p holds sample o + p / 26 at field p % 26. -/
theorem idxHalf_apply (xcat : S16384x26.Idx → α) (o : Nat) (hs : S16384x26.Slices ![o, 0] S8192x26)
    (hc : S8192x26.ShapeCasts S212992) (p : Fin 212992) (b : Fin 16384) (f : Fin 26)
    (hb : b.val = o + p.val / 26) (hf : f.val = p.val % 26) :
    shapeCast S212992 (extractStridedSlice S8192x26 ![o, 0] xcat hs) hc (ix1 p) = xcat (ix2 b f) := by
  have hp := p.isLt
  refine (shapeCast_apply _ hc (ix1 p)
    (ix2 (⟨p.val / 26, by omega⟩ : Fin 8192) (⟨p.val % 26, Nat.mod_lt _ (by decide)⟩ : Fin 26)) (by
      rw [Shape.rowMajor_val_two, Shape.rowMajor_val_one]
      show p.val / 26 * 26 + p.val % 26 = p.val
      omega)).trans ?_
  refine extractStridedSlice_apply _ xcat hs _ (ix2 b f) (fun a => ?_)
  match a with
  | ⟨0, _⟩ => exact hb
  | ⟨1, _⟩ =>
    show f.val = 0 + p.val % 26
    omega

/-- The continuous columns transposed to [13, 16384]. -/
theorem xcontT_apply (xcont : S16384x13.Idx → α) (h : S16384x13.Transposes [1, 0] S13x16384) (k : Fin 13) (col : Fin 16384) :
    transpose S13x16384 [1, 0] xcont h (ix2 k col) = xcont (ix2 col k) :=
  transpose_ix2_apply xcont h k col

/-- A bound vector [13] as a column [13, 1]. -/
theorem col13_apply (v : S13.Idx → α) (h : S13.ShapeCasts S13x1) (k : Fin 13) (z : Fin 1) :
    shapeCast S13x1 v h (ix2 k z) = v (ix1 k) :=
  shapeCast_apply v h _ _ (by
    rw [Shape.rowMajor_val_one, Shape.rowMajor_val_two]
    show k.val = k.val * 1 + z.val
    omega)

/-- Columns o … o + 8191 of a [13, 16384] array. -/
theorem sliceCols_apply (v : S13x16384.Idx → α) (o : Nat) (h : S13x16384.Slices ![0, o] S13x8192) (k : Fin 13) (c : Fin 8192)
    (col : Fin 16384) (hcol : col.val = o + c.val) :
    extractStridedSlice S13x8192 ![0, o] v h (ix2 k c) = v (ix2 k col) := by
  refine extractStridedSlice_apply _ v h _ (ix2 k col) (fun a => ?_)
  match a with
  | ⟨0, _⟩ =>
    show k.val = 0 + k.val
    omega
  | ⟨1, _⟩ => exact hcol

/-- The two together: a half's block of the transposed continuous columns reads sample o + c, column k. -/
theorem xcT_apply (xcont : S16384x13.Idx → α) (ht : S16384x13.Transposes [1, 0] S13x16384) (o : Nat)
    (hs : S13x16384.Slices ![0, o] S13x8192) (k : Fin 13) (c : Fin 8192) (col : Fin 16384) (hcol : col.val = o + c.val) :
    extractStridedSlice S13x8192 ![0, o] (transpose S13x16384 [1, 0] xcont ht) hs (ix2 k c) = xcont (ix2 col k) :=
  (sliceCols_apply _ o hs k c col hcol).trans (xcontT_apply xcont ht k col)

/-- The final transpose [3341, 16384] → [16384, 3341]. -/
theorem outT_apply (outT : S3341x16384.Idx → α) (h : S3341x16384.Transposes [1, 0] S16384x3341) (b : Fin 16384) (j : Fin 3341) :
    transpose S16384x3341 [1, 0] outT h (ix2 b j) = outT (ix2 j b) :=
  transpose_ix2_apply outT h b j

/-- So the final transpose of the transposed result is the kernel's result. -/
theorem transpose_asmT (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (h : S3341x16384.Transposes [1, 0] S16384x3341) :
    transpose S16384x3341 [1, 0] (asmT e0 e1 xcont cmin cmax) h = outK e0 e1 xcont cmin cmax := by
  funext i
  obtain ⟨b, j, rfl⟩ : ∃ (b : Fin 16384) (j : Fin 3341), i = ix2 b j := ⟨i 0, i 1, eq_ix2 i⟩
  rw [outT_apply]
  rfl

/-! ## One call's block of the transposed result, in the call's own operands -/

abbrev S3341x8192 : Shape := ⟨2, ![3341, 8192]⟩

/-- Columns 8192·h … 8192·h + 8191 of the transposed result as the second step computes them for half h: from the
    half's gathered rows `e`, its block `xcT` [13, 8192] of the transposed continuous columns, and the bounds as columns
    [13, 1]. -/
def tcBlockAt (e : (⟨S212992x128, .f32⟩ : BufTy).Contents (Elt Ideal)) (xcT : (⟨S13x8192, .f32⟩ : BufTy).Contents (Elt Ideal))
    (mn mx : (⟨S13x1, .f32⟩ : BufTy).Contents (Elt Ideal)) (r : Fin 3341) (c : Fin 8192) : EReal :=
  if hr : r.val < 3328 then
    e (ix2 (gatherRow c (fieldOf r hr)) (laneOf r))
  else
    Ideal.div (xcT (ix2 (contOf r hr) c) - mn (ix2 (contOf r hr) (0 : Fin 1)))
      (mx (ix2 (contOf r hr) (0 : Fin 1)) - mn (ix2 (contOf r hr) (0 : Fin 1)))

/-- The block as an array [3341, 8192]. -/
def tcBlock (e : (⟨S212992x128, .f32⟩ : BufTy).Contents (Elt Ideal)) (xcT : (⟨S13x8192, .f32⟩ : BufTy).Contents (Elt Ideal))
    (mn mx : (⟨S13x1, .f32⟩ : BufTy).Contents (Elt Ideal)) : (⟨S3341x8192, .f32⟩ : BufTy).Contents (Elt Ideal) :=
  fun i => tcBlockAt e xcT mn mx ⟨(i 0).val, idx2_lt0 i⟩ ⟨(i 1).val, idx2_lt1 i⟩

theorem tcBlock_apply (e : (⟨S212992x128, .f32⟩ : BufTy).Contents (Elt Ideal)) (xcT : (⟨S13x8192, .f32⟩ : BufTy).Contents (Elt Ideal))
    (mn mx : (⟨S13x1, .f32⟩ : BufTy).Contents (Elt Ideal)) (r : Fin 3341) (c : Fin 8192) :
    tcBlock e xcT mn mx (ix2 r c) = tcBlockAt e xcT mn mx r c := rfl

/-- The continuous rows of a block, over the host's operands, are the transposed result's. -/
theorem tcBlock_cont (xcont : (⟨S16384x13, .f32⟩ : BufTy).Contents (Elt Ideal)) (cmin cmax : (⟨S13, .f32⟩ : BufTy).Contents (Elt Ideal))
    (ht : S16384x13.Transposes [1, 0] S13x16384) (hm : S13.ShapeCasts S13x1) (o : Nat) (hs : S13x16384.Slices ![0, o] S13x8192)
    (k : Fin 13) (c : Fin 8192) (col : Fin 16384) (hcol : col.val = o + c.val) :
    Ideal.div
        (extractStridedSlice S13x8192 ![0, o] (transpose S13x16384 [1, 0] xcont ht) hs (ix2 k c) - shapeCast S13x1 cmin hm (ix2 k (0 : Fin 1)))
        (shapeCast S13x1 cmax hm (ix2 k (0 : Fin 1)) - shapeCast S13x1 cmin hm (ix2 k (0 : Fin 1)))
      = Ideal.div (xcont (ix2 col k) - cmin (ix1 k)) (cmax (ix1 k) - cmin (ix1 k)) := by
  rw [xcT_apply xcont ht o hs k c col hcol, col13_apply, col13_apply]

/-- The transposed result on the first half's columns is the first call's block over the host's operands … -/
theorem asmTAt_half0 (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (ht : S16384x13.Transposes [1, 0] S13x16384) (hm : S13.ShapeCasts S13x1)
    (hs : S13x16384.Slices ![0, 0] S13x8192) (r : Fin 3341) (c : Fin 8192) (col : Fin 16384) (hcol : col.val = c.val) :
    asmTAt e0 e1 xcont cmin cmax r col
      = tcBlockAt e0 (extractStridedSlice S13x8192 ![0, 0] (transpose S13x16384 [1, 0] xcont ht) hs) (shapeCast S13x1 cmin hm)
          (shapeCast S13x1 cmax hm) r c := by
  have hc := c.isLt
  have hlt : col.val < 8192 := by omega
  have hin : inHalf col = c := Fin.ext (by show col.val % 8192 = c.val; omega)
  unfold asmTAt tcBlockAt
  by_cases hr : r.val < 3328
  · rw [dif_pos hr, dif_pos hr, if_pos hlt, hin]
  · rw [dif_neg hr, dif_neg hr]
    exact (tcBlock_cont xcont cmin cmax ht hm 0 hs (contOf r hr) c col (by omega)).symm

/-- … and on the second half's columns the second call's. -/
theorem asmTAt_half1 (e0 e1 : (⟨S212992x128, .f32⟩ : BufTy).Contents (Elt Ideal)) (xcont : (⟨S16384x13, .f32⟩ : BufTy).Contents (Elt Ideal))
    (cmin cmax : (⟨S13, .f32⟩ : BufTy).Contents (Elt Ideal)) (ht : S16384x13.Transposes [1, 0] S13x16384) (hm : S13.ShapeCasts S13x1)
    (hs : S13x16384.Slices ![0, 8192] S13x8192) (r : Fin 3341) (c : Fin 8192) (col : Fin 16384) (hcol : col.val = 8192 + c.val) :
    asmTAt e0 e1 xcont cmin cmax r col
      = tcBlockAt e1 (extractStridedSlice S13x8192 ![0, 8192] (transpose S13x16384 [1, 0] xcont ht) hs) (shapeCast S13x1 cmin hm)
          (shapeCast S13x1 cmax hm) r c := by
  have hc := c.isLt
  have hge : ¬ col.val < 8192 := by omega
  have hin : inHalf col = c := Fin.ext (by show col.val % 8192 = c.val; omega)
  unfold asmTAt tcBlockAt
  by_cases hr : r.val < 3328
  · rw [dif_pos hr, dif_pos hr, if_neg hge, hin]
  · rw [dif_neg hr, dif_neg hr]
    exact (tcBlock_cont xcont cmin cmax ht hm 8192 hs (contOf r hr) c col hcol).symm

/-! ## The position a gathered row takes its category from -/

/-- Gathered row q = 208·W + 8·fld + s reads the flattened categories at 208·W + 26·s + fld. -/
abbrev idxPos (q : Fin 212992) : Fin 212992 :=
  ⟨208 * (q.val / 208) + 26 * (q.val % 8) + q.val % 208 / 8, by have := q.isLt; omega⟩

/-- That position holds the category of the row's sample at the row's field (the half's offset `o` = 8192·h). -/
theorem idxHalf_tile (xcat : S16384x26.Idx → α) (h : Fin 2) (o : Nat) (ho : o = 8192 * h.val)
    (hs : S16384x26.Slices ![o, 0] S8192x26) (hc : S8192x26.ShapeCasts S212992) (q : Fin 212992) :
    shapeCast S212992 (extractStridedSlice S8192x26 ![o, 0] xcat hs) hc (ix1 (idxPos q))
      = xcat (ix2 (rowBatch h q) (rowField q)) :=
  idxHalf_apply xcat o hs hc (idxPos q) (rowBatch h q) (rowField q)
    (by
      show 8192 * h.val + 8 * (q.val / 208) + q.val % 8 = o + (208 * (q.val / 208) + 26 * (q.val % 8) + q.val % 208 / 8) / 26
      omega)
    (by
      show q.val % 208 / 8 = (208 * (q.val / 208) + 26 * (q.val % 8) + q.val % 208 / 8) % 26
      omega)

/-! ## The row number as a word -/

/-- 1000 times a field, as a 32-bit product, in either order. -/
theorem field1000_toNat (f : Fin 26) : (BitVec.ofNat 32 f.val * 1000#32).toNat = f.val * 1000 := by
  rw [BitVec.toNat_mul, BitVec.toNat_ofNat]
  have e : (1000#32 : BitVec 32).toNat = 1000 := by decide
  rw [e]
  have := f.isLt
  omega
theorem field1000_toNat' (f : Fin 26) : (1000#32 * BitVec.ofNat 32 f.val).toNat = f.val * 1000 := by
  rw [BitVec.mul_comm]
  exact field1000_toNat f

/-- A category below 1000 plus 1000·fld does not wrap, and is a row number of the flattened table. -/
theorem rowSum_toNat (x y : BitVec 32) (f : Fin 26) (hx : x.toNat ≤ 999) (hy : y.toNat = f.val * 1000) :
    (x + y).toNat = f.val * 1000 + x.toNat := by
  rw [BitVec.toNat_add, hy]
  have := f.isLt
  omega
theorem rowSum_lt (x y : BitVec 32) (f : Fin 26) (hx : x.toNat ≤ 999) (hy : y.toNat = f.val * 1000) : (x + y).toNat < 26000 := by
  rw [rowSum_toNat x y f hx hy]
  have := f.isLt
  omega
/-- The same read signed: the word is not negative. -/
theorem rowSum_toInt (x y : BitVec 32) (f : Fin 26) (hx : x.toNat ≤ 999) (hy : y.toNat = f.val * 1000) :
    (x + y).toInt = ((f.val * 1000 + x.toNat : Nat) : Int) := by
  have h := rowSum_toNat x y f hx hy
  have h3 := BitVec.toInt_eq_toNat_cond (x + y)
  have := f.isLt
  split at h3 <;> omega

/-- The flattened table at the row number category + 1000·fld is the field's table at the category. -/
theorem flat_rowSum (tables : S26x1000x128.Idx → α) (h : S26x1000x128.ShapeCasts S26000x128) (x y : BitVec 32) (f : Fin 26)
    (dd : Fin 128) (hx : x.toNat ≤ 999) (hy : y.toNat = f.val * 1000) (r : Fin 26000) (hr : r.val = (x + y).toNat) :
    shapeCast S26000x128 tables h (ix2 r dd) = tables (ix3 f (catRow x) dd) :=
  flat_apply tables h r dd f (catRow x) (by
    rw [hr, rowSum_toNat x y f hx hy]
    show f.val * 1000 + x.toNat = f.val * 1000 + x.toNat % 1000
    omega)

/-- THE GATHERED ROW IS THE SPECIFIED ONE: the flattened table's row whose number is (the category at the row's position
    of the flattened half) + 1000·(the row's field) is row q of `embRows`, for a category below 1000. -/
theorem gathered_eq_embRows (xcat : (⟨S16384x26, .i32⟩ : BufTy).Contents (Elt Ideal))
    (tables : (⟨S26x1000x128, .f32⟩ : BufTy).Contents (Elt Ideal)) (hh : Fin 2)
    (hflat : S26x1000x128.ShapeCasts S26000x128) (q : Fin 212992) (dd : Fin 128) (y : BitVec 32)
    (hy : y.toNat = (rowField q).val * 1000) (hx : (xcat (ix2 (rowBatch hh q) (rowField q))).toNat ≤ 999)
    (r : Fin 26000) (hr : r.val = (xcat (ix2 (rowBatch hh q) (rowField q)) + y).toNat) :
    shapeCast S26000x128 tables hflat (ix2 r dd) = embRows xcat tables hh (ix2 q dd) :=
  flat_rowSum tables hflat _ y (rowField q) dd hx hy r hr

end Cert.KSpec

end
-- ==== Proof.ScBaseI.lean ====
import proofs.«202673_g7318624272670_cont_9to1c4b_526_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202673_g7318624272670_cont_9to1c4b_526_24_alg».proof.Proof.Gen.KernelIdeal

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it: two vector-subcore calls beside two TensorCore pipelines -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev URp : Type := Idealize.ShloMosaic.UR sig nD τ
abbrev UU : Type := UH × (URp × Counters)

abbrev EH : Emb UH (MT nD τ sig (HIx 2) (Elt F) ℕ UU ℕ) := embL
abbrev ER : Emb URp (MT nD τ sig (HIx 2) (Elt F) ℕ UU ℕ) := (Emb.inl : Emb URp (URp × Counters)).trans embR
instance ER_landsIn : (ER : Emb URp (MT nD τ sig (HIx 2) (Elt F) ℕ UU ℕ)).LandsIn (upEmb : UEmb _ (MT nD τ sig (HIx 2) (Elt F) ℕ UU ℕ)) := by unfold ER; infer_instance

end Cert.Proof.ScI

end
-- ==== Proof.ScSetsI0.lean ====
import proofs.«202673_g7318624272670_cont_9to1c4b_526_24_alg».proof.Proof.Gen.KernelIdeal

/-! The pieces of the two HBM arrays a vector subcore's task touches in call 0: its 6656 words of the flat index list, and
    the 52 blocks of 128 rows of the gathered array (13 trips of 4 slots) it writes. -/

noncomputable section

namespace Cert.Proof.ScI0

open Cert.KernelIdeal Cert.KernelIdeal.Gen Idealize.ShloMosaic

/-- The grid point of SparseCore `c`, vector subcore `s`. -/
abbrev coordsV (c : Fin (grid0.bound 0)) (s : Fin (grid0.bound 1)) : grid0.Coords :=
  fun | 0 => c | 1 => s | ⟨_ + 2, h⟩ => absurd h (Nat.not_lt.2 (Nat.le_add_left _ _))

/-- The task's words of the flat index list, as the kernel slices them. -/
abbrev idxSl (L : grid0.Coords) : Memref sig .scVector .hbm S6656 .i32 :=
  (Memref.whole main_v5_scv : Memref sig .scVector .hbm S212992 .i32).slice (Rect.unit (s := S212992) (k0_off1 L) S6656.size (k0_off1_inb L)) (fun _ => rfl)

/-- Block `4 t + r` of the task's rows of the gathered array, as the kernel slices it for slot `r` of trip `t`. -/
abbrev chunk0 (L : grid0.Coords) (t : Fin k0_t2_loop.trips) : Memref sig .scVector .hbm S128x128 .f32 :=
  (Memref.whole main_v6_scv : Memref sig .scVector .hbm S212992x128 .f32).slice (Rect.unit (s := S212992x128) (k0_off20 L t 0#32) S128x128.size (k0_off20_inb L t 0)) (fun _ => rfl)
abbrev chunk1 (L : grid0.Coords) (t : Fin k0_t2_loop.trips) : Memref sig .scVector .hbm S128x128 .f32 :=
  (Memref.whole main_v6_scv : Memref sig .scVector .hbm S212992x128 .f32).slice (Rect.unit (s := S212992x128) (k0_off20 L t 1#32) S128x128.size (k0_off20_inb L t 1)) (fun _ => rfl)
abbrev chunk2 (L : grid0.Coords) (t : Fin k0_t2_loop.trips) : Memref sig .scVector .hbm S128x128 .f32 :=
  (Memref.whole main_v6_scv : Memref sig .scVector .hbm S212992x128 .f32).slice (Rect.unit (s := S212992x128) (k0_off20 L t 2#32) S128x128.size (k0_off20_inb L t 2)) (fun _ => rfl)
abbrev chunk3 (L : grid0.Coords) (t : Fin k0_t2_loop.trips) : Memref sig .scVector .hbm S128x128 .f32 :=
  (Memref.whole main_v6_scv : Memref sig .scVector .hbm S212992x128 .f32).slice (Rect.unit (s := S212992x128) (k0_off20 L t 3#32) S128x128.size (k0_off20_inb L t 3)) (fun _ => rfl)

end Cert.Proof.ScI0

end
-- ==== Proof.ScResI0.lean ====
import proofs.«202673_g7318624272670_cont_9to1c4b_526_24_alg».proof.Proof.ScBaseI
import proofs.«202673_g7318624272670_cont_9to1c4b_526_24_alg».proof.Proof.ScSetsI0

noncomputable section

namespace Cert.Proof.ScI0

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-! ## What a task is handed and hands back -/

/-- Trip `t`'s four blocks of the task's rows of the gathered array, each at some contents. -/
def chunkRow (t : Fin k0_t2_loop.trips) : sProp 𝕄 :=
  iprop((∃ f, (chunk0 L t).view.loc (thr d L) ↦[(chunk0 L t).view.set]{fullShare} f)
    ∗ (∃ f, (chunk1 L t).view.loc (thr d L) ↦[(chunk1 L t).view.set]{fullShare} f)
    ∗ (∃ f, (chunk2 L t).view.loc (thr d L) ↦[(chunk2 L t).view.set]{fullShare} f)
    ∗ (∃ f, (chunk3 L t).view.loc (thr d L) ↦[(chunk3 L t).view.set]{fullShare} f))

/-- The task's operands: four read tokens of the table (one per gather semaphore), its words of the index list at
    contents `fi`, its rows of the gathered array. The same come back, the rows at whatever the task wrote. -/
def tileRes (qT : PosShare TreeShare) (ft : Buf (Elt F) ((tblW).view.loc (thr d L))) (fi : Buf (Elt F) ((idxW).view.loc (thr d L))) : sProp 𝕄 :=
  iprop(((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ ((idxSl L).view.loc (thr d L) ↦[(idxSl L).view.set]{fullShare} fi)
    ∗ bigSep Finset.univ (chunkRow d L))

end Tile

end Cert.Proof.ScI0

end
-- ==== Proof.ScSetsI1.lean ====
import proofs.«202673_g7318624272670_cont_9to1c4b_526_24_alg».proof.Proof.Gen.KernelIdeal

/-! The pieces of the two HBM arrays a vector subcore's task touches in call 1: its 6656 words of the flat index list, and
    the 52 blocks of 128 rows of the gathered array (13 trips of 4 slots) it writes. -/

noncomputable section

namespace Cert.Proof.ScI1

open Cert.KernelIdeal Cert.KernelIdeal.Gen Idealize.ShloMosaic

/-- The grid point of SparseCore `c`, vector subcore `s`. -/
abbrev coordsV (c : Fin (grid1.bound 0)) (s : Fin (grid1.bound 1)) : grid1.Coords :=
  fun | 0 => c | 1 => s | ⟨_ + 2, h⟩ => absurd h (Nat.not_lt.2 (Nat.le_add_left _ _))

/-- The task's words of the flat index list, as the kernel slices them. -/
abbrev idxSl (L : grid1.Coords) : Memref sig .scVector .hbm S6656 .i32 :=
  (Memref.whole main_v8_scv : Memref sig .scVector .hbm S212992 .i32).slice (Rect.unit (s := S212992) (k1_off1 L) S6656.size (k1_off1_inb L)) (fun _ => rfl)

/-- Block `4 t + r` of the task's rows of the gathered array, as the kernel slices it for slot `r` of trip `t`. -/
abbrev chunk0 (L : grid1.Coords) (t : Fin k1_t2_loop.trips) : Memref sig .scVector .hbm S128x128 .f32 :=
  (Memref.whole main_v9_scv : Memref sig .scVector .hbm S212992x128 .f32).slice (Rect.unit (s := S212992x128) (k1_off20 L t 0#32) S128x128.size (k1_off20_inb L t 0)) (fun _ => rfl)
abbrev chunk1 (L : grid1.Coords) (t : Fin k1_t2_loop.trips) : Memref sig .scVector .hbm S128x128 .f32 :=
  (Memref.whole main_v9_scv : Memref sig .scVector .hbm S212992x128 .f32).slice (Rect.unit (s := S212992x128) (k1_off20 L t 1#32) S128x128.size (k1_off20_inb L t 1)) (fun _ => rfl)
abbrev chunk2 (L : grid1.Coords) (t : Fin k1_t2_loop.trips) : Memref sig .scVector .hbm S128x128 .f32 :=
  (Memref.whole main_v9_scv : Memref sig .scVector .hbm S212992x128 .f32).slice (Rect.unit (s := S212992x128) (k1_off20 L t 2#32) S128x128.size (k1_off20_inb L t 2)) (fun _ => rfl)
abbrev chunk3 (L : grid1.Coords) (t : Fin k1_t2_loop.trips) : Memref sig .scVector .hbm S128x128 .f32 :=
  (Memref.whole main_v9_scv : Memref sig .scVector .hbm S212992x128 .f32).slice (Rect.unit (s := S212992x128) (k1_off20 L t 3#32) S128x128.size (k1_off20_inb L t 3)) (fun _ => rfl)

end Cert.Proof.ScI1

end
-- ==== Proof.ScResI1.lean ====
import proofs.«202673_g7318624272670_cont_9to1c4b_526_24_alg».proof.Proof.ScBaseI
import proofs.«202673_g7318624272670_cont_9to1c4b_526_24_alg».proof.Proof.ScSetsI1

noncomputable section

namespace Cert.Proof.ScI1

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

variable [FloatOps F]

section Tile
variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

/-! ## What a task is handed and hands back -/

/-- Trip `t`'s four blocks of the task's rows of the gathered array, each at some contents. -/
def chunkRow (t : Fin k1_t2_loop.trips) : sProp 𝕄 :=
  iprop((∃ f, (chunk0 L t).view.loc (thr d L) ↦[(chunk0 L t).view.set]{fullShare} f)
    ∗ (∃ f, (chunk1 L t).view.loc (thr d L) ↦[(chunk1 L t).view.set]{fullShare} f)
    ∗ (∃ f, (chunk2 L t).view.loc (thr d L) ↦[(chunk2 L t).view.set]{fullShare} f)
    ∗ (∃ f, (chunk3 L t).view.loc (thr d L) ↦[(chunk3 L t).view.set]{fullShare} f))

/-- The task's operands: four read tokens of the table (one per gather semaphore), its words of the index list at
    contents `fi`, its rows of the gathered array. The same come back, the rows at whatever the task wrote. -/
def tileRes (qT : PosShare TreeShare) (ft : Buf (Elt F) ((tblW).view.loc (thr d L))) (fi : Buf (Elt F) ((idxW).view.loc (thr d L))) : sProp 𝕄 :=
  iprop(((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ ((idxSl L).view.loc (thr d L) ↦[(idxSl L).view.set]{fullShare} fi)
    ∗ bigSep Finset.univ (chunkRow d L))

end Tile

end Cert.Proof.ScI1

end
-- ==== Proof.TcBody2.lean ====
/-
  The first TensorCore kernel body (the assembly of the first half of the batch), run once at a symbolic grid point
  and on any five whole staging memrefs.

  The body reads, for each of the 26 embedding fields, 64 row groups of 8 × 128 out of the staged block of gathered
  rows (13312 × 128: row group j of field f sits at row (26 j + f) · 8), stacks them to 512 × 128, transposes to
  128 × 512 and stores the result at rows 128 f … 128 f + 127 of the staged output block (3341 × 512); it then stores,
  at rows 3328 … 3340, the thirteen dense features scaled by (x − mn) / (mx − mn), the bounds broadcast from 13 × 1.
  Every store is preceded by a load of the rectangle it overwrites, whose value is not used.  The 27 stored
  rectangles tile the output block, so what the block holds afterwards does not depend on what it held before: it is
  the witness the run finds, a term over the four input buffers' contents alone.
-/
import proofs.«202673_g7318624272670_cont_9to1c4b_526_24_alg».proof.Proof.Gen.KernelIdeal.Skeleton
import Idealize.ShloMosaic.Lib.Tactic
import Idealize.ShloMosaic.Lib.SparseCore.Cells

noncomputable section

namespace Cert.Proof.Tc2

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]
variable {U : Type} [URA U]

local notation "𝕄" => MT nD τ sig (HIx 2) (Elt F) ℕ U ℕ

/-- Memref `M`'s buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block's buffer `M5`, as a term over the contents `f1 … f4` of the four input
    buffers (the gathered rows, the dense features, the two bounds), WITH the proof that from the five buffers held
    whole — the output's at anything — the body runs to its return handing the inputs back as they were and the
    output's buffer at that term. -/
noncomputable def bodyRun (c : Dev nD) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (f1 : Bf (F := F) c M1) (f2 : Bf (F := F) c M2) (f3 : Bf (F := F) c M3) (f4 : Bf (F := F) c M4) :
    { W : Bf (F := F) c M5 //
      ∀ (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 f4 ∗ pt c M5 W) -∗ Q ⟨⟩))
        ⊢ wp frame (wpE (defs₀ (F := F)) Variants.none c none) E (cc2_body i M1 h1 M2 h2 M3 h3 M4 h4 M5 h5) Q } := by
  refine ⟨?_, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.Proof.Tc2

end
-- ==== Proof.TcRegion2.lean ====
/-
  The first TensorCore kernel region of @main (the pipeline of custom call 2, pipeline 0) as ONE STEP of @main on the
  TensorCore, inside a program that also runs SparseCore calls.

  The region is entered through the pipeline library's region rule.  What it needs of the thread at that line:
  the region boundary whole (the scoped buffers, among them the pipeline's eight staging buffers; the scoped
  semaphores at zero, among them its eight DMA semaphores; the idle operation slot), the five window arrays
  (the gathered rows, the slice of the dense features, the two bounds, the result) whole at the full share, that the
  thread owes nothing, and the rounds ghost state of the pipeline's eight staging cells with the duty tokens of the
  transfers its loop issues — dealt at launch (`Pipeline.fund_ghost`); the cells' invariants are allocated here,
  from the cells' counters at zero.  It hands back the boundary, the arrays at what the pipeline library computes
  from the proof data (the inputs unchanged, the result with the sixteen blocks written back), and the thread
  owing nothing, its recorded waits grown by the loop's own (on the staging semaphores, at index `none`).
-/
import proofs.«202673_g7318624272670_cont_9to1c4b_526_24_alg».proof.Proof.Gen.KernelIdeal.Launch
import proofs.«202673_g7318624272670_cont_9to1c4b_526_24_alg».proof.Proof.Gen.KernelIdeal.Points
import Idealize.ShloMosaic.Lib.SparseCore.Launch
import Idealize.ShloMosaic.Lib.Pipeline.FrameBody

noncomputable section

namespace Cert.Proof.Tc2

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- The variants every thread of the program runs under: the pipeline library's, over no kernel variant. -/
abbrev 𝒱 : Variants := Variants.lift Variants.none

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (W₀ : Dev nD → Finset (SemLoc sig × HIx 2))
  (out : (c : Dev nD) → Fin cfg2.N → (cfg2.win 4).block.Idx → Elt F (cfg2.win 4).elt)

/-- The proof data of the region on core `c`: the arrays as the region finds them; after the body each input's buffer at
    its block and the result's at `out c t`; the invariant the scoped buffers the pipeline does not stage; nothing owed,
    the waits recorded before the region within `W₀ c`; full shares. -/
def dat2 (c : Dev nD) : Dat τ (Elt F) (HIx 2) ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out c t
  Φ _ := Pipeline.scopedRest spec2 c
  q _ := fullShare
  owed _ := 0
  recorded _ := ↑(W₀ c)

/-- Proof data for the other pipeline, which this region does not run: only its type matters here. -/
def datIdle3 (c : Dev nD) : Dat τ (Elt F) (HIx 2) ℕ U ℕ cfg3 c where
  A w := V c (Pipeline.arrRef spec3 w)
  after _ _ := fun _ => Classical.arbitrary _
  Φ _ := iprop(emp)
  q _ := fullShare
  owed _ := 0

/-- The family the library's rules are stated over: this region's data at pipeline 0. -/
def dats0 : (p : Fin 2) → (c : Dev nD) → Dat τ (Elt F) (HIx 2) ℕ U ℕ (cfgs p) c
  | ⟨0, _⟩ => fun c => dat2 V W₀ out c
  | ⟨1, _⟩ => fun c => datIdle3 V c

theorem share2 (c : Dev nD) (w : Fin cfg2.W) : (dat2 (U := U) V W₀ out c).share w = fullShare := by
  unfold Dat.share; split <;> rfl

/-! ## What the proof data says, window by window -/

theorem A2 (c : Dev nD) (w : Fin cfg2.W) : (dat2 (U := U) V W₀ out c).A w = V c (Pipeline.arrRef spec2 w) := by dsimp only [dat2]
theorem after2_0 (c : Dev nD) (t : Fin cfg2.N) : (dat2 (U := U) V W₀ out c).after 0 t = iblk2 V c 0 t := by dsimp only [dat2]
theorem after2_1 (c : Dev nD) (t : Fin cfg2.N) : (dat2 (U := U) V W₀ out c).after 1 t = iblk2 V c 1 t := by dsimp only [dat2]
theorem after2_2 (c : Dev nD) (t : Fin cfg2.N) : (dat2 (U := U) V W₀ out c).after 2 t = iblk2 V c 2 t := by dsimp only [dat2]
theorem after2_3 (c : Dev nD) (t : Fin cfg2.N) : (dat2 (U := U) V W₀ out c).after 3 t = iblk2 V c 3 t := by dsimp only [dat2]
theorem after2_4 (c : Dev nD) (t : Fin cfg2.N) : (dat2 (U := U) V W₀ out c).after 4 t = out c t := by dsimp only [dat2]

/-- An input window's current staging buffer holds the array's block of the point, whether the pipeline fetched it there
    or not (the two bounds are fetched once: their block index never moves). -/
theorem before2_0 (c : Dev nD) (t : Fin cfg2.N) (d) : (dat2 (U := U) V W₀ out c).before 0 t d = iblk2 V c 0 t :=
  ((dat2 (U := U) V W₀ out c).before_in_eq_fetched 0 rfl (fun _ => rfl) (fun _ _ _ => rfl)
    (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 (U := U) V W₀ out c).before 1 t d = iblk2 V c 1 t :=
  ((dat2 (U := U) V W₀ out c).before_in_eq_fetched 1 rfl (fun _ => rfl) (fun _ _ _ => rfl)
    (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 (U := U) V W₀ out c).before 2 t d = iblk2 V c 2 t :=
  ((dat2 (U := U) V W₀ out c).before_in_eq_fetched 2 rfl (fun _ => rfl) (fun _ _ _ => rfl)
    (fun t => by rw [after2_2]; unfold Dat.blockOf iblk2; rw [A2]; try rfl) t d).trans
    (by unfold Dat.fetched Dat.blockOf iblk2; rw [A2]; try rfl)
theorem before2_3 (c : Dev nD) (t : Fin cfg2.N) (d) : (dat2 (U := U) V W₀ out c).before 3 t d = iblk2 V c 3 t :=
  ((dat2 (U := U) V W₀ out c).before_in_eq_fetched 3 rfl (fun _ => rfl) (fun _ _ _ => rfl)
    (fun t => by rw [after2_3]; unfold Dat.blockOf iblk2; rw [A2]; try rfl) t d).trans
    (by unfold Dat.fetched Dat.blockOf iblk2; rw [A2]; try rfl)

theorem Φ0 (c : Dev nD) (t) : (dats0 (U := U) V W₀ out (0 : Fin 2) c).Φ t = Pipeline.scopedRest spec2 c := rfl
theorem owed0 (c : Dev nD) (t) : (dats0 (U := U) V W₀ out (0 : Fin 2) c).owed t = 0 := rfl
theorem bound0 (c : Dev nD) (t) : (dats0 (U := U) V W₀ out (0 : Fin 2) c).bound none t = ↑(W₀ c) ∪ cfg2.waitPairs none := rfl

/-! ## The region as a step of @main -/

variable (ER : Emb (UR sig nD τ) (MT nD τ sig (HIx 2) (Elt F) ℕ U ℕ))
  [ER.LandsIn (upEmb : UEmb _ (MT nD τ sig (HIx 2) (Elt F) ℕ U ℕ))]

/-- The region's five arrays on core `c`, each whole at the full share, at contents `G`. -/
abbrev arrs2 (c : Dev nD) (G : (w : Fin cfg2.W) → Buf (Elt F) (((cfg2).spec w).arr.view.loc (c : Thread nD τ))) : sProp 𝕄 :=
  bigSep Finset.univ fun w : Fin cfg2.W => (((c : Thread nD τ).loc (Pipeline.arrRef (cfg2).spec w)) ↦{fullShare} G w : sProp 𝕄)

/-- The pipeline prefetches no table: nothing is held for it. -/
theorem prefHeld_none0 (c : Dev nD) (q) :
    (iprop(emp) : sProp 𝕄) ⊢ Pipeline.prefHeld ((pcfgs (F := F) (0 : Fin 2)).pre) c q ((cfgs (0 : Fin 2)).toPCfg_adm (Val := Elt F)).1 := by
  unfold Pipeline.prefHeld
  rw [Finset.univ_eq_empty, BI.bigSep_empty]
  exact BI.Entails.refl _

set_option backward.isDefEq.respectTransparency.types false in
/-- **Region 0 as a step of @main.**  From the region boundary, the five arrays as the region finds them, the thread owing
    nothing (its recorded waits `W₀ d`), and the pipeline's launch ghost state, the custom call of pipeline 0's entry
    runs and the continuation `k` goes on from the boundary, the arrays at the proof data's final contents and the
    thread owing nothing, its recorded waits within `W₀ d` and the loop's own. -/
theorem region0 (hbody : ∀ c, BodyObligation (dat2 (U := U) V W₀ out c) (defs₀ (F := F)) Variants.none none Set.univ)
    (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs2 d (fun w => V d (Pipeline.arrRef spec2 w))
        ∗ owes (T d) (0 : CellTallies nD τ sig (HIx 2)) (W₀ d)
        ∗ Pipeline.cellsGhost cfgs ER (0 : Fin 2) d ∗ Pipeline.toksInit cfgs ER (0 : Fin 2) d
        ∗ (iprop(boundary (T d) ∗ arrs2 d (fun w => (dat2 (U := U) V W₀ out d).arrAt w cfg2.N)
              ∗ (dat2 (U := U) V W₀ out d).owesAt none (Fin.last cfg2.N))
            -∗ wp frame (wpE (defs (F := F)) 𝒱 (T d) none) Set.univ (k ⟨⟩) Q))
      ⊢ wp frame (wpE (defs (F := F)) 𝒱 (T d) none) Set.univ (.op (.customCall (SparseCore.inner (Pipeline.entry (0 : Fin 2))) ()) k) Q := by
  classical
  have hss := Pipeline.scopedSems0_split cfgs cellOf_inj (0 : Fin 2) winFacts2.to₀ (Pipeline.OwnSemFacts.none spec2)
    (Ix := HIx 2) (Val := Elt F) (Name := ℕ) (U := U) (Lvl := ℕ) d
  rw [Pipeline.ownSems0_none] at hss
  have hsb := Pipeline.scopedBufs_split cfgs (0 : Fin 2) winFacts2.stage_scoped winFacts2.stage_inj stage_whole2 d
    (τ := τ) (Ix := HIx 2) (Val := Elt F) (Name := ℕ) (U := U) (Lvl := ℕ)
  have harr := Pipeline.arrays_eq cfgs (dats0 (U := U) V W₀ out) (0 : Fin 2) d arr_whole2 (share2 V W₀ out d)
  iintro ⟨Hb, Harr, HO, Hg, Ht, Hk⟩
  -- the program: the lifted region, then the continuation
  rw [show (Prog.op (TpuEff.customCall (SparseCore.inner (Pipeline.entry (0 : Fin 2))) ()) k
        : Prog (TpuEff nD τ sig (Elt F) (SparseCore.Sig (Pipeline.Sig Λ₀ (Fin 2) fun p => (pcfgs (F := F) p).Adm) 2) .tc) α)
      = (SparseCore.liftProg (Prog.op (TpuEff.customCall (Pipeline.entry (0 : Fin 2)) ()) fun _ => Prog.ret PUnit.unit) >>= k) from rfl,
    wp_bind]
  iapply ((sc (F := F)).wp_liftProg (Pipeline.defs (pcfgs (F := F)) (defs₀ (F := F))) 𝒱 (T d) Set.univ none _ _)
  ihave Hb' := (show (boundary (T d) : sProp 𝕄) ⊢ iprop(scopedBufs (T d) ∗ scopedSems0 (T d) ∗ opIdle (T d)) from BI.Entails.refl _) $$ Hb
  icases Hb' with ⟨Hsc, Hss, Hidl⟩
  ihave Hss' := (Entails.of_eq hss) $$ Hss
  icases Hss' with ⟨⟨Hcells, -⟩, Hidle⟩
  -- the staging cells' invariants, from their counters at zero and the launch ghost state
  iapply (fupd_wp frame (wpE (Pipeline.defs (pcfgs (F := F)) (defs₀ (F := F))) 𝒱 (T d) none) Set.univ _ _)
  imod (Pipeline.cellsInit_alloc cfgs (dats0 (U := U) V W₀ out) ER cellOf_inj (0 : Fin 2) d) $$ [Hcells Hg] with ⟨%κ, -, Hinit⟩
  · isplitl [Hcells] <;> iassumption
  imodintro
  -- the region
  iapply (Pipeline.wp_customCall_entry_frame (pcfgs (F := F)) (fun p => (cfgs p).toPCfg_adm) (dats0 (U := U) V W₀ out) none ER κ cellOf_inj (0 : Fin 2)
      (defs₀ (F := F)) Variants.none (fun j => j.elim0) d Set.univ (fun _ _ => Set.mem_univ _)
      (hbody d).loose block_pos2 none (fun u h => nomatch h)
      (X := iprop(emp)) (Y := iprop(emp)) (R := Pipeline.scopedRest spec2 d)
      (I := Pipeline.idleSems0 (Ix := HIx 2) (Val := Elt F) (Name := ℕ) (U := U) (Lvl := ℕ) cfgs cellOf_inj (0 : Fin 2) (Pipeline.OwnSemFacts.none spec2) d)
      (Entails.of_eq hsb)
      (by rw [Φ0]; iintro ⟨-, -, HR⟩; iexact HR)
      (by
        rw [hss, hsb, Φ0]
        iintro ⟨HΦ, Hcells, Hst, Hidle⟩
        isplitr; · iempintro
        isplitl [Hcells Hidle]
        · isplitl [Hcells]
          · isplitl [Hcells]; · iexact Hcells
            iempintro
          iexact Hidle
        isplitl [Hst]; · iexact Hst
        iexact HΦ)
      (k := fun _ => Prog.ret PUnit.unit)
      (Q := fun a => wp frame (wpE (defs (F := F)) 𝒱 (T d) none) Set.univ (k a) Q)) $$ [Harr HO Hinit Ht Hidle Hsc]
  · isplitl [Harr HO Hinit Ht]
    · unfold Pipeline.EntryPre Pipeline.PerCore.EntryPre
      isplitl [Harr]
      · rw [harr]; iexact Harr
      isplitl [HO]
      · unfold Dat.owesAt Pipeline.owesWithin
        rw [owed0, bound0]
        iexists (W₀ d)
        isplitr; · ipureintro; exact Set.subset_union_left
        iexact HO
      isplitr
      · iapply (Pipeline.cellsWaits_of_owed_zero cfgs (dats0 (U := U) V W₀ out) none (0 : Fin 2) d (fun _ => rfl)); iempintro
      isplitl [Hinit]; · iexact Hinit
      iexact Ht
    isplitr; · iapply (prefHeld_none0 (U := U) d _); iempintro
    isplitr; · iempintro
    isplitl [Hidle]; · iexact Hidle
    iexact Hsc
  -- after the region: the boundary reassembled, the arrays and what the thread owes handed on
  iintro ⟨Hpost, -, Hss2, Hsc2⟩
  rw [wp_ret]
  imodintro
  iapply Hk
  isplitl [Hsc2 Hss2 Hidl]
  · unfold boundary
    isplitl [Hsc2]; · iexact Hsc2
    isplitl [Hss2]; · iexact Hss2
    iexact Hidl
  unfold Pipeline.EntryPost Pipeline.PerCore.EntryPost
  icases Hpost with ⟨Ha, HO⟩
  isplitl [Ha]
  · ihave Ha' := (Entails.of_eq (harr _)) $$ Ha
    iexact Ha'
  iexact HO

end Cert.Proof.Tc2

end
-- ==== Proof.TcOblig2.lean ====
/-
  The body of the first TensorCore kernel over the CONTENTS its staging memrefs read: what a pipeline's body obligation
  hands the body (`owns c M q X`: the memref reads `X`) against what the run is stated over (the raw contents of the
  buffer behind it).  For a whole memref the two determine each other, so the output block's contents after the body
  are one function `out2` of what the four input memrefs read.
-/
import proofs.«202673_g7318624272670_cont_9to1c4b_526_24_alg».proof.Proof.TcBody2
import proofs.«202673_g7318624272670_cont_9to1c4b_526_24_alg».proof.Proof.TcRegion2
import Idealize.ShloMosaic.Lib.Pipeline.Frame

noncomputable section

namespace Cert.Proof.Tc2

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- What the output memref `M5` reads after the body, from what the four input memrefs read. -/
noncomputable def out2 (c : Dev nD) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) : Vec F S3341x512 .f32 :=
  M5.view.read (Elt F) (bodyRun (F := F) (U := U) c i M1 h1 M2 h2 M3 h3 M4 h4 M5 h5 (h1.unread x1) (h2.unread x2) (h3.unread x3) (h4.unread x4)).1

/-- A whole memref owned at what it reads is its buffer held whole at the raw contents that read it. -/
theorem owns_unread {c : Dev nD} {sp : Space} {S : Shape} {e : EltTy} {M : Memref sig .tc sp S e} (h : M.IsWhole) (X : S.Idx → Elt F e) :
    (owns (c : Thread nD τ) M fullShare X : sProp 𝕄) ⊣⊢ pt c M (h.unread X) := by
  constructor
  · unfold owns
    iintro ⟨%f, %hf, H⟩
    obtain rfl := h.eq_unread hf
    rw [h.set_eq_univ]; iexact H
  · unfold owns
    iintro H
    iexists (h.unread X)
    isplitr; · ipureintro; exact h.read_unread X
    rw [h.set_eq_univ]; iexact H

/-- The body on whole staging memrefs that read `x1 … x4` (the output's reading anything) runs to the continuation holding the
    inputs as they were and the output's memref reading `out2` of them. -/
theorem sound_body2 (c : Dev nD) (E : Set ℕ) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ (∃ d, owns (c : Thread nD τ) M5 fullShare d)
        ∗ (iprop(owns (c : Thread nD τ) M1 fullShare x1 ∗ owns (c : Thread nD τ) M2 fullShare x2 ∗ owns (c : Thread nD τ) M3 fullShare x3
              ∗ owns (c : Thread nD τ) M4 fullShare x4
              ∗ owns (c : Thread nD τ) M5 fullShare (out2 (U := U) c i M1 h1 M2 h2 M3 h3 M4 h4 M5 h5 x1 x2 x3 x4)) -∗ K ⟨⟩))
      ⊢ wp frame (wpE (defs₀ (F := F)) Variants.none c none) E (cc2_body i M1 h1 M2 h2 M3 h3 M4 h4 M5 h5) K := by
  iintro ⟨H1, H2, H3, H4, ⟨%d5, H5⟩, Hk⟩
  ihave H1 := (owns_unread (U := U) h1 x1).1 $$ H1
  ihave H2 := (owns_unread (U := U) h2 x2).1 $$ H2
  ihave H3 := (owns_unread (U := U) h3 x3).1 $$ H3
  ihave H4 := (owns_unread (U := U) h4 x4).1 $$ H4
  ihave H5 := (owns_unread (U := U) h5 d5).1 $$ H5
  iapply ((bodyRun (F := F) (U := U) c i M1 h1 M2 h2 M3 h3 M4 h4 M5 h5 (h1.unread x1) (h2.unread x2) (h3.unread x3) (h4.unread x4)).2 (h5.unread d5) E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]; · iapply (owns_unread (U := U) h1 x1).2; iexact H1
  isplitl [H2]; · iapply (owns_unread (U := U) h2 x2).2; iexact H2
  isplitl [H3]; · iapply (owns_unread (U := U) h3 x3).2; iexact H3
  isplitl [H4]; · iapply (owns_unread (U := U) h4 x4).2; iexact H4
  unfold out2 owns
  iexists _
  isplitr; · ipureintro; rfl
  rw [h5.set_eq_univ]; iexact H5

/-! ## The body obligation of pipeline 0, at a generic point -/

variable (V : (c : Dev nD) → (b : Ref sig .tc) → Buf (Elt F) ((c : Thread nD τ).loc b))
  (W₀ : Dev nD → Finset (SemLoc sig × HIx 2))

/-- What the result window's current staging buffer reads after the body at point `t`: `out2` of the four input windows' blocks
    there, on the staging memrefs the pipeline calls the body with. -/
noncomputable def outAt (c : Dev nD) (t : Fin cfg2.N) : (cfg2.win 4).block.Idx → Elt F (cfg2.win 4).elt :=
  out2 (U := U) c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (iblk2 V c 0 t) (iblk2 V c 1 t) (iblk2 V c 2 t) (iblk2 V c 3 t)

/-- The body at any point: the inputs' memrefs read their blocks, so `sound_body2` applies; the invariant and what the core owes
    pass through unread. -/
theorem sound_at (c : Dev nD) (t : Fin cfg2.N) :
    iprop((dat2 (U := U) V W₀ (outAt (U := U) V) c).Φ t.castSucc ∗ (dat2 (U := U) V W₀ (outAt (U := U) V) c).owesAt none t.castSucc
        ∗ (∃ d, owns (c : Thread nD τ) (st2_0 t) fullShare ((dat2 (U := U) V W₀ (outAt (U := U) V) c).before 0 t d))
        ∗ (∃ d, owns (c : Thread nD τ) (st2_1 t) fullShare ((dat2 (U := U) V W₀ (outAt (U := U) V) c).before 1 t d))
        ∗ (∃ d, owns (c : Thread nD τ) (st2_2 t) fullShare ((dat2 (U := U) V W₀ (outAt (U := U) V) c).before 2 t d))
        ∗ (∃ d, owns (c : Thread nD τ) (st2_3 t) fullShare ((dat2 (U := U) V W₀ (outAt (U := U) V) c).before 3 t d))
        ∗ (∃ d, owns (c : Thread nD τ) (st2_4 t) fullShare ((dat2 (U := U) V W₀ (outAt (U := U) V) c).before 4 t d)))
      ⊢ wp frame (wpE (defs₀ (F := F)) Variants.none c none) Set.univ (bodyAt2 t) (fun _ =>
          iprop((dat2 (U := U) V W₀ (outAt (U := U) V) c).Φ t.succ ∗ (dat2 (U := U) V W₀ (outAt (U := U) V) c).owesAt none t.succ
            ∗ owns (c : Thread nD τ) (st2_0 t) fullShare ((dat2 (U := U) V W₀ (outAt (U := U) V) c).after 0 t)
            ∗ owns (c : Thread nD τ) (st2_1 t) fullShare ((dat2 (U := U) V W₀ (outAt (U := U) V) c).after 1 t)
            ∗ owns (c : Thread nD τ) (st2_2 t) fullShare ((dat2 (U := U) V W₀ (outAt (U := U) V) c).after 2 t)
            ∗ owns (c : Thread nD τ) (st2_3 t) fullShare ((dat2 (U := U) V W₀ (outAt (U := U) V) c).after 3 t)
            ∗ owns (c : Thread nD τ) (st2_4 t) fullShare ((dat2 (U := U) V W₀ (outAt (U := U) V) c).after 4 t))) := by
  unfold bodyAt2
  simp only [before2_0, before2_1, before2_2, before2_3]
  rw [show (dat2 (U := U) V W₀ (outAt (U := U) V) c).Φ t.succ = (dat2 (U := U) V W₀ (outAt (U := U) V) c).Φ t.castSucc from rfl,
    show (dat2 (U := U) V W₀ (outAt (U := U) V) c).owesAt none t.succ = (dat2 (U := U) V W₀ (outAt (U := U) V) c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_body2 (U := U) c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- the obligation's program is the body table's row at the point; identifying it with the kernel function's call unfolds both
set_option maxRecDepth 200000 in
set_option maxHeartbeats 2000000 in
/-- The pipeline library's body obligation of pipeline 0, at every point. -/
theorem body_obligation2 (c : Dev nD) :
    BodyObligation (dat2 (U := U) V W₀ (outAt (U := U) V) c) (defs₀ (F := F)) Variants.none none Set.univ := fun t => by
  rw [bigSep_W2, bigSep_W2]
  exact sound_at V W₀ c t

/-! ## Region 0 as a step of @main, its body obligation discharged -/

/-- **Region 0 as a step of @main**: `region0` at the body's run.  The result array ends at
    `(dat2 V W₀ (outAt V) d).arrAt 4 cfg2.N`: the array as found, with the block of each of the sixteen points
    overwritten by `outAt V d t` — what the body leaves, a function of the four input arrays' blocks at `t`. -/
theorem region0_run (ER : Emb (UR sig nD τ) (MT nD τ sig (HIx 2) (Elt F) ℕ U ℕ))
    [ER.LandsIn (upEmb : UEmb _ (MT nD τ sig (HIx 2) (Elt F) ℕ U ℕ))] (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs2 d (fun w => V d (Pipeline.arrRef spec2 w))
        ∗ owes (T d) (0 : CellTallies nD τ sig (HIx 2)) (W₀ d)
        ∗ Pipeline.cellsGhost cfgs ER (0 : Fin 2) d ∗ Pipeline.toksInit cfgs ER (0 : Fin 2) d
        ∗ (iprop(boundary (T d) ∗ arrs2 d (fun w => (dat2 (U := U) V W₀ (outAt (U := U) V) d).arrAt w cfg2.N)
              ∗ (dat2 (U := U) V W₀ (outAt (U := U) V) d).owesAt none (Fin.last cfg2.N))
            -∗ wp frame (wpE (defs (F := F)) 𝒱 (T d) none) Set.univ (k ⟨⟩) Q))
      ⊢ wp frame (wpE (defs (F := F)) 𝒱 (T d) none) Set.univ (.op (.customCall (SparseCore.inner (Pipeline.entry (0 : Fin 2))) ()) k) Q :=
  region0 V W₀ (outAt (U := U) V) ER (body_obligation2 V W₀) d k Q

end Cert.Proof.Tc2

end
-- ==== Proof.TcBody3.lean ====
/-
  The second TensorCore kernel body (the assembly of the second half of the batch), run once at a symbolic grid point
  and on any five whole staging memrefs; its first operand, the result array of the first kernel left in HBM, is named
  by the body's signature and touched by no operation of it.

  The body reads, for each of the 26 embedding fields, 64 row groups of 8 × 128 out of the staged block of gathered
  rows (13312 × 128: row group j of field f sits at row (26 j + f) · 8), stacks them to 512 × 128, transposes to
  128 × 512 and stores the result at rows 128 f … 128 f + 127 of the staged output block (3341 × 512); it then stores,
  at rows 3328 … 3340, the thirteen dense features scaled by (x − mn) / (mx − mn), the bounds broadcast from 13 × 1.
  Every store is preceded by a load of the rectangle it overwrites, whose value is not used.  The 27 stored
  rectangles tile the output block, so what the block holds afterwards does not depend on what it held before: it is
  the witness the run finds, a term over the four input buffers' contents alone.
-/
import proofs.«202673_g7318624272670_cont_9to1c4b_526_24_alg».proof.Proof.Gen.KernelIdeal.Skeleton
import Idealize.ShloMosaic.Lib.Tactic
import Idealize.ShloMosaic.Lib.SparseCore.Cells

noncomputable section

namespace Cert.Proof.Tc3

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]
variable {U : Type} [URA U]

local notation "𝕄" => MT nD τ sig (HIx 2) (Elt F) ℕ U ℕ

/-- Memref `M`'s buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block's buffer `M5`, as a term over the contents `f1 … f4` of the four input
    buffers (the gathered rows, the dense features, the two bounds), WITH the proof that from the five buffers held
    whole — the output's at anything — the body runs to its return handing the inputs back as they were and the
    output's buffer at that term. -/
noncomputable def bodyRun (c : Dev nD) (i : grid3.Coords)
    (M0 : Memref sig .tc .hbm S3341x16384 .f32) (h0 : M0.IsWhole)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (f1 : Bf (F := F) c M1) (f2 : Bf (F := F) c M2) (f3 : Bf (F := F) c M3) (f4 : Bf (F := F) c M4) :
    { W : Bf (F := F) c M5 //
      ∀ (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 f4 ∗ pt c M5 W) -∗ Q ⟨⟩))
        ⊢ wp frame (wpE (defs₀ (F := F)) Variants.none c none) E (cc3_body i M0 h0 M1 h1 M2 h2 M3 h3 M4 h4 M5 h5) Q } := by
  refine ⟨?_, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.Proof.Tc3

end
-- ==== Proof.TcRegion3.lean ====
/-
  The second TensorCore kernel region of @main (the pipeline of custom call 3, pipeline 1) as ONE STEP of @main on the
  TensorCore, inside a program that also runs SparseCore calls.  Its result array is the buffer the host copied the first
  region's result into: the pipeline writes back the sixteen blocks of the second half of the columns and leaves the rest.

  The region is entered through the pipeline library's region rule.  What it needs of the thread at that line:
  the region boundary whole (the scoped buffers, among them the pipeline's eight staging buffers; the scoped
  semaphores at zero, among them its eight DMA semaphores; the idle operation slot), the five window arrays
  (the gathered rows of the second half, the slice of the dense features, the two bounds, the result) whole at the full share, that the
  thread owes nothing, and the rounds ghost state of the pipeline's eight staging cells with the duty tokens of the
  transfers its loop issues — dealt at launch (`Pipeline.fund_ghost`); the cells' invariants are allocated here,
  from the cells' counters at zero.  It hands back the boundary, the arrays at what the pipeline library computes
  from the proof data (the inputs unchanged, the result with the sixteen blocks written back), and the thread
  owing nothing, its recorded waits grown by the loop's own (on the staging semaphores, at index `none`).
-/
import proofs.«202673_g7318624272670_cont_9to1c4b_526_24_alg».proof.Proof.Gen.KernelIdeal.Launch
import proofs.«202673_g7318624272670_cont_9to1c4b_526_24_alg».proof.Proof.Gen.KernelIdeal.Points
import Idealize.ShloMosaic.Lib.SparseCore.Launch
import Idealize.ShloMosaic.Lib.Pipeline.FrameBody

noncomputable section

namespace Cert.Proof.Tc3

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- The variants every thread of the program runs under: the pipeline library's, over no kernel variant. -/
abbrev 𝒱 : Variants := Variants.lift Variants.none

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (W₀ : Dev nD → Finset (SemLoc sig × HIx 2))
  (out : (c : Dev nD) → Fin cfg3.N → (cfg3.win 4).block.Idx → Elt F (cfg3.win 4).elt)

/-- The proof data of the region on core `c`: the arrays as the region finds them; after the body each input's buffer at
    its block and the result's at `out c t`; the invariant the scoped buffers the pipeline does not stage; nothing owed,
    the waits recorded before the region within `W₀ c`; full shares. -/
def dat3 (c : Dev nD) : Dat τ (Elt F) (HIx 2) ℕ U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out c t
  Φ _ := Pipeline.scopedRest spec3 c
  q _ := fullShare
  owed _ := 0
  recorded _ := ↑(W₀ c)

/-- Proof data for the other pipeline, which this region does not run: only its type matters here. -/
def datIdle2 (c : Dev nD) : Dat τ (Elt F) (HIx 2) ℕ U ℕ cfg2 c where
  A w := V c (Pipeline.arrRef spec2 w)
  after _ _ := fun _ => Classical.arbitrary _
  Φ _ := iprop(emp)
  q _ := fullShare
  owed _ := 0

/-- The family the library's rules are stated over: this region's data at pipeline 1. -/
def dats1 : (p : Fin 2) → (c : Dev nD) → Dat τ (Elt F) (HIx 2) ℕ U ℕ (cfgs p) c
  | ⟨0, _⟩ => fun c => datIdle2 V c
  | ⟨1, _⟩ => fun c => dat3 V W₀ out c

theorem share3 (c : Dev nD) (w : Fin cfg3.W) : (dat3 (U := U) V W₀ out c).share w = fullShare := by
  unfold Dat.share; split <;> rfl

/-! ## What the proof data says, window by window -/

theorem A3 (c : Dev nD) (w : Fin cfg3.W) : (dat3 (U := U) V W₀ out c).A w = V c (Pipeline.arrRef spec3 w) := by dsimp only [dat3]
theorem after3_0 (c : Dev nD) (t : Fin cfg3.N) : (dat3 (U := U) V W₀ out c).after 0 t = iblk3 V c 0 t := by dsimp only [dat3]
theorem after3_1 (c : Dev nD) (t : Fin cfg3.N) : (dat3 (U := U) V W₀ out c).after 1 t = iblk3 V c 1 t := by dsimp only [dat3]
theorem after3_2 (c : Dev nD) (t : Fin cfg3.N) : (dat3 (U := U) V W₀ out c).after 2 t = iblk3 V c 2 t := by dsimp only [dat3]
theorem after3_3 (c : Dev nD) (t : Fin cfg3.N) : (dat3 (U := U) V W₀ out c).after 3 t = iblk3 V c 3 t := by dsimp only [dat3]
theorem after3_4 (c : Dev nD) (t : Fin cfg3.N) : (dat3 (U := U) V W₀ out c).after 4 t = out c t := by dsimp only [dat3]

/-- An input window's current staging buffer holds the array's block of the point, whether the pipeline fetched it there
    or not (the two bounds are fetched once: their block index never moves). -/
theorem before3_0 (c : Dev nD) (t : Fin cfg3.N) (d) : (dat3 (U := U) V W₀ out c).before 0 t d = iblk3 V c 0 t :=
  ((dat3 (U := U) V W₀ out c).before_in_eq_fetched 0 rfl (fun _ => rfl) (fun _ _ _ => rfl)
    (fun t => by rw [after3_0]; unfold Dat.blockOf iblk3; rw [A3]; try rfl) t d).trans
    (by unfold Dat.fetched Dat.blockOf iblk3; rw [A3]; try rfl)
theorem before3_1 (c : Dev nD) (t : Fin cfg3.N) (d) : (dat3 (U := U) V W₀ out c).before 1 t d = iblk3 V c 1 t :=
  ((dat3 (U := U) V W₀ out c).before_in_eq_fetched 1 rfl (fun _ => rfl) (fun _ _ _ => rfl)
    (fun t => by rw [after3_1]; unfold Dat.blockOf iblk3; rw [A3]; try rfl) t d).trans
    (by unfold Dat.fetched Dat.blockOf iblk3; rw [A3]; try rfl)
theorem before3_2 (c : Dev nD) (t : Fin cfg3.N) (d) : (dat3 (U := U) V W₀ out c).before 2 t d = iblk3 V c 2 t :=
  ((dat3 (U := U) V W₀ out c).before_in_eq_fetched 2 rfl (fun _ => rfl) (fun _ _ _ => rfl)
    (fun t => by rw [after3_2]; unfold Dat.blockOf iblk3; rw [A3]; try rfl) t d).trans
    (by unfold Dat.fetched Dat.blockOf iblk3; rw [A3]; try rfl)
theorem before3_3 (c : Dev nD) (t : Fin cfg3.N) (d) : (dat3 (U := U) V W₀ out c).before 3 t d = iblk3 V c 3 t :=
  ((dat3 (U := U) V W₀ out c).before_in_eq_fetched 3 rfl (fun _ => rfl) (fun _ _ _ => rfl)
    (fun t => by rw [after3_3]; unfold Dat.blockOf iblk3; rw [A3]; try rfl) t d).trans
    (by unfold Dat.fetched Dat.blockOf iblk3; rw [A3]; try rfl)

theorem Φ1 (c : Dev nD) (t) : (dats1 (U := U) V W₀ out (1 : Fin 2) c).Φ t = Pipeline.scopedRest spec3 c := rfl
theorem owed1 (c : Dev nD) (t) : (dats1 (U := U) V W₀ out (1 : Fin 2) c).owed t = 0 := rfl
theorem bound1 (c : Dev nD) (t) : (dats1 (U := U) V W₀ out (1 : Fin 2) c).bound none t = ↑(W₀ c) ∪ cfg3.waitPairs none := rfl

/-! ## The region as a step of @main -/

variable (ER : Emb (UR sig nD τ) (MT nD τ sig (HIx 2) (Elt F) ℕ U ℕ))
  [ER.LandsIn (upEmb : UEmb _ (MT nD τ sig (HIx 2) (Elt F) ℕ U ℕ))]

/-- The region's five arrays on core `c`, each whole at the full share, at contents `G`. -/
abbrev arrs3 (c : Dev nD) (G : (w : Fin cfg3.W) → Buf (Elt F) (((cfg3).spec w).arr.view.loc (c : Thread nD τ))) : sProp 𝕄 :=
  bigSep Finset.univ fun w : Fin cfg3.W => (((c : Thread nD τ).loc (Pipeline.arrRef (cfg3).spec w)) ↦{fullShare} G w : sProp 𝕄)

/-- The pipeline prefetches no table: nothing is held for it. -/
theorem prefHeld_none1 (c : Dev nD) (q) :
    (iprop(emp) : sProp 𝕄) ⊢ Pipeline.prefHeld ((pcfgs (F := F) (1 : Fin 2)).pre) c q ((cfgs (1 : Fin 2)).toPCfg_adm (Val := Elt F)).1 := by
  unfold Pipeline.prefHeld
  rw [Finset.univ_eq_empty, BI.bigSep_empty]
  exact BI.Entails.refl _

set_option backward.isDefEq.respectTransparency.types false in
/-- **Region 1 as a step of @main.**  From the region boundary, the five arrays as the region finds them, the thread owing
    nothing (its recorded waits `W₀ d`), and the pipeline's launch ghost state, the custom call of pipeline 1's entry
    runs and the continuation `k` goes on from the boundary, the arrays at the proof data's final contents and the
    thread owing nothing, its recorded waits within `W₀ d` and the loop's own. -/
theorem region1 (hbody : ∀ c, BodyObligation (dat3 (U := U) V W₀ out c) (defs₀ (F := F)) Variants.none none Set.univ)
    (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs3 d (fun w => V d (Pipeline.arrRef spec3 w))
        ∗ owes (T d) (0 : CellTallies nD τ sig (HIx 2)) (W₀ d)
        ∗ Pipeline.cellsGhost cfgs ER (1 : Fin 2) d ∗ Pipeline.toksInit cfgs ER (1 : Fin 2) d
        ∗ (iprop(boundary (T d) ∗ arrs3 d (fun w => (dat3 (U := U) V W₀ out d).arrAt w cfg3.N)
              ∗ (dat3 (U := U) V W₀ out d).owesAt none (Fin.last cfg3.N))
            -∗ wp frame (wpE (defs (F := F)) 𝒱 (T d) none) Set.univ (k ⟨⟩) Q))
      ⊢ wp frame (wpE (defs (F := F)) 𝒱 (T d) none) Set.univ (.op (.customCall (SparseCore.inner (Pipeline.entry (1 : Fin 2))) ()) k) Q := by
  classical
  have hss := Pipeline.scopedSems0_split cfgs cellOf_inj (1 : Fin 2) winFacts3.to₀ (Pipeline.OwnSemFacts.none spec3)
    (Ix := HIx 2) (Val := Elt F) (Name := ℕ) (U := U) (Lvl := ℕ) d
  rw [Pipeline.ownSems0_none] at hss
  have hsb := Pipeline.scopedBufs_split cfgs (1 : Fin 2) winFacts3.stage_scoped winFacts3.stage_inj stage_whole3 d
    (τ := τ) (Ix := HIx 2) (Val := Elt F) (Name := ℕ) (U := U) (Lvl := ℕ)
  have harr := Pipeline.arrays_eq cfgs (dats1 (U := U) V W₀ out) (1 : Fin 2) d arr_whole3 (share3 V W₀ out d)
  iintro ⟨Hb, Harr, HO, Hg, Ht, Hk⟩
  -- the program: the lifted region, then the continuation
  rw [show (Prog.op (TpuEff.customCall (SparseCore.inner (Pipeline.entry (1 : Fin 2))) ()) k
        : Prog (TpuEff nD τ sig (Elt F) (SparseCore.Sig (Pipeline.Sig Λ₀ (Fin 2) fun p => (pcfgs (F := F) p).Adm) 2) .tc) α)
      = (SparseCore.liftProg (Prog.op (TpuEff.customCall (Pipeline.entry (1 : Fin 2)) ()) fun _ => Prog.ret PUnit.unit) >>= k) from rfl,
    wp_bind]
  iapply ((sc (F := F)).wp_liftProg (Pipeline.defs (pcfgs (F := F)) (defs₀ (F := F))) 𝒱 (T d) Set.univ none _ _)
  ihave Hb' := (show (boundary (T d) : sProp 𝕄) ⊢ iprop(scopedBufs (T d) ∗ scopedSems0 (T d) ∗ opIdle (T d)) from BI.Entails.refl _) $$ Hb
  icases Hb' with ⟨Hsc, Hss, Hidl⟩
  ihave Hss' := (Entails.of_eq hss) $$ Hss
  icases Hss' with ⟨⟨Hcells, -⟩, Hidle⟩
  -- the staging cells' invariants, from their counters at zero and the launch ghost state
  iapply (fupd_wp frame (wpE (Pipeline.defs (pcfgs (F := F)) (defs₀ (F := F))) 𝒱 (T d) none) Set.univ _ _)
  imod (Pipeline.cellsInit_alloc cfgs (dats1 (U := U) V W₀ out) ER cellOf_inj (1 : Fin 2) d) $$ [Hcells Hg] with ⟨%κ, -, Hinit⟩
  · isplitl [Hcells] <;> iassumption
  imodintro
  -- the region
  iapply (Pipeline.wp_customCall_entry_frame (pcfgs (F := F)) (fun p => (cfgs p).toPCfg_adm) (dats1 (U := U) V W₀ out) none ER κ cellOf_inj (1 : Fin 2)
      (defs₀ (F := F)) Variants.none (fun j => j.elim0) d Set.univ (fun _ _ => Set.mem_univ _)
      (hbody d).loose block_pos3 none (fun u h => nomatch h)
      (X := iprop(emp)) (Y := iprop(emp)) (R := Pipeline.scopedRest spec3 d)
      (I := Pipeline.idleSems0 (Ix := HIx 2) (Val := Elt F) (Name := ℕ) (U := U) (Lvl := ℕ) cfgs cellOf_inj (1 : Fin 2) (Pipeline.OwnSemFacts.none spec3) d)
      (Entails.of_eq hsb)
      (by rw [Φ1]; iintro ⟨-, -, HR⟩; iexact HR)
      (by
        rw [hss, hsb, Φ1]
        iintro ⟨HΦ, Hcells, Hst, Hidle⟩
        isplitr; · iempintro
        isplitl [Hcells Hidle]
        · isplitl [Hcells]
          · isplitl [Hcells]; · iexact Hcells
            iempintro
          iexact Hidle
        isplitl [Hst]; · iexact Hst
        iexact HΦ)
      (k := fun _ => Prog.ret PUnit.unit)
      (Q := fun a => wp frame (wpE (defs (F := F)) 𝒱 (T d) none) Set.univ (k a) Q)) $$ [Harr HO Hinit Ht Hidle Hsc]
  · isplitl [Harr HO Hinit Ht]
    · unfold Pipeline.EntryPre Pipeline.PerCore.EntryPre
      isplitl [Harr]
      · rw [harr]; iexact Harr
      isplitl [HO]
      · unfold Dat.owesAt Pipeline.owesWithin
        rw [owed1, bound1]
        iexists (W₀ d)
        isplitr; · ipureintro; exact Set.subset_union_left
        iexact HO
      isplitr
      · iapply (Pipeline.cellsWaits_of_owed_zero cfgs (dats1 (U := U) V W₀ out) none (1 : Fin 2) d (fun _ => rfl)); iempintro
      isplitl [Hinit]; · iexact Hinit
      iexact Ht
    isplitr; · iapply (prefHeld_none1 (U := U) d _); iempintro
    isplitr; · iempintro
    isplitl [Hidle]; · iexact Hidle
    iexact Hsc
  -- after the region: the boundary reassembled, the arrays and what the thread owes handed on
  iintro ⟨Hpost, -, Hss2, Hsc2⟩
  rw [wp_ret]
  imodintro
  iapply Hk
  isplitl [Hsc2 Hss2 Hidl]
  · unfold boundary
    isplitl [Hsc2]; · iexact Hsc2
    isplitl [Hss2]; · iexact Hss2
    iexact Hidl
  unfold Pipeline.EntryPost Pipeline.PerCore.EntryPost
  icases Hpost with ⟨Ha, HO⟩
  isplitl [Ha]
  · ihave Ha' := (Entails.of_eq (harr _)) $$ Ha
    iexact Ha'
  iexact HO

end Cert.Proof.Tc3

end
-- ==== Proof.TcOblig3.lean ====
/-
  The body of the second TensorCore kernel over the CONTENTS its staging memrefs read: what a pipeline's body obligation
  hands the body (`owns c M q X`: the memref reads `X`) against what the run is stated over (the raw contents of the
  buffer behind it).  For a whole memref the two determine each other, so the output block's contents after the body
  are one function `out3` of what the four input memrefs read.
-/
import proofs.«202673_g7318624272670_cont_9to1c4b_526_24_alg».proof.Proof.TcBody3
import proofs.«202673_g7318624272670_cont_9to1c4b_526_24_alg».proof.Proof.TcRegion3
import Idealize.ShloMosaic.Lib.Pipeline.Frame

noncomputable section

namespace Cert.Proof.Tc3

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- What the output memref `M5` reads after the body, from what the four input memrefs read. -/
noncomputable def out3 (c : Dev nD) (i : grid3.Coords)
    (M0 : Memref sig .tc .hbm S3341x16384 .f32) (h0 : M0.IsWhole) (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) : Vec F S3341x512 .f32 :=
  M5.view.read (Elt F) (bodyRun (F := F) (U := U) c i M0 h0 M1 h1 M2 h2 M3 h3 M4 h4 M5 h5 (h1.unread x1) (h2.unread x2) (h3.unread x3) (h4.unread x4)).1

/-- A whole memref owned at what it reads is its buffer held whole at the raw contents that read it. -/
theorem owns_unread {c : Dev nD} {sp : Space} {S : Shape} {e : EltTy} {M : Memref sig .tc sp S e} (h : M.IsWhole) (X : S.Idx → Elt F e) :
    (owns (c : Thread nD τ) M fullShare X : sProp 𝕄) ⊣⊢ pt c M (h.unread X) := by
  constructor
  · unfold owns
    iintro ⟨%f, %hf, H⟩
    obtain rfl := h.eq_unread hf
    rw [h.set_eq_univ]; iexact H
  · unfold owns
    iintro H
    iexists (h.unread X)
    isplitr; · ipureintro; exact h.read_unread X
    rw [h.set_eq_univ]; iexact H

/-- The body on whole staging memrefs that read `x1 … x4` (the output's reading anything) runs to the continuation holding the
    inputs as they were and the output's memref reading `out3` of them. -/
theorem sound_body3 (c : Dev nD) (E : Set ℕ) (i : grid3.Coords)
    (M0 : Memref sig .tc .hbm S3341x16384 .f32) (h0 : M0.IsWhole) (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ (∃ d, owns (c : Thread nD τ) M5 fullShare d)
        ∗ (iprop(owns (c : Thread nD τ) M1 fullShare x1 ∗ owns (c : Thread nD τ) M2 fullShare x2 ∗ owns (c : Thread nD τ) M3 fullShare x3
              ∗ owns (c : Thread nD τ) M4 fullShare x4
              ∗ owns (c : Thread nD τ) M5 fullShare (out3 (U := U) c i M0 h0 M1 h1 M2 h2 M3 h3 M4 h4 M5 h5 x1 x2 x3 x4)) -∗ K ⟨⟩))
      ⊢ wp frame (wpE (defs₀ (F := F)) Variants.none c none) E (cc3_body i M0 h0 M1 h1 M2 h2 M3 h3 M4 h4 M5 h5) K := by
  iintro ⟨H1, H2, H3, H4, ⟨%d5, H5⟩, Hk⟩
  ihave H1 := (owns_unread (U := U) h1 x1).1 $$ H1
  ihave H2 := (owns_unread (U := U) h2 x2).1 $$ H2
  ihave H3 := (owns_unread (U := U) h3 x3).1 $$ H3
  ihave H4 := (owns_unread (U := U) h4 x4).1 $$ H4
  ihave H5 := (owns_unread (U := U) h5 d5).1 $$ H5
  iapply ((bodyRun (F := F) (U := U) c i M0 h0 M1 h1 M2 h2 M3 h3 M4 h4 M5 h5 (h1.unread x1) (h2.unread x2) (h3.unread x3) (h4.unread x4)).2 (h5.unread d5) E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]; · iapply (owns_unread (U := U) h1 x1).2; iexact H1
  isplitl [H2]; · iapply (owns_unread (U := U) h2 x2).2; iexact H2
  isplitl [H3]; · iapply (owns_unread (U := U) h3 x3).2; iexact H3
  isplitl [H4]; · iapply (owns_unread (U := U) h4 x4).2; iexact H4
  unfold out3 owns
  iexists _
  isplitr; · ipureintro; rfl
  rw [h5.set_eq_univ]; iexact H5

/-! ## The body obligation of pipeline 1, at a generic point -/

variable (V : (c : Dev nD) → (b : Ref sig .tc) → Buf (Elt F) ((c : Thread nD τ).loc b))
  (W₀ : Dev nD → Finset (SemLoc sig × HIx 2))

/-- What the result window's current staging buffer reads after the body at point `t`: `out3` of the four input windows' blocks
    there, on the staging memrefs the pipeline calls the body with. -/
noncomputable def outAt (c : Dev nD) (t : Fin cfg3.N) : (cfg3.win 4).block.Idx → Elt F (cfg3.win 4).elt :=
  out3 (U := U) c (grid3.coords t) (Memref.whole main_v11) (Memref.isWhole_whole _) (win3_0.stage (cfg3.slots t 0)) (hstage3_0 ((cfg3.slots t 0).cast nbuf3_0))
    (win3_1.stage (cfg3.slots t 1)) (hstage3_1 ((cfg3.slots t 1).cast nbuf3_1)) (win3_2.stage (cfg3.slots t 2)) (hstage3_2 ((cfg3.slots t 2).cast nbuf3_2))
    (win3_3.stage (cfg3.slots t 3)) (hstage3_3 ((cfg3.slots t 3).cast nbuf3_3)) (win3_4.stage (cfg3.slots t 4)) (hstage3_4 ((cfg3.slots t 4).cast nbuf3_4))
    (iblk3 V c 0 t) (iblk3 V c 1 t) (iblk3 V c 2 t) (iblk3 V c 3 t)

/-- The body at any point: the inputs' memrefs read their blocks, so `sound_body3` applies; the invariant and what the core owes
    pass through unread. -/
theorem sound_at (c : Dev nD) (t : Fin cfg3.N) :
    iprop((dat3 (U := U) V W₀ (outAt (U := U) V) c).Φ t.castSucc ∗ (dat3 (U := U) V W₀ (outAt (U := U) V) c).owesAt none t.castSucc
        ∗ (∃ d, owns (c : Thread nD τ) (st3_0 t) fullShare ((dat3 (U := U) V W₀ (outAt (U := U) V) c).before 0 t d))
        ∗ (∃ d, owns (c : Thread nD τ) (st3_1 t) fullShare ((dat3 (U := U) V W₀ (outAt (U := U) V) c).before 1 t d))
        ∗ (∃ d, owns (c : Thread nD τ) (st3_2 t) fullShare ((dat3 (U := U) V W₀ (outAt (U := U) V) c).before 2 t d))
        ∗ (∃ d, owns (c : Thread nD τ) (st3_3 t) fullShare ((dat3 (U := U) V W₀ (outAt (U := U) V) c).before 3 t d))
        ∗ (∃ d, owns (c : Thread nD τ) (st3_4 t) fullShare ((dat3 (U := U) V W₀ (outAt (U := U) V) c).before 4 t d)))
      ⊢ wp frame (wpE (defs₀ (F := F)) Variants.none c none) Set.univ (bodyAt3 t) (fun _ =>
          iprop((dat3 (U := U) V W₀ (outAt (U := U) V) c).Φ t.succ ∗ (dat3 (U := U) V W₀ (outAt (U := U) V) c).owesAt none t.succ
            ∗ owns (c : Thread nD τ) (st3_0 t) fullShare ((dat3 (U := U) V W₀ (outAt (U := U) V) c).after 0 t)
            ∗ owns (c : Thread nD τ) (st3_1 t) fullShare ((dat3 (U := U) V W₀ (outAt (U := U) V) c).after 1 t)
            ∗ owns (c : Thread nD τ) (st3_2 t) fullShare ((dat3 (U := U) V W₀ (outAt (U := U) V) c).after 2 t)
            ∗ owns (c : Thread nD τ) (st3_3 t) fullShare ((dat3 (U := U) V W₀ (outAt (U := U) V) c).after 3 t)
            ∗ owns (c : Thread nD τ) (st3_4 t) fullShare ((dat3 (U := U) V W₀ (outAt (U := U) V) c).after 4 t))) := by
  unfold bodyAt3
  simp only [before3_0, before3_1, before3_2, before3_3]
  rw [show (dat3 (U := U) V W₀ (outAt (U := U) V) c).Φ t.succ = (dat3 (U := U) V W₀ (outAt (U := U) V) c).Φ t.castSucc from rfl,
    show (dat3 (U := U) V W₀ (outAt (U := U) V) c).owesAt none t.succ = (dat3 (U := U) V W₀ (outAt (U := U) V) c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_body3 (U := U) c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- the obligation's program is the body table's row at the point; identifying it with the kernel function's call unfolds both
set_option maxRecDepth 200000 in
set_option maxHeartbeats 2000000 in
/-- The pipeline library's body obligation of pipeline 1, at every point. -/
theorem body_obligation3 (c : Dev nD) :
    BodyObligation (dat3 (U := U) V W₀ (outAt (U := U) V) c) (defs₀ (F := F)) Variants.none none Set.univ := fun t => by
  rw [bigSep_W3, bigSep_W3]
  exact sound_at V W₀ c t

/-! ## Region 1 as a step of @main, its body obligation discharged -/

/-- **Region 1 as a step of @main**: `region1` at the body's run.  The result array ends at
    `(dat3 V W₀ (outAt V) d).arrAt 4 cfg3.N`: the array as found, with the block of each of the sixteen points
    overwritten by `outAt V d t` — what the body leaves, a function of the four input arrays' blocks at `t`. -/
theorem region1_run (ER : Emb (UR sig nD τ) (MT nD τ sig (HIx 2) (Elt F) ℕ U ℕ))
    [ER.LandsIn (upEmb : UEmb _ (MT nD τ sig (HIx 2) (Elt F) ℕ U ℕ))] (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs3 d (fun w => V d (Pipeline.arrRef spec3 w))
        ∗ owes (T d) (0 : CellTallies nD τ sig (HIx 2)) (W₀ d)
        ∗ Pipeline.cellsGhost cfgs ER (1 : Fin 2) d ∗ Pipeline.toksInit cfgs ER (1 : Fin 2) d
        ∗ (iprop(boundary (T d) ∗ arrs3 d (fun w => (dat3 (U := U) V W₀ (outAt (U := U) V) d).arrAt w cfg3.N)
              ∗ (dat3 (U := U) V W₀ (outAt (U := U) V) d).owesAt none (Fin.last cfg3.N))
            -∗ wp frame (wpE (defs (F := F)) 𝒱 (T d) none) Set.univ (k ⟨⟩) Q))
      ⊢ wp frame (wpE (defs (F := F)) 𝒱 (T d) none) Set.univ (.op (.customCall (SparseCore.inner (Pipeline.entry (1 : Fin 2))) ()) k) Q :=
  region1 V W₀ (outAt (U := U) V) ER (body_obligation3 V W₀) d k Q

end Cert.Proof.Tc3

end
-- ==== Proof.ScPayI.lean ====
/-
  What the two SparseCore calls' handshakes carry (idealized kernel): each task is handed, and hands back unchanged, its
  read tokens of the embedding table, its words of the call's index list and its rows of the call's gathered array; a
  SparseCore's operands are its sixteen tasks' together, so nothing is split at the sequencer.
-/
import proofs.«202673_g7318624272670_cont_9to1c4b_526_24_alg».proof.Proof.ScResI0
import proofs.«202673_g7318624272670_cont_9to1c4b_526_24_alg».proof.Proof.ScResI1
import proofs.«202673_g7318624272670_cont_9to1c4b_526_24_alg».proof.Proof.TcOblig2
import proofs.«202673_g7318624272670_cont_9to1c4b_526_24_alg».proof.Proof.TcOblig3

noncomputable section

namespace Cert.Proof.ScI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

/-! ## What the handshakes carry -/

theorem nCore0 : (K (F := F)).nCore 0 = grid0.bound 0 := rfl
theorem nSub0 : (K (F := F)).nSub 0 = grid0.bound 1 := rfl
theorem nCore1 : (K (F := F)).nCore 1 = grid1.bound 0 := rfl
theorem nSub1 : (K (F := F)).nSub 1 = grid1.bound 1 := rfl

/-- The read share of the embedding table task `(c, i)` is handed (32 pairwise independent shares of the whole). -/
abbrev qT (c i : ℕ) : PosShare TreeShare := Transfers.shareTokN fullShare (16 * c + i)

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

/-- What a task of either call is handed, and hands back: its read tokens of the table, its words of the call's index list,
    its rows of the call's gathered array (at some contents). -/
def goRes (q : Fin 2) (d : Dev nD) (c : Fin ((K (F := F)).nCore q)) (i : Fin ((K (F := F)).nSub q)) : sProp 𝕄 :=
  match q with
  | 0 => ScI0.tileRes d (ScI0.coordsV (Fin.cast nCore0 c) (Fin.cast nSub0 i)) (qT c.val i.val) (Tb d) (Iv0 d)
  | 1 => ScI1.tileRes d (ScI1.coordsV (Fin.cast nCore1 c) (Fin.cast nSub1 i)) (qT c.val i.val) (Tb d) (Iv1 d)

/-- The handshakes' payloads: a SparseCore's operands are its sixteen tasks' together, both ways. -/
def P : (K (F := F)).Pay (nD := nD) (Val := Elt F) (Name := ℕ) (U := UU) where
  st := fun q d c => bigSep Finset.univ fun i => goRes Tb Iv0 Iv1 q d c i
  dn := fun q d c => bigSep Finset.univ fun i => goRes Tb Iv0 Iv1 q d c i
  go := fun q d c i => goRes Tb Iv0 Iv1 q d c i
  td := fun q d c i => goRes Tb Iv0 Iv1 q d c i
  x := fun _ _ => iprop(emp)

set_option synthInstance.maxHeartbeats 1000000 in
set_option maxHeartbeats 1000000 in
instance goRes_storable (q : Fin 2) (d : Dev nD) (c) (i) : BI.Storable (upEmb : UEmb _ 𝕄) (goRes Tb Iv0 Iv1 q d c i) := by
  match q, c, i with
  | 0, c, i =>
    show BI.Storable _ (ScI0.tileRes d (ScI0.coordsV (Fin.cast nCore0 c) (Fin.cast nSub0 i)) (qT c.val i.val) (Tb d) (Iv0 d))
    unfold ScI0.tileRes ScI0.chunkRow; infer_instance
  | 1, c, i =>
    show BI.Storable _ (ScI1.tileRes d (ScI1.coordsV (Fin.cast nCore1 c) (Fin.cast nSub1 i)) (qT c.val i.val) (Tb d) (Iv1 d))
    unfold ScI1.tileRes ScI1.chunkRow; infer_instance

instance P_storable : (P (F := F) Tb Iv0 Iv1).IsStorable where
  st _ d c := by unfold P; infer_instance
  dn _ d c := by unfold P; infer_instance
  go _ _ _ _ := by unfold P; infer_instance
  td _ _ _ _ := by unfold P; infer_instance

/-- A SparseCore's operands ARE its tasks' operands: nothing to split. -/
theorem vecSplit (q : Fin 2) : (K (F := F)).VecSplit' (P Tb Iv0 Iv1) q := by
  intro d c
  show (bigSep Finset.univ fun i => goRes Tb Iv0 Iv1 q d c i) ⊢ |={Set.univ}=> iprop(
      (bigSep Finset.univ fun i => goRes Tb Iv0 Iv1 q d c i)
      ∗ ((bigSep Finset.univ fun i => goRes Tb Iv0 Iv1 q d c i) -∗ (bigSep Finset.univ fun i => goRes Tb Iv0 Iv1 q d c i)))
  iintro H; imodintro
  isplitl [H]; · iexact H
  iintro H; iexact H

end Cert.Proof.ScI

end
-- ==== Proof.ScMainI.lean ====
/-
  @main on the TensorCore of the idealized kernel's program, step by step, between the launch's deal and the claim's post.
  The TensorCore's unscoped buffers are held as one set at a valuation that each host operation advances; the two
  SparseCore calls and the two TensorCore regions take their arrays out of the set and put them back, the written one at
  what the step left.
-/
import proofs.«202673_g7318624272670_cont_9to1c4b_526_24_alg».proof.Proof.ScPayI
import Idealize.ShloMosaic.Lib.Pipeline.Frame

noncomputable section

namespace Cert.Proof.ScI

open Cert.KernelIdeal
open Cert.KernelIdeal.Shapes2.Facts₀ Cert.KernelIdeal.Shapes1.Facts₀

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 2) (Elt F) ℕ UU ℕ

/-! ## The host operations of @main, as the program writes them -/

abbrev op0 : HloOp τ sig (Elt F) := StableHlo.reshape main_arg2 main_v0 rfl shapeCasts_S26x1000x128_S26000x128
abbrev op1 : HloOp τ sig (Elt F) := StableHlo.unary main_arg1 main_v1 ((transpose S13x16384 [1, 0] · transposes_S16384x13_S13x16384_1_0) : (⟨S16384x13, .f32⟩ : BufTy).Contents (Elt F) → (⟨S13x16384, .f32⟩ : BufTy).Contents (Elt F))
abbrev op2 : HloOp τ sig (Elt F) := StableHlo.reshape main_arg3 main_v2 rfl shapeCasts_S13_S13x1
abbrev op3 : HloOp τ sig (Elt F) := StableHlo.reshape main_arg4 main_v3 rfl shapeCasts_S13_S13x1
abbrev op4 : HloOp τ sig (Elt F) := StableHlo.unary main_arg0 main_v4 ((extractStridedSlice S8192x26 ![0, 0] · slices_S16384x26_S8192x26_0_0) : (⟨S16384x26, .i32⟩ : BufTy).Contents (Elt F) → (⟨S8192x26, .i32⟩ : BufTy).Contents (Elt F))
abbrev op5 : HloOp τ sig (Elt F) := StableHlo.reshape main_v4 main_v5 rfl shapeCasts_S8192x26_S212992
abbrev op6 : HloOp τ sig (Elt F) := StableHlo.unary main_arg0 main_v7 ((extractStridedSlice S8192x26 ![8192, 0] · slices_S16384x26_S8192x26_8192_0) : (⟨S16384x26, .i32⟩ : BufTy).Contents (Elt F) → (⟨S8192x26, .i32⟩ : BufTy).Contents (Elt F))
abbrev op7 : HloOp τ sig (Elt F) := StableHlo.reshape main_v7 main_v8 rfl shapeCasts_S8192x26_S212992
abbrev op8 : HloOp τ sig (Elt F) := StableHlo.unary main_v1 main_v10 ((extractStridedSlice S13x8192 ![0, 0] · slices_S13x16384_S13x8192_0_0) : (⟨S13x16384, .f32⟩ : BufTy).Contents (Elt F) → (⟨S13x8192, .f32⟩ : BufTy).Contents (Elt F))
abbrev op9 : HloOp τ sig (Elt F) := StableHlo.unary main_v1 main_v12 ((extractStridedSlice S13x8192 ![0, 8192] · slices_S13x16384_S13x8192_0_8192) : (⟨S13x16384, .f32⟩ : BufTy).Contents (Elt F) → (⟨S13x8192, .f32⟩ : BufTy).Contents (Elt F))
abbrev op10 : HloOp τ sig (Elt F) := StableHlo.unary main_v11 main_v13 id
abbrev op11 : HloOp τ sig (Elt F) := StableHlo.unary main_v13 main_v14 ((transpose S16384x3341 [1, 0] · transposes_S3341x16384_S16384x3341_1_0) : (⟨S3341x16384, .f32⟩ : BufTy).Contents (Elt F) → (⟨S16384x3341, .f32⟩ : BufTy).Contents (Elt F))

/-- A TensorCore reference as a device buffer. -/
abbrev r (b : Ref sig .tc) : DevRef τ sig := Proc.devRef .tc b

/-- The TensorCore's unscoped buffers: what @main's host operations run within. -/
abbrev SS : Finset (DevRef τ sig) := Pipeline.ucRefs τ sig

variable (m : (ℓ : Loc nD τ sig) → Buf (Elt F) ℓ) (ρ : Dev nD → PrngReg)

/-- The launch valuation of device `d`. -/
def W0 (d : Dev nD) : Valuation τ sig (Elt F) := fun b => m (d, b)

/-- An operation on two TensorCore references touches TensorCore buffers only. -/
theorem sub2 (x y : Ref sig .tc) :
    ({Proc.devRef (.tc : Proc τ) x, Proc.devRef (.tc : Proc τ) y} : Finset (DevRef τ sig)) ⊆ StableHlo.tcRefs τ sig :=
  Finset.insert_subset (StableHlo.devRef_mem_tcRefs x) (Finset.singleton_subset_iff.mpr (StableHlo.devRef_mem_tcRefs y))

/-! ## The valuations along @main -/

/-- After the six host operations before the first gather call. -/
abbrev W6 (d : Dev nD) : Valuation τ sig (Elt F) :=
  (op5 (F := F)).result ((op4 (F := F)).result ((op3 (F := F)).result ((op2 (F := F)).result ((op1 (F := F)).result ((op0 (F := F)).result (W0 m d))))))
/-- After the first call (the gathered array at what the call left) and the two host operations before the second. -/
abbrev W9 (d : Dev nD) (f6 : Buf (Elt F) ((SparseCore.T d : Thread nD τ).loc main_v6)) : Valuation τ sig (Elt F) :=
  (op7 (F := F)).result ((op6 (F := F)).result (Function.update (W6 m d) (r main_v6) f6))
/-- After the second call and the slice of the dense features for the first region. -/
abbrev W11 (d : Dev nD) (f6 : Buf (Elt F) ((SparseCore.T d : Thread nD τ).loc main_v6)) (f9 : Buf (Elt F) ((SparseCore.T d : Thread nD τ).loc main_v9)) :
    Valuation τ sig (Elt F) :=
  (op8 (F := F)).result (Function.update (W9 m d f6) (r main_v9) f9)

/-- The embedding table as the tasks read it, and the two calls' index lists: what the host operations before each call
    leave in `main_v0`, `main_v5`, `main_v8` (the second call's computed from the launch contents alone). -/
def Tb (d : Dev nD) : Buf (Elt F) ((SparseCore.T d : Thread nD τ).loc main_v0) := W6 m d (r main_v0)
def Iv0 (d : Dev nD) : Buf (Elt F) ((SparseCore.T d : Thread nD τ).loc main_v5) := W6 m d (r main_v5)
def Iv1 (d : Dev nD) : Buf (Elt F) ((SparseCore.T d : Thread nD τ).loc main_v8) :=
  (op7 (F := F)).result ((op6 (F := F)).result (W6 m d)) (r main_v8)

/-- The handshakes' payloads at those contents. -/
abbrev PP : (K (F := F)).Pay (nD := nD) (Val := Elt F) (Name := ℕ) (U := UU) := P (Tb m) (Iv0 m) (Iv1 m)

/-- What the launch element deals @main for the two TensorCore regions: each pipeline's staging cells' ghost state and
    the duty tokens of its loop's transfers. -/
def Gd (d : Dev nD) : sProp 𝕄 :=
  iprop(Pipeline.cellsGhost cfgs ER (0 : Fin 2) d ∗ Pipeline.toksInit cfgs ER (0 : Fin 2) d
    ∗ Pipeline.cellsGhost cfgs ER (1 : Fin 2) d ∗ Pipeline.toksInit cfgs ER (1 : Fin 2) d)

/-- The three arrays a gather call moves: the table, the call's index list, the call's gathered rows. -/
abbrev T0 : Finset (DevRef τ sig) := {r main_v0, r main_v5, r main_v6}
abbrev T1 : Finset (DevRef τ sig) := {r main_v0, r main_v8, r main_v9}

theorem hT0 : T0 ⊆ SS := by decide
theorem hT1 : T1 ⊆ SS := by decide

theorem held_T0 (c : Thread nD τ) (W : Valuation τ sig (Elt F)) :
    (held c T0 W : sProp 𝕄) = iprop(((c.1, r main_v0) ↦{fullShare} W (r main_v0)) ∗ ((c.1, r main_v5) ↦{fullShare} W (r main_v5))
      ∗ ((c.1, r main_v6) ↦{fullShare} W (r main_v6))) := by
  unfold held T0
  rw [SparseCore.bigSep_insert' (by decide), SparseCore.bigSep_insert' (by decide), bigSep_singleton]
theorem held_T1 (c : Thread nD τ) (W : Valuation τ sig (Elt F)) :
    (held c T1 W : sProp 𝕄) = iprop(((c.1, r main_v0) ↦{fullShare} W (r main_v0)) ∗ ((c.1, r main_v8) ↦{fullShare} W (r main_v8))
      ∗ ((c.1, r main_v9) ↦{fullShare} W (r main_v9))) := by
  unfold held T1
  rw [SparseCore.bigSep_insert' (by decide), SparseCore.bigSep_insert' (by decide), bigSep_singleton]

/-- The buffers outside a set do not see an update inside it. -/
theorem held_rest_update {Tset : Finset (DevRef τ sig)} (c : Thread nD τ) (W : Valuation τ sig (Elt F)) (b : DevRef τ sig) (hb : b ∈ Tset)
    (f : b.ty.Contents (Elt F)) : (held c (SS \ Tset) (Function.update W b f) : sProp 𝕄) = held c (SS \ Tset) W :=
  StableHlo.held_congr c fun b' hb' => Function.update_of_ne (fun e => (Finset.mem_sdiff.mp hb').2 (by rw [e]; exact hb)) _ _

/-- The three arrays of the first call back into the held set, the gathered array at what the call left. -/
theorem held_put0 (c : Thread nD τ) (W : Valuation τ sig (Elt F)) (f : (r main_v6).ty.Contents (Elt F)) :
    iprop(((c.1, r main_v0) ↦{fullShare} W (r main_v0)) ∗ ((c.1, r main_v5) ↦{fullShare} W (r main_v5)) ∗ ((c.1, r main_v6) ↦{fullShare} f)
        ∗ held c (SS \ T0) W)
      ⊢ (held c SS (Function.update W (r main_v6) f) : sProp 𝕄) := by
  rw [StableHlo.held_sub_split c hT0 (Function.update W (r main_v6) f), held_T0, held_rest_update c W (r main_v6) (by decide) f,
    Function.update_of_ne (show r main_v0 ≠ r main_v6 by decide), Function.update_of_ne (show r main_v5 ≠ r main_v6 by decide), Function.update_self]
  iintro ⟨H0, H5, H6, Hr⟩
  isplitr [Hr]
  · isplitl [H0]; · iexact H0
    isplitl [H5]; · iexact H5
    iexact H6
  iexact Hr
/-- The same for the second call. -/
theorem held_put1 (c : Thread nD τ) (W : Valuation τ sig (Elt F)) (f : (r main_v9).ty.Contents (Elt F)) :
    iprop(((c.1, r main_v0) ↦{fullShare} W (r main_v0)) ∗ ((c.1, r main_v8) ↦{fullShare} W (r main_v8)) ∗ ((c.1, r main_v9) ↦{fullShare} f)
        ∗ held c (SS \ T1) W)
      ⊢ (held c SS (Function.update W (r main_v9) f) : sProp 𝕄) := by
  rw [StableHlo.held_sub_split c hT1 (Function.update W (r main_v9) f), held_T1, held_rest_update c W (r main_v9) (by decide) f,
    Function.update_of_ne (show r main_v0 ≠ r main_v9 by decide), Function.update_of_ne (show r main_v8 ≠ r main_v9 by decide), Function.update_self]
  iintro ⟨H0, H8, H9, Hr⟩
  isplitr [Hr]
  · isplitl [H0]; · iexact H0
    isplitl [H8]; · iexact H8
    iexact H9
  iexact Hr

/-! ## The two TensorCore regions' arrays in and out of the held set -/

abbrev TR0 : Finset (DevRef τ sig) := {r main_v6, r main_v10, r main_v2, r main_v3, r main_v11}
abbrev TR1 : Finset (DevRef τ sig) := {r main_v9, r main_v12, r main_v2, r main_v3, r main_v13}
theorem hTR0 : TR0 ⊆ SS := by decide
theorem hTR1 : TR1 ⊆ SS := by decide

theorem held_TR0 (d : Dev nD) (W : Valuation τ sig (Elt F)) :
    (held (SparseCore.T d) TR0 W : sProp 𝕄) = Tc2.arrs2 (U := UU) d (fun w => W (r (Pipeline.arrRef spec2 w))) := by
  unfold held TR0 Tc2.arrs2
  rw [SparseCore.bigSep_insert' (by decide), SparseCore.bigSep_insert' (by decide), SparseCore.bigSep_insert' (by decide),
    SparseCore.bigSep_insert' (by decide), bigSep_singleton, Gen.bigSep_W2]
theorem held_TR1 (d : Dev nD) (W : Valuation τ sig (Elt F)) :
    (held (SparseCore.T d) TR1 W : sProp 𝕄) = Tc3.arrs3 (U := UU) d (fun w => W (r (Pipeline.arrRef spec3 w))) := by
  unfold held TR1 Tc3.arrs3
  rw [SparseCore.bigSep_insert' (by decide), SparseCore.bigSep_insert' (by decide), SparseCore.bigSep_insert' (by decide),
    SparseCore.bigSep_insert' (by decide), bigSep_singleton, Gen.bigSep_W3]

/-- The first region's arrays back, the result at `g`. -/
theorem held_putR0 (d : Dev nD) (W : Valuation τ sig (Elt F)) (g : (r main_v11).ty.Contents (Elt F)) :
    iprop(((((SparseCore.T d : Thread nD τ).1, r main_v6) ↦{fullShare} W (r main_v6)) ∗ (((SparseCore.T d : Thread nD τ).1, r main_v10) ↦{fullShare} W (r main_v10))
        ∗ (((SparseCore.T d : Thread nD τ).1, r main_v2) ↦{fullShare} W (r main_v2)) ∗ (((SparseCore.T d : Thread nD τ).1, r main_v3) ↦{fullShare} W (r main_v3))
        ∗ (((SparseCore.T d : Thread nD τ).1, r main_v11) ↦{fullShare} g)) ∗ held (SparseCore.T d) (SS \ TR0) W)
      ⊢ (held (SparseCore.T d) SS (Function.update W (r main_v11) g) : sProp 𝕄) := by
  rw [StableHlo.held_sub_split (SparseCore.T d) hTR0 (Function.update W (r main_v11) g), held_rest_update (SparseCore.T d) W (r main_v11) (by decide) g]
  unfold held TR0
  rw [SparseCore.bigSep_insert' (by decide), SparseCore.bigSep_insert' (by decide), SparseCore.bigSep_insert' (by decide),
    SparseCore.bigSep_insert' (by decide), bigSep_singleton,
    Function.update_of_ne (show r main_v6 ≠ r main_v11 by decide), Function.update_of_ne (show r main_v10 ≠ r main_v11 by decide),
    Function.update_of_ne (show r main_v2 ≠ r main_v11 by decide), Function.update_of_ne (show r main_v3 ≠ r main_v11 by decide), Function.update_self]
/-- The second region's arrays back, the result at `g`. -/
theorem held_putR1 (d : Dev nD) (W : Valuation τ sig (Elt F)) (g : (r main_v13).ty.Contents (Elt F)) :
    iprop(((((SparseCore.T d : Thread nD τ).1, r main_v9) ↦{fullShare} W (r main_v9)) ∗ (((SparseCore.T d : Thread nD τ).1, r main_v12) ↦{fullShare} W (r main_v12))
        ∗ (((SparseCore.T d : Thread nD τ).1, r main_v2) ↦{fullShare} W (r main_v2)) ∗ (((SparseCore.T d : Thread nD τ).1, r main_v3) ↦{fullShare} W (r main_v3))
        ∗ (((SparseCore.T d : Thread nD τ).1, r main_v13) ↦{fullShare} g)) ∗ held (SparseCore.T d) (SS \ TR1) W)
      ⊢ (held (SparseCore.T d) SS (Function.update W (r main_v13) g) : sProp 𝕄) := by
  rw [StableHlo.held_sub_split (SparseCore.T d) hTR1 (Function.update W (r main_v13) g), held_rest_update (SparseCore.T d) W (r main_v13) (by decide) g]
  unfold held TR1
  rw [SparseCore.bigSep_insert' (by decide), SparseCore.bigSep_insert' (by decide), SparseCore.bigSep_insert' (by decide),
    SparseCore.bigSep_insert' (by decide), bigSep_singleton,
    Function.update_of_ne (show r main_v9 ≠ r main_v13 by decide), Function.update_of_ne (show r main_v12 ≠ r main_v13 by decide),
    Function.update_of_ne (show r main_v2 ≠ r main_v13 by decide), Function.update_of_ne (show r main_v3 ≠ r main_v13 by decide), Function.update_self]

/-- The first region's proof data at the valuation `W` the region finds and the recorded waits `Wt`. -/
abbrev D2 (W : Valuation τ sig (Elt F)) (Wt : Waits sig (HIx 2)) (d : Dev nD) :=
  Tc2.dat2 (U := UU) (fun _ b => W (r b)) (fun _ => Wt) (Tc2.outAt (U := UU) fun _ b => W (r b)) d
abbrev D3 (W : Valuation τ sig (Elt F)) (Wt : Waits sig (HIx 2)) (d : Dev nD) :=
  Tc3.dat3 (U := UU) (fun _ b => W (r b)) (fun _ => Wt) (Tc3.outAt (U := UU) fun _ b => W (r b)) d

/-- After the first region: its arrays back into the held set, the result array at what the pipeline library computes. -/
theorem putBackR0 (d : Dev nD) (W : Valuation τ sig (Elt F)) (Wt : Waits sig (HIx 2)) :
    iprop(Tc2.arrs2 (U := UU) d (fun w => (D2 W Wt d).arrAt w cfg2.N) ∗ held (SparseCore.T d) (SS \ TR0) W)
      ⊢ (held (SparseCore.T d) SS (Function.update W (r main_v11) ((D2 W Wt d).arrAt 4 cfg2.N)) : sProp 𝕄) := by
  unfold Tc2.arrs2
  rw [Gen.bigSep_W2]
  beta_reduce
  rw [(D2 W Wt d).arrAt_in 0 rfl, (D2 W Wt d).arrAt_in 1 rfl, (D2 W Wt d).arrAt_in 2 rfl, (D2 W Wt d).arrAt_in 3 rfl]
  exact held_putR0 d W ((D2 W Wt d).arrAt 4 cfg2.N)
theorem putBackR1 (d : Dev nD) (W : Valuation τ sig (Elt F)) (Wt : Waits sig (HIx 2)) :
    iprop(Tc3.arrs3 (U := UU) d (fun w => (D3 W Wt d).arrAt w cfg3.N) ∗ held (SparseCore.T d) (SS \ TR1) W)
      ⊢ (held (SparseCore.T d) SS (Function.update W (r main_v13) ((D3 W Wt d).arrAt 4 cfg3.N)) : sProp 𝕄) := by
  unfold Tc3.arrs3
  rw [Gen.bigSep_W3]
  beta_reduce
  rw [(D3 W Wt d).arrAt_in 0 rfl, (D3 W Wt d).arrAt_in 1 rfl, (D3 W Wt d).arrAt_in 2 rfl, (D3 W Wt d).arrAt_in 3 rfl]
  exact held_putR1 d W ((D3 W Wt d).arrAt 4 cfg3.N)

/-- After the first region, the slice for the second and the copy of the first region's result into the aliased buffer. -/
abbrev W14 (d : Dev nD) (f6 : Buf (Elt F) ((SparseCore.T d : Thread nD τ).loc main_v6)) (f9 : Buf (Elt F) ((SparseCore.T d : Thread nD τ).loc main_v9))
    (Wt : Waits sig (HIx 2)) : Valuation τ sig (Elt F) :=
  (op10 (F := F)).result ((op9 (F := F)).result (Function.update (W11 m d f6 f9) (r main_v11) ((D2 (W11 m d f6 f9) Wt d).arrAt 4 cfg2.N)))
/-- At @main's end. -/
abbrev W16 (d : Dev nD) (f6 : Buf (Elt F) ((SparseCore.T d : Thread nD τ).loc main_v6)) (f9 : Buf (Elt F) ((SparseCore.T d : Thread nD τ).loc main_v9))
    (Wt W1 : Waits sig (HIx 2)) : Valuation τ sig (Elt F) :=
  (op11 (F := F)).result (Function.update (W14 m d f6 f9 Wt) (r main_v13) ((D3 (W14 m d f6 f9 Wt) W1 d).arrAt 4 cfg3.N))

/-- What @main leaves the claim: the five argument arrays at their launch contents. -/
def FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ ((SparseCore.T d : Thread nD τ).loc main_arg3 ↦{fullShare} m ((SparseCore.T d : Thread nD τ).loc main_arg3))
    ∗ ((SparseCore.T d : Thread nD τ).loc main_arg4 ↦{fullShare} m ((SparseCore.T d : Thread nD τ).loc main_arg4)))

/-- Both calls are past: the TensorCore owes no start signal any more. -/
theorem Otc_two (d : Dev nD) : (K (F := F)).Otc d 2 = 0 := by
  unfold SparseCore.Cfg.Otc
  exact Finset.sum_eq_zero fun q _ => if_neg (by have := q.isLt; omega)

/-- The TensorCore's state after both calls: what it owes (nothing) with its recorded waits, and the rest. -/
theorem tcSt_split (d : Dev nD) : ∃ R : sProp 𝕄, (K (F := F)).tcSt EH d 2
    = iprop((∃ W, ⌜(K (F := F)).WBelow (SparseCore.T d) W (8 * 2)⌝ ∗ owes (SparseCore.T d) ((K (F := F)).Otc d 2) W) ∗ R) :=
  ⟨_, rfl⟩

set_option backward.isDefEq.respectTransparency.types false in
/-- **@main on device `d`'s TensorCore.**  Six host operations; the first gather call (the table, its index list and its
    gathered array handed to the SparseCores and taken back: `hcall0`); two host operations; the second call (`hcall1`); the
    slice of the dense features; the first TensorCore region (`Tc2.region0_run`); the second slice and the copy into the
    aliased result; the second region (`Tc3.region1_run`); the transpose.  The thread's handshake state comes back at call
    index 2 (the regions' own waits are recorded at index `none`, level 0), and the argument arrays as launched (`hfinal`:
    no operation writes them). -/
theorem hmain (κ : GSem nD τ sig → ℕ) (d : Dev nD)
    (hcall0 : iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))))
    (hcall1 : ∀ f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))))
    (hfinal : ∀ f6 f9 Wt W1, (held (SparseCore.T d) SS (W16 m d f6 f9 Wt W1) : sProp 𝕄) ⊢ FIN m d) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [show unscopedBufs d (fun b => m ((SparseCore.T d : Thread nD τ).loc b)) = held (SparseCore.T d) SS (W0 m d)
    from Pipeline.unscopedBufs_held (Ix := HIx 2) (Name := ℕ) (U := UU) (Lvl := ℕ) d (W0 m d)]
  simp only [main, wp_bind, wp_pure]
  iintro ⟨#Hctx, Hst, ⟨Hb, Hheld, -, -⟩, HG⟩
  -- host operation 0
  iapply (wp_hlo_within 𝒱 (SparseCore.T d) none Set.univ (op := op0) (S := SS) (Pipeline.sub_ucRefs _ (sub2 _ _)) (V := W0 m d)) $$ [Hb Hheld]
  · isplitl [Hb]; · iexact Hb
    iexact Hheld
  iintro ⟨Hb, Hheld⟩
  rw [wp_ret]; imodintro
  -- host operation 1
  iapply (wp_hlo_within 𝒱 (SparseCore.T d) none Set.univ (op := op1) (S := SS) (Pipeline.sub_ucRefs _ (sub2 _ _)) (V := (op0 (F := F)).result (W0 m d))) $$ [Hb Hheld]
  · isplitl [Hb]; · iexact Hb
    iexact Hheld
  iintro ⟨Hb, Hheld⟩
  rw [wp_ret]; imodintro
  -- host operation 2
  iapply (wp_hlo_within 𝒱 (SparseCore.T d) none Set.univ (op := op2) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 3
  iapply (wp_hlo_within 𝒱 (SparseCore.T d) none Set.univ (op := op3) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 4
  iapply (wp_hlo_within 𝒱 (SparseCore.T d) none Set.univ (op := op4) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 5
  iapply (wp_hlo_within 𝒱 (SparseCore.T d) none Set.univ (op := op5) (S := SS) (Pipeline.sub_ucRefs _ (sub2 _ _)) (V := _)) $$ [Hb Hheld]
  · isplitl [Hb]; · iexact Hb
    iexact Hheld
  iintro ⟨Hb, Hheld⟩
  rw [wp_ret]; imodintro
  -- the first gather call: the table, the index list and the gathered array out of the held set
  ihave Hh := (Entails.of_eq (StableHlo.held_sub_split (SparseCore.T d) hT0 (W6 m d))) $$ Hheld
  icases Hh with ⟨HT, Hrest⟩
  ihave HT' := (Entails.of_eq (held_T0 (F := F) (SparseCore.T d) (W6 m d))) $$ HT
  have hcall0' : iprop((((SparseCore.T d : Thread nD τ).1, r main_v0) ↦{fullShare} W6 m d (r main_v0)) ∗ (((SparseCore.T d : Thread nD τ).1, r main_v5) ↦{fullShare} W6 m d (r main_v5))
      ∗ (((SparseCore.T d : Thread nD τ).1, r main_v6) ↦{fullShare} W6 m d (r main_v6))) ⊢ _ := hcall0
  ihave Hc := hcall0' $$ HT'
  icases Hc with ⟨Hst0, Hback⟩
  iapply ((K (F := F)).wp_run (D (F := F)) 𝒱 (EH := EH) (P := PP m) κ d 0) $$ [Hst Hst0 Hback Hb Hrest HG]
  isplitr; · iexact Hctx
  isplitl [Hst]; · iexact Hst
  isplitl [Hst0]; · iexact Hst0
  iintro ⟨Hst, Hdn⟩
  ihave HT := Hback $$ Hdn
  icases HT with ⟨H0, H5, %f6, H6⟩
  -- back into the held set, the gathered array at what the call left
  ihave Hheld := (held_put0 (F := F) (SparseCore.T d) (W6 m d) f6) $$ [H0 H5 H6 Hrest]
  · isplitl [H0]; · iexact H0
    isplitl [H5]; · iexact H5
    isplitl [H6]; · iexact H6
    iexact Hrest
  -- host operation 6
  iapply (wp_hlo_within 𝒱 (SparseCore.T d) none Set.univ (op := op6) (S := SS) (Pipeline.sub_ucRefs _ (sub2 _ _)) (V := Function.update (W6 m d) (r main_v6) f6)) $$ [Hb Hheld]
  · isplitl [Hb]; · iexact Hb
    iexact Hheld
  iintro ⟨Hb, Hheld⟩
  rw [wp_ret]; imodintro
  -- host operation 7
  iapply (wp_hlo_within 𝒱 (SparseCore.T d) none Set.univ (op := op7) (S := SS) (Pipeline.sub_ucRefs _ (sub2 _ _)) (V := _)) $$ [Hb Hheld]
  · isplitl [Hb]; · iexact Hb
    iexact Hheld
  iintro ⟨Hb, Hheld⟩
  rw [wp_ret]; imodintro
  -- the second gather call
  ihave Hh := (Entails.of_eq (StableHlo.held_sub_split (SparseCore.T d) hT1 (W9 m d f6))) $$ Hheld
  icases Hh with ⟨HT, Hrest⟩
  ihave HT' := (Entails.of_eq (held_T1 (F := F) (SparseCore.T d) (W9 m d f6))) $$ HT
  have hcall1' : iprop((((SparseCore.T d : Thread nD τ).1, r main_v0) ↦{fullShare} W9 m d f6 (r main_v0)) ∗ (((SparseCore.T d : Thread nD τ).1, r main_v8) ↦{fullShare} W9 m d f6 (r main_v8))
      ∗ (((SparseCore.T d : Thread nD τ).1, r main_v9) ↦{fullShare} W9 m d f6 (r main_v9))) ⊢ _ := hcall1 f6
  ihave Hc := hcall1' $$ HT'
  icases Hc with ⟨Hst1, Hback⟩
  iapply ((K (F := F)).wp_run (D (F := F)) 𝒱 (EH := EH) (P := PP m) κ d 1) $$ [Hst Hst1 Hback Hb Hrest HG]
  isplitr; · iexact Hctx
  isplitl [Hst]; · iexact Hst
  isplitl [Hst1]; · iexact Hst1
  iintro ⟨Hst, Hdn⟩
  ihave HT := Hback $$ Hdn
  icases HT with ⟨H0, H8, %f9, H9⟩
  ihave Hheld := (held_put1 (F := F) (SparseCore.T d) (W9 m d f6) f9) $$ [H0 H8 H9 Hrest]
  · isplitl [H0]; · iexact H0
    isplitl [H8]; · iexact H8
    isplitl [H9]; · iexact H9
    iexact Hrest
  -- host operation 8
  iapply (wp_hlo_within 𝒱 (SparseCore.T d) none Set.univ (op := op8) (S := SS) (Pipeline.sub_ucRefs _ (sub2 _ _)) (V := Function.update (W9 m d f6) (r main_v9) f9)) $$ [Hb Hheld]
  · isplitl [Hb]; · iexact Hb
    iexact Hheld
  iintro ⟨Hb, Hheld⟩
  rw [wp_ret]; imodintro
  -- the first TensorCore region: its five arrays out of the held set, what the thread owes out of its handshake state
  obtain ⟨R2, hR2⟩ := tcSt_split (F := F) d
  have hR2' : (K (F := F)).tcSt EH d ((1 : Fin 2).val + 1)
      = iprop((∃ W, ⌜(K (F := F)).WBelow (SparseCore.T d) W (8 * 2)⌝ ∗ owes (SparseCore.T d) (0 : CellTallies nD τ sig (HIx 2)) W) ∗ R2) := by
    rw [show ((1 : Fin 2).val + 1) = 2 from rfl, hR2, Otc_two]
  ihave Hst' := (Entails.of_eq hR2') $$ Hst
  icases Hst' with ⟨⟨%Wt, %hWt, HO⟩, HR2⟩
  ihave HG' := (show (Gd (F := F) d : sProp 𝕄) ⊢ iprop(Pipeline.cellsGhost cfgs ER (0 : Fin 2) d ∗ Pipeline.toksInit cfgs ER (0 : Fin 2) d
    ∗ Pipeline.cellsGhost cfgs ER (1 : Fin 2) d ∗ Pipeline.toksInit cfgs ER (1 : Fin 2) d) from BI.Entails.refl _) $$ HG
  icases HG' with ⟨Hg0, Ht0, Hg1, Ht1⟩
  ihave Hh := (Entails.of_eq (StableHlo.held_sub_split (SparseCore.T d) hTR0 (W11 m d f6 f9))) $$ Hheld
  icases Hh with ⟨HT, Hrest⟩
  ihave Harr := (Entails.of_eq (held_TR0 (F := F) d (W11 m d f6 f9))) $$ HT
  iapply (Tc2.region0_run (U := UU) (fun _ b => W11 m d f6 f9 (r b)) (fun _ => Wt) ER d (fun x => Prog.ret x) _) $$ [Hb Harr HO Hg0 Ht0 Hrest HR2 Hg1 Ht1]
  isplitl [Hb]; · iexact Hb
  isplitl [Harr]; · iexact Harr
  isplitl [HO]; · iexact HO
  isplitl [Hg0]; · iexact Hg0
  isplitl [Ht0]; · iexact Ht0
  iintro ⟨Hb, Harr, HO⟩
  rw [wp_ret]; imodintro
  ihave Hheld := (putBackR0 (F := F) d (W11 m d f6 f9) Wt) $$ [Harr Hrest]
  · isplitl [Harr]; · iexact Harr
    iexact Hrest
  ihave HO' := (show ((D2 (W11 m d f6 f9) Wt d).owesAt none (Fin.last cfg2.N) : sProp 𝕄)
    ⊢ iprop(∃ W' : Waits sig (HIx 2), ⌜(↑W' : Set (SemLoc sig × HIx 2)) ⊆ ↑Wt ∪ cfg2.waitPairs none⌝ ∗ owes (SparseCore.T d) (0 : CellTallies nD τ sig (HIx 2)) W') from BI.Entails.refl _) $$ HO
  icases HO' with ⟨%W1, %hW1, HO⟩
  -- host operation 9
  iapply (wp_hlo_within 𝒱 (SparseCore.T d) none Set.univ (op := op9) (S := SS) (Pipeline.sub_ucRefs _ (sub2 _ _)) (V := Function.update (W11 m d f6 f9) (r main_v11) ((D2 (W11 m d f6 f9) Wt d).arrAt 4 cfg2.N))) $$ [Hb Hheld]
  · isplitl [Hb]; · iexact Hb
    iexact Hheld
  iintro ⟨Hb, Hheld⟩
  rw [wp_ret]; imodintro
  -- host operation 10
  iapply (wp_hlo_within 𝒱 (SparseCore.T d) none Set.univ (op := op10) (S := SS) (Pipeline.sub_ucRefs _ (sub2 _ _)) (V := _)) $$ [Hb Hheld]
  · isplitl [Hb]; · iexact Hb
    iexact Hheld
  iintro ⟨Hb, Hheld⟩
  rw [wp_ret]; imodintro
  -- the second TensorCore region
  ihave Hh := (Entails.of_eq (StableHlo.held_sub_split (SparseCore.T d) hTR1 (W14 m d f6 f9 Wt))) $$ Hheld
  icases Hh with ⟨HT, Hrest⟩
  ihave Harr := (Entails.of_eq (held_TR1 (F := F) d (W14 m d f6 f9 Wt))) $$ HT
  iapply (Tc3.region1_run (U := UU) (fun _ b => W14 m d f6 f9 Wt (r b)) (fun _ => W1) ER d (fun x => Prog.ret x) _) $$ [Hb Harr HO Hg1 Ht1 Hrest HR2]
  isplitl [Hb]; · iexact Hb
  isplitl [Harr]; · iexact Harr
  isplitl [HO]; · iexact HO
  isplitl [Hg1]; · iexact Hg1
  isplitl [Ht1]; · iexact Ht1
  iintro ⟨Hb, Harr, HO⟩
  rw [wp_ret]; imodintro
  ihave Hheld := (putBackR1 (F := F) d (W14 m d f6 f9 Wt) W1) $$ [Harr Hrest]
  · isplitl [Harr]; · iexact Harr
    iexact Hrest
  ihave HO' := (show ((D3 (W14 m d f6 f9 Wt) W1 d).owesAt none (Fin.last cfg3.N) : sProp 𝕄)
    ⊢ iprop(∃ W' : Waits sig (HIx 2), ⌜(↑W' : Set (SemLoc sig × HIx 2)) ⊆ ↑W1 ∪ cfg3.waitPairs none⌝ ∗ owes (SparseCore.T d) (0 : CellTallies nD τ sig (HIx 2)) W') from BI.Entails.refl _) $$ HO
  icases HO' with ⟨%W2, %hW2, HO⟩
  -- host operation 11
  iapply (wp_hlo_within 𝒱 (SparseCore.T d) none Set.univ (op := op11) (S := SS) (Pipeline.sub_ucRefs _ (sub2 _ _)) (V := Function.update (W14 m d f6 f9 Wt) (r main_v13) ((D3 (W14 m d f6 f9 Wt) W1 d).arrAt 4 cfg3.N))) $$ [Hb Hheld]
  · isplitl [Hb]; · iexact Hb
    iexact Hheld
  iintro ⟨Hb, Hheld⟩
  rw [wp_ret]; imodintro
  -- the end: the handshake state folded back (the regions' waits are at index `none`, level 0), the arguments as launched
  imodintro
  isplitl [HO HR2]
  · iapply (Entails.of_eq (show iprop((∃ W, ⌜(K (F := F)).WBelow (SparseCore.T d) W (8 * 2)⌝ ∗ owes (SparseCore.T d) (0 : CellTallies nD τ sig (HIx 2)) W) ∗ R2)
        = (K (F := F)).tcSt EH d 2 from by rw [hR2, Otc_two]))
    isplitl [HO]
    · iexists W2
      isplitr
      · ipureintro
        intro p hp
        rcases hW2 (Finset.mem_coe.mpr hp) with h | ⟨w, s, rfl⟩
        · rcases hW1 h with h' | ⟨w, s, rfl⟩
          · exact hWt p (Finset.mem_coe.mp h')
          · exact Nat.zero_le _
        · exact Nat.zero_le _
      iexact HO
    iexact HR2
  iapply (hfinal f6 f9 Wt W1); iexact Hheld

end Cert.Proof.ScI

end
-- ==== Proof.ScFinalI.lean ====
/-
  @main's last fact: no host operation, SparseCore call or TensorCore region writes an argument array, so at @main's end
  the five of them hold what the launch found.
-/
import proofs.«202673_g7318624272670_cont_9to1c4b_526_24_alg».proof.Proof.ScMainI

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 2) (Elt F) ℕ UU ℕ

variable (m : (ℓ : Loc nD τ sig) → Buf (Elt F) ℓ)

theorem W16_arg0 (d : Dev nD) (f6) (f9) (Wt W1 : Waits sig (HIx 2)) :
    W16 m d f6 f9 Wt W1 (r main_arg0) = m ((SparseCore.T d : Thread nD τ).loc main_arg0) := by
  unfold W16 W14 W11 W9 W6
  rw [(op11 (F := F)).result_of_not_mem _ (show r main_arg0 ∉ ({r main_v14} : Finset (DevRef τ sig)) from by decide),
    Function.update_of_ne (show r main_arg0 ≠ r main_v13 from by decide),
    (op10 (F := F)).result_of_not_mem _ (show r main_arg0 ∉ ({r main_v13} : Finset (DevRef τ sig)) from by decide),
    (op9 (F := F)).result_of_not_mem _ (show r main_arg0 ∉ ({r main_v12} : Finset (DevRef τ sig)) from by decide),
    Function.update_of_ne (show r main_arg0 ≠ r main_v11 from by decide),
    (op8 (F := F)).result_of_not_mem _ (show r main_arg0 ∉ ({r main_v10} : Finset (DevRef τ sig)) from by decide),
    Function.update_of_ne (show r main_arg0 ≠ r main_v9 from by decide),
    (op7 (F := F)).result_of_not_mem _ (show r main_arg0 ∉ ({r main_v8} : Finset (DevRef τ sig)) from by decide),
    (op6 (F := F)).result_of_not_mem _ (show r main_arg0 ∉ ({r main_v7} : Finset (DevRef τ sig)) from by decide),
    Function.update_of_ne (show r main_arg0 ≠ r main_v6 from by decide),
    (op5 (F := F)).result_of_not_mem _ (show r main_arg0 ∉ ({r main_v5} : Finset (DevRef τ sig)) from by decide),
    (op4 (F := F)).result_of_not_mem _ (show r main_arg0 ∉ ({r main_v4} : Finset (DevRef τ sig)) from by decide),
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  rfl

theorem W16_arg1 (d : Dev nD) (f6) (f9) (Wt W1 : Waits sig (HIx 2)) :
    W16 m d f6 f9 Wt W1 (r main_arg1) = m ((SparseCore.T d : Thread nD τ).loc main_arg1) := by
  unfold W16 W14 W11 W9 W6
  rw [(op11 (F := F)).result_of_not_mem _ (show r main_arg1 ∉ ({r main_v14} : Finset (DevRef τ sig)) from by decide),
    Function.update_of_ne (show r main_arg1 ≠ r main_v13 from by decide),
    (op10 (F := F)).result_of_not_mem _ (show r main_arg1 ∉ ({r main_v13} : Finset (DevRef τ sig)) from by decide),
    (op9 (F := F)).result_of_not_mem _ (show r main_arg1 ∉ ({r main_v12} : Finset (DevRef τ sig)) from by decide),
    Function.update_of_ne (show r main_arg1 ≠ r main_v11 from by decide),
    (op8 (F := F)).result_of_not_mem _ (show r main_arg1 ∉ ({r main_v10} : Finset (DevRef τ sig)) from by decide),
    Function.update_of_ne (show r main_arg1 ≠ r main_v9 from by decide),
    (op7 (F := F)).result_of_not_mem _ (show r main_arg1 ∉ ({r main_v8} : Finset (DevRef τ sig)) from by decide),
    (op6 (F := F)).result_of_not_mem _ (show r main_arg1 ∉ ({r main_v7} : Finset (DevRef τ sig)) from by decide),
    Function.update_of_ne (show r main_arg1 ≠ r main_v6 from by decide),
    (op5 (F := F)).result_of_not_mem _ (show r main_arg1 ∉ ({r main_v5} : Finset (DevRef τ sig)) from by decide),
    (op4 (F := F)).result_of_not_mem _ (show r main_arg1 ∉ ({r main_v4} : Finset (DevRef τ sig)) from by decide),
    (op3 (F := F)).result_of_not_mem _ (show r main_arg1 ∉ ({r main_v3} : Finset (DevRef τ sig)) from by decide),
    (op2 (F := F)).result_of_not_mem _ (show r main_arg1 ∉ ({r main_v2} : Finset (DevRef τ sig)) from by decide),
    (op1 (F := F)).result_of_not_mem _ (show r main_arg1 ∉ ({r main_v1} : Finset (DevRef τ sig)) from by decide),
    (op0 (F := F)).result_of_not_mem _ (show r main_arg1 ∉ ({r main_v0} : Finset (DevRef τ sig)) from by decide)]
  rfl

theorem W16_arg2 (d : Dev nD) (f6) (f9) (Wt W1 : Waits sig (HIx 2)) :
    W16 m d f6 f9 Wt W1 (r main_arg2) = m ((SparseCore.T d : Thread nD τ).loc main_arg2) := by
  unfold W16 W14 W11 W9 W6
  rw [(op11 (F := F)).result_of_not_mem _ (show r main_arg2 ∉ ({r main_v14} : Finset (DevRef τ sig)) from by decide),
    Function.update_of_ne (show r main_arg2 ≠ r main_v13 from by decide),
    (op10 (F := F)).result_of_not_mem _ (show r main_arg2 ∉ ({r main_v13} : Finset (DevRef τ sig)) from by decide),
    (op9 (F := F)).result_of_not_mem _ (show r main_arg2 ∉ ({r main_v12} : Finset (DevRef τ sig)) from by decide),
    Function.update_of_ne (show r main_arg2 ≠ r main_v11 from by decide),
    (op8 (F := F)).result_of_not_mem _ (show r main_arg2 ∉ ({r main_v10} : Finset (DevRef τ sig)) from by decide),
    Function.update_of_ne (show r main_arg2 ≠ r main_v9 from by decide),
    (op7 (F := F)).result_of_not_mem _ (show r main_arg2 ∉ ({r main_v8} : Finset (DevRef τ sig)) from by decide),
    (op6 (F := F)).result_of_not_mem _ (show r main_arg2 ∉ ({r main_v7} : Finset (DevRef τ sig)) from by decide),
    Function.update_of_ne (show r main_arg2 ≠ r main_v6 from by decide),
    (op5 (F := F)).result_of_not_mem _ (show r main_arg2 ∉ ({r main_v5} : Finset (DevRef τ sig)) from by decide),
    (op4 (F := F)).result_of_not_mem _ (show r main_arg2 ∉ ({r main_v4} : Finset (DevRef τ sig)) from by decide),
    (op3 (F := F)).result_of_not_mem _ (show r main_arg2 ∉ ({r main_v3} : Finset (DevRef τ sig)) from by decide),
    (op2 (F := F)).result_of_not_mem _ (show r main_arg2 ∉ ({r main_v2} : Finset (DevRef τ sig)) from by decide),
    (op1 (F := F)).result_of_not_mem _ (show r main_arg2 ∉ ({r main_v1} : Finset (DevRef τ sig)) from by decide),
    (op0 (F := F)).result_of_not_mem _ (show r main_arg2 ∉ ({r main_v0} : Finset (DevRef τ sig)) from by decide)]
  rfl

theorem W16_arg3 (d : Dev nD) (f6) (f9) (Wt W1 : Waits sig (HIx 2)) :
    W16 m d f6 f9 Wt W1 (r main_arg3) = m ((SparseCore.T d : Thread nD τ).loc main_arg3) := by
  unfold W16 W14 W11 W9 W6
  rw [(op11 (F := F)).result_of_not_mem _ (show r main_arg3 ∉ ({r main_v14} : Finset (DevRef τ sig)) from by decide),
    Function.update_of_ne (show r main_arg3 ≠ r main_v13 from by decide),
    (op10 (F := F)).result_of_not_mem _ (show r main_arg3 ∉ ({r main_v13} : Finset (DevRef τ sig)) from by decide),
    (op9 (F := F)).result_of_not_mem _ (show r main_arg3 ∉ ({r main_v12} : Finset (DevRef τ sig)) from by decide),
    Function.update_of_ne (show r main_arg3 ≠ r main_v11 from by decide),
    (op8 (F := F)).result_of_not_mem _ (show r main_arg3 ∉ ({r main_v10} : Finset (DevRef τ sig)) from by decide),
    Function.update_of_ne (show r main_arg3 ≠ r main_v9 from by decide),
    (op7 (F := F)).result_of_not_mem _ (show r main_arg3 ∉ ({r main_v8} : Finset (DevRef τ sig)) from by decide),
    (op6 (F := F)).result_of_not_mem _ (show r main_arg3 ∉ ({r main_v7} : Finset (DevRef τ sig)) from by decide),
    Function.update_of_ne (show r main_arg3 ≠ r main_v6 from by decide),
    (op5 (F := F)).result_of_not_mem _ (show r main_arg3 ∉ ({r main_v5} : Finset (DevRef τ sig)) from by decide),
    (op4 (F := F)).result_of_not_mem _ (show r main_arg3 ∉ ({r main_v4} : Finset (DevRef τ sig)) from by decide),
    (op3 (F := F)).result_of_not_mem _ (show r main_arg3 ∉ ({r main_v3} : Finset (DevRef τ sig)) from by decide),
    (op2 (F := F)).result_of_not_mem _ (show r main_arg3 ∉ ({r main_v2} : Finset (DevRef τ sig)) from by decide),
    (op1 (F := F)).result_of_not_mem _ (show r main_arg3 ∉ ({r main_v1} : Finset (DevRef τ sig)) from by decide),
    (op0 (F := F)).result_of_not_mem _ (show r main_arg3 ∉ ({r main_v0} : Finset (DevRef τ sig)) from by decide)]
  rfl

theorem W16_arg4 (d : Dev nD) (f6) (f9) (Wt W1 : Waits sig (HIx 2)) :
    W16 m d f6 f9 Wt W1 (r main_arg4) = m ((SparseCore.T d : Thread nD τ).loc main_arg4) := by
  unfold W16 W14 W11 W9 W6
  rw [(op11 (F := F)).result_of_not_mem _ (show r main_arg4 ∉ ({r main_v14} : Finset (DevRef τ sig)) from by decide),
    Function.update_of_ne (show r main_arg4 ≠ r main_v13 from by decide),
    (op10 (F := F)).result_of_not_mem _ (show r main_arg4 ∉ ({r main_v13} : Finset (DevRef τ sig)) from by decide),
    (op9 (F := F)).result_of_not_mem _ (show r main_arg4 ∉ ({r main_v12} : Finset (DevRef τ sig)) from by decide),
    Function.update_of_ne (show r main_arg4 ≠ r main_v11 from by decide),
    (op8 (F := F)).result_of_not_mem _ (show r main_arg4 ∉ ({r main_v10} : Finset (DevRef τ sig)) from by decide),
    Function.update_of_ne (show r main_arg4 ≠ r main_v9 from by decide),
    (op7 (F := F)).result_of_not_mem _ (show r main_arg4 ∉ ({r main_v8} : Finset (DevRef τ sig)) from by decide),
    (op6 (F := F)).result_of_not_mem _ (show r main_arg4 ∉ ({r main_v7} : Finset (DevRef τ sig)) from by decide),
    Function.update_of_ne (show r main_arg4 ≠ r main_v6 from by decide),
    (op5 (F := F)).result_of_not_mem _ (show r main_arg4 ∉ ({r main_v5} : Finset (DevRef τ sig)) from by decide),
    (op4 (F := F)).result_of_not_mem _ (show r main_arg4 ∉ ({r main_v4} : Finset (DevRef τ sig)) from by decide),
    (op3 (F := F)).result_of_not_mem _ (show r main_arg4 ∉ ({r main_v3} : Finset (DevRef τ sig)) from by decide),
    (op2 (F := F)).result_of_not_mem _ (show r main_arg4 ∉ ({r main_v2} : Finset (DevRef τ sig)) from by decide),
    (op1 (F := F)).result_of_not_mem _ (show r main_arg4 ∉ ({r main_v1} : Finset (DevRef τ sig)) from by decide),
    (op0 (F := F)).result_of_not_mem _ (show r main_arg4 ∉ ({r main_v0} : Finset (DevRef τ sig)) from by decide)]
  rfl

/-- The five argument arrays. -/
abbrev TA : Finset (DevRef τ sig) := {r main_arg0, r main_arg1, r main_arg2, r main_arg3, r main_arg4}
theorem hTA : TA ⊆ SS := by decide

/-- At @main's end the argument arrays are held at their launch contents. -/
theorem hfinal (d : Dev nD) (f6) (f9) (Wt W1 : Waits sig (HIx 2)) :
    (held (SparseCore.T d) SS (W16 m d f6 f9 Wt W1) : sProp 𝕄) ⊢ FIN m d := by
  rw [StableHlo.held_sub_split (SparseCore.T d) hTA (W16 m d f6 f9 Wt W1)]
  refine sep_elim_left.trans ?_
  unfold held TA FIN
  rw [SparseCore.bigSep_insert' (by decide), SparseCore.bigSep_insert' (by decide), SparseCore.bigSep_insert' (by decide),
    SparseCore.bigSep_insert' (by decide), bigSep_singleton,
    W16_arg0, W16_arg1, W16_arg2, W16_arg3, W16_arg4]

end Cert.Proof.ScI

end
-- ==== Proof.ScValsI.lean ====
/-
  What the second gather call finds in the table and in its index list: the first call's result array, which alone changed
  in between, is read by neither of the two host operations before the second call.
-/
import proofs.«202673_g7318624272670_cont_9to1c4b_526_24_alg».proof.Proof.ScMainI

noncomputable section

namespace Cert.Proof.ScI

open Cert.KernelIdeal
open Cert.KernelIdeal.Shapes2.Facts₀ Cert.KernelIdeal.Shapes1.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

/-- The table is as the first call found it. -/
theorem W9_v0 (d : Dev nD) (f6) : W9 m d f6 (r main_v0) = Tb m d := by
  unfold W9 Tb
  rw [(op7 (F := F)).result_of_not_mem _ (show r main_v0 ∉ ({r main_v8} : Finset (DevRef τ sig)) from by decide),
    (op6 (F := F)).result_of_not_mem _ (show r main_v0 ∉ ({r main_v7} : Finset (DevRef τ sig)) from by decide),
    Function.update_of_ne (show r main_v0 ≠ r main_v6 from by decide)]

/-- The second call's index list is computed from the argument array alone. -/
theorem W9_v8 (d : Dev nD) (f6) : W9 m d f6 (r main_v8) = Iv1 m d := by
  unfold W9 Iv1
  show (op7 (F := F)).result _ (Proc.devRef .tc main_v8) = (op7 (F := F)).result _ (Proc.devRef .tc main_v8)
  rw [StableHlo.reshape_result, StableHlo.reshape_result, StableHlo.unary_result, StableHlo.unary_result,
    Function.update_of_ne (show r main_arg0 ≠ r main_v6 from by decide)]

/-- The second call's operand fact, from its form at the named contents. -/
theorem hcall1_of (d : Dev nD)
    (h : ∀ g : Buf (Elt F) ((SparseCore.T d : Thread nD τ).loc main_v9),
      iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄)) :
    ∀ f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))) : sProp 𝕄) := by
  intro f6
  rw [W9_v0, W9_v8]
  exact h _

end Cert.Proof.ScI

end
-- ==== Proof.ScLaunchI.lean ====
/-
  The launch of the idealized kernel's program: the launch element of the ghost state (the handshakes' rounds, the two
  pipelines' staging cells' rounds, the transfers' counters), what it deals @main, how the final memory reads the frame
  claim, and the program's run from the tasks' body obligations and @main's three remaining facts.
-/
import proofs.«202673_g7318624272670_cont_9to1c4b_526_24_alg».proof.Proof.ScMainI
import proofs.«202673_g7318624272670_cont_9to1c4b_526_24_alg».proof.Proof.ScFinalI
import proofs.«202673_g7318624272670_cont_9to1c4b_526_24_alg».proof.Proof.ScValsI

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element -/

/-- The handshakes' rounds, the two pipelines' staging cells' rounds with the duty tokens of their loops' transfers, and
    the transfers' counters at their unit. -/
def u₀ : UU :=
  (initOf (K (F := F)).hsCells (K (F := F)).hsToks,
    (initOf (Pipeline.cells cfgs Gen.cellOf_inj) (Pipeline.launchToks cfgs Gen.cellOf_inj), 1))

omit [FloatOps F] in
theorem bigSep_emp' {I : Type} (s : Finset I) : (bigSep s fun _ => iprop(emp)) = (iprop(emp) : sProp 𝕄) := bigSep_emp_const s

omit [FloatOps F] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem deal_one (c : Dev nD) :
    iprop((Pipeline.cellsGhost cfgs (ER (F := F)) (0 : Fin 2) c ∗ Pipeline.cellsGhost cfgs (ER (F := F)) (1 : Fin 2) c)
        ∗ ((Pipeline.toksInit cfgs (ER (F := F)) (0 : Fin 2) c : sProp 𝕄) ∗ Pipeline.toksInit cfgs (ER (F := F)) (1 : Fin 2) c))
      ⊢ Gd (F := F) c := by
  unfold Gd
  iintro ⟨⟨Hg0, Hg1⟩, Ht0, Ht1⟩
  isplitl [Hg0]; · iexact Hg0
  isplitl [Ht0]; · iexact Ht0
  isplitl [Hg1]; · iexact Hg1
  iexact Ht1

/-- Each device's share of the pipelines' ghost state is what @main's proof starts from. -/
theorem deal_Gd :
    iprop((bigSep Finset.univ fun c : Dev nD => bigSep Finset.univ fun p : Fin 2 => Pipeline.cellsGhost cfgs (ER (F := F)) p c)
        ∗ (bigSep Finset.univ fun c : Dev nD => bigSep Finset.univ fun p : Fin 2 => (Pipeline.toksInit cfgs (ER (F := F)) p c : sProp 𝕄)))
      ⊢ bigSep Finset.univ fun d : Dev nD => Gd (F := F) d := by
  rw [← bigSep_sep']
  refine bigSep_mono fun c _ => ?_
  rw [bigSep_two, bigSep_two]
  exact deal_one c

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (PP m).x q thr) := by
  unfold u₀
  iintro Hu
  have hsplit : (ownU ((initOf (K (F := F)).hsCells (K (F := F)).hsToks,
        (initOf (Pipeline.cells cfgs Gen.cellOf_inj) (Pipeline.launchToks cfgs Gen.cellOf_inj), (1 : Counters))) : UU) : sProp 𝕄)
      ⊢ iprop(BI.own (EH (initOf (K (F := F)).hsCells (K (F := F)).hsToks))
          ∗ BI.own ((ER (F := F)) (initOf (Pipeline.cells cfgs Gen.cellOf_inj) (Pipeline.launchToks cfgs Gen.cellOf_inj)))
          ∗ BI.own ((((Emb.inr : Emb Counters (URp × Counters)).trans embR) : Emb Counters (MT nD τ sig (HIx 2) (Elt F) ℕ UU ℕ)) 1)) :=
    (ownU_pair _ _).trans (BI.sep_mono (BI.Entails.refl _) (own_pair_emb (embR : Emb (URp × Counters) (MT nD τ sig (HIx 2) (Elt F) ℕ UU ℕ)) _ _))
  ihave H := hsplit $$ Hu
  icases H with ⟨HH, HR, -⟩
  imod (Pipeline.fund_ghost cfgs (ER (F := F)) Gen.cellOf_inj) $$ HR with ⟨Hg, Ht⟩
  imodintro
  isplitl [HH]; · iexact HH
  isplitl [Hg Ht]
  · iapply (deal_Gd (F := F))
    isplitl [Hg]; · iexact Hg
    iexact Ht
  show (iprop(emp) : sProp 𝕄) ⊢ bigSep Finset.univ fun _ : Thread nD τ => bigSep Finset.univ fun _ : Fin 2 => (iprop(emp) : sProp 𝕄)
  rw [show (bigSep Finset.univ fun _ : Thread nD τ => bigSep Finset.univ fun _ : Fin 2 => (iprop(emp) : sProp 𝕄)) = iprop(emp) from by
    rw [bigSep_congr fun _ _ => bigSep_emp' _, bigSep_emp']]

/-! ## The claim, read off the final memory -/

def fq (d : Dev nD) (s' : Phys nD τ sig (Elt F)) : Prop :=
  s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg3) = m ((SparseCore.T d : Thread nD τ).loc main_arg3)
  ∧ s'.mem.mem ((SparseCore.T d : Thread nD τ).loc main_arg4) = m ((SparseCore.T d : Thread nD τ).loc main_arg4)

theorem hfin (d : Dev nD) (s' : Phys nD τ sig (Elt F)) : iprop(FIN m d ∗ SI s') ⊢ (⌜fq m d s'⌝ : sProp 𝕄) := by
  unfold FIN fq
  iintro ⟨⟨H0, H1, H2, H3, H4⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare)
    (f := m ((SparseCore.T d : Thread nD τ).loc main_arg1)))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare)
    (f := m ((SparseCore.T d : Thread nD τ).loc main_arg2)))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare)
    (f := m ((SparseCore.T d : Thread nD τ).loc main_arg3)))) $$ [HSI H3]
  · isplitl [HSI] <;> iassumption
  icases H with ⟨%h3, HSI, -⟩
  ihave H := (SI_pointsTo_agree (st := s') (ℓ := (SparseCore.T d : Thread nD τ).loc main_arg4) (I := Finset.univ) (q := fullShare)
    (f := m ((SparseCore.T d : Thread nD τ).loc main_arg4))) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The frame claim's post. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-! ## The program's run -/

/-- **The run of the whole program** (every thread: the TensorCore's @main, the sequencers, the 32 vector subcores), from the
    tasks' body obligations and the three facts @main's proof leaves: every weakly fair execution from a memory with zero
    counters terminates, nothing faulting, the five argument arrays unchanged. -/
theorem run_main [∀ e, Nonempty (Elt F e)]
    (htile : ∀ q : Fin 2, (K (F := F)).TileObl (D (F := F)) 𝒱 (PP m) v₀ q)
    (hcall0 : ∀ d : Dev nD, iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄))
    (hcall1 : ∀ (d : Dev nD) f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))) : sProp 𝕄))
    (hfinal : ∀ (d : Dev nD) f6 f9 Wt W1, (held (SparseCore.T d) SS (W16 m d f6 f9 Wt W1) : sProp 𝕄) ⊢ FIN m d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q, hq with | 0, hq => nomatch hq | 1, hq => nomatch hq)
    (fun q _ => htile q)
    (fun q _ => SparseCore.Cfg.VecSplit.of_plain (vecSplit (Tb m) (Iv0 m) (Iv1 m) q))
    m ρ main (fun d => Gd (F := F) d) (FIN m) (u₀ (F := F)) (sep_elim_left.trans (hu₀ m))
    (fun κ d => hmain m ρ κ d (hcall0 d) (hcall1 d) (hfinal d)) (fq m) (hfin m) (QC m) (fun _ h => h)

/-- The same with @main's last fact discharged and the second call's operand fact taken at the named contents: what is left
    is the two calls' operand splits and the tasks' body obligations. -/
theorem run_main' [∀ e, Nonempty (Elt F e)]
    (htile : ∀ q : Fin 2, (K (F := F)).TileObl (D (F := F)) 𝒱 (PP m) v₀ q)
    (hcall0 : ∀ d : Dev nD, iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄))
    (hcall1 : ∀ (d : Dev nD) (g : Buf (Elt F) ((SparseCore.T d : Thread nD τ).loc main_v9)),
      iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄)) :
    θ_run (Cert.KernelIdeal.defs (F := F)) (Cert.KernelIdeal.threads (F := F)) ⟨m, fun _ => 0, ρ⟩ (QC m) :=
  run_main m ρ htile hcall0 (fun d => hcall1_of m d (hcall1 d)) (fun d => hfinal m d)

end Cert.Proof.ScI

end
-- ==== Proof.ScPartI0.lean ====
/-
  How the thirty-two tasks of the first gather share its two arrays. Task (c, s) — core c of 2, subcore s of 16 — reads
  the 6656 consecutive words of the flat index list that start at 6656·(2s + c), and writes the 6656 rows of the
  gathered array with the same numbers, in 13 trips of 4 blocks of 128 rows: block r of trip t starts at row
  6656·(2s + c) + 512·t + 128·r. The 32 word ranges are pairwise disjoint and together are the whole list; the
  32·13·4 row blocks are pairwise disjoint and together are the whole array. Hence the ownership of each array splits
  into the ownership of the pieces, and pieces held at whatever contents join back into the whole array at some
  contents.
-/
import proofs.«202673_g7318624272670_cont_9to1c4b_526_24_alg».proof.Proof.ScSetsI0
import Idealize.ShloMosaic.Lib.SparseCore.Launch
import Idealize.ShloMosaic.Rules.PointsTo

noncomputable section

namespace Cert.Proof.ScI0

open Cert.KernelIdeal Cert.KernelIdeal.Gen Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The loop over a task's blocks makes thirteen trips. -/
theorem trips_eq : k0_t2_loop.trips = 13 := by decide

theorem trip_lt (t : Fin k0_t2_loop.trips) : t.val < 13 := Nat.lt_of_lt_of_eq t.isLt trips_eq

/-! ## The pieces as sets of indices -/

/-- Task (c, s)'s words of the flat index list. -/
abbrev idxSet (c : Fin (grid0.bound 0)) (s : Fin (grid0.bound 1)) : Finset S212992.Idx := (idxSl (coordsV c s)).view.set

/-- Block `r` of trip `t` of task (c, s)'s rows of the gathered array. -/
abbrev chunkSet (c : Fin (grid0.bound 0)) (s : Fin (grid0.bound 1)) (t : Fin k0_t2_loop.trips) : Fin 4 → Finset S212992x128.Idx
  | 0 => (chunk0 (coordsV c s) t).view.set
  | 1 => (chunk1 (coordsV c s) t).view.set
  | 2 => (chunk2 (coordsV c s) t).view.set
  | 3 => (chunk3 (coordsV c s) t).view.set
  | ⟨_ + 4, h⟩ => absurd h (Nat.not_lt.2 (Nat.le_add_left _ _))

/-- A task's words: those with numbers from 6656·(2s + c), 6656 of them. -/
theorem mem_idxSet (c : Fin (grid0.bound 0)) (s : Fin (grid0.bound 1)) (i : S212992.Idx) :
    i ∈ idxSet c s ↔ 13312 * s.val + 6656 * c.val ≤ (i 0).val ∧ (i 0).val < 13312 * s.val + 6656 * c.val + 6656 := by
  show i ∈ ((View.whole (main_v5_scv : Ref sig .scVector)).slice
    (Rect.unit (s := S212992) (k0_off1 (coordsV c s)) S6656.size (k0_off1_inb (coordsV c s)))).set ↔ _
  rw [View.set_slice_whole, Rect.mem_set_unit, k0_off1_eq]
  constructor
  · intro h
    exact h ⟨0, Nat.one_pos⟩
  · intro h a
    obtain ⟨a, ha⟩ := a
    have ha1 : a < 1 := ha
    have ha0 : a = 0 := by omega
    subst ha0
    exact h

/-- 128 whole rows from row `b` of the gathered array. -/
theorem mem_rows {b : Nat} {inb : ∀ a, (![b, 0] : Fin 2 → Nat) a + S128x128.size a ≤ S212992x128.size a} (i : S212992x128.Idx) :
    i ∈ (Rect.unit (s := S212992x128) ![b, 0] S128x128.size inb).set ↔ b ≤ (i 0).val ∧ (i 0).val < b + 128 := by
  rw [Rect.mem_set_unit]
  constructor
  · intro h
    exact h ⟨0, by decide⟩
  · intro h a
    match a with
    | ⟨0, _⟩ => exact h
    | ⟨1, _⟩ =>
      have h128 : (i 1).val < 128 := (i 1).isLt
      exact ⟨Nat.zero_le _, by show (i 1).val < 0 + 128; omega⟩

/-- A block's rows: 128 from 6656·(2s + c) + 512·t + 128·r. -/
theorem mem_chunkSet (c : Fin (grid0.bound 0)) (s : Fin (grid0.bound 1)) (t : Fin k0_t2_loop.trips) (r : Fin 4) (i : S212992x128.Idx) :
    i ∈ chunkSet c s t r ↔ 13312 * s.val + 6656 * c.val + 512 * t.val + 128 * r.val ≤ (i 0).val
      ∧ (i 0).val < 13312 * s.val + 6656 * c.val + 512 * t.val + 128 * r.val + 128 := by
  match r with
  | ⟨0, _⟩ =>
    show i ∈ ((View.whole (main_v6_scv : Ref sig .scVector)).slice
      (Rect.unit (s := S212992x128) (k0_off20 (coordsV c s) t 0#32) S128x128.size (k0_off20_inb (coordsV c s) t 0))).set ↔ _
    rw [View.set_slice_whole]
    have e : k0_off20 (coordsV c s) t 0#32 = ![13312 * s.val + 6656 * c.val + 512 * t.val + 128 * 0, 0] :=
      k0_off20_eq (coordsV c s) t ⟨0, by decide⟩
    rw [Rect.mem_set_unit, e, ← Rect.mem_set_unit (inb := e ▸ k0_off20_inb (coordsV c s) t 0)]
    exact mem_rows i
  | ⟨1, _⟩ =>
    show i ∈ ((View.whole (main_v6_scv : Ref sig .scVector)).slice
      (Rect.unit (s := S212992x128) (k0_off20 (coordsV c s) t 1#32) S128x128.size (k0_off20_inb (coordsV c s) t 1))).set ↔ _
    rw [View.set_slice_whole]
    have e : k0_off20 (coordsV c s) t 1#32 = ![13312 * s.val + 6656 * c.val + 512 * t.val + 128 * 1, 0] :=
      k0_off20_eq (coordsV c s) t ⟨1, by decide⟩
    rw [Rect.mem_set_unit, e, ← Rect.mem_set_unit (inb := e ▸ k0_off20_inb (coordsV c s) t 1)]
    exact mem_rows i
  | ⟨2, _⟩ =>
    show i ∈ ((View.whole (main_v6_scv : Ref sig .scVector)).slice
      (Rect.unit (s := S212992x128) (k0_off20 (coordsV c s) t 2#32) S128x128.size (k0_off20_inb (coordsV c s) t 2))).set ↔ _
    rw [View.set_slice_whole]
    have e : k0_off20 (coordsV c s) t 2#32 = ![13312 * s.val + 6656 * c.val + 512 * t.val + 128 * 2, 0] :=
      k0_off20_eq (coordsV c s) t ⟨2, by decide⟩
    rw [Rect.mem_set_unit, e, ← Rect.mem_set_unit (inb := e ▸ k0_off20_inb (coordsV c s) t 2)]
    exact mem_rows i
  | ⟨3, _⟩ =>
    show i ∈ ((View.whole (main_v6_scv : Ref sig .scVector)).slice
      (Rect.unit (s := S212992x128) (k0_off20 (coordsV c s) t 3#32) S128x128.size (k0_off20_inb (coordsV c s) t 3))).set ↔ _
    rw [View.set_slice_whole]
    have e : k0_off20 (coordsV c s) t 3#32 = ![13312 * s.val + 6656 * c.val + 512 * t.val + 128 * 3, 0] :=
      k0_off20_eq (coordsV c s) t ⟨3, by decide⟩
    rw [Rect.mem_set_unit, e, ← Rect.mem_set_unit (inb := e ▸ k0_off20_inb (coordsV c s) t 3)]
    exact mem_rows i

/-! ## The word ranges partition the flat index list -/

/-- The tasks, as pairs. -/
abbrev Task : Type := Fin (grid0.bound 0) × Fin (grid0.bound 1)
/-- A task's words. -/
abbrev idxSetP (p : Task) : Finset S212992.Idx := idxSet p.1 p.2

theorem idx_disjoint : ∀ p ∈ (Finset.univ : Finset Task), ∀ p' ∈ (Finset.univ : Finset Task), p ≠ p' → Disjoint (idxSetP p) (idxSetP p') := by
  intro p _ p' _ hne
  rw [Finset.disjoint_left]
  intro i hi hi'
  rw [mem_idxSet] at hi hi'
  have h1 : p.1.val < 2 := p.1.isLt
  have h2 : p.2.val < 16 := p.2.isLt
  have h1' : p'.1.val < 2 := p'.1.isLt
  have h2' : p'.2.val < 16 := p'.2.isLt
  exact hne (Prod.ext (Fin.ext (by omega)) (Fin.ext (by omega)))

theorem idx_cover : (Finset.univ : Finset Task).biUnion idxSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩), ?_⟩
  rw [mem_idxSet]
  show 13312 * ((i 0).val / 13312) + 6656 * ((i 0).val / 6656 % 2) ≤ (i 0).val
    ∧ (i 0).val < 13312 * ((i 0).val / 13312) + 6656 * ((i 0).val / 6656 % 2) + 6656
  omega

/-! ## The row blocks partition the gathered array -/

/-- The blocks: task, trip, slot. -/
abbrev Block : Type := Fin (grid0.bound 0) × Fin (grid0.bound 1) × Fin k0_t2_loop.trips × Fin 4
/-- A block's rows. -/
abbrev chunkSetP (p : Block) : Finset S212992x128.Idx := chunkSet p.1 p.2.1 p.2.2.1 p.2.2.2

theorem chunk_disjoint : ∀ p ∈ (Finset.univ : Finset Block), ∀ p' ∈ (Finset.univ : Finset Block), p ≠ p' → Disjoint (chunkSetP p) (chunkSetP p') := by
  intro p _ p' _ hne
  rw [Finset.disjoint_left]
  intro i hi hi'
  rw [mem_chunkSet] at hi hi'
  have h1 : p.1.val < 2 := p.1.isLt
  have h2 : p.2.1.val < 16 := p.2.1.isLt
  have h3 := trip_lt p.2.2.1
  have h4 : p.2.2.2.val < 4 := p.2.2.2.isLt
  have h1' : p'.1.val < 2 := p'.1.isLt
  have h2' : p'.2.1.val < 16 := p'.2.1.isLt
  have h3' := trip_lt p'.2.2.1
  have h4' : p'.2.2.2.val < 4 := p'.2.2.2.isLt
  exact hne (Prod.ext (Fin.ext (by omega)) (Prod.ext (Fin.ext (by omega)) (Prod.ext (Fin.ext (by omega)) (Fin.ext (by omega)))))

theorem chunk_cover : (Finset.univ : Finset Block).biUnion chunkSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩,
    ⟨(i 0).val % 6656 / 512, by rw [trips_eq]; omega⟩, ⟨(i 0).val % 512 / 128, by omega⟩), ?_⟩
  rw [mem_chunkSet]
  show 13312 * ((i 0).val / 13312) + 6656 * ((i 0).val / 6656 % 2) + 512 * ((i 0).val % 6656 / 512) + 128 * ((i 0).val % 512 / 128) ≤ (i 0).val
    ∧ (i 0).val < 13312 * ((i 0).val / 13312) + 6656 * ((i 0).val / 6656 % 2) + 512 * ((i 0).val % 6656 / 512) + 128 * ((i 0).val % 512 / 128) + 128
  omega

/-! ## The ownership of the two arrays, split along the pieces and joined back -/

section PointsTo

variable {F : FTy → Type} {U : Type} [URA U]

local notation "𝕄" => MT nD τ sig (HIx 2) (Elt F) ℕ U ℕ

/-- The flat index list and the gathered array of the first call, as locations of device `d`. -/
abbrev ℓ5 (d : Dev nD) : Loc nD τ sig := (SparseCore.T d).loc main_v5
abbrev ℓ6 (d : Dev nD) : Loc nD τ sig := (SparseCore.T d).loc main_v6

/-- An iterated conjunction over four slots is its four summands. -/
theorem bigSep_univ_four {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- The flat index list, at any share and contents, is the tasks' word ranges. -/
theorem pts5_split (d : Dev nD) (q : PosShare TreeShare) (f : Buf (Elt F) (ℓ5 d)) :
    (ℓ5 d ↦{q} f : sProp 𝕄)
      = bigSep Finset.univ fun c : Fin (grid0.bound 0) => bigSep Finset.univ fun s : Fin (grid0.bound 1) => ℓ5 d ↦[idxSet c s]{q} f := by
  have h := pointsTo_biUnion (Ix := HIx 2) (Val := Elt F) (Name := ℕ) (U := U) (Lvl := ℕ) (Finset.univ : Finset Task) (ℓ := ℓ5 d) (q := q) (f := f)
    idxSetP idx_disjoint
  rw [idx_cover] at h
  refine h.trans ?_
  exact bigSep_univ_prod (fun p : Task => (ℓ5 d ↦[idxSetP p]{q} f : sProp 𝕄))

/-- The gathered array, at any share and contents, is the tasks' trips' four row blocks. -/
theorem pts6_split (d : Dev nD) (q : PosShare TreeShare) (f : Buf (Elt F) (ℓ6 d)) :
    (ℓ6 d ↦{q} f : sProp 𝕄)
      = bigSep Finset.univ fun c : Fin (grid0.bound 0) => bigSep Finset.univ fun s : Fin (grid0.bound 1) =>
          bigSep Finset.univ fun t : Fin k0_t2_loop.trips =>
            iprop((ℓ6 d ↦[chunkSet c s t 0]{q} f) ∗ (ℓ6 d ↦[chunkSet c s t 1]{q} f) ∗ (ℓ6 d ↦[chunkSet c s t 2]{q} f)
              ∗ (ℓ6 d ↦[chunkSet c s t 3]{q} f)) := by
  have h := pointsTo_biUnion (Ix := HIx 2) (Val := Elt F) (Name := ℕ) (U := U) (Lvl := ℕ) (Finset.univ : Finset Block) (ℓ := ℓ6 d) (q := q) (f := f)
    chunkSetP chunk_disjoint
  rw [chunk_cover] at h
  refine h.trans ?_
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (ℓ6 d ↦[chunkSet c s t r]{q} f : sProp 𝕄))

/-- The row blocks, each held at contents of its own, in the nested form and over the blocks as one family. -/
theorem pts6_pieces_eq (d : Dev nD) (q : PosShare TreeShare) :
    (bigSep Finset.univ fun c : Fin (grid0.bound 0) => bigSep Finset.univ fun s : Fin (grid0.bound 1) =>
        bigSep Finset.univ fun t : Fin k0_t2_loop.trips =>
          (iprop((∃ f, ℓ6 d ↦[chunkSet c s t 0]{q} f) ∗ (∃ f, ℓ6 d ↦[chunkSet c s t 1]{q} f) ∗ (∃ f, ℓ6 d ↦[chunkSet c s t 2]{q} f)
            ∗ (∃ f, ℓ6 d ↦[chunkSet c s t 3]{q} f)) : sProp 𝕄))
      = bigSep (Finset.univ : Finset Block) fun p => (iprop(∃ f, ℓ6 d ↦[chunkSetP p]{q} f) : sProp 𝕄) := by
  symm
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (iprop(∃ f, ℓ6 d ↦[chunkSet c s t r]{q} f) : sProp 𝕄))

/-- THE JOIN: the row blocks, each held whole at whatever contents, are the gathered array held whole at some contents. -/
theorem pts6_join [FloatOps F] (d : Dev nD) :
    (bigSep Finset.univ fun c : Fin (grid0.bound 0) => bigSep Finset.univ fun s : Fin (grid0.bound 1) =>
        bigSep Finset.univ fun t : Fin k0_t2_loop.trips =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))
      ⊢ (iprop(∃ f, ℓ6 d ↦{fullShare} f) : sProp 𝕄) := by
  have p0 : Block := (⟨0, by decide⟩, ⟨0, by decide⟩, ⟨0, by rw [trips_eq]; decide⟩, (0 : Fin 4))
  rw [pts6_pieces_eq]
  refine (bigSep_exists_pi Finset.univ (fun (p : Block) (f : Buf (Elt F) (ℓ6 d)) => (ℓ6 d ↦[chunkSetP p]{fullShare} f : sProp 𝕄))).trans ?_
  iintro ⟨%fs, H⟩
  have hj := pointsTo_biUnion_join (Ix := HIx 2) (Val := Elt F) (Name := ℕ) (U := U) (Lvl := ℕ) (ℓ := ℓ6 d) (q := fullShare)
    (Finset.univ : Finset Block) chunkSetP fs (fs p0) chunk_disjoint
  rw [chunk_cover] at hj
  ihave H' := hj $$ H
  icases H' with ⟨%g, -, Hg⟩
  iexists g; iexact Hg

/-! ### A piece's location as a task spells it

A task names a piece through its own view of the array; the location is the array's, whichever thread of the device
names it. -/

theorem loc_idxSl (d : Dev nD) (c' : Fin τ.nSC) (s' : Fin τ.nSub) (L : grid0.Coords) :
    (idxSl L).view.loc (V d c' s') = ℓ5 d := rfl
theorem loc_chunk0 (d : Dev nD) (c' : Fin τ.nSC) (s' : Fin τ.nSub) (L : grid0.Coords) (t : Fin k0_t2_loop.trips) :
    (chunk0 L t).view.loc (V d c' s') = ℓ6 d := rfl
theorem loc_chunk1 (d : Dev nD) (c' : Fin τ.nSC) (s' : Fin τ.nSub) (L : grid0.Coords) (t : Fin k0_t2_loop.trips) :
    (chunk1 L t).view.loc (V d c' s') = ℓ6 d := rfl
theorem loc_chunk2 (d : Dev nD) (c' : Fin τ.nSC) (s' : Fin τ.nSub) (L : grid0.Coords) (t : Fin k0_t2_loop.trips) :
    (chunk2 L t).view.loc (V d c' s') = ℓ6 d := rfl
theorem loc_chunk3 (d : Dev nD) (c' : Fin τ.nSC) (s' : Fin τ.nSub) (L : grid0.Coords) (t : Fin k0_t2_loop.trips) :
    (chunk3 L t).view.loc (V d c' s') = ℓ6 d := rfl

/-- A task's word range, as the task holds it, is that piece of the flat index list. -/
theorem pts_idxSl (d : Dev nD) (c' : Fin τ.nSC) (s' : Fin τ.nSub) (c : Fin (grid0.bound 0)) (s : Fin (grid0.bound 1))
    (q : PosShare TreeShare) (f : Buf (Elt F) (ℓ5 d)) :
    ((idxSl (coordsV c s)).view.loc (V d c' s') ↦[(idxSl (coordsV c s)).view.set]{q} f : sProp 𝕄) = ℓ5 d ↦[idxSet c s]{q} f := rfl
/-- A row block, as the task holds it, is that piece of the gathered array. -/
theorem pts_chunk0 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk0 (coordsV c s) t).view.loc (V d c' s') ↦[(chunk0 (coordsV c s) t).view.set]{q} f : sProp 𝕄) = ℓ6 d ↦[chunkSet c s t 0]{q} f := rfl
theorem pts_chunk1 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk1 (coordsV c s) t).view.loc (V d c' s') ↦[(chunk1 (coordsV c s) t).view.set]{q} f : sProp 𝕄) = ℓ6 d ↦[chunkSet c s t 1]{q} f := rfl
theorem pts_chunk2 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk2 (coordsV c s) t).view.loc (V d c' s') ↦[(chunk2 (coordsV c s) t).view.set]{q} f : sProp 𝕄) = ℓ6 d ↦[chunkSet c s t 2]{q} f := rfl
theorem pts_chunk3 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk3 (coordsV c s) t).view.loc (V d c' s') ↦[(chunk3 (coordsV c s) t).view.set]{q} f : sProp 𝕄) = ℓ6 d ↦[chunkSet c s t 3]{q} f := rfl

end PointsTo

end Cert.Proof.ScI0

end
-- ==== Proof.ScCall0I.lean ====
/-
  The first gather call's operands, split among the 32 tasks and joined back: the embedding table's full share into 32
  independent read shares, one per task, each into the four read tokens of the task's gather semaphores (what is left
  of every share is kept for the way back); the index list into the tasks' word ranges; the gathered array into the
  tasks' row blocks, each handed at whatever it holds.
-/
import proofs.«202673_g7318624272670_cont_9to1c4b_526_24_alg».proof.Proof.ScMainI
import proofs.«202673_g7318624272670_cont_9to1c4b_526_24_alg».proof.Proof.ScPartI0

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## Regrouping -/

theorem assoc3 (A B C : sProp 𝕄) : iprop(A ∗ B ∗ C) = iprop((A ∗ B) ∗ C) :=
  BI.Entails.antisymm
    (show (iprop(A ∗ B ∗ C) : sProp 𝕄) ⊢ iprop((A ∗ B) ∗ C) from by
      iintro ⟨HA, HB, HC⟩
      isplitl [HA HB]
      · isplitl [HA]; · iexact HA
        iexact HB
      iexact HC)
    (show (iprop((A ∗ B) ∗ C) : sProp 𝕄) ⊢ iprop(A ∗ B ∗ C) from by
      iintro ⟨⟨HA, HB⟩, HC⟩
      isplitl [HA]; · iexact HA
      isplitl [HB]; · iexact HB
      iexact HC)

theorem regroup6 (a b c e x y : sProp 𝕄) : iprop(a ∗ b ∗ c ∗ e ∗ x ∗ y) = iprop((a ∗ b ∗ c ∗ e) ∗ x ∗ y) :=
  BI.Entails.antisymm
    (show (iprop(a ∗ b ∗ c ∗ e ∗ x ∗ y) : sProp 𝕄) ⊢ iprop((a ∗ b ∗ c ∗ e) ∗ x ∗ y) from by
      iintro ⟨Ha, Hb, Hc, He, Hx, Hy⟩
      isplitl [Ha Hb Hc He]
      · isplitl [Ha]; · iexact Ha
        isplitl [Hb]; · iexact Hb
        isplitl [Hc]; · iexact Hc
        iexact He
      isplitl [Hx]; · iexact Hx
      iexact Hy)
    (show (iprop((a ∗ b ∗ c ∗ e) ∗ x ∗ y) : sProp 𝕄) ⊢ iprop(a ∗ b ∗ c ∗ e ∗ x ∗ y) from by
      iintro ⟨⟨Ha, Hb, Hc, He⟩, Hx, Hy⟩
      isplitl [Ha]; · iexact Ha
      isplitl [Hb]; · iexact Hb
      isplitl [Hc]; · iexact Hc
      isplitl [He]; · iexact He
      isplitl [Hx]; · iexact Hx
      iexact Hy)

theorem weaken4 {X : Type} (P0 P1 P2 P3 : X → sProp 𝕄) (g : X) :
    (iprop(P0 g ∗ P1 g ∗ P2 g ∗ P3 g) : sProp 𝕄) ⊢ iprop((∃ f, P0 f) ∗ (∃ f, P1 f) ∗ (∃ f, P2 f) ∗ ∃ f, P3 f) := by
  iintro ⟨H0, H1, H2, H3⟩
  isplitl [H0]; · iexists g; iexact H0
  isplitl [H1]; · iexists g; iexact H1
  isplitl [H2]; · iexists g; iexact H2
  iexists g; iexact H3

/-- A double iterated conjunction of three-fold conjunctions is the three double iterated conjunctions. -/
theorem split3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i) ∗ (bigSep Finset.univ fun c => bigSep Finset.univ fun i => B c i)
          ∗ (bigSep Finset.univ fun c => bigSep Finset.univ fun i => C c i)) := by
  rw [bigSep_congr fun c _ => bigSep_sep' Finset.univ (A c) (fun i => iprop(B c i ∗ C c i)),
    bigSep_sep' Finset.univ (fun c => bigSep Finset.univ (A c)) (fun c => bigSep Finset.univ fun i => iprop(B c i ∗ C c i)),
    bigSep_congr fun c _ => bigSep_sep' Finset.univ (B c) (C c),
    bigSep_sep' Finset.univ (fun c => bigSep Finset.univ (B c)) (fun c => bigSep Finset.univ (C c))]

/-! ## Read tokens of one buffer -/

section Tokens

variable {ℓ : Loc nD τ sig} (f : Buf (Elt F) ℓ)

/-- Tokens `a, a+1, a+2, a+3` of share `q`. -/
def tok4 (q : PosShare TreeShare) (a : ℕ) : sProp 𝕄 :=
  iprop((ℓ ↦{Transfers.shareTokN q a} f) ∗ (ℓ ↦{Transfers.shareTokN q (a + 1)} f) ∗ (ℓ ↦{Transfers.shareTokN q (a + 2)} f)
    ∗ (ℓ ↦{Transfers.shareTokN q (a + 3)} f))

theorem range4 (Φ : ℕ → sProp 𝕄) : bigSep (Finset.range 4) Φ = iprop(Φ 0 ∗ Φ 1 ∗ Φ 2 ∗ Φ 3) := by
  rw [show Finset.range 4 = {0, 1, 2, 3} by decide, SparseCore.bigSep_insert' (by decide), SparseCore.bigSep_insert' (by decide),
    SparseCore.bigSep_insert' (by decide), bigSep_singleton]

/-- A share is its first four tokens and what is left. -/
theorem toks4 (q : PosShare TreeShare) :
    (ℓ ↦{q} f : sProp 𝕄) ⊣⊢ iprop((ℓ ↦{Transfers.shareDrop q 4} f) ∗ tok4 f q 0) := by
  have h := Transfers.pointsTo_toks_range (Ix := HIx 2) (Val := Elt F) (Name := ℕ) (U := UU) (Lvl := ℕ) (ℓ := ℓ) (S := Finset.univ) (f := f) q 4
  rw [range4] at h
  exact h

theorem toks4_eq (q : PosShare TreeShare) :
    (ℓ ↦{q} f : sProp 𝕄) = iprop((ℓ ↦{Transfers.shareDrop q 4} f) ∗ tok4 f q 0) :=
  (toks4 f q).1.antisymm (toks4 f q).2

theorem range32 (Φ : ℕ → sProp 𝕄) :
    bigSep (Finset.range 32) Φ = bigSep (Finset.univ : Finset (Fin 2)) fun c => bigSep (Finset.univ : Finset (Fin 16)) fun i => Φ (16 * c.val + i.val) := by
  have himg : Finset.range 32 = ((Finset.univ : Finset (Fin 2)) ×ˢ (Finset.univ : Finset (Fin 16))).image (fun p => 16 * p.1.val + p.2.val) := by decide
  rw [himg, SparseCore.bigSep_image_of_injOn (by
    intro p _ p' _ h
    obtain ⟨c, i⟩ := p; obtain ⟨c', i'⟩ := p'
    change 16 * c.val + i.val = 16 * c'.val + i'.val at h
    have := i.isLt; have := i'.isLt
    have hc : c = c' := Fin.ext (by omega)
    have hi : i = i' := Fin.ext (by omega)
    rw [hc, hi]), SparseCore.bigSep_product]

/-- The full share is 32 independent read shares (one per task) and what is left. -/
theorem toks32_eq :
    (ℓ ↦{fullShare} f : sProp 𝕄) = iprop((ℓ ↦{Transfers.shareDrop fullShare 32} f)
      ∗ bigSep (Finset.univ : Finset (Fin 2)) fun c => bigSep (Finset.univ : Finset (Fin 16)) fun i => ℓ ↦{qT c.val i.val} f) := by
  have h := Transfers.pointsTo_toks_range (Ix := HIx 2) (Val := Elt F) (Name := ℕ) (U := UU) (Lvl := ℕ) (ℓ := ℓ) (S := Finset.univ) (f := f) fullShare 32
  rw [range32] at h
  exact h.1.antisymm h.2

/-- The full share is, per task, its four read tokens, and what is left of every share. -/
theorem tbl_eq0 :
    (ℓ ↦{fullShare} f : sProp 𝕄) = iprop(((ℓ ↦{Transfers.shareDrop fullShare 32} f)
        ∗ bigSep (Finset.univ : Finset (Fin 2)) fun c => bigSep (Finset.univ : Finset (Fin 16)) fun i => ℓ ↦{Transfers.shareDrop (qT c.val i.val) 4} f)
      ∗ bigSep (Finset.univ : Finset (Fin 2)) fun c => bigSep (Finset.univ : Finset (Fin 16)) fun i => tok4 f (qT c.val i.val) 0) := by
  rw [toks32_eq f, bigSep_congr fun c _ => bigSep_congr fun i _ => toks4_eq f (qT c.val i.val)]
  rw [bigSep_congr fun c _ => bigSep_sep' Finset.univ (fun i : Fin 16 => (ℓ ↦{Transfers.shareDrop (qT c.val i.val) 4} f : sProp 𝕄)) (fun i : Fin 16 => tok4 f (qT c.val i.val) 0),
    bigSep_sep' Finset.univ (fun c : Fin 2 => bigSep Finset.univ fun i : Fin 16 => (ℓ ↦{Transfers.shareDrop (qT c.val i.val) 4} f : sProp 𝕄))
      (fun c : Fin 2 => bigSep Finset.univ fun i : Fin 16 => tok4 f (qT c.val i.val) 0)]
  exact assoc3 _ _ _

/-- `tbl_eq0` over any two index types of 2 and 16 elements. -/
theorem tbl_eq0' {n1 n2 : ℕ} (h1 : n1 = 2) (h2 : n2 = 16) :
    (ℓ ↦{fullShare} f : sProp 𝕄) = iprop(((ℓ ↦{Transfers.shareDrop fullShare 32} f)
        ∗ bigSep (Finset.univ : Finset (Fin n1)) fun c => bigSep (Finset.univ : Finset (Fin n2)) fun i => ℓ ↦{Transfers.shareDrop (qT c.val i.val) 4} f)
      ∗ bigSep (Finset.univ : Finset (Fin n1)) fun c => bigSep (Finset.univ : Finset (Fin n2)) fun i => tok4 f (qT c.val i.val) 0) := by
  subst h1 h2; exact tbl_eq0 f

end Tokens

theorem bigSep_cast {n n' : ℕ} (h : n = n') (Φ : Fin n' → sProp 𝕄) :
    (bigSep Finset.univ fun i : Fin n => Φ (Fin.cast h i)) = bigSep Finset.univ Φ := by
  subst h; rfl

/-! ## The first call's operands -/

section Call0

open Cert.Proof.ScI0 (idxSet chunkSet ℓ5 ℓ6 pts5_split pts6_split pts6_join)

variable (m : (ℓ : Loc nD τ sig) → Buf (Elt F) ℓ) (d : Dev nD)

abbrev ℓ0 (d : Dev nD) : Loc nD τ sig := (SparseCore.T d : Thread nD τ).loc main_v0

/-- Every task's four read tokens of the table. -/
abbrev TOK0 : sProp 𝕄 :=
  bigSep (Finset.univ : Finset (Fin (grid0.bound 0))) fun c => bigSep (Finset.univ : Finset (Fin (grid0.bound 1))) fun s =>
    tok4 (ℓ := ℓ0 d) (Tb m d) (qT c.val s.val) 0
/-- Every task's words of the index list. -/
abbrev IDX0 : sProp 𝕄 :=
  bigSep (Finset.univ : Finset (Fin (grid0.bound 0))) fun c => bigSep (Finset.univ : Finset (Fin (grid0.bound 1))) fun s =>
    (ℓ5 d ↦[idxSet c s]{fullShare} Iv0 m d : sProp 𝕄)
/-- Every task's row blocks of the gathered array, each at some contents. -/
abbrev ROWS0 : sProp 𝕄 :=
  bigSep (Finset.univ : Finset (Fin (grid0.bound 0))) fun c => bigSep (Finset.univ : Finset (Fin (grid0.bound 1))) fun s =>
    bigSep (Finset.univ : Finset (Fin k0_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄)

/-- A SparseCore's operands, over the grid's own index types: task by task. -/
theorem st0_tile :
    (bigSep Finset.univ fun c : Fin ((K (F := F)).nCore 0) => (PP m).st 0 d c : sProp 𝕄)
      = bigSep Finset.univ fun c : Fin (grid0.bound 0) => bigSep Finset.univ fun s : Fin (grid0.bound 1) =>
          Cert.Proof.ScI0.tileRes d (Cert.Proof.ScI0.coordsV c s) (qT c.val s.val) (Tb m d) (Iv0 m d) := by
  refine Eq.trans ?_ (bigSep_cast (nCore0 (F := F)) (fun c => bigSep Finset.univ fun s : Fin (grid0.bound 1) =>
    (Cert.Proof.ScI0.tileRes d (Cert.Proof.ScI0.coordsV c s) (qT c.val s.val) (Tb m d) (Iv0 m d) : sProp 𝕄)))
  refine bigSep_congr fun c _ => ?_
  refine Eq.trans ?_ (bigSep_cast (nSub0 (F := F)) (fun s =>
    (Cert.Proof.ScI0.tileRes d (Cert.Proof.ScI0.coordsV (Fin.cast (nCore0 (F := F)) c) s) (qT c.val s.val) (Tb m d) (Iv0 m d) : sProp 𝕄)))
  show (bigSep Finset.univ fun i => goRes (Tb m) (Iv0 m) (Iv1 m) 0 d c i) = _
  refine bigSep_congr fun i _ => ?_
  rfl
theorem dn0_tile :
    (bigSep Finset.univ fun c : Fin ((K (F := F)).nCore 0) => (PP m).dn 0 d c : sProp 𝕄)
      = bigSep Finset.univ fun c : Fin (grid0.bound 0) => bigSep Finset.univ fun s : Fin (grid0.bound 1) =>
          Cert.Proof.ScI0.tileRes d (Cert.Proof.ScI0.coordsV c s) (qT c.val s.val) (Tb m d) (Iv0 m d) := by
  refine Eq.trans ?_ (bigSep_cast (nCore0 (F := F)) (fun c => bigSep Finset.univ fun s : Fin (grid0.bound 1) =>
    (Cert.Proof.ScI0.tileRes d (Cert.Proof.ScI0.coordsV c s) (qT c.val s.val) (Tb m d) (Iv0 m d) : sProp 𝕄)))
  refine bigSep_congr fun c _ => ?_
  refine Eq.trans ?_ (bigSep_cast (nSub0 (F := F)) (fun s =>
    (Cert.Proof.ScI0.tileRes d (Cert.Proof.ScI0.coordsV (Fin.cast (nCore0 (F := F)) c) s) (qT c.val s.val) (Tb m d) (Iv0 m d) : sProp 𝕄)))
  show (bigSep Finset.univ fun i => goRes (Tb m) (Iv0 m) (Iv1 m) 0 d c i) = _
  refine bigSep_congr fun i _ => ?_
  rfl

/-- The tasks' operands regrouped: all tokens, all word ranges, all row blocks. -/
theorem tiles0_eq :
    (bigSep Finset.univ fun c : Fin (grid0.bound 0) => bigSep Finset.univ fun s : Fin (grid0.bound 1) =>
        (Cert.Proof.ScI0.tileRes d (Cert.Proof.ScI0.coordsV c s) (qT c.val s.val) (Tb m d) (Iv0 m d) : sProp 𝕄))
      = iprop(TOK0 m d ∗ IDX0 m d ∗ ROWS0 (F := F) d) := by
  have hgo : ∀ (c : Fin (grid0.bound 0)) (s : Fin (grid0.bound 1)),
      (Cert.Proof.ScI0.tileRes d (Cert.Proof.ScI0.coordsV c s) (qT c.val s.val) (Tb m d) (Iv0 m d) : sProp 𝕄)
      = iprop(tok4 (ℓ := ℓ0 d) (Tb m d) (qT c.val s.val) 0 ∗ ((ℓ5 d ↦[idxSet c s]{fullShare} Iv0 m d : sProp 𝕄)
        ∗ bigSep (Finset.univ : Finset (Fin k0_t2_loop.trips)) fun t =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))) :=
    fun c s => regroup6 _ _ _ _ _ _
  refine Eq.trans (bigSep_congr fun c _ => bigSep_congr fun s _ => hgo c s) ?_
  exact split3 (fun (c : Fin (grid0.bound 0)) (s : Fin (grid0.bound 1)) => tok4 (ℓ := ℓ0 d) (Tb m d) (qT c.val s.val) 0)
    (fun (c : Fin (grid0.bound 0)) (s : Fin (grid0.bound 1)) => (ℓ5 d ↦[idxSet c s]{fullShare} Iv0 m d : sProp 𝕄))
    (fun (c : Fin (grid0.bound 0)) (s : Fin (grid0.bound 1)) => bigSep (Finset.univ : Finset (Fin k0_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄))

/-- The row blocks at contents `g` are row blocks at some contents. -/
theorem rows_weaken (g : Buf (Elt F) (ℓ6 d)) :
    (bigSep (Finset.univ : Finset (Fin (grid0.bound 0))) fun c => bigSep (Finset.univ : Finset (Fin (grid0.bound 1))) fun s =>
        bigSep (Finset.univ : Finset (Fin k0_t2_loop.trips)) fun t =>
          (iprop((ℓ6 d ↦[chunkSet c s t 0]{fullShare} g) ∗ (ℓ6 d ↦[chunkSet c s t 1]{fullShare} g) ∗ (ℓ6 d ↦[chunkSet c s t 2]{fullShare} g)
            ∗ (ℓ6 d ↦[chunkSet c s t 3]{fullShare} g)) : sProp 𝕄))
      ⊢ ROWS0 (F := F) d :=
  bigSep_mono fun c _ => bigSep_mono fun s _ => bigSep_mono fun t _ =>
    weaken4 (fun f => (ℓ6 d ↦[chunkSet c s t 0]{fullShare} f : sProp 𝕄)) (fun f => ℓ6 d ↦[chunkSet c s t 1]{fullShare} f)
      (fun f => ℓ6 d ↦[chunkSet c s t 2]{fullShare} f) (fun f => ℓ6 d ↦[chunkSet c s t 3]{fullShare} f) g

/-- **The first call's operand split and join.** -/
theorem hcall0 :
    iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄) := by
  rw [st0_tile m d, dn0_tile m d, tiles0_eq m d,
    tbl_eq0' (ℓ := ℓ0 d) (Tb m d) (n1 := grid0.bound 0) (n2 := grid0.bound 1) rfl rfl]
  iintro ⟨⟨HR, HT⟩, H5, H6⟩
  ihave HI := (Entails.of_eq (pts5_split (U := UU) d fullShare (Iv0 m d))) $$ H5
  ihave HRw := (Entails.of_eq (pts6_split (U := UU) d fullShare (W6 m d (r main_v6)))) $$ H6
  ihave HE := (rows_weaken (F := F) d (W6 m d (r main_v6))) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv0 m d)).symm); iexact HI
  iapply (pts6_join (U := UU) (F := F) d); iexact HE

end Call0

end Cert.Proof.ScI

end
-- ==== Proof.ScPartI1.lean ====
/-
  How the thirty-two tasks of the second gather share its two arrays. Task (c, s) — core c of 2, subcore s of 16 — reads
  the 6656 consecutive words of the flat index list that start at 6656·(2s + c), and writes the 6656 rows of the
  gathered array with the same numbers, in 13 trips of 4 blocks of 128 rows: block r of trip t starts at row
  6656·(2s + c) + 512·t + 128·r. The 32 word ranges are pairwise disjoint and together are the whole list; the
  32·13·4 row blocks are pairwise disjoint and together are the whole array. Hence the ownership of each array splits
  into the ownership of the pieces, and pieces held at whatever contents join back into the whole array at some
  contents.
-/
import proofs.«202673_g7318624272670_cont_9to1c4b_526_24_alg».proof.Proof.ScSetsI1
import Idealize.ShloMosaic.Lib.SparseCore.Launch
import Idealize.ShloMosaic.Rules.PointsTo

noncomputable section

namespace Cert.Proof.ScI1

open Cert.KernelIdeal Cert.KernelIdeal.Gen Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The loop over a task's blocks makes thirteen trips. -/
theorem trips_eq : k1_t2_loop.trips = 13 := by decide

theorem trip_lt (t : Fin k1_t2_loop.trips) : t.val < 13 := Nat.lt_of_lt_of_eq t.isLt trips_eq

/-! ## The pieces as sets of indices -/

/-- Task (c, s)'s words of the flat index list. -/
abbrev idxSet (c : Fin (grid1.bound 0)) (s : Fin (grid1.bound 1)) : Finset S212992.Idx := (idxSl (coordsV c s)).view.set

/-- Block `r` of trip `t` of task (c, s)'s rows of the gathered array. -/
abbrev chunkSet (c : Fin (grid1.bound 0)) (s : Fin (grid1.bound 1)) (t : Fin k1_t2_loop.trips) : Fin 4 → Finset S212992x128.Idx
  | 0 => (chunk0 (coordsV c s) t).view.set
  | 1 => (chunk1 (coordsV c s) t).view.set
  | 2 => (chunk2 (coordsV c s) t).view.set
  | 3 => (chunk3 (coordsV c s) t).view.set
  | ⟨_ + 4, h⟩ => absurd h (Nat.not_lt.2 (Nat.le_add_left _ _))

/-- A task's words: those with numbers from 6656·(2s + c), 6656 of them. -/
theorem mem_idxSet (c : Fin (grid1.bound 0)) (s : Fin (grid1.bound 1)) (i : S212992.Idx) :
    i ∈ idxSet c s ↔ 13312 * s.val + 6656 * c.val ≤ (i 0).val ∧ (i 0).val < 13312 * s.val + 6656 * c.val + 6656 := by
  show i ∈ ((View.whole (main_v8_scv : Ref sig .scVector)).slice
    (Rect.unit (s := S212992) (k1_off1 (coordsV c s)) S6656.size (k1_off1_inb (coordsV c s)))).set ↔ _
  rw [View.set_slice_whole, Rect.mem_set_unit, k1_off1_eq]
  constructor
  · intro h
    exact h ⟨0, Nat.one_pos⟩
  · intro h a
    obtain ⟨a, ha⟩ := a
    have ha1 : a < 1 := ha
    have ha0 : a = 0 := by omega
    subst ha0
    exact h

/-- 128 whole rows from row `b` of the gathered array. -/
theorem mem_rows {b : Nat} {inb : ∀ a, (![b, 0] : Fin 2 → Nat) a + S128x128.size a ≤ S212992x128.size a} (i : S212992x128.Idx) :
    i ∈ (Rect.unit (s := S212992x128) ![b, 0] S128x128.size inb).set ↔ b ≤ (i 0).val ∧ (i 0).val < b + 128 := by
  rw [Rect.mem_set_unit]
  constructor
  · intro h
    exact h ⟨0, by decide⟩
  · intro h a
    match a with
    | ⟨0, _⟩ => exact h
    | ⟨1, _⟩ =>
      have h128 : (i 1).val < 128 := (i 1).isLt
      exact ⟨Nat.zero_le _, by show (i 1).val < 0 + 128; omega⟩

/-- A block's rows: 128 from 6656·(2s + c) + 512·t + 128·r. -/
theorem mem_chunkSet (c : Fin (grid1.bound 0)) (s : Fin (grid1.bound 1)) (t : Fin k1_t2_loop.trips) (r : Fin 4) (i : S212992x128.Idx) :
    i ∈ chunkSet c s t r ↔ 13312 * s.val + 6656 * c.val + 512 * t.val + 128 * r.val ≤ (i 0).val
      ∧ (i 0).val < 13312 * s.val + 6656 * c.val + 512 * t.val + 128 * r.val + 128 := by
  match r with
  | ⟨0, _⟩ =>
    show i ∈ ((View.whole (main_v9_scv : Ref sig .scVector)).slice
      (Rect.unit (s := S212992x128) (k1_off20 (coordsV c s) t 0#32) S128x128.size (k1_off20_inb (coordsV c s) t 0))).set ↔ _
    rw [View.set_slice_whole]
    have e : k1_off20 (coordsV c s) t 0#32 = ![13312 * s.val + 6656 * c.val + 512 * t.val + 128 * 0, 0] :=
      k1_off20_eq (coordsV c s) t ⟨0, by decide⟩
    rw [Rect.mem_set_unit, e, ← Rect.mem_set_unit (inb := e ▸ k1_off20_inb (coordsV c s) t 0)]
    exact mem_rows i
  | ⟨1, _⟩ =>
    show i ∈ ((View.whole (main_v9_scv : Ref sig .scVector)).slice
      (Rect.unit (s := S212992x128) (k1_off20 (coordsV c s) t 1#32) S128x128.size (k1_off20_inb (coordsV c s) t 1))).set ↔ _
    rw [View.set_slice_whole]
    have e : k1_off20 (coordsV c s) t 1#32 = ![13312 * s.val + 6656 * c.val + 512 * t.val + 128 * 1, 0] :=
      k1_off20_eq (coordsV c s) t ⟨1, by decide⟩
    rw [Rect.mem_set_unit, e, ← Rect.mem_set_unit (inb := e ▸ k1_off20_inb (coordsV c s) t 1)]
    exact mem_rows i
  | ⟨2, _⟩ =>
    show i ∈ ((View.whole (main_v9_scv : Ref sig .scVector)).slice
      (Rect.unit (s := S212992x128) (k1_off20 (coordsV c s) t 2#32) S128x128.size (k1_off20_inb (coordsV c s) t 2))).set ↔ _
    rw [View.set_slice_whole]
    have e : k1_off20 (coordsV c s) t 2#32 = ![13312 * s.val + 6656 * c.val + 512 * t.val + 128 * 2, 0] :=
      k1_off20_eq (coordsV c s) t ⟨2, by decide⟩
    rw [Rect.mem_set_unit, e, ← Rect.mem_set_unit (inb := e ▸ k1_off20_inb (coordsV c s) t 2)]
    exact mem_rows i
  | ⟨3, _⟩ =>
    show i ∈ ((View.whole (main_v9_scv : Ref sig .scVector)).slice
      (Rect.unit (s := S212992x128) (k1_off20 (coordsV c s) t 3#32) S128x128.size (k1_off20_inb (coordsV c s) t 3))).set ↔ _
    rw [View.set_slice_whole]
    have e : k1_off20 (coordsV c s) t 3#32 = ![13312 * s.val + 6656 * c.val + 512 * t.val + 128 * 3, 0] :=
      k1_off20_eq (coordsV c s) t ⟨3, by decide⟩
    rw [Rect.mem_set_unit, e, ← Rect.mem_set_unit (inb := e ▸ k1_off20_inb (coordsV c s) t 3)]
    exact mem_rows i

/-! ## The word ranges partition the flat index list -/

/-- The tasks, as pairs. -/
abbrev Task : Type := Fin (grid1.bound 0) × Fin (grid1.bound 1)
/-- A task's words. -/
abbrev idxSetP (p : Task) : Finset S212992.Idx := idxSet p.1 p.2

theorem idx_disjoint : ∀ p ∈ (Finset.univ : Finset Task), ∀ p' ∈ (Finset.univ : Finset Task), p ≠ p' → Disjoint (idxSetP p) (idxSetP p') := by
  intro p _ p' _ hne
  rw [Finset.disjoint_left]
  intro i hi hi'
  rw [mem_idxSet] at hi hi'
  have h1 : p.1.val < 2 := p.1.isLt
  have h2 : p.2.val < 16 := p.2.isLt
  have h1' : p'.1.val < 2 := p'.1.isLt
  have h2' : p'.2.val < 16 := p'.2.isLt
  exact hne (Prod.ext (Fin.ext (by omega)) (Fin.ext (by omega)))

theorem idx_cover : (Finset.univ : Finset Task).biUnion idxSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩), ?_⟩
  rw [mem_idxSet]
  show 13312 * ((i 0).val / 13312) + 6656 * ((i 0).val / 6656 % 2) ≤ (i 0).val
    ∧ (i 0).val < 13312 * ((i 0).val / 13312) + 6656 * ((i 0).val / 6656 % 2) + 6656
  omega

/-! ## The row blocks partition the gathered array -/

/-- The blocks: task, trip, slot. -/
abbrev Block : Type := Fin (grid1.bound 0) × Fin (grid1.bound 1) × Fin k1_t2_loop.trips × Fin 4
/-- A block's rows. -/
abbrev chunkSetP (p : Block) : Finset S212992x128.Idx := chunkSet p.1 p.2.1 p.2.2.1 p.2.2.2

theorem chunk_disjoint : ∀ p ∈ (Finset.univ : Finset Block), ∀ p' ∈ (Finset.univ : Finset Block), p ≠ p' → Disjoint (chunkSetP p) (chunkSetP p') := by
  intro p _ p' _ hne
  rw [Finset.disjoint_left]
  intro i hi hi'
  rw [mem_chunkSet] at hi hi'
  have h1 : p.1.val < 2 := p.1.isLt
  have h2 : p.2.1.val < 16 := p.2.1.isLt
  have h3 := trip_lt p.2.2.1
  have h4 : p.2.2.2.val < 4 := p.2.2.2.isLt
  have h1' : p'.1.val < 2 := p'.1.isLt
  have h2' : p'.2.1.val < 16 := p'.2.1.isLt
  have h3' := trip_lt p'.2.2.1
  have h4' : p'.2.2.2.val < 4 := p'.2.2.2.isLt
  exact hne (Prod.ext (Fin.ext (by omega)) (Prod.ext (Fin.ext (by omega)) (Prod.ext (Fin.ext (by omega)) (Fin.ext (by omega)))))

theorem chunk_cover : (Finset.univ : Finset Block).biUnion chunkSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩,
    ⟨(i 0).val % 6656 / 512, by rw [trips_eq]; omega⟩, ⟨(i 0).val % 512 / 128, by omega⟩), ?_⟩
  rw [mem_chunkSet]
  show 13312 * ((i 0).val / 13312) + 6656 * ((i 0).val / 6656 % 2) + 512 * ((i 0).val % 6656 / 512) + 128 * ((i 0).val % 512 / 128) ≤ (i 0).val
    ∧ (i 0).val < 13312 * ((i 0).val / 13312) + 6656 * ((i 0).val / 6656 % 2) + 512 * ((i 0).val % 6656 / 512) + 128 * ((i 0).val % 512 / 128) + 128
  omega

/-! ## The ownership of the two arrays, split along the pieces and joined back -/

section PointsTo

variable {F : FTy → Type} {U : Type} [URA U]

local notation "𝕄" => MT nD τ sig (HIx 2) (Elt F) ℕ U ℕ

/-- The flat index list and the gathered array of the second call, as locations of device `d`. -/
abbrev ℓ5 (d : Dev nD) : Loc nD τ sig := (SparseCore.T d).loc main_v8
abbrev ℓ6 (d : Dev nD) : Loc nD τ sig := (SparseCore.T d).loc main_v9

/-- An iterated conjunction over four slots is its four summands. -/
theorem bigSep_univ_four {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- The flat index list, at any share and contents, is the tasks' word ranges. -/
theorem pts5_split (d : Dev nD) (q : PosShare TreeShare) (f : Buf (Elt F) (ℓ5 d)) :
    (ℓ5 d ↦{q} f : sProp 𝕄)
      = bigSep Finset.univ fun c : Fin (grid1.bound 0) => bigSep Finset.univ fun s : Fin (grid1.bound 1) => ℓ5 d ↦[idxSet c s]{q} f := by
  have h := pointsTo_biUnion (Ix := HIx 2) (Val := Elt F) (Name := ℕ) (U := U) (Lvl := ℕ) (Finset.univ : Finset Task) (ℓ := ℓ5 d) (q := q) (f := f)
    idxSetP idx_disjoint
  rw [idx_cover] at h
  refine h.trans ?_
  exact bigSep_univ_prod (fun p : Task => (ℓ5 d ↦[idxSetP p]{q} f : sProp 𝕄))

/-- The gathered array, at any share and contents, is the tasks' trips' four row blocks. -/
theorem pts6_split (d : Dev nD) (q : PosShare TreeShare) (f : Buf (Elt F) (ℓ6 d)) :
    (ℓ6 d ↦{q} f : sProp 𝕄)
      = bigSep Finset.univ fun c : Fin (grid1.bound 0) => bigSep Finset.univ fun s : Fin (grid1.bound 1) =>
          bigSep Finset.univ fun t : Fin k1_t2_loop.trips =>
            iprop((ℓ6 d ↦[chunkSet c s t 0]{q} f) ∗ (ℓ6 d ↦[chunkSet c s t 1]{q} f) ∗ (ℓ6 d ↦[chunkSet c s t 2]{q} f)
              ∗ (ℓ6 d ↦[chunkSet c s t 3]{q} f)) := by
  have h := pointsTo_biUnion (Ix := HIx 2) (Val := Elt F) (Name := ℕ) (U := U) (Lvl := ℕ) (Finset.univ : Finset Block) (ℓ := ℓ6 d) (q := q) (f := f)
    chunkSetP chunk_disjoint
  rw [chunk_cover] at h
  refine h.trans ?_
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (ℓ6 d ↦[chunkSet c s t r]{q} f : sProp 𝕄))

/-- The row blocks, each held at contents of its own, in the nested form and over the blocks as one family. -/
theorem pts6_pieces_eq (d : Dev nD) (q : PosShare TreeShare) :
    (bigSep Finset.univ fun c : Fin (grid1.bound 0) => bigSep Finset.univ fun s : Fin (grid1.bound 1) =>
        bigSep Finset.univ fun t : Fin k1_t2_loop.trips =>
          (iprop((∃ f, ℓ6 d ↦[chunkSet c s t 0]{q} f) ∗ (∃ f, ℓ6 d ↦[chunkSet c s t 1]{q} f) ∗ (∃ f, ℓ6 d ↦[chunkSet c s t 2]{q} f)
            ∗ (∃ f, ℓ6 d ↦[chunkSet c s t 3]{q} f)) : sProp 𝕄))
      = bigSep (Finset.univ : Finset Block) fun p => (iprop(∃ f, ℓ6 d ↦[chunkSetP p]{q} f) : sProp 𝕄) := by
  symm
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (iprop(∃ f, ℓ6 d ↦[chunkSet c s t r]{q} f) : sProp 𝕄))

/-- THE JOIN: the row blocks, each held whole at whatever contents, are the gathered array held whole at some contents. -/
theorem pts6_join [FloatOps F] (d : Dev nD) :
    (bigSep Finset.univ fun c : Fin (grid1.bound 0) => bigSep Finset.univ fun s : Fin (grid1.bound 1) =>
        bigSep Finset.univ fun t : Fin k1_t2_loop.trips =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))
      ⊢ (iprop(∃ f, ℓ6 d ↦{fullShare} f) : sProp 𝕄) := by
  have p0 : Block := (⟨0, by decide⟩, ⟨0, by decide⟩, ⟨0, by rw [trips_eq]; decide⟩, (0 : Fin 4))
  rw [pts6_pieces_eq]
  refine (bigSep_exists_pi Finset.univ (fun (p : Block) (f : Buf (Elt F) (ℓ6 d)) => (ℓ6 d ↦[chunkSetP p]{fullShare} f : sProp 𝕄))).trans ?_
  iintro ⟨%fs, H⟩
  have hj := pointsTo_biUnion_join (Ix := HIx 2) (Val := Elt F) (Name := ℕ) (U := U) (Lvl := ℕ) (ℓ := ℓ6 d) (q := fullShare)
    (Finset.univ : Finset Block) chunkSetP fs (fs p0) chunk_disjoint
  rw [chunk_cover] at hj
  ihave H' := hj $$ H
  icases H' with ⟨%g, -, Hg⟩
  iexists g; iexact Hg

/-! ### A piece's location as a task spells it

A task names a piece through its own view of the array; the location is the array's, whichever thread of the device
names it. -/

theorem loc_idxSl (d : Dev nD) (c' : Fin τ.nSC) (s' : Fin τ.nSub) (L : grid1.Coords) :
    (idxSl L).view.loc (V d c' s') = ℓ5 d := rfl
theorem loc_chunk0 (d : Dev nD) (c' : Fin τ.nSC) (s' : Fin τ.nSub) (L : grid1.Coords) (t : Fin k1_t2_loop.trips) :
    (chunk0 L t).view.loc (V d c' s') = ℓ6 d := rfl
theorem loc_chunk1 (d : Dev nD) (c' : Fin τ.nSC) (s' : Fin τ.nSub) (L : grid1.Coords) (t : Fin k1_t2_loop.trips) :
    (chunk1 L t).view.loc (V d c' s') = ℓ6 d := rfl
theorem loc_chunk2 (d : Dev nD) (c' : Fin τ.nSC) (s' : Fin τ.nSub) (L : grid1.Coords) (t : Fin k1_t2_loop.trips) :
    (chunk2 L t).view.loc (V d c' s') = ℓ6 d := rfl
theorem loc_chunk3 (d : Dev nD) (c' : Fin τ.nSC) (s' : Fin τ.nSub) (L : grid1.Coords) (t : Fin k1_t2_loop.trips) :
    (chunk3 L t).view.loc (V d c' s') = ℓ6 d := rfl

/-- A task's word range, as the task holds it, is that piece of the flat index list. -/
theorem pts_idxSl (d : Dev nD) (c' : Fin τ.nSC) (s' : Fin τ.nSub) (c : Fin (grid1.bound 0)) (s : Fin (grid1.bound 1))
    (q : PosShare TreeShare) (f : Buf (Elt F) (ℓ5 d)) :
    ((idxSl (coordsV c s)).view.loc (V d c' s') ↦[(idxSl (coordsV c s)).view.set]{q} f : sProp 𝕄) = ℓ5 d ↦[idxSet c s]{q} f := rfl
/-- A row block, as the task holds it, is that piece of the gathered array. -/
theorem pts_chunk0 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk0 (coordsV c s) t).view.loc (V d c' s') ↦[(chunk0 (coordsV c s) t).view.set]{q} f : sProp 𝕄) = ℓ6 d ↦[chunkSet c s t 0]{q} f := rfl
theorem pts_chunk1 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk1 (coordsV c s) t).view.loc (V d c' s') ↦[(chunk1 (coordsV c s) t).view.set]{q} f : sProp 𝕄) = ℓ6 d ↦[chunkSet c s t 1]{q} f := rfl
theorem pts_chunk2 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk2 (coordsV c s) t).view.loc (V d c' s') ↦[(chunk2 (coordsV c s) t).view.set]{q} f : sProp 𝕄) = ℓ6 d ↦[chunkSet c s t 2]{q} f := rfl
theorem pts_chunk3 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk3 (coordsV c s) t).view.loc (V d c' s') ↦[(chunk3 (coordsV c s) t).view.set]{q} f : sProp 𝕄) = ℓ6 d ↦[chunkSet c s t 3]{q} f := rfl

end PointsTo

end Cert.Proof.ScI1

end
-- ==== Proof.ScCall1I.lean ====
/-
  The second gather call's operands, split among the 32 tasks and joined back: as the first call's, the tasks' read tokens of
  the table being tokens 9 … 12 of their shares (the second kernel's gather semaphores).
-/
import proofs.«202673_g7318624272670_cont_9to1c4b_526_24_alg».proof.Proof.ScCall0I
import proofs.«202673_g7318624272670_cont_9to1c4b_526_24_alg».proof.Proof.ScPartI1

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem swap3 (A T R : sProp 𝕄) : iprop(A ∗ T ∗ R) = iprop((A ∗ R) ∗ T) :=
  BI.Entails.antisymm
    (show (iprop(A ∗ T ∗ R) : sProp 𝕄) ⊢ iprop((A ∗ R) ∗ T) from by
      iintro ⟨HA, HT, HR⟩
      isplitl [HA HR]
      · isplitl [HA]; · iexact HA
        iexact HR
      iexact HT)
    (show (iprop((A ∗ R) ∗ T) : sProp 𝕄) ⊢ iprop(A ∗ T ∗ R) from by
      iintro ⟨⟨HA, HR⟩, HT⟩
      isplitl [HA]; · iexact HA
      isplitl [HT]; · iexact HT
      iexact HR)

/-! ## Read tokens of one buffer -/

section Tokens

variable {ℓ : Loc nD τ sig} (f : Buf (Elt F) ℓ)

/-- A share is its tokens 9 … 12 and what is left (the rest of its first thirteen tokens among it). -/
theorem toks13_eq (q : PosShare TreeShare) :
    (ℓ ↦{q} f : sProp 𝕄) = iprop(((ℓ ↦{Transfers.shareDrop q 13} f)
        ∗ bigSep ((Finset.range 13) \ {9, 10, 11, 12}) fun j => ℓ ↦{Transfers.shareTokN q j} f) ∗ tok4 f q 9) := by
  have h := Transfers.pointsTo_toks_range (Ix := HIx 2) (Val := Elt F) (Name := ℕ) (U := UU) (Lvl := ℕ) (ℓ := ℓ) (S := Finset.univ) (f := f) q 13
  rw [SparseCore.bigSep_sdiff_split' (show ({9, 10, 11, 12} : Finset ℕ) ⊆ Finset.range 13 by decide),
    show (({9, 10, 11, 12} : Finset ℕ)) = insert 9 (insert 10 (insert 11 {12})) from rfl,
    SparseCore.bigSep_insert' (by decide), SparseCore.bigSep_insert' (by decide), SparseCore.bigSep_insert' (by decide), bigSep_singleton] at h
  exact (h.1.antisymm h.2).trans (swap3 _ _ _)

/-- The full share is, per task, its read tokens 9 … 12, and what is left of every share. -/
theorem tbl_eq1 :
    (ℓ ↦{fullShare} f : sProp 𝕄) = iprop(((ℓ ↦{Transfers.shareDrop fullShare 32} f)
        ∗ bigSep (Finset.univ : Finset (Fin 2)) fun c => bigSep (Finset.univ : Finset (Fin 16)) fun i =>
            iprop((ℓ ↦{Transfers.shareDrop (qT c.val i.val) 13} f)
              ∗ bigSep ((Finset.range 13) \ {9, 10, 11, 12}) fun j => ℓ ↦{Transfers.shareTokN (qT c.val i.val) j} f))
      ∗ bigSep (Finset.univ : Finset (Fin 2)) fun c => bigSep (Finset.univ : Finset (Fin 16)) fun i => tok4 f (qT c.val i.val) 9) := by
  rw [toks32_eq f, bigSep_congr fun c _ => bigSep_congr fun i _ => toks13_eq f (qT c.val i.val)]
  rw [bigSep_congr fun c _ => bigSep_sep' Finset.univ (fun i : Fin 16 => (iprop((ℓ ↦{Transfers.shareDrop (qT c.val i.val) 13} f)
        ∗ bigSep ((Finset.range 13) \ {9, 10, 11, 12}) fun j => ℓ ↦{Transfers.shareTokN (qT c.val i.val) j} f) : sProp 𝕄)) (fun i : Fin 16 => tok4 f (qT c.val i.val) 9),
    bigSep_sep' Finset.univ (fun c : Fin 2 => bigSep Finset.univ fun i : Fin 16 => (iprop((ℓ ↦{Transfers.shareDrop (qT c.val i.val) 13} f)
        ∗ bigSep ((Finset.range 13) \ {9, 10, 11, 12}) fun j => ℓ ↦{Transfers.shareTokN (qT c.val i.val) j} f) : sProp 𝕄))
      (fun c : Fin 2 => bigSep Finset.univ fun i : Fin 16 => tok4 f (qT c.val i.val) 9)]
  exact assoc3 _ _ _

theorem tbl_eq1' {n1 n2 : ℕ} (h1 : n1 = 2) (h2 : n2 = 16) :
    (ℓ ↦{fullShare} f : sProp 𝕄) = iprop(((ℓ ↦{Transfers.shareDrop fullShare 32} f)
        ∗ bigSep (Finset.univ : Finset (Fin n1)) fun c => bigSep (Finset.univ : Finset (Fin n2)) fun i =>
            iprop((ℓ ↦{Transfers.shareDrop (qT c.val i.val) 13} f)
              ∗ bigSep ((Finset.range 13) \ {9, 10, 11, 12}) fun j => ℓ ↦{Transfers.shareTokN (qT c.val i.val) j} f))
      ∗ bigSep (Finset.univ : Finset (Fin n1)) fun c => bigSep (Finset.univ : Finset (Fin n2)) fun i => tok4 f (qT c.val i.val) 9) := by
  subst h1 h2; exact tbl_eq1 f

end Tokens

/-! ## The second call's operands -/

section Call1

open Cert.Proof.ScI1 (idxSet chunkSet ℓ5 ℓ6 pts5_split pts6_split pts6_join)

variable (m : (ℓ : Loc nD τ sig) → Buf (Elt F) ℓ) (d : Dev nD)

/-- Every task's four read tokens of the table. -/
abbrev TOK1 : sProp 𝕄 :=
  bigSep (Finset.univ : Finset (Fin (grid1.bound 0))) fun c => bigSep (Finset.univ : Finset (Fin (grid1.bound 1))) fun s =>
    tok4 (ℓ := ℓ0 d) (Tb m d) (qT c.val s.val) 9
/-- Every task's words of the index list. -/
abbrev IDX1 : sProp 𝕄 :=
  bigSep (Finset.univ : Finset (Fin (grid1.bound 0))) fun c => bigSep (Finset.univ : Finset (Fin (grid1.bound 1))) fun s =>
    (ℓ5 d ↦[idxSet c s]{fullShare} Iv1 m d : sProp 𝕄)
/-- Every task's row blocks of the gathered array, each at some contents. -/
abbrev ROWS1 : sProp 𝕄 :=
  bigSep (Finset.univ : Finset (Fin (grid1.bound 0))) fun c => bigSep (Finset.univ : Finset (Fin (grid1.bound 1))) fun s =>
    bigSep (Finset.univ : Finset (Fin k1_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄)

/-- A SparseCore's operands, over the grid's own index types: task by task. -/
theorem st1_tile :
    (bigSep Finset.univ fun c : Fin ((K (F := F)).nCore 1) => (PP m).st 1 d c : sProp 𝕄)
      = bigSep Finset.univ fun c : Fin (grid1.bound 0) => bigSep Finset.univ fun s : Fin (grid1.bound 1) =>
          Cert.Proof.ScI1.tileRes d (Cert.Proof.ScI1.coordsV c s) (qT c.val s.val) (Tb m d) (Iv1 m d) := by
  refine Eq.trans ?_ (bigSep_cast (nCore1 (F := F)) (fun c => bigSep Finset.univ fun s : Fin (grid1.bound 1) =>
    (Cert.Proof.ScI1.tileRes d (Cert.Proof.ScI1.coordsV c s) (qT c.val s.val) (Tb m d) (Iv1 m d) : sProp 𝕄)))
  refine bigSep_congr fun c _ => ?_
  refine Eq.trans ?_ (bigSep_cast (nSub1 (F := F)) (fun s =>
    (Cert.Proof.ScI1.tileRes d (Cert.Proof.ScI1.coordsV (Fin.cast (nCore1 (F := F)) c) s) (qT c.val s.val) (Tb m d) (Iv1 m d) : sProp 𝕄)))
  show (bigSep Finset.univ fun i => goRes (Tb m) (Iv0 m) (Iv1 m) 1 d c i) = _
  refine bigSep_congr fun i _ => ?_
  rfl
theorem dn1_tile :
    (bigSep Finset.univ fun c : Fin ((K (F := F)).nCore 1) => (PP m).dn 1 d c : sProp 𝕄)
      = bigSep Finset.univ fun c : Fin (grid1.bound 0) => bigSep Finset.univ fun s : Fin (grid1.bound 1) =>
          Cert.Proof.ScI1.tileRes d (Cert.Proof.ScI1.coordsV c s) (qT c.val s.val) (Tb m d) (Iv1 m d) := by
  refine Eq.trans ?_ (bigSep_cast (nCore1 (F := F)) (fun c => bigSep Finset.univ fun s : Fin (grid1.bound 1) =>
    (Cert.Proof.ScI1.tileRes d (Cert.Proof.ScI1.coordsV c s) (qT c.val s.val) (Tb m d) (Iv1 m d) : sProp 𝕄)))
  refine bigSep_congr fun c _ => ?_
  refine Eq.trans ?_ (bigSep_cast (nSub1 (F := F)) (fun s =>
    (Cert.Proof.ScI1.tileRes d (Cert.Proof.ScI1.coordsV (Fin.cast (nCore1 (F := F)) c) s) (qT c.val s.val) (Tb m d) (Iv1 m d) : sProp 𝕄)))
  show (bigSep Finset.univ fun i => goRes (Tb m) (Iv0 m) (Iv1 m) 1 d c i) = _
  refine bigSep_congr fun i _ => ?_
  rfl

/-- The tasks' operands regrouped: all tokens, all word ranges, all row blocks. -/
theorem tiles1_eq :
    (bigSep Finset.univ fun c : Fin (grid1.bound 0) => bigSep Finset.univ fun s : Fin (grid1.bound 1) =>
        (Cert.Proof.ScI1.tileRes d (Cert.Proof.ScI1.coordsV c s) (qT c.val s.val) (Tb m d) (Iv1 m d) : sProp 𝕄))
      = iprop(TOK1 m d ∗ IDX1 m d ∗ ROWS1 (F := F) d) := by
  have hgo : ∀ (c : Fin (grid1.bound 0)) (s : Fin (grid1.bound 1)),
      (Cert.Proof.ScI1.tileRes d (Cert.Proof.ScI1.coordsV c s) (qT c.val s.val) (Tb m d) (Iv1 m d) : sProp 𝕄)
      = iprop(tok4 (ℓ := ℓ0 d) (Tb m d) (qT c.val s.val) 9 ∗ ((ℓ5 d ↦[idxSet c s]{fullShare} Iv1 m d : sProp 𝕄)
        ∗ bigSep (Finset.univ : Finset (Fin k1_t2_loop.trips)) fun t =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))) :=
    fun c s => regroup6 _ _ _ _ _ _
  refine Eq.trans (bigSep_congr fun c _ => bigSep_congr fun s _ => hgo c s) ?_
  exact split3 (fun (c : Fin (grid1.bound 0)) (s : Fin (grid1.bound 1)) => tok4 (ℓ := ℓ0 d) (Tb m d) (qT c.val s.val) 9)
    (fun (c : Fin (grid1.bound 0)) (s : Fin (grid1.bound 1)) => (ℓ5 d ↦[idxSet c s]{fullShare} Iv1 m d : sProp 𝕄))
    (fun (c : Fin (grid1.bound 0)) (s : Fin (grid1.bound 1)) => bigSep (Finset.univ : Finset (Fin k1_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄))

/-- The row blocks at contents `g` are row blocks at some contents. -/
theorem rows_weaken1 (g : Buf (Elt F) (ℓ6 d)) :
    (bigSep (Finset.univ : Finset (Fin (grid1.bound 0))) fun c => bigSep (Finset.univ : Finset (Fin (grid1.bound 1))) fun s =>
        bigSep (Finset.univ : Finset (Fin k1_t2_loop.trips)) fun t =>
          (iprop((ℓ6 d ↦[chunkSet c s t 0]{fullShare} g) ∗ (ℓ6 d ↦[chunkSet c s t 1]{fullShare} g) ∗ (ℓ6 d ↦[chunkSet c s t 2]{fullShare} g)
            ∗ (ℓ6 d ↦[chunkSet c s t 3]{fullShare} g)) : sProp 𝕄))
      ⊢ ROWS1 (F := F) d :=
  bigSep_mono fun c _ => bigSep_mono fun s _ => bigSep_mono fun t _ =>
    weaken4 (fun f => (ℓ6 d ↦[chunkSet c s t 0]{fullShare} f : sProp 𝕄)) (fun f => ℓ6 d ↦[chunkSet c s t 1]{fullShare} f)
      (fun f => ℓ6 d ↦[chunkSet c s t 2]{fullShare} f) (fun f => ℓ6 d ↦[chunkSet c s t 3]{fullShare} f) g

/-- **The second call's operand split and join**, the gathered array handed at whatever it holds (`g`). -/
theorem hcall1 (g : Buf (Elt F) ((SparseCore.T d : Thread nD τ).loc main_v9)) :
    iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄) := by
  rw [st1_tile m d, dn1_tile m d, tiles1_eq m d,
    tbl_eq1' (ℓ := ℓ0 d) (Tb m d) (n1 := grid1.bound 0) (n2 := grid1.bound 1) rfl rfl]
  iintro ⟨⟨HR, HT⟩, H5, H6⟩
  ihave HI := (Entails.of_eq (pts5_split (U := UU) d fullShare (Iv1 m d))) $$ H5
  ihave HRw := (Entails.of_eq (pts6_split (U := UU) d fullShare (g))) $$ H6
  ihave HE := (rows_weaken1 (F := F) d (g)) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv1 m d)).symm); iexact HI
  iapply (pts6_join (U := UU) (F := F) d); iexact HE

end Call1

end Cert.Proof.ScI

end
-- ==== Proof.ScChkI0.lean ====
import proofs.«202673_g7318624272670_cont_9to1c4b_526_24_alg».proof.Proof.Gen.KernelIdeal.Skeleton

/-! The positions a trip of the permutation loop reads: lane l of group g of window t reads position
    208 t + 26 ((16 g + l) mod 8) + (16 g + l) / 8, which is below 6656 for t < 32, g < 13, l < 16. Each of the thirteen
    side conditions is this fact at one g, decided over the 32 windows. -/

noncomputable section

namespace Cert.Proof.ScI0

open Cert.KernelIdeal Cert.KernelIdeal.Gen Idealize.ShloMosaic

/-- The lane numbers 0..15. -/
abbrev lanes : IVec S16 32 := iota .scVector S16 32 [0] iota_S16_d0_w32_scVector
/-- Window t's first position, 208 t, as the loop computes it. -/
abbrev wbase (t : Fin k0_t1_loop.trips) : BitVec 32 := Scalar.muli (Scalar.addi 0#32 (Scalar.muli (Scf.iv 0#32 1#32 t) 1#32)) 208#32

theorem chk1 : ∀ t : Fin k0_t1_loop.trips, k0_chk1 (k0_pay10 lanes 0#32 1#32 t) := by decide +kernel
theorem chk2 : ∀ t : Fin k0_t1_loop.trips, k0_chk2 (k0_pay14 lanes 0#32 1#32 t) := by decide +kernel
theorem chk3 : ∀ t : Fin k0_t1_loop.trips, k0_chk3 (k0_pay18 lanes (wbase t) 32#32) := by decide +kernel
theorem chk4 : ∀ t : Fin k0_t1_loop.trips, k0_chk4 (k0_pay22 lanes (wbase t)) := by decide +kernel
theorem chk5 : ∀ t : Fin k0_t1_loop.trips, k0_chk5 (k0_pay27 (wbase t) (k0_pay25 lanes) (k0_pay26 lanes)) := by decide +kernel
theorem chk6 : ∀ t : Fin k0_t1_loop.trips, k0_chk6 (k0_pay31 lanes (wbase t)) := by decide +kernel
theorem chk7 : ∀ t : Fin k0_t1_loop.trips, k0_chk7 (k0_pay35 lanes (wbase t)) := by decide +kernel
theorem chk8 : ∀ t : Fin k0_t1_loop.trips, k0_chk8 (k0_pay39 lanes (wbase t)) := by decide +kernel
theorem chk9 : ∀ t : Fin k0_t1_loop.trips, k0_chk9 (k0_pay43 lanes (wbase t)) := by decide +kernel
theorem chk10 : ∀ t : Fin k0_t1_loop.trips, k0_chk10 (k0_pay47 lanes (wbase t)) := by decide +kernel
theorem chk11 : ∀ t : Fin k0_t1_loop.trips, k0_chk11 (k0_pay51 lanes (wbase t)) := by decide +kernel
theorem chk12 : ∀ t : Fin k0_t1_loop.trips, k0_chk12 (k0_pay2 (wbase t) (k0_pay53 lanes) (k0_pay54 lanes) 3#32) := by decide +kernel
theorem chk13 : ∀ t : Fin k0_t1_loop.trips, k0_chk13 (k0_pay6 (wbase t)) := by decide +kernel

end Cert.Proof.ScI0

end
-- ==== Proof.ScArithI0.lean ====
import proofs.«202673_g7318624272670_cont_9to1c4b_526_24_alg».proof.Proof.ScChkI0

/-! Word arithmetic of the permutation loop and the gather loop's guards: a stored word is a category (at most 999) plus
    1000 times a field number (at most 25), so it names a table row below 26000; the thirteen stores of a window cover its
    208 places; a slot's earlier write is waited for exactly from the second trip on. -/

noncomputable section

namespace Cert.Proof.ScI0

open Cert.KernelIdeal Cert.KernelIdeal.Gen Idealize.ShloMosaic

variable {F : FTy → Type}

theorem add_lt_rows (a b : BitVec 32) (ha : a.toNat ≤ 999) (hb : b.toNat ≤ 25000) : (a + b).toNat < 26000 := by
  rw [BitVec.toNat_add]; omega

theorem pay1_const : ∀ x : S16.Idx, ((k0_pay11 (F := fun _ => Unit) lanes (fun _ => 0#32)) x).toNat ≤ 25000 := by decide +kernel
theorem pay1_lt (G : IVec S16 32) (hG : ∀ x, (G x).toNat ≤ 999) (x : S16.Idx) : ((k0_pay11 (F := F) lanes G) x).toNat < 26000 := by
  have e : (k0_pay11 (F := F) lanes G) x = G x + (k0_pay11 (F := F) lanes (fun _ => 0#32)) x := by
    simp only [k0_pay11, addi, IntOp.addi, BitVec.zero_add]
  rw [e]; exact add_lt_rows _ _ (hG x) (pay1_const x)

theorem pay2_const : ∀ x : S16.Idx, ((k0_pay15 (F := fun _ => Unit) lanes (fun _ => 0#32)) x).toNat ≤ 25000 := by decide +kernel
theorem pay2_lt (G : IVec S16 32) (hG : ∀ x, (G x).toNat ≤ 999) (x : S16.Idx) : ((k0_pay15 (F := F) lanes G) x).toNat < 26000 := by
  have e : (k0_pay15 (F := F) lanes G) x = G x + (k0_pay15 (F := F) lanes (fun _ => 0#32)) x := by
    simp only [k0_pay15, addi, IntOp.addi, BitVec.zero_add]
  rw [e]; exact add_lt_rows _ _ (hG x) (pay2_const x)

theorem pay3_const : ∀ x : S16.Idx, ((k0_pay19 (F := fun _ => Unit) lanes 32#32 (fun _ => 0#32)) x).toNat ≤ 25000 := by decide +kernel
theorem pay3_lt (G : IVec S16 32) (hG : ∀ x, (G x).toNat ≤ 999) (x : S16.Idx) : ((k0_pay19 (F := F) lanes 32#32 G) x).toNat < 26000 := by
  have e : (k0_pay19 (F := F) lanes 32#32 G) x = G x + (k0_pay19 (F := F) lanes 32#32 (fun _ => 0#32)) x := by
    simp only [k0_pay19, addi, IntOp.addi, BitVec.zero_add]
  rw [e]; exact add_lt_rows _ _ (hG x) (pay3_const x)

theorem pay4_const : ∀ x : S16.Idx, ((k0_pay23 (F := fun _ => Unit) lanes (fun _ => 0#32)) x).toNat ≤ 25000 := by decide +kernel
theorem pay4_lt (G : IVec S16 32) (hG : ∀ x, (G x).toNat ≤ 999) (x : S16.Idx) : ((k0_pay23 (F := F) lanes G) x).toNat < 26000 := by
  have e : (k0_pay23 (F := F) lanes G) x = G x + (k0_pay23 (F := F) lanes (fun _ => 0#32)) x := by
    simp only [k0_pay23, addi, IntOp.addi, BitVec.zero_add]
  rw [e]; exact add_lt_rows _ _ (hG x) (pay4_const x)

theorem pay5_const : ∀ x : S16.Idx, ((k0_pay28 (F := fun _ => Unit) (k0_pay26 lanes) (fun _ => 0#32)) x).toNat ≤ 25000 := by decide +kernel
theorem pay5_lt (G : IVec S16 32) (hG : ∀ x, (G x).toNat ≤ 999) (x : S16.Idx) : ((k0_pay28 (F := F) (k0_pay26 lanes) G) x).toNat < 26000 := by
  have e : (k0_pay28 (F := F) (k0_pay26 lanes) G) x = G x + (k0_pay28 (F := F) (k0_pay26 lanes) (fun _ => 0#32)) x := by
    simp only [k0_pay28, addi, IntOp.addi, BitVec.zero_add]
  rw [e]; exact add_lt_rows _ _ (hG x) (pay5_const x)

theorem pay6_const : ∀ x : S16.Idx, ((k0_pay32 (F := fun _ => Unit) lanes (fun _ => 0#32)) x).toNat ≤ 25000 := by decide +kernel
theorem pay6_lt (G : IVec S16 32) (hG : ∀ x, (G x).toNat ≤ 999) (x : S16.Idx) : ((k0_pay32 (F := F) lanes G) x).toNat < 26000 := by
  have e : (k0_pay32 (F := F) lanes G) x = G x + (k0_pay32 (F := F) lanes (fun _ => 0#32)) x := by
    simp only [k0_pay32, addi, IntOp.addi, BitVec.zero_add]
  rw [e]; exact add_lt_rows _ _ (hG x) (pay6_const x)

theorem pay7_const : ∀ x : S16.Idx, ((k0_pay36 (F := fun _ => Unit) (k0_pay34 lanes) (fun _ => 0#32)) x).toNat ≤ 25000 := by decide +kernel
theorem pay7_lt (G : IVec S16 32) (hG : ∀ x, (G x).toNat ≤ 999) (x : S16.Idx) : ((k0_pay36 (F := F) (k0_pay34 lanes) G) x).toNat < 26000 := by
  have e : (k0_pay36 (F := F) (k0_pay34 lanes) G) x = G x + (k0_pay36 (F := F) (k0_pay34 lanes) (fun _ => 0#32)) x := by
    simp only [k0_pay36, addi, IntOp.addi, BitVec.zero_add]
  rw [e]; exact add_lt_rows _ _ (hG x) (pay7_const x)

theorem pay8_const : ∀ x : S16.Idx, ((k0_pay40 (F := fun _ => Unit) lanes (fun _ => 0#32)) x).toNat ≤ 25000 := by decide +kernel
theorem pay8_lt (G : IVec S16 32) (hG : ∀ x, (G x).toNat ≤ 999) (x : S16.Idx) : ((k0_pay40 (F := F) lanes G) x).toNat < 26000 := by
  have e : (k0_pay40 (F := F) lanes G) x = G x + (k0_pay40 (F := F) lanes (fun _ => 0#32)) x := by
    simp only [k0_pay40, addi, IntOp.addi, BitVec.zero_add]
  rw [e]; exact add_lt_rows _ _ (hG x) (pay8_const x)

theorem pay9_const : ∀ x : S16.Idx, ((k0_pay44 (F := fun _ => Unit) lanes (fun _ => 0#32)) x).toNat ≤ 25000 := by decide +kernel
theorem pay9_lt (G : IVec S16 32) (hG : ∀ x, (G x).toNat ≤ 999) (x : S16.Idx) : ((k0_pay44 (F := F) lanes G) x).toNat < 26000 := by
  have e : (k0_pay44 (F := F) lanes G) x = G x + (k0_pay44 (F := F) lanes (fun _ => 0#32)) x := by
    simp only [k0_pay44, addi, IntOp.addi, BitVec.zero_add]
  rw [e]; exact add_lt_rows _ _ (hG x) (pay9_const x)

theorem pay10_const : ∀ x : S16.Idx, ((k0_pay48 (F := fun _ => Unit) lanes (fun _ => 0#32)) x).toNat ≤ 25000 := by decide +kernel
theorem pay10_lt (G : IVec S16 32) (hG : ∀ x, (G x).toNat ≤ 999) (x : S16.Idx) : ((k0_pay48 (F := F) lanes G) x).toNat < 26000 := by
  have e : (k0_pay48 (F := F) lanes G) x = G x + (k0_pay48 (F := F) lanes (fun _ => 0#32)) x := by
    simp only [k0_pay48, addi, IntOp.addi, BitVec.zero_add]
  rw [e]; exact add_lt_rows _ _ (hG x) (pay10_const x)

theorem pay11_const : ∀ x : S16.Idx, ((k0_pay52 (F := fun _ => Unit) lanes (fun _ => 0#32)) x).toNat ≤ 25000 := by decide +kernel
theorem pay11_lt (G : IVec S16 32) (hG : ∀ x, (G x).toNat ≤ 999) (x : S16.Idx) : ((k0_pay52 (F := F) lanes G) x).toNat < 26000 := by
  have e : (k0_pay52 (F := F) lanes G) x = G x + (k0_pay52 (F := F) lanes (fun _ => 0#32)) x := by
    simp only [k0_pay52, addi, IntOp.addi, BitVec.zero_add]
  rw [e]; exact add_lt_rows _ _ (hG x) (pay11_const x)

theorem pay12_const : ∀ x : S16.Idx, ((k0_pay3 (F := fun _ => Unit) (k0_pay53 lanes) 3#32 (fun _ => 0#32)) x).toNat ≤ 25000 := by decide +kernel
theorem pay12_lt (G : IVec S16 32) (hG : ∀ x, (G x).toNat ≤ 999) (x : S16.Idx) : ((k0_pay3 (F := F) (k0_pay53 lanes) 3#32 G) x).toNat < 26000 := by
  have e : (k0_pay3 (F := F) (k0_pay53 lanes) 3#32 G) x = G x + (k0_pay3 (F := F) (k0_pay53 lanes) 3#32 (fun _ => 0#32)) x := by
    simp only [k0_pay3, addi, IntOp.addi, BitVec.zero_add]
  rw [e]; exact add_lt_rows _ _ (hG x) (pay12_const x)

theorem pay13_const : ∀ x : S16.Idx, ((k0_pay7 (F := fun _ => Unit) (fun _ => 0#32)) x).toNat ≤ 25000 := by decide +kernel
theorem pay13_lt (G : IVec S16 32) (hG : ∀ x, (G x).toNat ≤ 999) (x : S16.Idx) : ((k0_pay7 (F := F) G) x).toNat < 26000 := by
  have e : (k0_pay7 (F := F) G) x = G x + (k0_pay7 (F := F) (fun _ => 0#32)) x := by
    simp only [k0_pay7, addi, IntOp.addi, BitVec.zero_add]
  rw [e]; exact add_lt_rows _ _ (hG x) (pay13_const x)

/-- A slot's wait for its earlier write is taken exactly when the trip is not the first. -/
theorem conds_iff : ∀ k : Fin k0_t2_loop.trips, (k0_cond1 k = 1#1 ↔ k.val ≠ 0) ∧ (k0_cond2 k = 1#1 ↔ k.val ≠ 0)
    ∧ (k0_cond3 k = 1#1 ↔ k.val ≠ 0) ∧ (k0_cond4 k = 1#1 ↔ k.val ≠ 0) := by decide +kernel

theorem trips1_eq : k0_t1_loop.trips = 32 := by decide
theorem trips2_eq : k0_t2_loop.trips = 13 := by decide

theorem mem_piece1 (k : Fin k0_t1_loop.trips) (y : S6656.Idx) (h1 : 208 * k.val + 0 ≤ (y 0).val) (h2 : (y 0).val < 208 * k.val + 0 + 16) :
    y ∈ (Rect.unit (s := S6656) (k0_off2 k) S16.size (k0_off2_inb k)).set := by
  rw [Rect.mem_set_unit, k0_off2_eq]
  intro a
  obtain rfl : a = 0 := Subsingleton.elim _ _
  constructor
  · show 208 * k.val + 0 ≤ (y 0).val
    exact h1
  · show (y 0).val < 208 * k.val + 0 + 16
    exact h2

theorem mem_piece2 (k : Fin k0_t1_loop.trips) (y : S6656.Idx) (h1 : 208 * k.val + 16 ≤ (y 0).val) (h2 : (y 0).val < 208 * k.val + 16 + 16) :
    y ∈ (Rect.unit (s := S6656) (k0_off3 k) S16.size (k0_off3_inb k)).set := by
  rw [Rect.mem_set_unit, k0_off3_eq]
  intro a
  obtain rfl : a = 0 := Subsingleton.elim _ _
  constructor
  · show 208 * k.val + 16 ≤ (y 0).val
    exact h1
  · show (y 0).val < 208 * k.val + 16 + 16
    exact h2

theorem mem_piece3 (k : Fin k0_t1_loop.trips) (y : S6656.Idx) (h1 : 208 * k.val + 32 ≤ (y 0).val) (h2 : (y 0).val < 208 * k.val + 32 + 16) :
    y ∈ (Rect.unit (s := S6656) (k0_off4 k) S16.size (k0_off4_inb k)).set := by
  rw [Rect.mem_set_unit, k0_off4_eq]
  intro a
  obtain rfl : a = 0 := Subsingleton.elim _ _
  constructor
  · show 208 * k.val + 32 ≤ (y 0).val
    exact h1
  · show (y 0).val < 208 * k.val + 32 + 16
    exact h2

theorem mem_piece4 (k : Fin k0_t1_loop.trips) (y : S6656.Idx) (h1 : 208 * k.val + 48 ≤ (y 0).val) (h2 : (y 0).val < 208 * k.val + 48 + 16) :
    y ∈ (Rect.unit (s := S6656) (k0_off5 k) S16.size (k0_off5_inb k)).set := by
  rw [Rect.mem_set_unit, k0_off5_eq]
  intro a
  obtain rfl : a = 0 := Subsingleton.elim _ _
  constructor
  · show 208 * k.val + 48 ≤ (y 0).val
    exact h1
  · show (y 0).val < 208 * k.val + 48 + 16
    exact h2

theorem mem_piece5 (k : Fin k0_t1_loop.trips) (y : S6656.Idx) (h1 : 208 * k.val + 64 ≤ (y 0).val) (h2 : (y 0).val < 208 * k.val + 64 + 16) :
    y ∈ (Rect.unit (s := S6656) (k0_off6 k) S16.size (k0_off6_inb k)).set := by
  rw [Rect.mem_set_unit, k0_off6_eq]
  intro a
  obtain rfl : a = 0 := Subsingleton.elim _ _
  constructor
  · show 208 * k.val + 64 ≤ (y 0).val
    exact h1
  · show (y 0).val < 208 * k.val + 64 + 16
    exact h2

theorem mem_piece6 (k : Fin k0_t1_loop.trips) (y : S6656.Idx) (h1 : 208 * k.val + 80 ≤ (y 0).val) (h2 : (y 0).val < 208 * k.val + 80 + 16) :
    y ∈ (Rect.unit (s := S6656) (k0_off7 k) S16.size (k0_off7_inb k)).set := by
  rw [Rect.mem_set_unit, k0_off7_eq]
  intro a
  obtain rfl : a = 0 := Subsingleton.elim _ _
  constructor
  · show 208 * k.val + 80 ≤ (y 0).val
    exact h1
  · show (y 0).val < 208 * k.val + 80 + 16
    exact h2

theorem mem_piece7 (k : Fin k0_t1_loop.trips) (y : S6656.Idx) (h1 : 208 * k.val + 96 ≤ (y 0).val) (h2 : (y 0).val < 208 * k.val + 96 + 16) :
    y ∈ (Rect.unit (s := S6656) (k0_off8 k) S16.size (k0_off8_inb k)).set := by
  rw [Rect.mem_set_unit, k0_off8_eq]
  intro a
  obtain rfl : a = 0 := Subsingleton.elim _ _
  constructor
  · show 208 * k.val + 96 ≤ (y 0).val
    exact h1
  · show (y 0).val < 208 * k.val + 96 + 16
    exact h2

theorem mem_piece8 (k : Fin k0_t1_loop.trips) (y : S6656.Idx) (h1 : 208 * k.val + 112 ≤ (y 0).val) (h2 : (y 0).val < 208 * k.val + 112 + 16) :
    y ∈ (Rect.unit (s := S6656) (k0_off9 k) S16.size (k0_off9_inb k)).set := by
  rw [Rect.mem_set_unit, k0_off9_eq]
  intro a
  obtain rfl : a = 0 := Subsingleton.elim _ _
  constructor
  · show 208 * k.val + 112 ≤ (y 0).val
    exact h1
  · show (y 0).val < 208 * k.val + 112 + 16
    exact h2

theorem mem_piece9 (k : Fin k0_t1_loop.trips) (y : S6656.Idx) (h1 : 208 * k.val + 128 ≤ (y 0).val) (h2 : (y 0).val < 208 * k.val + 128 + 16) :
    y ∈ (Rect.unit (s := S6656) (k0_off10 k) S16.size (k0_off10_inb k)).set := by
  rw [Rect.mem_set_unit, k0_off10_eq]
  intro a
  obtain rfl : a = 0 := Subsingleton.elim _ _
  constructor
  · show 208 * k.val + 128 ≤ (y 0).val
    exact h1
  · show (y 0).val < 208 * k.val + 128 + 16
    exact h2

theorem mem_piece10 (k : Fin k0_t1_loop.trips) (y : S6656.Idx) (h1 : 208 * k.val + 144 ≤ (y 0).val) (h2 : (y 0).val < 208 * k.val + 144 + 16) :
    y ∈ (Rect.unit (s := S6656) (k0_off11 k) S16.size (k0_off11_inb k)).set := by
  rw [Rect.mem_set_unit, k0_off11_eq]
  intro a
  obtain rfl : a = 0 := Subsingleton.elim _ _
  constructor
  · show 208 * k.val + 144 ≤ (y 0).val
    exact h1
  · show (y 0).val < 208 * k.val + 144 + 16
    exact h2

theorem mem_piece11 (k : Fin k0_t1_loop.trips) (y : S6656.Idx) (h1 : 208 * k.val + 160 ≤ (y 0).val) (h2 : (y 0).val < 208 * k.val + 160 + 16) :
    y ∈ (Rect.unit (s := S6656) (k0_off12 k) S16.size (k0_off12_inb k)).set := by
  rw [Rect.mem_set_unit, k0_off12_eq]
  intro a
  obtain rfl : a = 0 := Subsingleton.elim _ _
  constructor
  · show 208 * k.val + 160 ≤ (y 0).val
    exact h1
  · show (y 0).val < 208 * k.val + 160 + 16
    exact h2

theorem mem_piece12 (k : Fin k0_t1_loop.trips) (y : S6656.Idx) (h1 : 208 * k.val + 176 ≤ (y 0).val) (h2 : (y 0).val < 208 * k.val + 176 + 16) :
    y ∈ (Rect.unit (s := S6656) (k0_off13 k) S16.size (k0_off13_inb k)).set := by
  rw [Rect.mem_set_unit, k0_off13_eq]
  intro a
  obtain rfl : a = 0 := Subsingleton.elim _ _
  constructor
  · show 208 * k.val + 176 ≤ (y 0).val
    exact h1
  · show (y 0).val < 208 * k.val + 176 + 16
    exact h2

theorem mem_piece13 (k : Fin k0_t1_loop.trips) (y : S6656.Idx) (h1 : 208 * k.val + 192 ≤ (y 0).val) (h2 : (y 0).val < 208 * k.val + 192 + 16) :
    y ∈ (Rect.unit (s := S6656) (k0_off14 k) S16.size (k0_off14_inb k)).set := by
  rw [Rect.mem_set_unit, k0_off14_eq]
  intro a
  obtain rfl : a = 0 := Subsingleton.elim _ _
  constructor
  · show 208 * k.val + 192 ≤ (y 0).val
    exact h1
  · show (y 0).val < 208 * k.val + 192 + 16
    exact h2

end Cert.Proof.ScI0

end
-- ==== Proof.LibWritesPred.lean ====
import Idealize.ShloMosaic.Lib.Writes

/-! A property of single elements carried across a run of stores through one view: if every listed payload has the
    property at every lane, then after the writes the view reads, at any place that some piece covers or where the
    earlier contents already had the property, an element with the property. Generic in the view, the element type
    and the property; nothing of a particular kernel. -/

namespace Cert.LibWritesPred

open Idealize.ShloMosaic Idealize.ShloMosaic.View

variable {sig : RefSig} {κ : Kind} {sp : Space} {s : Shape} {e : EltTy} {Val : EltTy → Type}

/-- After the unmasked writes `L` (last write first) over contents `f`, the view reads at `y` an element with the
    property `P`, if all payloads have `P` everywhere and either `f` had it at `y` or some piece covers `y`. -/
theorem read_writes_pred (v : View sig κ sp s e) (f : v.ty.Contents Val) (P : Val e → Prop) :
    ∀ L : List (Piece Val s e), (∀ p ∈ L, ∀ x : p.1.shape.Idx, P (p.2 x)) → ∀ y : s.Idx,
      (P (v.read Val f y) ∨ ∃ p ∈ L, y ∈ p.1.set) → P (v.read Val (v.writes Val f L) y)
  | [], _, y, h => by
    rcases h with h | ⟨_, hm, _⟩
    · exact h
    · exact absurd hm List.not_mem_nil
  | p :: L, hL, y, h => by
    by_cases hy : y ∈ p.1.set
    · obtain ⟨x, rfl⟩ : ∃ x, p.1.emb x = y := p.1.exists_idx_of_mem hy
      obtain ⟨r, w⟩ := p
      rw [read_writes_cons_emb]
      exact hL ⟨r, w⟩ List.mem_cons_self x
    · have hy' : y ∉ Finset.univ.map p.1.emb := by rwa [Rect.map_emb_univ]
      rw [writes_cons, read_slice_write_of_not_mem p.1 _ _ _ hy']
      refine read_writes_pred v f P L (fun p' hp' => hL p' (List.mem_cons_of_mem _ hp')) y ?_
      rcases h with h | ⟨p', hm, hy''⟩
      · exact .inl h
      · rcases List.mem_cons.mp hm with rfl | hm
        · exact absurd hy'' hy
        · exact .inr ⟨p', hm, hy''⟩

end Cert.LibWritesPred
-- ==== Proof.ScTileI0.lean ====
import proofs.«202673_g7318624272670_cont_9to1c4b_526_24_alg».proof.Proof.ScBaseI
import proofs.«202673_g7318624272670_cont_9to1c4b_526_24_alg».proof.Proof.ScArithI0
import proofs.«202673_g7318624272670_cont_9to1c4b_526_24_alg».proof.Proof.ScSetsI0
import proofs.«202673_g7318624272670_cont_9to1c4b_526_24_alg».proof.Proof.ScResI0
import proofs.«202673_g7318624272670_cont_9to1c4b_526_24_alg».proof.Proof.LibWritesPred
import proofs.«202673_g7318624272670_cont_9to1c4b_526_24_alg».proof.Proof.Gen.KernelIdeal.Skeleton

/-! One vector subcore's task of the first gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 and the windows written so far hold words
    below 26000 — what the gathers need of their index lists. Carried through the second loop: the blocks of the trip
    just past are in flight with their row buffers, all other blocks rest with the task; nothing else is claimed of the
    blocks' contents. -/

noncomputable section

namespace Cert.Proof.ScI0

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

variable [FloatOps F]

section Tile
variable (d : Dev nD) (L : grid0.Coords)

/-! ## The loops' invariants -/

/-- Every word the index scratch reads is a category, at most 999. -/
def Small (g : Buf (Elt F) ((sN).view.loc (thr d L))) : Prop :=
  ∀ y, (((sN).view.readAt (Elt F) (LoadRect.whole S6656) g y) : BitVec 32).toNat ≤ 999

/-- The first `n` windows of the permuted list hold table rows: words below 26000. -/
def RowsBelow (n : Nat) (f : Buf (Elt F) ((sP).view.loc (thr d L))) : Prop :=
  ∀ y : S6656.Idx, (y 0).val < 208 * n → (((sP).view.read (Elt F) f y) : BitVec 32).toNat < 26000

def inv1 (O : CellTallies nD τ sig (HIx 2)) (W : Waits sig (HIx 2)) (n : Nat) (_ : PUnit) : sProp 𝕄 :=
  iprop(Transfers.MayWaits (thr d L) (none : HIx 2) O
    ∗ (∃ g, ⌜Small d L g⌝ ∗ (sN).view.loc (thr d L) ↦{fullShare} g)
    ∗ (∃ f, ⌜RowsBelow d L n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k0_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc0_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc0_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc0_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc0_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k0_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0)
  else iprop(emp)

def inv2 (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ (∃ f, ⌜RowsBelow d L 32 f⌝ ∗ (sP).view.loc (thr d L) ↦{fullShare} f)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L ((sN).view.write (Elt F) fn ((idxSl L).view.read (Elt F) fi) Finset.univ) := by
  intro y
  rw [View.write_whole_univ]
  simp only [View.readAt_apply, Memref.view_whole, View.read_whole]
  rw [View.read_apply]
  exact hfi _

theorem rowsBelow_zero (f : Buf (Elt F) ((sP).view.loc (thr d L))) : RowsBelow d L 0 f := by
  intro y hy
  rw [Nat.mul_zero] at hy
  exact absurd hy (Nat.not_lt_zero _)

/-- One window's thirteen stores keep the earlier windows and fill this one with table rows. -/
theorem rowsBelow_step (k : Fin k0_t1_loop.trips) (f : Buf (Elt F) ((sP).view.loc (thr d L))) (hf : RowsBelow d L k.val f)
    (Lp : List (View.Piece (Elt F) S6656 .i32))
    (hL : ∀ p ∈ Lp, ∀ x : p.1.shape.Idx, ((p.2 x) : BitVec 32).toNat < 26000)
    (hcov : ∀ y : S6656.Idx, 208 * k.val ≤ (y 0).val → (y 0).val < 208 * (k.val + 1) → ∃ p ∈ Lp, y ∈ p.1.set) :
    RowsBelow d L (k.val + 1) ((sP).view.writes (Elt F) f Lp) := by
  intro y hy
  refine Cert.LibWritesPred.read_writes_pred (sP).view f (fun w : Elt F .i32 => (w : BitVec 32).toNat < 26000) Lp hL y ?_
  by_cases h : (y 0).val < 208 * k.val
  · exact .inl (hf y h)
  · exact .inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0) : sProp 𝕄) := if_pos h
theorem idle_pos (n : Nat) (h : n ≠ 0) : idle (F := F) d L n = (iprop(emp) : sProp 𝕄) := if_neg h
theorem cell_self (t : Fin k0_t2_loop.trips) : cell (F := F) d L t.val t = chunkRow d L t := if_neg (by omega)
theorem cell_next (t : Fin k0_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k0_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k0_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fP : Buf (Elt F) ((sP).view.loc (thr d L))) (h : RowsBelow d L 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h (r.emb x) ((r.emb x) 0).isLt

set_option maxHeartbeats 8000000 in
theorem tile_run (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') := by
  rw [cc0_gather_kernel_eq_skeleton]; unfold cc0_gather_kernel_skel k0_t1_body k0_t2_body
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L k f hf _ ?hL ?hcov
        case hL =>
          refine List.forall_mem_cons.mpr ⟨pay13_lt (F := F) _ (fun _ => hg _), ?_⟩
          refine List.forall_mem_cons.mpr ⟨pay12_lt (F := F) _ (fun _ => hg _), ?_⟩
          refine List.forall_mem_cons.mpr ⟨pay11_lt (F := F) _ (fun _ => hg _), ?_⟩
          refine List.forall_mem_cons.mpr ⟨pay10_lt (F := F) _ (fun _ => hg _), ?_⟩
          refine List.forall_mem_cons.mpr ⟨pay9_lt (F := F) _ (fun _ => hg _), ?_⟩
          refine List.forall_mem_cons.mpr ⟨pay8_lt (F := F) _ (fun _ => hg _), ?_⟩
          refine List.forall_mem_cons.mpr ⟨pay7_lt (F := F) _ (fun _ => hg _), ?_⟩
          refine List.forall_mem_cons.mpr ⟨pay6_lt (F := F) _ (fun _ => hg _), ?_⟩
          refine List.forall_mem_cons.mpr ⟨pay5_lt (F := F) _ (fun _ => hg _), ?_⟩
          refine List.forall_mem_cons.mpr ⟨pay4_lt (F := F) _ (fun _ => hg _), ?_⟩
          refine List.forall_mem_cons.mpr ⟨pay3_lt (F := F) _ (fun _ => hg _), ?_⟩
          refine List.forall_mem_cons.mpr ⟨pay2_lt (F := F) _ (fun _ => hg _), ?_⟩
          refine List.forall_mem_cons.mpr ⟨pay1_lt (F := F) _ (fun _ => hg _), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fp
      · iexact Hp
    iexists (insert (SemLoc.dma cc0_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L 32 fP := by
    have := hfP
    rwa [show Scf.trips k0_t1_loop.lb k0_t1_loop.ub k0_t1_loop.st = 32 from trips1_eq] at this
  sl_for (inv2 d L O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fQ hfQ
    obtain ⟨hc1, hc2, hc3, hc4⟩ := conds_iff k
    by_cases hk : k.val = 0
    · have h1 : ¬ k0_cond1 k = 1#1 := fun h => (hc1.mp h) hk
      have h2 : ¬ k0_cond2 k = 1#1 := fun h => (hc2.mp h) hk
      have h3 : ¬ k0_cond3 k = 1#1 := fun h => (hc3.mp h) hk
      have h4 : ¬ k0_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k0_cond1 k = 1#1 := hc1.mpr hk
      have h2 : k0_cond2 k = 1#1 := hc2.mpr hk
      have h3 : k0_cond3 k = 1#1 := hc3.mpr hk
      have h4 : k0_cond4 k = 1#1 := hc4.mpr hk
      have hk' : k.val - 1 < k0_t2_loop.trips := Nat.lt_of_le_of_lt (Nat.sub_le _ _) k.isLt
      have hkk : (⟨k.val - 1, hk'⟩ : Fin k0_t2_loop.trips).val + 1 = k.val := by show k.val - 1 + 1 = k.val; omega
      have hne : (⟨k.val - 1, hk'⟩ : Fin k0_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k0_t2_loop.trips := by rw [trips2_eq]; decide
  have hll : (⟨12, hl⟩ : Fin k0_t2_loop.trips).val + 1 = Scf.trips k0_t2_loop.lb k0_t2_loop.ub k0_t2_loop.st := trips2_eq.symm
  ihave Hc := (Entails.of_eq (SparseCore.bigSep_erase' (Finset.mem_univ (⟨12, hl⟩ : Fin k0_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k0_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k0_t2_loop.trips)) fun t ht => cell_other d L (Scf.trips k0_t2_loop.lb k0_t2_loop.ub k0_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists _; iexact Hp
  isplitl [Hw0_src]
  · iexists q0; iapply (Entails.of_eq (pts_whole d L cc0_scratch2 rfl fullShare q0)); iexact Hw0_src
  isplitl [Hw1_src]
  · iexists q1; iapply (Entails.of_eq (pts_whole d L cc0_scratch3 rfl fullShare q1)); iexact Hw1_src
  isplitl [Hw2_src]
  · iexists q2; iapply (Entails.of_eq (pts_whole d L cc0_scratch4 rfl fullShare q2)); iexact Hw2_src
  isplitl [Hw3_src]
  · iexists q3; iapply (Entails.of_eq (pts_whole d L cc0_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScI0

end
-- ==== Proof.ScOwnI0.lean ====
/-
  What a vector subcore owns during the first gather, opened. A task starts with every buffer and every semaphore that
  is the subcore's own: the buffers each whole at some contents, the semaphores each at zero. The gather names fifteen of
  them — six scratch buffers and nine transfer semaphores — and never touches the others. This module states the
  subcore's holdings as those fifteen, in the gather's order, beside the rest, as an equality: the task takes the
  fifteen and gives the same fifteen back.
-/
import proofs.«202673_g7318624272670_cont_9to1c4b_526_24_alg».proof.Proof.ScBaseI
import Idealize.ShloMosaic.Lib.SparseCore.Launch

noncomputable section

namespace Cert.Proof.ScI0

open Cert.KernelIdeal Cert.KernelIdeal.Gen Cert.Proof.ScI
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The gather's six scratch buffers. -/
abbrev T6 : Finset (Ref sig .scVector) := {cc0_scratch0, cc0_scratch1, cc0_scratch2, cc0_scratch3, cc0_scratch4, cc0_scratch5}
/-- The gather's nine transfer semaphores, in the order the task takes them. -/
abbrev T9 : Finset (SemLoc sig) :=
  {SemLoc.dma cc0_scoped0.sem, SemLoc.dma cc0_scratch6.sem, SemLoc.dma cc0_scratch7.sem, SemLoc.dma cc0_scratch8.sem,
    SemLoc.dma cc0_scratch9.sem, SemLoc.dma cc0_scratch10.sem, SemLoc.dma cc0_scratch11.sem, SemLoc.dma cc0_scratch12.sem,
    SemLoc.dma cc0_scratch13.sem}

/-- The six buffers as buffers of subcore (c, i). -/
abbrev bufs6 (c : Fin τ.nSC) (i : Fin τ.nSub) : Finset (DevRef τ sig) := T6.image (Proc.scVector c i).devRef
/-- The nine semaphores as cells of thread (d, c, i). -/
abbrev cells9 (d : Dev nD) (c : Fin τ.nSC) (i : Fin τ.nSub) : Finset (GSem nD τ sig) := T9.image fun sm => ((V d c i, sm) : GSem nD τ sig)

/-- The subcore's other buffers, each whole at some contents. -/
def restBufs (d : Dev nD) (c : Fin τ.nSC) (i : Fin τ.nSub) : sProp 𝕄 :=
  bigSep (ownRefs (τ := τ) (.scVector c i) \ bufs6 c i) fun b => iprop(∃ f, ((d, b) : Loc nD τ sig) ↦{fullShare} f)
/-- The thread's other semaphores, each at zero. -/
def restSems (d : Dev nD) (c : Fin τ.nSC) (i : Fin τ.nSub) : sProp 𝕄 :=
  bigSep (ownCells (V d c i) \ cells9 d c i) fun g => semVal g 0

theorem bufs6_sub (c : Fin τ.nSC) (i : Fin τ.nSub) : bufs6 c i ⊆ ownRefs (τ := τ) (.scVector c i) := by
  refine Finset.image_subset_iff.mpr fun b hb => ?_
  simp only [T6, Finset.mem_insert, Finset.mem_singleton] at hb
  rcases hb with rfl | rfl | rfl | rfl | rfl | rfl <;>
    exact SparseCore.Cfg.mem_ownRefs_of_owner (p := Proc.scVector c i) rfl

/-- Each of the nine is a semaphore scoped to a vector subcore. -/
theorem T9_scoped : ∀ sm ∈ T9, (sm : SemLoc sig).isScoped .scVector = true := by decide

theorem cells9_sub (d : Dev nD) (c : Fin τ.nSC) (i : Fin τ.nSub) : cells9 d c i ⊆ ownCells (V d c i) :=
  Finset.image_subset_iff.mpr fun sm hsm => (mem_ownCells (g := ((V d c i, sm) : GSem nD τ sig))).mpr ⟨rfl, T9_scoped sm hsm⟩

/-- Re-association, as an equality. -/
theorem sep_assoc_eq {M : Type} [URA M] (P Q R : sProp M) : iprop((P ∗ Q) ∗ R) = iprop(P ∗ Q ∗ R) :=
  Idealize.SL.BI.equiv_iff.mp ⟨Idealize.SL.BI.sep_assoc, Idealize.SL.BI.sep_assoc'⟩
/-- Six propositions beside a seventh, re-associated. -/
theorem assoc6 {M : Type} [URA M] (a b c e f g r : sProp M) : iprop((a ∗ b ∗ c ∗ e ∗ f ∗ g) ∗ r) = iprop(a ∗ b ∗ c ∗ e ∗ f ∗ g ∗ r) := by
  rw [sep_assoc_eq, sep_assoc_eq, sep_assoc_eq, sep_assoc_eq, sep_assoc_eq]
/-- Nine propositions beside a tenth, re-associated. -/
theorem assoc9 {M : Type} [URA M] (a b c e f g h j k r : sProp M) :
    iprop((a ∗ b ∗ c ∗ e ∗ f ∗ g ∗ h ∗ j ∗ k) ∗ r) = iprop(a ∗ b ∗ c ∗ e ∗ f ∗ g ∗ h ∗ j ∗ k ∗ r) := by
  rw [sep_assoc_eq, sep_assoc_eq, sep_assoc_eq, sep_assoc_eq, sep_assoc_eq, sep_assoc_eq, sep_assoc_eq, sep_assoc_eq]

/-- The six buffers are six different ones, and the nine semaphores nine. -/
theorem T6_0 : cc0_scratch0 ∉ ({cc0_scratch1, cc0_scratch2, cc0_scratch3, cc0_scratch4, cc0_scratch5} : Finset (Ref sig .scVector)) := by decide
theorem T6_1 : cc0_scratch1 ∉ ({cc0_scratch2, cc0_scratch3, cc0_scratch4, cc0_scratch5} : Finset (Ref sig .scVector)) := by decide
theorem T6_2 : cc0_scratch2 ∉ ({cc0_scratch3, cc0_scratch4, cc0_scratch5} : Finset (Ref sig .scVector)) := by decide
theorem T6_3 : cc0_scratch3 ∉ ({cc0_scratch4, cc0_scratch5} : Finset (Ref sig .scVector)) := by decide
theorem T6_4 : cc0_scratch4 ∉ ({cc0_scratch5} : Finset (Ref sig .scVector)) := by decide
theorem T9_0 : SemLoc.dma cc0_scoped0.sem ∉
    ({SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_1 : SemLoc.dma cc0_scratch6.sem ∉
    ({SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_2 : SemLoc.dma cc0_scratch7.sem ∉
    ({SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_3 : SemLoc.dma cc0_scratch8.sem ∉
    ({SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_4 : SemLoc.dma cc0_scratch9.sem ∉
    ({SemLoc.dma cc0_scratch10.sem, SemLoc.dma cc0_scratch11.sem, SemLoc.dma cc0_scratch12.sem, SemLoc.dma cc0_scratch13.sem} : Finset (SemLoc sig)) := by decide
theorem T9_5 : SemLoc.dma cc0_scratch10.sem ∉
    ({SemLoc.dma cc0_scratch11.sem, SemLoc.dma cc0_scratch12.sem, SemLoc.dma cc0_scratch13.sem} : Finset (SemLoc sig)) := by decide
theorem T9_6 : SemLoc.dma cc0_scratch11.sem ∉
    ({SemLoc.dma cc0_scratch12.sem, SemLoc.dma cc0_scratch13.sem} : Finset (SemLoc sig)) := by decide
theorem T9_7 : SemLoc.dma cc0_scratch12.sem ∉
    ({SemLoc.dma cc0_scratch13.sem} : Finset (SemLoc sig)) := by decide

/-- The subcore's buffers: the six, then the rest. -/
theorem bufs_split (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ restBufs d c i) := by
  unfold SparseCore.Cfg.ownBufs restBufs
  rw [SparseCore.bigSep_sdiff_split' (bufs6_sub c i),
    SparseCore.bigSep_image_of_injOn ((Proc.devRef_injective (Proc.scVector c i)).injOn),
    SparseCore.bigSep_insert' T6_0, SparseCore.bigSep_insert' T6_1, SparseCore.bigSep_insert' T6_2,
    SparseCore.bigSep_insert' T6_3, SparseCore.bigSep_insert' T6_4, bigSep_singleton]
  exact assoc6 _ _ _ _ _ _ _

/-- The thread's semaphores: the nine, then the rest. -/
theorem sems_split (d : Dev nD) (c : Fin τ.nSC) (i : Fin τ.nSub) :
    (ownSems0 (V d c i) : sProp 𝕄)
      = iprop(semVal (V d c i, SemLoc.dma cc0_scoped0.sem) 0 ∗ semVal (V d c i, SemLoc.dma cc0_scratch6.sem) 0
          ∗ semVal (V d c i, SemLoc.dma cc0_scratch7.sem) 0 ∗ semVal (V d c i, SemLoc.dma cc0_scratch8.sem) 0
          ∗ semVal (V d c i, SemLoc.dma cc0_scratch9.sem) 0 ∗ semVal (V d c i, SemLoc.dma cc0_scratch10.sem) 0
          ∗ semVal (V d c i, SemLoc.dma cc0_scratch11.sem) 0 ∗ semVal (V d c i, SemLoc.dma cc0_scratch12.sem) 0
          ∗ semVal (V d c i, SemLoc.dma cc0_scratch13.sem) 0 ∗ restSems d c i) := by
  unfold SparseCore.Cfg.ownSems0 restSems
  rw [SparseCore.bigSep_sdiff_split' (cells9_sub d c i),
    SparseCore.bigSep_image_of_injOn (fun a _ b _ e => (Prod.mk.inj e).2),
    SparseCore.bigSep_insert' T9_0, SparseCore.bigSep_insert' T9_1, SparseCore.bigSep_insert' T9_2,
    SparseCore.bigSep_insert' T9_3, SparseCore.bigSep_insert' T9_4, SparseCore.bigSep_insert' T9_5,
    SparseCore.bigSep_insert' T9_6, SparseCore.bigSep_insert' T9_7, bigSep_singleton]
  exact assoc9 _ _ _ _ _ _ _ _ _ _

/-- WHAT A TASK STARTS WITH AND ENDS WITH: the subcore's scoped buffers and semaphores are the gather's six buffers,
    each whole at some contents, and the rest, beside its nine semaphores at zero and the rest. -/
theorem own_split (hF : (K (F := F)).Facts) (d : Dev nD) (c : Fin τ.nSC) (i : Fin τ.nSub) :
    (iprop(scopedBufs (V d c i) ∗ scopedSems0 (V d c i)) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f) ∗ (∃ f, (V d c i).loc cc0_scratch3 ↦{fullShare} f)
            ∗ (∃ f, (V d c i).loc cc0_scratch4 ↦{fullShare} f) ∗ (∃ f, (V d c i).loc cc0_scratch5 ↦{fullShare} f)
            ∗ restBufs d c i)
          ∗ (semVal (V d c i, SemLoc.dma cc0_scoped0.sem) 0 ∗ semVal (V d c i, SemLoc.dma cc0_scratch6.sem) 0
            ∗ semVal (V d c i, SemLoc.dma cc0_scratch7.sem) 0 ∗ semVal (V d c i, SemLoc.dma cc0_scratch8.sem) 0
            ∗ semVal (V d c i, SemLoc.dma cc0_scratch9.sem) 0 ∗ semVal (V d c i, SemLoc.dma cc0_scratch10.sem) 0
            ∗ semVal (V d c i, SemLoc.dma cc0_scratch11.sem) 0 ∗ semVal (V d c i, SemLoc.dma cc0_scratch12.sem) 0
            ∗ semVal (V d c i, SemLoc.dma cc0_scratch13.sem) 0 ∗ restSems d c i)) := by
  rw [(K (F := F)).scopedBufs_V hF d c i, SparseCore.Cfg.scopedSems0_V d c i, bufs_split, sems_split]

end Cert.Proof.ScI0

end
-- ==== Proof.ScOblI0.lean ====
import proofs.«202673_g7318624272670_cont_9to1c4b_526_24_alg».proof.Proof.ScTileI0
import proofs.«202673_g7318624272670_cont_9to1c4b_526_24_alg».proof.Proof.ScOwnI0
import proofs.«202673_g7318624272670_cont_9to1c4b_526_24_alg».proof.Proof.ScPayI

/-! The first gather call's task as the launch theorem asks for it: a vector subcore's scoped storage opened into the
    task's two index scratches, four row buffers and nine DMA semaphores, the task run, and the storage closed again. -/

noncomputable section

namespace Cert.Proof.ScI0

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

set_option maxHeartbeats 4000000 in
/-- The task with the subcore's scoped storage as the launch hands it over. -/
theorem tile_body (hF : (K (F := F)).Facts) (d : Dev nD) (L : grid0.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileRes d L qT ft fi ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc0_scratch6 cc0_scratch7 cc0_scratch8 cc0_scratch9 cc0_scratch10 cc0_scratch11 cc0_scratch12 cc0_scratch13 cc0_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv0 : ∀ d i, ((Iv0 d i) : BitVec 32).toNat ≤ 999) :
    (K (F := F)).TileObl (D (F := F)) 𝒱 (P Tb Iv0 Iv1) v₀ 0 := by
  intro d c i O W hO _ _
  simp only [show (P Tb Iv0 Iv1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv0 d) (hIv0 d) O W hO).trans (wp_mono frame _ _ fun _ => obl_post)

end Cert.Proof.ScI0

end
-- ==== Proof.ScChkI1.lean ====
import proofs.«202673_g7318624272670_cont_9to1c4b_526_24_alg».proof.Proof.Gen.KernelIdeal.Skeleton

/-! The positions a trip of the permutation loop reads: lane l of group g of window t reads position
    208 t + 26 ((16 g + l) mod 8) + (16 g + l) / 8, which is below 6656 for t < 32, g < 13, l < 16. Each of the thirteen
    side conditions is this fact at one g, decided over the 32 windows. -/

noncomputable section

namespace Cert.Proof.ScI1

open Cert.KernelIdeal Cert.KernelIdeal.Gen Idealize.ShloMosaic

/-- The lane numbers 0..15. -/
abbrev lanes : IVec S16 32 := iota .scVector S16 32 [0] iota_S16_d0_w32_scVector
/-- Window t's first position, 208 t, as the loop computes it. -/
abbrev wbase (t : Fin k1_t1_loop.trips) : BitVec 32 := Scalar.muli (Scalar.addi 0#32 (Scalar.muli (Scf.iv 0#32 1#32 t) 1#32)) 208#32

theorem chk1 : ∀ t : Fin k1_t1_loop.trips, k1_chk1 (k1_pay10 lanes 0#32 1#32 t) := by decide +kernel
theorem chk2 : ∀ t : Fin k1_t1_loop.trips, k1_chk2 (k1_pay14 lanes 0#32 1#32 t) := by decide +kernel
theorem chk3 : ∀ t : Fin k1_t1_loop.trips, k1_chk3 (k1_pay18 lanes (wbase t) 32#32) := by decide +kernel
theorem chk4 : ∀ t : Fin k1_t1_loop.trips, k1_chk4 (k1_pay22 lanes (wbase t)) := by decide +kernel
theorem chk5 : ∀ t : Fin k1_t1_loop.trips, k1_chk5 (k1_pay27 (wbase t) (k1_pay25 lanes) (k1_pay26 lanes)) := by decide +kernel
theorem chk6 : ∀ t : Fin k1_t1_loop.trips, k1_chk6 (k1_pay31 lanes (wbase t)) := by decide +kernel
theorem chk7 : ∀ t : Fin k1_t1_loop.trips, k1_chk7 (k1_pay35 lanes (wbase t)) := by decide +kernel
theorem chk8 : ∀ t : Fin k1_t1_loop.trips, k1_chk8 (k1_pay39 lanes (wbase t)) := by decide +kernel
theorem chk9 : ∀ t : Fin k1_t1_loop.trips, k1_chk9 (k1_pay43 lanes (wbase t)) := by decide +kernel
theorem chk10 : ∀ t : Fin k1_t1_loop.trips, k1_chk10 (k1_pay47 lanes (wbase t)) := by decide +kernel
theorem chk11 : ∀ t : Fin k1_t1_loop.trips, k1_chk11 (k1_pay51 lanes (wbase t)) := by decide +kernel
theorem chk12 : ∀ t : Fin k1_t1_loop.trips, k1_chk12 (k1_pay2 (wbase t) (k1_pay53 lanes) (k1_pay54 lanes) 3#32) := by decide +kernel
theorem chk13 : ∀ t : Fin k1_t1_loop.trips, k1_chk13 (k1_pay6 (wbase t)) := by decide +kernel

end Cert.Proof.ScI1

end
-- ==== Proof.ScArithI1.lean ====
import proofs.«202673_g7318624272670_cont_9to1c4b_526_24_alg».proof.Proof.ScChkI1

/-! Word arithmetic of the permutation loop and the gather loop's guards: a stored word is a category (at most 999) plus
    1000 times a field number (at most 25), so it names a table row below 26000; the thirteen stores of a window cover its
    208 places; a slot's earlier write is waited for exactly from the second trip on. -/

noncomputable section

namespace Cert.Proof.ScI1

open Cert.KernelIdeal Cert.KernelIdeal.Gen Idealize.ShloMosaic

variable {F : FTy → Type}

theorem add_lt_rows (a b : BitVec 32) (ha : a.toNat ≤ 999) (hb : b.toNat ≤ 25000) : (a + b).toNat < 26000 := by
  rw [BitVec.toNat_add]; omega

theorem pay1_const : ∀ x : S16.Idx, ((k1_pay11 (F := fun _ => Unit) lanes (fun _ => 0#32)) x).toNat ≤ 25000 := by decide +kernel
theorem pay1_lt (G : IVec S16 32) (hG : ∀ x, (G x).toNat ≤ 999) (x : S16.Idx) : ((k1_pay11 (F := F) lanes G) x).toNat < 26000 := by
  have e : (k1_pay11 (F := F) lanes G) x = G x + (k1_pay11 (F := F) lanes (fun _ => 0#32)) x := by
    simp only [k1_pay11, addi, IntOp.addi, BitVec.zero_add]
  rw [e]; exact add_lt_rows _ _ (hG x) (pay1_const x)

theorem pay2_const : ∀ x : S16.Idx, ((k1_pay15 (F := fun _ => Unit) lanes (fun _ => 0#32)) x).toNat ≤ 25000 := by decide +kernel
theorem pay2_lt (G : IVec S16 32) (hG : ∀ x, (G x).toNat ≤ 999) (x : S16.Idx) : ((k1_pay15 (F := F) lanes G) x).toNat < 26000 := by
  have e : (k1_pay15 (F := F) lanes G) x = G x + (k1_pay15 (F := F) lanes (fun _ => 0#32)) x := by
    simp only [k1_pay15, addi, IntOp.addi, BitVec.zero_add]
  rw [e]; exact add_lt_rows _ _ (hG x) (pay2_const x)

theorem pay3_const : ∀ x : S16.Idx, ((k1_pay19 (F := fun _ => Unit) lanes 32#32 (fun _ => 0#32)) x).toNat ≤ 25000 := by decide +kernel
theorem pay3_lt (G : IVec S16 32) (hG : ∀ x, (G x).toNat ≤ 999) (x : S16.Idx) : ((k1_pay19 (F := F) lanes 32#32 G) x).toNat < 26000 := by
  have e : (k1_pay19 (F := F) lanes 32#32 G) x = G x + (k1_pay19 (F := F) lanes 32#32 (fun _ => 0#32)) x := by
    simp only [k1_pay19, addi, IntOp.addi, BitVec.zero_add]
  rw [e]; exact add_lt_rows _ _ (hG x) (pay3_const x)

theorem pay4_const : ∀ x : S16.Idx, ((k1_pay23 (F := fun _ => Unit) lanes (fun _ => 0#32)) x).toNat ≤ 25000 := by decide +kernel
theorem pay4_lt (G : IVec S16 32) (hG : ∀ x, (G x).toNat ≤ 999) (x : S16.Idx) : ((k1_pay23 (F := F) lanes G) x).toNat < 26000 := by
  have e : (k1_pay23 (F := F) lanes G) x = G x + (k1_pay23 (F := F) lanes (fun _ => 0#32)) x := by
    simp only [k1_pay23, addi, IntOp.addi, BitVec.zero_add]
  rw [e]; exact add_lt_rows _ _ (hG x) (pay4_const x)

theorem pay5_const : ∀ x : S16.Idx, ((k1_pay28 (F := fun _ => Unit) (k1_pay26 lanes) (fun _ => 0#32)) x).toNat ≤ 25000 := by decide +kernel
theorem pay5_lt (G : IVec S16 32) (hG : ∀ x, (G x).toNat ≤ 999) (x : S16.Idx) : ((k1_pay28 (F := F) (k1_pay26 lanes) G) x).toNat < 26000 := by
  have e : (k1_pay28 (F := F) (k1_pay26 lanes) G) x = G x + (k1_pay28 (F := F) (k1_pay26 lanes) (fun _ => 0#32)) x := by
    simp only [k1_pay28, addi, IntOp.addi, BitVec.zero_add]
  rw [e]; exact add_lt_rows _ _ (hG x) (pay5_const x)

theorem pay6_const : ∀ x : S16.Idx, ((k1_pay32 (F := fun _ => Unit) lanes (fun _ => 0#32)) x).toNat ≤ 25000 := by decide +kernel
theorem pay6_lt (G : IVec S16 32) (hG : ∀ x, (G x).toNat ≤ 999) (x : S16.Idx) : ((k1_pay32 (F := F) lanes G) x).toNat < 26000 := by
  have e : (k1_pay32 (F := F) lanes G) x = G x + (k1_pay32 (F := F) lanes (fun _ => 0#32)) x := by
    simp only [k1_pay32, addi, IntOp.addi, BitVec.zero_add]
  rw [e]; exact add_lt_rows _ _ (hG x) (pay6_const x)

theorem pay7_const : ∀ x : S16.Idx, ((k1_pay36 (F := fun _ => Unit) (k1_pay34 lanes) (fun _ => 0#32)) x).toNat ≤ 25000 := by decide +kernel
theorem pay7_lt (G : IVec S16 32) (hG : ∀ x, (G x).toNat ≤ 999) (x : S16.Idx) : ((k1_pay36 (F := F) (k1_pay34 lanes) G) x).toNat < 26000 := by
  have e : (k1_pay36 (F := F) (k1_pay34 lanes) G) x = G x + (k1_pay36 (F := F) (k1_pay34 lanes) (fun _ => 0#32)) x := by
    simp only [k1_pay36, addi, IntOp.addi, BitVec.zero_add]
  rw [e]; exact add_lt_rows _ _ (hG x) (pay7_const x)

theorem pay8_const : ∀ x : S16.Idx, ((k1_pay40 (F := fun _ => Unit) lanes (fun _ => 0#32)) x).toNat ≤ 25000 := by decide +kernel
theorem pay8_lt (G : IVec S16 32) (hG : ∀ x, (G x).toNat ≤ 999) (x : S16.Idx) : ((k1_pay40 (F := F) lanes G) x).toNat < 26000 := by
  have e : (k1_pay40 (F := F) lanes G) x = G x + (k1_pay40 (F := F) lanes (fun _ => 0#32)) x := by
    simp only [k1_pay40, addi, IntOp.addi, BitVec.zero_add]
  rw [e]; exact add_lt_rows _ _ (hG x) (pay8_const x)

theorem pay9_const : ∀ x : S16.Idx, ((k1_pay44 (F := fun _ => Unit) lanes (fun _ => 0#32)) x).toNat ≤ 25000 := by decide +kernel
theorem pay9_lt (G : IVec S16 32) (hG : ∀ x, (G x).toNat ≤ 999) (x : S16.Idx) : ((k1_pay44 (F := F) lanes G) x).toNat < 26000 := by
  have e : (k1_pay44 (F := F) lanes G) x = G x + (k1_pay44 (F := F) lanes (fun _ => 0#32)) x := by
    simp only [k1_pay44, addi, IntOp.addi, BitVec.zero_add]
  rw [e]; exact add_lt_rows _ _ (hG x) (pay9_const x)

theorem pay10_const : ∀ x : S16.Idx, ((k1_pay48 (F := fun _ => Unit) lanes (fun _ => 0#32)) x).toNat ≤ 25000 := by decide +kernel
theorem pay10_lt (G : IVec S16 32) (hG : ∀ x, (G x).toNat ≤ 999) (x : S16.Idx) : ((k1_pay48 (F := F) lanes G) x).toNat < 26000 := by
  have e : (k1_pay48 (F := F) lanes G) x = G x + (k1_pay48 (F := F) lanes (fun _ => 0#32)) x := by
    simp only [k1_pay48, addi, IntOp.addi, BitVec.zero_add]
  rw [e]; exact add_lt_rows _ _ (hG x) (pay10_const x)

theorem pay11_const : ∀ x : S16.Idx, ((k1_pay52 (F := fun _ => Unit) lanes (fun _ => 0#32)) x).toNat ≤ 25000 := by decide +kernel
theorem pay11_lt (G : IVec S16 32) (hG : ∀ x, (G x).toNat ≤ 999) (x : S16.Idx) : ((k1_pay52 (F := F) lanes G) x).toNat < 26000 := by
  have e : (k1_pay52 (F := F) lanes G) x = G x + (k1_pay52 (F := F) lanes (fun _ => 0#32)) x := by
    simp only [k1_pay52, addi, IntOp.addi, BitVec.zero_add]
  rw [e]; exact add_lt_rows _ _ (hG x) (pay11_const x)

theorem pay12_const : ∀ x : S16.Idx, ((k1_pay3 (F := fun _ => Unit) (k1_pay53 lanes) 3#32 (fun _ => 0#32)) x).toNat ≤ 25000 := by decide +kernel
theorem pay12_lt (G : IVec S16 32) (hG : ∀ x, (G x).toNat ≤ 999) (x : S16.Idx) : ((k1_pay3 (F := F) (k1_pay53 lanes) 3#32 G) x).toNat < 26000 := by
  have e : (k1_pay3 (F := F) (k1_pay53 lanes) 3#32 G) x = G x + (k1_pay3 (F := F) (k1_pay53 lanes) 3#32 (fun _ => 0#32)) x := by
    simp only [k1_pay3, addi, IntOp.addi, BitVec.zero_add]
  rw [e]; exact add_lt_rows _ _ (hG x) (pay12_const x)

theorem pay13_const : ∀ x : S16.Idx, ((k1_pay7 (F := fun _ => Unit) (fun _ => 0#32)) x).toNat ≤ 25000 := by decide +kernel
theorem pay13_lt (G : IVec S16 32) (hG : ∀ x, (G x).toNat ≤ 999) (x : S16.Idx) : ((k1_pay7 (F := F) G) x).toNat < 26000 := by
  have e : (k1_pay7 (F := F) G) x = G x + (k1_pay7 (F := F) (fun _ => 0#32)) x := by
    simp only [k1_pay7, addi, IntOp.addi, BitVec.zero_add]
  rw [e]; exact add_lt_rows _ _ (hG x) (pay13_const x)

/-- A slot's wait for its earlier write is taken exactly when the trip is not the first. -/
theorem conds_iff : ∀ k : Fin k1_t2_loop.trips, (k1_cond1 k = 1#1 ↔ k.val ≠ 0) ∧ (k1_cond2 k = 1#1 ↔ k.val ≠ 0)
    ∧ (k1_cond3 k = 1#1 ↔ k.val ≠ 0) ∧ (k1_cond4 k = 1#1 ↔ k.val ≠ 0) := by decide +kernel

theorem trips1_eq : k1_t1_loop.trips = 32 := by decide
theorem trips2_eq : k1_t2_loop.trips = 13 := by decide

theorem mem_piece1 (k : Fin k1_t1_loop.trips) (y : S6656.Idx) (h1 : 208 * k.val + 0 ≤ (y 0).val) (h2 : (y 0).val < 208 * k.val + 0 + 16) :
    y ∈ (Rect.unit (s := S6656) (k1_off2 k) S16.size (k1_off2_inb k)).set := by
  rw [Rect.mem_set_unit, k1_off2_eq]
  intro a
  obtain rfl : a = 0 := Subsingleton.elim _ _
  constructor
  · show 208 * k.val + 0 ≤ (y 0).val
    exact h1
  · show (y 0).val < 208 * k.val + 0 + 16
    exact h2

theorem mem_piece2 (k : Fin k1_t1_loop.trips) (y : S6656.Idx) (h1 : 208 * k.val + 16 ≤ (y 0).val) (h2 : (y 0).val < 208 * k.val + 16 + 16) :
    y ∈ (Rect.unit (s := S6656) (k1_off3 k) S16.size (k1_off3_inb k)).set := by
  rw [Rect.mem_set_unit, k1_off3_eq]
  intro a
  obtain rfl : a = 0 := Subsingleton.elim _ _
  constructor
  · show 208 * k.val + 16 ≤ (y 0).val
    exact h1
  · show (y 0).val < 208 * k.val + 16 + 16
    exact h2

theorem mem_piece3 (k : Fin k1_t1_loop.trips) (y : S6656.Idx) (h1 : 208 * k.val + 32 ≤ (y 0).val) (h2 : (y 0).val < 208 * k.val + 32 + 16) :
    y ∈ (Rect.unit (s := S6656) (k1_off4 k) S16.size (k1_off4_inb k)).set := by
  rw [Rect.mem_set_unit, k1_off4_eq]
  intro a
  obtain rfl : a = 0 := Subsingleton.elim _ _
  constructor
  · show 208 * k.val + 32 ≤ (y 0).val
    exact h1
  · show (y 0).val < 208 * k.val + 32 + 16
    exact h2

theorem mem_piece4 (k : Fin k1_t1_loop.trips) (y : S6656.Idx) (h1 : 208 * k.val + 48 ≤ (y 0).val) (h2 : (y 0).val < 208 * k.val + 48 + 16) :
    y ∈ (Rect.unit (s := S6656) (k1_off5 k) S16.size (k1_off5_inb k)).set := by
  rw [Rect.mem_set_unit, k1_off5_eq]
  intro a
  obtain rfl : a = 0 := Subsingleton.elim _ _
  constructor
  · show 208 * k.val + 48 ≤ (y 0).val
    exact h1
  · show (y 0).val < 208 * k.val + 48 + 16
    exact h2

theorem mem_piece5 (k : Fin k1_t1_loop.trips) (y : S6656.Idx) (h1 : 208 * k.val + 64 ≤ (y 0).val) (h2 : (y 0).val < 208 * k.val + 64 + 16) :
    y ∈ (Rect.unit (s := S6656) (k1_off6 k) S16.size (k1_off6_inb k)).set := by
  rw [Rect.mem_set_unit, k1_off6_eq]
  intro a
  obtain rfl : a = 0 := Subsingleton.elim _ _
  constructor
  · show 208 * k.val + 64 ≤ (y 0).val
    exact h1
  · show (y 0).val < 208 * k.val + 64 + 16
    exact h2

theorem mem_piece6 (k : Fin k1_t1_loop.trips) (y : S6656.Idx) (h1 : 208 * k.val + 80 ≤ (y 0).val) (h2 : (y 0).val < 208 * k.val + 80 + 16) :
    y ∈ (Rect.unit (s := S6656) (k1_off7 k) S16.size (k1_off7_inb k)).set := by
  rw [Rect.mem_set_unit, k1_off7_eq]
  intro a
  obtain rfl : a = 0 := Subsingleton.elim _ _
  constructor
  · show 208 * k.val + 80 ≤ (y 0).val
    exact h1
  · show (y 0).val < 208 * k.val + 80 + 16
    exact h2

theorem mem_piece7 (k : Fin k1_t1_loop.trips) (y : S6656.Idx) (h1 : 208 * k.val + 96 ≤ (y 0).val) (h2 : (y 0).val < 208 * k.val + 96 + 16) :
    y ∈ (Rect.unit (s := S6656) (k1_off8 k) S16.size (k1_off8_inb k)).set := by
  rw [Rect.mem_set_unit, k1_off8_eq]
  intro a
  obtain rfl : a = 0 := Subsingleton.elim _ _
  constructor
  · show 208 * k.val + 96 ≤ (y 0).val
    exact h1
  · show (y 0).val < 208 * k.val + 96 + 16
    exact h2

theorem mem_piece8 (k : Fin k1_t1_loop.trips) (y : S6656.Idx) (h1 : 208 * k.val + 112 ≤ (y 0).val) (h2 : (y 0).val < 208 * k.val + 112 + 16) :
    y ∈ (Rect.unit (s := S6656) (k1_off9 k) S16.size (k1_off9_inb k)).set := by
  rw [Rect.mem_set_unit, k1_off9_eq]
  intro a
  obtain rfl : a = 0 := Subsingleton.elim _ _
  constructor
  · show 208 * k.val + 112 ≤ (y 0).val
    exact h1
  · show (y 0).val < 208 * k.val + 112 + 16
    exact h2

theorem mem_piece9 (k : Fin k1_t1_loop.trips) (y : S6656.Idx) (h1 : 208 * k.val + 128 ≤ (y 0).val) (h2 : (y 0).val < 208 * k.val + 128 + 16) :
    y ∈ (Rect.unit (s := S6656) (k1_off10 k) S16.size (k1_off10_inb k)).set := by
  rw [Rect.mem_set_unit, k1_off10_eq]
  intro a
  obtain rfl : a = 0 := Subsingleton.elim _ _
  constructor
  · show 208 * k.val + 128 ≤ (y 0).val
    exact h1
  · show (y 0).val < 208 * k.val + 128 + 16
    exact h2

theorem mem_piece10 (k : Fin k1_t1_loop.trips) (y : S6656.Idx) (h1 : 208 * k.val + 144 ≤ (y 0).val) (h2 : (y 0).val < 208 * k.val + 144 + 16) :
    y ∈ (Rect.unit (s := S6656) (k1_off11 k) S16.size (k1_off11_inb k)).set := by
  rw [Rect.mem_set_unit, k1_off11_eq]
  intro a
  obtain rfl : a = 0 := Subsingleton.elim _ _
  constructor
  · show 208 * k.val + 144 ≤ (y 0).val
    exact h1
  · show (y 0).val < 208 * k.val + 144 + 16
    exact h2

theorem mem_piece11 (k : Fin k1_t1_loop.trips) (y : S6656.Idx) (h1 : 208 * k.val + 160 ≤ (y 0).val) (h2 : (y 0).val < 208 * k.val + 160 + 16) :
    y ∈ (Rect.unit (s := S6656) (k1_off12 k) S16.size (k1_off12_inb k)).set := by
  rw [Rect.mem_set_unit, k1_off12_eq]
  intro a
  obtain rfl : a = 0 := Subsingleton.elim _ _
  constructor
  · show 208 * k.val + 160 ≤ (y 0).val
    exact h1
  · show (y 0).val < 208 * k.val + 160 + 16
    exact h2

theorem mem_piece12 (k : Fin k1_t1_loop.trips) (y : S6656.Idx) (h1 : 208 * k.val + 176 ≤ (y 0).val) (h2 : (y 0).val < 208 * k.val + 176 + 16) :
    y ∈ (Rect.unit (s := S6656) (k1_off13 k) S16.size (k1_off13_inb k)).set := by
  rw [Rect.mem_set_unit, k1_off13_eq]
  intro a
  obtain rfl : a = 0 := Subsingleton.elim _ _
  constructor
  · show 208 * k.val + 176 ≤ (y 0).val
    exact h1
  · show (y 0).val < 208 * k.val + 176 + 16
    exact h2

theorem mem_piece13 (k : Fin k1_t1_loop.trips) (y : S6656.Idx) (h1 : 208 * k.val + 192 ≤ (y 0).val) (h2 : (y 0).val < 208 * k.val + 192 + 16) :
    y ∈ (Rect.unit (s := S6656) (k1_off14 k) S16.size (k1_off14_inb k)).set := by
  rw [Rect.mem_set_unit, k1_off14_eq]
  intro a
  obtain rfl : a = 0 := Subsingleton.elim _ _
  constructor
  · show 208 * k.val + 192 ≤ (y 0).val
    exact h1
  · show (y 0).val < 208 * k.val + 192 + 16
    exact h2

end Cert.Proof.ScI1

end
-- ==== Proof.ScTileI1.lean ====
import proofs.«202673_g7318624272670_cont_9to1c4b_526_24_alg».proof.Proof.ScBaseI
import proofs.«202673_g7318624272670_cont_9to1c4b_526_24_alg».proof.Proof.ScArithI1
import proofs.«202673_g7318624272670_cont_9to1c4b_526_24_alg».proof.Proof.ScSetsI1
import proofs.«202673_g7318624272670_cont_9to1c4b_526_24_alg».proof.Proof.ScResI1
import proofs.«202673_g7318624272670_cont_9to1c4b_526_24_alg».proof.Proof.LibWritesPred
import proofs.«202673_g7318624272670_cont_9to1c4b_526_24_alg».proof.Proof.Gen.KernelIdeal.Skeleton

/-! One vector subcore's task of the second gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 and the windows written so far hold words
    below 26000 — what the gathers need of their index lists. Carried through the second loop: the blocks of the trip
    just past are in flight with their row buffers, all other blocks rest with the task; nothing else is claimed of the
    blocks' contents. -/

noncomputable section

namespace Cert.Proof.ScI1

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

variable [FloatOps F]

section Tile
variable (d : Dev nD) (L : grid1.Coords)

/-! ## The loops' invariants -/

/-- Every word the index scratch reads is a category, at most 999. -/
def Small (g : Buf (Elt F) ((sN).view.loc (thr d L))) : Prop :=
  ∀ y, (((sN).view.readAt (Elt F) (LoadRect.whole S6656) g y) : BitVec 32).toNat ≤ 999

/-- The first `n` windows of the permuted list hold table rows: words below 26000. -/
def RowsBelow (n : Nat) (f : Buf (Elt F) ((sP).view.loc (thr d L))) : Prop :=
  ∀ y : S6656.Idx, (y 0).val < 208 * n → (((sP).view.read (Elt F) f y) : BitVec 32).toNat < 26000

def inv1 (O : CellTallies nD τ sig (HIx 2)) (W : Waits sig (HIx 2)) (n : Nat) (_ : PUnit) : sProp 𝕄 :=
  iprop(Transfers.MayWaits (thr d L) (none : HIx 2) O
    ∗ (∃ g, ⌜Small d L g⌝ ∗ (sN).view.loc (thr d L) ↦{fullShare} g)
    ∗ (∃ f, ⌜RowsBelow d L n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k1_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc1_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc1_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc1_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc1_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k1_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0)
  else iprop(emp)

def inv2 (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ (∃ f, ⌜RowsBelow d L 32 f⌝ ∗ (sP).view.loc (thr d L) ↦{fullShare} f)
    ∗ semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L ((sN).view.write (Elt F) fn ((idxSl L).view.read (Elt F) fi) Finset.univ) := by
  intro y
  rw [View.write_whole_univ]
  simp only [View.readAt_apply, Memref.view_whole, View.read_whole]
  rw [View.read_apply]
  exact hfi _

theorem rowsBelow_zero (f : Buf (Elt F) ((sP).view.loc (thr d L))) : RowsBelow d L 0 f := by
  intro y hy
  rw [Nat.mul_zero] at hy
  exact absurd hy (Nat.not_lt_zero _)

/-- One window's thirteen stores keep the earlier windows and fill this one with table rows. -/
theorem rowsBelow_step (k : Fin k1_t1_loop.trips) (f : Buf (Elt F) ((sP).view.loc (thr d L))) (hf : RowsBelow d L k.val f)
    (Lp : List (View.Piece (Elt F) S6656 .i32))
    (hL : ∀ p ∈ Lp, ∀ x : p.1.shape.Idx, ((p.2 x) : BitVec 32).toNat < 26000)
    (hcov : ∀ y : S6656.Idx, 208 * k.val ≤ (y 0).val → (y 0).val < 208 * (k.val + 1) → ∃ p ∈ Lp, y ∈ p.1.set) :
    RowsBelow d L (k.val + 1) ((sP).view.writes (Elt F) f Lp) := by
  intro y hy
  refine Cert.LibWritesPred.read_writes_pred (sP).view f (fun w : Elt F .i32 => (w : BitVec 32).toNat < 26000) Lp hL y ?_
  by_cases h : (y 0).val < 208 * k.val
  · exact .inl (hf y h)
  · exact .inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0) : sProp 𝕄) := if_pos h
theorem idle_pos (n : Nat) (h : n ≠ 0) : idle (F := F) d L n = (iprop(emp) : sProp 𝕄) := if_neg h
theorem cell_self (t : Fin k1_t2_loop.trips) : cell (F := F) d L t.val t = chunkRow d L t := if_neg (by omega)
theorem cell_next (t : Fin k1_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k1_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k1_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fP : Buf (Elt F) ((sP).view.loc (thr d L))) (h : RowsBelow d L 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h (r.emb x) ((r.emb x) 0).isLt

set_option maxHeartbeats 8000000 in
theorem tile_run (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc1_scoped0.sem) 0
        ∗ semVal (thr d L, SemLoc.dma cc1_scratch6.sem) 0 ∗ semVal (thr d L, SemLoc.dma cc1_scratch7.sem) 0
        ∗ semVal (thr d L, SemLoc.dma cc1_scratch8.sem) 0 ∗ semVal (thr d L, SemLoc.dma cc1_scratch9.sem) 0
        ∗ semVal (thr d L, SemLoc.dma cc1_scratch10.sem) 0 ∗ semVal (thr d L, SemLoc.dma cc1_scratch11.sem) 0
        ∗ semVal (thr d L, SemLoc.dma cc1_scratch12.sem) 0 ∗ semVal (thr d L, SemLoc.dma cc1_scratch13.sem) 0
        ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') := by
  rw [cc1_gather_kernel_eq_skeleton]; unfold cc1_gather_kernel_skel k1_t1_body k1_t2_body
  rw [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L k f hf _ ?hL ?hcov
        case hL =>
          refine List.forall_mem_cons.mpr ⟨pay13_lt (F := F) _ (fun _ => hg _), ?_⟩
          refine List.forall_mem_cons.mpr ⟨pay12_lt (F := F) _ (fun _ => hg _), ?_⟩
          refine List.forall_mem_cons.mpr ⟨pay11_lt (F := F) _ (fun _ => hg _), ?_⟩
          refine List.forall_mem_cons.mpr ⟨pay10_lt (F := F) _ (fun _ => hg _), ?_⟩
          refine List.forall_mem_cons.mpr ⟨pay9_lt (F := F) _ (fun _ => hg _), ?_⟩
          refine List.forall_mem_cons.mpr ⟨pay8_lt (F := F) _ (fun _ => hg _), ?_⟩
          refine List.forall_mem_cons.mpr ⟨pay7_lt (F := F) _ (fun _ => hg _), ?_⟩
          refine List.forall_mem_cons.mpr ⟨pay6_lt (F := F) _ (fun _ => hg _), ?_⟩
          refine List.forall_mem_cons.mpr ⟨pay5_lt (F := F) _ (fun _ => hg _), ?_⟩
          refine List.forall_mem_cons.mpr ⟨pay4_lt (F := F) _ (fun _ => hg _), ?_⟩
          refine List.forall_mem_cons.mpr ⟨pay3_lt (F := F) _ (fun _ => hg _), ?_⟩
          refine List.forall_mem_cons.mpr ⟨pay2_lt (F := F) _ (fun _ => hg _), ?_⟩
          refine List.forall_mem_cons.mpr ⟨pay1_lt (F := F) _ (fun _ => hg _), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fp
      · iexact Hp
    iexists (insert (SemLoc.dma cc1_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L 32 fP := by
    have := hfP
    rwa [show Scf.trips k1_t1_loop.lb k1_t1_loop.ub k1_t1_loop.st = 32 from trips1_eq] at this
  sl_for (inv2 d L O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fQ hfQ
    obtain ⟨hc1, hc2, hc3, hc4⟩ := conds_iff k
    by_cases hk : k.val = 0
    · have h1 : ¬ k1_cond1 k = 1#1 := fun h => (hc1.mp h) hk
      have h2 : ¬ k1_cond2 k = 1#1 := fun h => (hc2.mp h) hk
      have h3 : ¬ k1_cond3 k = 1#1 := fun h => (hc3.mp h) hk
      have h4 : ¬ k1_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k1_cond1 k = 1#1 := hc1.mpr hk
      have h2 : k1_cond2 k = 1#1 := hc2.mpr hk
      have h3 : k1_cond3 k = 1#1 := hc3.mpr hk
      have h4 : k1_cond4 k = 1#1 := hc4.mpr hk
      have hk' : k.val - 1 < k1_t2_loop.trips := Nat.lt_of_le_of_lt (Nat.sub_le _ _) k.isLt
      have hkk : (⟨k.val - 1, hk'⟩ : Fin k1_t2_loop.trips).val + 1 = k.val := by show k.val - 1 + 1 = k.val; omega
      have hne : (⟨k.val - 1, hk'⟩ : Fin k1_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k1_t2_loop.trips := by rw [trips2_eq]; decide
  have hll : (⟨12, hl⟩ : Fin k1_t2_loop.trips).val + 1 = Scf.trips k1_t2_loop.lb k1_t2_loop.ub k1_t2_loop.st := trips2_eq.symm
  ihave Hc := (Entails.of_eq (SparseCore.bigSep_erase' (Finset.mem_univ (⟨12, hl⟩ : Fin k1_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k1_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k1_t2_loop.trips)) fun t ht => cell_other d L (Scf.trips k1_t2_loop.lb k1_t2_loop.ub k1_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists _; iexact Hp
  isplitl [Hw0_src]
  · iexists q0; iapply (Entails.of_eq (pts_whole d L cc1_scratch2 rfl fullShare q0)); iexact Hw0_src
  isplitl [Hw1_src]
  · iexists q1; iapply (Entails.of_eq (pts_whole d L cc1_scratch3 rfl fullShare q1)); iexact Hw1_src
  isplitl [Hw2_src]
  · iexists q2; iapply (Entails.of_eq (pts_whole d L cc1_scratch4 rfl fullShare q2)); iexact Hw2_src
  isplitl [Hw3_src]
  · iexists q3; iapply (Entails.of_eq (pts_whole d L cc1_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScI1

end
-- ==== Proof.ScOwnI1.lean ====
/-
  What a vector subcore owns during the second gather, opened. A task starts with every buffer and every semaphore that
  is the subcore's own: the buffers each whole at some contents, the semaphores each at zero. The gather names fifteen of
  them — six scratch buffers and nine transfer semaphores — and never touches the others. This module states the
  subcore's holdings as those fifteen, in the gather's order, beside the rest, as an equality: the task takes the
  fifteen and gives the same fifteen back.
-/
import proofs.«202673_g7318624272670_cont_9to1c4b_526_24_alg».proof.Proof.ScBaseI
import Idealize.ShloMosaic.Lib.SparseCore.Launch

noncomputable section

namespace Cert.Proof.ScI1

open Cert.KernelIdeal Cert.KernelIdeal.Gen Cert.Proof.ScI
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The gather's six scratch buffers. -/
abbrev T6 : Finset (Ref sig .scVector) := {cc1_scratch0, cc1_scratch1, cc1_scratch2, cc1_scratch3, cc1_scratch4, cc1_scratch5}
/-- The gather's nine transfer semaphores, in the order the task takes them. -/
abbrev T9 : Finset (SemLoc sig) :=
  {SemLoc.dma cc1_scoped0.sem, SemLoc.dma cc1_scratch6.sem, SemLoc.dma cc1_scratch7.sem, SemLoc.dma cc1_scratch8.sem,
    SemLoc.dma cc1_scratch9.sem, SemLoc.dma cc1_scratch10.sem, SemLoc.dma cc1_scratch11.sem, SemLoc.dma cc1_scratch12.sem,
    SemLoc.dma cc1_scratch13.sem}

/-- The six buffers as buffers of subcore (c, i). -/
abbrev bufs6 (c : Fin τ.nSC) (i : Fin τ.nSub) : Finset (DevRef τ sig) := T6.image (Proc.scVector c i).devRef
/-- The nine semaphores as cells of thread (d, c, i). -/
abbrev cells9 (d : Dev nD) (c : Fin τ.nSC) (i : Fin τ.nSub) : Finset (GSem nD τ sig) := T9.image fun sm => ((V d c i, sm) : GSem nD τ sig)

/-- The subcore's other buffers, each whole at some contents. -/
def restBufs (d : Dev nD) (c : Fin τ.nSC) (i : Fin τ.nSub) : sProp 𝕄 :=
  bigSep (ownRefs (τ := τ) (.scVector c i) \ bufs6 c i) fun b => iprop(∃ f, ((d, b) : Loc nD τ sig) ↦{fullShare} f)
/-- The thread's other semaphores, each at zero. -/
def restSems (d : Dev nD) (c : Fin τ.nSC) (i : Fin τ.nSub) : sProp 𝕄 :=
  bigSep (ownCells (V d c i) \ cells9 d c i) fun g => semVal g 0

theorem bufs6_sub (c : Fin τ.nSC) (i : Fin τ.nSub) : bufs6 c i ⊆ ownRefs (τ := τ) (.scVector c i) := by
  refine Finset.image_subset_iff.mpr fun b hb => ?_
  simp only [T6, Finset.mem_insert, Finset.mem_singleton] at hb
  rcases hb with rfl | rfl | rfl | rfl | rfl | rfl <;>
    exact SparseCore.Cfg.mem_ownRefs_of_owner (p := Proc.scVector c i) rfl

/-- Each of the nine is a semaphore scoped to a vector subcore. -/
theorem T9_scoped : ∀ sm ∈ T9, (sm : SemLoc sig).isScoped .scVector = true := by decide

theorem cells9_sub (d : Dev nD) (c : Fin τ.nSC) (i : Fin τ.nSub) : cells9 d c i ⊆ ownCells (V d c i) :=
  Finset.image_subset_iff.mpr fun sm hsm => (mem_ownCells (g := ((V d c i, sm) : GSem nD τ sig))).mpr ⟨rfl, T9_scoped sm hsm⟩

/-- Re-association, as an equality. -/
theorem sep_assoc_eq {M : Type} [URA M] (P Q R : sProp M) : iprop((P ∗ Q) ∗ R) = iprop(P ∗ Q ∗ R) :=
  Idealize.SL.BI.equiv_iff.mp ⟨Idealize.SL.BI.sep_assoc, Idealize.SL.BI.sep_assoc'⟩
/-- Six propositions beside a seventh, re-associated. -/
theorem assoc6 {M : Type} [URA M] (a b c e f g r : sProp M) : iprop((a ∗ b ∗ c ∗ e ∗ f ∗ g) ∗ r) = iprop(a ∗ b ∗ c ∗ e ∗ f ∗ g ∗ r) := by
  rw [sep_assoc_eq, sep_assoc_eq, sep_assoc_eq, sep_assoc_eq, sep_assoc_eq]
/-- Nine propositions beside a tenth, re-associated. -/
theorem assoc9 {M : Type} [URA M] (a b c e f g h j k r : sProp M) :
    iprop((a ∗ b ∗ c ∗ e ∗ f ∗ g ∗ h ∗ j ∗ k) ∗ r) = iprop(a ∗ b ∗ c ∗ e ∗ f ∗ g ∗ h ∗ j ∗ k ∗ r) := by
  rw [sep_assoc_eq, sep_assoc_eq, sep_assoc_eq, sep_assoc_eq, sep_assoc_eq, sep_assoc_eq, sep_assoc_eq, sep_assoc_eq]

/-- The six buffers are six different ones, and the nine semaphores nine. -/
theorem T6_0 : cc1_scratch0 ∉ ({cc1_scratch1, cc1_scratch2, cc1_scratch3, cc1_scratch4, cc1_scratch5} : Finset (Ref sig .scVector)) := by decide
theorem T6_1 : cc1_scratch1 ∉ ({cc1_scratch2, cc1_scratch3, cc1_scratch4, cc1_scratch5} : Finset (Ref sig .scVector)) := by decide
theorem T6_2 : cc1_scratch2 ∉ ({cc1_scratch3, cc1_scratch4, cc1_scratch5} : Finset (Ref sig .scVector)) := by decide
theorem T6_3 : cc1_scratch3 ∉ ({cc1_scratch4, cc1_scratch5} : Finset (Ref sig .scVector)) := by decide
theorem T6_4 : cc1_scratch4 ∉ ({cc1_scratch5} : Finset (Ref sig .scVector)) := by decide
theorem T9_0 : SemLoc.dma cc1_scoped0.sem ∉
    ({SemLoc.dma cc1_scratch6.sem, SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_1 : SemLoc.dma cc1_scratch6.sem ∉
    ({SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_2 : SemLoc.dma cc1_scratch7.sem ∉
    ({SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_3 : SemLoc.dma cc1_scratch8.sem ∉
    ({SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_4 : SemLoc.dma cc1_scratch9.sem ∉
    ({SemLoc.dma cc1_scratch10.sem, SemLoc.dma cc1_scratch11.sem, SemLoc.dma cc1_scratch12.sem, SemLoc.dma cc1_scratch13.sem} : Finset (SemLoc sig)) := by decide
theorem T9_5 : SemLoc.dma cc1_scratch10.sem ∉
    ({SemLoc.dma cc1_scratch11.sem, SemLoc.dma cc1_scratch12.sem, SemLoc.dma cc1_scratch13.sem} : Finset (SemLoc sig)) := by decide
theorem T9_6 : SemLoc.dma cc1_scratch11.sem ∉
    ({SemLoc.dma cc1_scratch12.sem, SemLoc.dma cc1_scratch13.sem} : Finset (SemLoc sig)) := by decide
theorem T9_7 : SemLoc.dma cc1_scratch12.sem ∉
    ({SemLoc.dma cc1_scratch13.sem} : Finset (SemLoc sig)) := by decide

/-- The subcore's buffers: the six, then the rest. -/
theorem bufs_split (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f) ∗ (∃ f, (V d c i).loc cc1_scratch5 ↦{fullShare} f)
          ∗ restBufs d c i) := by
  unfold SparseCore.Cfg.ownBufs restBufs
  rw [SparseCore.bigSep_sdiff_split' (bufs6_sub c i),
    SparseCore.bigSep_image_of_injOn ((Proc.devRef_injective (Proc.scVector c i)).injOn),
    SparseCore.bigSep_insert' T6_0, SparseCore.bigSep_insert' T6_1, SparseCore.bigSep_insert' T6_2,
    SparseCore.bigSep_insert' T6_3, SparseCore.bigSep_insert' T6_4, bigSep_singleton]
  exact assoc6 _ _ _ _ _ _ _

/-- The thread's semaphores: the nine, then the rest. -/
theorem sems_split (d : Dev nD) (c : Fin τ.nSC) (i : Fin τ.nSub) :
    (ownSems0 (V d c i) : sProp 𝕄)
      = iprop(semVal (V d c i, SemLoc.dma cc1_scoped0.sem) 0 ∗ semVal (V d c i, SemLoc.dma cc1_scratch6.sem) 0
          ∗ semVal (V d c i, SemLoc.dma cc1_scratch7.sem) 0 ∗ semVal (V d c i, SemLoc.dma cc1_scratch8.sem) 0
          ∗ semVal (V d c i, SemLoc.dma cc1_scratch9.sem) 0 ∗ semVal (V d c i, SemLoc.dma cc1_scratch10.sem) 0
          ∗ semVal (V d c i, SemLoc.dma cc1_scratch11.sem) 0 ∗ semVal (V d c i, SemLoc.dma cc1_scratch12.sem) 0
          ∗ semVal (V d c i, SemLoc.dma cc1_scratch13.sem) 0 ∗ restSems d c i) := by
  unfold SparseCore.Cfg.ownSems0 restSems
  rw [SparseCore.bigSep_sdiff_split' (cells9_sub d c i),
    SparseCore.bigSep_image_of_injOn (fun a _ b _ e => (Prod.mk.inj e).2),
    SparseCore.bigSep_insert' T9_0, SparseCore.bigSep_insert' T9_1, SparseCore.bigSep_insert' T9_2,
    SparseCore.bigSep_insert' T9_3, SparseCore.bigSep_insert' T9_4, SparseCore.bigSep_insert' T9_5,
    SparseCore.bigSep_insert' T9_6, SparseCore.bigSep_insert' T9_7, bigSep_singleton]
  exact assoc9 _ _ _ _ _ _ _ _ _ _

/-- WHAT A TASK STARTS WITH AND ENDS WITH: the subcore's scoped buffers and semaphores are the gather's six buffers,
    each whole at some contents, and the rest, beside its nine semaphores at zero and the rest. -/
theorem own_split (hF : (K (F := F)).Facts) (d : Dev nD) (c : Fin τ.nSC) (i : Fin τ.nSub) :
    (iprop(scopedBufs (V d c i) ∗ scopedSems0 (V d c i)) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f)
            ∗ (∃ f, (V d c i).loc cc1_scratch4 ↦{fullShare} f) ∗ (∃ f, (V d c i).loc cc1_scratch5 ↦{fullShare} f)
            ∗ restBufs d c i)
          ∗ (semVal (V d c i, SemLoc.dma cc1_scoped0.sem) 0 ∗ semVal (V d c i, SemLoc.dma cc1_scratch6.sem) 0
            ∗ semVal (V d c i, SemLoc.dma cc1_scratch7.sem) 0 ∗ semVal (V d c i, SemLoc.dma cc1_scratch8.sem) 0
            ∗ semVal (V d c i, SemLoc.dma cc1_scratch9.sem) 0 ∗ semVal (V d c i, SemLoc.dma cc1_scratch10.sem) 0
            ∗ semVal (V d c i, SemLoc.dma cc1_scratch11.sem) 0 ∗ semVal (V d c i, SemLoc.dma cc1_scratch12.sem) 0
            ∗ semVal (V d c i, SemLoc.dma cc1_scratch13.sem) 0 ∗ restSems d c i)) := by
  rw [(K (F := F)).scopedBufs_V hF d c i, SparseCore.Cfg.scopedSems0_V d c i, bufs_split, sems_split]

end Cert.Proof.ScI1

end
-- ==== Proof.ScOblI1.lean ====
import proofs.«202673_g7318624272670_cont_9to1c4b_526_24_alg».proof.Proof.ScTileI1
import proofs.«202673_g7318624272670_cont_9to1c4b_526_24_alg».proof.Proof.ScOwnI1
import proofs.«202673_g7318624272670_cont_9to1c4b_526_24_alg».proof.Proof.ScPayI

/-! The second gather call's task as the launch theorem asks for it: a vector subcore's scoped storage opened into the
    task's two index scratches, four row buffers and nine DMA semaphores, the task run, and the storage closed again. -/

noncomputable section

namespace Cert.Proof.ScI1

open Cert.KernelIdeal Cert.KernelIdeal.Gen Cert.Proof.ScI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

set_option maxHeartbeats 4000000 in
/-- The task with the subcore's scoped storage as the launch hands it over. -/
theorem tile_body (hF : (K (F := F)).Facts) (d : Dev nD) (L : grid1.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileRes d L qT ft fi ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 1 ()
      = SparseCore.onTile hcore1 hsub1 (fun c s => cc1_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc1_scratch6 cc1_scratch7 cc1_scratch8 cc1_scratch9 cc1_scratch10 cc1_scratch11 cc1_scratch12 cc1_scratch13 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv1 : ∀ d i, ((Iv1 d i) : BitVec 32).toNat ≤ 999) :
    (K (F := F)).TileObl (D (F := F)) 𝒱 (P Tb Iv0 Iv1) v₀ 1 := by
  intro d c i O W hO _ _
  simp only [show (P Tb Iv0 Iv1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv1 d) (hIv1 d) O W hO).trans (wp_mono frame _ _ fun _ => obl_post)

end Cert.Proof.ScI1

end
-- ==== Proof.IdxRange.lean ====
/-
  The flattened halves of the categories stay in range. The kernel's first step reads, for each half of the batch, the
  8192 × 26 categories of the half as one flat array of 212992 words: rows o … o + 8191 of the category array sliced
  out (o = 0 or 8192) and reshaped in row-major order. A slice and a reshape only move elements, so every word of the
  flat array is a word of the category array, and under the precondition it is below 1000 — read unsigned, which for
  such a word is also its signed value. Stated for any float instance: the words are the same at each.
-/
import proofs.«202673_g7318624272670_cont_9to1c4b_526_24_alg».proof.Proof.PreRange
import Idealize.ShloMosaic.PureOps.ShapeOps

namespace Cert.IdxRange

open Idealize.ShloMosaic Cert.Pre_input_domain

abbrev S8192x26 : Shape := ⟨2, ![8192, 26]⟩
abbrev S212992 : Shape := ⟨1, ![212992]⟩

variable [Cert.Pre_input_domain.Facts] {F : FTy → Type} [FloatOps F]

/-- Rows o … o + 8191 of the categories, flattened: every word is below 1000 and equal to its signed reading. The
    function is the reshape (a shape cast to [212992]) of the slice (offsets [o, 0], sizes [8192, 26]) of the category
    array, for any proofs of the two shape conditions. -/
theorem idx_range (a0 : IVec S16384x26 32) (a1 : FVec F S16384x13 .f32) (a2 : FVec F S26x1000x128 .f32) (a3 a4 : FVec F S13 .f32)
    (h : Cert.Pre_input_domain.fn (F := F) a0 a1 a2 a3 a4 = fun _ => 1#1)
    (o : Nat) (hs : S16384x26.Slices ![o, 0] S8192x26) (hc : S8192x26.ShapeCasts S212992) (p : S212992.Idx) :
    (shapeCast S212992 (extractStridedSlice S8192x26 ![o, 0] a0 hs) hc p).toNat ≤ 999
      ∧ (shapeCast S212992 (extractStridedSlice S8192x26 ![o, 0] a0 hs) hc p).toInt
          = (shapeCast S212992 (extractStridedSlice S8192x26 ![o, 0] a0 hs) hc p).toNat := by
  unfold shapeCast extractStridedSlice
  exact Cert.PreRange.xcat_toNat (F := F) a0 a1 a2 a3 a4 h _

/-- The first half (offsets [0, 0]). -/
theorem idx0_range (a0 : IVec S16384x26 32) (a1 : FVec F S16384x13 .f32) (a2 : FVec F S26x1000x128 .f32) (a3 a4 : FVec F S13 .f32)
    (h : Cert.Pre_input_domain.fn (F := F) a0 a1 a2 a3 a4 = fun _ => 1#1)
    (hs : S16384x26.Slices ![0, 0] S8192x26) (hc : S8192x26.ShapeCasts S212992) :
    ∀ p : S212992.Idx, (shapeCast S212992 (extractStridedSlice S8192x26 ![0, 0] a0 hs) hc p).toNat ≤ 999 :=
  fun p => (idx_range a0 a1 a2 a3 a4 h 0 hs hc p).1

/-- The second half (offsets [8192, 0]). -/
theorem idx1_range (a0 : IVec S16384x26 32) (a1 : FVec F S16384x13 .f32) (a2 : FVec F S26x1000x128 .f32) (a3 a4 : FVec F S13 .f32)
    (h : Cert.Pre_input_domain.fn (F := F) a0 a1 a2 a3 a4 = fun _ => 1#1)
    (hs : S16384x26.Slices ![8192, 0] S8192x26) (hc : S8192x26.ShapeCasts S212992) :
    ∀ p : S212992.Idx, (shapeCast S212992 (extractStridedSlice S8192x26 ![8192, 0] a0 hs) hc p).toNat ≤ 999 :=
  fun p => (idx_range a0 a1 a2 a3 a4 h 8192 hs hc p).1

/-- With it the row number category + 1000·fld (fld < 26) of the flattened table does not wrap as a 32-bit word: it is
    fld·1000 + category, below 26000, for either order of the product's factors. -/
theorem row_toNat (x : BitVec 32) (hx : x.toNat ≤ 999) (fld : Nat) (hf : fld < 26) :
    (x + BitVec.ofNat 32 fld * 1000#32).toNat = fld * 1000 + x.toNat
      ∧ (x + 1000#32 * BitVec.ofNat 32 fld).toNat = fld * 1000 + x.toNat
      ∧ fld * 1000 + x.toNat < 26000 := by
  have e : (1000#32 : BitVec 32).toNat = 1000 := by decide
  refine ⟨?_, ?_, by omega⟩
  · rw [BitVec.toNat_add, BitVec.toNat_mul, BitVec.toNat_ofNat, e]
    omega
  · rw [BitVec.mul_comm, BitVec.toNat_add, BitVec.toNat_mul, BitVec.toNat_ofNat, e]
    omega

end Cert.IdxRange
-- ==== Proof.ScRangeI.lean ====
import proofs.«202673_g7318624272670_cont_9to1c4b_526_24_alg».proof.Proof.ScMainI
import proofs.«202673_g7318624272670_cont_9to1c4b_526_24_alg».proof.Proof.IdxRange

/-! The two calls' index lists hold categories: each is a reshape of a slice of the category array, whose words the
    precondition bounds by 999. -/

noncomputable section

namespace Cert.Proof.ScI

open Cert.KernelIdeal
open Cert.KernelIdeal.Shapes2.Facts₀ Cert.KernelIdeal.Shapes1.Facts₀
open Idealize.ShloMosaic
open Idealize.ShloMosaic.SparseCore (S V T)

variable {F : FTy → Type} [FloatOps F] [Cert.Pre_input_domain.Facts]

variable (m : (ℓ : Loc nD τ sig) → Buf (Elt F) ℓ)

/-- The precondition as the claims state it of a memory. -/
abbrev PreM : Prop := ∀ c : Dev nD,
  Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1

theorem Iv0_range (hpre : PreM m) (d : Dev nD) (i) : ((Iv0 m d i) : BitVec 32).toNat ≤ 999 := by
  unfold Iv0
  show (((op5 (F := F)).result _ (Proc.devRef .tc main_v5) i) : BitVec 32).toNat ≤ 999
  rw [StableHlo.reshape_result, StableHlo.unary_result,
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  exact Cert.IdxRange.idx0_range (F := F) _ _ _ _ _ (hpre d) _ _ i

theorem Iv1_range (hpre : PreM m) (d : Dev nD) (i) : ((Iv1 m d i) : BitVec 32).toNat ≤ 999 := by
  unfold Iv1
  show (((op7 (F := F)).result _ (Proc.devRef .tc main_v8) i) : BitVec 32).toNat ≤ 999
  rw [StableHlo.reshape_result, StableHlo.unary_result]
  unfold W6
  rw [(op5 (F := F)).result_of_not_mem _ (show r main_arg0 ∉ ({r main_v5} : Finset (DevRef τ sig)) from by decide),
    (op4 (F := F)).result_of_not_mem _ (show r main_arg0 ∉ ({r main_v4} : Finset (DevRef τ sig)) from by decide),
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  exact Cert.IdxRange.idx1_range (F := F) _ _ _ _ _ (hpre d) _ _ i

end Cert.Proof.ScI

end
-- ==== Proof.ScFrameI.lean ====
/-
  The frame claim of the idealized kernel: the program's run at the ideal instance, from the two tasks' body obligations (at
  the index lists' ranges the precondition gives), the two calls' operand splits and @main's proof — every weakly fair
  execution from a memory with zero counters terminates without a fault and leaves the five argument arrays unchanged.
-/
import proofs.«202673_g7318624272670_cont_9to1c4b_526_24_alg».proof.Proof.ScLaunchI
import proofs.«202673_g7318624272670_cont_9to1c4b_526_24_alg».proof.Proof.ScCall0I
import proofs.«202673_g7318624272670_cont_9to1c4b_526_24_alg».proof.Proof.ScCall1I
import proofs.«202673_g7318624272670_cont_9to1c4b_526_24_alg».proof.Proof.ScOblI0
import proofs.«202673_g7318624272670_cont_9to1c4b_526_24_alg».proof.Proof.ScOblI1
import proofs.«202673_g7318624272670_cont_9to1c4b_526_24_alg».proof.Proof.ScRangeI

noncomputable section

namespace Cert.Proof.ScI

open Cert.KernelIdeal

open Idealize.ShloMosaic
open Idealize.ShloMosaic.SparseCore.Cfg (HIx Pay)
open Idealize.SL Idealize.SL.RA Idealize.SL.BI
open scoped Idealize.SL.BI

variable {F : FTy → Type} [FloatOps F] [Cert.Pre_input_domain.Facts]

/-- The program's run at any float instance, under the precondition. -/
theorem run_kernel [∀ e, Nonempty (Elt F e)] (m : (ℓ : Loc nD τ sig) → Buf (Elt F) ℓ) (ρ : Dev nD → PrngReg) (hpre : PreM m) :
    θ_run (Cert.KernelIdeal.defs (F := F)) (Cert.KernelIdeal.threads (F := F)) ⟨m, fun _ => 0, ρ⟩ (QC m) :=
  run_main' m ρ
    (fun q => match q with
      | 0 => Cert.Proof.ScI0.tileObl (Tb m) (Iv0 m) (Iv1 m) facts (Iv0_range m hpre)
      | 1 => Cert.Proof.ScI1.tileObl (Tb m) (Iv0 m) (Iv1 m) facts (Iv1_range m hpre))
    (fun d => hcall0 m d) (fun d g => hcall1 m d g)

/-- `Cert.frame_KernelIdeal` (Defs.lean). -/
theorem frame_KI : Cert.frame_KernelIdeal := fun m ρ hpre =>
  (θ_run Cert.KernelIdeal.defs _ _).mono (fun _ h => h) (run_kernel (F := Ideal) m ρ hpre)

end Cert.Proof.ScI

end
-- ==== Proof.ScSpecI.lean ====
import proofs.«202673_g7318624272670_cont_9to1c4b_526_24_alg».proof.Proof.ScBaseI
import proofs.«202673_g7318624272670_cont_9to1c4b_526_24_alg».proof.Proof.KernelHost

/-! What a gather call leaves in its result array, as one function of the table and of the call's index list: row q of
    the result is the table row named by the word that the permutation puts at place q — the word at place
    208 (q / 208) + 26 (q mod 8) + (q mod 208) / 8 of the list plus 1000 times the field number (q mod 208) / 8. -/

noncomputable section

namespace Cert.Proof.ScI

open Cert.KernelIdeal Idealize.ShloMosaic Idealize.ShloMosaic.ValueIdx

variable {F : FTy → Type}

/-- The word the permutation puts at place `q` of a call's list of 212992 words. -/
def permG (Iv : S212992.Idx → BitVec 32) (q : Fin 212992) : BitVec 32 :=
  Iv (ix1 (Cert.KSpec.idxPos q)) + BitVec.ofNat 32 (Cert.KSpec.rowField q).val * 1000#32

/-- The gathered array: row `q`, lane `l` is the table's row `permG Iv q` (read modulo the table's 26000 rows, which is
    the row itself where the words are categories), lane `l`. -/
def embSpec (Tb : S26000x128.Idx → Elt F .f32) (Iv : S212992.Idx → BitVec 32) : S212992x128.Idx → Elt F .f32 :=
  fun y => Tb (ix2 (⟨(permG Iv ⟨(y 0).val, (y 0).isLt⟩).toNat % 26000, Nat.mod_lt _ (by decide)⟩ : Fin 26000) (⟨(y 1).val, (y 1).isLt⟩ : Fin 128))

/-- Two contents of one array agree on a set of places. -/
def AgreeOn {ι : Type} {α : Type} (S : Finset ι) (f g : ι → α) : Prop := ∀ y ∈ S, f y = g y

end Cert.Proof.ScI

end
-- ==== Proof.ScPayV.lean ====
/-
  What the two SparseCore calls' handshakes carry when values are tracked: a task is handed what the frame version hands it,
  and hands back its rows of the gathered array at contents that agree with the gather's specification (`embSpec`) on each
  block; a SparseCore's operands are its sixteen tasks' together, both ways.
-/
import proofs.«202673_g7318624272670_cont_9to1c4b_526_24_alg».proof.Proof.ScPayI
import proofs.«202673_g7318624272670_cont_9to1c4b_526_24_alg».proof.Proof.ScSpecI

noncomputable section

namespace Cert.Proof.ScI0

open Cert.KernelIdeal Cert.KernelIdeal.Gen Cert.Proof.ScI
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ
local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)

section TileV
variable (d : Dev nD) (L : grid0.Coords)
  (ft : Buf (Elt F) ((tblW).view.loc (thr d L))) (fi : Buf (Elt F) ((idxW).view.loc (thr d L)))

/-- Trip `t`'s four blocks of the task's rows of the gathered array as the task hands them back: each at some contents that
    agree, on the block, with the gather's specification `embSpec ft fi`. -/
def doneRow (t : Fin k0_t2_loop.trips) : sProp 𝕄 :=
  iprop((∃ f, ((chunk0 L t).view.loc (thr d L) ↦[(chunk0 L t).view.set]{fullShare} f) ∗ ⌜AgreeOn (chunk0 L t).view.set f (embSpec ft fi)⌝)
    ∗ (∃ f, ((chunk1 L t).view.loc (thr d L) ↦[(chunk1 L t).view.set]{fullShare} f) ∗ ⌜AgreeOn (chunk1 L t).view.set f (embSpec ft fi)⌝)
    ∗ (∃ f, ((chunk2 L t).view.loc (thr d L) ↦[(chunk2 L t).view.set]{fullShare} f) ∗ ⌜AgreeOn (chunk2 L t).view.set f (embSpec ft fi)⌝)
    ∗ (∃ f, ((chunk3 L t).view.loc (thr d L) ↦[(chunk3 L t).view.set]{fullShare} f) ∗ ⌜AgreeOn (chunk3 L t).view.set f (embSpec ft fi)⌝))

/-- What a task hands back, with values: its read tokens and its words of the index list as it was handed them, its rows of
    the gathered array at the specification. -/
def tileResV (qT : PosShare TreeShare) : sProp 𝕄 :=
  iprop(((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ ((idxSl L).view.loc (thr d L) ↦[(idxSl L).view.set]{fullShare} fi)
    ∗ bigSep Finset.univ (doneRow d L ft fi))

end TileV

end Cert.Proof.ScI0

namespace Cert.Proof.ScI1

open Cert.KernelIdeal Cert.KernelIdeal.Gen Cert.Proof.ScI
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ
local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)

section TileV
variable (d : Dev nD) (L : grid1.Coords)
  (ft : Buf (Elt F) ((tblW).view.loc (thr d L))) (fi : Buf (Elt F) ((idxW).view.loc (thr d L)))

/-- Trip `t`'s four blocks of the task's rows of the gathered array as the task hands them back: each at some contents that
    agree, on the block, with the gather's specification `embSpec ft fi`. -/
def doneRow (t : Fin k1_t2_loop.trips) : sProp 𝕄 :=
  iprop((∃ f, ((chunk0 L t).view.loc (thr d L) ↦[(chunk0 L t).view.set]{fullShare} f) ∗ ⌜AgreeOn (chunk0 L t).view.set f (embSpec ft fi)⌝)
    ∗ (∃ f, ((chunk1 L t).view.loc (thr d L) ↦[(chunk1 L t).view.set]{fullShare} f) ∗ ⌜AgreeOn (chunk1 L t).view.set f (embSpec ft fi)⌝)
    ∗ (∃ f, ((chunk2 L t).view.loc (thr d L) ↦[(chunk2 L t).view.set]{fullShare} f) ∗ ⌜AgreeOn (chunk2 L t).view.set f (embSpec ft fi)⌝)
    ∗ (∃ f, ((chunk3 L t).view.loc (thr d L) ↦[(chunk3 L t).view.set]{fullShare} f) ∗ ⌜AgreeOn (chunk3 L t).view.set f (embSpec ft fi)⌝))

/-- What a task hands back, with values: its read tokens and its words of the index list as it was handed them, its rows of
    the gathered array at the specification. -/
def tileResV (qT : PosShare TreeShare) : sProp 𝕄 :=
  iprop(((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ ((idxSl L).view.loc (thr d L) ↦[(idxSl L).view.set]{fullShare} fi)
    ∗ bigSep Finset.univ (doneRow d L ft fi))

end TileV

end Cert.Proof.ScI1

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

/-- What a task of either call hands back, with values. -/
def tdRes (q : Fin 2) (d : Dev nD) (c : Fin ((K (F := F)).nCore q)) (i : Fin ((K (F := F)).nSub q)) : sProp 𝕄 :=
  match q with
  | 0 => ScI0.tileResV d (ScI0.coordsV (Fin.cast nCore0 c) (Fin.cast nSub0 i)) (Tb d) (Iv0 d) (qT c.val i.val)
  | 1 => ScI1.tileResV d (ScI1.coordsV (Fin.cast nCore1 c) (Fin.cast nSub1 i)) (Tb d) (Iv1 d) (qT c.val i.val)

/-- The handshakes' payloads with values: handed as in the frame version, handed back at the specification. -/
def PV : (K (F := F)).Pay (nD := nD) (Val := Elt F) (Name := ℕ) (U := UU) where
  st := fun q d c => bigSep Finset.univ fun i => goRes Tb Iv0 Iv1 q d c i
  dn := fun q d c => bigSep Finset.univ fun i => tdRes Tb Iv0 Iv1 q d c i
  go := fun q d c i => goRes Tb Iv0 Iv1 q d c i
  td := fun q d c i => tdRes Tb Iv0 Iv1 q d c i
  x := fun _ _ => iprop(emp)

set_option synthInstance.maxHeartbeats 1000000 in
set_option maxHeartbeats 1000000 in
instance tdRes_storable (q : Fin 2) (d : Dev nD) (c) (i) : BI.Storable (upEmb : UEmb _ 𝕄) (tdRes Tb Iv0 Iv1 q d c i) := by
  match q, c, i with
  | 0, c, i =>
    show BI.Storable _ (ScI0.tileResV d (ScI0.coordsV (Fin.cast nCore0 c) (Fin.cast nSub0 i)) (Tb d) (Iv0 d) (qT c.val i.val))
    unfold ScI0.tileResV ScI0.doneRow; infer_instance
  | 1, c, i =>
    show BI.Storable _ (ScI1.tileResV d (ScI1.coordsV (Fin.cast nCore1 c) (Fin.cast nSub1 i)) (Tb d) (Iv1 d) (qT c.val i.val))
    unfold ScI1.tileResV ScI1.doneRow; infer_instance

instance PV_storable : (PV (F := F) Tb Iv0 Iv1).IsStorable where
  st _ d c := by unfold PV; infer_instance
  dn _ d c := by unfold PV; infer_instance
  go _ _ _ _ := by unfold PV; infer_instance
  td _ _ _ _ := by unfold PV; infer_instance

/-- A SparseCore's operands ARE its tasks' operands, both ways: nothing to split. -/
theorem vecSplitV (q : Fin 2) : (K (F := F)).VecSplit' (PV Tb Iv0 Iv1) q := by
  intro d c
  show (bigSep Finset.univ fun i => goRes Tb Iv0 Iv1 q d c i) ⊢ |={Set.univ}=> iprop(
      (bigSep Finset.univ fun i => goRes Tb Iv0 Iv1 q d c i)
      ∗ ((bigSep Finset.univ fun i => tdRes Tb Iv0 Iv1 q d c i) -∗ (bigSep Finset.univ fun i => tdRes Tb Iv0 Iv1 q d c i)))
  iintro H; imodintro
  isplitl [H]; · iexact H
  iintro H; iexact H

end Cert.Proof.ScI

end
-- ==== Proof.ScMainV.lean ====
/-
  @main with values: the proof of @main over any record of handshake payloads whose two gather calls return their result
  arrays at named contents, ending with the program's result array held at what @main's valuation chain computes.
-/
import proofs.«202673_g7318624272670_cont_9to1c4b_526_24_alg».proof.Proof.ScMainI

noncomputable section

namespace Cert.Proof.ScI

open Cert.KernelIdeal
open Cert.KernelIdeal.Shapes2.Facts₀ Cert.KernelIdeal.Shapes1.Facts₀

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 2) (Elt F) ℕ UU ℕ

variable (m : (ℓ : Loc nD τ sig) → Buf (Elt F) ℓ) (ρ : Dev nD → PrngReg)
  (PV : (K (F := F)).Pay (nD := nD) (Val := Elt F) (Name := ℕ) (U := UU))
  (F6 : (d : Dev nD) → Buf (Elt F) ((SparseCore.T d : Thread nD τ).loc main_v6))
  (F9 : (d : Dev nD) → Buf (Elt F) ((SparseCore.T d : Thread nD τ).loc main_v9))

/-- What @main leaves the value claim: the argument arrays as launched, and the result array at the end of the valuation
    chain (for the waits `Wt`, `W1` the regions recorded, which the array's contents do not depend on: `Tc2.final`, `Tc3.final`). -/
def FINV (d : Dev nD) : sProp 𝕄 :=
  iprop(FIN m d ∗ ∃ (Wt W1 : Waits sig (HIx 2)),
    ((SparseCore.T d : Thread nD τ).loc main_v14 ↦{fullShare} W16 m d (F6 d) (F9 d) Wt W1 (r main_v14)))

set_option backward.isDefEq.respectTransparency.types false in
/-- **@main on device `d`'s TensorCore, with values**: `hmain`'s proof over any record of payloads `PV` whose two calls hand the
    gathered arrays back at NAMED contents `F6 d`, `F9 d` (`hcall0V`, `hcall1V`), ending with the result array `main_v14` held
    at what the valuation chain computes from them. -/
theorem hmainV (κ : GSem nD τ sig → ℕ) (d : Dev nD)
    (hcall0 : iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ iprop((bigSep Finset.univ fun c : Fin ((K (F := F)).nCore 0) => PV.st 0 d c)
          ∗ ((bigSep Finset.univ fun c : Fin ((K (F := F)).nCore 0) => PV.dn 0 d c)
              -∗ iprop(((SparseCore.T d : Thread nD τ).loc main_v0 ↦{fullShare} Tb m d) ∗ ((SparseCore.T d : Thread nD τ).loc main_v5 ↦{fullShare} Iv0 m d)
                ∗ ((SparseCore.T d : Thread nD τ).loc main_v6 ↦{fullShare} F6 d)))))
    (hcall1 : iprop(((SparseCore.T d : Thread nD τ).loc main_v0 ↦{fullShare} W9 m d (F6 d) (r main_v0)) ∗ ((SparseCore.T d : Thread nD τ).loc main_v8 ↦{fullShare} W9 m d (F6 d) (r main_v8))
        ∗ ((SparseCore.T d : Thread nD τ).loc main_v9 ↦{fullShare} W9 m d (F6 d) (r main_v9)))
      ⊢ iprop((bigSep Finset.univ fun c : Fin ((K (F := F)).nCore 1) => PV.st 1 d c)
          ∗ ((bigSep Finset.univ fun c : Fin ((K (F := F)).nCore 1) => PV.dn 1 d c)
              -∗ iprop(((SparseCore.T d : Thread nD τ).loc main_v0 ↦{fullShare} W9 m d (F6 d) (r main_v0)) ∗ ((SparseCore.T d : Thread nD τ).loc main_v8 ↦{fullShare} W9 m d (F6 d) (r main_v8))
                ∗ ((SparseCore.T d : Thread nD τ).loc main_v9 ↦{fullShare} F9 d)))))
    (hfinal : ∀ Wt W1, (held (SparseCore.T d) SS (W16 m d (F6 d) (F9 d) Wt W1) : sProp 𝕄) ⊢ FINV m F6 F9 d) :
    iprop((K (F := F)).ctx EH PV κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 2 ∗ FINV m F6 F9 d) := by
  unfold SparseCore.Cfg.tcRes
  rw [show unscopedBufs d (fun b => m ((SparseCore.T d : Thread nD τ).loc b)) = held (SparseCore.T d) SS (W0 m d)
    from Pipeline.unscopedBufs_held (Ix := HIx 2) (Name := ℕ) (U := UU) (Lvl := ℕ) d (W0 m d)]
  simp only [main, wp_bind, wp_pure]
  iintro ⟨#Hctx, Hst, ⟨Hb, Hheld, -, -⟩, HG⟩
  -- host operation 0
  iapply (wp_hlo_within 𝒱 (SparseCore.T d) none Set.univ (op := op0) (S := SS) (Pipeline.sub_ucRefs _ (sub2 _ _)) (V := W0 m d)) $$ [Hb Hheld]
  · isplitl [Hb]; · iexact Hb
    iexact Hheld
  iintro ⟨Hb, Hheld⟩
  rw [wp_ret]; imodintro
  -- host operation 1
  iapply (wp_hlo_within 𝒱 (SparseCore.T d) none Set.univ (op := op1) (S := SS) (Pipeline.sub_ucRefs _ (sub2 _ _)) (V := (op0 (F := F)).result (W0 m d))) $$ [Hb Hheld]
  · isplitl [Hb]; · iexact Hb
    iexact Hheld
  iintro ⟨Hb, Hheld⟩
  rw [wp_ret]; imodintro
  -- host operation 2
  iapply (wp_hlo_within 𝒱 (SparseCore.T d) none Set.univ (op := op2) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 3
  iapply (wp_hlo_within 𝒱 (SparseCore.T d) none Set.univ (op := op3) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 4
  iapply (wp_hlo_within 𝒱 (SparseCore.T d) none Set.univ (op := op4) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 5
  iapply (wp_hlo_within 𝒱 (SparseCore.T d) none Set.univ (op := op5) (S := SS) (Pipeline.sub_ucRefs _ (sub2 _ _)) (V := _)) $$ [Hb Hheld]
  · isplitl [Hb]; · iexact Hb
    iexact Hheld
  iintro ⟨Hb, Hheld⟩
  rw [wp_ret]; imodintro
  -- the first gather call: the table, the index list and the gathered array out of the held set
  ihave Hh := (Entails.of_eq (StableHlo.held_sub_split (SparseCore.T d) hT0 (W6 m d))) $$ Hheld
  icases Hh with ⟨HT, Hrest⟩
  ihave HT' := (Entails.of_eq (held_T0 (F := F) (SparseCore.T d) (W6 m d))) $$ HT
  have hcall0' : iprop((((SparseCore.T d : Thread nD τ).1, r main_v0) ↦{fullShare} W6 m d (r main_v0)) ∗ (((SparseCore.T d : Thread nD τ).1, r main_v5) ↦{fullShare} W6 m d (r main_v5))
      ∗ (((SparseCore.T d : Thread nD τ).1, r main_v6) ↦{fullShare} W6 m d (r main_v6))) ⊢ _ := hcall0
  ihave Hc := hcall0' $$ HT'
  icases Hc with ⟨Hst0, Hback⟩
  iapply ((K (F := F)).wp_run (D (F := F)) 𝒱 (EH := EH) (P := PV) κ d 0) $$ [Hst Hst0 Hback Hb Hrest HG]
  isplitr; · iexact Hctx
  isplitl [Hst]; · iexact Hst
  isplitl [Hst0]; · iexact Hst0
  iintro ⟨Hst, Hdn⟩
  ihave HT := Hback $$ Hdn
  icases HT with ⟨H0, H5, H6⟩
  -- back into the held set, the gathered array at what the call left
  ihave Hheld := (held_put0 (F := F) (SparseCore.T d) (W6 m d) (F6 d)) $$ [H0 H5 H6 Hrest]
  · isplitl [H0]; · iexact H0
    isplitl [H5]; · iexact H5
    isplitl [H6]; · iexact H6
    iexact Hrest
  -- host operation 6
  iapply (wp_hlo_within 𝒱 (SparseCore.T d) none Set.univ (op := op6) (S := SS) (Pipeline.sub_ucRefs _ (sub2 _ _)) (V := Function.update (W6 m d) (r main_v6) (F6 d))) $$ [Hb Hheld]
  · isplitl [Hb]; · iexact Hb
    iexact Hheld
  iintro ⟨Hb, Hheld⟩
  rw [wp_ret]; imodintro
  -- host operation 7
  iapply (wp_hlo_within 𝒱 (SparseCore.T d) none Set.univ (op := op7) (S := SS) (Pipeline.sub_ucRefs _ (sub2 _ _)) (V := _)) $$ [Hb Hheld]
  · isplitl [Hb]; · iexact Hb
    iexact Hheld
  iintro ⟨Hb, Hheld⟩
  rw [wp_ret]; imodintro
  -- the second gather call
  ihave Hh := (Entails.of_eq (StableHlo.held_sub_split (SparseCore.T d) hT1 (W9 m d (F6 d)))) $$ Hheld
  icases Hh with ⟨HT, Hrest⟩
  ihave HT' := (Entails.of_eq (held_T1 (F := F) (SparseCore.T d) (W9 m d (F6 d)))) $$ HT
  have hcall1' : iprop((((SparseCore.T d : Thread nD τ).1, r main_v0) ↦{fullShare} W9 m d (F6 d) (r main_v0)) ∗ (((SparseCore.T d : Thread nD τ).1, r main_v8) ↦{fullShare} W9 m d (F6 d) (r main_v8))
      ∗ (((SparseCore.T d : Thread nD τ).1, r main_v9) ↦{fullShare} W9 m d (F6 d) (r main_v9))) ⊢ _ := hcall1
  ihave Hc := hcall1' $$ HT'
  icases Hc with ⟨Hst1, Hback⟩
  iapply ((K (F := F)).wp_run (D (F := F)) 𝒱 (EH := EH) (P := PV) κ d 1) $$ [Hst Hst1 Hback Hb Hrest HG]
  isplitr; · iexact Hctx
  isplitl [Hst]; · iexact Hst
  isplitl [Hst1]; · iexact Hst1
  iintro ⟨Hst, Hdn⟩
  ihave HT := Hback $$ Hdn
  icases HT with ⟨H0, H8, H9⟩
  ihave Hheld := (held_put1 (F := F) (SparseCore.T d) (W9 m d (F6 d)) (F9 d)) $$ [H0 H8 H9 Hrest]
  · isplitl [H0]; · iexact H0
    isplitl [H8]; · iexact H8
    isplitl [H9]; · iexact H9
    iexact Hrest
  -- host operation 8
  iapply (wp_hlo_within 𝒱 (SparseCore.T d) none Set.univ (op := op8) (S := SS) (Pipeline.sub_ucRefs _ (sub2 _ _)) (V := Function.update (W9 m d (F6 d)) (r main_v9) (F9 d))) $$ [Hb Hheld]
  · isplitl [Hb]; · iexact Hb
    iexact Hheld
  iintro ⟨Hb, Hheld⟩
  rw [wp_ret]; imodintro
  -- the first TensorCore region: its five arrays out of the held set, what the thread owes out of its handshake state
  obtain ⟨R2, hR2⟩ := tcSt_split (F := F) d
  have hR2' : (K (F := F)).tcSt EH d ((1 : Fin 2).val + 1)
      = iprop((∃ W, ⌜(K (F := F)).WBelow (SparseCore.T d) W (8 * 2)⌝ ∗ owes (SparseCore.T d) (0 : CellTallies nD τ sig (HIx 2)) W) ∗ R2) := by
    rw [show ((1 : Fin 2).val + 1) = 2 from rfl, hR2, Otc_two]
  ihave Hst' := (Entails.of_eq hR2') $$ Hst
  icases Hst' with ⟨⟨%Wt, %hWt, HO⟩, HR2⟩
  ihave HG' := (show (Gd (F := F) d : sProp 𝕄) ⊢ iprop(Pipeline.cellsGhost cfgs ER (0 : Fin 2) d ∗ Pipeline.toksInit cfgs ER (0 : Fin 2) d
    ∗ Pipeline.cellsGhost cfgs ER (1 : Fin 2) d ∗ Pipeline.toksInit cfgs ER (1 : Fin 2) d) from BI.Entails.refl _) $$ HG
  icases HG' with ⟨Hg0, Ht0, Hg1, Ht1⟩
  ihave Hh := (Entails.of_eq (StableHlo.held_sub_split (SparseCore.T d) hTR0 (W11 m d (F6 d) (F9 d)))) $$ Hheld
  icases Hh with ⟨HT, Hrest⟩
  ihave Harr := (Entails.of_eq (held_TR0 (F := F) d (W11 m d (F6 d) (F9 d)))) $$ HT
  iapply (Tc2.region0_run (U := UU) (fun _ b => W11 m d (F6 d) (F9 d) (r b)) (fun _ => Wt) ER d (fun x => Prog.ret x) _) $$ [Hb Harr HO Hg0 Ht0 Hrest HR2 Hg1 Ht1]
  isplitl [Hb]; · iexact Hb
  isplitl [Harr]; · iexact Harr
  isplitl [HO]; · iexact HO
  isplitl [Hg0]; · iexact Hg0
  isplitl [Ht0]; · iexact Ht0
  iintro ⟨Hb, Harr, HO⟩
  rw [wp_ret]; imodintro
  ihave Hheld := (putBackR0 (F := F) d (W11 m d (F6 d) (F9 d)) Wt) $$ [Harr Hrest]
  · isplitl [Harr]; · iexact Harr
    iexact Hrest
  ihave HO' := (show ((D2 (W11 m d (F6 d) (F9 d)) Wt d).owesAt none (Fin.last cfg2.N) : sProp 𝕄)
    ⊢ iprop(∃ W' : Waits sig (HIx 2), ⌜(↑W' : Set (SemLoc sig × HIx 2)) ⊆ ↑Wt ∪ cfg2.waitPairs none⌝ ∗ owes (SparseCore.T d) (0 : CellTallies nD τ sig (HIx 2)) W') from BI.Entails.refl _) $$ HO
  icases HO' with ⟨%W1, %hW1, HO⟩
  -- host operation 9
  iapply (wp_hlo_within 𝒱 (SparseCore.T d) none Set.univ (op := op9) (S := SS) (Pipeline.sub_ucRefs _ (sub2 _ _)) (V := Function.update (W11 m d (F6 d) (F9 d)) (r main_v11) ((D2 (W11 m d (F6 d) (F9 d)) Wt d).arrAt 4 cfg2.N))) $$ [Hb Hheld]
  · isplitl [Hb]; · iexact Hb
    iexact Hheld
  iintro ⟨Hb, Hheld⟩
  rw [wp_ret]; imodintro
  -- host operation 10
  iapply (wp_hlo_within 𝒱 (SparseCore.T d) none Set.univ (op := op10) (S := SS) (Pipeline.sub_ucRefs _ (sub2 _ _)) (V := _)) $$ [Hb Hheld]
  · isplitl [Hb]; · iexact Hb
    iexact Hheld
  iintro ⟨Hb, Hheld⟩
  rw [wp_ret]; imodintro
  -- the second TensorCore region
  ihave Hh := (Entails.of_eq (StableHlo.held_sub_split (SparseCore.T d) hTR1 (W14 m d (F6 d) (F9 d) Wt))) $$ Hheld
  icases Hh with ⟨HT, Hrest⟩
  ihave Harr := (Entails.of_eq (held_TR1 (F := F) d (W14 m d (F6 d) (F9 d) Wt))) $$ HT
  iapply (Tc3.region1_run (U := UU) (fun _ b => W14 m d (F6 d) (F9 d) Wt (r b)) (fun _ => W1) ER d (fun x => Prog.ret x) _) $$ [Hb Harr HO Hg1 Ht1 Hrest HR2]
  isplitl [Hb]; · iexact Hb
  isplitl [Harr]; · iexact Harr
  isplitl [HO]; · iexact HO
  isplitl [Hg1]; · iexact Hg1
  isplitl [Ht1]; · iexact Ht1
  iintro ⟨Hb, Harr, HO⟩
  rw [wp_ret]; imodintro
  ihave Hheld := (putBackR1 (F := F) d (W14 m d (F6 d) (F9 d) Wt) W1) $$ [Harr Hrest]
  · isplitl [Harr]; · iexact Harr
    iexact Hrest
  ihave HO' := (show ((D3 (W14 m d (F6 d) (F9 d) Wt) W1 d).owesAt none (Fin.last cfg3.N) : sProp 𝕄)
    ⊢ iprop(∃ W' : Waits sig (HIx 2), ⌜(↑W' : Set (SemLoc sig × HIx 2)) ⊆ ↑W1 ∪ cfg3.waitPairs none⌝ ∗ owes (SparseCore.T d) (0 : CellTallies nD τ sig (HIx 2)) W') from BI.Entails.refl _) $$ HO
  icases HO' with ⟨%W2, %hW2, HO⟩
  -- host operation 11
  iapply (wp_hlo_within 𝒱 (SparseCore.T d) none Set.univ (op := op11) (S := SS) (Pipeline.sub_ucRefs _ (sub2 _ _)) (V := Function.update (W14 m d (F6 d) (F9 d) Wt) (r main_v13) ((D3 (W14 m d (F6 d) (F9 d) Wt) W1 d).arrAt 4 cfg3.N))) $$ [Hb Hheld]
  · isplitl [Hb]; · iexact Hb
    iexact Hheld
  iintro ⟨Hb, Hheld⟩
  rw [wp_ret]; imodintro
  -- the end: the handshake state folded back (the regions' waits are at index `none`, level 0), the arguments as launched
  imodintro
  isplitl [HO HR2]
  · iapply (Entails.of_eq (show iprop((∃ W, ⌜(K (F := F)).WBelow (SparseCore.T d) W (8 * 2)⌝ ∗ owes (SparseCore.T d) (0 : CellTallies nD τ sig (HIx 2)) W) ∗ R2)
        = (K (F := F)).tcSt EH d 2 from by rw [hR2, Otc_two]))
    isplitl [HO]
    · iexists W2
      isplitr
      · ipureintro
        intro p hp
        rcases hW2 (Finset.mem_coe.mpr hp) with h | ⟨w, s, rfl⟩
        · rcases hW1 h with h' | ⟨w, s, rfl⟩
          · exact hWt p (Finset.mem_coe.mp h')
          · exact Nat.zero_le _
        · exact Nat.zero_le _
      iexact HO
    iexact HR2
  iapply (hfinal Wt W1); iexact Hheld

end Cert.Proof.ScI

end
-- ==== Proof.ScCall0V.lean ====
/-
  The first gather call's operands with values: split as in the frame version; on the way back every block of the gathered
  array comes at contents that agree with the gather's specification on the block, so the array comes back whole AT the
  specification.
-/
import proofs.«202673_g7318624272670_cont_9to1c4b_526_24_alg».proof.Proof.ScCall0I
import proofs.«202673_g7318624272670_cont_9to1c4b_526_24_alg».proof.Proof.ScPayV
import proofs.«202673_g7318624272670_cont_9to1c4b_526_24_alg».proof.Proof.ScMainV

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section Call0V

open Cert.Proof.ScI0 (idxSet chunkSet ℓ5 ℓ6 pts5_split pts6_split)

variable (m : (ℓ : Loc nD τ sig) → Buf (Elt F) ℓ) (d : Dev nD)

/-- The payloads with values at @main's contents. -/
abbrev PPV : (K (F := F)).Pay (nD := nD) (Val := Elt F) (Name := ℕ) (U := UU) := PV (Tb m) (Iv0 m) (Iv1 m)

/-- The gather's specification for this call. -/
abbrev E0 : Buf (Elt F) (ℓ6 d) := embSpec (Tb m d) (Iv0 m d)

/-- Every task's row blocks as handed back: at some contents agreeing with the specification on the block. -/
abbrev ROWSV0 : sProp 𝕄 :=
  bigSep (Finset.univ : Finset (Fin (grid0.bound 0))) fun c => bigSep (Finset.univ : Finset (Fin (grid0.bound 1))) fun s =>
    bigSep (Finset.univ : Finset (Fin k0_t2_loop.trips)) fun t =>
      (iprop((∃ f, (ℓ6 d ↦[chunkSet c s t 0]{fullShare} f) ∗ ⌜AgreeOn (chunkSet c s t 0) f (E0 m d)⌝)
        ∗ (∃ f, (ℓ6 d ↦[chunkSet c s t 1]{fullShare} f) ∗ ⌜AgreeOn (chunkSet c s t 1) f (E0 m d)⌝)
        ∗ (∃ f, (ℓ6 d ↦[chunkSet c s t 2]{fullShare} f) ∗ ⌜AgreeOn (chunkSet c s t 2) f (E0 m d)⌝)
        ∗ (∃ f, (ℓ6 d ↦[chunkSet c s t 3]{fullShare} f) ∗ ⌜AgreeOn (chunkSet c s t 3) f (E0 m d)⌝)) : sProp 𝕄)

theorem st0V_tile :
    (bigSep Finset.univ fun c : Fin ((K (F := F)).nCore 0) => (PPV m).st 0 d c : sProp 𝕄)
      = bigSep Finset.univ fun c : Fin (grid0.bound 0) => bigSep Finset.univ fun s : Fin (grid0.bound 1) =>
          Cert.Proof.ScI0.tileRes d (Cert.Proof.ScI0.coordsV c s) (qT c.val s.val) (Tb m d) (Iv0 m d) := by
  refine Eq.trans ?_ (bigSep_cast (nCore0 (F := F)) (fun c => bigSep Finset.univ fun s : Fin (grid0.bound 1) =>
    (Cert.Proof.ScI0.tileRes d (Cert.Proof.ScI0.coordsV c s) (qT c.val s.val) (Tb m d) (Iv0 m d) : sProp 𝕄)))
  refine bigSep_congr fun c _ => ?_
  refine Eq.trans ?_ (bigSep_cast (nSub0 (F := F)) (fun s =>
    (Cert.Proof.ScI0.tileRes d (Cert.Proof.ScI0.coordsV (Fin.cast (nCore0 (F := F)) c) s) (qT c.val s.val) (Tb m d) (Iv0 m d) : sProp 𝕄)))
  show (bigSep Finset.univ fun i => goRes (Tb m) (Iv0 m) (Iv1 m) 0 d c i) = _
  refine bigSep_congr fun i _ => ?_
  rfl
theorem dn0V_tile :
    (bigSep Finset.univ fun c : Fin ((K (F := F)).nCore 0) => (PPV m).dn 0 d c : sProp 𝕄)
      = bigSep Finset.univ fun c : Fin (grid0.bound 0) => bigSep Finset.univ fun s : Fin (grid0.bound 1) =>
          Cert.Proof.ScI0.tileResV d (Cert.Proof.ScI0.coordsV c s) (Tb m d) (Iv0 m d) (qT c.val s.val) := by
  refine Eq.trans ?_ (bigSep_cast (nCore0 (F := F)) (fun c => bigSep Finset.univ fun s : Fin (grid0.bound 1) =>
    (Cert.Proof.ScI0.tileResV d (Cert.Proof.ScI0.coordsV c s) (Tb m d) (Iv0 m d) (qT c.val s.val) : sProp 𝕄)))
  refine bigSep_congr fun c _ => ?_
  refine Eq.trans ?_ (bigSep_cast (nSub0 (F := F)) (fun s =>
    (Cert.Proof.ScI0.tileResV d (Cert.Proof.ScI0.coordsV (Fin.cast (nCore0 (F := F)) c) s) (Tb m d) (Iv0 m d) (qT c.val s.val) : sProp 𝕄)))
  show (bigSep Finset.univ fun i => tdRes (Tb m) (Iv0 m) (Iv1 m) 0 d c i) = _
  refine bigSep_congr fun i _ => ?_
  rfl

/-- The tasks' returns regrouped: all tokens, all word ranges, all row blocks with their values. -/
theorem tilesV0_eq :
    (bigSep Finset.univ fun c : Fin (grid0.bound 0) => bigSep Finset.univ fun s : Fin (grid0.bound 1) =>
        (Cert.Proof.ScI0.tileResV d (Cert.Proof.ScI0.coordsV c s) (Tb m d) (Iv0 m d) (qT c.val s.val) : sProp 𝕄))
      = iprop(TOK0 m d ∗ IDX0 m d ∗ ROWSV0 m d) := by
  have hgo : ∀ (c : Fin (grid0.bound 0)) (s : Fin (grid0.bound 1)),
      (Cert.Proof.ScI0.tileResV d (Cert.Proof.ScI0.coordsV c s) (Tb m d) (Iv0 m d) (qT c.val s.val) : sProp 𝕄)
      = iprop(tok4 (ℓ := ℓ0 d) (Tb m d) (qT c.val s.val) 0 ∗ ((ℓ5 d ↦[idxSet c s]{fullShare} Iv0 m d : sProp 𝕄)
        ∗ bigSep (Finset.univ : Finset (Fin k0_t2_loop.trips)) fun t =>
          (iprop((∃ f, (ℓ6 d ↦[chunkSet c s t 0]{fullShare} f) ∗ ⌜AgreeOn (chunkSet c s t 0) f (E0 m d)⌝)
            ∗ (∃ f, (ℓ6 d ↦[chunkSet c s t 1]{fullShare} f) ∗ ⌜AgreeOn (chunkSet c s t 1) f (E0 m d)⌝)
            ∗ (∃ f, (ℓ6 d ↦[chunkSet c s t 2]{fullShare} f) ∗ ⌜AgreeOn (chunkSet c s t 2) f (E0 m d)⌝)
            ∗ (∃ f, (ℓ6 d ↦[chunkSet c s t 3]{fullShare} f) ∗ ⌜AgreeOn (chunkSet c s t 3) f (E0 m d)⌝)) : sProp 𝕄))) :=
    fun c s => regroup6 _ _ _ _ _ _
  refine Eq.trans (bigSep_congr fun c _ => bigSep_congr fun s _ => hgo c s) ?_
  exact split3 (fun (c : Fin (grid0.bound 0)) (s : Fin (grid0.bound 1)) => tok4 (ℓ := ℓ0 d) (Tb m d) (qT c.val s.val) 0)
    (fun (c : Fin (grid0.bound 0)) (s : Fin (grid0.bound 1)) => (ℓ5 d ↦[idxSet c s]{fullShare} Iv0 m d : sProp 𝕄))
    (fun (c : Fin (grid0.bound 0)) (s : Fin (grid0.bound 1)) => bigSep (Finset.univ : Finset (Fin k0_t2_loop.trips)) fun t =>
      (iprop((∃ f, (ℓ6 d ↦[chunkSet c s t 0]{fullShare} f) ∗ ⌜AgreeOn (chunkSet c s t 0) f (E0 m d)⌝)
        ∗ (∃ f, (ℓ6 d ↦[chunkSet c s t 1]{fullShare} f) ∗ ⌜AgreeOn (chunkSet c s t 1) f (E0 m d)⌝)
        ∗ (∃ f, (ℓ6 d ↦[chunkSet c s t 2]{fullShare} f) ∗ ⌜AgreeOn (chunkSet c s t 2) f (E0 m d)⌝)
        ∗ (∃ f, (ℓ6 d ↦[chunkSet c s t 3]{fullShare} f) ∗ ⌜AgreeOn (chunkSet c s t 3) f (E0 m d)⌝)) : sProp 𝕄))

/-- A block at contents agreeing with the specification on the block is the block at the specification. -/
theorem block_at_spec (Sset : Finset S212992x128.Idx) :
    (iprop(∃ f, (ℓ6 d ↦[Sset]{fullShare} f) ∗ ⌜AgreeOn Sset f (E0 m d)⌝) : sProp 𝕄) ⊢ (ℓ6 d ↦[Sset]{fullShare} E0 m d) := by
  iintro ⟨%f, H, %hf⟩
  rw [← pointsTo_congr (Ix := HIx 2) (Val := Elt F) (Name := ℕ) (U := UU) (Lvl := ℕ) (ℓ := ℓ6 d) (I := Sset) (q := fullShare) (f := f) (g := E0 m d) hf]
  iexact H

theorem four_at_spec (A B C D : Finset S212992x128.Idx) :
    (iprop((∃ f, (ℓ6 d ↦[A]{fullShare} f) ∗ ⌜AgreeOn A f (E0 m d)⌝) ∗ (∃ f, (ℓ6 d ↦[B]{fullShare} f) ∗ ⌜AgreeOn B f (E0 m d)⌝)
        ∗ (∃ f, (ℓ6 d ↦[C]{fullShare} f) ∗ ⌜AgreeOn C f (E0 m d)⌝) ∗ (∃ f, (ℓ6 d ↦[D]{fullShare} f) ∗ ⌜AgreeOn D f (E0 m d)⌝)) : sProp 𝕄)
      ⊢ iprop((ℓ6 d ↦[A]{fullShare} E0 m d) ∗ (ℓ6 d ↦[B]{fullShare} E0 m d) ∗ (ℓ6 d ↦[C]{fullShare} E0 m d) ∗ (ℓ6 d ↦[D]{fullShare} E0 m d)) := by
  iintro ⟨HA, HB, HC, HD⟩
  isplitl [HA]; · iapply (block_at_spec m d A); iexact HA
  isplitl [HB]; · iapply (block_at_spec m d B); iexact HB
  isplitl [HC]; · iapply (block_at_spec m d C); iexact HC
  iapply (block_at_spec m d D); iexact HD

/-- The returned row blocks join to the gathered array whole AT the specification. -/
theorem rowsV_join : ROWSV0 m d ⊢ ((SparseCore.T d : Thread nD τ).loc main_v6 ↦{fullShare} E0 m d : sProp 𝕄) := by
  rw [pts6_split (U := UU) d fullShare (E0 m d)]
  exact bigSep_mono fun c _ => bigSep_mono fun s _ => bigSep_mono fun t _ =>
    four_at_spec m d (chunkSet c s t 0) (chunkSet c s t 1) (chunkSet c s t 2) (chunkSet c s t 3)

/-- **The first call's operand split and join, with values.** -/
theorem hcall0V :
    iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PPV m).st 0 d c)
          ∗ ((bigSep Finset.univ fun c : Fin ((K (F := F)).nCore 0) => (PPV m).dn 0 d c)
              -∗ iprop(((SparseCore.T d : Thread nD τ).loc main_v0 ↦{fullShare} Tb m d) ∗ ((SparseCore.T d : Thread nD τ).loc main_v5 ↦{fullShare} Iv0 m d)
                ∗ ((SparseCore.T d : Thread nD τ).loc main_v6 ↦{fullShare} E0 m d)))) : sProp 𝕄) := by
  rw [st0V_tile m d, dn0V_tile m d, tiles0_eq m d, tilesV0_eq m d,
    tbl_eq0' (ℓ := ℓ0 d) (Tb m d) (n1 := grid0.bound 0) (n2 := grid0.bound 1) rfl rfl]
  iintro ⟨⟨HR, HT⟩, H5, H6⟩
  ihave HI := (Entails.of_eq (pts5_split (U := UU) d fullShare (Iv0 m d))) $$ H5
  ihave HRw := (Entails.of_eq (pts6_split (U := UU) d fullShare (W6 m d (r main_v6)))) $$ H6
  ihave HE := (rows_weaken (F := F) d (W6 m d (r main_v6))) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv0 m d)).symm); iexact HI
  iapply (rowsV_join m d); iexact HE

end Call0V

end Cert.Proof.ScI

end
-- ==== Proof.ScCall1V.lean ====
/-
  The second gather call's operands with values: split as in the frame version; on the way back every block of the gathered
  array comes at contents that agree with the gather's specification on the block, so the array comes back whole AT the
  specification.
-/
import proofs.«202673_g7318624272670_cont_9to1c4b_526_24_alg».proof.Proof.ScCall1I
import proofs.«202673_g7318624272670_cont_9to1c4b_526_24_alg».proof.Proof.ScCall0V

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

section Call1V

open Cert.Proof.ScI1 (idxSet chunkSet ℓ5 ℓ6 pts5_split pts6_split)

variable (m : (ℓ : Loc nD τ sig) → Buf (Elt F) ℓ) (d : Dev nD)

/-- The gather's specification for this call. -/
abbrev E1 : Buf (Elt F) (ℓ6 d) := embSpec (Tb m d) (Iv1 m d)

/-- Every task's row blocks as handed back: at some contents agreeing with the specification on the block. -/
abbrev ROWSV1 : sProp 𝕄 :=
  bigSep (Finset.univ : Finset (Fin (grid1.bound 0))) fun c => bigSep (Finset.univ : Finset (Fin (grid1.bound 1))) fun s =>
    bigSep (Finset.univ : Finset (Fin k1_t2_loop.trips)) fun t =>
      (iprop((∃ f, (ℓ6 d ↦[chunkSet c s t 0]{fullShare} f) ∗ ⌜AgreeOn (chunkSet c s t 0) f (E1 m d)⌝)
        ∗ (∃ f, (ℓ6 d ↦[chunkSet c s t 1]{fullShare} f) ∗ ⌜AgreeOn (chunkSet c s t 1) f (E1 m d)⌝)
        ∗ (∃ f, (ℓ6 d ↦[chunkSet c s t 2]{fullShare} f) ∗ ⌜AgreeOn (chunkSet c s t 2) f (E1 m d)⌝)
        ∗ (∃ f, (ℓ6 d ↦[chunkSet c s t 3]{fullShare} f) ∗ ⌜AgreeOn (chunkSet c s t 3) f (E1 m d)⌝)) : sProp 𝕄)

theorem st1V_tile :
    (bigSep Finset.univ fun c : Fin ((K (F := F)).nCore 1) => (PPV m).st 1 d c : sProp 𝕄)
      = bigSep Finset.univ fun c : Fin (grid1.bound 0) => bigSep Finset.univ fun s : Fin (grid1.bound 1) =>
          Cert.Proof.ScI1.tileRes d (Cert.Proof.ScI1.coordsV c s) (qT c.val s.val) (Tb m d) (Iv1 m d) := by
  refine Eq.trans ?_ (bigSep_cast (nCore1 (F := F)) (fun c => bigSep Finset.univ fun s : Fin (grid1.bound 1) =>
    (Cert.Proof.ScI1.tileRes d (Cert.Proof.ScI1.coordsV c s) (qT c.val s.val) (Tb m d) (Iv1 m d) : sProp 𝕄)))
  refine bigSep_congr fun c _ => ?_
  refine Eq.trans ?_ (bigSep_cast (nSub1 (F := F)) (fun s =>
    (Cert.Proof.ScI1.tileRes d (Cert.Proof.ScI1.coordsV (Fin.cast (nCore1 (F := F)) c) s) (qT c.val s.val) (Tb m d) (Iv1 m d) : sProp 𝕄)))
  show (bigSep Finset.univ fun i => goRes (Tb m) (Iv0 m) (Iv1 m) 1 d c i) = _
  refine bigSep_congr fun i _ => ?_
  rfl
theorem dn1V_tile :
    (bigSep Finset.univ fun c : Fin ((K (F := F)).nCore 1) => (PPV m).dn 1 d c : sProp 𝕄)
      = bigSep Finset.univ fun c : Fin (grid1.bound 0) => bigSep Finset.univ fun s : Fin (grid1.bound 1) =>
          Cert.Proof.ScI1.tileResV d (Cert.Proof.ScI1.coordsV c s) (Tb m d) (Iv1 m d) (qT c.val s.val) := by
  refine Eq.trans ?_ (bigSep_cast (nCore1 (F := F)) (fun c => bigSep Finset.univ fun s : Fin (grid1.bound 1) =>
    (Cert.Proof.ScI1.tileResV d (Cert.Proof.ScI1.coordsV c s) (Tb m d) (Iv1 m d) (qT c.val s.val) : sProp 𝕄)))
  refine bigSep_congr fun c _ => ?_
  refine Eq.trans ?_ (bigSep_cast (nSub1 (F := F)) (fun s =>
    (Cert.Proof.ScI1.tileResV d (Cert.Proof.ScI1.coordsV (Fin.cast (nCore1 (F := F)) c) s) (Tb m d) (Iv1 m d) (qT c.val s.val) : sProp 𝕄)))
  show (bigSep Finset.univ fun i => tdRes (Tb m) (Iv0 m) (Iv1 m) 1 d c i) = _
  refine bigSep_congr fun i _ => ?_
  rfl

/-- The tasks' returns regrouped: all tokens, all word ranges, all row blocks with their values. -/
theorem tilesV1_eq :
    (bigSep Finset.univ fun c : Fin (grid1.bound 0) => bigSep Finset.univ fun s : Fin (grid1.bound 1) =>
        (Cert.Proof.ScI1.tileResV d (Cert.Proof.ScI1.coordsV c s) (Tb m d) (Iv1 m d) (qT c.val s.val) : sProp 𝕄))
      = iprop(TOK1 m d ∗ IDX1 m d ∗ ROWSV1 m d) := by
  have hgo : ∀ (c : Fin (grid1.bound 0)) (s : Fin (grid1.bound 1)),
      (Cert.Proof.ScI1.tileResV d (Cert.Proof.ScI1.coordsV c s) (Tb m d) (Iv1 m d) (qT c.val s.val) : sProp 𝕄)
      = iprop(tok4 (ℓ := ℓ0 d) (Tb m d) (qT c.val s.val) 9 ∗ ((ℓ5 d ↦[idxSet c s]{fullShare} Iv1 m d : sProp 𝕄)
        ∗ bigSep (Finset.univ : Finset (Fin k1_t2_loop.trips)) fun t =>
          (iprop((∃ f, (ℓ6 d ↦[chunkSet c s t 0]{fullShare} f) ∗ ⌜AgreeOn (chunkSet c s t 0) f (E1 m d)⌝)
            ∗ (∃ f, (ℓ6 d ↦[chunkSet c s t 1]{fullShare} f) ∗ ⌜AgreeOn (chunkSet c s t 1) f (E1 m d)⌝)
            ∗ (∃ f, (ℓ6 d ↦[chunkSet c s t 2]{fullShare} f) ∗ ⌜AgreeOn (chunkSet c s t 2) f (E1 m d)⌝)
            ∗ (∃ f, (ℓ6 d ↦[chunkSet c s t 3]{fullShare} f) ∗ ⌜AgreeOn (chunkSet c s t 3) f (E1 m d)⌝)) : sProp 𝕄))) :=
    fun c s => regroup6 _ _ _ _ _ _
  refine Eq.trans (bigSep_congr fun c _ => bigSep_congr fun s _ => hgo c s) ?_
  exact split3 (fun (c : Fin (grid1.bound 0)) (s : Fin (grid1.bound 1)) => tok4 (ℓ := ℓ0 d) (Tb m d) (qT c.val s.val) 9)
    (fun (c : Fin (grid1.bound 0)) (s : Fin (grid1.bound 1)) => (ℓ5 d ↦[idxSet c s]{fullShare} Iv1 m d : sProp 𝕄))
    (fun (c : Fin (grid1.bound 0)) (s : Fin (grid1.bound 1)) => bigSep (Finset.univ : Finset (Fin k1_t2_loop.trips)) fun t =>
      (iprop((∃ f, (ℓ6 d ↦[chunkSet c s t 0]{fullShare} f) ∗ ⌜AgreeOn (chunkSet c s t 0) f (E1 m d)⌝)
        ∗ (∃ f, (ℓ6 d ↦[chunkSet c s t 1]{fullShare} f) ∗ ⌜AgreeOn (chunkSet c s t 1) f (E1 m d)⌝)
        ∗ (∃ f, (ℓ6 d ↦[chunkSet c s t 2]{fullShare} f) ∗ ⌜AgreeOn (chunkSet c s t 2) f (E1 m d)⌝)
        ∗ (∃ f, (ℓ6 d ↦[chunkSet c s t 3]{fullShare} f) ∗ ⌜AgreeOn (chunkSet c s t 3) f (E1 m d)⌝)) : sProp 𝕄))

/-- A block at contents agreeing with the specification on the block is the block at the specification. -/
theorem block_at_spec1 (Sset : Finset S212992x128.Idx) :
    (iprop(∃ f, (ℓ6 d ↦[Sset]{fullShare} f) ∗ ⌜AgreeOn Sset f (E1 m d)⌝) : sProp 𝕄) ⊢ (ℓ6 d ↦[Sset]{fullShare} E1 m d) := by
  iintro ⟨%f, H, %hf⟩
  rw [← pointsTo_congr (Ix := HIx 2) (Val := Elt F) (Name := ℕ) (U := UU) (Lvl := ℕ) (ℓ := ℓ6 d) (I := Sset) (q := fullShare) (f := f) (g := E1 m d) hf]
  iexact H

theorem four_at_spec1 (A B C D : Finset S212992x128.Idx) :
    (iprop((∃ f, (ℓ6 d ↦[A]{fullShare} f) ∗ ⌜AgreeOn A f (E1 m d)⌝) ∗ (∃ f, (ℓ6 d ↦[B]{fullShare} f) ∗ ⌜AgreeOn B f (E1 m d)⌝)
        ∗ (∃ f, (ℓ6 d ↦[C]{fullShare} f) ∗ ⌜AgreeOn C f (E1 m d)⌝) ∗ (∃ f, (ℓ6 d ↦[D]{fullShare} f) ∗ ⌜AgreeOn D f (E1 m d)⌝)) : sProp 𝕄)
      ⊢ iprop((ℓ6 d ↦[A]{fullShare} E1 m d) ∗ (ℓ6 d ↦[B]{fullShare} E1 m d) ∗ (ℓ6 d ↦[C]{fullShare} E1 m d) ∗ (ℓ6 d ↦[D]{fullShare} E1 m d)) := by
  iintro ⟨HA, HB, HC, HD⟩
  isplitl [HA]; · iapply (block_at_spec1 m d A); iexact HA
  isplitl [HB]; · iapply (block_at_spec1 m d B); iexact HB
  isplitl [HC]; · iapply (block_at_spec1 m d C); iexact HC
  iapply (block_at_spec1 m d D); iexact HD

/-- The returned row blocks join to the gathered array whole AT the specification. -/
theorem rowsV_join1 : ROWSV1 m d ⊢ ((SparseCore.T d : Thread nD τ).loc main_v9 ↦{fullShare} E1 m d : sProp 𝕄) := by
  rw [pts6_split (U := UU) d fullShare (E1 m d)]
  exact bigSep_mono fun c _ => bigSep_mono fun s _ => bigSep_mono fun t _ =>
    four_at_spec1 m d (chunkSet c s t 0) (chunkSet c s t 1) (chunkSet c s t 2) (chunkSet c s t 3)

/-- **The second call's operand split and join, with values.** -/
theorem hcall1V (g : Buf (Elt F) ((SparseCore.T d : Thread nD τ).loc main_v9)) :
    iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PPV m).st 1 d c)
          ∗ ((bigSep Finset.univ fun c : Fin ((K (F := F)).nCore 1) => (PPV m).dn 1 d c)
              -∗ iprop(((SparseCore.T d : Thread nD τ).loc main_v0 ↦{fullShare} Tb m d) ∗ ((SparseCore.T d : Thread nD τ).loc main_v8 ↦{fullShare} Iv1 m d)
                ∗ ((SparseCore.T d : Thread nD τ).loc main_v9 ↦{fullShare} E1 m d)))) : sProp 𝕄) := by
  rw [st1V_tile m d, dn1V_tile m d, tiles1_eq m d, tilesV1_eq m d,
    tbl_eq1' (ℓ := ℓ0 d) (Tb m d) (n1 := grid1.bound 0) (n2 := grid1.bound 1) rfl rfl]
  iintro ⟨⟨HR, HT⟩, H5, H6⟩
  ihave HI := (Entails.of_eq (pts5_split (U := UU) d fullShare (Iv1 m d))) $$ H5
  ihave HRw := (Entails.of_eq (pts6_split (U := UU) d fullShare (g))) $$ H6
  ihave HE := (rows_weaken1 (F := F) d (g)) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv1 m d)).symm); iexact HI
  iapply (rowsV_join1 m d); iexact HE

end Call1V

end Cert.Proof.ScI

end
-- ==== Proof.ScLaunchV.lean ====
/-
  The launch of the idealized kernel's program with values: from the tasks' body obligations with values (a hypothesis
  here) every weakly fair execution terminates without a fault, leaves the argument arrays unchanged, and leaves the result
  array at what @main's valuation chain computes from the two gathers' specifications.
-/
import proofs.«202673_g7318624272670_cont_9to1c4b_526_24_alg».proof.Proof.ScLaunchI
import proofs.«202673_g7318624272670_cont_9to1c4b_526_24_alg».proof.Proof.ScCall0V
import proofs.«202673_g7318624272670_cont_9to1c4b_526_24_alg».proof.Proof.ScCall1V

noncomputable section

namespace Cert.Proof.ScI

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)

/-- What the two gather calls leave: their specifications. -/
abbrev G6 (d : Dev nD) : Buf (Elt F) ((SparseCore.T d : Thread nD τ).loc main_v6) := embSpec (Tb m d) (Iv0 m d)
abbrev G9 (d : Dev nD) : Buf (Elt F) ((SparseCore.T d : Thread nD τ).loc main_v9) := embSpec (Tb m d) (Iv1 m d)

/-- The argument arrays and the result array. -/
abbrev TAV : Finset (DevRef τ sig) := {r main_v14, r main_arg0, r main_arg1, r main_arg2, r main_arg3, r main_arg4}
theorem hTAV : TAV ⊆ SS := by decide

/-- At @main's end: the arguments as launched, the result at the end of the valuation chain. -/
theorem hfinalV (d : Dev nD) (Wt W1 : Waits sig (HIx 2)) :
    (held (SparseCore.T d) SS (W16 m d (G6 m d) (G9 m d) Wt W1) : sProp 𝕄) ⊢ FINV m (G6 m) (G9 m) d := by
  rw [StableHlo.held_sub_split (SparseCore.T d) hTAV (W16 m d (G6 m d) (G9 m d) Wt W1)]
  refine sep_elim_left.trans ?_
  unfold held TAV FINV FIN
  rw [SparseCore.bigSep_insert' (by decide), SparseCore.bigSep_insert' (by decide), SparseCore.bigSep_insert' (by decide),
    SparseCore.bigSep_insert' (by decide), SparseCore.bigSep_insert' (by decide), bigSep_singleton,
    W16_arg0, W16_arg1, W16_arg2, W16_arg3, W16_arg4]
  iintro ⟨H14, H0, H1, H2, H3, H4⟩
  isplitl [H0 H1 H2 H3 H4]
  · isplitl [H0]; · iexact H0
    isplitl [H1]; · iexact H1
    isplitl [H2]; · iexact H2
    isplitl [H3]; · iexact H3
    iexact H4
  iexists Wt, W1
  iexact H14

/-- The launch element deals the value payloads' `x` (nothing) as the frame payloads'. -/
theorem hu₀V : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (PPV m).x q thr) :=
  hu₀ m

/-- What the final memory says, with values. -/
def fqV (d : Dev nD) (s' : Phys nD τ sig (Elt F)) : Prop :=
  fq m d s' ∧ ∃ Wt W1 : Waits sig (HIx 2),
    s'.mem.mem ((SparseCore.T d : Thread nD τ).loc main_v14) = W16 m d (G6 m d) (G9 m d) Wt W1 (r main_v14)

theorem hfinV (d : Dev nD) (s' : Phys nD τ sig (Elt F)) : iprop(FINV m (G6 m) (G9 m) d ∗ SI s') ⊢ (⌜fqV m d s'⌝ : sProp 𝕄) := by
  unfold FINV fqV
  iintro ⟨⟨HF, %Wt, %W1, H14⟩, HSI⟩
  ihave H := (persistent_entails_right (SI_pointsTo_agree (st := s') (ℓ := (SparseCore.T d : Thread nD τ).loc main_v14) (I := Finset.univ) (q := fullShare)
    (f := W16 m d (G6 m d) (G9 m d) Wt W1 (r main_v14)))) $$ [HSI H14]
  · isplitl [HSI] <;> iassumption
  icases H with ⟨%h14, HSI, -⟩
  ihave %hq := (hfin m d s') $$ [HF HSI]
  · isplitl [HF]; · iexact HF
    iexact HSI
  ipureintro
  exact ⟨hq, Wt, W1, funext fun i => h14 i (Finset.mem_univ i)⟩

/-- The value claim's post: the arguments unchanged and the result array at the chain's value. -/
def QCV : PUnit × MemSt nD τ sig (Elt F) → Prop := fun r' => ∀ c : Dev nD,
  (r'.2.mem ((SparseCore.T c : Thread nD τ).loc main_arg0) = m ((SparseCore.T c : Thread nD τ).loc main_arg0)
    ∧ r'.2.mem ((SparseCore.T c : Thread nD τ).loc main_arg1) = m ((SparseCore.T c : Thread nD τ).loc main_arg1)
    ∧ r'.2.mem ((SparseCore.T c : Thread nD τ).loc main_arg2) = m ((SparseCore.T c : Thread nD τ).loc main_arg2)
    ∧ r'.2.mem ((SparseCore.T c : Thread nD τ).loc main_arg3) = m ((SparseCore.T c : Thread nD τ).loc main_arg3)
    ∧ r'.2.mem ((SparseCore.T c : Thread nD τ).loc main_arg4) = m ((SparseCore.T c : Thread nD τ).loc main_arg4))
  ∧ ∃ Wt W1 : Waits sig (HIx 2),
      r'.2.mem ((SparseCore.T c : Thread nD τ).loc main_v14) = W16 m c (G6 m c) (G9 m c) Wt W1 (r main_v14)

/-- The second call's operand fact in the form @main's proof takes. -/
theorem hcall1V_W (d : Dev nD) :
    iprop(((SparseCore.T d : Thread nD τ).loc main_v0 ↦{fullShare} W9 m d (G6 m d) (r main_v0)) ∗ ((SparseCore.T d : Thread nD τ).loc main_v8 ↦{fullShare} W9 m d (G6 m d) (r main_v8))
        ∗ ((SparseCore.T d : Thread nD τ).loc main_v9 ↦{fullShare} W9 m d (G6 m d) (r main_v9)))
      ⊢ (iprop((bigSep Finset.univ fun c : Fin ((K (F := F)).nCore 1) => (PPV m).st 1 d c)
          ∗ ((bigSep Finset.univ fun c : Fin ((K (F := F)).nCore 1) => (PPV m).dn 1 d c)
              -∗ iprop(((SparseCore.T d : Thread nD τ).loc main_v0 ↦{fullShare} W9 m d (G6 m d) (r main_v0)) ∗ ((SparseCore.T d : Thread nD τ).loc main_v8 ↦{fullShare} W9 m d (G6 m d) (r main_v8))
                ∗ ((SparseCore.T d : Thread nD τ).loc main_v9 ↦{fullShare} G9 m d)))) : sProp 𝕄) := by
  rw [W9_v0, W9_v8]
  exact hcall1V m d _

/-- **The run with values**, from the tasks' body obligations with values. -/
theorem run_kernel_val [∀ e, Nonempty (Elt F e)]
    (htileV : ∀ q : Fin 2, (K (F := F)).TileObl (D (F := F)) 𝒱 (PPV m) v₀ q) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PPV m) facts v₀
    (fun q hq => match q, hq with | 0, hq => nomatch hq | 1, hq => nomatch hq)
    (fun q _ => htileV q)
    (fun q _ => SparseCore.Cfg.VecSplit.of_plain (vecSplitV (Tb m) (Iv0 m) (Iv1 m) q))
    m ρ main (fun d => Gd (F := F) d) (FINV m (G6 m) (G9 m)) (u₀ (F := F)) (sep_elim_left.trans (hu₀V m))
    (fun κ d => hmainV m ρ (PPV m) (G6 m) (G9 m) κ d (hcall0V m d) (hcall1V_W m d) (hfinalV m d)) (fqV m) (hfinV m) (QCV m) (fun _ h => h)

end Cert.Proof.ScI

end
-- ==== Proof.ScOutV.lean ====
/-
  What @main's valuation chain holds where the TensorCore regions and the final transpose read: the gathered arrays as the
  calls returned them, the dense features' slices and the bounds as host operations of the arguments, the regions'
  results, and the program's result array.
-/
import proofs.«202673_g7318624272670_cont_9to1c4b_526_24_alg».proof.Proof.ScMainI

noncomputable section

namespace Cert.Proof.ScI

open Cert.KernelIdeal
open Cert.KernelIdeal.Shapes2.Facts₀ Cert.KernelIdeal.Shapes1.Facts₀

open Idealize.ShloMosaic
open Idealize.ShloMosaic.SparseCore (S V T)
open Idealize.ShloMosaic.SparseCore.Cfg (HIx Pay)
open Idealize.SL Idealize.SL.RA

variable {F : FTy → Type} [FloatOps F]

variable (m : (ℓ : Loc nD τ sig) → Buf (Elt F) ℓ)

theorem W11_v6 (d : Dev nD) (f6 f9) :
    W11 m d f6 f9 (r main_v6) = f6 := by
  unfold W11 W9 W6
  show _ = _
  rw [(op8 (F := F)).result_of_not_mem _ (show r main_v6 ∉ ({r main_v10} : Finset (DevRef τ sig)) from by decide),
    Function.update_of_ne (show r main_v6 ≠ r main_v9 from by decide),
    (op7 (F := F)).result_of_not_mem _ (show r main_v6 ∉ ({r main_v8} : Finset (DevRef τ sig)) from by decide),
    (op6 (F := F)).result_of_not_mem _ (show r main_v6 ∉ ({r main_v7} : Finset (DevRef τ sig)) from by decide),
    Function.update_self]

theorem W11_v10 (d : Dev nD) (f6 f9) :
    W11 m d f6 f9 (r main_v10) = extractStridedSlice S13x8192 ![0, 0] (transpose S13x16384 [1, 0] (m ((SparseCore.T d : Thread nD τ).loc main_arg1)) transposes_S16384x13_S13x16384_1_0) slices_S13x16384_S13x8192_0_0 := by
  unfold W11 W9 W6
  show _ = _
  rw [StableHlo.unary_result,
    Function.update_of_ne (show r main_v1 ≠ r main_v9 from by decide),
    (op7 (F := F)).result_of_not_mem _ (show r main_v1 ∉ ({r main_v8} : Finset (DevRef τ sig)) from by decide),
    (op6 (F := F)).result_of_not_mem _ (show r main_v1 ∉ ({r main_v7} : Finset (DevRef τ sig)) from by decide),
    Function.update_of_ne (show r main_v1 ≠ r main_v6 from by decide),
    (op5 (F := F)).result_of_not_mem _ (show r main_v1 ∉ ({r main_v5} : Finset (DevRef τ sig)) from by decide),
    (op4 (F := F)).result_of_not_mem _ (show r main_v1 ∉ ({r main_v4} : Finset (DevRef τ sig)) from by decide),
    (op3 (F := F)).result_of_not_mem _ (show r main_v1 ∉ ({r main_v3} : Finset (DevRef τ sig)) from by decide),
    (op2 (F := F)).result_of_not_mem _ (show r main_v1 ∉ ({r main_v2} : Finset (DevRef τ sig)) from by decide),
    StableHlo.unary_result,
    (op0 (F := F)).result_of_not_mem _ (show r main_arg1 ∉ ({r main_v0} : Finset (DevRef τ sig)) from by decide)]
  rfl

theorem W11_v2 (d : Dev nD) (f6 f9) :
    W11 m d f6 f9 (r main_v2) = shapeCast S13x1 (m ((SparseCore.T d : Thread nD τ).loc main_arg3)) shapeCasts_S13_S13x1 := by
  unfold W11 W9 W6
  show _ = _
  rw [(op8 (F := F)).result_of_not_mem _ (show r main_v2 ∉ ({r main_v10} : Finset (DevRef τ sig)) from by decide),
    Function.update_of_ne (show r main_v2 ≠ r main_v9 from by decide),
    (op7 (F := F)).result_of_not_mem _ (show r main_v2 ∉ ({r main_v8} : Finset (DevRef τ sig)) from by decide),
    (op6 (F := F)).result_of_not_mem _ (show r main_v2 ∉ ({r main_v7} : Finset (DevRef τ sig)) from by decide),
    Function.update_of_ne (show r main_v2 ≠ r main_v6 from by decide),
    (op5 (F := F)).result_of_not_mem _ (show r main_v2 ∉ ({r main_v5} : Finset (DevRef τ sig)) from by decide),
    (op4 (F := F)).result_of_not_mem _ (show r main_v2 ∉ ({r main_v4} : Finset (DevRef τ sig)) from by decide),
    (op3 (F := F)).result_of_not_mem _ (show r main_v2 ∉ ({r main_v3} : Finset (DevRef τ sig)) from by decide),
    StableHlo.reshape_result,
    (op1 (F := F)).result_of_not_mem _ (show r main_arg3 ∉ ({r main_v1} : Finset (DevRef τ sig)) from by decide),
    (op0 (F := F)).result_of_not_mem _ (show r main_arg3 ∉ ({r main_v0} : Finset (DevRef τ sig)) from by decide)]
  rfl

theorem W11_v3 (d : Dev nD) (f6 f9) :
    W11 m d f6 f9 (r main_v3) = shapeCast S13x1 (m ((SparseCore.T d : Thread nD τ).loc main_arg4)) shapeCasts_S13_S13x1 := by
  unfold W11 W9 W6
  show _ = _
  rw [(op8 (F := F)).result_of_not_mem _ (show r main_v3 ∉ ({r main_v10} : Finset (DevRef τ sig)) from by decide),
    Function.update_of_ne (show r main_v3 ≠ r main_v9 from by decide),
    (op7 (F := F)).result_of_not_mem _ (show r main_v3 ∉ ({r main_v8} : Finset (DevRef τ sig)) from by decide),
    (op6 (F := F)).result_of_not_mem _ (show r main_v3 ∉ ({r main_v7} : Finset (DevRef τ sig)) from by decide),
    Function.update_of_ne (show r main_v3 ≠ r main_v6 from by decide),
    (op5 (F := F)).result_of_not_mem _ (show r main_v3 ∉ ({r main_v5} : Finset (DevRef τ sig)) from by decide),
    (op4 (F := F)).result_of_not_mem _ (show r main_v3 ∉ ({r main_v4} : Finset (DevRef τ sig)) from by decide),
    StableHlo.reshape_result,
    (op2 (F := F)).result_of_not_mem _ (show r main_arg4 ∉ ({r main_v2} : Finset (DevRef τ sig)) from by decide),
    (op1 (F := F)).result_of_not_mem _ (show r main_arg4 ∉ ({r main_v1} : Finset (DevRef τ sig)) from by decide),
    (op0 (F := F)).result_of_not_mem _ (show r main_arg4 ∉ ({r main_v0} : Finset (DevRef τ sig)) from by decide)]
  rfl

theorem W14_v9 (d : Dev nD) (f6 f9) (Wt : Waits sig (HIx 2)) :
    W14 m d f6 f9 Wt (r main_v9) = f9 := by
  unfold W14 W11 W9 W6
  show _ = _
  rw [(op10 (F := F)).result_of_not_mem _ (show r main_v9 ∉ ({r main_v13} : Finset (DevRef τ sig)) from by decide),
    (op9 (F := F)).result_of_not_mem _ (show r main_v9 ∉ ({r main_v12} : Finset (DevRef τ sig)) from by decide),
    Function.update_of_ne (show r main_v9 ≠ r main_v11 from by decide),
    (op8 (F := F)).result_of_not_mem _ (show r main_v9 ∉ ({r main_v10} : Finset (DevRef τ sig)) from by decide),
    Function.update_self]

theorem W14_v12 (d : Dev nD) (f6 f9) (Wt : Waits sig (HIx 2)) :
    W14 m d f6 f9 Wt (r main_v12) = extractStridedSlice S13x8192 ![0, 8192] (transpose S13x16384 [1, 0] (m ((SparseCore.T d : Thread nD τ).loc main_arg1)) transposes_S16384x13_S13x16384_1_0) slices_S13x16384_S13x8192_0_8192 := by
  unfold W14 W11 W9 W6
  show _ = _
  rw [(op10 (F := F)).result_of_not_mem _ (show r main_v12 ∉ ({r main_v13} : Finset (DevRef τ sig)) from by decide),
    StableHlo.unary_result,
    Function.update_of_ne (show r main_v1 ≠ r main_v11 from by decide),
    (op8 (F := F)).result_of_not_mem _ (show r main_v1 ∉ ({r main_v10} : Finset (DevRef τ sig)) from by decide),
    Function.update_of_ne (show r main_v1 ≠ r main_v9 from by decide),
    (op7 (F := F)).result_of_not_mem _ (show r main_v1 ∉ ({r main_v8} : Finset (DevRef τ sig)) from by decide),
    (op6 (F := F)).result_of_not_mem _ (show r main_v1 ∉ ({r main_v7} : Finset (DevRef τ sig)) from by decide),
    Function.update_of_ne (show r main_v1 ≠ r main_v6 from by decide),
    (op5 (F := F)).result_of_not_mem _ (show r main_v1 ∉ ({r main_v5} : Finset (DevRef τ sig)) from by decide),
    (op4 (F := F)).result_of_not_mem _ (show r main_v1 ∉ ({r main_v4} : Finset (DevRef τ sig)) from by decide),
    (op3 (F := F)).result_of_not_mem _ (show r main_v1 ∉ ({r main_v3} : Finset (DevRef τ sig)) from by decide),
    (op2 (F := F)).result_of_not_mem _ (show r main_v1 ∉ ({r main_v2} : Finset (DevRef τ sig)) from by decide),
    StableHlo.unary_result,
    (op0 (F := F)).result_of_not_mem _ (show r main_arg1 ∉ ({r main_v0} : Finset (DevRef τ sig)) from by decide)]
  rfl

theorem W14_v2 (d : Dev nD) (f6 f9) (Wt : Waits sig (HIx 2)) :
    W14 m d f6 f9 Wt (r main_v2) = shapeCast S13x1 (m ((SparseCore.T d : Thread nD τ).loc main_arg3)) shapeCasts_S13_S13x1 := by
  unfold W14 W11 W9 W6
  show _ = _
  rw [(op10 (F := F)).result_of_not_mem _ (show r main_v2 ∉ ({r main_v13} : Finset (DevRef τ sig)) from by decide),
    (op9 (F := F)).result_of_not_mem _ (show r main_v2 ∉ ({r main_v12} : Finset (DevRef τ sig)) from by decide),
    Function.update_of_ne (show r main_v2 ≠ r main_v11 from by decide),
    (op8 (F := F)).result_of_not_mem _ (show r main_v2 ∉ ({r main_v10} : Finset (DevRef τ sig)) from by decide),
    Function.update_of_ne (show r main_v2 ≠ r main_v9 from by decide),
    (op7 (F := F)).result_of_not_mem _ (show r main_v2 ∉ ({r main_v8} : Finset (DevRef τ sig)) from by decide),
    (op6 (F := F)).result_of_not_mem _ (show r main_v2 ∉ ({r main_v7} : Finset (DevRef τ sig)) from by decide),
    Function.update_of_ne (show r main_v2 ≠ r main_v6 from by decide),
    (op5 (F := F)).result_of_not_mem _ (show r main_v2 ∉ ({r main_v5} : Finset (DevRef τ sig)) from by decide),
    (op4 (F := F)).result_of_not_mem _ (show r main_v2 ∉ ({r main_v4} : Finset (DevRef τ sig)) from by decide),
    (op3 (F := F)).result_of_not_mem _ (show r main_v2 ∉ ({r main_v3} : Finset (DevRef τ sig)) from by decide),
    StableHlo.reshape_result,
    (op1 (F := F)).result_of_not_mem _ (show r main_arg3 ∉ ({r main_v1} : Finset (DevRef τ sig)) from by decide),
    (op0 (F := F)).result_of_not_mem _ (show r main_arg3 ∉ ({r main_v0} : Finset (DevRef τ sig)) from by decide)]
  rfl

theorem W14_v3 (d : Dev nD) (f6 f9) (Wt : Waits sig (HIx 2)) :
    W14 m d f6 f9 Wt (r main_v3) = shapeCast S13x1 (m ((SparseCore.T d : Thread nD τ).loc main_arg4)) shapeCasts_S13_S13x1 := by
  unfold W14 W11 W9 W6
  show _ = _
  rw [(op10 (F := F)).result_of_not_mem _ (show r main_v3 ∉ ({r main_v13} : Finset (DevRef τ sig)) from by decide),
    (op9 (F := F)).result_of_not_mem _ (show r main_v3 ∉ ({r main_v12} : Finset (DevRef τ sig)) from by decide),
    Function.update_of_ne (show r main_v3 ≠ r main_v11 from by decide),
    (op8 (F := F)).result_of_not_mem _ (show r main_v3 ∉ ({r main_v10} : Finset (DevRef τ sig)) from by decide),
    Function.update_of_ne (show r main_v3 ≠ r main_v9 from by decide),
    (op7 (F := F)).result_of_not_mem _ (show r main_v3 ∉ ({r main_v8} : Finset (DevRef τ sig)) from by decide),
    (op6 (F := F)).result_of_not_mem _ (show r main_v3 ∉ ({r main_v7} : Finset (DevRef τ sig)) from by decide),
    Function.update_of_ne (show r main_v3 ≠ r main_v6 from by decide),
    (op5 (F := F)).result_of_not_mem _ (show r main_v3 ∉ ({r main_v5} : Finset (DevRef τ sig)) from by decide),
    (op4 (F := F)).result_of_not_mem _ (show r main_v3 ∉ ({r main_v4} : Finset (DevRef τ sig)) from by decide),
    StableHlo.reshape_result,
    (op2 (F := F)).result_of_not_mem _ (show r main_arg4 ∉ ({r main_v2} : Finset (DevRef τ sig)) from by decide),
    (op1 (F := F)).result_of_not_mem _ (show r main_arg4 ∉ ({r main_v1} : Finset (DevRef τ sig)) from by decide),
    (op0 (F := F)).result_of_not_mem _ (show r main_arg4 ∉ ({r main_v0} : Finset (DevRef τ sig)) from by decide)]
  rfl

theorem W14_v13 (d : Dev nD) (f6 f9) (Wt : Waits sig (HIx 2)) :
    W14 m d f6 f9 Wt (r main_v13) = (D2 (W11 m d f6 f9) Wt d).arrAt 4 cfg2.N := by
  unfold W14 W11 W9 W6
  show _ = _
  rw [StableHlo.unary_result,
    (op9 (F := F)).result_of_not_mem _ (show r main_v11 ∉ ({r main_v12} : Finset (DevRef τ sig)) from by decide),
    Function.update_self]
  rfl

theorem W16_v14 (d : Dev nD) (f6 f9) (Wt W1 : Waits sig (HIx 2)) :
    W16 m d f6 f9 Wt W1 (r main_v14) = transpose S16384x3341 [1, 0] ((D3 (W14 m d f6 f9 Wt) W1 d).arrAt 4 cfg3.N) transposes_S3341x16384_S16384x3341_1_0 := by
  unfold W16
  show _ = _
  rw [StableHlo.unary_result,
    Function.update_self]

end Cert.Proof.ScI

end
-- ==== Proof.TcField.lean ====
/-
  One embedding field's payload of the two TensorCore kernel bodies, read at an index.  The body stacks the field's 64 row
  groups (8 × 128 each; group n of field f sits at rows (26 n + f) · 8 … of the staged 13312 × 128 block) along the rows and
  transposes the 512 × 128 stack: at (dd, s) the result reads the block's row (26 (s / 8) + f) · 8 + s % 8 at column dd.
-/
import Idealize.ShloMosaic.Lib.Pipeline.Value
import Idealize.ShloMosaic.Lib.ValueLayout
import Idealize.ShloMosaic.Lib.ValueIdx
import Idealize.ShloMosaic.Lib.Pipeline.FrameBody

noncomputable section

namespace Cert.Proof.TcField

open Idealize.ShloMosaic Idealize.ShloMosaic.ValueIdx

variable {Val : EltTy → Type} {e : EltTy}

abbrev Srows : Shape := ⟨2, ![13312, 128]⟩
abbrev Sgrp : Shape := ⟨2, ![8, 128]⟩
abbrev Sstk : Shape := ⟨2, ![512, 128]⟩
abbrev Strn : Shape := ⟨2, ![128, 512]⟩

/-- Row group `n` of field `fld` lies inside the staged block of gathered rows. -/
theorem grp_inb (fld : Fin 26) (n : Fin 64) :
    ∀ a, (![(26 * n.val + fld.val) * 8, 0] : Fin 2 → Nat) a + Sgrp.size a ≤ Srows.size a := by
  intro a
  have hn := n.isLt; have hf := fld.isLt
  match a with
  | ⟨0, _⟩ => show (26 * n.val + fld.val) * 8 + 8 ≤ 13312; omega
  | ⟨1, _⟩ => show 0 + 128 ≤ 128; omega

/-- Row group `n` of field `fld`: rows `(26 n + fld) · 8 …` of the block, all 128 columns. -/
abbrev grp (fld : Fin 26) (n : Fin 64) : Rect Srows := Rect.unit (s := Srows) ![(26 * n.val + fld.val) * 8, 0] Sgrp.size (grp_inb fld n)

/-- One field's payload read at an index: the 64 row groups of the field stacked along the rows and transposed read, at
    `(dd, s)`, the block's row `(26 (s / 8) + fld) · 8 + s % 8` at column `dd`. -/
theorem field_apply (x : Srows.Idx → Val e) (fld : Fin 26)
    (xs : List ((s : Shape) × (s.Idx → Val e)))
    (hxs : xs = List.ofFn fun n : Fin 64 => (⟨Sgrp, View.ld x (grp fld n)⟩ : (s : Shape) × (s.Idx → Val e)))
    (hc : Shape.Concatenates (xs.map (·.1)) Sstk 0) (ht : Sstk.Transposes [1, 0] Strn) (dd : Fin 128) (s : Fin 512) :
    transpose Strn [1, 0] (concatenate Sstk 0 xs hc) ht (ix2 dd s)
      = x (ix2 ⟨(26 * (s.val / 8) + fld.val) * 8 + s.val % 8, by have := s.isLt; have := fld.isLt; omega⟩ dd) := by
  subst hxs
  rw [transpose_ix2_apply]
  have hs := s.isLt
  rw [concatenate_ofFn_apply (t := Sstk) (s₁ := Sgrp) (0 : Fin 2) (fun n : Fin 64 => View.ld x (grp fld n)) hc rfl 8 rfl (ix2 s dd)
    ⟨s.val / 8, by omega⟩ rfl (ix2 ⟨s.val % 8, Nat.mod_lt _ (by omega)⟩ dd) rfl
    (fun b hb => by match b with | ⟨0, _⟩ => exact absurd rfl hb | ⟨1, _⟩ => rfl)]
  show x ((grp fld ⟨s.val / 8, _⟩).idx (ix2 ⟨s.val % 8, _⟩ dd)) = _
  refine congrArg x (funext fun a => Fin.ext ?_)
  match a with
  | ⟨0, _⟩ => show (26 * (s.val / 8) + fld.val) * 8 + 1 * (s.val % 8) = _; simp
  | ⟨1, _⟩ => show 0 + 1 * dd.val = dd.val; simp

/-- The same over ANY 64 row groups `f n` that read the block's rows `(26 n + fld) · 8 + u` (`hf`): how a body's loaded and
    re-cast row groups enter. -/
theorem field_apply_gen (x : Srows.Idx → Val e) (fld : Fin 26) (f : Fin 64 → Sgrp.Idx → Val e)
    (hf : ∀ (n : Fin 64) (u : Fin 8) (dd : Fin 128), f n (ix2 u dd)
      = x (ix2 ⟨(26 * n.val + fld.val) * 8 + u.val, by have := n.isLt; have := fld.isLt; have := u.isLt; omega⟩ dd))
    (xs : List ((s : Shape) × (s.Idx → Val e)))
    (hxs : xs = List.ofFn fun n : Fin 64 => (⟨Sgrp, f n⟩ : (s : Shape) × (s.Idx → Val e)))
    (hc : Shape.Concatenates (xs.map (·.1)) Sstk 0) (ht : Sstk.Transposes [1, 0] Strn) (dd : Fin 128) (s : Fin 512) :
    transpose Strn [1, 0] (concatenate Sstk 0 xs hc) ht (ix2 dd s)
      = x (ix2 ⟨(26 * (s.val / 8) + fld.val) * 8 + s.val % 8, by have := s.isLt; have := fld.isLt; omega⟩ dd) := by
  subst hxs
  rw [transpose_ix2_apply]
  have hs := s.isLt
  rw [concatenate_ofFn_apply (t := Sstk) (s₁ := Sgrp) (0 : Fin 2) f hc rfl 8 rfl (ix2 s dd)
    ⟨s.val / 8, by omega⟩ rfl (ix2 ⟨s.val % 8, Nat.mod_lt _ (by omega)⟩ dd) rfl
    (fun b hb => by match b with | ⟨0, _⟩ => exact absurd rfl hb | ⟨1, _⟩ => rfl)]
  exact hf _ _ _

end Cert.Proof.TcField

end
-- ==== Proof.TcValue2.lean ====
/-
  What the first TensorCore kernel body leaves in its output block, index by index (`G2`), read off the piece list the body's run
  found: one payload lemma per embedding field (the field's 64 loaded row groups stacked and transposed), then the stores
  taken in order, each agreeing with `G2` on the rows stored so far.
-/
import proofs.«202673_g7318624272670_cont_9to1c4b_526_24_alg».proof.Proof.TcOblig2
import proofs.«202673_g7318624272670_cont_9to1c4b_526_24_alg».proof.Proof.TcField
import Idealize.ShloMosaic.Lib.Pipeline.Value
import Idealize.ShloMosaic.Lib.ValueIdx

noncomputable section

namespace Cert.Proof.Tc2

open Cert.KernelIdeal Cert.KernelIdeal.Gen

open Idealize.ShloMosaic Idealize.ShloMosaic.ValueIdx
open Idealize.ShloMosaic.TcCoe Idealize.ShloMosaic.Tactic
open Idealize.SL Idealize.SL.RA
open Idealize.ShloMosaic.SparseCore.Cfg (HIx)
open Cert.Proof.TcField (field_apply field_apply_gen grp)

variable {F : FTy → Type} [FloatOps F]
variable {U : Type} [URA U]

/-- The output block after the body, index by index, from what the four input memrefs read: rows `128 f + dd` (`f < 26`) hold
    the gathered rows' block transposed field by field; rows `3328 + k` the scaled dense features (the program's own
    payload `k2_pay3`: `(x2 − x3) / (x4 − x3)`, the two bounds broadcast along the columns). -/
def G2 (x1 : Vec F S13312x128 .f32) (x2 : Vec F S13x512 .f32) (x3 : Vec F S13x1 .f32) (x4 : Vec F S13x1 .f32) : Vec F S3341x512 .f32 := fun y =>
  if h : (y 0).val < 3328 then
    x1 (ix2 ⟨(26 * ((y 1).val / 8) + (y 0).val / 128) * 8 + (y 1).val % 8, by have := idx2_lt1 y; omega⟩ ⟨(y 0).val % 128, Nat.mod_lt _ (by omega)⟩)
  else
    k2_pay3 x3 x4 x2 (ix2 ⟨(y 0).val - 3328, by have := idx2_lt0 y; omega⟩ (y 1))

theorem G2_field (x1 : Vec F S13312x128 .f32) (x2 x3 x4) (y : S3341x512.Idx) (h : (y 0).val < 3328) :
    G2 x1 x2 x3 x4 y = x1 (ix2 ⟨(26 * ((y 1).val / 8) + (y 0).val / 128) * 8 + (y 1).val % 8, by have := idx2_lt1 y; omega⟩ ⟨(y 0).val % 128, Nat.mod_lt _ (by omega)⟩) := by
  unfold G2; rw [dif_pos h]

variable (c : Dev nD) (M1 : Memref sig .tc .vmem S13312x128 .f32) (h1 : M1.IsWhole) (M2 : Memref sig .tc .vmem S13x512 .f32) (h2 : M2.IsWhole)
  (M3 : Memref sig .tc .vmem S13x1 .f32) (h3 : M3.IsWhole) (M4 : Memref sig .tc .vmem S13x1 .f32) (h4 : M4.IsWhole)
  (x1 : Vec F S13312x128 .f32) (x2 : Vec F S13x512 .f32) (x3 : Vec F S13x1 .f32) (x4 : Vec F S13x1 .f32)

/-- A loaded row group, re-cast to its own shape, reads the block's rows it was loaded from. -/
theorem grp_read (fld : Fin 26) (n : Fin 64) (u : Fin 8) (dd : Fin 128) :
    shapeCast S8x128 (View.readAt (Elt F) M1.view (grp fld n).toLoadRect (h1.unread x1)) shapeCasts_S8x128_S8x128 (ix2 u dd)
      = x1 (ix2 ⟨(26 * n.val + fld.val) * 8 + u.val, by have := n.isLt; have := fld.isLt; have := u.isLt; omega⟩ dd) := by
  rw [show shapeCast S8x128 (View.readAt (Elt F) M1.view (grp fld n).toLoadRect (h1.unread x1)) shapeCasts_S8x128_S8x128
      = shapeCast S8x128 (fun i : S8x128.Idx => View.readAt (Elt F) M1.view (grp fld n).toLoadRect (h1.unread x1) i) shapeCasts_S8x128_S8x128 from rfl,
    shapeCast_self]
  show View.ld (M1.view.read (Elt F) (h1.unread x1)) (grp fld n) (ix2 u dd) = _
  rw [h1.read_unread]
  show x1 ((grp fld n).idx (ix2 u dd)) = _
  refine congrArg x1 (funext fun a => Fin.ext ?_)
  match a with
  | ⟨0, _⟩ => show (26 * n.val + fld.val) * 8 + 1 * u.val = _; simp
  | ⟨1, _⟩ => show 0 + 1 * dd.val = dd.val; simp

/-- `G2` under field `k`'s store rectangle, at the rectangle's local index. -/
theorem G2_emb (k : Nat) (hk : k < 26) (inb) (x : S128x512.Idx) :
    G2 x1 x2 x3 x4 ((Rect.unit (s := S3341x512) ![128 * k, 0] S128x512.size inb).emb x)
      = x1 (ix2 ⟨(26 * ((x 1).val / 8) + k) * 8 + (x 1).val % 8, by have := idx2_lt1 x; omega⟩ (x 0)) := by
  have e0 : (((Rect.unit (s := S3341x512) ![128 * k, 0] S128x512.size inb).emb x) 0).val = 128 * k + 1 * (x 0).val := rfl
  have e1 : (((Rect.unit (s := S3341x512) ![128 * k, 0] S128x512.size inb).emb x) 1).val = 0 + 1 * (x 1).val := rfl
  have l0 := idx2_lt0 x
  have l1 := idx2_lt1 x
  rw [G2_field _ _ _ _ _ (by rw [e0]; omega)]
  refine congrArg x1 (funext fun a => ?_)
  match a with
  | ⟨0, _⟩ =>
    refine Fin.ext ?_
    show (26 * ((((Rect.unit (s := S3341x512) ![128 * k, 0] S128x512.size inb).emb x) 1).val / 8)
        + (((Rect.unit (s := S3341x512) ![128 * k, 0] S128x512.size inb).emb x) 0).val / 128) * 8
        + (((Rect.unit (s := S3341x512) ![128 * k, 0] S128x512.size inb).emb x) 1).val % 8
      = (26 * ((x 1).val / 8) + k) * 8 + (x 1).val % 8
    rw [e0, e1]; omega
  | ⟨1, _⟩ =>
    refine Fin.ext ?_
    show (((Rect.unit (s := S3341x512) ![128 * k, 0] S128x512.size inb).emb x) 0).val % 128 = (x 0).val
    rw [e0]; omega

/-- One more field's store on top of the earlier ones: the canon agrees with `G` on the rows stored so far. -/
theorem canon_step (k : Nat) (inb) (w : S128x512.Idx → Elt F .f32) (L : List (View.Piece (Elt F) S3341x512 .f32))
    (G : Vec F S3341x512 .f32)
    (hw : ∀ x, w x = G ((Rect.unit (s := S3341x512) ![128 * k, 0] S128x512.size inb).emb x))
    (hL : ∀ y : S3341x512.Idx, (y 0).val < 128 * k → View.canon L y = G y) :
    ∀ y : S3341x512.Idx, (y 0).val < 128 * (k + 1) →
      View.canon ((⟨Rect.unit (s := S3341x512) ![128 * k, 0] S128x512.size inb, w⟩ : View.Piece (Elt F) S3341x512 .f32) :: L) y = G y := by
  intro y hy
  by_cases hm : 128 * k ≤ (y 0).val
  · have hmem : y ∈ (Rect.unit (s := S3341x512) ![128 * k, 0] S128x512.size inb).set :=
      Rect.mem_set_unit.mpr fun a => match a with
        | ⟨0, _⟩ => ⟨hm, by show (y 0).val < 128 * k + 128; omega⟩
        | ⟨1, _⟩ => ⟨Nat.zero_le _, by show (y 1).val < 0 + 512; have := idx2_lt1 y; omega⟩
    obtain ⟨x, rfl⟩ := (Rect.unit (s := S3341x512) ![128 * k, 0] S128x512.size inb).exists_idx_of_mem hmem
    exact (View.canon_cons_emb (Rect.unit (s := S3341x512) ![128 * k, 0] S128x512.size inb) w L x).trans (hw x)
  · have hnot : y ∉ (Rect.unit (s := S3341x512) ![128 * k, 0] S128x512.size inb).set :=
      fun hmem => hm ((Rect.mem_set_unit.mp hmem) (0 : Fin 2)).1
    exact (View.canon_cons_of_not_mem ⟨Rect.unit (s := S3341x512) ![128 * k, 0] S128x512.size inb, w⟩ L hnot).trans (hL y (by omega))

set_option maxHeartbeats 1000000 in
/-- Field 0's payload at a local index. -/
theorem pay_0 (x : S128x512.Idx) :
    bodyRun.sl.v129 (F := F) c M1 (h1.unread x1) x
      = x1 (ix2 ⟨(26 * ((x 1).val / 8) + 0) * 8 + (x 1).val % 8, by have := idx2_lt1 x; omega⟩ (x 0)) := by
  sl_unfold_run_names
  rw [eq_ix2 x]
  exact field_apply_gen x1 ⟨0, by decide⟩
    (fun n => shapeCast S8x128 (View.readAt (Elt F) M1.view (grp ⟨0, by decide⟩ n).toLoadRect (h1.unread x1)) shapeCasts_S8x128_S8x128)
    (grp_read M1 h1 x1 ⟨0, by decide⟩) _ rfl _ _ (x 0) (x 1)

set_option maxHeartbeats 1000000 in
/-- Field 1's payload at a local index. -/
theorem pay_1 (x : S128x512.Idx) :
    bodyRun.sl.v260 (F := F) c M1 (h1.unread x1) x
      = x1 (ix2 ⟨(26 * ((x 1).val / 8) + 1) * 8 + (x 1).val % 8, by have := idx2_lt1 x; omega⟩ (x 0)) := by
  sl_unfold_run_names
  rw [eq_ix2 x]
  exact field_apply_gen x1 ⟨1, by decide⟩
    (fun n => shapeCast S8x128 (View.readAt (Elt F) M1.view (grp ⟨1, by decide⟩ n).toLoadRect (h1.unread x1)) shapeCasts_S8x128_S8x128)
    (grp_read M1 h1 x1 ⟨1, by decide⟩) _ rfl _ _ (x 0) (x 1)

set_option maxHeartbeats 1000000 in
/-- Field 2's payload at a local index. -/
theorem pay_2 (x : S128x512.Idx) :
    bodyRun.sl.v391 (F := F) c M1 (h1.unread x1) x
      = x1 (ix2 ⟨(26 * ((x 1).val / 8) + 2) * 8 + (x 1).val % 8, by have := idx2_lt1 x; omega⟩ (x 0)) := by
  sl_unfold_run_names
  rw [eq_ix2 x]
  exact field_apply_gen x1 ⟨2, by decide⟩
    (fun n => shapeCast S8x128 (View.readAt (Elt F) M1.view (grp ⟨2, by decide⟩ n).toLoadRect (h1.unread x1)) shapeCasts_S8x128_S8x128)
    (grp_read M1 h1 x1 ⟨2, by decide⟩) _ rfl _ _ (x 0) (x 1)

set_option maxHeartbeats 1000000 in
/-- Field 3's payload at a local index. -/
theorem pay_3 (x : S128x512.Idx) :
    bodyRun.sl.v522 (F := F) c M1 (h1.unread x1) x
      = x1 (ix2 ⟨(26 * ((x 1).val / 8) + 3) * 8 + (x 1).val % 8, by have := idx2_lt1 x; omega⟩ (x 0)) := by
  sl_unfold_run_names
  rw [eq_ix2 x]
  exact field_apply_gen x1 ⟨3, by decide⟩
    (fun n => shapeCast S8x128 (View.readAt (Elt F) M1.view (grp ⟨3, by decide⟩ n).toLoadRect (h1.unread x1)) shapeCasts_S8x128_S8x128)
    (grp_read M1 h1 x1 ⟨3, by decide⟩) _ rfl _ _ (x 0) (x 1)

set_option maxHeartbeats 1000000 in
/-- Field 4's payload at a local index. -/
theorem pay_4 (x : S128x512.Idx) :
    bodyRun.sl.v653 (F := F) c M1 (h1.unread x1) x
      = x1 (ix2 ⟨(26 * ((x 1).val / 8) + 4) * 8 + (x 1).val % 8, by have := idx2_lt1 x; omega⟩ (x 0)) := by
  sl_unfold_run_names
  rw [eq_ix2 x]
  exact field_apply_gen x1 ⟨4, by decide⟩
    (fun n => shapeCast S8x128 (View.readAt (Elt F) M1.view (grp ⟨4, by decide⟩ n).toLoadRect (h1.unread x1)) shapeCasts_S8x128_S8x128)
    (grp_read M1 h1 x1 ⟨4, by decide⟩) _ rfl _ _ (x 0) (x 1)

set_option maxHeartbeats 1000000 in
/-- Field 5's payload at a local index. -/
theorem pay_5 (x : S128x512.Idx) :
    bodyRun.sl.v784 (F := F) c M1 (h1.unread x1) x
      = x1 (ix2 ⟨(26 * ((x 1).val / 8) + 5) * 8 + (x 1).val % 8, by have := idx2_lt1 x; omega⟩ (x 0)) := by
  sl_unfold_run_names
  rw [eq_ix2 x]
  exact field_apply_gen x1 ⟨5, by decide⟩
    (fun n => shapeCast S8x128 (View.readAt (Elt F) M1.view (grp ⟨5, by decide⟩ n).toLoadRect (h1.unread x1)) shapeCasts_S8x128_S8x128)
    (grp_read M1 h1 x1 ⟨5, by decide⟩) _ rfl _ _ (x 0) (x 1)

set_option maxHeartbeats 1000000 in
/-- Field 6's payload at a local index. -/
theorem pay_6 (x : S128x512.Idx) :
    bodyRun.sl.v915 (F := F) c M1 (h1.unread x1) x
      = x1 (ix2 ⟨(26 * ((x 1).val / 8) + 6) * 8 + (x 1).val % 8, by have := idx2_lt1 x; omega⟩ (x 0)) := by
  sl_unfold_run_names
  rw [eq_ix2 x]
  exact field_apply_gen x1 ⟨6, by decide⟩
    (fun n => shapeCast S8x128 (View.readAt (Elt F) M1.view (grp ⟨6, by decide⟩ n).toLoadRect (h1.unread x1)) shapeCasts_S8x128_S8x128)
    (grp_read M1 h1 x1 ⟨6, by decide⟩) _ rfl _ _ (x 0) (x 1)

set_option maxHeartbeats 1000000 in
/-- Field 7's payload at a local index. -/
theorem pay_7 (x : S128x512.Idx) :
    bodyRun.sl.v1046 (F := F) c M1 (h1.unread x1) x
      = x1 (ix2 ⟨(26 * ((x 1).val / 8) + 7) * 8 + (x 1).val % 8, by have := idx2_lt1 x; omega⟩ (x 0)) := by
  sl_unfold_run_names
  rw [eq_ix2 x]
  exact field_apply_gen x1 ⟨7, by decide⟩
    (fun n => shapeCast S8x128 (View.readAt (Elt F) M1.view (grp ⟨7, by decide⟩ n).toLoadRect (h1.unread x1)) shapeCasts_S8x128_S8x128)
    (grp_read M1 h1 x1 ⟨7, by decide⟩) _ rfl _ _ (x 0) (x 1)

set_option maxHeartbeats 1000000 in
/-- Field 8's payload at a local index. -/
theorem pay_8 (x : S128x512.Idx) :
    bodyRun.sl.v1177 (F := F) c M1 (h1.unread x1) x
      = x1 (ix2 ⟨(26 * ((x 1).val / 8) + 8) * 8 + (x 1).val % 8, by have := idx2_lt1 x; omega⟩ (x 0)) := by
  sl_unfold_run_names
  rw [eq_ix2 x]
  exact field_apply_gen x1 ⟨8, by decide⟩
    (fun n => shapeCast S8x128 (View.readAt (Elt F) M1.view (grp ⟨8, by decide⟩ n).toLoadRect (h1.unread x1)) shapeCasts_S8x128_S8x128)
    (grp_read M1 h1 x1 ⟨8, by decide⟩) _ rfl _ _ (x 0) (x 1)

set_option maxHeartbeats 1000000 in
/-- Field 9's payload at a local index. -/
theorem pay_9 (x : S128x512.Idx) :
    bodyRun.sl.v1308 (F := F) c M1 (h1.unread x1) x
      = x1 (ix2 ⟨(26 * ((x 1).val / 8) + 9) * 8 + (x 1).val % 8, by have := idx2_lt1 x; omega⟩ (x 0)) := by
  sl_unfold_run_names
  rw [eq_ix2 x]
  exact field_apply_gen x1 ⟨9, by decide⟩
    (fun n => shapeCast S8x128 (View.readAt (Elt F) M1.view (grp ⟨9, by decide⟩ n).toLoadRect (h1.unread x1)) shapeCasts_S8x128_S8x128)
    (grp_read M1 h1 x1 ⟨9, by decide⟩) _ rfl _ _ (x 0) (x 1)

set_option maxHeartbeats 1000000 in
/-- Field 10's payload at a local index. -/
theorem pay_10 (x : S128x512.Idx) :
    bodyRun.sl.v1439 (F := F) c M1 (h1.unread x1) x
      = x1 (ix2 ⟨(26 * ((x 1).val / 8) + 10) * 8 + (x 1).val % 8, by have := idx2_lt1 x; omega⟩ (x 0)) := by
  sl_unfold_run_names
  rw [eq_ix2 x]
  exact field_apply_gen x1 ⟨10, by decide⟩
    (fun n => shapeCast S8x128 (View.readAt (Elt F) M1.view (grp ⟨10, by decide⟩ n).toLoadRect (h1.unread x1)) shapeCasts_S8x128_S8x128)
    (grp_read M1 h1 x1 ⟨10, by decide⟩) _ rfl _ _ (x 0) (x 1)

set_option maxHeartbeats 1000000 in
/-- Field 11's payload at a local index. -/
theorem pay_11 (x : S128x512.Idx) :
    bodyRun.sl.v1570 (F := F) c M1 (h1.unread x1) x
      = x1 (ix2 ⟨(26 * ((x 1).val / 8) + 11) * 8 + (x 1).val % 8, by have := idx2_lt1 x; omega⟩ (x 0)) := by
  sl_unfold_run_names
  rw [eq_ix2 x]
  exact field_apply_gen x1 ⟨11, by decide⟩
    (fun n => shapeCast S8x128 (View.readAt (Elt F) M1.view (grp ⟨11, by decide⟩ n).toLoadRect (h1.unread x1)) shapeCasts_S8x128_S8x128)
    (grp_read M1 h1 x1 ⟨11, by decide⟩) _ rfl _ _ (x 0) (x 1)

set_option maxHeartbeats 1000000 in
/-- Field 12's payload at a local index. -/
theorem pay_12 (x : S128x512.Idx) :
    bodyRun.sl.v1701 (F := F) c M1 (h1.unread x1) x
      = x1 (ix2 ⟨(26 * ((x 1).val / 8) + 12) * 8 + (x 1).val % 8, by have := idx2_lt1 x; omega⟩ (x 0)) := by
  sl_unfold_run_names
  rw [eq_ix2 x]
  exact field_apply_gen x1 ⟨12, by decide⟩
    (fun n => shapeCast S8x128 (View.readAt (Elt F) M1.view (grp ⟨12, by decide⟩ n).toLoadRect (h1.unread x1)) shapeCasts_S8x128_S8x128)
    (grp_read M1 h1 x1 ⟨12, by decide⟩) _ rfl _ _ (x 0) (x 1)

set_option maxHeartbeats 1000000 in
/-- Field 13's payload at a local index. -/
theorem pay_13 (x : S128x512.Idx) :
    bodyRun.sl.v1832 (F := F) c M1 (h1.unread x1) x
      = x1 (ix2 ⟨(26 * ((x 1).val / 8) + 13) * 8 + (x 1).val % 8, by have := idx2_lt1 x; omega⟩ (x 0)) := by
  sl_unfold_run_names
  rw [eq_ix2 x]
  exact field_apply_gen x1 ⟨13, by decide⟩
    (fun n => shapeCast S8x128 (View.readAt (Elt F) M1.view (grp ⟨13, by decide⟩ n).toLoadRect (h1.unread x1)) shapeCasts_S8x128_S8x128)
    (grp_read M1 h1 x1 ⟨13, by decide⟩) _ rfl _ _ (x 0) (x 1)

set_option maxHeartbeats 1000000 in
/-- Field 14's payload at a local index. -/
theorem pay_14 (x : S128x512.Idx) :
    bodyRun.sl.v1963 (F := F) c M1 (h1.unread x1) x
      = x1 (ix2 ⟨(26 * ((x 1).val / 8) + 14) * 8 + (x 1).val % 8, by have := idx2_lt1 x; omega⟩ (x 0)) := by
  sl_unfold_run_names
  rw [eq_ix2 x]
  exact field_apply_gen x1 ⟨14, by decide⟩
    (fun n => shapeCast S8x128 (View.readAt (Elt F) M1.view (grp ⟨14, by decide⟩ n).toLoadRect (h1.unread x1)) shapeCasts_S8x128_S8x128)
    (grp_read M1 h1 x1 ⟨14, by decide⟩) _ rfl _ _ (x 0) (x 1)

set_option maxHeartbeats 1000000 in
/-- Field 15's payload at a local index. -/
theorem pay_15 (x : S128x512.Idx) :
    bodyRun.sl.v2094 (F := F) c M1 (h1.unread x1) x
      = x1 (ix2 ⟨(26 * ((x 1).val / 8) + 15) * 8 + (x 1).val % 8, by have := idx2_lt1 x; omega⟩ (x 0)) := by
  sl_unfold_run_names
  rw [eq_ix2 x]
  exact field_apply_gen x1 ⟨15, by decide⟩
    (fun n => shapeCast S8x128 (View.readAt (Elt F) M1.view (grp ⟨15, by decide⟩ n).toLoadRect (h1.unread x1)) shapeCasts_S8x128_S8x128)
    (grp_read M1 h1 x1 ⟨15, by decide⟩) _ rfl _ _ (x 0) (x 1)

set_option maxHeartbeats 1000000 in
/-- Field 16's payload at a local index. -/
theorem pay_16 (x : S128x512.Idx) :
    bodyRun.sl.v2225 (F := F) c M1 (h1.unread x1) x
      = x1 (ix2 ⟨(26 * ((x 1).val / 8) + 16) * 8 + (x 1).val % 8, by have := idx2_lt1 x; omega⟩ (x 0)) := by
  sl_unfold_run_names
  rw [eq_ix2 x]
  exact field_apply_gen x1 ⟨16, by decide⟩
    (fun n => shapeCast S8x128 (View.readAt (Elt F) M1.view (grp ⟨16, by decide⟩ n).toLoadRect (h1.unread x1)) shapeCasts_S8x128_S8x128)
    (grp_read M1 h1 x1 ⟨16, by decide⟩) _ rfl _ _ (x 0) (x 1)

set_option maxHeartbeats 1000000 in
/-- Field 17's payload at a local index. -/
theorem pay_17 (x : S128x512.Idx) :
    bodyRun.sl.v2356 (F := F) c M1 (h1.unread x1) x
      = x1 (ix2 ⟨(26 * ((x 1).val / 8) + 17) * 8 + (x 1).val % 8, by have := idx2_lt1 x; omega⟩ (x 0)) := by
  sl_unfold_run_names
  rw [eq_ix2 x]
  exact field_apply_gen x1 ⟨17, by decide⟩
    (fun n => shapeCast S8x128 (View.readAt (Elt F) M1.view (grp ⟨17, by decide⟩ n).toLoadRect (h1.unread x1)) shapeCasts_S8x128_S8x128)
    (grp_read M1 h1 x1 ⟨17, by decide⟩) _ rfl _ _ (x 0) (x 1)

set_option maxHeartbeats 1000000 in
/-- Field 18's payload at a local index. -/
theorem pay_18 (x : S128x512.Idx) :
    bodyRun.sl.v2487 (F := F) c M1 (h1.unread x1) x
      = x1 (ix2 ⟨(26 * ((x 1).val / 8) + 18) * 8 + (x 1).val % 8, by have := idx2_lt1 x; omega⟩ (x 0)) := by
  sl_unfold_run_names
  rw [eq_ix2 x]
  exact field_apply_gen x1 ⟨18, by decide⟩
    (fun n => shapeCast S8x128 (View.readAt (Elt F) M1.view (grp ⟨18, by decide⟩ n).toLoadRect (h1.unread x1)) shapeCasts_S8x128_S8x128)
    (grp_read M1 h1 x1 ⟨18, by decide⟩) _ rfl _ _ (x 0) (x 1)

set_option maxHeartbeats 1000000 in
/-- Field 19's payload at a local index. -/
theorem pay_19 (x : S128x512.Idx) :
    bodyRun.sl.v2618 (F := F) c M1 (h1.unread x1) x
      = x1 (ix2 ⟨(26 * ((x 1).val / 8) + 19) * 8 + (x 1).val % 8, by have := idx2_lt1 x; omega⟩ (x 0)) := by
  sl_unfold_run_names
  rw [eq_ix2 x]
  exact field_apply_gen x1 ⟨19, by decide⟩
    (fun n => shapeCast S8x128 (View.readAt (Elt F) M1.view (grp ⟨19, by decide⟩ n).toLoadRect (h1.unread x1)) shapeCasts_S8x128_S8x128)
    (grp_read M1 h1 x1 ⟨19, by decide⟩) _ rfl _ _ (x 0) (x 1)

set_option maxHeartbeats 1000000 in
/-- Field 20's payload at a local index. -/
theorem pay_20 (x : S128x512.Idx) :
    bodyRun.sl.v2749 (F := F) c M1 (h1.unread x1) x
      = x1 (ix2 ⟨(26 * ((x 1).val / 8) + 20) * 8 + (x 1).val % 8, by have := idx2_lt1 x; omega⟩ (x 0)) := by
  sl_unfold_run_names
  rw [eq_ix2 x]
  exact field_apply_gen x1 ⟨20, by decide⟩
    (fun n => shapeCast S8x128 (View.readAt (Elt F) M1.view (grp ⟨20, by decide⟩ n).toLoadRect (h1.unread x1)) shapeCasts_S8x128_S8x128)
    (grp_read M1 h1 x1 ⟨20, by decide⟩) _ rfl _ _ (x 0) (x 1)

set_option maxHeartbeats 1000000 in
/-- Field 21's payload at a local index. -/
theorem pay_21 (x : S128x512.Idx) :
    bodyRun.sl.v2880 (F := F) c M1 (h1.unread x1) x
      = x1 (ix2 ⟨(26 * ((x 1).val / 8) + 21) * 8 + (x 1).val % 8, by have := idx2_lt1 x; omega⟩ (x 0)) := by
  sl_unfold_run_names
  rw [eq_ix2 x]
  exact field_apply_gen x1 ⟨21, by decide⟩
    (fun n => shapeCast S8x128 (View.readAt (Elt F) M1.view (grp ⟨21, by decide⟩ n).toLoadRect (h1.unread x1)) shapeCasts_S8x128_S8x128)
    (grp_read M1 h1 x1 ⟨21, by decide⟩) _ rfl _ _ (x 0) (x 1)

set_option maxHeartbeats 1000000 in
/-- Field 22's payload at a local index. -/
theorem pay_22 (x : S128x512.Idx) :
    bodyRun.sl.v3011 (F := F) c M1 (h1.unread x1) x
      = x1 (ix2 ⟨(26 * ((x 1).val / 8) + 22) * 8 + (x 1).val % 8, by have := idx2_lt1 x; omega⟩ (x 0)) := by
  sl_unfold_run_names
  rw [eq_ix2 x]
  exact field_apply_gen x1 ⟨22, by decide⟩
    (fun n => shapeCast S8x128 (View.readAt (Elt F) M1.view (grp ⟨22, by decide⟩ n).toLoadRect (h1.unread x1)) shapeCasts_S8x128_S8x128)
    (grp_read M1 h1 x1 ⟨22, by decide⟩) _ rfl _ _ (x 0) (x 1)

set_option maxHeartbeats 1000000 in
/-- Field 23's payload at a local index. -/
theorem pay_23 (x : S128x512.Idx) :
    bodyRun.sl.v3142 (F := F) c M1 (h1.unread x1) x
      = x1 (ix2 ⟨(26 * ((x 1).val / 8) + 23) * 8 + (x 1).val % 8, by have := idx2_lt1 x; omega⟩ (x 0)) := by
  sl_unfold_run_names
  rw [eq_ix2 x]
  exact field_apply_gen x1 ⟨23, by decide⟩
    (fun n => shapeCast S8x128 (View.readAt (Elt F) M1.view (grp ⟨23, by decide⟩ n).toLoadRect (h1.unread x1)) shapeCasts_S8x128_S8x128)
    (grp_read M1 h1 x1 ⟨23, by decide⟩) _ rfl _ _ (x 0) (x 1)

set_option maxHeartbeats 1000000 in
/-- Field 24's payload at a local index. -/
theorem pay_24 (x : S128x512.Idx) :
    bodyRun.sl.v3273 (F := F) c M1 (h1.unread x1) x
      = x1 (ix2 ⟨(26 * ((x 1).val / 8) + 24) * 8 + (x 1).val % 8, by have := idx2_lt1 x; omega⟩ (x 0)) := by
  sl_unfold_run_names
  rw [eq_ix2 x]
  exact field_apply_gen x1 ⟨24, by decide⟩
    (fun n => shapeCast S8x128 (View.readAt (Elt F) M1.view (grp ⟨24, by decide⟩ n).toLoadRect (h1.unread x1)) shapeCasts_S8x128_S8x128)
    (grp_read M1 h1 x1 ⟨24, by decide⟩) _ rfl _ _ (x 0) (x 1)

set_option maxHeartbeats 1000000 in
/-- Field 25's payload (stored by the body's root sequence) at a local index. -/
theorem pay_25 (x : S128x512.Idx) :
    k2_pay2 (bodyRun.sl.v3403 (F := F) c M1 (h1.unread x1)) x
      = x1 (ix2 ⟨(26 * ((x 1).val / 8) + 25) * 8 + (x 1).val % 8, by have := idx2_lt1 x; omega⟩ (x 0)) := by
  unfold k2_pay2
  sl_unfold_run_names
  unfold k2_pay1
  rw [eq_ix2 x]
  exact field_apply_gen x1 ⟨25, by decide⟩
    (fun n => shapeCast S8x128 (View.readAt (Elt F) M1.view (grp ⟨25, by decide⟩ n).toLoadRect (h1.unread x1)) shapeCasts_S8x128_S8x128)
    (grp_read M1 h1 x1 ⟨25, by decide⟩) _ rfl _ _ (x 0) (x 1)

/-- The first 1 fields' stores leave `G2` on their rows. -/
theorem canon_1 : ∀ y : S3341x512.Idx, (y 0).val < 128 * 1 →
    View.canon (bodyRun.sl.H5_1 (F := F) c M1 (h1.unread x1)) y = G2 x1 x2 x3 x4 y := by
  unfold bodyRun.sl.H5_1
  exact canon_step 0 _ _ _ (G2 x1 x2 x3 x4)
    (fun x => (pay_0 c M1 h1 x1 x).trans (G2_emb x1 x2 x3 x4 0 (by decide) _ x).symm)
    (fun y hy => absurd hy (by omega))

/-- The first 2 fields' stores leave `G2` on their rows. -/
theorem canon_2 : ∀ y : S3341x512.Idx, (y 0).val < 128 * 2 →
    View.canon (bodyRun.sl.H5_2 (F := F) c M1 (h1.unread x1)) y = G2 x1 x2 x3 x4 y := by
  unfold bodyRun.sl.H5_2
  exact canon_step 1 _ _ _ (G2 x1 x2 x3 x4)
    (fun x => (pay_1 c M1 h1 x1 x).trans (G2_emb x1 x2 x3 x4 1 (by decide) _ x).symm)
    (canon_1 c M1 h1 x1 x2 x3 x4)

/-- The first 3 fields' stores leave `G2` on their rows. -/
theorem canon_3 : ∀ y : S3341x512.Idx, (y 0).val < 128 * 3 →
    View.canon (bodyRun.sl.H5_3 (F := F) c M1 (h1.unread x1)) y = G2 x1 x2 x3 x4 y := by
  unfold bodyRun.sl.H5_3
  exact canon_step 2 _ _ _ (G2 x1 x2 x3 x4)
    (fun x => (pay_2 c M1 h1 x1 x).trans (G2_emb x1 x2 x3 x4 2 (by decide) _ x).symm)
    (canon_2 c M1 h1 x1 x2 x3 x4)

/-- The first 4 fields' stores leave `G2` on their rows. -/
theorem canon_4 : ∀ y : S3341x512.Idx, (y 0).val < 128 * 4 →
    View.canon (bodyRun.sl.H5_4 (F := F) c M1 (h1.unread x1)) y = G2 x1 x2 x3 x4 y := by
  unfold bodyRun.sl.H5_4
  exact canon_step 3 _ _ _ (G2 x1 x2 x3 x4)
    (fun x => (pay_3 c M1 h1 x1 x).trans (G2_emb x1 x2 x3 x4 3 (by decide) _ x).symm)
    (canon_3 c M1 h1 x1 x2 x3 x4)

/-- The first 5 fields' stores leave `G2` on their rows. -/
theorem canon_5 : ∀ y : S3341x512.Idx, (y 0).val < 128 * 5 →
    View.canon (bodyRun.sl.H5_5 (F := F) c M1 (h1.unread x1)) y = G2 x1 x2 x3 x4 y := by
  unfold bodyRun.sl.H5_5
  exact canon_step 4 _ _ _ (G2 x1 x2 x3 x4)
    (fun x => (pay_4 c M1 h1 x1 x).trans (G2_emb x1 x2 x3 x4 4 (by decide) _ x).symm)
    (canon_4 c M1 h1 x1 x2 x3 x4)

/-- The first 6 fields' stores leave `G2` on their rows. -/
theorem canon_6 : ∀ y : S3341x512.Idx, (y 0).val < 128 * 6 →
    View.canon (bodyRun.sl.H5_6 (F := F) c M1 (h1.unread x1)) y = G2 x1 x2 x3 x4 y := by
  unfold bodyRun.sl.H5_6
  exact canon_step 5 _ _ _ (G2 x1 x2 x3 x4)
    (fun x => (pay_5 c M1 h1 x1 x).trans (G2_emb x1 x2 x3 x4 5 (by decide) _ x).symm)
    (canon_5 c M1 h1 x1 x2 x3 x4)

/-- The first 7 fields' stores leave `G2` on their rows. -/
theorem canon_7 : ∀ y : S3341x512.Idx, (y 0).val < 128 * 7 →
    View.canon (bodyRun.sl.H5_7 (F := F) c M1 (h1.unread x1)) y = G2 x1 x2 x3 x4 y := by
  unfold bodyRun.sl.H5_7
  exact canon_step 6 _ _ _ (G2 x1 x2 x3 x4)
    (fun x => (pay_6 c M1 h1 x1 x).trans (G2_emb x1 x2 x3 x4 6 (by decide) _ x).symm)
    (canon_6 c M1 h1 x1 x2 x3 x4)

/-- The first 8 fields' stores leave `G2` on their rows. -/
theorem canon_8 : ∀ y : S3341x512.Idx, (y 0).val < 128 * 8 →
    View.canon (bodyRun.sl.H5_8 (F := F) c M1 (h1.unread x1)) y = G2 x1 x2 x3 x4 y := by
  unfold bodyRun.sl.H5_8
  exact canon_step 7 _ _ _ (G2 x1 x2 x3 x4)
    (fun x => (pay_7 c M1 h1 x1 x).trans (G2_emb x1 x2 x3 x4 7 (by decide) _ x).symm)
    (canon_7 c M1 h1 x1 x2 x3 x4)

/-- The first 9 fields' stores leave `G2` on their rows. -/
theorem canon_9 : ∀ y : S3341x512.Idx, (y 0).val < 128 * 9 →
    View.canon (bodyRun.sl.H5_9 (F := F) c M1 (h1.unread x1)) y = G2 x1 x2 x3 x4 y := by
  unfold bodyRun.sl.H5_9
  exact canon_step 8 _ _ _ (G2 x1 x2 x3 x4)
    (fun x => (pay_8 c M1 h1 x1 x).trans (G2_emb x1 x2 x3 x4 8 (by decide) _ x).symm)
    (canon_8 c M1 h1 x1 x2 x3 x4)

/-- The first 10 fields' stores leave `G2` on their rows. -/
theorem canon_10 : ∀ y : S3341x512.Idx, (y 0).val < 128 * 10 →
    View.canon (bodyRun.sl.H5_10 (F := F) c M1 (h1.unread x1)) y = G2 x1 x2 x3 x4 y := by
  unfold bodyRun.sl.H5_10
  exact canon_step 9 _ _ _ (G2 x1 x2 x3 x4)
    (fun x => (pay_9 c M1 h1 x1 x).trans (G2_emb x1 x2 x3 x4 9 (by decide) _ x).symm)
    (canon_9 c M1 h1 x1 x2 x3 x4)

/-- The first 11 fields' stores leave `G2` on their rows. -/
theorem canon_11 : ∀ y : S3341x512.Idx, (y 0).val < 128 * 11 →
    View.canon (bodyRun.sl.H5_11 (F := F) c M1 (h1.unread x1)) y = G2 x1 x2 x3 x4 y := by
  unfold bodyRun.sl.H5_11
  exact canon_step 10 _ _ _ (G2 x1 x2 x3 x4)
    (fun x => (pay_10 c M1 h1 x1 x).trans (G2_emb x1 x2 x3 x4 10 (by decide) _ x).symm)
    (canon_10 c M1 h1 x1 x2 x3 x4)

/-- The first 12 fields' stores leave `G2` on their rows. -/
theorem canon_12 : ∀ y : S3341x512.Idx, (y 0).val < 128 * 12 →
    View.canon (bodyRun.sl.H5_12 (F := F) c M1 (h1.unread x1)) y = G2 x1 x2 x3 x4 y := by
  unfold bodyRun.sl.H5_12
  exact canon_step 11 _ _ _ (G2 x1 x2 x3 x4)
    (fun x => (pay_11 c M1 h1 x1 x).trans (G2_emb x1 x2 x3 x4 11 (by decide) _ x).symm)
    (canon_11 c M1 h1 x1 x2 x3 x4)

/-- The first 13 fields' stores leave `G2` on their rows. -/
theorem canon_13 : ∀ y : S3341x512.Idx, (y 0).val < 128 * 13 →
    View.canon (bodyRun.sl.H5_13 (F := F) c M1 (h1.unread x1)) y = G2 x1 x2 x3 x4 y := by
  unfold bodyRun.sl.H5_13
  exact canon_step 12 _ _ _ (G2 x1 x2 x3 x4)
    (fun x => (pay_12 c M1 h1 x1 x).trans (G2_emb x1 x2 x3 x4 12 (by decide) _ x).symm)
    (canon_12 c M1 h1 x1 x2 x3 x4)

/-- The first 14 fields' stores leave `G2` on their rows. -/
theorem canon_14 : ∀ y : S3341x512.Idx, (y 0).val < 128 * 14 →
    View.canon (bodyRun.sl.H5_14 (F := F) c M1 (h1.unread x1)) y = G2 x1 x2 x3 x4 y := by
  unfold bodyRun.sl.H5_14
  exact canon_step 13 _ _ _ (G2 x1 x2 x3 x4)
    (fun x => (pay_13 c M1 h1 x1 x).trans (G2_emb x1 x2 x3 x4 13 (by decide) _ x).symm)
    (canon_13 c M1 h1 x1 x2 x3 x4)

/-- The first 15 fields' stores leave `G2` on their rows. -/
theorem canon_15 : ∀ y : S3341x512.Idx, (y 0).val < 128 * 15 →
    View.canon (bodyRun.sl.H5_15 (F := F) c M1 (h1.unread x1)) y = G2 x1 x2 x3 x4 y := by
  unfold bodyRun.sl.H5_15
  exact canon_step 14 _ _ _ (G2 x1 x2 x3 x4)
    (fun x => (pay_14 c M1 h1 x1 x).trans (G2_emb x1 x2 x3 x4 14 (by decide) _ x).symm)
    (canon_14 c M1 h1 x1 x2 x3 x4)

/-- The first 16 fields' stores leave `G2` on their rows. -/
theorem canon_16 : ∀ y : S3341x512.Idx, (y 0).val < 128 * 16 →
    View.canon (bodyRun.sl.H5_16 (F := F) c M1 (h1.unread x1)) y = G2 x1 x2 x3 x4 y := by
  unfold bodyRun.sl.H5_16
  exact canon_step 15 _ _ _ (G2 x1 x2 x3 x4)
    (fun x => (pay_15 c M1 h1 x1 x).trans (G2_emb x1 x2 x3 x4 15 (by decide) _ x).symm)
    (canon_15 c M1 h1 x1 x2 x3 x4)

/-- The first 17 fields' stores leave `G2` on their rows. -/
theorem canon_17 : ∀ y : S3341x512.Idx, (y 0).val < 128 * 17 →
    View.canon (bodyRun.sl.H5_17 (F := F) c M1 (h1.unread x1)) y = G2 x1 x2 x3 x4 y := by
  unfold bodyRun.sl.H5_17
  exact canon_step 16 _ _ _ (G2 x1 x2 x3 x4)
    (fun x => (pay_16 c M1 h1 x1 x).trans (G2_emb x1 x2 x3 x4 16 (by decide) _ x).symm)
    (canon_16 c M1 h1 x1 x2 x3 x4)

/-- The first 18 fields' stores leave `G2` on their rows. -/
theorem canon_18 : ∀ y : S3341x512.Idx, (y 0).val < 128 * 18 →
    View.canon (bodyRun.sl.H5_18 (F := F) c M1 (h1.unread x1)) y = G2 x1 x2 x3 x4 y := by
  unfold bodyRun.sl.H5_18
  exact canon_step 17 _ _ _ (G2 x1 x2 x3 x4)
    (fun x => (pay_17 c M1 h1 x1 x).trans (G2_emb x1 x2 x3 x4 17 (by decide) _ x).symm)
    (canon_17 c M1 h1 x1 x2 x3 x4)

/-- The first 19 fields' stores leave `G2` on their rows. -/
theorem canon_19 : ∀ y : S3341x512.Idx, (y 0).val < 128 * 19 →
    View.canon (bodyRun.sl.H5_19 (F := F) c M1 (h1.unread x1)) y = G2 x1 x2 x3 x4 y := by
  unfold bodyRun.sl.H5_19
  exact canon_step 18 _ _ _ (G2 x1 x2 x3 x4)
    (fun x => (pay_18 c M1 h1 x1 x).trans (G2_emb x1 x2 x3 x4 18 (by decide) _ x).symm)
    (canon_18 c M1 h1 x1 x2 x3 x4)

/-- The first 20 fields' stores leave `G2` on their rows. -/
theorem canon_20 : ∀ y : S3341x512.Idx, (y 0).val < 128 * 20 →
    View.canon (bodyRun.sl.H5_20 (F := F) c M1 (h1.unread x1)) y = G2 x1 x2 x3 x4 y := by
  unfold bodyRun.sl.H5_20
  exact canon_step 19 _ _ _ (G2 x1 x2 x3 x4)
    (fun x => (pay_19 c M1 h1 x1 x).trans (G2_emb x1 x2 x3 x4 19 (by decide) _ x).symm)
    (canon_19 c M1 h1 x1 x2 x3 x4)

/-- The first 21 fields' stores leave `G2` on their rows. -/
theorem canon_21 : ∀ y : S3341x512.Idx, (y 0).val < 128 * 21 →
    View.canon (bodyRun.sl.H5_21 (F := F) c M1 (h1.unread x1)) y = G2 x1 x2 x3 x4 y := by
  unfold bodyRun.sl.H5_21
  exact canon_step 20 _ _ _ (G2 x1 x2 x3 x4)
    (fun x => (pay_20 c M1 h1 x1 x).trans (G2_emb x1 x2 x3 x4 20 (by decide) _ x).symm)
    (canon_20 c M1 h1 x1 x2 x3 x4)

/-- The first 22 fields' stores leave `G2` on their rows. -/
theorem canon_22 : ∀ y : S3341x512.Idx, (y 0).val < 128 * 22 →
    View.canon (bodyRun.sl.H5_22 (F := F) c M1 (h1.unread x1)) y = G2 x1 x2 x3 x4 y := by
  unfold bodyRun.sl.H5_22
  exact canon_step 21 _ _ _ (G2 x1 x2 x3 x4)
    (fun x => (pay_21 c M1 h1 x1 x).trans (G2_emb x1 x2 x3 x4 21 (by decide) _ x).symm)
    (canon_21 c M1 h1 x1 x2 x3 x4)

/-- The first 23 fields' stores leave `G2` on their rows. -/
theorem canon_23 : ∀ y : S3341x512.Idx, (y 0).val < 128 * 23 →
    View.canon (bodyRun.sl.H5_23 (F := F) c M1 (h1.unread x1)) y = G2 x1 x2 x3 x4 y := by
  unfold bodyRun.sl.H5_23
  exact canon_step 22 _ _ _ (G2 x1 x2 x3 x4)
    (fun x => (pay_22 c M1 h1 x1 x).trans (G2_emb x1 x2 x3 x4 22 (by decide) _ x).symm)
    (canon_22 c M1 h1 x1 x2 x3 x4)

/-- The first 24 fields' stores leave `G2` on their rows. -/
theorem canon_24 : ∀ y : S3341x512.Idx, (y 0).val < 128 * 24 →
    View.canon (bodyRun.sl.H5_24 (F := F) c M1 (h1.unread x1)) y = G2 x1 x2 x3 x4 y := by
  unfold bodyRun.sl.H5_24
  exact canon_step 23 _ _ _ (G2 x1 x2 x3 x4)
    (fun x => (pay_23 c M1 h1 x1 x).trans (G2_emb x1 x2 x3 x4 23 (by decide) _ x).symm)
    (canon_23 c M1 h1 x1 x2 x3 x4)

/-- The first 25 fields' stores leave `G2` on their rows. -/
theorem canon_25 : ∀ y : S3341x512.Idx, (y 0).val < 128 * 25 →
    View.canon (bodyRun.sl.H5_25 (F := F) c M1 (h1.unread x1)) y = G2 x1 x2 x3 x4 y := by
  unfold bodyRun.sl.H5_25
  exact canon_step 24 _ _ _ (G2 x1 x2 x3 x4)
    (fun x => (pay_24 c M1 h1 x1 x).trans (G2_emb x1 x2 x3 x4 24 (by decide) _ x).symm)
    (canon_24 c M1 h1 x1 x2 x3 x4)

end Cert.Proof.Tc2

end
-- ==== Proof.TcValue2Top.lean ====
/-
  What the first TensorCore kernel body leaves in its output block: all 27 stores together leave `G2` of what the four input
  memrefs read, so the result window's buffer after the body at point `t` is `G2` of the four input blocks there.
-/
import proofs.«202673_g7318624272670_cont_9to1c4b_526_24_alg».proof.Proof.TcValue2

noncomputable section

namespace Cert.Proof.Tc2

open Cert.KernelIdeal Cert.KernelIdeal.Gen

open Idealize.ShloMosaic Idealize.ShloMosaic.ValueIdx
open Idealize.ShloMosaic.TcCoe Idealize.ShloMosaic.Tactic
open Idealize.SL Idealize.SL.RA
open Idealize.ShloMosaic.SparseCore.Cfg (HIx)

variable {F : FTy → Type} [FloatOps F]
variable {U : Type} [URA U]

variable (c : Dev nD) (M1 : Memref sig .tc .vmem S13312x128 .f32) (h1 : M1.IsWhole) (M2 : Memref sig .tc .vmem S13x512 .f32) (h2 : M2.IsWhole)
  (M3 : Memref sig .tc .vmem S13x1 .f32) (h3 : M3.IsWhole) (M4 : Memref sig .tc .vmem S13x1 .f32) (h4 : M4.IsWhole)
  (x1 : Vec F S13312x128 .f32) (x2 : Vec F S13x512 .f32) (x3 : Vec F S13x1 .f32) (x4 : Vec F S13x1 .f32)

theorem hz2 : (![0, 0] : Fin 2 → Nat) = fun _ => 0 := funext fun a => by match a with | ⟨0, _⟩ => rfl | ⟨1, _⟩ => rfl

/-- The dense rows' payload at a local index: the program's own arithmetic over what the three small memrefs read. -/
theorem pay_rows (x : S13x512.Idx) :
    k2_pay3 (View.readAt (Elt F) M3.view (Rect.unit (s := S13x1) ![0, 0] S13x1.size inb_S13x1_S13x1_0_0).toLoadRect (h3.unread x3))
        (View.readAt (Elt F) M4.view (Rect.unit (s := S13x1) ![0, 0] S13x1.size inb_S13x1_S13x1_0_0).toLoadRect (h4.unread x4))
        (View.readAt (Elt F) M2.view (Rect.unit (s := S13x512) ![0, 0] S13x512.size inb_S13x512_S13x512_0_0).toLoadRect (h2.unread x2)) x
      = G2 x1 x2 x3 x4 ((Rect.unit (s := S3341x512) ![3328, 0] S13x512.size inb_S3341x512_S13x512_3328_0).emb x) := by
  have e0 : (((Rect.unit (s := S3341x512) ![3328, 0] S13x512.size inb_S3341x512_S13x512_3328_0).emb x) 0).val = 3328 + 1 * (x 0).val := rfl
  have e1 : (((Rect.unit (s := S3341x512) ![3328, 0] S13x512.size inb_S3341x512_S13x512_3328_0).emb x) 1).val = 0 + 1 * (x 1).val := rfl
  unfold G2
  rw [dif_neg (by rw [e0]; omega)]
  simp only [View.readAt_eq_ld, h2.read_unread, h3.read_unread, h4.read_unread, View.ld_unit_zero (S := S13x1) hz2, View.ld_unit_zero (S := S13x512) hz2]
  refine congrArg (k2_pay3 x3 x4 x2) (funext fun a => ?_)
  match a with
  | ⟨0, _⟩ =>
    refine Fin.ext ?_
    show (x 0).val = (((Rect.unit (s := S3341x512) ![3328, 0] S13x512.size inb_S3341x512_S13x512_3328_0).emb x) 0).val - 3328
    rw [e0]; omega
  | ⟨1, _⟩ =>
    refine Fin.ext ?_
    show (x 1).val = (((Rect.unit (s := S3341x512) ![3328, 0] S13x512.size inb_S3341x512_S13x512_3328_0).emb x) 1).val
    rw [e1]; omega

/-- All 27 stores leave `G2`. -/
theorem canon_all (y : S3341x512.Idx) :
    View.canon (bodyRun.sl.H5_27 (F := F) c M1 M2 M3 M4 (h1.unread x1) (h2.unread x2) (h3.unread x3) (h4.unread x4)) y = G2 x1 x2 x3 x4 y := by
  unfold bodyRun.sl.H5_27
  by_cases hm : 3328 ≤ (y 0).val
  · have hmem : y ∈ (Rect.unit (s := S3341x512) ![3328, 0] S13x512.size inb_S3341x512_S13x512_3328_0).set :=
      Rect.mem_set_unit.mpr fun a => match a with
        | ⟨0, _⟩ => ⟨hm, by show (y 0).val < 3328 + 13; have := idx2_lt0 y; omega⟩
        | ⟨1, _⟩ => ⟨Nat.zero_le _, by show (y 1).val < 0 + 512; have := idx2_lt1 y; omega⟩
    obtain ⟨x, rfl⟩ := (Rect.unit (s := S3341x512) ![3328, 0] S13x512.size inb_S3341x512_S13x512_3328_0).exists_idx_of_mem hmem
    exact (View.canon_cons_emb (Rect.unit (s := S3341x512) ![3328, 0] S13x512.size inb_S3341x512_S13x512_3328_0) _ _ x).trans
      (pay_rows M2 h2 M3 h3 M4 h4 x1 x2 x3 x4 x)
  · have hnot : y ∉ (Rect.unit (s := S3341x512) ![3328, 0] S13x512.size inb_S3341x512_S13x512_3328_0).set :=
      fun hmem => hm ((Rect.mem_set_unit.mp hmem) (0 : Fin 2)).1
    refine (View.canon_cons_of_not_mem ⟨Rect.unit (s := S3341x512) ![3328, 0] S13x512.size inb_S3341x512_S13x512_3328_0, _⟩ _ hnot).trans ?_
    exact canon_step 25 _ _ _ (G2 x1 x2 x3 x4)
      (fun x => (pay_25 c M1 h1 x1 x).trans (G2_emb x1 x2 x3 x4 25 (by decide) _ x).symm)
      (canon_25 c M1 h1 x1 x2 x3 x4) y (by omega)

/-- What the output memref reads after the body is the canon of the 27 stores the run found. -/
theorem out2_eq_canon (i : grid2.Coords) (M5 : Memref sig .tc .vmem S3341x512 .f32) (h5 : M5.IsWhole) :
    out2 (U := U) c i M1 h1 M2 h2 M3 h3 M4 h4 M5 h5 x1 x2 x3 x4
      = View.canon (bodyRun.sl.H5_27 (F := F) c M1 M2 M3 M4 (h1.unread x1) (h2.unread x2) (h3.unread x3) (h4.unread x4)) := by
  unfold out2 bodyRun
  exact View.read_writes_junk_eq_canon _ _

/-- **The output block after the body, index by index**: rows `128 f + dd` at column `s` hold the gathered rows' block at
    `((26 (s / 8) + f) · 8 + s % 8, dd)`; rows `3328 + k` the scaled dense features. -/
theorem out2_eq (i : grid2.Coords) (M5 : Memref sig .tc .vmem S3341x512 .f32) (h5 : M5.IsWhole) :
    out2 (U := U) c i M1 h1 M2 h2 M3 h3 M4 h4 M5 h5 x1 x2 x3 x4 = G2 x1 x2 x3 x4 := by
  rw [out2_eq_canon]
  exact funext (canon_all c M1 h1 M2 h2 M3 h3 M4 h4 x1 x2 x3 x4)

/-- So at every point the result window's staging buffer is left at `G2` of the four input windows' blocks. -/
theorem outAt_eq (V : (c : Dev nD) → (b : Ref sig .tc) → Buf (Elt F) ((c : Thread nD τ).loc b)) (t : Fin cfg2.N) :
    outAt (U := U) V c t = G2 (iblk2 V c 0 t) (iblk2 V c 1 t) (iblk2 V c 2 t) (iblk2 V c 3 t) := by
  unfold outAt
  exact out2_eq (U := U) c ..

end Cert.Proof.Tc2

end
-- ==== Proof.TcArray2.lean ====
/-
  The result array after the first TensorCore region, as one function of the arrays the region finds: on the columns its sixteen
  write-backs cover, block by block, what the body leaves (`G2` of the four input windows' blocks at the point that writes
  the column's block); elsewhere what the array held at the region's entry.
-/
import proofs.«202673_g7318624272670_cont_9to1c4b_526_24_alg».proof.Proof.TcValue2Top

noncomputable section

namespace Cert.Proof.Tc2

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]
variable {U : Type} [URA U]

variable (V : (c : Dev nD) → (b : Ref sig .tc) → Buf (Elt F) ((c : Thread nD τ).loc b))
  (W₀ : Dev nD → Finset (SemLoc sig × HIx 2))

/-- The result window's index map, decided over the grid: block row 0, block column `0 + t`. -/
theorem idx_out : ∀ t : Fin cfg2.N, win2_4.index t (0 : Fin 2) = 0 ∧ win2_4.index t (1 : Fin 2) = 0 + t.val :=
  (by decide +kernel : ∀ t : Fin grid2.N, _)

/-- The point that writes back column `col`'s block (any point for a column no write-back covers). -/
def tOf (i : S3341x16384.Idx) : Fin cfg2.N := ⟨((i 1).val / 512) % 16, by show _ < grid2.N; rw [N_2]; omega⟩

/-- What the write-backs leave, as a function of the array index: the body's result at the point that writes the
    column's block, at the column's position inside the block. -/
def Gfull (c : Dev nD) : S3341x16384.Idx → Elt F .f32 := fun i =>
  G2 (iblk2 V c 0 (tOf i)) (iblk2 V c 1 (tOf i)) (iblk2 V c 2 (tOf i)) (iblk2 V c 3 (tOf i))
    (ix2 (i 0) ⟨(i 1).val % 512, Nat.mod_lt _ (by omega)⟩)

/-- WHAT POINT `t` WRITES BACK is block `t` of `Gfull`. -/
theorem flushed_eq (c : Dev nD) (t : Fin cfg2.N) :
    (dat2 (U := U) V W₀ (outAt (U := U) V) c).flushed 4 t = ((cfg2.win 4).blk t).view.read (Elt F) (Gfull V c) := by
  show (cfg2.win 4).cut (grid2.coords t) ((dat2 (U := U) V W₀ (outAt (U := U) V) c).after 4 t) = _
  rw [after2_4, outAt_eq]
  obtain ⟨e0, e1⟩ := idx_out t
  have hN : t.val < 16 := by have := t.isLt; have hN : cfg2.N = 16 := N_2; omega
  funext j
  show G2 (iblk2 V c 0 t) (iblk2 V c 1 t) (iblk2 V c 2 t) (iblk2 V c 3 t) j = Gfull V c (((cfg2.win 4).blk t).view.emb j)
  have hj0 : (j 0).val < 3341 := (j 0).isLt
  have hj1 : (j 1).val < 512 := (j 1).isLt
  have c0 : ((((cfg2.win 4).blk t).view.emb j) 0).val = win2_4.index t (0 : Fin 2) * 3341 + 1 * (j 0).val := rfl
  have c1 : ((((cfg2.win 4).blk t).view.emb j) 1).val = win2_4.index t (1 : Fin 2) * 512 + 1 * (j 1).val := rfl
  have ht : tOf (((cfg2.win 4).blk t).view.emb j) = t := Fin.ext (by
    show ((((cfg2.win 4).blk t).view.emb j) 1).val / 512 % 16 = t.val
    rw [c1, e1]; omega)
  unfold Gfull
  rw [ht]
  refine congrArg _ (funext fun a => ?_)
  match a with
  | ⟨0, _⟩ => exact Fin.ext (by show (j 0).val = ((((cfg2.win 4).blk t).view.emb j) 0).val; rw [c0, e0]; omega)
  | ⟨1, _⟩ => exact Fin.ext (by show (j 1).val = ((((cfg2.win 4).blk t).view.emb j) 1).val % 512; rw [c1, e1]; omega)

/-- An index of the array is in point `t`'s block iff each coordinate is in the block's range on its axis. -/
theorem mem_blk (t : Fin cfg2.N) (i : S3341x16384.Idx) :
    i ∈ ((cfg2.win 4).blk t).view.set ↔ ∀ a : Fin 2, win2_4.index t a * S3341x512.size a ≤ (i a).val ∧ (i a).val < win2_4.index t a * S3341x512.size a + S3341x512.size a := by
  show i ∈ ((View.whole main_v11).slice (win2_4.rect t)).set ↔ _
  rw [View.set_slice_whole, Rect.mem_set_unit]
  exact Iff.rfl

/-- THE COVERED INDICES: the columns `0 … 8191`. -/
theorem covered_iff (i : S3341x16384.Idx) :
    (∃ t : Fin cfg2.N, (cfg2.win 4).flush t = true ∧ i ∈ ((cfg2.win 4).blk t).view.set) ↔ 0 ≤ (i 1).val ∧ (i 1).val < 8192 := by
  have hNN : cfg2.N = 16 := N_2
  constructor
  · rintro ⟨t, -, hi⟩
    rw [mem_blk] at hi
    have b1 : win2_4.index t (1 : Fin 2) * 512 ≤ (i 1).val ∧ (i 1).val < win2_4.index t (1 : Fin 2) * 512 + 512 := hi 1
    obtain ⟨e0, e1⟩ := idx_out t
    have := t.isLt
    omega
  · intro h
    have hi0 : (i 0).val < 3341 := (i 0).isLt
    have hi1 : (i 1).val < 16384 := (i 1).isLt
    let t : Fin cfg2.N := ⟨(i 1).val / 512 - 0, by omega⟩
    obtain ⟨e0, e1⟩ := idx_out t
    have tv : t.val = (i 1).val / 512 - 0 := rfl
    refine ⟨t, flush2_4 t, ?_⟩
    rw [mem_blk]
    intro a
    match a with
    | ⟨0, _⟩ => show win2_4.index t (0 : Fin 2) * 3341 ≤ (i 0).val ∧ (i 0).val < win2_4.index t (0 : Fin 2) * 3341 + 3341; omega
    | ⟨1, _⟩ => show win2_4.index t (1 : Fin 2) * 512 ≤ (i 1).val ∧ (i 1).val < win2_4.index t (1 : Fin 2) * 512 + 512; omega

/-- **THE RESULT ARRAY after the region**: `Gfull` on the columns the write-backs cover, its region-entry contents elsewhere. -/
theorem final (c : Dev nD) :
    (dat2 (U := U) V W₀ (outAt (U := U) V) c).arrAt 4 cfg2.N
      = fun i => if 0 ≤ (i 1).val ∧ (i 1).val < 8192 then Gfull V c i else V c main_v11 i := by
  funext i
  rw [(dat2 (U := U) V W₀ (outAt (U := U) V) c).arrAt_eq_piecewise 4 _ (fun t _ => flushed_eq V W₀ c t) i, A2]
  exact if_congr (covered_iff i) rfl rfl

end Cert.Proof.Tc2

end
-- ==== Proof.TcValue3.lean ====
/-
  What the second TensorCore kernel body leaves in its output block, index by index (`G2`), read off the piece list the body's run
  found: one payload lemma per embedding field (the field's 64 loaded row groups stacked and transposed), then the stores
  taken in order, each agreeing with `G2` on the rows stored so far.
-/
import proofs.«202673_g7318624272670_cont_9to1c4b_526_24_alg».proof.Proof.TcOblig3
import proofs.«202673_g7318624272670_cont_9to1c4b_526_24_alg».proof.Proof.TcField
import Idealize.ShloMosaic.Lib.Pipeline.Value
import Idealize.ShloMosaic.Lib.ValueIdx

noncomputable section

namespace Cert.Proof.Tc3

open Cert.KernelIdeal Cert.KernelIdeal.Gen

open Idealize.ShloMosaic Idealize.ShloMosaic.ValueIdx
open Idealize.ShloMosaic.TcCoe Idealize.ShloMosaic.Tactic
open Idealize.SL Idealize.SL.RA
open Idealize.ShloMosaic.SparseCore.Cfg (HIx)
open Cert.Proof.TcField (field_apply field_apply_gen grp)

variable {F : FTy → Type} [FloatOps F]
variable {U : Type} [URA U]

/-- The output block after the body, index by index, from what the four input memrefs read: rows `128 f + dd` (`f < 26`) hold
    the gathered rows' block transposed field by field; rows `3328 + k` the scaled dense features (the program's own
    payload `k3_pay3`: `(x2 − x3) / (x4 − x3)`, the two bounds broadcast along the columns). -/
def G2 (x1 : Vec F S13312x128 .f32) (x2 : Vec F S13x512 .f32) (x3 : Vec F S13x1 .f32) (x4 : Vec F S13x1 .f32) : Vec F S3341x512 .f32 := fun y =>
  if h : (y 0).val < 3328 then
    x1 (ix2 ⟨(26 * ((y 1).val / 8) + (y 0).val / 128) * 8 + (y 1).val % 8, by have := idx2_lt1 y; omega⟩ ⟨(y 0).val % 128, Nat.mod_lt _ (by omega)⟩)
  else
    k3_pay3 x3 x4 x2 (ix2 ⟨(y 0).val - 3328, by have := idx2_lt0 y; omega⟩ (y 1))

theorem G2_field (x1 : Vec F S13312x128 .f32) (x2 x3 x4) (y : S3341x512.Idx) (h : (y 0).val < 3328) :
    G2 x1 x2 x3 x4 y = x1 (ix2 ⟨(26 * ((y 1).val / 8) + (y 0).val / 128) * 8 + (y 1).val % 8, by have := idx2_lt1 y; omega⟩ ⟨(y 0).val % 128, Nat.mod_lt _ (by omega)⟩) := by
  unfold G2; rw [dif_pos h]

variable (c : Dev nD) (M1 : Memref sig .tc .vmem S13312x128 .f32) (h1 : M1.IsWhole) (M2 : Memref sig .tc .vmem S13x512 .f32) (h2 : M2.IsWhole)
  (M3 : Memref sig .tc .vmem S13x1 .f32) (h3 : M3.IsWhole) (M4 : Memref sig .tc .vmem S13x1 .f32) (h4 : M4.IsWhole)
  (x1 : Vec F S13312x128 .f32) (x2 : Vec F S13x512 .f32) (x3 : Vec F S13x1 .f32) (x4 : Vec F S13x1 .f32)

/-- A loaded row group, re-cast to its own shape, reads the block's rows it was loaded from. -/
theorem grp_read (fld : Fin 26) (n : Fin 64) (u : Fin 8) (dd : Fin 128) :
    shapeCast S8x128 (View.readAt (Elt F) M1.view (grp fld n).toLoadRect (h1.unread x1)) shapeCasts_S8x128_S8x128 (ix2 u dd)
      = x1 (ix2 ⟨(26 * n.val + fld.val) * 8 + u.val, by have := n.isLt; have := fld.isLt; have := u.isLt; omega⟩ dd) := by
  rw [show shapeCast S8x128 (View.readAt (Elt F) M1.view (grp fld n).toLoadRect (h1.unread x1)) shapeCasts_S8x128_S8x128
      = shapeCast S8x128 (fun i : S8x128.Idx => View.readAt (Elt F) M1.view (grp fld n).toLoadRect (h1.unread x1) i) shapeCasts_S8x128_S8x128 from rfl,
    shapeCast_self]
  show View.ld (M1.view.read (Elt F) (h1.unread x1)) (grp fld n) (ix2 u dd) = _
  rw [h1.read_unread]
  show x1 ((grp fld n).idx (ix2 u dd)) = _
  refine congrArg x1 (funext fun a => Fin.ext ?_)
  match a with
  | ⟨0, _⟩ => show (26 * n.val + fld.val) * 8 + 1 * u.val = _; simp
  | ⟨1, _⟩ => show 0 + 1 * dd.val = dd.val; simp

/-- `G2` under field `k`'s store rectangle, at the rectangle's local index. -/
theorem G2_emb (k : Nat) (hk : k < 26) (inb) (x : S128x512.Idx) :
    G2 x1 x2 x3 x4 ((Rect.unit (s := S3341x512) ![128 * k, 0] S128x512.size inb).emb x)
      = x1 (ix2 ⟨(26 * ((x 1).val / 8) + k) * 8 + (x 1).val % 8, by have := idx2_lt1 x; omega⟩ (x 0)) := by
  have e0 : (((Rect.unit (s := S3341x512) ![128 * k, 0] S128x512.size inb).emb x) 0).val = 128 * k + 1 * (x 0).val := rfl
  have e1 : (((Rect.unit (s := S3341x512) ![128 * k, 0] S128x512.size inb).emb x) 1).val = 0 + 1 * (x 1).val := rfl
  have l0 := idx2_lt0 x
  have l1 := idx2_lt1 x
  rw [G2_field _ _ _ _ _ (by rw [e0]; omega)]
  refine congrArg x1 (funext fun a => ?_)
  match a with
  | ⟨0, _⟩ =>
    refine Fin.ext ?_
    show (26 * ((((Rect.unit (s := S3341x512) ![128 * k, 0] S128x512.size inb).emb x) 1).val / 8)
        + (((Rect.unit (s := S3341x512) ![128 * k, 0] S128x512.size inb).emb x) 0).val / 128) * 8
        + (((Rect.unit (s := S3341x512) ![128 * k, 0] S128x512.size inb).emb x) 1).val % 8
      = (26 * ((x 1).val / 8) + k) * 8 + (x 1).val % 8
    rw [e0, e1]; omega
  | ⟨1, _⟩ =>
    refine Fin.ext ?_
    show (((Rect.unit (s := S3341x512) ![128 * k, 0] S128x512.size inb).emb x) 0).val % 128 = (x 0).val
    rw [e0]; omega

/-- One more field's store on top of the earlier ones: the canon agrees with `G` on the rows stored so far. -/
theorem canon_step (k : Nat) (inb) (w : S128x512.Idx → Elt F .f32) (L : List (View.Piece (Elt F) S3341x512 .f32))
    (G : Vec F S3341x512 .f32)
    (hw : ∀ x, w x = G ((Rect.unit (s := S3341x512) ![128 * k, 0] S128x512.size inb).emb x))
    (hL : ∀ y : S3341x512.Idx, (y 0).val < 128 * k → View.canon L y = G y) :
    ∀ y : S3341x512.Idx, (y 0).val < 128 * (k + 1) →
      View.canon ((⟨Rect.unit (s := S3341x512) ![128 * k, 0] S128x512.size inb, w⟩ : View.Piece (Elt F) S3341x512 .f32) :: L) y = G y := by
  intro y hy
  by_cases hm : 128 * k ≤ (y 0).val
  · have hmem : y ∈ (Rect.unit (s := S3341x512) ![128 * k, 0] S128x512.size inb).set :=
      Rect.mem_set_unit.mpr fun a => match a with
        | ⟨0, _⟩ => ⟨hm, by show (y 0).val < 128 * k + 128; omega⟩
        | ⟨1, _⟩ => ⟨Nat.zero_le _, by show (y 1).val < 0 + 512; have := idx2_lt1 y; omega⟩
    obtain ⟨x, rfl⟩ := (Rect.unit (s := S3341x512) ![128 * k, 0] S128x512.size inb).exists_idx_of_mem hmem
    exact (View.canon_cons_emb (Rect.unit (s := S3341x512) ![128 * k, 0] S128x512.size inb) w L x).trans (hw x)
  · have hnot : y ∉ (Rect.unit (s := S3341x512) ![128 * k, 0] S128x512.size inb).set :=
      fun hmem => hm ((Rect.mem_set_unit.mp hmem) (0 : Fin 2)).1
    exact (View.canon_cons_of_not_mem ⟨Rect.unit (s := S3341x512) ![128 * k, 0] S128x512.size inb, w⟩ L hnot).trans (hL y (by omega))

set_option maxHeartbeats 1000000 in
/-- Field 0's payload at a local index. -/
theorem pay_0 (x : S128x512.Idx) :
    bodyRun.sl.v129 (F := F) c M1 (h1.unread x1) x
      = x1 (ix2 ⟨(26 * ((x 1).val / 8) + 0) * 8 + (x 1).val % 8, by have := idx2_lt1 x; omega⟩ (x 0)) := by
  sl_unfold_run_names
  rw [eq_ix2 x]
  exact field_apply_gen x1 ⟨0, by decide⟩
    (fun n => shapeCast S8x128 (View.readAt (Elt F) M1.view (grp ⟨0, by decide⟩ n).toLoadRect (h1.unread x1)) shapeCasts_S8x128_S8x128)
    (grp_read M1 h1 x1 ⟨0, by decide⟩) _ rfl _ _ (x 0) (x 1)

set_option maxHeartbeats 1000000 in
/-- Field 1's payload at a local index. -/
theorem pay_1 (x : S128x512.Idx) :
    bodyRun.sl.v260 (F := F) c M1 (h1.unread x1) x
      = x1 (ix2 ⟨(26 * ((x 1).val / 8) + 1) * 8 + (x 1).val % 8, by have := idx2_lt1 x; omega⟩ (x 0)) := by
  sl_unfold_run_names
  rw [eq_ix2 x]
  exact field_apply_gen x1 ⟨1, by decide⟩
    (fun n => shapeCast S8x128 (View.readAt (Elt F) M1.view (grp ⟨1, by decide⟩ n).toLoadRect (h1.unread x1)) shapeCasts_S8x128_S8x128)
    (grp_read M1 h1 x1 ⟨1, by decide⟩) _ rfl _ _ (x 0) (x 1)

set_option maxHeartbeats 1000000 in
/-- Field 2's payload at a local index. -/
theorem pay_2 (x : S128x512.Idx) :
    bodyRun.sl.v391 (F := F) c M1 (h1.unread x1) x
      = x1 (ix2 ⟨(26 * ((x 1).val / 8) + 2) * 8 + (x 1).val % 8, by have := idx2_lt1 x; omega⟩ (x 0)) := by
  sl_unfold_run_names
  rw [eq_ix2 x]
  exact field_apply_gen x1 ⟨2, by decide⟩
    (fun n => shapeCast S8x128 (View.readAt (Elt F) M1.view (grp ⟨2, by decide⟩ n).toLoadRect (h1.unread x1)) shapeCasts_S8x128_S8x128)
    (grp_read M1 h1 x1 ⟨2, by decide⟩) _ rfl _ _ (x 0) (x 1)

set_option maxHeartbeats 1000000 in
/-- Field 3's payload at a local index. -/
theorem pay_3 (x : S128x512.Idx) :
    bodyRun.sl.v522 (F := F) c M1 (h1.unread x1) x
      = x1 (ix2 ⟨(26 * ((x 1).val / 8) + 3) * 8 + (x 1).val % 8, by have := idx2_lt1 x; omega⟩ (x 0)) := by
  sl_unfold_run_names
  rw [eq_ix2 x]
  exact field_apply_gen x1 ⟨3, by decide⟩
    (fun n => shapeCast S8x128 (View.readAt (Elt F) M1.view (grp ⟨3, by decide⟩ n).toLoadRect (h1.unread x1)) shapeCasts_S8x128_S8x128)
    (grp_read M1 h1 x1 ⟨3, by decide⟩) _ rfl _ _ (x 0) (x 1)

set_option maxHeartbeats 1000000 in
/-- Field 4's payload at a local index. -/
theorem pay_4 (x : S128x512.Idx) :
    bodyRun.sl.v653 (F := F) c M1 (h1.unread x1) x
      = x1 (ix2 ⟨(26 * ((x 1).val / 8) + 4) * 8 + (x 1).val % 8, by have := idx2_lt1 x; omega⟩ (x 0)) := by
  sl_unfold_run_names
  rw [eq_ix2 x]
  exact field_apply_gen x1 ⟨4, by decide⟩
    (fun n => shapeCast S8x128 (View.readAt (Elt F) M1.view (grp ⟨4, by decide⟩ n).toLoadRect (h1.unread x1)) shapeCasts_S8x128_S8x128)
    (grp_read M1 h1 x1 ⟨4, by decide⟩) _ rfl _ _ (x 0) (x 1)

set_option maxHeartbeats 1000000 in
/-- Field 5's payload at a local index. -/
theorem pay_5 (x : S128x512.Idx) :
    bodyRun.sl.v784 (F := F) c M1 (h1.unread x1) x
      = x1 (ix2 ⟨(26 * ((x 1).val / 8) + 5) * 8 + (x 1).val % 8, by have := idx2_lt1 x; omega⟩ (x 0)) := by
  sl_unfold_run_names
  rw [eq_ix2 x]
  exact field_apply_gen x1 ⟨5, by decide⟩
    (fun n => shapeCast S8x128 (View.readAt (Elt F) M1.view (grp ⟨5, by decide⟩ n).toLoadRect (h1.unread x1)) shapeCasts_S8x128_S8x128)
    (grp_read M1 h1 x1 ⟨5, by decide⟩) _ rfl _ _ (x 0) (x 1)

set_option maxHeartbeats 1000000 in
/-- Field 6's payload at a local index. -/
theorem pay_6 (x : S128x512.Idx) :
    bodyRun.sl.v915 (F := F) c M1 (h1.unread x1) x
      = x1 (ix2 ⟨(26 * ((x 1).val / 8) + 6) * 8 + (x 1).val % 8, by have := idx2_lt1 x; omega⟩ (x 0)) := by
  sl_unfold_run_names
  rw [eq_ix2 x]
  exact field_apply_gen x1 ⟨6, by decide⟩
    (fun n => shapeCast S8x128 (View.readAt (Elt F) M1.view (grp ⟨6, by decide⟩ n).toLoadRect (h1.unread x1)) shapeCasts_S8x128_S8x128)
    (grp_read M1 h1 x1 ⟨6, by decide⟩) _ rfl _ _ (x 0) (x 1)

set_option maxHeartbeats 1000000 in
/-- Field 7's payload at a local index. -/
theorem pay_7 (x : S128x512.Idx) :
    bodyRun.sl.v1046 (F := F) c M1 (h1.unread x1) x
      = x1 (ix2 ⟨(26 * ((x 1).val / 8) + 7) * 8 + (x 1).val % 8, by have := idx2_lt1 x; omega⟩ (x 0)) := by
  sl_unfold_run_names
  rw [eq_ix2 x]
  exact field_apply_gen x1 ⟨7, by decide⟩
    (fun n => shapeCast S8x128 (View.readAt (Elt F) M1.view (grp ⟨7, by decide⟩ n).toLoadRect (h1.unread x1)) shapeCasts_S8x128_S8x128)
    (grp_read M1 h1 x1 ⟨7, by decide⟩) _ rfl _ _ (x 0) (x 1)

set_option maxHeartbeats 1000000 in
/-- Field 8's payload at a local index. -/
theorem pay_8 (x : S128x512.Idx) :
    bodyRun.sl.v1177 (F := F) c M1 (h1.unread x1) x
      = x1 (ix2 ⟨(26 * ((x 1).val / 8) + 8) * 8 + (x 1).val % 8, by have := idx2_lt1 x; omega⟩ (x 0)) := by
  sl_unfold_run_names
  rw [eq_ix2 x]
  exact field_apply_gen x1 ⟨8, by decide⟩
    (fun n => shapeCast S8x128 (View.readAt (Elt F) M1.view (grp ⟨8, by decide⟩ n).toLoadRect (h1.unread x1)) shapeCasts_S8x128_S8x128)
    (grp_read M1 h1 x1 ⟨8, by decide⟩) _ rfl _ _ (x 0) (x 1)

set_option maxHeartbeats 1000000 in
/-- Field 9's payload at a local index. -/
theorem pay_9 (x : S128x512.Idx) :
    bodyRun.sl.v1308 (F := F) c M1 (h1.unread x1) x
      = x1 (ix2 ⟨(26 * ((x 1).val / 8) + 9) * 8 + (x 1).val % 8, by have := idx2_lt1 x; omega⟩ (x 0)) := by
  sl_unfold_run_names
  rw [eq_ix2 x]
  exact field_apply_gen x1 ⟨9, by decide⟩
    (fun n => shapeCast S8x128 (View.readAt (Elt F) M1.view (grp ⟨9, by decide⟩ n).toLoadRect (h1.unread x1)) shapeCasts_S8x128_S8x128)
    (grp_read M1 h1 x1 ⟨9, by decide⟩) _ rfl _ _ (x 0) (x 1)

set_option maxHeartbeats 1000000 in
/-- Field 10's payload at a local index. -/
theorem pay_10 (x : S128x512.Idx) :
    bodyRun.sl.v1439 (F := F) c M1 (h1.unread x1) x
      = x1 (ix2 ⟨(26 * ((x 1).val / 8) + 10) * 8 + (x 1).val % 8, by have := idx2_lt1 x; omega⟩ (x 0)) := by
  sl_unfold_run_names
  rw [eq_ix2 x]
  exact field_apply_gen x1 ⟨10, by decide⟩
    (fun n => shapeCast S8x128 (View.readAt (Elt F) M1.view (grp ⟨10, by decide⟩ n).toLoadRect (h1.unread x1)) shapeCasts_S8x128_S8x128)
    (grp_read M1 h1 x1 ⟨10, by decide⟩) _ rfl _ _ (x 0) (x 1)

set_option maxHeartbeats 1000000 in
/-- Field 11's payload at a local index. -/
theorem pay_11 (x : S128x512.Idx) :
    bodyRun.sl.v1570 (F := F) c M1 (h1.unread x1) x
      = x1 (ix2 ⟨(26 * ((x 1).val / 8) + 11) * 8 + (x 1).val % 8, by have := idx2_lt1 x; omega⟩ (x 0)) := by
  sl_unfold_run_names
  rw [eq_ix2 x]
  exact field_apply_gen x1 ⟨11, by decide⟩
    (fun n => shapeCast S8x128 (View.readAt (Elt F) M1.view (grp ⟨11, by decide⟩ n).toLoadRect (h1.unread x1)) shapeCasts_S8x128_S8x128)
    (grp_read M1 h1 x1 ⟨11, by decide⟩) _ rfl _ _ (x 0) (x 1)

set_option maxHeartbeats 1000000 in
/-- Field 12's payload at a local index. -/
theorem pay_12 (x : S128x512.Idx) :
    bodyRun.sl.v1701 (F := F) c M1 (h1.unread x1) x
      = x1 (ix2 ⟨(26 * ((x 1).val / 8) + 12) * 8 + (x 1).val % 8, by have := idx2_lt1 x; omega⟩ (x 0)) := by
  sl_unfold_run_names
  rw [eq_ix2 x]
  exact field_apply_gen x1 ⟨12, by decide⟩
    (fun n => shapeCast S8x128 (View.readAt (Elt F) M1.view (grp ⟨12, by decide⟩ n).toLoadRect (h1.unread x1)) shapeCasts_S8x128_S8x128)
    (grp_read M1 h1 x1 ⟨12, by decide⟩) _ rfl _ _ (x 0) (x 1)

set_option maxHeartbeats 1000000 in
/-- Field 13's payload at a local index. -/
theorem pay_13 (x : S128x512.Idx) :
    bodyRun.sl.v1832 (F := F) c M1 (h1.unread x1) x
      = x1 (ix2 ⟨(26 * ((x 1).val / 8) + 13) * 8 + (x 1).val % 8, by have := idx2_lt1 x; omega⟩ (x 0)) := by
  sl_unfold_run_names
  rw [eq_ix2 x]
  exact field_apply_gen x1 ⟨13, by decide⟩
    (fun n => shapeCast S8x128 (View.readAt (Elt F) M1.view (grp ⟨13, by decide⟩ n).toLoadRect (h1.unread x1)) shapeCasts_S8x128_S8x128)
    (grp_read M1 h1 x1 ⟨13, by decide⟩) _ rfl _ _ (x 0) (x 1)

set_option maxHeartbeats 1000000 in
/-- Field 14's payload at a local index. -/
theorem pay_14 (x : S128x512.Idx) :
    bodyRun.sl.v1963 (F := F) c M1 (h1.unread x1) x
      = x1 (ix2 ⟨(26 * ((x 1).val / 8) + 14) * 8 + (x 1).val % 8, by have := idx2_lt1 x; omega⟩ (x 0)) := by
  sl_unfold_run_names
  rw [eq_ix2 x]
  exact field_apply_gen x1 ⟨14, by decide⟩
    (fun n => shapeCast S8x128 (View.readAt (Elt F) M1.view (grp ⟨14, by decide⟩ n).toLoadRect (h1.unread x1)) shapeCasts_S8x128_S8x128)
    (grp_read M1 h1 x1 ⟨14, by decide⟩) _ rfl _ _ (x 0) (x 1)

set_option maxHeartbeats 1000000 in
/-- Field 15's payload at a local index. -/
theorem pay_15 (x : S128x512.Idx) :
    bodyRun.sl.v2094 (F := F) c M1 (h1.unread x1) x
      = x1 (ix2 ⟨(26 * ((x 1).val / 8) + 15) * 8 + (x 1).val % 8, by have := idx2_lt1 x; omega⟩ (x 0)) := by
  sl_unfold_run_names
  rw [eq_ix2 x]
  exact field_apply_gen x1 ⟨15, by decide⟩
    (fun n => shapeCast S8x128 (View.readAt (Elt F) M1.view (grp ⟨15, by decide⟩ n).toLoadRect (h1.unread x1)) shapeCasts_S8x128_S8x128)
    (grp_read M1 h1 x1 ⟨15, by decide⟩) _ rfl _ _ (x 0) (x 1)

set_option maxHeartbeats 1000000 in
/-- Field 16's payload at a local index. -/
theorem pay_16 (x : S128x512.Idx) :
    bodyRun.sl.v2225 (F := F) c M1 (h1.unread x1) x
      = x1 (ix2 ⟨(26 * ((x 1).val / 8) + 16) * 8 + (x 1).val % 8, by have := idx2_lt1 x; omega⟩ (x 0)) := by
  sl_unfold_run_names
  rw [eq_ix2 x]
  exact field_apply_gen x1 ⟨16, by decide⟩
    (fun n => shapeCast S8x128 (View.readAt (Elt F) M1.view (grp ⟨16, by decide⟩ n).toLoadRect (h1.unread x1)) shapeCasts_S8x128_S8x128)
    (grp_read M1 h1 x1 ⟨16, by decide⟩) _ rfl _ _ (x 0) (x 1)

set_option maxHeartbeats 1000000 in
/-- Field 17's payload at a local index. -/
theorem pay_17 (x : S128x512.Idx) :
    bodyRun.sl.v2356 (F := F) c M1 (h1.unread x1) x
      = x1 (ix2 ⟨(26 * ((x 1).val / 8) + 17) * 8 + (x 1).val % 8, by have := idx2_lt1 x; omega⟩ (x 0)) := by
  sl_unfold_run_names
  rw [eq_ix2 x]
  exact field_apply_gen x1 ⟨17, by decide⟩
    (fun n => shapeCast S8x128 (View.readAt (Elt F) M1.view (grp ⟨17, by decide⟩ n).toLoadRect (h1.unread x1)) shapeCasts_S8x128_S8x128)
    (grp_read M1 h1 x1 ⟨17, by decide⟩) _ rfl _ _ (x 0) (x 1)

set_option maxHeartbeats 1000000 in
/-- Field 18's payload at a local index. -/
theorem pay_18 (x : S128x512.Idx) :
    bodyRun.sl.v2487 (F := F) c M1 (h1.unread x1) x
      = x1 (ix2 ⟨(26 * ((x 1).val / 8) + 18) * 8 + (x 1).val % 8, by have := idx2_lt1 x; omega⟩ (x 0)) := by
  sl_unfold_run_names
  rw [eq_ix2 x]
  exact field_apply_gen x1 ⟨18, by decide⟩
    (fun n => shapeCast S8x128 (View.readAt (Elt F) M1.view (grp ⟨18, by decide⟩ n).toLoadRect (h1.unread x1)) shapeCasts_S8x128_S8x128)
    (grp_read M1 h1 x1 ⟨18, by decide⟩) _ rfl _ _ (x 0) (x 1)

set_option maxHeartbeats 1000000 in
/-- Field 19's payload at a local index. -/
theorem pay_19 (x : S128x512.Idx) :
    bodyRun.sl.v2618 (F := F) c M1 (h1.unread x1) x
      = x1 (ix2 ⟨(26 * ((x 1).val / 8) + 19) * 8 + (x 1).val % 8, by have := idx2_lt1 x; omega⟩ (x 0)) := by
  sl_unfold_run_names
  rw [eq_ix2 x]
  exact field_apply_gen x1 ⟨19, by decide⟩
    (fun n => shapeCast S8x128 (View.readAt (Elt F) M1.view (grp ⟨19, by decide⟩ n).toLoadRect (h1.unread x1)) shapeCasts_S8x128_S8x128)
    (grp_read M1 h1 x1 ⟨19, by decide⟩) _ rfl _ _ (x 0) (x 1)

set_option maxHeartbeats 1000000 in
/-- Field 20's payload at a local index. -/
theorem pay_20 (x : S128x512.Idx) :
    bodyRun.sl.v2749 (F := F) c M1 (h1.unread x1) x
      = x1 (ix2 ⟨(26 * ((x 1).val / 8) + 20) * 8 + (x 1).val % 8, by have := idx2_lt1 x; omega⟩ (x 0)) := by
  sl_unfold_run_names
  rw [eq_ix2 x]
  exact field_apply_gen x1 ⟨20, by decide⟩
    (fun n => shapeCast S8x128 (View.readAt (Elt F) M1.view (grp ⟨20, by decide⟩ n).toLoadRect (h1.unread x1)) shapeCasts_S8x128_S8x128)
    (grp_read M1 h1 x1 ⟨20, by decide⟩) _ rfl _ _ (x 0) (x 1)

set_option maxHeartbeats 1000000 in
/-- Field 21's payload at a local index. -/
theorem pay_21 (x : S128x512.Idx) :
    bodyRun.sl.v2880 (F := F) c M1 (h1.unread x1) x
      = x1 (ix2 ⟨(26 * ((x 1).val / 8) + 21) * 8 + (x 1).val % 8, by have := idx2_lt1 x; omega⟩ (x 0)) := by
  sl_unfold_run_names
  rw [eq_ix2 x]
  exact field_apply_gen x1 ⟨21, by decide⟩
    (fun n => shapeCast S8x128 (View.readAt (Elt F) M1.view (grp ⟨21, by decide⟩ n).toLoadRect (h1.unread x1)) shapeCasts_S8x128_S8x128)
    (grp_read M1 h1 x1 ⟨21, by decide⟩) _ rfl _ _ (x 0) (x 1)

set_option maxHeartbeats 1000000 in
/-- Field 22's payload at a local index. -/
theorem pay_22 (x : S128x512.Idx) :
    bodyRun.sl.v3011 (F := F) c M1 (h1.unread x1) x
      = x1 (ix2 ⟨(26 * ((x 1).val / 8) + 22) * 8 + (x 1).val % 8, by have := idx2_lt1 x; omega⟩ (x 0)) := by
  sl_unfold_run_names
  rw [eq_ix2 x]
  exact field_apply_gen x1 ⟨22, by decide⟩
    (fun n => shapeCast S8x128 (View.readAt (Elt F) M1.view (grp ⟨22, by decide⟩ n).toLoadRect (h1.unread x1)) shapeCasts_S8x128_S8x128)
    (grp_read M1 h1 x1 ⟨22, by decide⟩) _ rfl _ _ (x 0) (x 1)

set_option maxHeartbeats 1000000 in
/-- Field 23's payload at a local index. -/
theorem pay_23 (x : S128x512.Idx) :
    bodyRun.sl.v3142 (F := F) c M1 (h1.unread x1) x
      = x1 (ix2 ⟨(26 * ((x 1).val / 8) + 23) * 8 + (x 1).val % 8, by have := idx2_lt1 x; omega⟩ (x 0)) := by
  sl_unfold_run_names
  rw [eq_ix2 x]
  exact field_apply_gen x1 ⟨23, by decide⟩
    (fun n => shapeCast S8x128 (View.readAt (Elt F) M1.view (grp ⟨23, by decide⟩ n).toLoadRect (h1.unread x1)) shapeCasts_S8x128_S8x128)
    (grp_read M1 h1 x1 ⟨23, by decide⟩) _ rfl _ _ (x 0) (x 1)

set_option maxHeartbeats 1000000 in
/-- Field 24's payload at a local index. -/
theorem pay_24 (x : S128x512.Idx) :
    bodyRun.sl.v3273 (F := F) c M1 (h1.unread x1) x
      = x1 (ix2 ⟨(26 * ((x 1).val / 8) + 24) * 8 + (x 1).val % 8, by have := idx2_lt1 x; omega⟩ (x 0)) := by
  sl_unfold_run_names
  rw [eq_ix2 x]
  exact field_apply_gen x1 ⟨24, by decide⟩
    (fun n => shapeCast S8x128 (View.readAt (Elt F) M1.view (grp ⟨24, by decide⟩ n).toLoadRect (h1.unread x1)) shapeCasts_S8x128_S8x128)
    (grp_read M1 h1 x1 ⟨24, by decide⟩) _ rfl _ _ (x 0) (x 1)

set_option maxHeartbeats 1000000 in
/-- Field 25's payload (stored by the body's root sequence) at a local index. -/
theorem pay_25 (x : S128x512.Idx) :
    k3_pay2 (bodyRun.sl.v3403 (F := F) c M1 (h1.unread x1)) x
      = x1 (ix2 ⟨(26 * ((x 1).val / 8) + 25) * 8 + (x 1).val % 8, by have := idx2_lt1 x; omega⟩ (x 0)) := by
  unfold k3_pay2
  sl_unfold_run_names
  unfold k3_pay1
  rw [eq_ix2 x]
  exact field_apply_gen x1 ⟨25, by decide⟩
    (fun n => shapeCast S8x128 (View.readAt (Elt F) M1.view (grp ⟨25, by decide⟩ n).toLoadRect (h1.unread x1)) shapeCasts_S8x128_S8x128)
    (grp_read M1 h1 x1 ⟨25, by decide⟩) _ rfl _ _ (x 0) (x 1)

/-- The first 1 fields' stores leave `G2` on their rows. -/
theorem canon_1 : ∀ y : S3341x512.Idx, (y 0).val < 128 * 1 →
    View.canon (bodyRun.sl.H5_1 (F := F) c M1 (h1.unread x1)) y = G2 x1 x2 x3 x4 y := by
  unfold bodyRun.sl.H5_1
  exact canon_step 0 _ _ _ (G2 x1 x2 x3 x4)
    (fun x => (pay_0 c M1 h1 x1 x).trans (G2_emb x1 x2 x3 x4 0 (by decide) _ x).symm)
    (fun y hy => absurd hy (by omega))

/-- The first 2 fields' stores leave `G2` on their rows. -/
theorem canon_2 : ∀ y : S3341x512.Idx, (y 0).val < 128 * 2 →
    View.canon (bodyRun.sl.H5_2 (F := F) c M1 (h1.unread x1)) y = G2 x1 x2 x3 x4 y := by
  unfold bodyRun.sl.H5_2
  exact canon_step 1 _ _ _ (G2 x1 x2 x3 x4)
    (fun x => (pay_1 c M1 h1 x1 x).trans (G2_emb x1 x2 x3 x4 1 (by decide) _ x).symm)
    (canon_1 c M1 h1 x1 x2 x3 x4)

/-- The first 3 fields' stores leave `G2` on their rows. -/
theorem canon_3 : ∀ y : S3341x512.Idx, (y 0).val < 128 * 3 →
    View.canon (bodyRun.sl.H5_3 (F := F) c M1 (h1.unread x1)) y = G2 x1 x2 x3 x4 y := by
  unfold bodyRun.sl.H5_3
  exact canon_step 2 _ _ _ (G2 x1 x2 x3 x4)
    (fun x => (pay_2 c M1 h1 x1 x).trans (G2_emb x1 x2 x3 x4 2 (by decide) _ x).symm)
    (canon_2 c M1 h1 x1 x2 x3 x4)

/-- The first 4 fields' stores leave `G2` on their rows. -/
theorem canon_4 : ∀ y : S3341x512.Idx, (y 0).val < 128 * 4 →
    View.canon (bodyRun.sl.H5_4 (F := F) c M1 (h1.unread x1)) y = G2 x1 x2 x3 x4 y := by
  unfold bodyRun.sl.H5_4
  exact canon_step 3 _ _ _ (G2 x1 x2 x3 x4)
    (fun x => (pay_3 c M1 h1 x1 x).trans (G2_emb x1 x2 x3 x4 3 (by decide) _ x).symm)
    (canon_3 c M1 h1 x1 x2 x3 x4)

/-- The first 5 fields' stores leave `G2` on their rows. -/
theorem canon_5 : ∀ y : S3341x512.Idx, (y 0).val < 128 * 5 →
    View.canon (bodyRun.sl.H5_5 (F := F) c M1 (h1.unread x1)) y = G2 x1 x2 x3 x4 y := by
  unfold bodyRun.sl.H5_5
  exact canon_step 4 _ _ _ (G2 x1 x2 x3 x4)
    (fun x => (pay_4 c M1 h1 x1 x).trans (G2_emb x1 x2 x3 x4 4 (by decide) _ x).symm)
    (canon_4 c M1 h1 x1 x2 x3 x4)

/-- The first 6 fields' stores leave `G2` on their rows. -/
theorem canon_6 : ∀ y : S3341x512.Idx, (y 0).val < 128 * 6 →
    View.canon (bodyRun.sl.H5_6 (F := F) c M1 (h1.unread x1)) y = G2 x1 x2 x3 x4 y := by
  unfold bodyRun.sl.H5_6
  exact canon_step 5 _ _ _ (G2 x1 x2 x3 x4)
    (fun x => (pay_5 c M1 h1 x1 x).trans (G2_emb x1 x2 x3 x4 5 (by decide) _ x).symm)
    (canon_5 c M1 h1 x1 x2 x3 x4)

/-- The first 7 fields' stores leave `G2` on their rows. -/
theorem canon_7 : ∀ y : S3341x512.Idx, (y 0).val < 128 * 7 →
    View.canon (bodyRun.sl.H5_7 (F := F) c M1 (h1.unread x1)) y = G2 x1 x2 x3 x4 y := by
  unfold bodyRun.sl.H5_7
  exact canon_step 6 _ _ _ (G2 x1 x2 x3 x4)
    (fun x => (pay_6 c M1 h1 x1 x).trans (G2_emb x1 x2 x3 x4 6 (by decide) _ x).symm)
    (canon_6 c M1 h1 x1 x2 x3 x4)

/-- The first 8 fields' stores leave `G2` on their rows. -/
theorem canon_8 : ∀ y : S3341x512.Idx, (y 0).val < 128 * 8 →
    View.canon (bodyRun.sl.H5_8 (F := F) c M1 (h1.unread x1)) y = G2 x1 x2 x3 x4 y := by
  unfold bodyRun.sl.H5_8
  exact canon_step 7 _ _ _ (G2 x1 x2 x3 x4)
    (fun x => (pay_7 c M1 h1 x1 x).trans (G2_emb x1 x2 x3 x4 7 (by decide) _ x).symm)
    (canon_7 c M1 h1 x1 x2 x3 x4)

/-- The first 9 fields' stores leave `G2` on their rows. -/
theorem canon_9 : ∀ y : S3341x512.Idx, (y 0).val < 128 * 9 →
    View.canon (bodyRun.sl.H5_9 (F := F) c M1 (h1.unread x1)) y = G2 x1 x2 x3 x4 y := by
  unfold bodyRun.sl.H5_9
  exact canon_step 8 _ _ _ (G2 x1 x2 x3 x4)
    (fun x => (pay_8 c M1 h1 x1 x).trans (G2_emb x1 x2 x3 x4 8 (by decide) _ x).symm)
    (canon_8 c M1 h1 x1 x2 x3 x4)

/-- The first 10 fields' stores leave `G2` on their rows. -/
theorem canon_10 : ∀ y : S3341x512.Idx, (y 0).val < 128 * 10 →
    View.canon (bodyRun.sl.H5_10 (F := F) c M1 (h1.unread x1)) y = G2 x1 x2 x3 x4 y := by
  unfold bodyRun.sl.H5_10
  exact canon_step 9 _ _ _ (G2 x1 x2 x3 x4)
    (fun x => (pay_9 c M1 h1 x1 x).trans (G2_emb x1 x2 x3 x4 9 (by decide) _ x).symm)
    (canon_9 c M1 h1 x1 x2 x3 x4)

/-- The first 11 fields' stores leave `G2` on their rows. -/
theorem canon_11 : ∀ y : S3341x512.Idx, (y 0).val < 128 * 11 →
    View.canon (bodyRun.sl.H5_11 (F := F) c M1 (h1.unread x1)) y = G2 x1 x2 x3 x4 y := by
  unfold bodyRun.sl.H5_11
  exact canon_step 10 _ _ _ (G2 x1 x2 x3 x4)
    (fun x => (pay_10 c M1 h1 x1 x).trans (G2_emb x1 x2 x3 x4 10 (by decide) _ x).symm)
    (canon_10 c M1 h1 x1 x2 x3 x4)

/-- The first 12 fields' stores leave `G2` on their rows. -/
theorem canon_12 : ∀ y : S3341x512.Idx, (y 0).val < 128 * 12 →
    View.canon (bodyRun.sl.H5_12 (F := F) c M1 (h1.unread x1)) y = G2 x1 x2 x3 x4 y := by
  unfold bodyRun.sl.H5_12
  exact canon_step 11 _ _ _ (G2 x1 x2 x3 x4)
    (fun x => (pay_11 c M1 h1 x1 x).trans (G2_emb x1 x2 x3 x4 11 (by decide) _ x).symm)
    (canon_11 c M1 h1 x1 x2 x3 x4)

/-- The first 13 fields' stores leave `G2` on their rows. -/
theorem canon_13 : ∀ y : S3341x512.Idx, (y 0).val < 128 * 13 →
    View.canon (bodyRun.sl.H5_13 (F := F) c M1 (h1.unread x1)) y = G2 x1 x2 x3 x4 y := by
  unfold bodyRun.sl.H5_13
  exact canon_step 12 _ _ _ (G2 x1 x2 x3 x4)
    (fun x => (pay_12 c M1 h1 x1 x).trans (G2_emb x1 x2 x3 x4 12 (by decide) _ x).symm)
    (canon_12 c M1 h1 x1 x2 x3 x4)

/-- The first 14 fields' stores leave `G2` on their rows. -/
theorem canon_14 : ∀ y : S3341x512.Idx, (y 0).val < 128 * 14 →
    View.canon (bodyRun.sl.H5_14 (F := F) c M1 (h1.unread x1)) y = G2 x1 x2 x3 x4 y := by
  unfold bodyRun.sl.H5_14
  exact canon_step 13 _ _ _ (G2 x1 x2 x3 x4)
    (fun x => (pay_13 c M1 h1 x1 x).trans (G2_emb x1 x2 x3 x4 13 (by decide) _ x).symm)
    (canon_13 c M1 h1 x1 x2 x3 x4)

/-- The first 15 fields' stores leave `G2` on their rows. -/
theorem canon_15 : ∀ y : S3341x512.Idx, (y 0).val < 128 * 15 →
    View.canon (bodyRun.sl.H5_15 (F := F) c M1 (h1.unread x1)) y = G2 x1 x2 x3 x4 y := by
  unfold bodyRun.sl.H5_15
  exact canon_step 14 _ _ _ (G2 x1 x2 x3 x4)
    (fun x => (pay_14 c M1 h1 x1 x).trans (G2_emb x1 x2 x3 x4 14 (by decide) _ x).symm)
    (canon_14 c M1 h1 x1 x2 x3 x4)

/-- The first 16 fields' stores leave `G2` on their rows. -/
theorem canon_16 : ∀ y : S3341x512.Idx, (y 0).val < 128 * 16 →
    View.canon (bodyRun.sl.H5_16 (F := F) c M1 (h1.unread x1)) y = G2 x1 x2 x3 x4 y := by
  unfold bodyRun.sl.H5_16
  exact canon_step 15 _ _ _ (G2 x1 x2 x3 x4)
    (fun x => (pay_15 c M1 h1 x1 x).trans (G2_emb x1 x2 x3 x4 15 (by decide) _ x).symm)
    (canon_15 c M1 h1 x1 x2 x3 x4)

/-- The first 17 fields' stores leave `G2` on their rows. -/
theorem canon_17 : ∀ y : S3341x512.Idx, (y 0).val < 128 * 17 →
    View.canon (bodyRun.sl.H5_17 (F := F) c M1 (h1.unread x1)) y = G2 x1 x2 x3 x4 y := by
  unfold bodyRun.sl.H5_17
  exact canon_step 16 _ _ _ (G2 x1 x2 x3 x4)
    (fun x => (pay_16 c M1 h1 x1 x).trans (G2_emb x1 x2 x3 x4 16 (by decide) _ x).symm)
    (canon_16 c M1 h1 x1 x2 x3 x4)

/-- The first 18 fields' stores leave `G2` on their rows. -/
theorem canon_18 : ∀ y : S3341x512.Idx, (y 0).val < 128 * 18 →
    View.canon (bodyRun.sl.H5_18 (F := F) c M1 (h1.unread x1)) y = G2 x1 x2 x3 x4 y := by
  unfold bodyRun.sl.H5_18
  exact canon_step 17 _ _ _ (G2 x1 x2 x3 x4)
    (fun x => (pay_17 c M1 h1 x1 x).trans (G2_emb x1 x2 x3 x4 17 (by decide) _ x).symm)
    (canon_17 c M1 h1 x1 x2 x3 x4)

/-- The first 19 fields' stores leave `G2` on their rows. -/
theorem canon_19 : ∀ y : S3341x512.Idx, (y 0).val < 128 * 19 →
    View.canon (bodyRun.sl.H5_19 (F := F) c M1 (h1.unread x1)) y = G2 x1 x2 x3 x4 y := by
  unfold bodyRun.sl.H5_19
  exact canon_step 18 _ _ _ (G2 x1 x2 x3 x4)
    (fun x => (pay_18 c M1 h1 x1 x).trans (G2_emb x1 x2 x3 x4 18 (by decide) _ x).symm)
    (canon_18 c M1 h1 x1 x2 x3 x4)

/-- The first 20 fields' stores leave `G2` on their rows. -/
theorem canon_20 : ∀ y : S3341x512.Idx, (y 0).val < 128 * 20 →
    View.canon (bodyRun.sl.H5_20 (F := F) c M1 (h1.unread x1)) y = G2 x1 x2 x3 x4 y := by
  unfold bodyRun.sl.H5_20
  exact canon_step 19 _ _ _ (G2 x1 x2 x3 x4)
    (fun x => (pay_19 c M1 h1 x1 x).trans (G2_emb x1 x2 x3 x4 19 (by decide) _ x).symm)
    (canon_19 c M1 h1 x1 x2 x3 x4)

/-- The first 21 fields' stores leave `G2` on their rows. -/
theorem canon_21 : ∀ y : S3341x512.Idx, (y 0).val < 128 * 21 →
    View.canon (bodyRun.sl.H5_21 (F := F) c M1 (h1.unread x1)) y = G2 x1 x2 x3 x4 y := by
  unfold bodyRun.sl.H5_21
  exact canon_step 20 _ _ _ (G2 x1 x2 x3 x4)
    (fun x => (pay_20 c M1 h1 x1 x).trans (G2_emb x1 x2 x3 x4 20 (by decide) _ x).symm)
    (canon_20 c M1 h1 x1 x2 x3 x4)

/-- The first 22 fields' stores leave `G2` on their rows. -/
theorem canon_22 : ∀ y : S3341x512.Idx, (y 0).val < 128 * 22 →
    View.canon (bodyRun.sl.H5_22 (F := F) c M1 (h1.unread x1)) y = G2 x1 x2 x3 x4 y := by
  unfold bodyRun.sl.H5_22
  exact canon_step 21 _ _ _ (G2 x1 x2 x3 x4)
    (fun x => (pay_21 c M1 h1 x1 x).trans (G2_emb x1 x2 x3 x4 21 (by decide) _ x).symm)
    (canon_21 c M1 h1 x1 x2 x3 x4)

/-- The first 23 fields' stores leave `G2` on their rows. -/
theorem canon_23 : ∀ y : S3341x512.Idx, (y 0).val < 128 * 23 →
    View.canon (bodyRun.sl.H5_23 (F := F) c M1 (h1.unread x1)) y = G2 x1 x2 x3 x4 y := by
  unfold bodyRun.sl.H5_23
  exact canon_step 22 _ _ _ (G2 x1 x2 x3 x4)
    (fun x => (pay_22 c M1 h1 x1 x).trans (G2_emb x1 x2 x3 x4 22 (by decide) _ x).symm)
    (canon_22 c M1 h1 x1 x2 x3 x4)

/-- The first 24 fields' stores leave `G2` on their rows. -/
theorem canon_24 : ∀ y : S3341x512.Idx, (y 0).val < 128 * 24 →
    View.canon (bodyRun.sl.H5_24 (F := F) c M1 (h1.unread x1)) y = G2 x1 x2 x3 x4 y := by
  unfold bodyRun.sl.H5_24
  exact canon_step 23 _ _ _ (G2 x1 x2 x3 x4)
    (fun x => (pay_23 c M1 h1 x1 x).trans (G2_emb x1 x2 x3 x4 23 (by decide) _ x).symm)
    (canon_23 c M1 h1 x1 x2 x3 x4)

/-- The first 25 fields' stores leave `G2` on their rows. -/
theorem canon_25 : ∀ y : S3341x512.Idx, (y 0).val < 128 * 25 →
    View.canon (bodyRun.sl.H5_25 (F := F) c M1 (h1.unread x1)) y = G2 x1 x2 x3 x4 y := by
  unfold bodyRun.sl.H5_25
  exact canon_step 24 _ _ _ (G2 x1 x2 x3 x4)
    (fun x => (pay_24 c M1 h1 x1 x).trans (G2_emb x1 x2 x3 x4 24 (by decide) _ x).symm)
    (canon_24 c M1 h1 x1 x2 x3 x4)

end Cert.Proof.Tc3

end
-- ==== Proof.TcValue3Top.lean ====
/-
  What the second TensorCore kernel body leaves in its output block: all 27 stores together leave `G2` of what the four input
  memrefs read, so the result window's buffer after the body at point `t` is `G2` of the four input blocks there.
-/
import proofs.«202673_g7318624272670_cont_9to1c4b_526_24_alg».proof.Proof.TcValue3

noncomputable section

namespace Cert.Proof.Tc3

open Cert.KernelIdeal Cert.KernelIdeal.Gen

open Idealize.ShloMosaic Idealize.ShloMosaic.ValueIdx
open Idealize.ShloMosaic.TcCoe Idealize.ShloMosaic.Tactic
open Idealize.SL Idealize.SL.RA
open Idealize.ShloMosaic.SparseCore.Cfg (HIx)

variable {F : FTy → Type} [FloatOps F]
variable {U : Type} [URA U]

variable (c : Dev nD) (M1 : Memref sig .tc .vmem S13312x128 .f32) (h1 : M1.IsWhole) (M2 : Memref sig .tc .vmem S13x512 .f32) (h2 : M2.IsWhole)
  (M3 : Memref sig .tc .vmem S13x1 .f32) (h3 : M3.IsWhole) (M4 : Memref sig .tc .vmem S13x1 .f32) (h4 : M4.IsWhole)
  (x1 : Vec F S13312x128 .f32) (x2 : Vec F S13x512 .f32) (x3 : Vec F S13x1 .f32) (x4 : Vec F S13x1 .f32)

theorem hz2 : (![0, 0] : Fin 2 → Nat) = fun _ => 0 := funext fun a => by match a with | ⟨0, _⟩ => rfl | ⟨1, _⟩ => rfl

/-- The dense rows' payload at a local index: the program's own arithmetic over what the three small memrefs read. -/
theorem pay_rows (x : S13x512.Idx) :
    k3_pay3 (View.readAt (Elt F) M3.view (Rect.unit (s := S13x1) ![0, 0] S13x1.size inb_S13x1_S13x1_0_0).toLoadRect (h3.unread x3))
        (View.readAt (Elt F) M4.view (Rect.unit (s := S13x1) ![0, 0] S13x1.size inb_S13x1_S13x1_0_0).toLoadRect (h4.unread x4))
        (View.readAt (Elt F) M2.view (Rect.unit (s := S13x512) ![0, 0] S13x512.size inb_S13x512_S13x512_0_0).toLoadRect (h2.unread x2)) x
      = G2 x1 x2 x3 x4 ((Rect.unit (s := S3341x512) ![3328, 0] S13x512.size inb_S3341x512_S13x512_3328_0).emb x) := by
  have e0 : (((Rect.unit (s := S3341x512) ![3328, 0] S13x512.size inb_S3341x512_S13x512_3328_0).emb x) 0).val = 3328 + 1 * (x 0).val := rfl
  have e1 : (((Rect.unit (s := S3341x512) ![3328, 0] S13x512.size inb_S3341x512_S13x512_3328_0).emb x) 1).val = 0 + 1 * (x 1).val := rfl
  unfold G2
  rw [dif_neg (by rw [e0]; omega)]
  simp only [View.readAt_eq_ld, h2.read_unread, h3.read_unread, h4.read_unread, View.ld_unit_zero (S := S13x1) hz2, View.ld_unit_zero (S := S13x512) hz2]
  refine congrArg (k3_pay3 x3 x4 x2) (funext fun a => ?_)
  match a with
  | ⟨0, _⟩ =>
    refine Fin.ext ?_
    show (x 0).val = (((Rect.unit (s := S3341x512) ![3328, 0] S13x512.size inb_S3341x512_S13x512_3328_0).emb x) 0).val - 3328
    rw [e0]; omega
  | ⟨1, _⟩ =>
    refine Fin.ext ?_
    show (x 1).val = (((Rect.unit (s := S3341x512) ![3328, 0] S13x512.size inb_S3341x512_S13x512_3328_0).emb x) 1).val
    rw [e1]; omega

/-- All 27 stores leave `G2`. -/
theorem canon_all (y : S3341x512.Idx) :
    View.canon (bodyRun.sl.H5_27 (F := F) c M1 M2 M3 M4 (h1.unread x1) (h2.unread x2) (h3.unread x3) (h4.unread x4)) y = G2 x1 x2 x3 x4 y := by
  unfold bodyRun.sl.H5_27
  by_cases hm : 3328 ≤ (y 0).val
  · have hmem : y ∈ (Rect.unit (s := S3341x512) ![3328, 0] S13x512.size inb_S3341x512_S13x512_3328_0).set :=
      Rect.mem_set_unit.mpr fun a => match a with
        | ⟨0, _⟩ => ⟨hm, by show (y 0).val < 3328 + 13; have := idx2_lt0 y; omega⟩
        | ⟨1, _⟩ => ⟨Nat.zero_le _, by show (y 1).val < 0 + 512; have := idx2_lt1 y; omega⟩
    obtain ⟨x, rfl⟩ := (Rect.unit (s := S3341x512) ![3328, 0] S13x512.size inb_S3341x512_S13x512_3328_0).exists_idx_of_mem hmem
    exact (View.canon_cons_emb (Rect.unit (s := S3341x512) ![3328, 0] S13x512.size inb_S3341x512_S13x512_3328_0) _ _ x).trans
      (pay_rows M2 h2 M3 h3 M4 h4 x1 x2 x3 x4 x)
  · have hnot : y ∉ (Rect.unit (s := S3341x512) ![3328, 0] S13x512.size inb_S3341x512_S13x512_3328_0).set :=
      fun hmem => hm ((Rect.mem_set_unit.mp hmem) (0 : Fin 2)).1
    refine (View.canon_cons_of_not_mem ⟨Rect.unit (s := S3341x512) ![3328, 0] S13x512.size inb_S3341x512_S13x512_3328_0, _⟩ _ hnot).trans ?_
    exact canon_step 25 _ _ _ (G2 x1 x2 x3 x4)
      (fun x => (pay_25 c M1 h1 x1 x).trans (G2_emb x1 x2 x3 x4 25 (by decide) _ x).symm)
      (canon_25 c M1 h1 x1 x2 x3 x4) y (by omega)

/-- What the output memref reads after the body is the canon of the 27 stores the run found. -/
theorem out3_eq_canon (i : grid3.Coords) (M0 : Memref sig .tc .hbm S3341x16384 .f32) (h0 : M0.IsWhole) (M5 : Memref sig .tc .vmem S3341x512 .f32) (h5 : M5.IsWhole) :
    out3 (U := U) c i M0 h0 M1 h1 M2 h2 M3 h3 M4 h4 M5 h5 x1 x2 x3 x4
      = View.canon (bodyRun.sl.H5_27 (F := F) c M1 M2 M3 M4 (h1.unread x1) (h2.unread x2) (h3.unread x3) (h4.unread x4)) := by
  unfold out3 bodyRun
  exact View.read_writes_junk_eq_canon _ _

/-- **The output block after the body, index by index**: rows `128 f + dd` at column `s` hold the gathered rows' block at
    `((26 (s / 8) + f) · 8 + s % 8, dd)`; rows `3328 + k` the scaled dense features. -/
theorem out3_eq (i : grid3.Coords) (M0 : Memref sig .tc .hbm S3341x16384 .f32) (h0 : M0.IsWhole) (M5 : Memref sig .tc .vmem S3341x512 .f32) (h5 : M5.IsWhole) :
    out3 (U := U) c i M0 h0 M1 h1 M2 h2 M3 h3 M4 h4 M5 h5 x1 x2 x3 x4 = G2 x1 x2 x3 x4 := by
  rw [out3_eq_canon]
  exact funext (canon_all c M1 h1 M2 h2 M3 h3 M4 h4 x1 x2 x3 x4)

/-- So at every point the result window's staging buffer is left at `G2` of the four input windows' blocks. -/
theorem outAt_eq (V : (c : Dev nD) → (b : Ref sig .tc) → Buf (Elt F) ((c : Thread nD τ).loc b)) (t : Fin cfg3.N) :
    outAt (U := U) V c t = G2 (iblk3 V c 0 t) (iblk3 V c 1 t) (iblk3 V c 2 t) (iblk3 V c 3 t) := by
  unfold outAt
  exact out3_eq (U := U) c ..

end Cert.Proof.Tc3

end
-- ==== Proof.TcDense.lean ====
/-
  The dense features' payload of the two TensorCore kernel bodies, element by element: at row `k`, column `s` the dense
  feature less the row's lower bound, over the row's range (the program's own subtraction and division).
-/
import proofs.«202673_g7318624272670_cont_9to1c4b_526_24_alg».proof.Proof.TcValue2Top
import proofs.«202673_g7318624272670_cont_9to1c4b_526_24_alg».proof.Proof.TcValue3Top

noncomputable section

namespace Cert.Proof.TcDense

open Cert.KernelIdeal Cert.KernelIdeal.Gen
open Idealize.ShloMosaic Idealize.ShloMosaic.ValueIdx

variable {F : FTy → Type} [FloatOps F]

/-- The column of a 13 × 1 bound broadcast along 512 columns. -/
theorem bcast_col (x : Vec F S13x1 .f32) (k : Fin 13) (s : Fin 512) :
    broadcastTo S13x512 x broadcasts_S13x1_S13x512 (ix2 k s) = x (ix2 k 0) :=
  broadcastTo_apply x broadcasts_S13x1_S13x512 (ix2 k s) (ix2 k 0) fun a => by
    match a with
    | ⟨0, _⟩ => show k.val = if (13 : ℕ) = 1 then 0 else k.val; simp
    | ⟨1, _⟩ => show (0 : ℕ) = if (1 : ℕ) = 1 then 0 else s.val; simp

theorem pay3_apply2 (x3 x4 : Vec F S13x1 .f32) (x2 : Vec F S13x512 .f32) (k : Fin 13) (s : Fin 512) :
    k2_pay3 x3 x4 x2 (ix2 k s)
      = FloatOps.divf (FloatOps.subf (x2 (ix2 k s)) (x3 (ix2 k 0))) (FloatOps.subf (x4 (ix2 k 0)) (x3 (ix2 k 0))) := by
  unfold k2_pay3
  simp only [shapeCast_self]
  show FloatOps.divf (FloatOps.subf (x2 (ix2 k s)) (broadcastTo S13x512 x3 broadcasts_S13x1_S13x512 (ix2 k s)))
      (broadcastTo S13x512 (subf x4 x3) broadcasts_S13x1_S13x512 (ix2 k s)) = _
  rw [bcast_col, bcast_col]
  rfl

theorem pay3_apply3 (x3 x4 : Vec F S13x1 .f32) (x2 : Vec F S13x512 .f32) (k : Fin 13) (s : Fin 512) :
    k3_pay3 x3 x4 x2 (ix2 k s)
      = FloatOps.divf (FloatOps.subf (x2 (ix2 k s)) (x3 (ix2 k 0))) (FloatOps.subf (x4 (ix2 k 0)) (x3 (ix2 k 0))) := by
  unfold k3_pay3
  simp only [shapeCast_self]
  show FloatOps.divf (FloatOps.subf (x2 (ix2 k s)) (broadcastTo S13x512 x3 broadcasts_S13x1_S13x512 (ix2 k s)))
      (broadcastTo S13x512 (subf x4 x3) broadcasts_S13x1_S13x512 (ix2 k s)) = _
  rw [bcast_col, bcast_col]
  rfl

end Cert.Proof.TcDense

end
-- ==== Proof.TcBlock2.lean ====
/-
  What the first TensorCore kernel body leaves at a point, read off the region's ARRAYS: the field rows from the gathered array's rows
  of the point's block, the dense rows from the dense features' columns of the point's block and the two bounds.
-/
import proofs.«202673_g7318624272670_cont_9to1c4b_526_24_alg».proof.Proof.TcArray2
import proofs.«202673_g7318624272670_cont_9to1c4b_526_24_alg».proof.Proof.TcDense

noncomputable section

namespace Cert.Proof.Tc2

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]

variable (V : (c : Dev nD) → (b : Ref sig .tc) → Buf (Elt F) ((c : Thread nD τ).loc b))

/-- The input windows' index maps, decided over the grid. -/
theorem idx_in : ∀ t : Fin cfg2.N, win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- **The body's result at point `t`, from the arrays.** -/
theorem Gblock (c : Dev nD) (t : Fin cfg2.N) (y : S3341x512.Idx) :
    G2 (iblk2 V c 0 t) (iblk2 V c 1 t) (iblk2 V c 2 t) (iblk2 V c 3 t) y
      = if h : (y 0).val < 3328 then
          V c main_v6 (ix2 ⟨13312 * t.val + ((26 * ((y 1).val / 8) + (y 0).val / 128) * 8 + (y 1).val % 8), by
              have := idx2_lt1 y; have hN : cfg2.N = 16 := N_2; have := t.isLt; omega⟩ ⟨(y 0).val % 128, Nat.mod_lt _ (by omega)⟩)
        else
          FloatOps.divf
            (FloatOps.subf (V c main_v10 (ix2 ⟨(y 0).val - 3328, by have := idx2_lt0 y; omega⟩ ⟨512 * t.val + (y 1).val, by
                have := idx2_lt1 y; have hN : cfg2.N = 16 := N_2; have := t.isLt; omega⟩))
              (V c main_v2 (ix2 ⟨(y 0).val - 3328, by have := idx2_lt0 y; omega⟩ (0 : Fin 1))))
            (FloatOps.subf (V c main_v3 (ix2 ⟨(y 0).val - 3328, by have := idx2_lt0 y; omega⟩ (0 : Fin 1)))
              (V c main_v2 (ix2 ⟨(y 0).val - 3328, by have := idx2_lt0 y; omega⟩ (0 : Fin 1)))) := by
  obtain ⟨e00, e01, e10, e11, e20, e21, e30, e31⟩ := idx_in t
  have l0 := idx2_lt0 y
  have l1 := idx2_lt1 y
  unfold G2
  split
  · rename_i h
    show V c main_v6 (((cfg2.win 0).blk t).view.emb (ix2 ⟨(26 * ((y 1).val / 8) + (y 0).val / 128) * 8 + (y 1).val % 8, _⟩ ⟨(y 0).val % 128, _⟩)) = _
    refine congrArg (V c main_v6) (funext fun a => Fin.ext ?_)
    match a with
    | ⟨0, _⟩ =>
      show win2_0.index t (0 : Fin 2) * 13312 + 1 * ((26 * ((y 1).val / 8) + (y 0).val / 128) * 8 + (y 1).val % 8)
        = 13312 * t.val + ((26 * ((y 1).val / 8) + (y 0).val / 128) * 8 + (y 1).val % 8)
      rw [e00]; omega
    | ⟨1, _⟩ =>
      show win2_0.index t (1 : Fin 2) * 128 + 1 * ((y 0).val % 128) = (y 0).val % 128
      rw [e01]; omega
  · rename_i h
    refine (Cert.Proof.TcDense.pay3_apply2 (iblk2 V c 2 t) (iblk2 V c 3 t) (iblk2 V c 1 t) ⟨(y 0).val - 3328, by omega⟩ ⟨(y 1).val, l1⟩).trans ?_
    have r1 : iblk2 V c 1 t (ix2 (⟨(y 0).val - 3328, by omega⟩ : Fin 13) (⟨(y 1).val, l1⟩ : Fin 512))
        = V c main_v10 (ix2 ⟨(y 0).val - 3328, by omega⟩ ⟨512 * t.val + (y 1).val, by have hN : cfg2.N = 16 := N_2; have := t.isLt; omega⟩) := by
      show V c main_v10 (((cfg2.win 1).blk t).view.emb (ix2 (⟨(y 0).val - 3328, _⟩ : Fin 13) (⟨(y 1).val, l1⟩ : Fin 512))) = _
      refine congrArg (V c main_v10) (funext fun a => Fin.ext ?_)
      match a with
      | ⟨0, _⟩ => show win2_1.index t (0 : Fin 2) * 13 + 1 * ((y 0).val - 3328) = (y 0).val - 3328; rw [e10]; omega
      | ⟨1, _⟩ => show win2_1.index t (1 : Fin 2) * 512 + 1 * (y 1).val = 512 * t.val + (y 1).val; rw [e11]; omega
    have r2 : iblk2 V c 2 t (ix2 (⟨(y 0).val - 3328, by omega⟩ : Fin 13) (0 : Fin 1)) = V c main_v2 (ix2 ⟨(y 0).val - 3328, by omega⟩ (0 : Fin 1)) := by
      show V c main_v2 (((cfg2.win 2).blk t).view.emb (ix2 ⟨(y 0).val - 3328, _⟩ (0 : Fin 1))) = _
      refine congrArg (V c main_v2) (funext fun a => Fin.ext ?_)
      match a with
      | ⟨0, _⟩ => show win2_2.index t (0 : Fin 2) * 13 + 1 * ((y 0).val - 3328) = (y 0).val - 3328; rw [e20]; omega
      | ⟨1, _⟩ => show win2_2.index t (1 : Fin 2) * 1 + 1 * 0 = 0; rw [e21]
    have r3 : iblk2 V c 3 t (ix2 (⟨(y 0).val - 3328, by omega⟩ : Fin 13) (0 : Fin 1)) = V c main_v3 (ix2 ⟨(y 0).val - 3328, by omega⟩ (0 : Fin 1)) := by
      show V c main_v3 (((cfg2.win 3).blk t).view.emb (ix2 ⟨(y 0).val - 3328, _⟩ (0 : Fin 1))) = _
      refine congrArg (V c main_v3) (funext fun a => Fin.ext ?_)
      match a with
      | ⟨0, _⟩ => show win2_3.index t (0 : Fin 2) * 13 + 1 * ((y 0).val - 3328) = (y 0).val - 3328; rw [e30]; omega
      | ⟨1, _⟩ => show win2_3.index t (1 : Fin 2) * 1 + 1 * 0 = 0; rw [e31]
    rw [r1, r2, r3]

end Cert.Proof.Tc2

end
-- ==== Proof.TcPoint2.lean ====
/-
  The result array after the first TensorCore region, element by element, on the columns the region writes: row `r`, column
  `c` of the region's half is the gathered array's row `(c / 8 · 26 + r / 128) · 8 + c % 8` at lane `r % 128` (`r < 3328`), or
  the dense feature `r − 3328` of sample `c` scaled by its bounds.
-/
import proofs.«202673_g7318624272670_cont_9to1c4b_526_24_alg».proof.Proof.TcBlock2

noncomputable section

namespace Cert.Proof.Tc2

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]
variable {U : Type} [URA U]

/-- One region's result at row `r`, column `c` of its half, from the gathered array `e`, the half's dense features `xs` and
    the two bounds. -/
def blockVal (e : S212992x128.Idx → Elt F .f32) (xs : S13x8192.Idx → Elt F .f32) (mn mx : S13x1.Idx → Elt F .f32)
    (r : Fin 3341) (c : Fin 8192) : Elt F .f32 :=
  if h : r.val < 3328 then
    e (ix2 ⟨(c.val / 8 * 26 + r.val / 128) * 8 + c.val % 8, by have := c.isLt; omega⟩ ⟨r.val % 128, Nat.mod_lt _ (by omega)⟩)
  else
    FloatOps.divf (FloatOps.subf (xs (ix2 ⟨r.val - 3328, by have := r.isLt; omega⟩ c)) (mn (ix2 ⟨r.val - 3328, by have := r.isLt; omega⟩ (0 : Fin 1))))
      (FloatOps.subf (mx (ix2 ⟨r.val - 3328, by have := r.isLt; omega⟩ (0 : Fin 1))) (mn (ix2 ⟨r.val - 3328, by have := r.isLt; omega⟩ (0 : Fin 1))))

variable (V : (c : Dev nD) → (b : Ref sig .tc) → Buf (Elt F) ((c : Thread nD τ).loc b))
  (W₀ : Dev nD → Finset (SemLoc sig × HIx 2))

/-- **The region's result array on the columns it writes.** -/
theorem region_apply (c : Dev nD) (j : Fin 3341) (b : Fin 16384) (hb : b.val < 8192) :
    (dat2 (U := U) V W₀ (outAt (U := U) V) c).arrAt 4 cfg2.N (ix2 j b)
      = blockVal (V c main_v6) (V c main_v10) (V c main_v2) (V c main_v3) j ⟨b.val, hb⟩ := by
  have hbl := b.isLt
  have hjl := j.isLt
  rw [final]
  show (if 0 ≤ b.val ∧ b.val < 8192 then Gfull V c (ix2 j b) else V c main_v11 (ix2 j b)) = _
  rw [if_pos ⟨by omega, by omega⟩]
  unfold Gfull
  rw [Gblock]
  unfold blockVal
  show (if h : j.val < 3328 then _ else _) = (if h : j.val < 3328 then _ else _)
  have ht : (tOf (ix2 j b : S3341x16384.Idx)).val = b.val / 512 % 16 := rfl
  by_cases h : j.val < 3328
  · rw [dif_pos h, dif_pos h]
    refine congrArg (V c main_v6) (funext fun a => Fin.ext ?_)
    match a with
    | ⟨0, _⟩ =>
      show 13312 * (tOf (ix2 j b : S3341x16384.Idx)).val + ((26 * (b.val % 512 / 8) + j.val / 128) * 8 + b.val % 512 % 8)
        = ((b.val - 0) / 8 * 26 + j.val / 128) * 8 + (b.val - 0) % 8
      rw [ht]; omega
    | ⟨1, _⟩ => rfl
  · rw [dif_neg h, dif_neg h]
    have e1 : (ix2 (⟨j.val - 3328, by omega⟩ : Fin 13) (⟨512 * (tOf (ix2 j b : S3341x16384.Idx)).val + b.val % 512, by rw [ht]; omega⟩ : Fin 8192) : S13x8192.Idx)
        = ix2 (⟨j.val - 3328, by omega⟩ : Fin 13) (⟨b.val, hb⟩ : Fin 8192) := by
      refine congrArg (ix2 _) (Fin.ext ?_)
      show 512 * (tOf (ix2 j b : S3341x16384.Idx)).val + b.val % 512 = b.val - 0
      rw [ht]; omega
    show FloatOps.divf (FloatOps.subf (V c main_v10 (ix2 (⟨j.val - 3328, _⟩ : Fin 13) (⟨512 * (tOf (ix2 j b : S3341x16384.Idx)).val + b.val % 512, _⟩ : Fin 8192))) _) _ = _
    rw [e1]

end Cert.Proof.Tc2

end
-- ==== Proof.TcArray3.lean ====
/-
  The result array after the second TensorCore region, as one function of the arrays the region finds: on the columns its sixteen
  write-backs cover, block by block, what the body leaves (`G2` of the four input windows' blocks at the point that writes
  the column's block); elsewhere what the array held at the region's entry.
-/
import proofs.«202673_g7318624272670_cont_9to1c4b_526_24_alg».proof.Proof.TcValue3Top

noncomputable section

namespace Cert.Proof.Tc3

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]
variable {U : Type} [URA U]

variable (V : (c : Dev nD) → (b : Ref sig .tc) → Buf (Elt F) ((c : Thread nD τ).loc b))
  (W₀ : Dev nD → Finset (SemLoc sig × HIx 2))

/-- The result window's index map, decided over the grid: block row 0, block column `16 + t`. -/
theorem idx_out : ∀ t : Fin cfg3.N, win3_4.index t (0 : Fin 2) = 0 ∧ win3_4.index t (1 : Fin 2) = 16 + t.val :=
  (by decide +kernel : ∀ t : Fin grid3.N, _)

/-- The point that writes back column `col`'s block (any point for a column no write-back covers). -/
def tOf (i : S3341x16384.Idx) : Fin cfg3.N := ⟨((i 1).val / 512) % 16, by show _ < grid3.N; rw [N_3]; omega⟩

/-- What the write-backs leave, as a function of the array index: the body's result at the point that writes the
    column's block, at the column's position inside the block. -/
def Gfull (c : Dev nD) : S3341x16384.Idx → Elt F .f32 := fun i =>
  G2 (iblk3 V c 0 (tOf i)) (iblk3 V c 1 (tOf i)) (iblk3 V c 2 (tOf i)) (iblk3 V c 3 (tOf i))
    (ix2 (i 0) ⟨(i 1).val % 512, Nat.mod_lt _ (by omega)⟩)

/-- WHAT POINT `t` WRITES BACK is block `t` of `Gfull`. -/
theorem flushed_eq (c : Dev nD) (t : Fin cfg3.N) :
    (dat3 (U := U) V W₀ (outAt (U := U) V) c).flushed 4 t = ((cfg3.win 4).blk t).view.read (Elt F) (Gfull V c) := by
  show (cfg3.win 4).cut (grid3.coords t) ((dat3 (U := U) V W₀ (outAt (U := U) V) c).after 4 t) = _
  rw [after3_4, outAt_eq]
  obtain ⟨e0, e1⟩ := idx_out t
  have hN : t.val < 16 := by have := t.isLt; have hN : cfg3.N = 16 := N_3; omega
  funext j
  show G2 (iblk3 V c 0 t) (iblk3 V c 1 t) (iblk3 V c 2 t) (iblk3 V c 3 t) j = Gfull V c (((cfg3.win 4).blk t).view.emb j)
  have hj0 : (j 0).val < 3341 := (j 0).isLt
  have hj1 : (j 1).val < 512 := (j 1).isLt
  have c0 : ((((cfg3.win 4).blk t).view.emb j) 0).val = win3_4.index t (0 : Fin 2) * 3341 + 1 * (j 0).val := rfl
  have c1 : ((((cfg3.win 4).blk t).view.emb j) 1).val = win3_4.index t (1 : Fin 2) * 512 + 1 * (j 1).val := rfl
  have ht : tOf (((cfg3.win 4).blk t).view.emb j) = t := Fin.ext (by
    show ((((cfg3.win 4).blk t).view.emb j) 1).val / 512 % 16 = t.val
    rw [c1, e1]; omega)
  unfold Gfull
  rw [ht]
  refine congrArg _ (funext fun a => ?_)
  match a with
  | ⟨0, _⟩ => exact Fin.ext (by show (j 0).val = ((((cfg3.win 4).blk t).view.emb j) 0).val; rw [c0, e0]; omega)
  | ⟨1, _⟩ => exact Fin.ext (by show (j 1).val = ((((cfg3.win 4).blk t).view.emb j) 1).val % 512; rw [c1, e1]; omega)

/-- An index of the array is in point `t`'s block iff each coordinate is in the block's range on its axis. -/
theorem mem_blk (t : Fin cfg3.N) (i : S3341x16384.Idx) :
    i ∈ ((cfg3.win 4).blk t).view.set ↔ ∀ a : Fin 2, win3_4.index t a * S3341x512.size a ≤ (i a).val ∧ (i a).val < win3_4.index t a * S3341x512.size a + S3341x512.size a := by
  show i ∈ ((View.whole main_v13).slice (win3_4.rect t)).set ↔ _
  rw [View.set_slice_whole, Rect.mem_set_unit]
  exact Iff.rfl

/-- THE COVERED INDICES: the columns `8192 … 16383`. -/
theorem covered_iff (i : S3341x16384.Idx) :
    (∃ t : Fin cfg3.N, (cfg3.win 4).flush t = true ∧ i ∈ ((cfg3.win 4).blk t).view.set) ↔ 8192 ≤ (i 1).val ∧ (i 1).val < 16384 := by
  have hNN : cfg3.N = 16 := N_3
  constructor
  · rintro ⟨t, -, hi⟩
    rw [mem_blk] at hi
    have b1 : win3_4.index t (1 : Fin 2) * 512 ≤ (i 1).val ∧ (i 1).val < win3_4.index t (1 : Fin 2) * 512 + 512 := hi 1
    obtain ⟨e0, e1⟩ := idx_out t
    have := t.isLt
    omega
  · intro h
    have hi0 : (i 0).val < 3341 := (i 0).isLt
    have hi1 : (i 1).val < 16384 := (i 1).isLt
    let t : Fin cfg3.N := ⟨(i 1).val / 512 - 16, by omega⟩
    obtain ⟨e0, e1⟩ := idx_out t
    have tv : t.val = (i 1).val / 512 - 16 := rfl
    refine ⟨t, flush3_4 t, ?_⟩
    rw [mem_blk]
    intro a
    match a with
    | ⟨0, _⟩ => show win3_4.index t (0 : Fin 2) * 3341 ≤ (i 0).val ∧ (i 0).val < win3_4.index t (0 : Fin 2) * 3341 + 3341; omega
    | ⟨1, _⟩ => show win3_4.index t (1 : Fin 2) * 512 ≤ (i 1).val ∧ (i 1).val < win3_4.index t (1 : Fin 2) * 512 + 512; omega

/-- **THE RESULT ARRAY after the region**: `Gfull` on the columns the write-backs cover, its region-entry contents elsewhere. -/
theorem final (c : Dev nD) :
    (dat3 (U := U) V W₀ (outAt (U := U) V) c).arrAt 4 cfg3.N
      = fun i => if 8192 ≤ (i 1).val ∧ (i 1).val < 16384 then Gfull V c i else V c main_v13 i := by
  funext i
  rw [(dat3 (U := U) V W₀ (outAt (U := U) V) c).arrAt_eq_piecewise 4 _ (fun t _ => flushed_eq V W₀ c t) i, A3]
  exact if_congr (covered_iff i) rfl rfl

end Cert.Proof.Tc3

end
-- ==== Proof.TcBlock3.lean ====
/-
  What the second TensorCore kernel body leaves at a point, read off the region's ARRAYS: the field rows from the gathered array's rows
  of the point's block, the dense rows from the dense features' columns of the point's block and the two bounds.
-/
import proofs.«202673_g7318624272670_cont_9to1c4b_526_24_alg».proof.Proof.TcArray3
import proofs.«202673_g7318624272670_cont_9to1c4b_526_24_alg».proof.Proof.TcDense

noncomputable section

namespace Cert.Proof.Tc3

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]

variable (V : (c : Dev nD) → (b : Ref sig .tc) → Buf (Elt F) ((c : Thread nD τ).loc b))

/-- The input windows' index maps, decided over the grid. -/
theorem idx_in : ∀ t : Fin cfg3.N, win3_0.index t (0 : Fin 2) = t.val ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- **The body's result at point `t`, from the arrays.** -/
theorem Gblock (c : Dev nD) (t : Fin cfg3.N) (y : S3341x512.Idx) :
    G2 (iblk3 V c 0 t) (iblk3 V c 1 t) (iblk3 V c 2 t) (iblk3 V c 3 t) y
      = if h : (y 0).val < 3328 then
          V c main_v9 (ix2 ⟨13312 * t.val + ((26 * ((y 1).val / 8) + (y 0).val / 128) * 8 + (y 1).val % 8), by
              have := idx2_lt1 y; have hN : cfg3.N = 16 := N_3; have := t.isLt; omega⟩ ⟨(y 0).val % 128, Nat.mod_lt _ (by omega)⟩)
        else
          FloatOps.divf
            (FloatOps.subf (V c main_v12 (ix2 ⟨(y 0).val - 3328, by have := idx2_lt0 y; omega⟩ ⟨512 * t.val + (y 1).val, by
                have := idx2_lt1 y; have hN : cfg3.N = 16 := N_3; have := t.isLt; omega⟩))
              (V c main_v2 (ix2 ⟨(y 0).val - 3328, by have := idx2_lt0 y; omega⟩ (0 : Fin 1))))
            (FloatOps.subf (V c main_v3 (ix2 ⟨(y 0).val - 3328, by have := idx2_lt0 y; omega⟩ (0 : Fin 1)))
              (V c main_v2 (ix2 ⟨(y 0).val - 3328, by have := idx2_lt0 y; omega⟩ (0 : Fin 1)))) := by
  obtain ⟨e00, e01, e10, e11, e20, e21, e30, e31⟩ := idx_in t
  have l0 := idx2_lt0 y
  have l1 := idx2_lt1 y
  unfold G2
  split
  · rename_i h
    show V c main_v9 (((cfg3.win 0).blk t).view.emb (ix2 ⟨(26 * ((y 1).val / 8) + (y 0).val / 128) * 8 + (y 1).val % 8, _⟩ ⟨(y 0).val % 128, _⟩)) = _
    refine congrArg (V c main_v9) (funext fun a => Fin.ext ?_)
    match a with
    | ⟨0, _⟩ =>
      show win3_0.index t (0 : Fin 2) * 13312 + 1 * ((26 * ((y 1).val / 8) + (y 0).val / 128) * 8 + (y 1).val % 8)
        = 13312 * t.val + ((26 * ((y 1).val / 8) + (y 0).val / 128) * 8 + (y 1).val % 8)
      rw [e00]; omega
    | ⟨1, _⟩ =>
      show win3_0.index t (1 : Fin 2) * 128 + 1 * ((y 0).val % 128) = (y 0).val % 128
      rw [e01]; omega
  · rename_i h
    refine (Cert.Proof.TcDense.pay3_apply3 (iblk3 V c 2 t) (iblk3 V c 3 t) (iblk3 V c 1 t) ⟨(y 0).val - 3328, by omega⟩ ⟨(y 1).val, l1⟩).trans ?_
    have r1 : iblk3 V c 1 t (ix2 (⟨(y 0).val - 3328, by omega⟩ : Fin 13) (⟨(y 1).val, l1⟩ : Fin 512))
        = V c main_v12 (ix2 ⟨(y 0).val - 3328, by omega⟩ ⟨512 * t.val + (y 1).val, by have hN : cfg3.N = 16 := N_3; have := t.isLt; omega⟩) := by
      show V c main_v12 (((cfg3.win 1).blk t).view.emb (ix2 (⟨(y 0).val - 3328, _⟩ : Fin 13) (⟨(y 1).val, l1⟩ : Fin 512))) = _
      refine congrArg (V c main_v12) (funext fun a => Fin.ext ?_)
      match a with
      | ⟨0, _⟩ => show win3_1.index t (0 : Fin 2) * 13 + 1 * ((y 0).val - 3328) = (y 0).val - 3328; rw [e10]; omega
      | ⟨1, _⟩ => show win3_1.index t (1 : Fin 2) * 512 + 1 * (y 1).val = 512 * t.val + (y 1).val; rw [e11]; omega
    have r2 : iblk3 V c 2 t (ix2 (⟨(y 0).val - 3328, by omega⟩ : Fin 13) (0 : Fin 1)) = V c main_v2 (ix2 ⟨(y 0).val - 3328, by omega⟩ (0 : Fin 1)) := by
      show V c main_v2 (((cfg3.win 2).blk t).view.emb (ix2 ⟨(y 0).val - 3328, _⟩ (0 : Fin 1))) = _
      refine congrArg (V c main_v2) (funext fun a => Fin.ext ?_)
      match a with
      | ⟨0, _⟩ => show win3_2.index t (0 : Fin 2) * 13 + 1 * ((y 0).val - 3328) = (y 0).val - 3328; rw [e20]; omega
      | ⟨1, _⟩ => show win3_2.index t (1 : Fin 2) * 1 + 1 * 0 = 0; rw [e21]
    have r3 : iblk3 V c 3 t (ix2 (⟨(y 0).val - 3328, by omega⟩ : Fin 13) (0 : Fin 1)) = V c main_v3 (ix2 ⟨(y 0).val - 3328, by omega⟩ (0 : Fin 1)) := by
      show V c main_v3 (((cfg3.win 3).blk t).view.emb (ix2 ⟨(y 0).val - 3328, _⟩ (0 : Fin 1))) = _
      refine congrArg (V c main_v3) (funext fun a => Fin.ext ?_)
      match a with
      | ⟨0, _⟩ => show win3_3.index t (0 : Fin 2) * 13 + 1 * ((y 0).val - 3328) = (y 0).val - 3328; rw [e30]; omega
      | ⟨1, _⟩ => show win3_3.index t (1 : Fin 2) * 1 + 1 * 0 = 0; rw [e31]
    rw [r1, r2, r3]

end Cert.Proof.Tc3

end
-- ==== Proof.TcPoint3.lean ====
/-
  The result array after the second TensorCore region, element by element, on the columns the region writes: row `r`, column
  `c` of the region's half is the gathered array's row `(c / 8 · 26 + r / 128) · 8 + c % 8` at lane `r % 128` (`r < 3328`), or
  the dense feature `r − 3328` of sample `c` scaled by its bounds.
-/
import proofs.«202673_g7318624272670_cont_9to1c4b_526_24_alg».proof.Proof.TcBlock3

noncomputable section

namespace Cert.Proof.Tc3

open Cert.KernelIdeal Cert.KernelIdeal.Gen

open Idealize.ShloMosaic Idealize.ShloMosaic.ValueIdx
open Idealize.ShloMosaic.TcCoe
open Idealize.SL Idealize.SL.RA
open Idealize.ShloMosaic.Pipeline (Dat Cfg Window)
open Idealize.ShloMosaic.SparseCore.Cfg (HIx)

variable {F : FTy → Type} [FloatOps F]
variable {U : Type} [URA U]

/-- One region's result at row `r`, column `c` of its half, from the gathered array `e`, the half's dense features `xs` and
    the two bounds. -/
def blockVal (e : S212992x128.Idx → Elt F .f32) (xs : S13x8192.Idx → Elt F .f32) (mn mx : S13x1.Idx → Elt F .f32)
    (r : Fin 3341) (c : Fin 8192) : Elt F .f32 :=
  if h : r.val < 3328 then
    e (ix2 ⟨(c.val / 8 * 26 + r.val / 128) * 8 + c.val % 8, by have := c.isLt; omega⟩ ⟨r.val % 128, Nat.mod_lt _ (by omega)⟩)
  else
    FloatOps.divf (FloatOps.subf (xs (ix2 ⟨r.val - 3328, by have := r.isLt; omega⟩ c)) (mn (ix2 ⟨r.val - 3328, by have := r.isLt; omega⟩ (0 : Fin 1))))
      (FloatOps.subf (mx (ix2 ⟨r.val - 3328, by have := r.isLt; omega⟩ (0 : Fin 1))) (mn (ix2 ⟨r.val - 3328, by have := r.isLt; omega⟩ (0 : Fin 1))))

variable (V : (c : Dev nD) → (b : Ref sig .tc) → Buf (Elt F) ((c : Thread nD τ).loc b))
  (W₀ : Dev nD → Finset (SemLoc sig × HIx 2))

/-- **The region's result array on the columns it writes.** -/
theorem region_apply (c : Dev nD) (j : Fin 3341) (b : Fin 16384) (hb : 8192 ≤ b.val) :
    (dat3 (U := U) V W₀ (outAt (U := U) V) c).arrAt 4 cfg3.N (ix2 j b)
      = blockVal (V c main_v9) (V c main_v12) (V c main_v2) (V c main_v3) j ⟨b.val - 8192, by have := b.isLt; omega⟩ := by
  have hbl := b.isLt
  have hjl := j.isLt
  rw [final]
  show (if 8192 ≤ b.val ∧ b.val < 16384 then Gfull V c (ix2 j b) else V c main_v13 (ix2 j b)) = _
  rw [if_pos ⟨by omega, by omega⟩]
  unfold Gfull
  rw [Gblock]
  unfold blockVal
  show (if h : j.val < 3328 then _ else _) = (if h : j.val < 3328 then _ else _)
  have ht : (tOf (ix2 j b : S3341x16384.Idx)).val = b.val / 512 % 16 := rfl
  by_cases h : j.val < 3328
  · rw [dif_pos h, dif_pos h]
    refine congrArg (V c main_v9) (funext fun a => Fin.ext ?_)
    match a with
    | ⟨0, _⟩ =>
      show 13312 * (tOf (ix2 j b : S3341x16384.Idx)).val + ((26 * (b.val % 512 / 8) + j.val / 128) * 8 + b.val % 512 % 8)
        = ((b.val - 8192) / 8 * 26 + j.val / 128) * 8 + (b.val - 8192) % 8
      rw [ht]; omega
    | ⟨1, _⟩ => rfl
  · rw [dif_neg h, dif_neg h]
    have e1 : (ix2 (⟨j.val - 3328, by omega⟩ : Fin 13) (⟨512 * (tOf (ix2 j b : S3341x16384.Idx)).val + b.val % 512, by rw [ht]; omega⟩ : Fin 8192) : S13x8192.Idx)
        = ix2 (⟨j.val - 3328, by omega⟩ : Fin 13) (⟨b.val - 8192, by have := b.isLt; omega⟩ : Fin 8192) := by
      refine congrArg (ix2 _) (Fin.ext ?_)
      show 512 * (tOf (ix2 j b : S3341x16384.Idx)).val + b.val % 512 = b.val - 8192
      rw [ht]; omega
    show FloatOps.divf (FloatOps.subf (V c main_v12 (ix2 (⟨j.val - 3328, _⟩ : Fin 13) (⟨512 * (tOf (ix2 j b : S3341x16384.Idx)).val + b.val % 512, _⟩ : Fin 8192))) _) _ = _
    rw [e1]

end Cert.Proof.Tc3

end
-- ==== Proof.ScKOutV.lean ====
/-
  The program's result array at @main's end, element by element, from the two gathered arrays as the calls returned them
  and the dense-feature arguments: sample `b`, output column `j` is the first region's block value on the first half of the
  batch, the second region's on the second half (through the copy into the aliased result and the final transpose).
-/
import proofs.«202673_g7318624272670_cont_9to1c4b_526_24_alg».proof.Proof.ScOutV
import proofs.«202673_g7318624272670_cont_9to1c4b_526_24_alg».proof.Proof.TcPoint2
import proofs.«202673_g7318624272670_cont_9to1c4b_526_24_alg».proof.Proof.TcPoint3
import Idealize.ShloMosaic.Lib.ValueLayout

noncomputable section

namespace Cert.Proof.ScI

open Cert.KernelIdeal
open Cert.KernelIdeal.Shapes2.Facts₀ Cert.KernelIdeal.Shapes1.Facts₀

open Idealize.ShloMosaic Idealize.ShloMosaic.ValueIdx
open Idealize.ShloMosaic.SparseCore (S V T)
open Idealize.ShloMosaic.SparseCore.Cfg (HIx Pay)
open Idealize.SL Idealize.SL.RA

variable {F : FTy → Type} [FloatOps F]

variable (m : (ℓ : Loc nD τ sig) → Buf (Elt F) ℓ)

/-- The dense features transposed, the two halves' columns, and the two bounds as [13, 1] columns: host operations of the
    arguments. -/
abbrev xsHalf0 (d : Dev nD) : S13x8192.Idx → Elt F .f32 :=
  extractStridedSlice S13x8192 ![0, 0] (transpose S13x16384 [1, 0] (m ((SparseCore.T d : Thread nD τ).loc main_arg1)) transposes_S16384x13_S13x16384_1_0) slices_S13x16384_S13x8192_0_0
abbrev xsHalf1 (d : Dev nD) : S13x8192.Idx → Elt F .f32 :=
  extractStridedSlice S13x8192 ![0, 8192] (transpose S13x16384 [1, 0] (m ((SparseCore.T d : Thread nD τ).loc main_arg1)) transposes_S16384x13_S13x16384_1_0) slices_S13x16384_S13x8192_0_8192
abbrev mnCol (d : Dev nD) : S13x1.Idx → Elt F .f32 := shapeCast S13x1 (m ((SparseCore.T d : Thread nD τ).loc main_arg3)) shapeCasts_S13_S13x1
abbrev mxCol (d : Dev nD) : S13x1.Idx → Elt F .f32 := shapeCast S13x1 (m ((SparseCore.T d : Thread nD τ).loc main_arg4)) shapeCasts_S13_S13x1

/-- **The program's result, element by element.** -/
theorem kernelOut_apply (d : Dev nD) (f6) (f9) (Wt W1 : Waits sig (HIx 2)) (b : Fin 16384) (j : Fin 3341) :
    W16 m d f6 f9 Wt W1 (r main_v14) (ix2 b j)
      = if hb : b.val < 8192 then Tc2.blockVal f6 (xsHalf0 m d) (mnCol m d) (mxCol m d) j ⟨b.val, hb⟩
        else Tc3.blockVal f9 (xsHalf1 m d) (mnCol m d) (mxCol m d) j ⟨b.val - 8192, by have := b.isLt; omega⟩ := by
  rw [W16_v14, transpose_ix2_apply]
  by_cases hb : b.val < 8192
  · rw [dif_pos hb]
    -- the second region leaves these columns as the copy of the first region's result
    rw [Tc3.final]
    show (if 8192 ≤ b.val ∧ b.val < 16384 then _ else W14 m d f6 f9 Wt (r main_v13) (ix2 j b)) = _
    rw [if_neg (by omega), W14_v13]
    refine (Tc2.region_apply (U := UU) (fun _ b' => W11 m d f6 f9 (r b')) (fun _ => Wt) d j b hb).trans ?_
    show Tc2.blockVal (W11 m d f6 f9 (r main_v6)) (W11 m d f6 f9 (r main_v10)) (W11 m d f6 f9 (r main_v2)) (W11 m d f6 f9 (r main_v3)) j ⟨b.val, hb⟩ = _
    rw [W11_v6, W11_v10, W11_v2, W11_v3]
  · rw [dif_neg hb]
    refine (Tc3.region_apply (U := UU) (fun _ b' => W14 m d f6 f9 Wt (r b')) (fun _ => W1) d j b (by omega)).trans ?_
    show Tc3.blockVal (W14 m d f6 f9 Wt (r main_v9)) (W14 m d f6 f9 Wt (r main_v12)) (W14 m d f6 f9 Wt (r main_v2)) (W14 m d f6 f9 Wt (r main_v3)) j _ = _
    rw [W14_v9, W14_v12, W14_v2, W14_v3]

end Cert.Proof.ScI

end
-- ==== Proof.ScArgsV.lean ====
import proofs.«202673_g7318624272670_cont_9to1c4b_526_24_alg».proof.Proof.ScMainI

/-! What the table and the two index lists hold at the gather calls, in the arguments' own terms: the table is the
    reshape of the per-field tables, each index list the reshape of its half of the category array. -/

noncomputable section

namespace Cert.Proof.ScI

open Cert.KernelIdeal
open Cert.KernelIdeal.Shapes2.Facts₀ Cert.KernelIdeal.Shapes1.Facts₀
open Idealize.ShloMosaic
open Idealize.ShloMosaic.SparseCore (S V T)

variable {F : FTy → Type} [FloatOps F]

variable (m : (ℓ : Loc nD τ sig) → Buf (Elt F) ℓ)

theorem Tb_eq (d : Dev nD) :
    Tb m d = shapeCast S26000x128 (m ((d.tc : Thread nD τ).loc main_arg2)) shapeCasts_S26x1000x128_S26000x128 := by
  unfold Tb W6
  rw [(op5 (F := F)).result_of_not_mem _ (show r main_v0 ∉ ({r main_v5} : Finset (DevRef τ sig)) from by decide),
    (op4 (F := F)).result_of_not_mem _ (show r main_v0 ∉ ({r main_v4} : Finset (DevRef τ sig)) from by decide),
    (op3 (F := F)).result_of_not_mem _ (show r main_v0 ∉ ({r main_v3} : Finset (DevRef τ sig)) from by decide),
    (op2 (F := F)).result_of_not_mem _ (show r main_v0 ∉ ({r main_v2} : Finset (DevRef τ sig)) from by decide),
    (op1 (F := F)).result_of_not_mem _ (show r main_v0 ∉ ({r main_v1} : Finset (DevRef τ sig)) from by decide)]
  show (op0 (F := F)).result _ (Proc.devRef .tc main_v0) = _
  rw [StableHlo.reshape_result]
  rfl

theorem Iv0_eq (d : Dev nD) :
    Iv0 m d = shapeCast S212992 (extractStridedSlice S8192x26 ![0, 0] (m ((d.tc : Thread nD τ).loc main_arg0)) slices_S16384x26_S8192x26_0_0) shapeCasts_S8192x26_S212992 := by
  unfold Iv0
  show (op5 (F := F)).result _ (Proc.devRef .tc main_v5) = _
  rw [StableHlo.reshape_result, StableHlo.unary_result,
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  rfl

theorem Iv1_eq (d : Dev nD) :
    Iv1 m d = shapeCast S212992 (extractStridedSlice S8192x26 ![8192, 0] (m ((d.tc : Thread nD τ).loc main_arg0)) slices_S16384x26_S8192x26_8192_0) shapeCasts_S8192x26_S212992 := by
  unfold Iv1
  show (op7 (F := F)).result _ (Proc.devRef .tc main_v8) = _
  rw [StableHlo.reshape_result, StableHlo.unary_result]
  unfold W6
  rw [(op5 (F := F)).result_of_not_mem _ (show r main_arg0 ∉ ({r main_v5} : Finset (DevRef τ sig)) from by decide),
    (op4 (F := F)).result_of_not_mem _ (show r main_arg0 ∉ ({r main_v4} : Finset (DevRef τ sig)) from by decide),
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  rfl

end Cert.Proof.ScI

end
-- ==== Proof.ScBridgeI.lean ====
import proofs.«202673_g7318624272670_cont_9to1c4b_526_24_alg».proof.Proof.ScSpecI
import proofs.«202673_g7318624272670_cont_9to1c4b_526_24_alg».proof.Proof.KernelHost
import proofs.«202673_g7318624272670_cont_9to1c4b_526_24_alg».proof.Proof.PreRange

/-! What a gather call leaves, in the reference's terms: over the extended reals, with the table the flattened
    per-field tables and the index list the flattened half of the category array, row q of the gathered array is the
    embedding of sample 8192 h + 8 (q / 208) + q mod 8 at field (q mod 208) / 8 — where the categories are at most 999. -/

noncomputable section

namespace Cert.Proof.ScI

open Idealize.ShloMosaic Idealize.ShloMosaic.ValueIdx

theorem embSpec_eq_embRows
    (xcat : (⟨Cert.Spec.S16384x26, .i32⟩ : BufTy).Contents (Elt Ideal)) (tables : (⟨Cert.Spec.S26x1000x128, .f32⟩ : BufTy).Contents (Elt Ideal))
    (hx : ∀ i, (xcat i).toNat ≤ 999) (hh : Fin 2) (o : Nat) (ho : o = 8192 * hh.val)
    (hflat : Cert.Spec.S26x1000x128.ShapeCasts Cert.KSpec.S26000x128)
    (hs : Cert.Spec.S16384x26.Slices ![o, 0] Cert.KSpec.S8192x26) (hc : Cert.KSpec.S8192x26.ShapeCasts Cert.KSpec.S212992) :
    embSpec (F := Ideal) (shapeCast Cert.KSpec.S26000x128 tables hflat) (shapeCast Cert.KSpec.S212992 (extractStridedSlice Cert.KSpec.S8192x26 ![o, 0] xcat hs) hc)
      = Cert.KSpec.embRows xcat tables hh := by
  funext y
  have hy : y = ix2 (⟨(y 0).val, (y 0).isLt⟩ : Fin 212992) (⟨(y 1).val, (y 1).isLt⟩ : Fin 128) := eq_ix2 y
  set q : Fin 212992 := ⟨(y 0).val, (y 0).isLt⟩ with hq
  set dd : Fin 128 := ⟨(y 1).val, (y 1).isLt⟩ with hdd
  have hword : permG (shapeCast Cert.KSpec.S212992 (extractStridedSlice Cert.KSpec.S8192x26 ![o, 0] xcat hs) hc) q
      = xcat (ix2 (Cert.KSpec.rowBatch hh q) (Cert.KSpec.rowField q)) + BitVec.ofNat 32 (Cert.KSpec.rowField q).val * 1000#32 := by
    unfold permG
    rw [Cert.KSpec.idxHalf_tile xcat hh o ho hs hc q]
  have hlt := Cert.KSpec.rowSum_lt (xcat (ix2 (Cert.KSpec.rowBatch hh q) (Cert.KSpec.rowField q))) (BitVec.ofNat 32 (Cert.KSpec.rowField q).val * 1000#32)
    (Cert.KSpec.rowField q) (hx _) (Cert.KSpec.field1000_toNat _)
  rw [hy]
  show (shapeCast Cert.KSpec.S26000x128 tables hflat) (ix2 (⟨(permG _ q).toNat % 26000, _⟩ : Fin 26000) dd) = _
  exact Cert.KSpec.gathered_eq_embRows xcat tables hh hflat q dd _ (Cert.KSpec.field1000_toNat _) (hx _) _
    (by show (permG _ q).toNat % 26000 = _; rw [hword, Nat.mod_eq_of_lt hlt])

end Cert.Proof.ScI

end
-- ==== Proof.ScAlgI.lean ====
import proofs.«202673_g7318624272670_cont_9to1c4b_526_24_alg».proof.Proof.ScArgsV
import proofs.«202673_g7318624272670_cont_9to1c4b_526_24_alg».proof.Proof.ScBridgeI
import proofs.«202673_g7318624272670_cont_9to1c4b_526_24_alg».proof.Proof.ScRangeI
import proofs.«202673_g7318624272670_cont_9to1c4b_526_24_alg».proof.Proof.KernelValue

/-! The kernel's data flow composes to the lookup-and-rescale function: with the gathered arrays at what the two gather
    calls leave (rows of the flattened table named by the permuted category words), the assembled and transposed result
    is the reference's function of the five arguments, where the categories are at most 999. -/

noncomputable section

namespace Cert.Proof.ScI

open Cert.KernelIdeal
open Cert.KernelIdeal.Shapes2.Facts₀ Cert.KernelIdeal.Shapes1.Facts₀
open Idealize.ShloMosaic
open Idealize.ShloMosaic.SparseCore (S V T)

variable [Cert.Pre_input_domain.Facts]

variable (m : (ℓ : Loc nD τ sig) → Buf (Elt Ideal) ℓ)

theorem outK_embSpec_eq_G (hpre : PreM (F := Ideal) m) (c : Dev nD) :
    Cert.KSpec.outK (embSpec (F := Ideal) (Tb m c) (Iv0 m c)) (embSpec (F := Ideal) (Tb m c) (Iv1 m c))
        (m ((c.tc : Thread nD τ).loc main_arg1)) (m ((c.tc : Thread nD τ).loc main_arg3)) (m ((c.tc : Thread nD τ).loc main_arg4))
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have hx : ∀ i, ((m ((c.tc : Thread nD τ).loc main_arg0) i) : BitVec 32).toNat ≤ 999 :=
    fun i => (Cert.PreRange.xcat_toNat (F := Ideal) _ _ _ _ _ (hpre c) i).1
  rw [Tb_eq, Iv0_eq, Iv1_eq]
  rw [embSpec_eq_embRows (m ((c.tc : Thread nD τ).loc main_arg0)) (m ((c.tc : Thread nD τ).loc main_arg2)) hx 0 0 rfl,
    embSpec_eq_embRows (m ((c.tc : Thread nD τ).loc main_arg0)) (m ((c.tc : Thread nD τ).loc main_arg2)) hx 1 8192 rfl]
  exact Cert.KSpec.outK_eq_G _ _ _ _ _

end Cert.Proof.ScI

end
-- ==== Proof.ScKBridgeV.lean ====
import proofs.«202673_g7318624272670_cont_9to1c4b_526_24_alg».proof.Proof.ScKOutV
import proofs.«202673_g7318624272670_cont_9to1c4b_526_24_alg».proof.Proof.ScAlgI

/-! The program's result array is the assembled and transposed array of the specification: element (b, j) is block
    element (j, b) of the half that column b lies in. With the gathered arrays at the gather calls' specification it is
    the reference's function of the arguments. -/

noncomputable section

namespace Cert.Proof.ScI

open Cert.KernelIdeal
open Cert.KernelIdeal.Shapes2.Facts₀ Cert.KernelIdeal.Shapes1.Facts₀
open Idealize.ShloMosaic Idealize.ShloMosaic.ValueIdx
open Idealize.ShloMosaic.SparseCore (S V T)

variable (m : (ℓ : Loc nD τ sig) → Buf (Elt Ideal) ℓ)

theorem kernelOut_eq_outK (d : Dev nD) (f6) (f9) (Wt W1 : Waits sig (SparseCore.Cfg.HIx 2)) :
    W16 m d f6 f9 Wt W1 (r main_v14)
      = Cert.KSpec.outK f6 f9 (m ((SparseCore.T d : Thread nD τ).loc main_arg1)) (m ((SparseCore.T d : Thread nD τ).loc main_arg3))
          (m ((SparseCore.T d : Thread nD τ).loc main_arg4)) := by
  funext (i : S16384x3341.Idx)
  have hi : i = ix2 (⟨(i 0).val, (i 0).isLt⟩ : Fin 16384) (⟨(i 1).val, (i 1).isLt⟩ : Fin 3341) := eq_ix2 i
  generalize (⟨(i 0).val, (i 0).isLt⟩ : Fin 16384) = b at hi
  generalize (⟨(i 1).val, (i 1).isLt⟩ : Fin 3341) = j at hi
  subst hi
  rw [kernelOut_apply m d f6 f9 Wt W1 b j, Cert.KSpec.outK_apply]
  by_cases hb : b.val < 8192
  · rw [dif_pos hb, Cert.KSpec.asmTAt_half0 f6 f9 _ _ _ transposes_S16384x13_S13x16384_1_0 shapeCasts_S13_S13x1 slices_S13x16384_S13x8192_0_0
      j ⟨b.val, hb⟩ b rfl]
    rfl
  · rw [dif_neg hb, Cert.KSpec.asmTAt_half1 f6 f9 _ _ _ transposes_S16384x13_S13x16384_1_0 shapeCasts_S13_S13x1 slices_S13x16384_S13x8192_0_8192
      j ⟨b.val - 8192, by have := b.isLt; omega⟩ b (by show b.val = 8192 + (b.val - 8192); omega)]
    rfl

end Cert.Proof.ScI

end
-- ==== Proof.ScAlgV.lean ====
/-
  The algebraic claim of the idealized kernel against the reference, from the tasks' body obligations with values: both
  programs run and end with the lookup-and-rescale function of the five arguments in their result arrays, the arguments
  unchanged.
-/
import proofs.«202673_g7318624272670_cont_9to1c4b_526_24_alg».proof.Proof.ScLaunchV
import proofs.«202673_g7318624272670_cont_9to1c4b_526_24_alg».proof.Proof.ScKBridgeV
import proofs.«202673_g7318624272670_cont_9to1c4b_526_24_alg».proof.Proof.ScAlgI
import proofs.«202673_g7318624272670_cont_9to1c4b_526_24_alg».proof.Proof.RefIsG
import proofs.«202673_g7318624272670_cont_9to1c4b_526_24_alg».proof.Proof.Gen.ReferenceIdeal
import proofs.«202673_g7318624272670_cont_9to1c4b_526_24_alg».proof.Proof.Gen.Pre_input_domain

noncomputable section

namespace Cert.Proof.ScI

open Idealize.ShloMosaic Idealize.SL.Sem

attribute [local instance] Cert.Pre_input_domain.Gen.facts
open Idealize.ShloMosaic.SparseCore.Cfg (HIx)

/-- **The algebraic claim**, from the two tasks' body obligations with values under the precondition. -/
theorem algebraic_KI
    (h0 : ∀ (m : (ℓ : Loc Cert.KernelIdeal.nD Cert.KernelIdeal.τ Cert.KernelIdeal.sig) → Buf (Elt Ideal) ℓ),
      PreM (F := Ideal) m → (K (F := Ideal)).TileObl (D (F := Ideal)) 𝒱 (PPV m) v₀ 0)
    (h1 : ∀ (m : (ℓ : Loc Cert.KernelIdeal.nD Cert.KernelIdeal.τ Cert.KernelIdeal.sig) → Buf (Elt Ideal) ℓ),
      PreM (F := Ideal) m → (K (F := Ideal)).TileObl (D (F := Ideal)) 𝒱 (PPV m) v₀ 1) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · -- the kernel: its run with values, its result read through the bridge
    refine (θ_run _ _ _).mono ?_ (run_kernel_val (F := Ideal) m g (fun q => match q with | 0 => h0 m hpre | 1 => h1 m hpre))
    intro r h c
    obtain ⟨hargs, Wt, W1, hv⟩ := h c
    refine ⟨?_, hargs⟩
    rw [hv, kernelOut_eq_outK]
    exact outK_embSpec_eq_G m hpre c
  · -- the reference: its run to the same function, the memories agreeing on the arguments
    have hpre' : ∀ c : Dev Cert.ReferenceIdeal.nD, Cert.Pre_input_domain.fn (F := Ideal)
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = fun _ => 1#1 := by
      intro c
      obtain ⟨e0, e1, e2, e3, e4⟩ := hagree c
      rw [e0, e1, e2, e3, e4]
      exact hpre c
    refine (θ_run _ _ _).mono ?_ (Cert.ReferenceIdeal.RefIsG.run_G m' g' hpre')
    intro r h c
    obtain ⟨hv, rest⟩ := h c
    obtain ⟨e0, e1, e2, e3, e4⟩ := hagree c
    refine ⟨?_, rest⟩
    rw [hv, e0, e1, e2, e3, e4]

end Cert.Proof.ScI

end
-- ==== Proof.LibWritesAgree.lean ====
import Idealize.ShloMosaic.Lib.Writes

/-! Exact contents carried across a run of stores through one view: if every listed payload is one function `G` of the
    view's shape read at the piece's own places, then after the writes the view reads `G` at any place that some piece
    covers or where the earlier contents already were `G`. Generic in the view, the element type and the function;
    nothing of a particular kernel. -/

namespace Cert.LibWritesAgree

open Idealize.ShloMosaic Idealize.ShloMosaic.View

variable {sig : RefSig} {κ : Kind} {sp : Space} {s : Shape} {e : EltTy} {Val : EltTy → Type}

/-- After the unmasked writes `L` (last write first) over contents `f`, the view reads `G y` at `y`, if every payload is
    `G` at its piece's places and either `f` already read `G y` at `y` or some piece covers `y`. -/
theorem read_writes_agree (v : View sig κ sp s e) (f : v.ty.Contents Val) (G : s.Idx → Val e) :
    ∀ L : List (Piece Val s e), (∀ p ∈ L, ∀ x : p.1.shape.Idx, p.2 x = G (p.1.emb x)) → ∀ y : s.Idx,
      (v.read Val f y = G y ∨ ∃ p ∈ L, y ∈ p.1.set) → v.read Val (v.writes Val f L) y = G y
  | [], _, y, h => by
    rcases h with h | ⟨_, hm, _⟩
    · exact h
    · exact absurd hm List.not_mem_nil
  | p :: L, hL, y, h => by
    by_cases hy : y ∈ p.1.set
    · obtain ⟨x, rfl⟩ : ∃ x, p.1.emb x = y := p.1.exists_idx_of_mem hy
      obtain ⟨r, w⟩ := p
      rw [read_writes_cons_emb]
      exact hL ⟨r, w⟩ List.mem_cons_self x
    · have hy' : y ∉ Finset.univ.map p.1.emb := by rwa [Rect.map_emb_univ]
      rw [writes_cons, read_slice_write_of_not_mem p.1 _ _ _ hy']
      refine read_writes_agree v f G L (fun p' hp' => hL p' (List.mem_cons_of_mem _ hp')) y ?_
      rcases h with h | ⟨p', hm, hy''⟩
      · exact Or.inl h
      · rcases List.mem_cons.mp hm with rfl | hm
        · exact absurd hy'' hy
        · exact Or.inr ⟨p', hm, hy''⟩

/-- The same for every place below a bound that the writes extend: if the contents were `G` on a set `A` and the pieces
    cover a set `B`, they are `G` on both afterwards. -/
theorem read_writes_agree_on (v : View sig κ sp s e) (f : v.ty.Contents Val) (G : s.Idx → Val e) (L : List (Piece Val s e))
    (hL : ∀ p ∈ L, ∀ x : p.1.shape.Idx, p.2 x = G (p.1.emb x)) (A : s.Idx → Prop) (hA : ∀ y, A y → v.read Val f y = G y)
    (y : s.Idx) (hy : A y ∨ ∃ p ∈ L, y ∈ p.1.set) : v.read Val (v.writes Val f L) y = G y :=
  read_writes_agree v f G L hL y (hy.imp (hA y) id)

end Cert.LibWritesAgree
-- ==== Proof.ScPermI0.lean ====
/-
  The exact value of one window of the permutation loop. A task holds its 6656 categories in the order of the batch:
  window k (of 32) holds 8 samples of 26 fields each, sample after sample. The gather wants them field after field
  within the window: place 208·k + j (j < 208) must hold the category of sample j % 8 at field j / 8, and with it the
  field's row offset 1000·(j / 8) added. The loop writes a window in thirteen groups of sixteen places; group N reads
  the sixteen places 208·k + 26·(j % 8) + j / 8, j = 16·(N − 1) + lane, and adds 1000·(j / 8). Stated here per group:
  the place read, the offset added, and both together as the value `permW` at the place written.
-/
import proofs.«202673_g7318624272670_cont_9to1c4b_526_24_alg».proof.Proof.ScArithI0
import Idealize.ShloMosaic.Lib.ValueIdx

noncomputable section

namespace Cert.Proof.ScI0

open Cert.KernelIdeal Cert.KernelIdeal.Gen Idealize.ShloMosaic Idealize.ShloMosaic.ValueIdx

variable {F : FTy → Type}

/-- The place read for place n of the list is a place of the list. -/
theorem permPlace_lt (n : Nat) (h : n < 6656) : 208 * (n / 208) + 26 * (n % 8) + n % 208 / 8 < 6656 := by
  have h1 : n / 208 ≤ 31 := by omega
  have h2 : n % 8 ≤ 7 := by omega
  have h3 : n % 208 / 8 ≤ 25 := by omega
  omega

/-- What place `y` of the task's permuted list holds, given the list `G` in batch order: the category read at
    208·(y / 208) + 26·(y % 8) + (y % 208) / 8, plus 1000 times the field (y % 208) / 8. -/
def permW (G : S6656.Idx → BitVec 32) (y : S6656.Idx) : BitVec 32 :=
  G (ix1 (⟨208 * ((y 0).val / 208) + 26 * ((y 0).val % 8) + (y 0).val % 208 / 8, permPlace_lt _ (y 0).isLt⟩ : Fin 6656))
    + BitVec.ofNat 32 ((y 0).val % 208 / 8) * 1000#32

/-- The shared step: a lane that reads place 208·k + 26·(j % 8) + j / 8 and adds 1000·(j / 8), j = c + lane, leaves
    `permW` at place 208·k + j. -/
theorem perm_core (G : S6656.Idx → BitVec 32) (v : IVec S16 32)
    (h : ∀ a x, ((![v] : Fin 1 → IVec S16 32) a x).toNat < S6656.size a) (x : S16.Idx) (k c : Nat)
    (hc : c + (x 0).val < 208) (hk : k < 32)
    (hv : (v x).toNat = 208 * k + 26 * ((c + (x 0).val) % 8) + (c + (x 0).val) / 8)
    (y : S6656.Idx) (hy : (y 0).val = 208 * k + c + (x 0).val) :
    G (idxAt ![v] h x) + BitVec.ofNat 32 ((c + (x 0).val) / 8) * 1000#32 = permW G y := by
  -- the written place's window, its place in the window, and that place's row
  have q1 : (y 0).val / 208 = k := by rw [hy]; omega
  have q2 : (y 0).val % 208 = c + (x 0).val := by rw [hy]; omega
  have q3 : (y 0).val % 8 = (c + (x 0).val) % 8 := by rw [hy]; omega
  unfold permW
  have e1 : idxAt ![v] h x
      = ix1 (⟨208 * ((y 0).val / 208) + 26 * ((y 0).val % 8) + (y 0).val % 208 / 8, permPlace_lt _ (y 0).isLt⟩ : Fin 6656) := by
    funext a
    refine Fin.ext ?_
    match a with
    | ⟨0, _⟩ =>
      show (v x).toNat = 208 * ((y 0).val / 208) + 26 * ((y 0).val % 8) + (y 0).val % 208 / 8
      rw [hv, q1, q3, q2]
  have e2 : (c + (x 0).val) / 8 = (y 0).val % 208 / 8 := by rw [q2]
  rw [e1]
  exact congrArg (fun n : Nat =>
    G (ix1 (⟨208 * ((y 0).val / 208) + 26 * ((y 0).val % 8) + (y 0).val % 208 / 8, permPlace_lt _ (y 0).isLt⟩ : Fin 6656))
      + BitVec.ofNat 32 n * 1000#32) e2

theorem window_lt (k : Fin k0_t1_loop.trips) : k.val < 32 := Nat.lt_of_lt_of_eq k.isLt trips1_eq

/-! ### Group 1: places 208·k + 0 … 208·k + 15 -/

/-- The place lane x of group 1 reads. -/
theorem vec1_val : ∀ k : Fin k0_t1_loop.trips, ∀ x : S16.Idx,
    ((k0_pay10 lanes 0#32 1#32 k) x).toNat = 208 * k.val + 26 * ((0 + (x 0).val) % 8) + (0 + (x 0).val) / 8 := by decide +kernel
/-- The offset group 1 adds: 1000 times the field. -/
theorem pay1_off : ∀ x : S16.Idx,
    ((k0_pay11 (F := fun _ => Unit) lanes (fun _ => 0#32)) x) = BitVec.ofNat 32 ((0 + (x 0).val) / 8) * 1000#32 := by decide +kernel
theorem pay1_eq (W : Vec F S16 .i32) (x : S16.Idx) :
    (k0_pay11 (F := F) lanes W) x = W x + BitVec.ofNat 32 ((0 + (x 0).val) / 8) * 1000#32 := by
  have e : (k0_pay11 (F := F) lanes W) x = W x + (k0_pay11 (F := F) lanes (fun _ => 0#32)) x := by
    simp only [k0_pay11, addi, IntOp.addi, BitVec.zero_add]
  rw [e]
  exact congrArg (fun z => W x + z) (pay1_off x)
/-- Group 1 writes `permW` at its sixteen places. -/
theorem perm1 (G : Vec F S6656 .i32) (k : Fin k0_t1_loop.trips)
    (h : ∀ a x, ((![k0_pay10 lanes 0#32 1#32 k] : Fin 1 → IVec S16 32) a x).toNat < S6656.size a) (x : S16.Idx) :
    (k0_pay11 (F := F) lanes (loadIdx (F := F) (e := .i32) G ![k0_pay10 lanes 0#32 1#32 k] h)) x
      = permW G ((Rect.unit (s := S6656) (k0_off2 k) S16.size (k0_off2_inb k)).emb x) := by
  have hx : (x 0).val < 16 := (x 0).isLt
  rw [pay1_eq]
  refine perm_core G (k0_pay10 lanes 0#32 1#32 k) h x k.val 0 (by omega) (window_lt k) (vec1_val k x) _ ?_
  show (k0_off2 k) 0 + 1 * (x 0).val = 208 * k.val + 0 + (x 0).val
  rw [k0_off2_eq]
  show 208 * k.val + 1 * (x 0).val = 208 * k.val + 0 + (x 0).val
  omega

/-! ### Group 2: places 208·k + 16 … 208·k + 31 -/

/-- The place lane x of group 2 reads. -/
theorem vec2_val : ∀ k : Fin k0_t1_loop.trips, ∀ x : S16.Idx,
    ((k0_pay14 lanes 0#32 1#32 k) x).toNat = 208 * k.val + 26 * ((16 + (x 0).val) % 8) + (16 + (x 0).val) / 8 := by decide +kernel
/-- The offset group 2 adds: 1000 times the field. -/
theorem pay2_off : ∀ x : S16.Idx,
    ((k0_pay15 (F := fun _ => Unit) lanes (fun _ => 0#32)) x) = BitVec.ofNat 32 ((16 + (x 0).val) / 8) * 1000#32 := by decide +kernel
theorem pay2_eq (W : Vec F S16 .i32) (x : S16.Idx) :
    (k0_pay15 (F := F) lanes W) x = W x + BitVec.ofNat 32 ((16 + (x 0).val) / 8) * 1000#32 := by
  have e : (k0_pay15 (F := F) lanes W) x = W x + (k0_pay15 (F := F) lanes (fun _ => 0#32)) x := by
    simp only [k0_pay15, addi, IntOp.addi, BitVec.zero_add]
  rw [e]
  exact congrArg (fun z => W x + z) (pay2_off x)
/-- Group 2 writes `permW` at its sixteen places. -/
theorem perm2 (G : Vec F S6656 .i32) (k : Fin k0_t1_loop.trips)
    (h : ∀ a x, ((![k0_pay14 lanes 0#32 1#32 k] : Fin 1 → IVec S16 32) a x).toNat < S6656.size a) (x : S16.Idx) :
    (k0_pay15 (F := F) lanes (loadIdx (F := F) (e := .i32) G ![k0_pay14 lanes 0#32 1#32 k] h)) x
      = permW G ((Rect.unit (s := S6656) (k0_off3 k) S16.size (k0_off3_inb k)).emb x) := by
  have hx : (x 0).val < 16 := (x 0).isLt
  rw [pay2_eq]
  refine perm_core G (k0_pay14 lanes 0#32 1#32 k) h x k.val 16 (by omega) (window_lt k) (vec2_val k x) _ ?_
  show (k0_off3 k) 0 + 1 * (x 0).val = 208 * k.val + 16 + (x 0).val
  rw [k0_off3_eq]
  show 208 * k.val + 16 + 1 * (x 0).val = 208 * k.val + 16 + (x 0).val
  omega

/-! ### Group 3: places 208·k + 32 … 208·k + 47 -/

/-- The place lane x of group 3 reads. -/
theorem vec3_val : ∀ k : Fin k0_t1_loop.trips, ∀ x : S16.Idx,
    ((k0_pay18 lanes (wbase k) 32#32) x).toNat = 208 * k.val + 26 * ((32 + (x 0).val) % 8) + (32 + (x 0).val) / 8 := by decide +kernel
/-- The offset group 3 adds: 1000 times the field. -/
theorem pay3_off : ∀ x : S16.Idx,
    ((k0_pay19 (F := fun _ => Unit) lanes 32#32 (fun _ => 0#32)) x) = BitVec.ofNat 32 ((32 + (x 0).val) / 8) * 1000#32 := by decide +kernel
theorem pay3_eq (W : Vec F S16 .i32) (x : S16.Idx) :
    (k0_pay19 (F := F) lanes 32#32 W) x = W x + BitVec.ofNat 32 ((32 + (x 0).val) / 8) * 1000#32 := by
  have e : (k0_pay19 (F := F) lanes 32#32 W) x = W x + (k0_pay19 (F := F) lanes 32#32 (fun _ => 0#32)) x := by
    simp only [k0_pay19, addi, IntOp.addi, BitVec.zero_add]
  rw [e]
  exact congrArg (fun z => W x + z) (pay3_off x)
/-- Group 3 writes `permW` at its sixteen places. -/
theorem perm3 (G : Vec F S6656 .i32) (k : Fin k0_t1_loop.trips)
    (h : ∀ a x, ((![k0_pay18 lanes (wbase k) 32#32] : Fin 1 → IVec S16 32) a x).toNat < S6656.size a) (x : S16.Idx) :
    (k0_pay19 (F := F) lanes 32#32 (loadIdx (F := F) (e := .i32) G ![k0_pay18 lanes (wbase k) 32#32] h)) x
      = permW G ((Rect.unit (s := S6656) (k0_off4 k) S16.size (k0_off4_inb k)).emb x) := by
  have hx : (x 0).val < 16 := (x 0).isLt
  rw [pay3_eq]
  refine perm_core G (k0_pay18 lanes (wbase k) 32#32) h x k.val 32 (by omega) (window_lt k) (vec3_val k x) _ ?_
  show (k0_off4 k) 0 + 1 * (x 0).val = 208 * k.val + 32 + (x 0).val
  rw [k0_off4_eq]
  show 208 * k.val + 32 + 1 * (x 0).val = 208 * k.val + 32 + (x 0).val
  omega

/-! ### Group 4: places 208·k + 48 … 208·k + 63 -/

/-- The place lane x of group 4 reads. -/
theorem vec4_val : ∀ k : Fin k0_t1_loop.trips, ∀ x : S16.Idx,
    ((k0_pay22 lanes (wbase k)) x).toNat = 208 * k.val + 26 * ((48 + (x 0).val) % 8) + (48 + (x 0).val) / 8 := by decide +kernel
/-- The offset group 4 adds: 1000 times the field. -/
theorem pay4_off : ∀ x : S16.Idx,
    ((k0_pay23 (F := fun _ => Unit) lanes (fun _ => 0#32)) x) = BitVec.ofNat 32 ((48 + (x 0).val) / 8) * 1000#32 := by decide +kernel
theorem pay4_eq (W : Vec F S16 .i32) (x : S16.Idx) :
    (k0_pay23 (F := F) lanes W) x = W x + BitVec.ofNat 32 ((48 + (x 0).val) / 8) * 1000#32 := by
  have e : (k0_pay23 (F := F) lanes W) x = W x + (k0_pay23 (F := F) lanes (fun _ => 0#32)) x := by
    simp only [k0_pay23, addi, IntOp.addi, BitVec.zero_add]
  rw [e]
  exact congrArg (fun z => W x + z) (pay4_off x)
/-- Group 4 writes `permW` at its sixteen places. -/
theorem perm4 (G : Vec F S6656 .i32) (k : Fin k0_t1_loop.trips)
    (h : ∀ a x, ((![k0_pay22 lanes (wbase k)] : Fin 1 → IVec S16 32) a x).toNat < S6656.size a) (x : S16.Idx) :
    (k0_pay23 (F := F) lanes (loadIdx (F := F) (e := .i32) G ![k0_pay22 lanes (wbase k)] h)) x
      = permW G ((Rect.unit (s := S6656) (k0_off5 k) S16.size (k0_off5_inb k)).emb x) := by
  have hx : (x 0).val < 16 := (x 0).isLt
  rw [pay4_eq]
  refine perm_core G (k0_pay22 lanes (wbase k)) h x k.val 48 (by omega) (window_lt k) (vec4_val k x) _ ?_
  show (k0_off5 k) 0 + 1 * (x 0).val = 208 * k.val + 48 + (x 0).val
  rw [k0_off5_eq]
  show 208 * k.val + 48 + 1 * (x 0).val = 208 * k.val + 48 + (x 0).val
  omega

/-! ### Group 5: places 208·k + 64 … 208·k + 79 -/

/-- The place lane x of group 5 reads. -/
theorem vec5_val : ∀ k : Fin k0_t1_loop.trips, ∀ x : S16.Idx,
    ((k0_pay27 (wbase k) (k0_pay25 lanes) (k0_pay26 lanes)) x).toNat = 208 * k.val + 26 * ((64 + (x 0).val) % 8) + (64 + (x 0).val) / 8 := by decide +kernel
/-- The offset group 5 adds: 1000 times the field. -/
theorem pay5_off : ∀ x : S16.Idx,
    ((k0_pay28 (F := fun _ => Unit) (k0_pay26 lanes) (fun _ => 0#32)) x) = BitVec.ofNat 32 ((64 + (x 0).val) / 8) * 1000#32 := by decide +kernel
theorem pay5_eq (W : Vec F S16 .i32) (x : S16.Idx) :
    (k0_pay28 (F := F) (k0_pay26 lanes) W) x = W x + BitVec.ofNat 32 ((64 + (x 0).val) / 8) * 1000#32 := by
  have e : (k0_pay28 (F := F) (k0_pay26 lanes) W) x = W x + (k0_pay28 (F := F) (k0_pay26 lanes) (fun _ => 0#32)) x := by
    simp only [k0_pay28, addi, IntOp.addi, BitVec.zero_add]
  rw [e]
  exact congrArg (fun z => W x + z) (pay5_off x)
/-- Group 5 writes `permW` at its sixteen places. -/
theorem perm5 (G : Vec F S6656 .i32) (k : Fin k0_t1_loop.trips)
    (h : ∀ a x, ((![k0_pay27 (wbase k) (k0_pay25 lanes) (k0_pay26 lanes)] : Fin 1 → IVec S16 32) a x).toNat < S6656.size a) (x : S16.Idx) :
    (k0_pay28 (F := F) (k0_pay26 lanes) (loadIdx (F := F) (e := .i32) G ![k0_pay27 (wbase k) (k0_pay25 lanes) (k0_pay26 lanes)] h)) x
      = permW G ((Rect.unit (s := S6656) (k0_off6 k) S16.size (k0_off6_inb k)).emb x) := by
  have hx : (x 0).val < 16 := (x 0).isLt
  rw [pay5_eq]
  refine perm_core G (k0_pay27 (wbase k) (k0_pay25 lanes) (k0_pay26 lanes)) h x k.val 64 (by omega) (window_lt k) (vec5_val k x) _ ?_
  show (k0_off6 k) 0 + 1 * (x 0).val = 208 * k.val + 64 + (x 0).val
  rw [k0_off6_eq]
  show 208 * k.val + 64 + 1 * (x 0).val = 208 * k.val + 64 + (x 0).val
  omega

/-! ### Group 6: places 208·k + 80 … 208·k + 95 -/

/-- The place lane x of group 6 reads. -/
theorem vec6_val : ∀ k : Fin k0_t1_loop.trips, ∀ x : S16.Idx,
    ((k0_pay31 lanes (wbase k)) x).toNat = 208 * k.val + 26 * ((80 + (x 0).val) % 8) + (80 + (x 0).val) / 8 := by decide +kernel
/-- The offset group 6 adds: 1000 times the field. -/
theorem pay6_off : ∀ x : S16.Idx,
    ((k0_pay32 (F := fun _ => Unit) lanes (fun _ => 0#32)) x) = BitVec.ofNat 32 ((80 + (x 0).val) / 8) * 1000#32 := by decide +kernel
theorem pay6_eq (W : Vec F S16 .i32) (x : S16.Idx) :
    (k0_pay32 (F := F) lanes W) x = W x + BitVec.ofNat 32 ((80 + (x 0).val) / 8) * 1000#32 := by
  have e : (k0_pay32 (F := F) lanes W) x = W x + (k0_pay32 (F := F) lanes (fun _ => 0#32)) x := by
    simp only [k0_pay32, addi, IntOp.addi, BitVec.zero_add]
  rw [e]
  exact congrArg (fun z => W x + z) (pay6_off x)
/-- Group 6 writes `permW` at its sixteen places. -/
theorem perm6 (G : Vec F S6656 .i32) (k : Fin k0_t1_loop.trips)
    (h : ∀ a x, ((![k0_pay31 lanes (wbase k)] : Fin 1 → IVec S16 32) a x).toNat < S6656.size a) (x : S16.Idx) :
    (k0_pay32 (F := F) lanes (loadIdx (F := F) (e := .i32) G ![k0_pay31 lanes (wbase k)] h)) x
      = permW G ((Rect.unit (s := S6656) (k0_off7 k) S16.size (k0_off7_inb k)).emb x) := by
  have hx : (x 0).val < 16 := (x 0).isLt
  rw [pay6_eq]
  refine perm_core G (k0_pay31 lanes (wbase k)) h x k.val 80 (by omega) (window_lt k) (vec6_val k x) _ ?_
  show (k0_off7 k) 0 + 1 * (x 0).val = 208 * k.val + 80 + (x 0).val
  rw [k0_off7_eq]
  show 208 * k.val + 80 + 1 * (x 0).val = 208 * k.val + 80 + (x 0).val
  omega

/-! ### Group 7: places 208·k + 96 … 208·k + 111 -/

/-- The place lane x of group 7 reads. -/
theorem vec7_val : ∀ k : Fin k0_t1_loop.trips, ∀ x : S16.Idx,
    ((k0_pay35 lanes (wbase k)) x).toNat = 208 * k.val + 26 * ((96 + (x 0).val) % 8) + (96 + (x 0).val) / 8 := by decide +kernel
/-- The offset group 7 adds: 1000 times the field. -/
theorem pay7_off : ∀ x : S16.Idx,
    ((k0_pay36 (F := fun _ => Unit) (k0_pay34 lanes) (fun _ => 0#32)) x) = BitVec.ofNat 32 ((96 + (x 0).val) / 8) * 1000#32 := by decide +kernel
theorem pay7_eq (W : Vec F S16 .i32) (x : S16.Idx) :
    (k0_pay36 (F := F) (k0_pay34 lanes) W) x = W x + BitVec.ofNat 32 ((96 + (x 0).val) / 8) * 1000#32 := by
  have e : (k0_pay36 (F := F) (k0_pay34 lanes) W) x = W x + (k0_pay36 (F := F) (k0_pay34 lanes) (fun _ => 0#32)) x := by
    simp only [k0_pay36, addi, IntOp.addi, BitVec.zero_add]
  rw [e]
  exact congrArg (fun z => W x + z) (pay7_off x)
/-- Group 7 writes `permW` at its sixteen places. -/
theorem perm7 (G : Vec F S6656 .i32) (k : Fin k0_t1_loop.trips)
    (h : ∀ a x, ((![k0_pay35 lanes (wbase k)] : Fin 1 → IVec S16 32) a x).toNat < S6656.size a) (x : S16.Idx) :
    (k0_pay36 (F := F) (k0_pay34 lanes) (loadIdx (F := F) (e := .i32) G ![k0_pay35 lanes (wbase k)] h)) x
      = permW G ((Rect.unit (s := S6656) (k0_off8 k) S16.size (k0_off8_inb k)).emb x) := by
  have hx : (x 0).val < 16 := (x 0).isLt
  rw [pay7_eq]
  refine perm_core G (k0_pay35 lanes (wbase k)) h x k.val 96 (by omega) (window_lt k) (vec7_val k x) _ ?_
  show (k0_off8 k) 0 + 1 * (x 0).val = 208 * k.val + 96 + (x 0).val
  rw [k0_off8_eq]
  show 208 * k.val + 96 + 1 * (x 0).val = 208 * k.val + 96 + (x 0).val
  omega

/-! ### Group 8: places 208·k + 112 … 208·k + 127 -/

/-- The place lane x of group 8 reads. -/
theorem vec8_val : ∀ k : Fin k0_t1_loop.trips, ∀ x : S16.Idx,
    ((k0_pay39 lanes (wbase k)) x).toNat = 208 * k.val + 26 * ((112 + (x 0).val) % 8) + (112 + (x 0).val) / 8 := by decide +kernel
/-- The offset group 8 adds: 1000 times the field. -/
theorem pay8_off : ∀ x : S16.Idx,
    ((k0_pay40 (F := fun _ => Unit) lanes (fun _ => 0#32)) x) = BitVec.ofNat 32 ((112 + (x 0).val) / 8) * 1000#32 := by decide +kernel
theorem pay8_eq (W : Vec F S16 .i32) (x : S16.Idx) :
    (k0_pay40 (F := F) lanes W) x = W x + BitVec.ofNat 32 ((112 + (x 0).val) / 8) * 1000#32 := by
  have e : (k0_pay40 (F := F) lanes W) x = W x + (k0_pay40 (F := F) lanes (fun _ => 0#32)) x := by
    simp only [k0_pay40, addi, IntOp.addi, BitVec.zero_add]
  rw [e]
  exact congrArg (fun z => W x + z) (pay8_off x)
/-- Group 8 writes `permW` at its sixteen places. -/
theorem perm8 (G : Vec F S6656 .i32) (k : Fin k0_t1_loop.trips)
    (h : ∀ a x, ((![k0_pay39 lanes (wbase k)] : Fin 1 → IVec S16 32) a x).toNat < S6656.size a) (x : S16.Idx) :
    (k0_pay40 (F := F) lanes (loadIdx (F := F) (e := .i32) G ![k0_pay39 lanes (wbase k)] h)) x
      = permW G ((Rect.unit (s := S6656) (k0_off9 k) S16.size (k0_off9_inb k)).emb x) := by
  have hx : (x 0).val < 16 := (x 0).isLt
  rw [pay8_eq]
  refine perm_core G (k0_pay39 lanes (wbase k)) h x k.val 112 (by omega) (window_lt k) (vec8_val k x) _ ?_
  show (k0_off9 k) 0 + 1 * (x 0).val = 208 * k.val + 112 + (x 0).val
  rw [k0_off9_eq]
  show 208 * k.val + 112 + 1 * (x 0).val = 208 * k.val + 112 + (x 0).val
  omega

/-! ### Group 9: places 208·k + 128 … 208·k + 143 -/

/-- The place lane x of group 9 reads. -/
theorem vec9_val : ∀ k : Fin k0_t1_loop.trips, ∀ x : S16.Idx,
    ((k0_pay43 lanes (wbase k)) x).toNat = 208 * k.val + 26 * ((128 + (x 0).val) % 8) + (128 + (x 0).val) / 8 := by decide +kernel
/-- The offset group 9 adds: 1000 times the field. -/
theorem pay9_off : ∀ x : S16.Idx,
    ((k0_pay44 (F := fun _ => Unit) lanes (fun _ => 0#32)) x) = BitVec.ofNat 32 ((128 + (x 0).val) / 8) * 1000#32 := by decide +kernel
theorem pay9_eq (W : Vec F S16 .i32) (x : S16.Idx) :
    (k0_pay44 (F := F) lanes W) x = W x + BitVec.ofNat 32 ((128 + (x 0).val) / 8) * 1000#32 := by
  have e : (k0_pay44 (F := F) lanes W) x = W x + (k0_pay44 (F := F) lanes (fun _ => 0#32)) x := by
    simp only [k0_pay44, addi, IntOp.addi, BitVec.zero_add]
  rw [e]
  exact congrArg (fun z => W x + z) (pay9_off x)
/-- Group 9 writes `permW` at its sixteen places. -/
theorem perm9 (G : Vec F S6656 .i32) (k : Fin k0_t1_loop.trips)
    (h : ∀ a x, ((![k0_pay43 lanes (wbase k)] : Fin 1 → IVec S16 32) a x).toNat < S6656.size a) (x : S16.Idx) :
    (k0_pay44 (F := F) lanes (loadIdx (F := F) (e := .i32) G ![k0_pay43 lanes (wbase k)] h)) x
      = permW G ((Rect.unit (s := S6656) (k0_off10 k) S16.size (k0_off10_inb k)).emb x) := by
  have hx : (x 0).val < 16 := (x 0).isLt
  rw [pay9_eq]
  refine perm_core G (k0_pay43 lanes (wbase k)) h x k.val 128 (by omega) (window_lt k) (vec9_val k x) _ ?_
  show (k0_off10 k) 0 + 1 * (x 0).val = 208 * k.val + 128 + (x 0).val
  rw [k0_off10_eq]
  show 208 * k.val + 128 + 1 * (x 0).val = 208 * k.val + 128 + (x 0).val
  omega

/-! ### Group 10: places 208·k + 144 … 208·k + 159 -/

/-- The place lane x of group 10 reads. -/
theorem vec10_val : ∀ k : Fin k0_t1_loop.trips, ∀ x : S16.Idx,
    ((k0_pay47 lanes (wbase k)) x).toNat = 208 * k.val + 26 * ((144 + (x 0).val) % 8) + (144 + (x 0).val) / 8 := by decide +kernel
/-- The offset group 10 adds: 1000 times the field. -/
theorem pay10_off : ∀ x : S16.Idx,
    ((k0_pay48 (F := fun _ => Unit) lanes (fun _ => 0#32)) x) = BitVec.ofNat 32 ((144 + (x 0).val) / 8) * 1000#32 := by decide +kernel
theorem pay10_eq (W : Vec F S16 .i32) (x : S16.Idx) :
    (k0_pay48 (F := F) lanes W) x = W x + BitVec.ofNat 32 ((144 + (x 0).val) / 8) * 1000#32 := by
  have e : (k0_pay48 (F := F) lanes W) x = W x + (k0_pay48 (F := F) lanes (fun _ => 0#32)) x := by
    simp only [k0_pay48, addi, IntOp.addi, BitVec.zero_add]
  rw [e]
  exact congrArg (fun z => W x + z) (pay10_off x)
/-- Group 10 writes `permW` at its sixteen places. -/
theorem perm10 (G : Vec F S6656 .i32) (k : Fin k0_t1_loop.trips)
    (h : ∀ a x, ((![k0_pay47 lanes (wbase k)] : Fin 1 → IVec S16 32) a x).toNat < S6656.size a) (x : S16.Idx) :
    (k0_pay48 (F := F) lanes (loadIdx (F := F) (e := .i32) G ![k0_pay47 lanes (wbase k)] h)) x
      = permW G ((Rect.unit (s := S6656) (k0_off11 k) S16.size (k0_off11_inb k)).emb x) := by
  have hx : (x 0).val < 16 := (x 0).isLt
  rw [pay10_eq]
  refine perm_core G (k0_pay47 lanes (wbase k)) h x k.val 144 (by omega) (window_lt k) (vec10_val k x) _ ?_
  show (k0_off11 k) 0 + 1 * (x 0).val = 208 * k.val + 144 + (x 0).val
  rw [k0_off11_eq]
  show 208 * k.val + 144 + 1 * (x 0).val = 208 * k.val + 144 + (x 0).val
  omega

/-! ### Group 11: places 208·k + 160 … 208·k + 175 -/

/-- The place lane x of group 11 reads. -/
theorem vec11_val : ∀ k : Fin k0_t1_loop.trips, ∀ x : S16.Idx,
    ((k0_pay51 lanes (wbase k)) x).toNat = 208 * k.val + 26 * ((160 + (x 0).val) % 8) + (160 + (x 0).val) / 8 := by decide +kernel
/-- The offset group 11 adds: 1000 times the field. -/
theorem pay11_off : ∀ x : S16.Idx,
    ((k0_pay52 (F := fun _ => Unit) lanes (fun _ => 0#32)) x) = BitVec.ofNat 32 ((160 + (x 0).val) / 8) * 1000#32 := by decide +kernel
theorem pay11_eq (W : Vec F S16 .i32) (x : S16.Idx) :
    (k0_pay52 (F := F) lanes W) x = W x + BitVec.ofNat 32 ((160 + (x 0).val) / 8) * 1000#32 := by
  have e : (k0_pay52 (F := F) lanes W) x = W x + (k0_pay52 (F := F) lanes (fun _ => 0#32)) x := by
    simp only [k0_pay52, addi, IntOp.addi, BitVec.zero_add]
  rw [e]
  exact congrArg (fun z => W x + z) (pay11_off x)
/-- Group 11 writes `permW` at its sixteen places. -/
theorem perm11 (G : Vec F S6656 .i32) (k : Fin k0_t1_loop.trips)
    (h : ∀ a x, ((![k0_pay51 lanes (wbase k)] : Fin 1 → IVec S16 32) a x).toNat < S6656.size a) (x : S16.Idx) :
    (k0_pay52 (F := F) lanes (loadIdx (F := F) (e := .i32) G ![k0_pay51 lanes (wbase k)] h)) x
      = permW G ((Rect.unit (s := S6656) (k0_off12 k) S16.size (k0_off12_inb k)).emb x) := by
  have hx : (x 0).val < 16 := (x 0).isLt
  rw [pay11_eq]
  refine perm_core G (k0_pay51 lanes (wbase k)) h x k.val 160 (by omega) (window_lt k) (vec11_val k x) _ ?_
  show (k0_off12 k) 0 + 1 * (x 0).val = 208 * k.val + 160 + (x 0).val
  rw [k0_off12_eq]
  show 208 * k.val + 160 + 1 * (x 0).val = 208 * k.val + 160 + (x 0).val
  omega

/-! ### Group 12: places 208·k + 176 … 208·k + 191 -/

/-- The place lane x of group 12 reads. -/
theorem vec12_val : ∀ k : Fin k0_t1_loop.trips, ∀ x : S16.Idx,
    ((k0_pay2 (wbase k) (k0_pay53 lanes) (k0_pay54 lanes) 3#32) x).toNat = 208 * k.val + 26 * ((176 + (x 0).val) % 8) + (176 + (x 0).val) / 8 := by decide +kernel
/-- The offset group 12 adds: 1000 times the field. -/
theorem pay12_off : ∀ x : S16.Idx,
    ((k0_pay3 (F := fun _ => Unit) (k0_pay53 lanes) 3#32 (fun _ => 0#32)) x) = BitVec.ofNat 32 ((176 + (x 0).val) / 8) * 1000#32 := by decide +kernel
theorem pay12_eq (W : Vec F S16 .i32) (x : S16.Idx) :
    (k0_pay3 (F := F) (k0_pay53 lanes) 3#32 W) x = W x + BitVec.ofNat 32 ((176 + (x 0).val) / 8) * 1000#32 := by
  have e : (k0_pay3 (F := F) (k0_pay53 lanes) 3#32 W) x = W x + (k0_pay3 (F := F) (k0_pay53 lanes) 3#32 (fun _ => 0#32)) x := by
    simp only [k0_pay3, addi, IntOp.addi, BitVec.zero_add]
  rw [e]
  exact congrArg (fun z => W x + z) (pay12_off x)
/-- Group 12 writes `permW` at its sixteen places. -/
theorem perm12 (G : Vec F S6656 .i32) (k : Fin k0_t1_loop.trips)
    (h : ∀ a x, ((![k0_pay2 (wbase k) (k0_pay53 lanes) (k0_pay54 lanes) 3#32] : Fin 1 → IVec S16 32) a x).toNat < S6656.size a) (x : S16.Idx) :
    (k0_pay3 (F := F) (k0_pay53 lanes) 3#32 (loadIdx (F := F) (e := .i32) G ![k0_pay2 (wbase k) (k0_pay53 lanes) (k0_pay54 lanes) 3#32] h)) x
      = permW G ((Rect.unit (s := S6656) (k0_off13 k) S16.size (k0_off13_inb k)).emb x) := by
  have hx : (x 0).val < 16 := (x 0).isLt
  rw [pay12_eq]
  refine perm_core G (k0_pay2 (wbase k) (k0_pay53 lanes) (k0_pay54 lanes) 3#32) h x k.val 176 (by omega) (window_lt k) (vec12_val k x) _ ?_
  show (k0_off13 k) 0 + 1 * (x 0).val = 208 * k.val + 176 + (x 0).val
  rw [k0_off13_eq]
  show 208 * k.val + 176 + 1 * (x 0).val = 208 * k.val + 176 + (x 0).val
  omega

/-! ### Group 13: places 208·k + 192 … 208·k + 207 -/

/-- The place lane x of group 13 reads. -/
theorem vec13_val : ∀ k : Fin k0_t1_loop.trips, ∀ x : S16.Idx,
    ((k0_pay6 (wbase k)) x).toNat = 208 * k.val + 26 * ((192 + (x 0).val) % 8) + (192 + (x 0).val) / 8 := by decide +kernel
/-- The offset group 13 adds: 1000 times the field. -/
theorem pay13_off : ∀ x : S16.Idx,
    ((k0_pay7 (F := fun _ => Unit) (fun _ => 0#32)) x) = BitVec.ofNat 32 ((192 + (x 0).val) / 8) * 1000#32 := by decide +kernel
theorem pay13_eq (W : Vec F S16 .i32) (x : S16.Idx) :
    (k0_pay7 (F := F) W) x = W x + BitVec.ofNat 32 ((192 + (x 0).val) / 8) * 1000#32 := by
  have e : (k0_pay7 (F := F) W) x = W x + (k0_pay7 (F := F) (fun _ => 0#32)) x := by
    simp only [k0_pay7, addi, IntOp.addi, BitVec.zero_add]
  rw [e]
  exact congrArg (fun z => W x + z) (pay13_off x)
/-- Group 13 writes `permW` at its sixteen places. -/
theorem perm13 (G : Vec F S6656 .i32) (k : Fin k0_t1_loop.trips)
    (h : ∀ a x, ((![k0_pay6 (wbase k)] : Fin 1 → IVec S16 32) a x).toNat < S6656.size a) (x : S16.Idx) :
    (k0_pay7 (F := F) (loadIdx (F := F) (e := .i32) G ![k0_pay6 (wbase k)] h)) x
      = permW G ((Rect.unit (s := S6656) (k0_off14 k) S16.size (k0_off14_inb k)).emb x) := by
  have hx : (x 0).val < 16 := (x 0).isLt
  rw [pay13_eq]
  refine perm_core G (k0_pay6 (wbase k)) h x k.val 192 (by omega) (window_lt k) (vec13_val k x) _ ?_
  show (k0_off14 k) 0 + 1 * (x 0).val = 208 * k.val + 192 + (x 0).val
  rw [k0_off14_eq]
  show 208 * k.val + 192 + 1 * (x 0).val = 208 * k.val + 192 + (x 0).val
  omega

end Cert.Proof.ScI0

end
-- ==== Proof.ScTileV0.lean ====
import proofs.«202673_g7318624272670_cont_9to1c4b_526_24_alg».proof.Proof.ScBaseI
import proofs.«202673_g7318624272670_cont_9to1c4b_526_24_alg».proof.Proof.ScArithI0
import proofs.«202673_g7318624272670_cont_9to1c4b_526_24_alg».proof.Proof.ScSetsI0
import proofs.«202673_g7318624272670_cont_9to1c4b_526_24_alg».proof.Proof.ScResI0
import proofs.«202673_g7318624272670_cont_9to1c4b_526_24_alg».proof.Proof.LibWritesPred
import proofs.«202673_g7318624272670_cont_9to1c4b_526_24_alg».proof.Proof.LibWritesAgree
import proofs.«202673_g7318624272670_cont_9to1c4b_526_24_alg».proof.Proof.ScPermI0
import proofs.«202673_g7318624272670_cont_9to1c4b_526_24_alg».proof.Proof.Gen.KernelIdeal.Skeleton

/-! One vector subcore's task of the first gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 AND IS the task's word of the index list at
    that place; the windows written so far hold words below 26000 AND HOLD EXACTLY the permuted list (the category read at
    the place's batch position plus 1000 times its field) — the first is what the gathers need of their index lists, the
    second is what the result's value needs, and it is in the task's post. Carried through the second loop: the blocks of the trip
    just past are in flight with their row buffers, all other blocks rest with the task; nothing else is claimed of the
    blocks' contents. -/

noncomputable section

namespace Cert.Proof.ScV0

open Cert.KernelIdeal Cert.KernelIdeal.Gen Cert.Proof.ScI Cert.Proof.ScI0

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

variable [FloatOps F]

section Tile
variable (d : Dev nD) (L : grid0.Coords)

/-! ## The loops' invariants -/

/-- The task's words of the index list, by their place in the task's range. -/
def Gfi (fi : Buf (Elt F) ((idxW).view.loc (thr d L))) : S6656.Idx → BitVec 32 := fun j => fi ((idxSl L).view.emb j)

/-- Every word the index scratch reads is a category, at most 999, and is the task's word of the index list there. -/
def Small (fi : Buf (Elt F) ((idxW).view.loc (thr d L))) (g : Buf (Elt F) ((sN).view.loc (thr d L))) : Prop :=
  (∀ y, (((sN).view.readAt (Elt F) (LoadRect.whole S6656) g y) : BitVec 32).toNat ≤ 999)
    ∧ ∀ y, (((sN).view.readAt (Elt F) (LoadRect.whole S6656) g y) : BitVec 32) = Gfi d L fi y

/-- The first `n` windows of the permuted list hold table rows — words below 26000 — and hold exactly the permuted words. -/
def RowsBelow (fi : Buf (Elt F) ((idxW).view.loc (thr d L))) (n : Nat) (f : Buf (Elt F) ((sP).view.loc (thr d L))) : Prop :=
  (∀ y : S6656.Idx, (y 0).val < 208 * n → (((sP).view.read (Elt F) f y) : BitVec 32).toNat < 26000)
    ∧ ∀ y : S6656.Idx, (y 0).val < 208 * n → (((sP).view.read (Elt F) f y) : BitVec 32) = permW (Gfi d L fi) y

def inv1 (fi : Buf (Elt F) ((idxW).view.loc (thr d L))) (O : CellTallies nD τ sig (HIx 2)) (W : Waits sig (HIx 2)) (n : Nat) (_ : PUnit) : sProp 𝕄 :=
  iprop(Transfers.MayWaits (thr d L) (none : HIx 2) O
    ∗ (∃ g, ⌜Small d L fi g⌝ ∗ (sN).view.loc (thr d L) ↦{fullShare} g)
    ∗ (∃ f, ⌜RowsBelow d L fi n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k0_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc0_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc0_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc0_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc0_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k0_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0)
  else iprop(emp)

def inv2 (fi : Buf (Elt F) ((idxW).view.loc (thr d L))) (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ (∃ f, ⌜RowsBelow d L fi 32 f⌝ ∗ (sP).view.loc (thr d L) ↦{fullShare} f)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L fi ((sN).view.write (Elt F) fn ((idxSl L).view.read (Elt F) fi) Finset.univ) := by
  constructor
  · intro y
    rw [View.write_whole_univ]
    simp only [View.readAt_apply, Memref.view_whole, View.read_whole]
    rw [View.read_apply]
    exact hfi _
  · intro y
    have hy : (LoadRect.whole S6656).idx y = y := by
      funext a
      refine Fin.ext ?_
      show 0 + 1 * (y a).val = (y a).val
      omega
    rw [View.write_whole_univ]
    simp only [View.readAt_apply, Memref.view_whole, View.read_whole]
    rw [View.read_apply, hy]
    rfl

theorem rowsBelow_zero (fi : Buf (Elt F) ((idxW).view.loc (thr d L))) (f : Buf (Elt F) ((sP).view.loc (thr d L))) : RowsBelow d L fi 0 f := by
  constructor
  · intro y hy
    rw [Nat.mul_zero] at hy
    exact absurd hy (Nat.not_lt_zero _)
  · intro y hy
    rw [Nat.mul_zero] at hy
    exact absurd hy (Nat.not_lt_zero _)

/-- One window's thirteen stores keep the earlier windows and fill this one with table rows. -/
theorem rowsBelow_step (fi : Buf (Elt F) ((idxW).view.loc (thr d L))) (k : Fin k0_t1_loop.trips)
    (f : Buf (Elt F) ((sP).view.loc (thr d L))) (hf : RowsBelow d L fi k.val f)
    (Lp : List (View.Piece (Elt F) S6656 .i32))
    (hL : ∀ p ∈ Lp, ∀ x : p.1.shape.Idx, ((p.2 x) : BitVec 32).toNat < 26000)
    (hE : ∀ p ∈ Lp, ∀ x : p.1.shape.Idx, ((p.2 x) : BitVec 32) = permW (Gfi d L fi) (p.1.emb x))
    (hcov : ∀ y : S6656.Idx, 208 * k.val ≤ (y 0).val → (y 0).val < 208 * (k.val + 1) → ∃ p ∈ Lp, y ∈ p.1.set) :
    RowsBelow d L fi (k.val + 1) ((sP).view.writes (Elt F) f Lp) := by
  constructor
  · intro y hy
    refine Cert.LibWritesPred.read_writes_pred (sP).view f (fun w : Elt F .i32 => (w : BitVec 32).toNat < 26000) Lp hL y ?_
    by_cases h : (y 0).val < 208 * k.val
    · exact Or.inl (hf.1 y h)
    · exact Or.inr (hcov y (Nat.le_of_not_lt h) hy)
  · intro y hy
    refine Cert.LibWritesAgree.read_writes_agree (sP).view f (fun y => (permW (Gfi d L fi) y : Elt F .i32)) Lp hE y ?_
    by_cases h : (y 0).val < 208 * k.val
    · exact Or.inl (hf.2 y h)
    · exact Or.inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0) : sProp 𝕄) := if_pos h
theorem idle_pos (n : Nat) (h : n ≠ 0) : idle (F := F) d L n = (iprop(emp) : sProp 𝕄) := if_neg h
theorem cell_self (t : Fin k0_t2_loop.trips) : cell (F := F) d L t.val t = chunkRow d L t := if_neg (by omega)
theorem cell_next (t : Fin k0_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k0_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k0_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fi : Buf (Elt F) ((idxW).view.loc (thr d L))) (fP : Buf (Elt F) ((sP).view.loc (thr d L))) (h : RowsBelow d L fi 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h.1 (r.emb x) ((r.emb x) 0).isLt

set_option maxHeartbeats 8000000 in
theorem tile_run_perm (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileRes d L qT ft fi
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') := by
  rw [cc0_gather_kernel_eq_skeleton]; unfold cc0_gather_kernel_skel k0_t1_body k0_t2_body
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L fi O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L fi k f hf _ ?hL ?hE ?hcov
        case hL =>
          refine List.forall_mem_cons.mpr ⟨pay13_lt (F := F) _ (fun _ => hg.1 _), ?_⟩
          refine List.forall_mem_cons.mpr ⟨pay12_lt (F := F) _ (fun _ => hg.1 _), ?_⟩
          refine List.forall_mem_cons.mpr ⟨pay11_lt (F := F) _ (fun _ => hg.1 _), ?_⟩
          refine List.forall_mem_cons.mpr ⟨pay10_lt (F := F) _ (fun _ => hg.1 _), ?_⟩
          refine List.forall_mem_cons.mpr ⟨pay9_lt (F := F) _ (fun _ => hg.1 _), ?_⟩
          refine List.forall_mem_cons.mpr ⟨pay8_lt (F := F) _ (fun _ => hg.1 _), ?_⟩
          refine List.forall_mem_cons.mpr ⟨pay7_lt (F := F) _ (fun _ => hg.1 _), ?_⟩
          refine List.forall_mem_cons.mpr ⟨pay6_lt (F := F) _ (fun _ => hg.1 _), ?_⟩
          refine List.forall_mem_cons.mpr ⟨pay5_lt (F := F) _ (fun _ => hg.1 _), ?_⟩
          refine List.forall_mem_cons.mpr ⟨pay4_lt (F := F) _ (fun _ => hg.1 _), ?_⟩
          refine List.forall_mem_cons.mpr ⟨pay3_lt (F := F) _ (fun _ => hg.1 _), ?_⟩
          refine List.forall_mem_cons.mpr ⟨pay2_lt (F := F) _ (fun _ => hg.1 _), ?_⟩
          refine List.forall_mem_cons.mpr ⟨pay1_lt (F := F) _ (fun _ => hg.1 _), ?_⟩
          exact fun _ h => absurd h List.not_mem_nil
        case hE =>
          have eG : (fun j => (((sN).view.readAt (Elt F) (LoadRect.whole S6656) g j) : BitVec 32)) = Gfi d L fi := funext hg.2
          refine List.forall_mem_cons.mpr ⟨fun x => (perm13 (F := F) (fun j => (sN).view.readAt (Elt F) (LoadRect.whole S6656) g j) k _ x).trans (congrArg (fun G => permW G _) eG), ?_⟩
          refine List.forall_mem_cons.mpr ⟨fun x => (perm12 (F := F) (fun j => (sN).view.readAt (Elt F) (LoadRect.whole S6656) g j) k _ x).trans (congrArg (fun G => permW G _) eG), ?_⟩
          refine List.forall_mem_cons.mpr ⟨fun x => (perm11 (F := F) (fun j => (sN).view.readAt (Elt F) (LoadRect.whole S6656) g j) k _ x).trans (congrArg (fun G => permW G _) eG), ?_⟩
          refine List.forall_mem_cons.mpr ⟨fun x => (perm10 (F := F) (fun j => (sN).view.readAt (Elt F) (LoadRect.whole S6656) g j) k _ x).trans (congrArg (fun G => permW G _) eG), ?_⟩
          refine List.forall_mem_cons.mpr ⟨fun x => (perm9 (F := F) (fun j => (sN).view.readAt (Elt F) (LoadRect.whole S6656) g j) k _ x).trans (congrArg (fun G => permW G _) eG), ?_⟩
          refine List.forall_mem_cons.mpr ⟨fun x => (perm8 (F := F) (fun j => (sN).view.readAt (Elt F) (LoadRect.whole S6656) g j) k _ x).trans (congrArg (fun G => permW G _) eG), ?_⟩
          refine List.forall_mem_cons.mpr ⟨fun x => (perm7 (F := F) (fun j => (sN).view.readAt (Elt F) (LoadRect.whole S6656) g j) k _ x).trans (congrArg (fun G => permW G _) eG), ?_⟩
          refine List.forall_mem_cons.mpr ⟨fun x => (perm6 (F := F) (fun j => (sN).view.readAt (Elt F) (LoadRect.whole S6656) g j) k _ x).trans (congrArg (fun G => permW G _) eG), ?_⟩
          refine List.forall_mem_cons.mpr ⟨fun x => (perm5 (F := F) (fun j => (sN).view.readAt (Elt F) (LoadRect.whole S6656) g j) k _ x).trans (congrArg (fun G => permW G _) eG), ?_⟩
          refine List.forall_mem_cons.mpr ⟨fun x => (perm4 (F := F) (fun j => (sN).view.readAt (Elt F) (LoadRect.whole S6656) g j) k _ x).trans (congrArg (fun G => permW G _) eG), ?_⟩
          refine List.forall_mem_cons.mpr ⟨fun x => (perm3 (F := F) (fun j => (sN).view.readAt (Elt F) (LoadRect.whole S6656) g j) k _ x).trans (congrArg (fun G => permW G _) eG), ?_⟩
          refine List.forall_mem_cons.mpr ⟨fun x => (perm2 (F := F) (fun j => (sN).view.readAt (Elt F) (LoadRect.whole S6656) g j) k _ x).trans (congrArg (fun G => permW G _) eG), ?_⟩
          refine List.forall_mem_cons.mpr ⟨fun x => (perm1 (F := F) (fun j => (sN).view.readAt (Elt F) (LoadRect.whole S6656) g j) k _ x).trans (congrArg (fun G => permW G _) eG), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fi fp
      · iexact Hp
    iexists (insert (SemLoc.dma cc0_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L fi 32 fP := by
    have := hfP
    rwa [show Scf.trips k0_t1_loop.lb k0_t1_loop.ub k0_t1_loop.st = 32 from trips1_eq] at this
  sl_for (inv2 d L fi O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fi fQ hfQ
    obtain ⟨hc1, hc2, hc3, hc4⟩ := conds_iff k
    by_cases hk : k.val = 0
    · have h1 : ¬ k0_cond1 k = 1#1 := fun h => (hc1.mp h) hk
      have h2 : ¬ k0_cond2 k = 1#1 := fun h => (hc2.mp h) hk
      have h3 : ¬ k0_cond3 k = 1#1 := fun h => (hc3.mp h) hk
      have h4 : ¬ k0_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k0_cond1 k = 1#1 := hc1.mpr hk
      have h2 : k0_cond2 k = 1#1 := hc2.mpr hk
      have h3 : k0_cond3 k = 1#1 := hc3.mpr hk
      have h4 : k0_cond4 k = 1#1 := hc4.mpr hk
      have hk' : k.val - 1 < k0_t2_loop.trips := Nat.lt_of_le_of_lt (Nat.sub_le _ _) k.isLt
      have hkk : (⟨k.val - 1, hk'⟩ : Fin k0_t2_loop.trips).val + 1 = k.val := by show k.val - 1 + 1 = k.val; omega
      have hne : (⟨k.val - 1, hk'⟩ : Fin k0_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k0_t2_loop.trips := by rw [trips2_eq]; decide
  have hll : (⟨12, hl⟩ : Fin k0_t2_loop.trips).val + 1 = Scf.trips k0_t2_loop.lb k0_t2_loop.ub k0_t2_loop.st := trips2_eq.symm
  ihave Hc := (Entails.of_eq (SparseCore.bigSep_erase' (Finset.mem_univ (⟨12, hl⟩ : Fin k0_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k0_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k0_t2_loop.trips)) fun t ht => cell_other d L (Scf.trips k0_t2_loop.lb k0_t2_loop.ub k0_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists fR
    isplitr
    · ipureintro; exact hfR
    · iexact Hp
  isplitl [Hw0_src]
  · iexists q0; iapply (Entails.of_eq (pts_whole d L cc0_scratch2 rfl fullShare q0)); iexact Hw0_src
  isplitl [Hw1_src]
  · iexists q1; iapply (Entails.of_eq (pts_whole d L cc0_scratch3 rfl fullShare q1)); iexact Hw1_src
  isplitl [Hw2_src]
  · iexists q2; iapply (Entails.of_eq (pts_whole d L cc0_scratch4 rfl fullShare q2)); iexact Hw2_src
  isplitl [Hw3_src]
  · iexists q3; iapply (Entails.of_eq (pts_whole d L cc0_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScV0

end
-- ==== Proof.ScPermGV0.lean ====
import proofs.«202673_g7318624272670_cont_9to1c4b_526_24_alg».proof.Proof.ScSpecI
import proofs.«202673_g7318624272670_cont_9to1c4b_526_24_alg».proof.Proof.ScSetsI0
import proofs.«202673_g7318624272670_cont_9to1c4b_526_24_alg».proof.Proof.ScPermI0

/-! A task's permuted words are the call's permuted words at the task's places. Task (c, s) works on the 6656 places from
    base = 13312·s + 6656·c of the call's list. The base is a multiple of 208 and of 8, so the window, the row within the
    window and the field of the global place base + y are those of the local place y moved by the base: what the task
    writes at its local place y is what the whole call's permutation puts at the global place base + y. -/

noncomputable section

namespace Cert.Proof.ScV0

open Cert.KernelIdeal Cert.KernelIdeal.Gen Cert.Proof.ScI Cert.Proof.ScI0 Idealize.ShloMosaic Idealize.ShloMosaic.ValueIdx

/-- The task's first place in the call's list. -/
abbrev baseOf (L : grid0.Coords) : Nat := 13312 * (L 1).val + 6656 * (L 0).val

theorem base_add_lt (L : grid0.Coords) (n : Nat) (h : n < 6656) : baseOf L + n < 212992 := by
  have h1 : (L 1).val < 16 := (L 1).isLt
  have h0 : (L 0).val < 2 := (L 0).isLt
  show 13312 * (L 1).val + 6656 * (L 0).val + n < 212992
  omega

/-- The task's word at local place `j` is the list's word at base + j. -/
theorem emb_idxSl (L : grid0.Coords) (j : S6656.Idx) :
    (idxSl L).view.emb j = ix1 (⟨baseOf L + (j 0).val, base_add_lt L _ (j 0).isLt⟩ : Fin 212992) := by
  funext a
  refine Fin.ext ?_
  match a with
  | ⟨0, _⟩ =>
    show (k0_off1 L) 0 + 1 * (j 0).val = 13312 * (L 1).val + 6656 * (L 0).val + (j 0).val
    rw [k0_off1_eq]
    show 13312 * (L 1).val + 6656 * (L 0).val + 1 * (j 0).val = _
    omega

/-- THE CONSISTENCY: the task's permuted word at local place y is the call's permuted word at base + y. -/
theorem permW_eq_permG (L : grid0.Coords) (fi : S212992.Idx → BitVec 32) (y : S6656.Idx) :
    permW (fun j => fi ((idxSl L).view.emb j)) y
      = permG fi (⟨baseOf L + (y 0).val, base_add_lt L _ (y 0).isLt⟩ : Fin 212992) := by
  have h1 : (L 1).val < 16 := (L 1).isLt
  have h0 : (L 0).val < 2 := (L 0).isLt
  have hy : (y 0).val < 6656 := (y 0).isLt
  -- the base is 208 · (64 s + 32 c), and a multiple of 8
  have q1 : (13312 * (L 1).val + 6656 * (L 0).val + (y 0).val) / 208 = 64 * (L 1).val + 32 * (L 0).val + (y 0).val / 208 := by omega
  have q2 : (13312 * (L 1).val + 6656 * (L 0).val + (y 0).val) % 208 = (y 0).val % 208 := by omega
  have q3 : (13312 * (L 1).val + 6656 * (L 0).val + (y 0).val) % 8 = (y 0).val % 8 := by omega
  unfold permW permG
  have e1 : (idxSl L).view.emb (ix1 (⟨208 * ((y 0).val / 208) + 26 * ((y 0).val % 8) + (y 0).val % 208 / 8, permPlace_lt _ (y 0).isLt⟩ : Fin 6656))
      = ix1 (Cert.KSpec.idxPos (⟨baseOf L + (y 0).val, base_add_lt L _ (y 0).isLt⟩ : Fin 212992)) := by
    rw [emb_idxSl]
    refine congrArg ix1 (Fin.ext ?_)
    show 13312 * (L 1).val + 6656 * (L 0).val + (208 * ((y 0).val / 208) + 26 * ((y 0).val % 8) + (y 0).val % 208 / 8)
      = 208 * ((13312 * (L 1).val + 6656 * (L 0).val + (y 0).val) / 208) + 26 * ((13312 * (L 1).val + 6656 * (L 0).val + (y 0).val) % 8)
        + (13312 * (L 1).val + 6656 * (L 0).val + (y 0).val) % 208 / 8
    rw [q1, q2, q3]
    omega
  have e2 : (y 0).val % 208 / 8 = (Cert.KSpec.rowField (⟨baseOf L + (y 0).val, base_add_lt L _ (y 0).isLt⟩ : Fin 212992)).val := by
    show (y 0).val % 208 / 8 = (13312 * (L 1).val + 6656 * (L 0).val + (y 0).val) % 208 / 8
    rw [q2]
  show fi ((idxSl L).view.emb _) + _ = _
  rw [e1, e2]

end Cert.Proof.ScV0

end
-- ==== Proof.LibGatherAt.lean ====
import Idealize.ShloMosaic.Lib.SparseCore.Stream
import Idealize.ShloMosaic.Lib.ValueIdx

/-! A row gather read at a place. Gathering rows of a matrix [z, c] into a matrix [o, c] by a list of o row numbers
    puts, at row r and lane l of the result, lane l of the source row that the list names for r; and the row a list of
    o words names for r is the word's unsigned value. Generic in the sizes and the element type; nothing of a particular
    kernel. -/

namespace Cert.LibGatherAt

open Idealize.ShloMosaic Idealize.ShloMosaic.ValueIdx

variable {F : FTy → Type}

/-- The gather's payload at row `r`, lane `l`: lane `l` of the source's row `rws r`. -/
theorem gatherPayload_apply {z o c : Nat} {e : EltTy} (hg : (⟨2, ![z, c]⟩ : Shape).Gathers 0 ⟨2, ![o, c]⟩)
    (g : (⟨2, ![z, c]⟩ : Shape).Idx → Elt F e) (rws : Fin o → Fin z) (r : Fin o) (l : Fin c) :
    SparseCore.gatherPayload (F := F) hg g rws (ix2 r l) = g (ix2 (rws r) l) := by
  unfold SparseCore.gatherPayload
  refine congrArg g (funext fun b => Fin.ext ?_)
  match b with
  | ⟨0, _⟩ => exact congrArg Fin.val (Shape.Gathers.idx_axis hg rws (ix2 r l))
  | ⟨1, hb⟩ => exact Shape.Gathers.idx_of_ne hg rws (ix2 r l) ⟨1, hb⟩ Nat.one_ne_zero

/-- The row a list of `o` words names for `k`: word `k`, read unsigned. -/
theorem rows_apply {o z : Nat} (idx : (⟨1, ![o]⟩ : Shape).Idx → Elt F .i32) (hn : (⟨1, ![o]⟩ : Shape).numel = o)
    (h : ∀ x, ((idx x) : BitVec 32).toNat < z) (k : Fin o) :
    (SparseCore.rows (F := F) idx hn h k).val = ((idx (ix1 k)) : BitVec 32).toNat := by
  unfold SparseCore.rows
  show ((idx ((⟨1, ![o]⟩ : Shape).rowMajor.symm (k.cast hn.symm))) : BitVec 32).toNat = _
  have e : (⟨1, ![o]⟩ : Shape).rowMajor.symm (k.cast hn.symm) = ix1 k := by
    rw [Equiv.symm_apply_eq]
    refine Fin.ext ?_
    rw [Shape.rowMajor_val_one]
    rfl
  rw [e]

end Cert.LibGatherAt
-- ==== Proof.ScGatherCoreV0.lean ====
import proofs.«202673_g7318624272670_cont_9to1c4b_526_24_alg».proof.Proof.ScPermGV0
import proofs.«202673_g7318624272670_cont_9to1c4b_526_24_alg».proof.Proof.LibGatherAt
import Idealize.ShloMosaic.Lib.Writes

/-! One block of the gathered array, read at a place. A block is 128 rows from local row n of a task's range (n = 512·k +
    128·i for slot i of trip k). Its row r, lane l is gathered from the table row named by the word at place n + r of
    the task's permuted list. That word is the call's permuted word at the global place base + n + r, which is also the
    block's own global row; it is below 26000, so it is the table row the specification of the gathered array names. -/

noncomputable section

namespace Cert.Proof.ScV0

open Cert.KernelIdeal Cert.KernelIdeal.Gen Cert.Proof.ScI Cert.Proof.ScI0 Idealize.ShloMosaic Idealize.ShloMosaic.ValueIdx

variable {F : FTy → Type}

/-- The whole rectangle places an index at itself. -/
theorem whole_emb_eq (s : Shape) (x : s.Idx) : (Rect.whole s).emb x = x := by
  funext a
  refine Fin.ext ?_
  show 0 + 1 * (x a).val = (x a).val
  omega

/-- One write of a whole payload, read back through the same view, is the payload. -/
theorem read_write_whole {sig : RefSig} {κ : Kind} {sp : Space} {s : Shape} {e : EltTy} {Val : EltTy → Type}
    (v : View sig κ sp s e) (f : v.ty.Contents Val) (P : s.Idx → Val e) (x : s.Idx) :
    v.read Val (v.writes Val f [⟨Rect.whole s, P⟩]) x = P x := by
  have h := View.read_writes_cons_emb (v := v) (f := f) (Rect.whole s) P [] x
  rwa [whole_emb_eq] at h

/-- THE CORE: the gather's payload at row r, lane l of the block starting at local row n is the specified array at the
    block's place. The three slices' offsets are variables with their closed forms as hypotheses. -/
theorem gather_core (L : grid0.Coords) (n : Nat) (hn6 : n + 128 ≤ 6656)
    (ft : S26000x128.Idx → Elt F .f32) (fi : S212992.Idx → BitVec 32) (fQ : S6656.Idx → Elt F .i32)
    (h1 : ∀ p : S6656.Idx, ((fQ p) : BitVec 32).toNat < 26000)
    (h2 : ∀ p : S6656.Idx, ((fQ p) : BitVec 32) = permW (fun j => fi ((idxSl L).view.emb j)) p)
    (off20 : Fin 2 → Nat) (inb20 : ∀ a, off20 a + S128x128.size a ≤ S212992x128.size a) (h20 : off20 = ![baseOf L + n, 0])
    (hst20 : ∀ a, (Rect.unit (s := S212992x128) off20 S128x128.size inb20).stride a = 1)
    (off16 : Fin 1 → Nat) (inb16 : ∀ a, off16 a + S128.size a ≤ S6656.size a) (h16 : off16 = ![n])
    (hst16 : ∀ a, (Rect.unit (s := S6656) off16 S128.size inb16).stride a = 1)
    (inbT : ∀ a, (![0, 0] : Fin 2 → Nat) a + S26000x128.size a ≤ S26000x128.size a)
    (hstT : ∀ a, (Rect.unit (s := S26000x128) ![0, 0] S26000x128.size inbT).stride a = 1)
    (hg : S26000x128.Gathers 0 S128x128)
    (hn : S128.numel = S128x128.size hg.axis')
    (hin : ∀ x, ((View.read (Elt F) ((Memref.whole cc0_scratch1 : Memref sig .scVector .vmem S6656 .i32).slice
        (Rect.unit (s := S6656) off16 S128.size inb16) hst16).view fQ x) : BitVec 32).toNat < S26000x128.size hg.axis)
    (r l : Fin 128) :
    SparseCore.gatherPayload (F := F) hg
        (View.read (Elt F) ((Memref.whole main_v0_scv : Memref sig .scVector .hbm S26000x128 .f32).slice
          (Rect.unit (s := S26000x128) ![0, 0] S26000x128.size inbT) hstT).view ft)
        (SparseCore.rows (F := F) (View.read (Elt F) ((Memref.whole cc0_scratch1 : Memref sig .scVector .vmem S6656 .i32).slice
          (Rect.unit (s := S6656) off16 S128.size inb16) hst16).view fQ) hn hin) (ix2 r l)
      = embSpec ft fi (((Memref.whole main_v6_scv : Memref sig .scVector .hbm S212992x128 .f32).slice
          (Rect.unit (s := S212992x128) off20 S128x128.size inb20) hst20).view.emb (ix2 r l)) := by
  subst h20
  subst h16
  have hr : r.val < 128 := r.isLt
  -- the place of the list the row's word sits at
  have hp6 : n + r.val < 6656 := by omega
  have hword : View.read (Elt F) ((Memref.whole cc0_scratch1 : Memref sig .scVector .vmem S6656 .i32).slice
      (Rect.unit (s := S6656) ![n] S128.size inb16) hst16).view fQ (ix1 r) = fQ (ix1 (⟨n + r.val, hp6⟩ : Fin 6656)) := by
    show fQ _ = fQ _
    refine congrArg fQ (funext fun a => Fin.ext ?_)
    match a with
    | ⟨0, _⟩ =>
      show n + 1 * r.val = n + r.val
      omega
  refine (Cert.LibGatherAt.gatherPayload_apply (F := F) (z := 26000) (o := 128) (c := 128) hg _ _ r l).trans ?_
  -- the table read through its whole slice is the table
  show ft _ = _
  unfold embSpec
  refine congrArg ft (funext fun a => Fin.ext ?_)
  match a with
  | ⟨0, _⟩ =>
    show 0 + 1 * (SparseCore.rows (F := F) _ hn hin r).val = (permG fi _).toNat % 26000
    have hrow := Cert.LibGatherAt.rows_apply (F := F) (o := 128) (z := 26000)
      (View.read (Elt F) ((Memref.whole cc0_scratch1 : Memref sig .scVector .vmem S6656 .i32).slice
        (Rect.unit (s := S6656) ![n] S128.size inb16) hst16).view fQ) hn hin r
    refine (congrArg (fun t : Nat => 0 + 1 * t) hrow).trans ?_
    rw [hword, h2, permW_eq_permG]
    have hlt := h1 (ix1 (⟨n + r.val, hp6⟩ : Fin 6656))
    rw [h2, permW_eq_permG] at hlt
    have e : (⟨baseOf L + ((ix1 (⟨n + r.val, hp6⟩ : Fin 6656) : S6656.Idx) 0).val, base_add_lt L _ ((ix1 (⟨n + r.val, hp6⟩ : Fin 6656) : S6656.Idx) 0).isLt⟩ : Fin 212992)
        = ⟨(((Memref.whole main_v6_scv : Memref sig .scVector .hbm S212992x128 .f32).slice
            (Rect.unit (s := S212992x128) ![baseOf L + n, 0] S128x128.size inb20) hst20).view.emb (ix2 r l) 0).val, Fin.isLt _⟩ := by
      refine Fin.ext ?_
      show baseOf L + (n + r.val) = baseOf L + n + 1 * r.val
      omega
    rw [e] at hlt ⊢
    rw [Nat.mod_eq_of_lt hlt]
    omega
  | ⟨1, _⟩ =>
    show 0 + 1 * l.val = 0 + 1 * l.val
    rfl

end Cert.Proof.ScV0

end
-- ==== Proof.ScGatherV0.lean ====
import proofs.«202673_g7318624272670_cont_9to1c4b_526_24_alg».proof.Proof.ScTileV0
import proofs.«202673_g7318624272670_cont_9to1c4b_526_24_alg».proof.Proof.ScGatherCoreV0

/-! The four blocks a trip of the gather loop writes hold the specified array. After trip k the block of slot i holds,
    wherever it held anything before, what the slot's row buffer read when it was written, and the row buffer held what
    the gather put there: row r, lane l is lane l of the table row named by the word at place 512·k + 128·i + r of the
    task's permuted list. With the list exact (it is the call's permuted list at the task's places) that is the
    specification of the gathered array at the block's own places. -/

noncomputable section

namespace Cert.Proof.ScV0

open Cert.KernelIdeal Cert.KernelIdeal.Gen Cert.Proof.ScI Cert.Proof.ScI0 Idealize.ShloMosaic Idealize.ShloMosaic.ValueIdx

variable {F : FTy → Type} [FloatOps F]

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "sP" => (Memref.whole Cert.KernelIdeal.cc0_scratch1 : Memref Cert.KernelIdeal.sig Kind.scVector Space.vmem Cert.KernelIdeal.S6656 EltTy.i32)

section Blocks
variable (d : Dev nD) (L : grid0.Coords)

/-- Slot 0's block after trip k. -/
theorem chunk_agree0 (k : Fin k0_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc0_scratch2 : Memref sig .scVector .vmem S128x128 .f32).view.loc (thr d L)))
    (o : Buf (Elt F) ((chunk0 L k).view.loc (thr d L)))
    (hsl : ∀ a, (Rect.unit (s := S26000x128) ![0, 0] S26000x128.size inb_S26000x128_S26000x128_0_0).stride a = 1)
    (hoff : ∀ a, (k0_off16 k 0#32) a + S128.size a ≤ S6656.size a)
    (hst : ∀ a, (Rect.unit (s := S6656) (k0_off16 k 0#32) S128.size hoff).stride a = 1)
    (hn : S128.numel = S128x128.size gathers_S26000x128_S128x128.axis')
    (hin : ∀ x, ((View.read (Elt F) ((Memref.whole cc0_scratch1 : Memref sig .scVector .vmem S6656 .i32).slice
        (Rect.unit (s := S6656) (k0_off16 k 0#32) S128.size hoff) hst).view fQ x) : BitVec 32).toNat
          < S26000x128.size gathers_S26000x128_S128x128.axis) :
    AgreeOn (chunk0 L k).view.set
      ((chunk0 L k).view.writes (Elt F) o
        [⟨Rect.whole S128x128, (ReadAs.same : ReadAs (Elt F) S128x128 .f32 S128x128 .f32).apply
          (View.read (Elt F) (Memref.whole cc0_scratch2).view ((Memref.whole cc0_scratch2).view.writes (Elt F) e
            [⟨Rect.whole cc0_scratch2.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc0_scratch1).slice (Rect.unit (k0_off16 k 0#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k0_off20 L k 0#32 = ![baseOf L + (512 * k.val + 128 * 0), 0] := by
    rw [show k0_off20 L k 0#32 = _ from k0_off20_eq L k ⟨0, by decide⟩]
    funext a
    match a with
    | ⟨0, _⟩ =>
      show 13312 * (L 1).val + 6656 * (L 0).val + 512 * k.val + 128 * 0 = 13312 * (L 1).val + 6656 * (L 0).val + (512 * k.val + 128 * 0)
      omega
    | ⟨1, _⟩ => rfl
  have h16 : k0_off16 k 0#32 = ![512 * k.val + 128 * 0] := k0_off16_eq k ⟨0, by decide⟩
  -- the written block, read at its own place, is the row buffer's read; the row buffer's is the gather's payload
  show (chunk0 L k).view.read (Elt F) ((chunk0 L k).view.writes (Elt F) o [⟨Rect.whole S128x128, _⟩]) (ix2 r l) = _
  rw [read_write_whole]
  show View.read (Elt F) (Memref.whole cc0_scratch2).view ((Memref.whole cc0_scratch2).view.writes (Elt F) e [⟨Rect.whole cc0_scratch2.ty.shape, _⟩]) (ix2 r l) = _
  rw [read_write_whole]
  exact gather_core (F := F) L (512 * k.val + 128 * 0) (by omega) ft fi fQ
    (fun p => hQ.1 p (by have h6 : (p 0).val < 6656 := (p 0).isLt; omega))
    (fun p => hQ.2 p (by have h6 : (p 0).val < 6656 := (p 0).isLt; omega))
    (k0_off20 L k 0#32) (k0_off20_inb L k 0) h20 (fun _ => rfl)
    (k0_off16 k 0#32) hoff h16 hst inb_S26000x128_S26000x128_0_0 hsl gathers_S26000x128_S128x128 hn hin r l

/-- Slot 1's block after trip k. -/
theorem chunk_agree1 (k : Fin k0_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc0_scratch3 : Memref sig .scVector .vmem S128x128 .f32).view.loc (thr d L)))
    (o : Buf (Elt F) ((chunk1 L k).view.loc (thr d L)))
    (hsl : ∀ a, (Rect.unit (s := S26000x128) ![0, 0] S26000x128.size inb_S26000x128_S26000x128_0_0).stride a = 1)
    (hoff : ∀ a, (k0_off16 k 1#32) a + S128.size a ≤ S6656.size a)
    (hst : ∀ a, (Rect.unit (s := S6656) (k0_off16 k 1#32) S128.size hoff).stride a = 1)
    (hn : S128.numel = S128x128.size gathers_S26000x128_S128x128.axis')
    (hin : ∀ x, ((View.read (Elt F) ((Memref.whole cc0_scratch1 : Memref sig .scVector .vmem S6656 .i32).slice
        (Rect.unit (s := S6656) (k0_off16 k 1#32) S128.size hoff) hst).view fQ x) : BitVec 32).toNat
          < S26000x128.size gathers_S26000x128_S128x128.axis) :
    AgreeOn (chunk1 L k).view.set
      ((chunk1 L k).view.writes (Elt F) o
        [⟨Rect.whole S128x128, (ReadAs.same : ReadAs (Elt F) S128x128 .f32 S128x128 .f32).apply
          (View.read (Elt F) (Memref.whole cc0_scratch3).view ((Memref.whole cc0_scratch3).view.writes (Elt F) e
            [⟨Rect.whole cc0_scratch3.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc0_scratch1).slice (Rect.unit (k0_off16 k 1#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k0_off20 L k 1#32 = ![baseOf L + (512 * k.val + 128 * 1), 0] := by
    rw [show k0_off20 L k 1#32 = _ from k0_off20_eq L k ⟨1, by decide⟩]
    funext a
    match a with
    | ⟨0, _⟩ =>
      show 13312 * (L 1).val + 6656 * (L 0).val + 512 * k.val + 128 * 1 = 13312 * (L 1).val + 6656 * (L 0).val + (512 * k.val + 128 * 1)
      omega
    | ⟨1, _⟩ => rfl
  have h16 : k0_off16 k 1#32 = ![512 * k.val + 128 * 1] := k0_off16_eq k ⟨1, by decide⟩
  -- the written block, read at its own place, is the row buffer's read; the row buffer's is the gather's payload
  show (chunk1 L k).view.read (Elt F) ((chunk1 L k).view.writes (Elt F) o [⟨Rect.whole S128x128, _⟩]) (ix2 r l) = _
  rw [read_write_whole]
  show View.read (Elt F) (Memref.whole cc0_scratch3).view ((Memref.whole cc0_scratch3).view.writes (Elt F) e [⟨Rect.whole cc0_scratch3.ty.shape, _⟩]) (ix2 r l) = _
  rw [read_write_whole]
  exact gather_core (F := F) L (512 * k.val + 128 * 1) (by omega) ft fi fQ
    (fun p => hQ.1 p (by have h6 : (p 0).val < 6656 := (p 0).isLt; omega))
    (fun p => hQ.2 p (by have h6 : (p 0).val < 6656 := (p 0).isLt; omega))
    (k0_off20 L k 1#32) (k0_off20_inb L k 1) h20 (fun _ => rfl)
    (k0_off16 k 1#32) hoff h16 hst inb_S26000x128_S26000x128_0_0 hsl gathers_S26000x128_S128x128 hn hin r l

/-- Slot 2's block after trip k. -/
theorem chunk_agree2 (k : Fin k0_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc0_scratch4 : Memref sig .scVector .vmem S128x128 .f32).view.loc (thr d L)))
    (o : Buf (Elt F) ((chunk2 L k).view.loc (thr d L)))
    (hsl : ∀ a, (Rect.unit (s := S26000x128) ![0, 0] S26000x128.size inb_S26000x128_S26000x128_0_0).stride a = 1)
    (hoff : ∀ a, (k0_off16 k 2#32) a + S128.size a ≤ S6656.size a)
    (hst : ∀ a, (Rect.unit (s := S6656) (k0_off16 k 2#32) S128.size hoff).stride a = 1)
    (hn : S128.numel = S128x128.size gathers_S26000x128_S128x128.axis')
    (hin : ∀ x, ((View.read (Elt F) ((Memref.whole cc0_scratch1 : Memref sig .scVector .vmem S6656 .i32).slice
        (Rect.unit (s := S6656) (k0_off16 k 2#32) S128.size hoff) hst).view fQ x) : BitVec 32).toNat
          < S26000x128.size gathers_S26000x128_S128x128.axis) :
    AgreeOn (chunk2 L k).view.set
      ((chunk2 L k).view.writes (Elt F) o
        [⟨Rect.whole S128x128, (ReadAs.same : ReadAs (Elt F) S128x128 .f32 S128x128 .f32).apply
          (View.read (Elt F) (Memref.whole cc0_scratch4).view ((Memref.whole cc0_scratch4).view.writes (Elt F) e
            [⟨Rect.whole cc0_scratch4.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc0_scratch1).slice (Rect.unit (k0_off16 k 2#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k0_off20 L k 2#32 = ![baseOf L + (512 * k.val + 128 * 2), 0] := by
    rw [show k0_off20 L k 2#32 = _ from k0_off20_eq L k ⟨2, by decide⟩]
    funext a
    match a with
    | ⟨0, _⟩ =>
      show 13312 * (L 1).val + 6656 * (L 0).val + 512 * k.val + 128 * 2 = 13312 * (L 1).val + 6656 * (L 0).val + (512 * k.val + 128 * 2)
      omega
    | ⟨1, _⟩ => rfl
  have h16 : k0_off16 k 2#32 = ![512 * k.val + 128 * 2] := k0_off16_eq k ⟨2, by decide⟩
  -- the written block, read at its own place, is the row buffer's read; the row buffer's is the gather's payload
  show (chunk2 L k).view.read (Elt F) ((chunk2 L k).view.writes (Elt F) o [⟨Rect.whole S128x128, _⟩]) (ix2 r l) = _
  rw [read_write_whole]
  show View.read (Elt F) (Memref.whole cc0_scratch4).view ((Memref.whole cc0_scratch4).view.writes (Elt F) e [⟨Rect.whole cc0_scratch4.ty.shape, _⟩]) (ix2 r l) = _
  rw [read_write_whole]
  exact gather_core (F := F) L (512 * k.val + 128 * 2) (by omega) ft fi fQ
    (fun p => hQ.1 p (by have h6 : (p 0).val < 6656 := (p 0).isLt; omega))
    (fun p => hQ.2 p (by have h6 : (p 0).val < 6656 := (p 0).isLt; omega))
    (k0_off20 L k 2#32) (k0_off20_inb L k 2) h20 (fun _ => rfl)
    (k0_off16 k 2#32) hoff h16 hst inb_S26000x128_S26000x128_0_0 hsl gathers_S26000x128_S128x128 hn hin r l

/-- Slot 3's block after trip k. -/
theorem chunk_agree3 (k : Fin k0_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc0_scratch5 : Memref sig .scVector .vmem S128x128 .f32).view.loc (thr d L)))
    (o : Buf (Elt F) ((chunk3 L k).view.loc (thr d L)))
    (hsl : ∀ a, (Rect.unit (s := S26000x128) ![0, 0] S26000x128.size inb_S26000x128_S26000x128_0_0).stride a = 1)
    (hoff : ∀ a, (k0_off16 k 3#32) a + S128.size a ≤ S6656.size a)
    (hst : ∀ a, (Rect.unit (s := S6656) (k0_off16 k 3#32) S128.size hoff).stride a = 1)
    (hn : S128.numel = S128x128.size gathers_S26000x128_S128x128.axis')
    (hin : ∀ x, ((View.read (Elt F) ((Memref.whole cc0_scratch1 : Memref sig .scVector .vmem S6656 .i32).slice
        (Rect.unit (s := S6656) (k0_off16 k 3#32) S128.size hoff) hst).view fQ x) : BitVec 32).toNat
          < S26000x128.size gathers_S26000x128_S128x128.axis) :
    AgreeOn (chunk3 L k).view.set
      ((chunk3 L k).view.writes (Elt F) o
        [⟨Rect.whole S128x128, (ReadAs.same : ReadAs (Elt F) S128x128 .f32 S128x128 .f32).apply
          (View.read (Elt F) (Memref.whole cc0_scratch5).view ((Memref.whole cc0_scratch5).view.writes (Elt F) e
            [⟨Rect.whole cc0_scratch5.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc0_scratch1).slice (Rect.unit (k0_off16 k 3#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k0_off20 L k 3#32 = ![baseOf L + (512 * k.val + 128 * 3), 0] := by
    rw [show k0_off20 L k 3#32 = _ from k0_off20_eq L k ⟨3, by decide⟩]
    funext a
    match a with
    | ⟨0, _⟩ =>
      show 13312 * (L 1).val + 6656 * (L 0).val + 512 * k.val + 128 * 3 = 13312 * (L 1).val + 6656 * (L 0).val + (512 * k.val + 128 * 3)
      omega
    | ⟨1, _⟩ => rfl
  have h16 : k0_off16 k 3#32 = ![512 * k.val + 128 * 3] := k0_off16_eq k ⟨3, by decide⟩
  -- the written block, read at its own place, is the row buffer's read; the row buffer's is the gather's payload
  show (chunk3 L k).view.read (Elt F) ((chunk3 L k).view.writes (Elt F) o [⟨Rect.whole S128x128, _⟩]) (ix2 r l) = _
  rw [read_write_whole]
  show View.read (Elt F) (Memref.whole cc0_scratch5).view ((Memref.whole cc0_scratch5).view.writes (Elt F) e [⟨Rect.whole cc0_scratch5.ty.shape, _⟩]) (ix2 r l) = _
  rw [read_write_whole]
  exact gather_core (F := F) L (512 * k.val + 128 * 3) (by omega) ft fi fQ
    (fun p => hQ.1 p (by have h6 : (p 0).val < 6656 := (p 0).isLt; omega))
    (fun p => hQ.2 p (by have h6 : (p 0).val < 6656 := (p 0).isLt; omega))
    (k0_off20 L k 3#32) (k0_off20_inb L k 3) h20 (fun _ => rfl)
    (k0_off16 k 3#32) hoff h16 hst inb_S26000x128_S26000x128_0_0 hsl gathers_S26000x128_S128x128 hn hin r l

end Blocks

end Cert.Proof.ScV0

end
-- ==== Proof.ScTileW0.lean ====
import proofs.«202673_g7318624272670_cont_9to1c4b_526_24_alg».proof.Proof.ScTileV0
import proofs.«202673_g7318624272670_cont_9to1c4b_526_24_alg».proof.Proof.ScPayV
import proofs.«202673_g7318624272670_cont_9to1c4b_526_24_alg».proof.Proof.ScGatherV0

/-! One vector subcore's task of the first gather call, with the gathered values: the run of the task as before, the
    gather loop now remembering what each finished block holds. A block in flight or handed back agrees, on its own
    places, with the call's specification: row q of the gathered array is the table row named by the word the
    permutation puts at place q. -/

noncomputable section

namespace Cert.Proof.ScV0

open Cert.KernelIdeal Cert.KernelIdeal.Gen Cert.Proof.ScI Cert.Proof.ScI0

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

variable [FloatOps F]

section Tile
variable (d : Dev nD) (L : grid0.Coords)

/-! ## The gather loop with values -/

/-- The call's specification on the four blocks of trip `t`. -/
def Agree4 (ft : Buf (Elt F) ((tblW).view.loc (thr d L))) (fi : Buf (Elt F) ((idxW).view.loc (thr d L))) (t : Fin k0_t2_loop.trips)
    (o0 o1 o2 o3 : Buf (Elt F) ((outW).view.loc (thr d L))) : Prop :=
  AgreeOn (chunk0 L t).view.set o0 (embSpec ft fi) ∧ AgreeOn (chunk1 L t).view.set o1 (embSpec ft fi)
    ∧ AgreeOn (chunk2 L t).view.set o2 (embSpec ft fi) ∧ AgreeOn (chunk3 L t).view.set o3 (embSpec ft fi)

/-- Before trip `n`: trip `n - 1`'s blocks are in flight at contents that agree with the specification, the earlier
    trips' blocks rest with the task at such contents, the later trips' at any. -/
def cellW (ft : Buf (Elt F) ((tblW).view.loc (thr d L))) (fi : Buf (Elt F) ((idxW).view.loc (thr d L))) (n : Nat) (t : Fin k0_t2_loop.trips) : sProp 𝕄 :=
  if t.val + 1 = n then iprop(∃ o0 o1 o2 o3 c0 c1 c2 c3, flightRow d L t o0 o1 o2 o3 c0 c1 c2 c3 ∗ ⌜Agree4 d L ft fi t o0 o1 o2 o3⌝)
  else if t.val + 1 < n then doneRow d L ft fi t else chunkRow d L t

def inv2W (fi : Buf (Elt F) ((idxW).view.loc (thr d L))) (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ (∃ f, ⌜RowsBelow d L fi 32 f⌝ ∗ (sP).view.loc (thr d L) ↦{fullShare} f)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ bigSep Finset.univ (cellW d L ft fi n)
    ∗ idle d L n
    ∗ ∃ W', ⌜∀ p ∈ W', p ∈ W ∨ p.2 = none⌝ ∗ owes (thr d L) O W')

theorem cellW_self (ft fi) (t : Fin k0_t2_loop.trips) : cellW (F := F) d L ft fi t.val t = chunkRow d L t := by
  unfold cellW; rw [if_neg (by omega), if_neg (by omega)]
theorem cellW_at (ft fi) (n : Nat) (t : Fin k0_t2_loop.trips) (h : t.val + 1 = n) : cellW (F := F) d L ft fi n t
    = (iprop(∃ o0 o1 o2 o3 c0 c1 c2 c3, flightRow d L t o0 o1 o2 o3 c0 c1 c2 c3 ∗ ⌜Agree4 d L ft fi t o0 o1 o2 o3⌝) : sProp 𝕄) := if_pos h
theorem cellW_done (ft fi) (n : Nat) (t : Fin k0_t2_loop.trips) (h : t.val + 1 < n) : cellW (F := F) d L ft fi n t = doneRow d L ft fi t := by
  unfold cellW; rw [if_neg (by omega), if_pos h]
theorem cellW_todo (ft fi) (n : Nat) (t : Fin k0_t2_loop.trips) (h : n < t.val + 1) : cellW (F := F) d L ft fi n t = chunkRow d L t := by
  unfold cellW; rw [if_neg (by omega), if_neg (by omega)]
/-- A trip whose blocks are neither in flight before trip `n` nor before trip `n + 1` is in the same state before both. -/
theorem cellW_step (ft fi) (n : Nat) (t : Fin k0_t2_loop.trips) (h1 : t.val + 1 ≠ n) (h2 : t.val + 1 ≠ n + 1) :
    cellW (F := F) d L ft fi n t = cellW d L ft fi (n + 1) t := by
  by_cases h : t.val + 1 < n
  · rw [cellW_done d L ft fi n t h, cellW_done d L ft fi (n + 1) t (by omega)]
  · rw [cellW_todo d L ft fi n t (by omega), cellW_todo d L ft fi (n + 1) t (by omega)]

set_option maxHeartbeats 8000000 in
theorem tile_run_val (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileResV d L ft fi qT
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') := by
  rw [cc0_gather_kernel_eq_skeleton]; unfold cc0_gather_kernel_skel k0_t1_body k0_t2_body
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel
  unfold SparseCore.vectorLoadIdx
  unfold tileRes tileResV
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L fi O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L fi k f hf _ ?hL ?hE ?hcov
        case hL =>
          refine List.forall_mem_cons.mpr ⟨pay13_lt (F := F) _ (fun _ => hg.1 _), ?_⟩
          refine List.forall_mem_cons.mpr ⟨pay12_lt (F := F) _ (fun _ => hg.1 _), ?_⟩
          refine List.forall_mem_cons.mpr ⟨pay11_lt (F := F) _ (fun _ => hg.1 _), ?_⟩
          refine List.forall_mem_cons.mpr ⟨pay10_lt (F := F) _ (fun _ => hg.1 _), ?_⟩
          refine List.forall_mem_cons.mpr ⟨pay9_lt (F := F) _ (fun _ => hg.1 _), ?_⟩
          refine List.forall_mem_cons.mpr ⟨pay8_lt (F := F) _ (fun _ => hg.1 _), ?_⟩
          refine List.forall_mem_cons.mpr ⟨pay7_lt (F := F) _ (fun _ => hg.1 _), ?_⟩
          refine List.forall_mem_cons.mpr ⟨pay6_lt (F := F) _ (fun _ => hg.1 _), ?_⟩
          refine List.forall_mem_cons.mpr ⟨pay5_lt (F := F) _ (fun _ => hg.1 _), ?_⟩
          refine List.forall_mem_cons.mpr ⟨pay4_lt (F := F) _ (fun _ => hg.1 _), ?_⟩
          refine List.forall_mem_cons.mpr ⟨pay3_lt (F := F) _ (fun _ => hg.1 _), ?_⟩
          refine List.forall_mem_cons.mpr ⟨pay2_lt (F := F) _ (fun _ => hg.1 _), ?_⟩
          refine List.forall_mem_cons.mpr ⟨pay1_lt (F := F) _ (fun _ => hg.1 _), ?_⟩
          exact fun _ h => absurd h List.not_mem_nil
        case hE =>
          have eG : (fun j => (((sN).view.readAt (Elt F) (LoadRect.whole S6656) g j) : BitVec 32)) = Gfi d L fi := funext hg.2
          refine List.forall_mem_cons.mpr ⟨fun x => (perm13 (F := F) (fun j => (sN).view.readAt (Elt F) (LoadRect.whole S6656) g j) k _ x).trans (congrArg (fun G => permW G _) eG), ?_⟩
          refine List.forall_mem_cons.mpr ⟨fun x => (perm12 (F := F) (fun j => (sN).view.readAt (Elt F) (LoadRect.whole S6656) g j) k _ x).trans (congrArg (fun G => permW G _) eG), ?_⟩
          refine List.forall_mem_cons.mpr ⟨fun x => (perm11 (F := F) (fun j => (sN).view.readAt (Elt F) (LoadRect.whole S6656) g j) k _ x).trans (congrArg (fun G => permW G _) eG), ?_⟩
          refine List.forall_mem_cons.mpr ⟨fun x => (perm10 (F := F) (fun j => (sN).view.readAt (Elt F) (LoadRect.whole S6656) g j) k _ x).trans (congrArg (fun G => permW G _) eG), ?_⟩
          refine List.forall_mem_cons.mpr ⟨fun x => (perm9 (F := F) (fun j => (sN).view.readAt (Elt F) (LoadRect.whole S6656) g j) k _ x).trans (congrArg (fun G => permW G _) eG), ?_⟩
          refine List.forall_mem_cons.mpr ⟨fun x => (perm8 (F := F) (fun j => (sN).view.readAt (Elt F) (LoadRect.whole S6656) g j) k _ x).trans (congrArg (fun G => permW G _) eG), ?_⟩
          refine List.forall_mem_cons.mpr ⟨fun x => (perm7 (F := F) (fun j => (sN).view.readAt (Elt F) (LoadRect.whole S6656) g j) k _ x).trans (congrArg (fun G => permW G _) eG), ?_⟩
          refine List.forall_mem_cons.mpr ⟨fun x => (perm6 (F := F) (fun j => (sN).view.readAt (Elt F) (LoadRect.whole S6656) g j) k _ x).trans (congrArg (fun G => permW G _) eG), ?_⟩
          refine List.forall_mem_cons.mpr ⟨fun x => (perm5 (F := F) (fun j => (sN).view.readAt (Elt F) (LoadRect.whole S6656) g j) k _ x).trans (congrArg (fun G => permW G _) eG), ?_⟩
          refine List.forall_mem_cons.mpr ⟨fun x => (perm4 (F := F) (fun j => (sN).view.readAt (Elt F) (LoadRect.whole S6656) g j) k _ x).trans (congrArg (fun G => permW G _) eG), ?_⟩
          refine List.forall_mem_cons.mpr ⟨fun x => (perm3 (F := F) (fun j => (sN).view.readAt (Elt F) (LoadRect.whole S6656) g j) k _ x).trans (congrArg (fun G => permW G _) eG), ?_⟩
          refine List.forall_mem_cons.mpr ⟨fun x => (perm2 (F := F) (fun j => (sN).view.readAt (Elt F) (LoadRect.whole S6656) g j) k _ x).trans (congrArg (fun G => permW G _) eG), ?_⟩
          refine List.forall_mem_cons.mpr ⟨fun x => (perm1 (F := F) (fun j => (sN).view.readAt (Elt F) (LoadRect.whole S6656) g j) k _ x).trans (congrArg (fun G => permW G _) eG), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fi fp
      · iexact Hp
    iexists (insert (SemLoc.dma cc0_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L fi 32 fP := by
    have := hfP
    rwa [show Scf.trips k0_t1_loop.lb k0_t1_loop.ub k0_t1_loop.st = 32 from trips1_eq] at this
  sl_for (inv2W d L fi O W qT ft) $$ [Hmw Ht0 Ht1 Ht2 Ht3 Hp Hg0 Hg1 Hg2 Hg3 Hout H0 H1 H2 H3 Hw0 Hw1 Hw2 Hw3 HO]
  case region =>
    intro k _
    unfold inv2W
    iintro ⟨Hmw, Ht0, Ht1, Ht2, Ht3, ⟨%fQ, %hfQ, Hp⟩, Hg0, Hg1, Hg2, Hg3, Hcells, Hidle, %W', %hW', HO⟩
    have hin := hin_of_rows d L fi fQ hfQ
    obtain ⟨hc1, hc2, hc3, hc4⟩ := conds_iff k
    by_cases hk : k.val = 0
    · have h1 : ¬ k0_cond1 k = 1#1 := fun h => (hc1.mp h) hk
      have h2 : ¬ k0_cond2 k = 1#1 := fun h => (hc2.mp h) hk
      have h3 : ¬ k0_cond3 k = 1#1 := fun h => (hc3.mp h) hk
      have h4 : ¬ k0_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cellW_self d L ft fi k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cellW_at d L ft fi (k.val + 1) k rfl).symm)
          iexists _, _, _, _, _, _, _, _
          isplitl [Hw0 Hw1 Hw2 Hw3]
          · unfold flightRow
            isplitl [Hw0]
            · iexact Hw0
            isplitl [Hw1]
            · iexact Hw1
            isplitl [Hw2]
            · iexact Hw2
            iexact Hw3
          · ipureintro
            exact ⟨chunk_agree0 d L k ft fi fQ hfQ _ _ _ _ _ _ _, chunk_agree1 d L k ft fi fQ hfQ _ _ _ _ _ _ _,
              chunk_agree2 d L k ft fi fQ hfQ _ _ _ _ _ _ _, chunk_agree3 d L k ft fi fQ hfQ _ _ _ _ _ _ _⟩
        · iapply (Entails.of_eq (bigSep_congr fun t ht => cellW_step d L ft fi k.val t (by rw [hk]; exact Nat.succ_ne_zero _) (fun e => (Finset.ne_of_mem_erase ht) (Fin.ext (by omega)))))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k0_cond1 k = 1#1 := hc1.mpr hk
      have h2 : k0_cond2 k = 1#1 := hc2.mpr hk
      have h3 : k0_cond3 k = 1#1 := hc3.mpr hk
      have h4 : k0_cond4 k = 1#1 := hc4.mpr hk
      have hk' : k.val - 1 < k0_t2_loop.trips := Nat.lt_of_le_of_lt (Nat.sub_le _ _) k.isLt
      have hkk : (⟨k.val - 1, hk'⟩ : Fin k0_t2_loop.trips).val + 1 = k.val := by show k.val - 1 + 1 = k.val; omega
      have hne : (⟨k.val - 1, hk'⟩ : Fin k0_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cellW_self d L ft fi k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cellW_at d L ft fi k.val ⟨k.val - 1, hk'⟩ hkk)) $$ Hf
      icases Hf' with ⟨%p0, %p1, %p2, %p3, %q0, %q1, %q2, %q3, Hfl, %hA⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cellW_at d L ft fi (k.val + 1) k rfl).symm)
          iexists _, _, _, _, _, _, _, _
          isplitl [Hw0 Hw1 Hw2 Hw3]
          · unfold flightRow
            isplitl [Hw0]
            · iexact Hw0
            isplitl [Hw1]
            · iexact Hw1
            isplitl [Hw2]
            · iexact Hw2
            iexact Hw3
          · ipureintro
            exact ⟨chunk_agree0 d L k ft fi fQ hfQ _ _ _ _ _ _ _, chunk_agree1 d L k ft fi fQ hfQ _ _ _ _ _ _ _,
              chunk_agree2 d L k ft fi fQ hfQ _ _ _ _ _ _ _, chunk_agree3 d L k ft fi fQ hfQ _ _ _ _ _ _ _⟩
        · iapply (Entails.of_eq (SparseCore.bigSep_erase' (Finset.mem_erase.mpr ⟨hne, Finset.mem_univ _⟩)).symm)
          isplitl [Hw0_dst Hw1_dst Hw2_dst Hw3_dst]
          · iapply (Entails.of_eq (cellW_done d L ft fi (k.val + 1) ⟨k.val - 1, hk'⟩ (by show k.val - 1 + 1 < k.val + 1; omega)).symm)
            unfold doneRow
            isplitl [Hw0_dst]
            · iexists p0
              isplitl [Hw0_dst]
              · iexact Hw0_dst
              · ipureintro; exact hA.1
            isplitl [Hw1_dst]
            · iexists p1
              isplitl [Hw1_dst]
              · iexact Hw1_dst
              · ipureintro; exact hA.2.1
            isplitl [Hw2_dst]
            · iexists p2
              isplitl [Hw2_dst]
              · iexact Hw2_dst
              · ipureintro; exact hA.2.2.1
            iexists p3
            isplitl [Hw3_dst]
            · iexact Hw3_dst
            · ipureintro; exact hA.2.2.2
          · iapply (Entails.of_eq (bigSep_congr fun t ht => cellW_step d L ft fi k.val t (fun e => (Finset.ne_of_mem_erase ht) (Fin.ext (by show t.val = k.val - 1; omega))) (fun e => (Finset.ne_of_mem_erase (Finset.mem_of_mem_erase ht)) (Fin.ext (by omega)))))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2W
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cellW_todo d L ft fi 0 t (Nat.succ_pos _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2W
  icases HI with ⟨Hmw, Ht0, Ht1, Ht2, Ht3, ⟨%fR, %hfR, Hp⟩, Hg0, Hg1, Hg2, Hg3, Hcells, Hidle, %W2, %hW2, HO⟩
  have hl : 12 < k0_t2_loop.trips := by rw [trips2_eq]; decide
  have hll : (⟨12, hl⟩ : Fin k0_t2_loop.trips).val + 1 = Scf.trips k0_t2_loop.lb k0_t2_loop.ub k0_t2_loop.st := trips2_eq.symm
  ihave Hc := (Entails.of_eq (SparseCore.bigSep_erase' (Finset.mem_univ (⟨12, hl⟩ : Fin k0_t2_loop.trips)))) $$ Hcells
  icases Hc with ⟨Hf, Hrest⟩
  ihave Hf' := (Entails.of_eq (cellW_at d L ft fi _ ⟨12, hl⟩ hll)) $$ Hf
  icases Hf' with ⟨%p0, %p1, %p2, %p3, %q0, %q1, %q2, %q3, Hfl, %hA⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k0_t2_loop.trips))).symm)
    isplitl [Hw0_dst Hw1_dst Hw2_dst Hw3_dst]
    · unfold doneRow
      isplitl [Hw0_dst]
      · iexists p0
        isplitl [Hw0_dst]
        · iexact Hw0_dst
        · ipureintro; exact hA.1
      isplitl [Hw1_dst]
      · iexists p1
        isplitl [Hw1_dst]
        · iexact Hw1_dst
        · ipureintro; exact hA.2.1
      isplitl [Hw2_dst]
      · iexists p2
        isplitl [Hw2_dst]
        · iexact Hw2_dst
        · ipureintro; exact hA.2.2.1
      iexists p3
      isplitl [Hw3_dst]
      · iexact Hw3_dst
      · ipureintro; exact hA.2.2.2
    · iapply (Entails.of_eq (bigSep_congr (s := Finset.univ.erase (⟨12, hl⟩ : Fin k0_t2_loop.trips)) fun t ht => cellW_done d L ft fi (Scf.trips k0_t2_loop.lb k0_t2_loop.ub k0_t2_loop.st) t (by
        have hne := Finset.ne_of_mem_erase ht
        have h13 : t.val < 13 := lt_of_lt_of_eq t.isLt trips2_eq
        have h12 : t.val ≠ 12 := fun e => hne (Fin.ext e)
        show t.val + 1 < Scf.trips k0_t2_loop.lb k0_t2_loop.ub k0_t2_loop.st
        rw [show Scf.trips k0_t2_loop.lb k0_t2_loop.ub k0_t2_loop.st = 13 from trips2_eq]
        omega)))
      iexact Hrest
  isplitl [Hn]
  · iexists _; iexact Hn
  isplitl [Hp]
  · iexists fR
    isplitr
    · ipureintro; exact hfR
    · iexact Hp
  isplitl [Hw0_src]
  · iexists q0; iapply (Entails.of_eq (pts_whole d L cc0_scratch2 rfl fullShare q0)); iexact Hw0_src
  isplitl [Hw1_src]
  · iexists q1; iapply (Entails.of_eq (pts_whole d L cc0_scratch3 rfl fullShare q1)); iexact Hw1_src
  isplitl [Hw2_src]
  · iexists q2; iapply (Entails.of_eq (pts_whole d L cc0_scratch4 rfl fullShare q2)); iexact Hw2_src
  isplitl [Hw3_src]
  · iexists q3; iapply (Entails.of_eq (pts_whole d L cc0_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScV0

end
-- ==== Proof.ScOblV0.lean ====
import proofs.«202673_g7318624272670_cont_9to1c4b_526_24_alg».proof.Proof.ScTileW0
import proofs.«202673_g7318624272670_cont_9to1c4b_526_24_alg».proof.Proof.ScOwnI0
import proofs.«202673_g7318624272670_cont_9to1c4b_526_24_alg».proof.Proof.ScPayV

/-! The first gather call's task with the gathered values, as the launch theorem asks for it: a vector subcore's scoped storage opened into the
    task's two index scratches, four row buffers and nine DMA semaphores, the task run, and the storage closed again. -/

noncomputable section

namespace Cert.Proof.ScV0

open Cert.KernelIdeal Cert.KernelIdeal.Gen Cert.Proof.ScI Cert.Proof.ScI0

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v5_scv : Memref Cert.KernelIdeal.sig Kind.scVector Space.hbm Cert.KernelIdeal.S212992 EltTy.i32)
local notation "outW" => (Memref.whole Cert.KernelIdeal.main_v6_scv : Memref Cert.KernelIdeal.sig Kind.scVector Space.hbm Cert.KernelIdeal.S212992x128 EltTy.f32)
local notation "sN" => (Memref.whole Cert.KernelIdeal.cc0_scratch0 : Memref Cert.KernelIdeal.sig Kind.scVector Space.vmem Cert.KernelIdeal.S6656 EltTy.i32)
local notation "sP" => (Memref.whole Cert.KernelIdeal.cc0_scratch1 : Memref Cert.KernelIdeal.sig Kind.scVector Space.vmem Cert.KernelIdeal.S6656 EltTy.i32)
local notation "rB0" => (Memref.whole Cert.KernelIdeal.cc0_scratch2 : Memref Cert.KernelIdeal.sig Kind.scVector Space.vmem Cert.KernelIdeal.S128x128 EltTy.f32)
local notation "rB1" => (Memref.whole Cert.KernelIdeal.cc0_scratch3 : Memref Cert.KernelIdeal.sig Kind.scVector Space.vmem Cert.KernelIdeal.S128x128 EltTy.f32)
local notation "rB2" => (Memref.whole Cert.KernelIdeal.cc0_scratch4 : Memref Cert.KernelIdeal.sig Kind.scVector Space.vmem Cert.KernelIdeal.S128x128 EltTy.f32)
local notation "rB3" => (Memref.whole Cert.KernelIdeal.cc0_scratch5 : Memref Cert.KernelIdeal.sig Kind.scVector Space.vmem Cert.KernelIdeal.S128x128 EltTy.f32)

set_option maxHeartbeats 4000000 in
/-- The task with the subcore's scoped storage as the launch hands it over. -/
theorem tile_body (hF : (K (F := F)).Facts) (d : Dev nD) (L : grid0.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileResV d L ft fi qT ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileResV d L ft fi qT
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, -, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run_val d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc0_scratch6 cc0_scratch7 cc0_scratch8 cc0_scratch9 cc0_scratch10 cc0_scratch11 cc0_scratch12 cc0_scratch13 cc0_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv0 : ∀ d i, ((Iv0 d i) : BitVec 32).toNat ≤ 999) :
    (K (F := F)).TileObl (D (F := F)) 𝒱 (PV Tb Iv0 Iv1) v₀ 0 := by
  intro d c i O W hO _ _
  simp only [show (PV Tb Iv0 Iv1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv0 d) (hIv0 d) O W hO).trans (wp_mono frame _ _ fun _ => obl_post)

end Cert.Proof.ScV0

end
-- ==== Proof.ScPermI1.lean ====
/-
  The exact value of one window of the permutation loop. A task holds its 6656 categories in the order of the batch:
  window k (of 32) holds 8 samples of 26 fields each, sample after sample. The gather wants them field after field
  within the window: place 208·k + j (j < 208) must hold the category of sample j % 8 at field j / 8, and with it the
  field's row offset 1000·(j / 8) added. The loop writes a window in thirteen groups of sixteen places; group N reads
  the sixteen places 208·k + 26·(j % 8) + j / 8, j = 16·(N − 1) + lane, and adds 1000·(j / 8). Stated here per group:
  the place read, the offset added, and both together as the value `permW` at the place written.
-/
import proofs.«202673_g7318624272670_cont_9to1c4b_526_24_alg».proof.Proof.ScArithI1
import Idealize.ShloMosaic.Lib.ValueIdx

noncomputable section

namespace Cert.Proof.ScI1

open Cert.KernelIdeal Cert.KernelIdeal.Gen Idealize.ShloMosaic Idealize.ShloMosaic.ValueIdx

variable {F : FTy → Type}

/-- The place read for place n of the list is a place of the list. -/
theorem permPlace_lt (n : Nat) (h : n < 6656) : 208 * (n / 208) + 26 * (n % 8) + n % 208 / 8 < 6656 := by
  have h1 : n / 208 ≤ 31 := by omega
  have h2 : n % 8 ≤ 7 := by omega
  have h3 : n % 208 / 8 ≤ 25 := by omega
  omega

/-- What place `y` of the task's permuted list holds, given the list `G` in batch order: the category read at
    208·(y / 208) + 26·(y % 8) + (y % 208) / 8, plus 1000 times the field (y % 208) / 8. -/
def permW (G : S6656.Idx → BitVec 32) (y : S6656.Idx) : BitVec 32 :=
  G (ix1 (⟨208 * ((y 0).val / 208) + 26 * ((y 0).val % 8) + (y 0).val % 208 / 8, permPlace_lt _ (y 0).isLt⟩ : Fin 6656))
    + BitVec.ofNat 32 ((y 0).val % 208 / 8) * 1000#32

/-- The shared step: a lane that reads place 208·k + 26·(j % 8) + j / 8 and adds 1000·(j / 8), j = c + lane, leaves
    `permW` at place 208·k + j. -/
theorem perm_core (G : S6656.Idx → BitVec 32) (v : IVec S16 32)
    (h : ∀ a x, ((![v] : Fin 1 → IVec S16 32) a x).toNat < S6656.size a) (x : S16.Idx) (k c : Nat)
    (hc : c + (x 0).val < 208) (hk : k < 32)
    (hv : (v x).toNat = 208 * k + 26 * ((c + (x 0).val) % 8) + (c + (x 0).val) / 8)
    (y : S6656.Idx) (hy : (y 0).val = 208 * k + c + (x 0).val) :
    G (idxAt ![v] h x) + BitVec.ofNat 32 ((c + (x 0).val) / 8) * 1000#32 = permW G y := by
  -- the written place's window, its place in the window, and that place's row
  have q1 : (y 0).val / 208 = k := by rw [hy]; omega
  have q2 : (y 0).val % 208 = c + (x 0).val := by rw [hy]; omega
  have q3 : (y 0).val % 8 = (c + (x 0).val) % 8 := by rw [hy]; omega
  unfold permW
  have e1 : idxAt ![v] h x
      = ix1 (⟨208 * ((y 0).val / 208) + 26 * ((y 0).val % 8) + (y 0).val % 208 / 8, permPlace_lt _ (y 0).isLt⟩ : Fin 6656) := by
    funext a
    refine Fin.ext ?_
    match a with
    | ⟨0, _⟩ =>
      show (v x).toNat = 208 * ((y 0).val / 208) + 26 * ((y 0).val % 8) + (y 0).val % 208 / 8
      rw [hv, q1, q3, q2]
  have e2 : (c + (x 0).val) / 8 = (y 0).val % 208 / 8 := by rw [q2]
  rw [e1]
  exact congrArg (fun n : Nat =>
    G (ix1 (⟨208 * ((y 0).val / 208) + 26 * ((y 0).val % 8) + (y 0).val % 208 / 8, permPlace_lt _ (y 0).isLt⟩ : Fin 6656))
      + BitVec.ofNat 32 n * 1000#32) e2

theorem window_lt (k : Fin k1_t1_loop.trips) : k.val < 32 := Nat.lt_of_lt_of_eq k.isLt trips1_eq

/-! ### Group 1: places 208·k + 0 … 208·k + 15 -/

/-- The place lane x of group 1 reads. -/
theorem vec1_val : ∀ k : Fin k1_t1_loop.trips, ∀ x : S16.Idx,
    ((k1_pay10 lanes 0#32 1#32 k) x).toNat = 208 * k.val + 26 * ((0 + (x 0).val) % 8) + (0 + (x 0).val) / 8 := by decide +kernel
/-- The offset group 1 adds: 1000 times the field. -/
theorem pay1_off : ∀ x : S16.Idx,
    ((k1_pay11 (F := fun _ => Unit) lanes (fun _ => 0#32)) x) = BitVec.ofNat 32 ((0 + (x 0).val) / 8) * 1000#32 := by decide +kernel
theorem pay1_eq (W : Vec F S16 .i32) (x : S16.Idx) :
    (k1_pay11 (F := F) lanes W) x = W x + BitVec.ofNat 32 ((0 + (x 0).val) / 8) * 1000#32 := by
  have e : (k1_pay11 (F := F) lanes W) x = W x + (k1_pay11 (F := F) lanes (fun _ => 0#32)) x := by
    simp only [k1_pay11, addi, IntOp.addi, BitVec.zero_add]
  rw [e]
  exact congrArg (fun z => W x + z) (pay1_off x)
/-- Group 1 writes `permW` at its sixteen places. -/
theorem perm1 (G : Vec F S6656 .i32) (k : Fin k1_t1_loop.trips)
    (h : ∀ a x, ((![k1_pay10 lanes 0#32 1#32 k] : Fin 1 → IVec S16 32) a x).toNat < S6656.size a) (x : S16.Idx) :
    (k1_pay11 (F := F) lanes (loadIdx (F := F) (e := .i32) G ![k1_pay10 lanes 0#32 1#32 k] h)) x
      = permW G ((Rect.unit (s := S6656) (k1_off2 k) S16.size (k1_off2_inb k)).emb x) := by
  have hx : (x 0).val < 16 := (x 0).isLt
  rw [pay1_eq]
  refine perm_core G (k1_pay10 lanes 0#32 1#32 k) h x k.val 0 (by omega) (window_lt k) (vec1_val k x) _ ?_
  show (k1_off2 k) 0 + 1 * (x 0).val = 208 * k.val + 0 + (x 0).val
  rw [k1_off2_eq]
  show 208 * k.val + 1 * (x 0).val = 208 * k.val + 0 + (x 0).val
  omega

/-! ### Group 2: places 208·k + 16 … 208·k + 31 -/

/-- The place lane x of group 2 reads. -/
theorem vec2_val : ∀ k : Fin k1_t1_loop.trips, ∀ x : S16.Idx,
    ((k1_pay14 lanes 0#32 1#32 k) x).toNat = 208 * k.val + 26 * ((16 + (x 0).val) % 8) + (16 + (x 0).val) / 8 := by decide +kernel
/-- The offset group 2 adds: 1000 times the field. -/
theorem pay2_off : ∀ x : S16.Idx,
    ((k1_pay15 (F := fun _ => Unit) lanes (fun _ => 0#32)) x) = BitVec.ofNat 32 ((16 + (x 0).val) / 8) * 1000#32 := by decide +kernel
theorem pay2_eq (W : Vec F S16 .i32) (x : S16.Idx) :
    (k1_pay15 (F := F) lanes W) x = W x + BitVec.ofNat 32 ((16 + (x 0).val) / 8) * 1000#32 := by
  have e : (k1_pay15 (F := F) lanes W) x = W x + (k1_pay15 (F := F) lanes (fun _ => 0#32)) x := by
    simp only [k1_pay15, addi, IntOp.addi, BitVec.zero_add]
  rw [e]
  exact congrArg (fun z => W x + z) (pay2_off x)
/-- Group 2 writes `permW` at its sixteen places. -/
theorem perm2 (G : Vec F S6656 .i32) (k : Fin k1_t1_loop.trips)
    (h : ∀ a x, ((![k1_pay14 lanes 0#32 1#32 k] : Fin 1 → IVec S16 32) a x).toNat < S6656.size a) (x : S16.Idx) :
    (k1_pay15 (F := F) lanes (loadIdx (F := F) (e := .i32) G ![k1_pay14 lanes 0#32 1#32 k] h)) x
      = permW G ((Rect.unit (s := S6656) (k1_off3 k) S16.size (k1_off3_inb k)).emb x) := by
  have hx : (x 0).val < 16 := (x 0).isLt
  rw [pay2_eq]
  refine perm_core G (k1_pay14 lanes 0#32 1#32 k) h x k.val 16 (by omega) (window_lt k) (vec2_val k x) _ ?_
  show (k1_off3 k) 0 + 1 * (x 0).val = 208 * k.val + 16 + (x 0).val
  rw [k1_off3_eq]
  show 208 * k.val + 16 + 1 * (x 0).val = 208 * k.val + 16 + (x 0).val
  omega

/-! ### Group 3: places 208·k + 32 … 208·k + 47 -/

/-- The place lane x of group 3 reads. -/
theorem vec3_val : ∀ k : Fin k1_t1_loop.trips, ∀ x : S16.Idx,
    ((k1_pay18 lanes (wbase k) 32#32) x).toNat = 208 * k.val + 26 * ((32 + (x 0).val) % 8) + (32 + (x 0).val) / 8 := by decide +kernel
/-- The offset group 3 adds: 1000 times the field. -/
theorem pay3_off : ∀ x : S16.Idx,
    ((k1_pay19 (F := fun _ => Unit) lanes 32#32 (fun _ => 0#32)) x) = BitVec.ofNat 32 ((32 + (x 0).val) / 8) * 1000#32 := by decide +kernel
theorem pay3_eq (W : Vec F S16 .i32) (x : S16.Idx) :
    (k1_pay19 (F := F) lanes 32#32 W) x = W x + BitVec.ofNat 32 ((32 + (x 0).val) / 8) * 1000#32 := by
  have e : (k1_pay19 (F := F) lanes 32#32 W) x = W x + (k1_pay19 (F := F) lanes 32#32 (fun _ => 0#32)) x := by
    simp only [k1_pay19, addi, IntOp.addi, BitVec.zero_add]
  rw [e]
  exact congrArg (fun z => W x + z) (pay3_off x)
/-- Group 3 writes `permW` at its sixteen places. -/
theorem perm3 (G : Vec F S6656 .i32) (k : Fin k1_t1_loop.trips)
    (h : ∀ a x, ((![k1_pay18 lanes (wbase k) 32#32] : Fin 1 → IVec S16 32) a x).toNat < S6656.size a) (x : S16.Idx) :
    (k1_pay19 (F := F) lanes 32#32 (loadIdx (F := F) (e := .i32) G ![k1_pay18 lanes (wbase k) 32#32] h)) x
      = permW G ((Rect.unit (s := S6656) (k1_off4 k) S16.size (k1_off4_inb k)).emb x) := by
  have hx : (x 0).val < 16 := (x 0).isLt
  rw [pay3_eq]
  refine perm_core G (k1_pay18 lanes (wbase k) 32#32) h x k.val 32 (by omega) (window_lt k) (vec3_val k x) _ ?_
  show (k1_off4 k) 0 + 1 * (x 0).val = 208 * k.val + 32 + (x 0).val
  rw [k1_off4_eq]
  show 208 * k.val + 32 + 1 * (x 0).val = 208 * k.val + 32 + (x 0).val
  omega

/-! ### Group 4: places 208·k + 48 … 208·k + 63 -/

/-- The place lane x of group 4 reads. -/
theorem vec4_val : ∀ k : Fin k1_t1_loop.trips, ∀ x : S16.Idx,
    ((k1_pay22 lanes (wbase k)) x).toNat = 208 * k.val + 26 * ((48 + (x 0).val) % 8) + (48 + (x 0).val) / 8 := by decide +kernel
/-- The offset group 4 adds: 1000 times the field. -/
theorem pay4_off : ∀ x : S16.Idx,
    ((k1_pay23 (F := fun _ => Unit) lanes (fun _ => 0#32)) x) = BitVec.ofNat 32 ((48 + (x 0).val) / 8) * 1000#32 := by decide +kernel
theorem pay4_eq (W : Vec F S16 .i32) (x : S16.Idx) :
    (k1_pay23 (F := F) lanes W) x = W x + BitVec.ofNat 32 ((48 + (x 0).val) / 8) * 1000#32 := by
  have e : (k1_pay23 (F := F) lanes W) x = W x + (k1_pay23 (F := F) lanes (fun _ => 0#32)) x := by
    simp only [k1_pay23, addi, IntOp.addi, BitVec.zero_add]
  rw [e]
  exact congrArg (fun z => W x + z) (pay4_off x)
/-- Group 4 writes `permW` at its sixteen places. -/
theorem perm4 (G : Vec F S6656 .i32) (k : Fin k1_t1_loop.trips)
    (h : ∀ a x, ((![k1_pay22 lanes (wbase k)] : Fin 1 → IVec S16 32) a x).toNat < S6656.size a) (x : S16.Idx) :
    (k1_pay23 (F := F) lanes (loadIdx (F := F) (e := .i32) G ![k1_pay22 lanes (wbase k)] h)) x
      = permW G ((Rect.unit (s := S6656) (k1_off5 k) S16.size (k1_off5_inb k)).emb x) := by
  have hx : (x 0).val < 16 := (x 0).isLt
  rw [pay4_eq]
  refine perm_core G (k1_pay22 lanes (wbase k)) h x k.val 48 (by omega) (window_lt k) (vec4_val k x) _ ?_
  show (k1_off5 k) 0 + 1 * (x 0).val = 208 * k.val + 48 + (x 0).val
  rw [k1_off5_eq]
  show 208 * k.val + 48 + 1 * (x 0).val = 208 * k.val + 48 + (x 0).val
  omega

/-! ### Group 5: places 208·k + 64 … 208·k + 79 -/

/-- The place lane x of group 5 reads. -/
theorem vec5_val : ∀ k : Fin k1_t1_loop.trips, ∀ x : S16.Idx,
    ((k1_pay27 (wbase k) (k1_pay25 lanes) (k1_pay26 lanes)) x).toNat = 208 * k.val + 26 * ((64 + (x 0).val) % 8) + (64 + (x 0).val) / 8 := by decide +kernel
/-- The offset group 5 adds: 1000 times the field. -/
theorem pay5_off : ∀ x : S16.Idx,
    ((k1_pay28 (F := fun _ => Unit) (k1_pay26 lanes) (fun _ => 0#32)) x) = BitVec.ofNat 32 ((64 + (x 0).val) / 8) * 1000#32 := by decide +kernel
theorem pay5_eq (W : Vec F S16 .i32) (x : S16.Idx) :
    (k1_pay28 (F := F) (k1_pay26 lanes) W) x = W x + BitVec.ofNat 32 ((64 + (x 0).val) / 8) * 1000#32 := by
  have e : (k1_pay28 (F := F) (k1_pay26 lanes) W) x = W x + (k1_pay28 (F := F) (k1_pay26 lanes) (fun _ => 0#32)) x := by
    simp only [k1_pay28, addi, IntOp.addi, BitVec.zero_add]
  rw [e]
  exact congrArg (fun z => W x + z) (pay5_off x)
/-- Group 5 writes `permW` at its sixteen places. -/
theorem perm5 (G : Vec F S6656 .i32) (k : Fin k1_t1_loop.trips)
    (h : ∀ a x, ((![k1_pay27 (wbase k) (k1_pay25 lanes) (k1_pay26 lanes)] : Fin 1 → IVec S16 32) a x).toNat < S6656.size a) (x : S16.Idx) :
    (k1_pay28 (F := F) (k1_pay26 lanes) (loadIdx (F := F) (e := .i32) G ![k1_pay27 (wbase k) (k1_pay25 lanes) (k1_pay26 lanes)] h)) x
      = permW G ((Rect.unit (s := S6656) (k1_off6 k) S16.size (k1_off6_inb k)).emb x) := by
  have hx : (x 0).val < 16 := (x 0).isLt
  rw [pay5_eq]
  refine perm_core G (k1_pay27 (wbase k) (k1_pay25 lanes) (k1_pay26 lanes)) h x k.val 64 (by omega) (window_lt k) (vec5_val k x) _ ?_
  show (k1_off6 k) 0 + 1 * (x 0).val = 208 * k.val + 64 + (x 0).val
  rw [k1_off6_eq]
  show 208 * k.val + 64 + 1 * (x 0).val = 208 * k.val + 64 + (x 0).val
  omega

/-! ### Group 6: places 208·k + 80 … 208·k + 95 -/

/-- The place lane x of group 6 reads. -/
theorem vec6_val : ∀ k : Fin k1_t1_loop.trips, ∀ x : S16.Idx,
    ((k1_pay31 lanes (wbase k)) x).toNat = 208 * k.val + 26 * ((80 + (x 0).val) % 8) + (80 + (x 0).val) / 8 := by decide +kernel
/-- The offset group 6 adds: 1000 times the field. -/
theorem pay6_off : ∀ x : S16.Idx,
    ((k1_pay32 (F := fun _ => Unit) lanes (fun _ => 0#32)) x) = BitVec.ofNat 32 ((80 + (x 0).val) / 8) * 1000#32 := by decide +kernel
theorem pay6_eq (W : Vec F S16 .i32) (x : S16.Idx) :
    (k1_pay32 (F := F) lanes W) x = W x + BitVec.ofNat 32 ((80 + (x 0).val) / 8) * 1000#32 := by
  have e : (k1_pay32 (F := F) lanes W) x = W x + (k1_pay32 (F := F) lanes (fun _ => 0#32)) x := by
    simp only [k1_pay32, addi, IntOp.addi, BitVec.zero_add]
  rw [e]
  exact congrArg (fun z => W x + z) (pay6_off x)
/-- Group 6 writes `permW` at its sixteen places. -/
theorem perm6 (G : Vec F S6656 .i32) (k : Fin k1_t1_loop.trips)
    (h : ∀ a x, ((![k1_pay31 lanes (wbase k)] : Fin 1 → IVec S16 32) a x).toNat < S6656.size a) (x : S16.Idx) :
    (k1_pay32 (F := F) lanes (loadIdx (F := F) (e := .i32) G ![k1_pay31 lanes (wbase k)] h)) x
      = permW G ((Rect.unit (s := S6656) (k1_off7 k) S16.size (k1_off7_inb k)).emb x) := by
  have hx : (x 0).val < 16 := (x 0).isLt
  rw [pay6_eq]
  refine perm_core G (k1_pay31 lanes (wbase k)) h x k.val 80 (by omega) (window_lt k) (vec6_val k x) _ ?_
  show (k1_off7 k) 0 + 1 * (x 0).val = 208 * k.val + 80 + (x 0).val
  rw [k1_off7_eq]
  show 208 * k.val + 80 + 1 * (x 0).val = 208 * k.val + 80 + (x 0).val
  omega

/-! ### Group 7: places 208·k + 96 … 208·k + 111 -/

/-- The place lane x of group 7 reads. -/
theorem vec7_val : ∀ k : Fin k1_t1_loop.trips, ∀ x : S16.Idx,
    ((k1_pay35 lanes (wbase k)) x).toNat = 208 * k.val + 26 * ((96 + (x 0).val) % 8) + (96 + (x 0).val) / 8 := by decide +kernel
/-- The offset group 7 adds: 1000 times the field. -/
theorem pay7_off : ∀ x : S16.Idx,
    ((k1_pay36 (F := fun _ => Unit) (k1_pay34 lanes) (fun _ => 0#32)) x) = BitVec.ofNat 32 ((96 + (x 0).val) / 8) * 1000#32 := by decide +kernel
theorem pay7_eq (W : Vec F S16 .i32) (x : S16.Idx) :
    (k1_pay36 (F := F) (k1_pay34 lanes) W) x = W x + BitVec.ofNat 32 ((96 + (x 0).val) / 8) * 1000#32 := by
  have e : (k1_pay36 (F := F) (k1_pay34 lanes) W) x = W x + (k1_pay36 (F := F) (k1_pay34 lanes) (fun _ => 0#32)) x := by
    simp only [k1_pay36, addi, IntOp.addi, BitVec.zero_add]
  rw [e]
  exact congrArg (fun z => W x + z) (pay7_off x)
/-- Group 7 writes `permW` at its sixteen places. -/
theorem perm7 (G : Vec F S6656 .i32) (k : Fin k1_t1_loop.trips)
    (h : ∀ a x, ((![k1_pay35 lanes (wbase k)] : Fin 1 → IVec S16 32) a x).toNat < S6656.size a) (x : S16.Idx) :
    (k1_pay36 (F := F) (k1_pay34 lanes) (loadIdx (F := F) (e := .i32) G ![k1_pay35 lanes (wbase k)] h)) x
      = permW G ((Rect.unit (s := S6656) (k1_off8 k) S16.size (k1_off8_inb k)).emb x) := by
  have hx : (x 0).val < 16 := (x 0).isLt
  rw [pay7_eq]
  refine perm_core G (k1_pay35 lanes (wbase k)) h x k.val 96 (by omega) (window_lt k) (vec7_val k x) _ ?_
  show (k1_off8 k) 0 + 1 * (x 0).val = 208 * k.val + 96 + (x 0).val
  rw [k1_off8_eq]
  show 208 * k.val + 96 + 1 * (x 0).val = 208 * k.val + 96 + (x 0).val
  omega

/-! ### Group 8: places 208·k + 112 … 208·k + 127 -/

/-- The place lane x of group 8 reads. -/
theorem vec8_val : ∀ k : Fin k1_t1_loop.trips, ∀ x : S16.Idx,
    ((k1_pay39 lanes (wbase k)) x).toNat = 208 * k.val + 26 * ((112 + (x 0).val) % 8) + (112 + (x 0).val) / 8 := by decide +kernel
/-- The offset group 8 adds: 1000 times the field. -/
theorem pay8_off : ∀ x : S16.Idx,
    ((k1_pay40 (F := fun _ => Unit) lanes (fun _ => 0#32)) x) = BitVec.ofNat 32 ((112 + (x 0).val) / 8) * 1000#32 := by decide +kernel
theorem pay8_eq (W : Vec F S16 .i32) (x : S16.Idx) :
    (k1_pay40 (F := F) lanes W) x = W x + BitVec.ofNat 32 ((112 + (x 0).val) / 8) * 1000#32 := by
  have e : (k1_pay40 (F := F) lanes W) x = W x + (k1_pay40 (F := F) lanes (fun _ => 0#32)) x := by
    simp only [k1_pay40, addi, IntOp.addi, BitVec.zero_add]
  rw [e]
  exact congrArg (fun z => W x + z) (pay8_off x)
/-- Group 8 writes `permW` at its sixteen places. -/
theorem perm8 (G : Vec F S6656 .i32) (k : Fin k1_t1_loop.trips)
    (h : ∀ a x, ((![k1_pay39 lanes (wbase k)] : Fin 1 → IVec S16 32) a x).toNat < S6656.size a) (x : S16.Idx) :
    (k1_pay40 (F := F) lanes (loadIdx (F := F) (e := .i32) G ![k1_pay39 lanes (wbase k)] h)) x
      = permW G ((Rect.unit (s := S6656) (k1_off9 k) S16.size (k1_off9_inb k)).emb x) := by
  have hx : (x 0).val < 16 := (x 0).isLt
  rw [pay8_eq]
  refine perm_core G (k1_pay39 lanes (wbase k)) h x k.val 112 (by omega) (window_lt k) (vec8_val k x) _ ?_
  show (k1_off9 k) 0 + 1 * (x 0).val = 208 * k.val + 112 + (x 0).val
  rw [k1_off9_eq]
  show 208 * k.val + 112 + 1 * (x 0).val = 208 * k.val + 112 + (x 0).val
  omega

/-! ### Group 9: places 208·k + 128 … 208·k + 143 -/

/-- The place lane x of group 9 reads. -/
theorem vec9_val : ∀ k : Fin k1_t1_loop.trips, ∀ x : S16.Idx,
    ((k1_pay43 lanes (wbase k)) x).toNat = 208 * k.val + 26 * ((128 + (x 0).val) % 8) + (128 + (x 0).val) / 8 := by decide +kernel
/-- The offset group 9 adds: 1000 times the field. -/
theorem pay9_off : ∀ x : S16.Idx,
    ((k1_pay44 (F := fun _ => Unit) lanes (fun _ => 0#32)) x) = BitVec.ofNat 32 ((128 + (x 0).val) / 8) * 1000#32 := by decide +kernel
theorem pay9_eq (W : Vec F S16 .i32) (x : S16.Idx) :
    (k1_pay44 (F := F) lanes W) x = W x + BitVec.ofNat 32 ((128 + (x 0).val) / 8) * 1000#32 := by
  have e : (k1_pay44 (F := F) lanes W) x = W x + (k1_pay44 (F := F) lanes (fun _ => 0#32)) x := by
    simp only [k1_pay44, addi, IntOp.addi, BitVec.zero_add]
  rw [e]
  exact congrArg (fun z => W x + z) (pay9_off x)
/-- Group 9 writes `permW` at its sixteen places. -/
theorem perm9 (G : Vec F S6656 .i32) (k : Fin k1_t1_loop.trips)
    (h : ∀ a x, ((![k1_pay43 lanes (wbase k)] : Fin 1 → IVec S16 32) a x).toNat < S6656.size a) (x : S16.Idx) :
    (k1_pay44 (F := F) lanes (loadIdx (F := F) (e := .i32) G ![k1_pay43 lanes (wbase k)] h)) x
      = permW G ((Rect.unit (s := S6656) (k1_off10 k) S16.size (k1_off10_inb k)).emb x) := by
  have hx : (x 0).val < 16 := (x 0).isLt
  rw [pay9_eq]
  refine perm_core G (k1_pay43 lanes (wbase k)) h x k.val 128 (by omega) (window_lt k) (vec9_val k x) _ ?_
  show (k1_off10 k) 0 + 1 * (x 0).val = 208 * k.val + 128 + (x 0).val
  rw [k1_off10_eq]
  show 208 * k.val + 128 + 1 * (x 0).val = 208 * k.val + 128 + (x 0).val
  omega

/-! ### Group 10: places 208·k + 144 … 208·k + 159 -/

/-- The place lane x of group 10 reads. -/
theorem vec10_val : ∀ k : Fin k1_t1_loop.trips, ∀ x : S16.Idx,
    ((k1_pay47 lanes (wbase k)) x).toNat = 208 * k.val + 26 * ((144 + (x 0).val) % 8) + (144 + (x 0).val) / 8 := by decide +kernel
/-- The offset group 10 adds: 1000 times the field. -/
theorem pay10_off : ∀ x : S16.Idx,
    ((k1_pay48 (F := fun _ => Unit) lanes (fun _ => 0#32)) x) = BitVec.ofNat 32 ((144 + (x 0).val) / 8) * 1000#32 := by decide +kernel
theorem pay10_eq (W : Vec F S16 .i32) (x : S16.Idx) :
    (k1_pay48 (F := F) lanes W) x = W x + BitVec.ofNat 32 ((144 + (x 0).val) / 8) * 1000#32 := by
  have e : (k1_pay48 (F := F) lanes W) x = W x + (k1_pay48 (F := F) lanes (fun _ => 0#32)) x := by
    simp only [k1_pay48, addi, IntOp.addi, BitVec.zero_add]
  rw [e]
  exact congrArg (fun z => W x + z) (pay10_off x)
/-- Group 10 writes `permW` at its sixteen places. -/
theorem perm10 (G : Vec F S6656 .i32) (k : Fin k1_t1_loop.trips)
    (h : ∀ a x, ((![k1_pay47 lanes (wbase k)] : Fin 1 → IVec S16 32) a x).toNat < S6656.size a) (x : S16.Idx) :
    (k1_pay48 (F := F) lanes (loadIdx (F := F) (e := .i32) G ![k1_pay47 lanes (wbase k)] h)) x
      = permW G ((Rect.unit (s := S6656) (k1_off11 k) S16.size (k1_off11_inb k)).emb x) := by
  have hx : (x 0).val < 16 := (x 0).isLt
  rw [pay10_eq]
  refine perm_core G (k1_pay47 lanes (wbase k)) h x k.val 144 (by omega) (window_lt k) (vec10_val k x) _ ?_
  show (k1_off11 k) 0 + 1 * (x 0).val = 208 * k.val + 144 + (x 0).val
  rw [k1_off11_eq]
  show 208 * k.val + 144 + 1 * (x 0).val = 208 * k.val + 144 + (x 0).val
  omega

/-! ### Group 11: places 208·k + 160 … 208·k + 175 -/

/-- The place lane x of group 11 reads. -/
theorem vec11_val : ∀ k : Fin k1_t1_loop.trips, ∀ x : S16.Idx,
    ((k1_pay51 lanes (wbase k)) x).toNat = 208 * k.val + 26 * ((160 + (x 0).val) % 8) + (160 + (x 0).val) / 8 := by decide +kernel
/-- The offset group 11 adds: 1000 times the field. -/
theorem pay11_off : ∀ x : S16.Idx,
    ((k1_pay52 (F := fun _ => Unit) lanes (fun _ => 0#32)) x) = BitVec.ofNat 32 ((160 + (x 0).val) / 8) * 1000#32 := by decide +kernel
theorem pay11_eq (W : Vec F S16 .i32) (x : S16.Idx) :
    (k1_pay52 (F := F) lanes W) x = W x + BitVec.ofNat 32 ((160 + (x 0).val) / 8) * 1000#32 := by
  have e : (k1_pay52 (F := F) lanes W) x = W x + (k1_pay52 (F := F) lanes (fun _ => 0#32)) x := by
    simp only [k1_pay52, addi, IntOp.addi, BitVec.zero_add]
  rw [e]
  exact congrArg (fun z => W x + z) (pay11_off x)
/-- Group 11 writes `permW` at its sixteen places. -/
theorem perm11 (G : Vec F S6656 .i32) (k : Fin k1_t1_loop.trips)
    (h : ∀ a x, ((![k1_pay51 lanes (wbase k)] : Fin 1 → IVec S16 32) a x).toNat < S6656.size a) (x : S16.Idx) :
    (k1_pay52 (F := F) lanes (loadIdx (F := F) (e := .i32) G ![k1_pay51 lanes (wbase k)] h)) x
      = permW G ((Rect.unit (s := S6656) (k1_off12 k) S16.size (k1_off12_inb k)).emb x) := by
  have hx : (x 0).val < 16 := (x 0).isLt
  rw [pay11_eq]
  refine perm_core G (k1_pay51 lanes (wbase k)) h x k.val 160 (by omega) (window_lt k) (vec11_val k x) _ ?_
  show (k1_off12 k) 0 + 1 * (x 0).val = 208 * k.val + 160 + (x 0).val
  rw [k1_off12_eq]
  show 208 * k.val + 160 + 1 * (x 0).val = 208 * k.val + 160 + (x 0).val
  omega

/-! ### Group 12: places 208·k + 176 … 208·k + 191 -/

/-- The place lane x of group 12 reads. -/
theorem vec12_val : ∀ k : Fin k1_t1_loop.trips, ∀ x : S16.Idx,
    ((k1_pay2 (wbase k) (k1_pay53 lanes) (k1_pay54 lanes) 3#32) x).toNat = 208 * k.val + 26 * ((176 + (x 0).val) % 8) + (176 + (x 0).val) / 8 := by decide +kernel
/-- The offset group 12 adds: 1000 times the field. -/
theorem pay12_off : ∀ x : S16.Idx,
    ((k1_pay3 (F := fun _ => Unit) (k1_pay53 lanes) 3#32 (fun _ => 0#32)) x) = BitVec.ofNat 32 ((176 + (x 0).val) / 8) * 1000#32 := by decide +kernel
theorem pay12_eq (W : Vec F S16 .i32) (x : S16.Idx) :
    (k1_pay3 (F := F) (k1_pay53 lanes) 3#32 W) x = W x + BitVec.ofNat 32 ((176 + (x 0).val) / 8) * 1000#32 := by
  have e : (k1_pay3 (F := F) (k1_pay53 lanes) 3#32 W) x = W x + (k1_pay3 (F := F) (k1_pay53 lanes) 3#32 (fun _ => 0#32)) x := by
    simp only [k1_pay3, addi, IntOp.addi, BitVec.zero_add]
  rw [e]
  exact congrArg (fun z => W x + z) (pay12_off x)
/-- Group 12 writes `permW` at its sixteen places. -/
theorem perm12 (G : Vec F S6656 .i32) (k : Fin k1_t1_loop.trips)
    (h : ∀ a x, ((![k1_pay2 (wbase k) (k1_pay53 lanes) (k1_pay54 lanes) 3#32] : Fin 1 → IVec S16 32) a x).toNat < S6656.size a) (x : S16.Idx) :
    (k1_pay3 (F := F) (k1_pay53 lanes) 3#32 (loadIdx (F := F) (e := .i32) G ![k1_pay2 (wbase k) (k1_pay53 lanes) (k1_pay54 lanes) 3#32] h)) x
      = permW G ((Rect.unit (s := S6656) (k1_off13 k) S16.size (k1_off13_inb k)).emb x) := by
  have hx : (x 0).val < 16 := (x 0).isLt
  rw [pay12_eq]
  refine perm_core G (k1_pay2 (wbase k) (k1_pay53 lanes) (k1_pay54 lanes) 3#32) h x k.val 176 (by omega) (window_lt k) (vec12_val k x) _ ?_
  show (k1_off13 k) 0 + 1 * (x 0).val = 208 * k.val + 176 + (x 0).val
  rw [k1_off13_eq]
  show 208 * k.val + 176 + 1 * (x 0).val = 208 * k.val + 176 + (x 0).val
  omega

/-! ### Group 13: places 208·k + 192 … 208·k + 207 -/

/-- The place lane x of group 13 reads. -/
theorem vec13_val : ∀ k : Fin k1_t1_loop.trips, ∀ x : S16.Idx,
    ((k1_pay6 (wbase k)) x).toNat = 208 * k.val + 26 * ((192 + (x 0).val) % 8) + (192 + (x 0).val) / 8 := by decide +kernel
/-- The offset group 13 adds: 1000 times the field. -/
theorem pay13_off : ∀ x : S16.Idx,
    ((k1_pay7 (F := fun _ => Unit) (fun _ => 0#32)) x) = BitVec.ofNat 32 ((192 + (x 0).val) / 8) * 1000#32 := by decide +kernel
theorem pay13_eq (W : Vec F S16 .i32) (x : S16.Idx) :
    (k1_pay7 (F := F) W) x = W x + BitVec.ofNat 32 ((192 + (x 0).val) / 8) * 1000#32 := by
  have e : (k1_pay7 (F := F) W) x = W x + (k1_pay7 (F := F) (fun _ => 0#32)) x := by
    simp only [k1_pay7, addi, IntOp.addi, BitVec.zero_add]
  rw [e]
  exact congrArg (fun z => W x + z) (pay13_off x)
/-- Group 13 writes `permW` at its sixteen places. -/
theorem perm13 (G : Vec F S6656 .i32) (k : Fin k1_t1_loop.trips)
    (h : ∀ a x, ((![k1_pay6 (wbase k)] : Fin 1 → IVec S16 32) a x).toNat < S6656.size a) (x : S16.Idx) :
    (k1_pay7 (F := F) (loadIdx (F := F) (e := .i32) G ![k1_pay6 (wbase k)] h)) x
      = permW G ((Rect.unit (s := S6656) (k1_off14 k) S16.size (k1_off14_inb k)).emb x) := by
  have hx : (x 0).val < 16 := (x 0).isLt
  rw [pay13_eq]
  refine perm_core G (k1_pay6 (wbase k)) h x k.val 192 (by omega) (window_lt k) (vec13_val k x) _ ?_
  show (k1_off14 k) 0 + 1 * (x 0).val = 208 * k.val + 192 + (x 0).val
  rw [k1_off14_eq]
  show 208 * k.val + 192 + 1 * (x 0).val = 208 * k.val + 192 + (x 0).val
  omega

end Cert.Proof.ScI1

end
-- ==== Proof.ScTileV1.lean ====
import proofs.«202673_g7318624272670_cont_9to1c4b_526_24_alg».proof.Proof.ScBaseI
import proofs.«202673_g7318624272670_cont_9to1c4b_526_24_alg».proof.Proof.ScArithI1
import proofs.«202673_g7318624272670_cont_9to1c4b_526_24_alg».proof.Proof.ScSetsI1
import proofs.«202673_g7318624272670_cont_9to1c4b_526_24_alg».proof.Proof.ScResI1
import proofs.«202673_g7318624272670_cont_9to1c4b_526_24_alg».proof.Proof.LibWritesPred
import proofs.«202673_g7318624272670_cont_9to1c4b_526_24_alg».proof.Proof.LibWritesAgree
import proofs.«202673_g7318624272670_cont_9to1c4b_526_24_alg».proof.Proof.ScPermI1
import proofs.«202673_g7318624272670_cont_9to1c4b_526_24_alg».proof.Proof.Gen.KernelIdeal.Skeleton

/-! One vector subcore's task of the second gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 AND IS the task's word of the index list at
    that place; the windows written so far hold words below 26000 AND HOLD EXACTLY the permuted list (the category read at
    the place's batch position plus 1000 times its field) — the first is what the gathers need of their index lists, the
    second is what the result's value needs, and it is in the task's post. Carried through the second loop: the blocks of the trip
    just past are in flight with their row buffers, all other blocks rest with the task; nothing else is claimed of the
    blocks' contents. -/

noncomputable section

namespace Cert.Proof.ScV1

open Cert.KernelIdeal Cert.KernelIdeal.Gen Cert.Proof.ScI Cert.Proof.ScI1

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

variable [FloatOps F]

section Tile
variable (d : Dev nD) (L : grid1.Coords)

/-! ## The loops' invariants -/

/-- The task's words of the index list, by their place in the task's range. -/
def Gfi (fi : Buf (Elt F) ((idxW).view.loc (thr d L))) : S6656.Idx → BitVec 32 := fun j => fi ((idxSl L).view.emb j)

/-- Every word the index scratch reads is a category, at most 999, and is the task's word of the index list there. -/
def Small (fi : Buf (Elt F) ((idxW).view.loc (thr d L))) (g : Buf (Elt F) ((sN).view.loc (thr d L))) : Prop :=
  (∀ y, (((sN).view.readAt (Elt F) (LoadRect.whole S6656) g y) : BitVec 32).toNat ≤ 999)
    ∧ ∀ y, (((sN).view.readAt (Elt F) (LoadRect.whole S6656) g y) : BitVec 32) = Gfi d L fi y

/-- The first `n` windows of the permuted list hold table rows — words below 26000 — and hold exactly the permuted words. -/
def RowsBelow (fi : Buf (Elt F) ((idxW).view.loc (thr d L))) (n : Nat) (f : Buf (Elt F) ((sP).view.loc (thr d L))) : Prop :=
  (∀ y : S6656.Idx, (y 0).val < 208 * n → (((sP).view.read (Elt F) f y) : BitVec 32).toNat < 26000)
    ∧ ∀ y : S6656.Idx, (y 0).val < 208 * n → (((sP).view.read (Elt F) f y) : BitVec 32) = permW (Gfi d L fi) y

def inv1 (fi : Buf (Elt F) ((idxW).view.loc (thr d L))) (O : CellTallies nD τ sig (HIx 2)) (W : Waits sig (HIx 2)) (n : Nat) (_ : PUnit) : sProp 𝕄 :=
  iprop(Transfers.MayWaits (thr d L) (none : HIx 2) O
    ∗ (∃ g, ⌜Small d L fi g⌝ ∗ (sN).view.loc (thr d L) ↦{fullShare} g)
    ∗ (∃ f, ⌜RowsBelow d L fi n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k1_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc1_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc1_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc1_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc1_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k1_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0)
  else iprop(emp)

def inv2 (fi : Buf (Elt F) ((idxW).view.loc (thr d L))) (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ (∃ f, ⌜RowsBelow d L fi 32 f⌝ ∗ (sP).view.loc (thr d L) ↦{fullShare} f)
    ∗ semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L fi ((sN).view.write (Elt F) fn ((idxSl L).view.read (Elt F) fi) Finset.univ) := by
  constructor
  · intro y
    rw [View.write_whole_univ]
    simp only [View.readAt_apply, Memref.view_whole, View.read_whole]
    rw [View.read_apply]
    exact hfi _
  · intro y
    have hy : (LoadRect.whole S6656).idx y = y := by
      funext a
      refine Fin.ext ?_
      show 0 + 1 * (y a).val = (y a).val
      omega
    rw [View.write_whole_univ]
    simp only [View.readAt_apply, Memref.view_whole, View.read_whole]
    rw [View.read_apply, hy]
    rfl

theorem rowsBelow_zero (fi : Buf (Elt F) ((idxW).view.loc (thr d L))) (f : Buf (Elt F) ((sP).view.loc (thr d L))) : RowsBelow d L fi 0 f := by
  constructor
  · intro y hy
    rw [Nat.mul_zero] at hy
    exact absurd hy (Nat.not_lt_zero _)
  · intro y hy
    rw [Nat.mul_zero] at hy
    exact absurd hy (Nat.not_lt_zero _)

/-- One window's thirteen stores keep the earlier windows and fill this one with table rows. -/
theorem rowsBelow_step (fi : Buf (Elt F) ((idxW).view.loc (thr d L))) (k : Fin k1_t1_loop.trips)
    (f : Buf (Elt F) ((sP).view.loc (thr d L))) (hf : RowsBelow d L fi k.val f)
    (Lp : List (View.Piece (Elt F) S6656 .i32))
    (hL : ∀ p ∈ Lp, ∀ x : p.1.shape.Idx, ((p.2 x) : BitVec 32).toNat < 26000)
    (hE : ∀ p ∈ Lp, ∀ x : p.1.shape.Idx, ((p.2 x) : BitVec 32) = permW (Gfi d L fi) (p.1.emb x))
    (hcov : ∀ y : S6656.Idx, 208 * k.val ≤ (y 0).val → (y 0).val < 208 * (k.val + 1) → ∃ p ∈ Lp, y ∈ p.1.set) :
    RowsBelow d L fi (k.val + 1) ((sP).view.writes (Elt F) f Lp) := by
  constructor
  · intro y hy
    refine Cert.LibWritesPred.read_writes_pred (sP).view f (fun w : Elt F .i32 => (w : BitVec 32).toNat < 26000) Lp hL y ?_
    by_cases h : (y 0).val < 208 * k.val
    · exact Or.inl (hf.1 y h)
    · exact Or.inr (hcov y (Nat.le_of_not_lt h) hy)
  · intro y hy
    refine Cert.LibWritesAgree.read_writes_agree (sP).view f (fun y => (permW (Gfi d L fi) y : Elt F .i32)) Lp hE y ?_
    by_cases h : (y 0).val < 208 * k.val
    · exact Or.inl (hf.2 y h)
    · exact Or.inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0) : sProp 𝕄) := if_pos h
theorem idle_pos (n : Nat) (h : n ≠ 0) : idle (F := F) d L n = (iprop(emp) : sProp 𝕄) := if_neg h
theorem cell_self (t : Fin k1_t2_loop.trips) : cell (F := F) d L t.val t = chunkRow d L t := if_neg (by omega)
theorem cell_next (t : Fin k1_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k1_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k1_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fi : Buf (Elt F) ((idxW).view.loc (thr d L))) (fP : Buf (Elt F) ((sP).view.loc (thr d L))) (h : RowsBelow d L fi 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h.1 (r.emb x) ((r.emb x) 0).isLt

set_option maxHeartbeats 8000000 in
theorem tile_run_perm (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc1_scoped0.sem) 0
        ∗ semVal (thr d L, SemLoc.dma cc1_scratch6.sem) 0 ∗ semVal (thr d L, SemLoc.dma cc1_scratch7.sem) 0
        ∗ semVal (thr d L, SemLoc.dma cc1_scratch8.sem) 0 ∗ semVal (thr d L, SemLoc.dma cc1_scratch9.sem) 0
        ∗ semVal (thr d L, SemLoc.dma cc1_scratch10.sem) 0 ∗ semVal (thr d L, SemLoc.dma cc1_scratch11.sem) 0
        ∗ semVal (thr d L, SemLoc.dma cc1_scratch12.sem) 0 ∗ semVal (thr d L, SemLoc.dma cc1_scratch13.sem) 0
        ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileRes d L qT ft fi
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') := by
  rw [cc1_gather_kernel_eq_skeleton]; unfold cc1_gather_kernel_skel k1_t1_body k1_t2_body
  rw [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L fi O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L fi k f hf _ ?hL ?hE ?hcov
        case hL =>
          refine List.forall_mem_cons.mpr ⟨pay13_lt (F := F) _ (fun _ => hg.1 _), ?_⟩
          refine List.forall_mem_cons.mpr ⟨pay12_lt (F := F) _ (fun _ => hg.1 _), ?_⟩
          refine List.forall_mem_cons.mpr ⟨pay11_lt (F := F) _ (fun _ => hg.1 _), ?_⟩
          refine List.forall_mem_cons.mpr ⟨pay10_lt (F := F) _ (fun _ => hg.1 _), ?_⟩
          refine List.forall_mem_cons.mpr ⟨pay9_lt (F := F) _ (fun _ => hg.1 _), ?_⟩
          refine List.forall_mem_cons.mpr ⟨pay8_lt (F := F) _ (fun _ => hg.1 _), ?_⟩
          refine List.forall_mem_cons.mpr ⟨pay7_lt (F := F) _ (fun _ => hg.1 _), ?_⟩
          refine List.forall_mem_cons.mpr ⟨pay6_lt (F := F) _ (fun _ => hg.1 _), ?_⟩
          refine List.forall_mem_cons.mpr ⟨pay5_lt (F := F) _ (fun _ => hg.1 _), ?_⟩
          refine List.forall_mem_cons.mpr ⟨pay4_lt (F := F) _ (fun _ => hg.1 _), ?_⟩
          refine List.forall_mem_cons.mpr ⟨pay3_lt (F := F) _ (fun _ => hg.1 _), ?_⟩
          refine List.forall_mem_cons.mpr ⟨pay2_lt (F := F) _ (fun _ => hg.1 _), ?_⟩
          refine List.forall_mem_cons.mpr ⟨pay1_lt (F := F) _ (fun _ => hg.1 _), ?_⟩
          exact fun _ h => absurd h List.not_mem_nil
        case hE =>
          have eG : (fun j => (((sN).view.readAt (Elt F) (LoadRect.whole S6656) g j) : BitVec 32)) = Gfi d L fi := funext hg.2
          refine List.forall_mem_cons.mpr ⟨fun x => (perm13 (F := F) (fun j => (sN).view.readAt (Elt F) (LoadRect.whole S6656) g j) k _ x).trans (congrArg (fun G => permW G _) eG), ?_⟩
          refine List.forall_mem_cons.mpr ⟨fun x => (perm12 (F := F) (fun j => (sN).view.readAt (Elt F) (LoadRect.whole S6656) g j) k _ x).trans (congrArg (fun G => permW G _) eG), ?_⟩
          refine List.forall_mem_cons.mpr ⟨fun x => (perm11 (F := F) (fun j => (sN).view.readAt (Elt F) (LoadRect.whole S6656) g j) k _ x).trans (congrArg (fun G => permW G _) eG), ?_⟩
          refine List.forall_mem_cons.mpr ⟨fun x => (perm10 (F := F) (fun j => (sN).view.readAt (Elt F) (LoadRect.whole S6656) g j) k _ x).trans (congrArg (fun G => permW G _) eG), ?_⟩
          refine List.forall_mem_cons.mpr ⟨fun x => (perm9 (F := F) (fun j => (sN).view.readAt (Elt F) (LoadRect.whole S6656) g j) k _ x).trans (congrArg (fun G => permW G _) eG), ?_⟩
          refine List.forall_mem_cons.mpr ⟨fun x => (perm8 (F := F) (fun j => (sN).view.readAt (Elt F) (LoadRect.whole S6656) g j) k _ x).trans (congrArg (fun G => permW G _) eG), ?_⟩
          refine List.forall_mem_cons.mpr ⟨fun x => (perm7 (F := F) (fun j => (sN).view.readAt (Elt F) (LoadRect.whole S6656) g j) k _ x).trans (congrArg (fun G => permW G _) eG), ?_⟩
          refine List.forall_mem_cons.mpr ⟨fun x => (perm6 (F := F) (fun j => (sN).view.readAt (Elt F) (LoadRect.whole S6656) g j) k _ x).trans (congrArg (fun G => permW G _) eG), ?_⟩
          refine List.forall_mem_cons.mpr ⟨fun x => (perm5 (F := F) (fun j => (sN).view.readAt (Elt F) (LoadRect.whole S6656) g j) k _ x).trans (congrArg (fun G => permW G _) eG), ?_⟩
          refine List.forall_mem_cons.mpr ⟨fun x => (perm4 (F := F) (fun j => (sN).view.readAt (Elt F) (LoadRect.whole S6656) g j) k _ x).trans (congrArg (fun G => permW G _) eG), ?_⟩
          refine List.forall_mem_cons.mpr ⟨fun x => (perm3 (F := F) (fun j => (sN).view.readAt (Elt F) (LoadRect.whole S6656) g j) k _ x).trans (congrArg (fun G => permW G _) eG), ?_⟩
          refine List.forall_mem_cons.mpr ⟨fun x => (perm2 (F := F) (fun j => (sN).view.readAt (Elt F) (LoadRect.whole S6656) g j) k _ x).trans (congrArg (fun G => permW G _) eG), ?_⟩
          refine List.forall_mem_cons.mpr ⟨fun x => (perm1 (F := F) (fun j => (sN).view.readAt (Elt F) (LoadRect.whole S6656) g j) k _ x).trans (congrArg (fun G => permW G _) eG), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fi fp
      · iexact Hp
    iexists (insert (SemLoc.dma cc1_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L fi 32 fP := by
    have := hfP
    rwa [show Scf.trips k1_t1_loop.lb k1_t1_loop.ub k1_t1_loop.st = 32 from trips1_eq] at this
  sl_for (inv2 d L fi O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fi fQ hfQ
    obtain ⟨hc1, hc2, hc3, hc4⟩ := conds_iff k
    by_cases hk : k.val = 0
    · have h1 : ¬ k1_cond1 k = 1#1 := fun h => (hc1.mp h) hk
      have h2 : ¬ k1_cond2 k = 1#1 := fun h => (hc2.mp h) hk
      have h3 : ¬ k1_cond3 k = 1#1 := fun h => (hc3.mp h) hk
      have h4 : ¬ k1_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k1_cond1 k = 1#1 := hc1.mpr hk
      have h2 : k1_cond2 k = 1#1 := hc2.mpr hk
      have h3 : k1_cond3 k = 1#1 := hc3.mpr hk
      have h4 : k1_cond4 k = 1#1 := hc4.mpr hk
      have hk' : k.val - 1 < k1_t2_loop.trips := Nat.lt_of_le_of_lt (Nat.sub_le _ _) k.isLt
      have hkk : (⟨k.val - 1, hk'⟩ : Fin k1_t2_loop.trips).val + 1 = k.val := by show k.val - 1 + 1 = k.val; omega
      have hne : (⟨k.val - 1, hk'⟩ : Fin k1_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k1_t2_loop.trips := by rw [trips2_eq]; decide
  have hll : (⟨12, hl⟩ : Fin k1_t2_loop.trips).val + 1 = Scf.trips k1_t2_loop.lb k1_t2_loop.ub k1_t2_loop.st := trips2_eq.symm
  ihave Hc := (Entails.of_eq (SparseCore.bigSep_erase' (Finset.mem_univ (⟨12, hl⟩ : Fin k1_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k1_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k1_t2_loop.trips)) fun t ht => cell_other d L (Scf.trips k1_t2_loop.lb k1_t2_loop.ub k1_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists fR
    isplitr
    · ipureintro; exact hfR
    · iexact Hp
  isplitl [Hw0_src]
  · iexists q0; iapply (Entails.of_eq (pts_whole d L cc1_scratch2 rfl fullShare q0)); iexact Hw0_src
  isplitl [Hw1_src]
  · iexists q1; iapply (Entails.of_eq (pts_whole d L cc1_scratch3 rfl fullShare q1)); iexact Hw1_src
  isplitl [Hw2_src]
  · iexists q2; iapply (Entails.of_eq (pts_whole d L cc1_scratch4 rfl fullShare q2)); iexact Hw2_src
  isplitl [Hw3_src]
  · iexists q3; iapply (Entails.of_eq (pts_whole d L cc1_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScV1

end
-- ==== Proof.ScPermGV1.lean ====
import proofs.«202673_g7318624272670_cont_9to1c4b_526_24_alg».proof.Proof.ScSpecI
import proofs.«202673_g7318624272670_cont_9to1c4b_526_24_alg».proof.Proof.ScSetsI1
import proofs.«202673_g7318624272670_cont_9to1c4b_526_24_alg».proof.Proof.ScPermI1

/-! A task's permuted words are the call's permuted words at the task's places. Task (c, s) works on the 6656 places from
    base = 13312·s + 6656·c of the call's list. The base is a multiple of 208 and of 8, so the window, the row within the
    window and the field of the global place base + y are those of the local place y moved by the base: what the task
    writes at its local place y is what the whole call's permutation puts at the global place base + y. -/

noncomputable section

namespace Cert.Proof.ScV1

open Cert.KernelIdeal Cert.KernelIdeal.Gen Cert.Proof.ScI Cert.Proof.ScI1 Idealize.ShloMosaic Idealize.ShloMosaic.ValueIdx

/-- The task's first place in the call's list. -/
abbrev baseOf (L : grid1.Coords) : Nat := 13312 * (L 1).val + 6656 * (L 0).val

theorem base_add_lt (L : grid1.Coords) (n : Nat) (h : n < 6656) : baseOf L + n < 212992 := by
  have h1 : (L 1).val < 16 := (L 1).isLt
  have h0 : (L 0).val < 2 := (L 0).isLt
  show 13312 * (L 1).val + 6656 * (L 0).val + n < 212992
  omega

/-- The task's word at local place `j` is the list's word at base + j. -/
theorem emb_idxSl (L : grid1.Coords) (j : S6656.Idx) :
    (idxSl L).view.emb j = ix1 (⟨baseOf L + (j 0).val, base_add_lt L _ (j 0).isLt⟩ : Fin 212992) := by
  funext a
  refine Fin.ext ?_
  match a with
  | ⟨0, _⟩ =>
    show (k1_off1 L) 0 + 1 * (j 0).val = 13312 * (L 1).val + 6656 * (L 0).val + (j 0).val
    rw [k1_off1_eq]
    show 13312 * (L 1).val + 6656 * (L 0).val + 1 * (j 0).val = _
    omega

/-- THE CONSISTENCY: the task's permuted word at local place y is the call's permuted word at base + y. -/
theorem permW_eq_permG (L : grid1.Coords) (fi : S212992.Idx → BitVec 32) (y : S6656.Idx) :
    permW (fun j => fi ((idxSl L).view.emb j)) y
      = permG fi (⟨baseOf L + (y 0).val, base_add_lt L _ (y 0).isLt⟩ : Fin 212992) := by
  have h1 : (L 1).val < 16 := (L 1).isLt
  have h0 : (L 0).val < 2 := (L 0).isLt
  have hy : (y 0).val < 6656 := (y 0).isLt
  -- the base is 208 · (64 s + 32 c), and a multiple of 8
  have q1 : (13312 * (L 1).val + 6656 * (L 0).val + (y 0).val) / 208 = 64 * (L 1).val + 32 * (L 0).val + (y 0).val / 208 := by omega
  have q2 : (13312 * (L 1).val + 6656 * (L 0).val + (y 0).val) % 208 = (y 0).val % 208 := by omega
  have q3 : (13312 * (L 1).val + 6656 * (L 0).val + (y 0).val) % 8 = (y 0).val % 8 := by omega
  unfold permW permG
  have e1 : (idxSl L).view.emb (ix1 (⟨208 * ((y 0).val / 208) + 26 * ((y 0).val % 8) + (y 0).val % 208 / 8, permPlace_lt _ (y 0).isLt⟩ : Fin 6656))
      = ix1 (Cert.KSpec.idxPos (⟨baseOf L + (y 0).val, base_add_lt L _ (y 0).isLt⟩ : Fin 212992)) := by
    rw [emb_idxSl]
    refine congrArg ix1 (Fin.ext ?_)
    show 13312 * (L 1).val + 6656 * (L 0).val + (208 * ((y 0).val / 208) + 26 * ((y 0).val % 8) + (y 0).val % 208 / 8)
      = 208 * ((13312 * (L 1).val + 6656 * (L 0).val + (y 0).val) / 208) + 26 * ((13312 * (L 1).val + 6656 * (L 0).val + (y 0).val) % 8)
        + (13312 * (L 1).val + 6656 * (L 0).val + (y 0).val) % 208 / 8
    rw [q1, q2, q3]
    omega
  have e2 : (y 0).val % 208 / 8 = (Cert.KSpec.rowField (⟨baseOf L + (y 0).val, base_add_lt L _ (y 0).isLt⟩ : Fin 212992)).val := by
    show (y 0).val % 208 / 8 = (13312 * (L 1).val + 6656 * (L 0).val + (y 0).val) % 208 / 8
    rw [q2]
  show fi ((idxSl L).view.emb _) + _ = _
  rw [e1, e2]

end Cert.Proof.ScV1

end
-- ==== Proof.ScGatherCoreV1.lean ====
import proofs.«202673_g7318624272670_cont_9to1c4b_526_24_alg».proof.Proof.ScPermGV1
import proofs.«202673_g7318624272670_cont_9to1c4b_526_24_alg».proof.Proof.LibGatherAt
import Idealize.ShloMosaic.Lib.Writes

/-! One block of the gathered array, read at a place. A block is 128 rows from local row n of a task's range (n = 512·k +
    128·i for slot i of trip k). Its row r, lane l is gathered from the table row named by the word at place n + r of
    the task's permuted list. That word is the call's permuted word at the global place base + n + r, which is also the
    block's own global row; it is below 26000, so it is the table row the specification of the gathered array names. -/

noncomputable section

namespace Cert.Proof.ScV1

open Cert.KernelIdeal Cert.KernelIdeal.Gen Cert.Proof.ScI Cert.Proof.ScI1 Idealize.ShloMosaic Idealize.ShloMosaic.ValueIdx

variable {F : FTy → Type}

/-- The whole rectangle places an index at itself. -/
theorem whole_emb_eq (s : Shape) (x : s.Idx) : (Rect.whole s).emb x = x := by
  funext a
  refine Fin.ext ?_
  show 0 + 1 * (x a).val = (x a).val
  omega

/-- One write of a whole payload, read back through the same view, is the payload. -/
theorem read_write_whole {sig : RefSig} {κ : Kind} {sp : Space} {s : Shape} {e : EltTy} {Val : EltTy → Type}
    (v : View sig κ sp s e) (f : v.ty.Contents Val) (P : s.Idx → Val e) (x : s.Idx) :
    v.read Val (v.writes Val f [⟨Rect.whole s, P⟩]) x = P x := by
  have h := View.read_writes_cons_emb (v := v) (f := f) (Rect.whole s) P [] x
  rwa [whole_emb_eq] at h

/-- THE CORE: the gather's payload at row r, lane l of the block starting at local row n is the specified array at the
    block's place. The three slices' offsets are variables with their closed forms as hypotheses. -/
theorem gather_core (L : grid1.Coords) (n : Nat) (hn6 : n + 128 ≤ 6656)
    (ft : S26000x128.Idx → Elt F .f32) (fi : S212992.Idx → BitVec 32) (fQ : S6656.Idx → Elt F .i32)
    (h1 : ∀ p : S6656.Idx, ((fQ p) : BitVec 32).toNat < 26000)
    (h2 : ∀ p : S6656.Idx, ((fQ p) : BitVec 32) = permW (fun j => fi ((idxSl L).view.emb j)) p)
    (off20 : Fin 2 → Nat) (inb20 : ∀ a, off20 a + S128x128.size a ≤ S212992x128.size a) (h20 : off20 = ![baseOf L + n, 0])
    (hst20 : ∀ a, (Rect.unit (s := S212992x128) off20 S128x128.size inb20).stride a = 1)
    (off16 : Fin 1 → Nat) (inb16 : ∀ a, off16 a + S128.size a ≤ S6656.size a) (h16 : off16 = ![n])
    (hst16 : ∀ a, (Rect.unit (s := S6656) off16 S128.size inb16).stride a = 1)
    (inbT : ∀ a, (![0, 0] : Fin 2 → Nat) a + S26000x128.size a ≤ S26000x128.size a)
    (hstT : ∀ a, (Rect.unit (s := S26000x128) ![0, 0] S26000x128.size inbT).stride a = 1)
    (hg : S26000x128.Gathers 0 S128x128)
    (hn : S128.numel = S128x128.size hg.axis')
    (hin : ∀ x, ((View.read (Elt F) ((Memref.whole cc1_scratch1 : Memref sig .scVector .vmem S6656 .i32).slice
        (Rect.unit (s := S6656) off16 S128.size inb16) hst16).view fQ x) : BitVec 32).toNat < S26000x128.size hg.axis)
    (r l : Fin 128) :
    SparseCore.gatherPayload (F := F) hg
        (View.read (Elt F) ((Memref.whole main_v0_scv : Memref sig .scVector .hbm S26000x128 .f32).slice
          (Rect.unit (s := S26000x128) ![0, 0] S26000x128.size inbT) hstT).view ft)
        (SparseCore.rows (F := F) (View.read (Elt F) ((Memref.whole cc1_scratch1 : Memref sig .scVector .vmem S6656 .i32).slice
          (Rect.unit (s := S6656) off16 S128.size inb16) hst16).view fQ) hn hin) (ix2 r l)
      = embSpec ft fi (((Memref.whole main_v9_scv : Memref sig .scVector .hbm S212992x128 .f32).slice
          (Rect.unit (s := S212992x128) off20 S128x128.size inb20) hst20).view.emb (ix2 r l)) := by
  subst h20
  subst h16
  have hr : r.val < 128 := r.isLt
  -- the place of the list the row's word sits at
  have hp6 : n + r.val < 6656 := by omega
  have hword : View.read (Elt F) ((Memref.whole cc1_scratch1 : Memref sig .scVector .vmem S6656 .i32).slice
      (Rect.unit (s := S6656) ![n] S128.size inb16) hst16).view fQ (ix1 r) = fQ (ix1 (⟨n + r.val, hp6⟩ : Fin 6656)) := by
    show fQ _ = fQ _
    refine congrArg fQ (funext fun a => Fin.ext ?_)
    match a with
    | ⟨0, _⟩ =>
      show n + 1 * r.val = n + r.val
      omega
  refine (Cert.LibGatherAt.gatherPayload_apply (F := F) (z := 26000) (o := 128) (c := 128) hg _ _ r l).trans ?_
  -- the table read through its whole slice is the table
  show ft _ = _
  unfold embSpec
  refine congrArg ft (funext fun a => Fin.ext ?_)
  match a with
  | ⟨0, _⟩ =>
    show 0 + 1 * (SparseCore.rows (F := F) _ hn hin r).val = (permG fi _).toNat % 26000
    have hrow := Cert.LibGatherAt.rows_apply (F := F) (o := 128) (z := 26000)
      (View.read (Elt F) ((Memref.whole cc1_scratch1 : Memref sig .scVector .vmem S6656 .i32).slice
        (Rect.unit (s := S6656) ![n] S128.size inb16) hst16).view fQ) hn hin r
    refine (congrArg (fun t : Nat => 0 + 1 * t) hrow).trans ?_
    rw [hword, h2, permW_eq_permG]
    have hlt := h1 (ix1 (⟨n + r.val, hp6⟩ : Fin 6656))
    rw [h2, permW_eq_permG] at hlt
    have e : (⟨baseOf L + ((ix1 (⟨n + r.val, hp6⟩ : Fin 6656) : S6656.Idx) 0).val, base_add_lt L _ ((ix1 (⟨n + r.val, hp6⟩ : Fin 6656) : S6656.Idx) 0).isLt⟩ : Fin 212992)
        = ⟨(((Memref.whole main_v9_scv : Memref sig .scVector .hbm S212992x128 .f32).slice
            (Rect.unit (s := S212992x128) ![baseOf L + n, 0] S128x128.size inb20) hst20).view.emb (ix2 r l) 0).val, Fin.isLt _⟩ := by
      refine Fin.ext ?_
      show baseOf L + (n + r.val) = baseOf L + n + 1 * r.val
      omega
    rw [e] at hlt ⊢
    rw [Nat.mod_eq_of_lt hlt]
    omega
  | ⟨1, _⟩ =>
    show 0 + 1 * l.val = 0 + 1 * l.val
    rfl

end Cert.Proof.ScV1

end
-- ==== Proof.ScGatherV1.lean ====
import proofs.«202673_g7318624272670_cont_9to1c4b_526_24_alg».proof.Proof.ScTileV1
import proofs.«202673_g7318624272670_cont_9to1c4b_526_24_alg».proof.Proof.ScGatherCoreV1

/-! The four blocks a trip of the gather loop writes hold the specified array. After trip k the block of slot i holds,
    wherever it held anything before, what the slot's row buffer read when it was written, and the row buffer held what
    the gather put there: row r, lane l is lane l of the table row named by the word at place 512·k + 128·i + r of the
    task's permuted list. With the list exact (it is the call's permuted list at the task's places) that is the
    specification of the gathered array at the block's own places. -/

noncomputable section

namespace Cert.Proof.ScV1

open Cert.KernelIdeal Cert.KernelIdeal.Gen Cert.Proof.ScI Cert.Proof.ScI1 Idealize.ShloMosaic Idealize.ShloMosaic.ValueIdx

variable {F : FTy → Type} [FloatOps F]

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "sP" => (Memref.whole Cert.KernelIdeal.cc1_scratch1 : Memref Cert.KernelIdeal.sig Kind.scVector Space.vmem Cert.KernelIdeal.S6656 EltTy.i32)

section Blocks
variable (d : Dev nD) (L : grid1.Coords)

/-- Slot 0's block after trip k. -/
theorem chunk_agree0 (k : Fin k1_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc1_scratch2 : Memref sig .scVector .vmem S128x128 .f32).view.loc (thr d L)))
    (o : Buf (Elt F) ((chunk0 L k).view.loc (thr d L)))
    (hsl : ∀ a, (Rect.unit (s := S26000x128) ![0, 0] S26000x128.size inb_S26000x128_S26000x128_0_0).stride a = 1)
    (hoff : ∀ a, (k1_off16 k 0#32) a + S128.size a ≤ S6656.size a)
    (hst : ∀ a, (Rect.unit (s := S6656) (k1_off16 k 0#32) S128.size hoff).stride a = 1)
    (hn : S128.numel = S128x128.size gathers_S26000x128_S128x128.axis')
    (hin : ∀ x, ((View.read (Elt F) ((Memref.whole cc1_scratch1 : Memref sig .scVector .vmem S6656 .i32).slice
        (Rect.unit (s := S6656) (k1_off16 k 0#32) S128.size hoff) hst).view fQ x) : BitVec 32).toNat
          < S26000x128.size gathers_S26000x128_S128x128.axis) :
    AgreeOn (chunk0 L k).view.set
      ((chunk0 L k).view.writes (Elt F) o
        [⟨Rect.whole S128x128, (ReadAs.same : ReadAs (Elt F) S128x128 .f32 S128x128 .f32).apply
          (View.read (Elt F) (Memref.whole cc1_scratch2).view ((Memref.whole cc1_scratch2).view.writes (Elt F) e
            [⟨Rect.whole cc1_scratch2.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc1_scratch1).slice (Rect.unit (k1_off16 k 0#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k1_off20 L k 0#32 = ![baseOf L + (512 * k.val + 128 * 0), 0] := by
    rw [show k1_off20 L k 0#32 = _ from k1_off20_eq L k ⟨0, by decide⟩]
    funext a
    match a with
    | ⟨0, _⟩ =>
      show 13312 * (L 1).val + 6656 * (L 0).val + 512 * k.val + 128 * 0 = 13312 * (L 1).val + 6656 * (L 0).val + (512 * k.val + 128 * 0)
      omega
    | ⟨1, _⟩ => rfl
  have h16 : k1_off16 k 0#32 = ![512 * k.val + 128 * 0] := k1_off16_eq k ⟨0, by decide⟩
  -- the written block, read at its own place, is the row buffer's read; the row buffer's is the gather's payload
  show (chunk0 L k).view.read (Elt F) ((chunk0 L k).view.writes (Elt F) o [⟨Rect.whole S128x128, _⟩]) (ix2 r l) = _
  rw [read_write_whole]
  show View.read (Elt F) (Memref.whole cc1_scratch2).view ((Memref.whole cc1_scratch2).view.writes (Elt F) e [⟨Rect.whole cc1_scratch2.ty.shape, _⟩]) (ix2 r l) = _
  rw [read_write_whole]
  exact gather_core (F := F) L (512 * k.val + 128 * 0) (by omega) ft fi fQ
    (fun p => hQ.1 p (by have h6 : (p 0).val < 6656 := (p 0).isLt; omega))
    (fun p => hQ.2 p (by have h6 : (p 0).val < 6656 := (p 0).isLt; omega))
    (k1_off20 L k 0#32) (k1_off20_inb L k 0) h20 (fun _ => rfl)
    (k1_off16 k 0#32) hoff h16 hst inb_S26000x128_S26000x128_0_0 hsl gathers_S26000x128_S128x128 hn hin r l

/-- Slot 1's block after trip k. -/
theorem chunk_agree1 (k : Fin k1_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc1_scratch3 : Memref sig .scVector .vmem S128x128 .f32).view.loc (thr d L)))
    (o : Buf (Elt F) ((chunk1 L k).view.loc (thr d L)))
    (hsl : ∀ a, (Rect.unit (s := S26000x128) ![0, 0] S26000x128.size inb_S26000x128_S26000x128_0_0).stride a = 1)
    (hoff : ∀ a, (k1_off16 k 1#32) a + S128.size a ≤ S6656.size a)
    (hst : ∀ a, (Rect.unit (s := S6656) (k1_off16 k 1#32) S128.size hoff).stride a = 1)
    (hn : S128.numel = S128x128.size gathers_S26000x128_S128x128.axis')
    (hin : ∀ x, ((View.read (Elt F) ((Memref.whole cc1_scratch1 : Memref sig .scVector .vmem S6656 .i32).slice
        (Rect.unit (s := S6656) (k1_off16 k 1#32) S128.size hoff) hst).view fQ x) : BitVec 32).toNat
          < S26000x128.size gathers_S26000x128_S128x128.axis) :
    AgreeOn (chunk1 L k).view.set
      ((chunk1 L k).view.writes (Elt F) o
        [⟨Rect.whole S128x128, (ReadAs.same : ReadAs (Elt F) S128x128 .f32 S128x128 .f32).apply
          (View.read (Elt F) (Memref.whole cc1_scratch3).view ((Memref.whole cc1_scratch3).view.writes (Elt F) e
            [⟨Rect.whole cc1_scratch3.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc1_scratch1).slice (Rect.unit (k1_off16 k 1#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k1_off20 L k 1#32 = ![baseOf L + (512 * k.val + 128 * 1), 0] := by
    rw [show k1_off20 L k 1#32 = _ from k1_off20_eq L k ⟨1, by decide⟩]
    funext a
    match a with
    | ⟨0, _⟩ =>
      show 13312 * (L 1).val + 6656 * (L 0).val + 512 * k.val + 128 * 1 = 13312 * (L 1).val + 6656 * (L 0).val + (512 * k.val + 128 * 1)
      omega
    | ⟨1, _⟩ => rfl
  have h16 : k1_off16 k 1#32 = ![512 * k.val + 128 * 1] := k1_off16_eq k ⟨1, by decide⟩
  -- the written block, read at its own place, is the row buffer's read; the row buffer's is the gather's payload
  show (chunk1 L k).view.read (Elt F) ((chunk1 L k).view.writes (Elt F) o [⟨Rect.whole S128x128, _⟩]) (ix2 r l) = _
  rw [read_write_whole]
  show View.read (Elt F) (Memref.whole cc1_scratch3).view ((Memref.whole cc1_scratch3).view.writes (Elt F) e [⟨Rect.whole cc1_scratch3.ty.shape, _⟩]) (ix2 r l) = _
  rw [read_write_whole]
  exact gather_core (F := F) L (512 * k.val + 128 * 1) (by omega) ft fi fQ
    (fun p => hQ.1 p (by have h6 : (p 0).val < 6656 := (p 0).isLt; omega))
    (fun p => hQ.2 p (by have h6 : (p 0).val < 6656 := (p 0).isLt; omega))
    (k1_off20 L k 1#32) (k1_off20_inb L k 1) h20 (fun _ => rfl)
    (k1_off16 k 1#32) hoff h16 hst inb_S26000x128_S26000x128_0_0 hsl gathers_S26000x128_S128x128 hn hin r l

/-- Slot 2's block after trip k. -/
theorem chunk_agree2 (k : Fin k1_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc1_scratch4 : Memref sig .scVector .vmem S128x128 .f32).view.loc (thr d L)))
    (o : Buf (Elt F) ((chunk2 L k).view.loc (thr d L)))
    (hsl : ∀ a, (Rect.unit (s := S26000x128) ![0, 0] S26000x128.size inb_S26000x128_S26000x128_0_0).stride a = 1)
    (hoff : ∀ a, (k1_off16 k 2#32) a + S128.size a ≤ S6656.size a)
    (hst : ∀ a, (Rect.unit (s := S6656) (k1_off16 k 2#32) S128.size hoff).stride a = 1)
    (hn : S128.numel = S128x128.size gathers_S26000x128_S128x128.axis')
    (hin : ∀ x, ((View.read (Elt F) ((Memref.whole cc1_scratch1 : Memref sig .scVector .vmem S6656 .i32).slice
        (Rect.unit (s := S6656) (k1_off16 k 2#32) S128.size hoff) hst).view fQ x) : BitVec 32).toNat
          < S26000x128.size gathers_S26000x128_S128x128.axis) :
    AgreeOn (chunk2 L k).view.set
      ((chunk2 L k).view.writes (Elt F) o
        [⟨Rect.whole S128x128, (ReadAs.same : ReadAs (Elt F) S128x128 .f32 S128x128 .f32).apply
          (View.read (Elt F) (Memref.whole cc1_scratch4).view ((Memref.whole cc1_scratch4).view.writes (Elt F) e
            [⟨Rect.whole cc1_scratch4.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc1_scratch1).slice (Rect.unit (k1_off16 k 2#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k1_off20 L k 2#32 = ![baseOf L + (512 * k.val + 128 * 2), 0] := by
    rw [show k1_off20 L k 2#32 = _ from k1_off20_eq L k ⟨2, by decide⟩]
    funext a
    match a with
    | ⟨0, _⟩ =>
      show 13312 * (L 1).val + 6656 * (L 0).val + 512 * k.val + 128 * 2 = 13312 * (L 1).val + 6656 * (L 0).val + (512 * k.val + 128 * 2)
      omega
    | ⟨1, _⟩ => rfl
  have h16 : k1_off16 k 2#32 = ![512 * k.val + 128 * 2] := k1_off16_eq k ⟨2, by decide⟩
  -- the written block, read at its own place, is the row buffer's read; the row buffer's is the gather's payload
  show (chunk2 L k).view.read (Elt F) ((chunk2 L k).view.writes (Elt F) o [⟨Rect.whole S128x128, _⟩]) (ix2 r l) = _
  rw [read_write_whole]
  show View.read (Elt F) (Memref.whole cc1_scratch4).view ((Memref.whole cc1_scratch4).view.writes (Elt F) e [⟨Rect.whole cc1_scratch4.ty.shape, _⟩]) (ix2 r l) = _
  rw [read_write_whole]
  exact gather_core (F := F) L (512 * k.val + 128 * 2) (by omega) ft fi fQ
    (fun p => hQ.1 p (by have h6 : (p 0).val < 6656 := (p 0).isLt; omega))
    (fun p => hQ.2 p (by have h6 : (p 0).val < 6656 := (p 0).isLt; omega))
    (k1_off20 L k 2#32) (k1_off20_inb L k 2) h20 (fun _ => rfl)
    (k1_off16 k 2#32) hoff h16 hst inb_S26000x128_S26000x128_0_0 hsl gathers_S26000x128_S128x128 hn hin r l

/-- Slot 3's block after trip k. -/
theorem chunk_agree3 (k : Fin k1_t2_loop.trips) (ft : Buf (Elt F) ((tblW).view.loc (thr d L)))
    (fi : Buf (Elt F) ((idxW).view.loc (thr d L))) (fQ : Buf (Elt F) ((sP).view.loc (thr d L)))
    (hQ : RowsBelow d L fi 32 fQ)
    (e : Buf (Elt F) ((Memref.whole cc1_scratch5 : Memref sig .scVector .vmem S128x128 .f32).view.loc (thr d L)))
    (o : Buf (Elt F) ((chunk3 L k).view.loc (thr d L)))
    (hsl : ∀ a, (Rect.unit (s := S26000x128) ![0, 0] S26000x128.size inb_S26000x128_S26000x128_0_0).stride a = 1)
    (hoff : ∀ a, (k1_off16 k 3#32) a + S128.size a ≤ S6656.size a)
    (hst : ∀ a, (Rect.unit (s := S6656) (k1_off16 k 3#32) S128.size hoff).stride a = 1)
    (hn : S128.numel = S128x128.size gathers_S26000x128_S128x128.axis')
    (hin : ∀ x, ((View.read (Elt F) ((Memref.whole cc1_scratch1 : Memref sig .scVector .vmem S6656 .i32).slice
        (Rect.unit (s := S6656) (k1_off16 k 3#32) S128.size hoff) hst).view fQ x) : BitVec 32).toNat
          < S26000x128.size gathers_S26000x128_S128x128.axis) :
    AgreeOn (chunk3 L k).view.set
      ((chunk3 L k).view.writes (Elt F) o
        [⟨Rect.whole S128x128, (ReadAs.same : ReadAs (Elt F) S128x128 .f32 S128x128 .f32).apply
          (View.read (Elt F) (Memref.whole cc1_scratch5).view ((Memref.whole cc1_scratch5).view.writes (Elt F) e
            [⟨Rect.whole cc1_scratch5.ty.shape, SparseCore.gatherPayload gathers_S26000x128_S128x128
              (View.read (Elt F) ((Memref.whole main_v0_scv).slice (Rect.unit ![0, 0] S26000x128.size inb_S26000x128_S26000x128_0_0) hsl).view ft)
              (SparseCore.rows (View.read (Elt F) ((Memref.whole cc1_scratch1).slice (Rect.unit (k1_off16 k 3#32) S128.size hoff) hst).view fQ) hn hin)⟩]))⟩])
      (embSpec ft fi) := by
  intro y hy
  obtain ⟨x, -, rfl⟩ := Finset.mem_map.mp hy
  obtain ⟨r, l, rfl⟩ : ∃ (r l : Fin 128), x = ix2 r l := ⟨x 0, x 1, eq_ix2 x⟩
  have hk : k.val < 13 := Nat.lt_of_lt_of_eq k.isLt trips2_eq
  have h20 : k1_off20 L k 3#32 = ![baseOf L + (512 * k.val + 128 * 3), 0] := by
    rw [show k1_off20 L k 3#32 = _ from k1_off20_eq L k ⟨3, by decide⟩]
    funext a
    match a with
    | ⟨0, _⟩ =>
      show 13312 * (L 1).val + 6656 * (L 0).val + 512 * k.val + 128 * 3 = 13312 * (L 1).val + 6656 * (L 0).val + (512 * k.val + 128 * 3)
      omega
    | ⟨1, _⟩ => rfl
  have h16 : k1_off16 k 3#32 = ![512 * k.val + 128 * 3] := k1_off16_eq k ⟨3, by decide⟩
  -- the written block, read at its own place, is the row buffer's read; the row buffer's is the gather's payload
  show (chunk3 L k).view.read (Elt F) ((chunk3 L k).view.writes (Elt F) o [⟨Rect.whole S128x128, _⟩]) (ix2 r l) = _
  rw [read_write_whole]
  show View.read (Elt F) (Memref.whole cc1_scratch5).view ((Memref.whole cc1_scratch5).view.writes (Elt F) e [⟨Rect.whole cc1_scratch5.ty.shape, _⟩]) (ix2 r l) = _
  rw [read_write_whole]
  exact gather_core (F := F) L (512 * k.val + 128 * 3) (by omega) ft fi fQ
    (fun p => hQ.1 p (by have h6 : (p 0).val < 6656 := (p 0).isLt; omega))
    (fun p => hQ.2 p (by have h6 : (p 0).val < 6656 := (p 0).isLt; omega))
    (k1_off20 L k 3#32) (k1_off20_inb L k 3) h20 (fun _ => rfl)
    (k1_off16 k 3#32) hoff h16 hst inb_S26000x128_S26000x128_0_0 hsl gathers_S26000x128_S128x128 hn hin r l

end Blocks

end Cert.Proof.ScV1

end
-- ==== Proof.ScTileW1.lean ====
import proofs.«202673_g7318624272670_cont_9to1c4b_526_24_alg».proof.Proof.ScTileV1
import proofs.«202673_g7318624272670_cont_9to1c4b_526_24_alg».proof.Proof.ScPayV
import proofs.«202673_g7318624272670_cont_9to1c4b_526_24_alg».proof.Proof.ScGatherV1

/-! One vector subcore's task of the second gather call, with the gathered values: the run of the task as before, the
    gather loop now remembering what each finished block holds. A block in flight or handed back agrees, on its own
    places, with the call's specification: row q of the gathered array is the table row named by the word the
    permutation puts at place q. -/

noncomputable section

namespace Cert.Proof.ScV1

open Cert.KernelIdeal Cert.KernelIdeal.Gen Cert.Proof.ScI Cert.Proof.ScI1

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

variable [FloatOps F]

section Tile
variable (d : Dev nD) (L : grid1.Coords)

/-! ## The gather loop with values -/

/-- The call's specification on the four blocks of trip `t`. -/
def Agree4 (ft : Buf (Elt F) ((tblW).view.loc (thr d L))) (fi : Buf (Elt F) ((idxW).view.loc (thr d L))) (t : Fin k1_t2_loop.trips)
    (o0 o1 o2 o3 : Buf (Elt F) ((outW).view.loc (thr d L))) : Prop :=
  AgreeOn (chunk0 L t).view.set o0 (embSpec ft fi) ∧ AgreeOn (chunk1 L t).view.set o1 (embSpec ft fi)
    ∧ AgreeOn (chunk2 L t).view.set o2 (embSpec ft fi) ∧ AgreeOn (chunk3 L t).view.set o3 (embSpec ft fi)

/-- Before trip `n`: trip `n - 1`'s blocks are in flight at contents that agree with the specification, the earlier
    trips' blocks rest with the task at such contents, the later trips' at any. -/
def cellW (ft : Buf (Elt F) ((tblW).view.loc (thr d L))) (fi : Buf (Elt F) ((idxW).view.loc (thr d L))) (n : Nat) (t : Fin k1_t2_loop.trips) : sProp 𝕄 :=
  if t.val + 1 = n then iprop(∃ o0 o1 o2 o3 c0 c1 c2 c3, flightRow d L t o0 o1 o2 o3 c0 c1 c2 c3 ∗ ⌜Agree4 d L ft fi t o0 o1 o2 o3⌝)
  else if t.val + 1 < n then doneRow d L ft fi t else chunkRow d L t

def inv2W (fi : Buf (Elt F) ((idxW).view.loc (thr d L))) (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ (∃ f, ⌜RowsBelow d L fi 32 f⌝ ∗ (sP).view.loc (thr d L) ↦{fullShare} f)
    ∗ semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ bigSep Finset.univ (cellW d L ft fi n)
    ∗ idle d L n
    ∗ ∃ W', ⌜∀ p ∈ W', p ∈ W ∨ p.2 = none⌝ ∗ owes (thr d L) O W')

theorem cellW_self (ft fi) (t : Fin k1_t2_loop.trips) : cellW (F := F) d L ft fi t.val t = chunkRow d L t := by
  unfold cellW; rw [if_neg (by omega), if_neg (by omega)]
theorem cellW_at (ft fi) (n : Nat) (t : Fin k1_t2_loop.trips) (h : t.val + 1 = n) : cellW (F := F) d L ft fi n t
    = (iprop(∃ o0 o1 o2 o3 c0 c1 c2 c3, flightRow d L t o0 o1 o2 o3 c0 c1 c2 c3 ∗ ⌜Agree4 d L ft fi t o0 o1 o2 o3⌝) : sProp 𝕄) := if_pos h
theorem cellW_done (ft fi) (n : Nat) (t : Fin k1_t2_loop.trips) (h : t.val + 1 < n) : cellW (F := F) d L ft fi n t = doneRow d L ft fi t := by
  unfold cellW; rw [if_neg (by omega), if_pos h]
theorem cellW_todo (ft fi) (n : Nat) (t : Fin k1_t2_loop.trips) (h : n < t.val + 1) : cellW (F := F) d L ft fi n t = chunkRow d L t := by
  unfold cellW; rw [if_neg (by omega), if_neg (by omega)]
/-- A trip whose blocks are neither in flight before trip `n` nor before trip `n + 1` is in the same state before both. -/
theorem cellW_step (ft fi) (n : Nat) (t : Fin k1_t2_loop.trips) (h1 : t.val + 1 ≠ n) (h2 : t.val + 1 ≠ n + 1) :
    cellW (F := F) d L ft fi n t = cellW d L ft fi (n + 1) t := by
  by_cases h : t.val + 1 < n
  · rw [cellW_done d L ft fi n t h, cellW_done d L ft fi (n + 1) t (by omega)]
  · rw [cellW_todo d L ft fi n t (by omega), cellW_todo d L ft fi (n + 1) t (by omega)]

set_option maxHeartbeats 8000000 in
theorem tile_run_val (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc1_scoped0.sem) 0
        ∗ semVal (thr d L, SemLoc.dma cc1_scratch6.sem) 0 ∗ semVal (thr d L, SemLoc.dma cc1_scratch7.sem) 0
        ∗ semVal (thr d L, SemLoc.dma cc1_scratch8.sem) 0 ∗ semVal (thr d L, SemLoc.dma cc1_scratch9.sem) 0
        ∗ semVal (thr d L, SemLoc.dma cc1_scratch10.sem) 0 ∗ semVal (thr d L, SemLoc.dma cc1_scratch11.sem) 0
        ∗ semVal (thr d L, SemLoc.dma cc1_scratch12.sem) 0 ∗ semVal (thr d L, SemLoc.dma cc1_scratch13.sem) 0
        ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileResV d L ft fi qT
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') := by
  rw [cc1_gather_kernel_eq_skeleton]; unfold cc1_gather_kernel_skel k1_t1_body k1_t2_body
  rw [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel
  unfold SparseCore.vectorLoadIdx
  unfold tileRes tileResV
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L fi O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L fi k f hf _ ?hL ?hE ?hcov
        case hL =>
          refine List.forall_mem_cons.mpr ⟨pay13_lt (F := F) _ (fun _ => hg.1 _), ?_⟩
          refine List.forall_mem_cons.mpr ⟨pay12_lt (F := F) _ (fun _ => hg.1 _), ?_⟩
          refine List.forall_mem_cons.mpr ⟨pay11_lt (F := F) _ (fun _ => hg.1 _), ?_⟩
          refine List.forall_mem_cons.mpr ⟨pay10_lt (F := F) _ (fun _ => hg.1 _), ?_⟩
          refine List.forall_mem_cons.mpr ⟨pay9_lt (F := F) _ (fun _ => hg.1 _), ?_⟩
          refine List.forall_mem_cons.mpr ⟨pay8_lt (F := F) _ (fun _ => hg.1 _), ?_⟩
          refine List.forall_mem_cons.mpr ⟨pay7_lt (F := F) _ (fun _ => hg.1 _), ?_⟩
          refine List.forall_mem_cons.mpr ⟨pay6_lt (F := F) _ (fun _ => hg.1 _), ?_⟩
          refine List.forall_mem_cons.mpr ⟨pay5_lt (F := F) _ (fun _ => hg.1 _), ?_⟩
          refine List.forall_mem_cons.mpr ⟨pay4_lt (F := F) _ (fun _ => hg.1 _), ?_⟩
          refine List.forall_mem_cons.mpr ⟨pay3_lt (F := F) _ (fun _ => hg.1 _), ?_⟩
          refine List.forall_mem_cons.mpr ⟨pay2_lt (F := F) _ (fun _ => hg.1 _), ?_⟩
          refine List.forall_mem_cons.mpr ⟨pay1_lt (F := F) _ (fun _ => hg.1 _), ?_⟩
          exact fun _ h => absurd h List.not_mem_nil
        case hE =>
          have eG : (fun j => (((sN).view.readAt (Elt F) (LoadRect.whole S6656) g j) : BitVec 32)) = Gfi d L fi := funext hg.2
          refine List.forall_mem_cons.mpr ⟨fun x => (perm13 (F := F) (fun j => (sN).view.readAt (Elt F) (LoadRect.whole S6656) g j) k _ x).trans (congrArg (fun G => permW G _) eG), ?_⟩
          refine List.forall_mem_cons.mpr ⟨fun x => (perm12 (F := F) (fun j => (sN).view.readAt (Elt F) (LoadRect.whole S6656) g j) k _ x).trans (congrArg (fun G => permW G _) eG), ?_⟩
          refine List.forall_mem_cons.mpr ⟨fun x => (perm11 (F := F) (fun j => (sN).view.readAt (Elt F) (LoadRect.whole S6656) g j) k _ x).trans (congrArg (fun G => permW G _) eG), ?_⟩
          refine List.forall_mem_cons.mpr ⟨fun x => (perm10 (F := F) (fun j => (sN).view.readAt (Elt F) (LoadRect.whole S6656) g j) k _ x).trans (congrArg (fun G => permW G _) eG), ?_⟩
          refine List.forall_mem_cons.mpr ⟨fun x => (perm9 (F := F) (fun j => (sN).view.readAt (Elt F) (LoadRect.whole S6656) g j) k _ x).trans (congrArg (fun G => permW G _) eG), ?_⟩
          refine List.forall_mem_cons.mpr ⟨fun x => (perm8 (F := F) (fun j => (sN).view.readAt (Elt F) (LoadRect.whole S6656) g j) k _ x).trans (congrArg (fun G => permW G _) eG), ?_⟩
          refine List.forall_mem_cons.mpr ⟨fun x => (perm7 (F := F) (fun j => (sN).view.readAt (Elt F) (LoadRect.whole S6656) g j) k _ x).trans (congrArg (fun G => permW G _) eG), ?_⟩
          refine List.forall_mem_cons.mpr ⟨fun x => (perm6 (F := F) (fun j => (sN).view.readAt (Elt F) (LoadRect.whole S6656) g j) k _ x).trans (congrArg (fun G => permW G _) eG), ?_⟩
          refine List.forall_mem_cons.mpr ⟨fun x => (perm5 (F := F) (fun j => (sN).view.readAt (Elt F) (LoadRect.whole S6656) g j) k _ x).trans (congrArg (fun G => permW G _) eG), ?_⟩
          refine List.forall_mem_cons.mpr ⟨fun x => (perm4 (F := F) (fun j => (sN).view.readAt (Elt F) (LoadRect.whole S6656) g j) k _ x).trans (congrArg (fun G => permW G _) eG), ?_⟩
          refine List.forall_mem_cons.mpr ⟨fun x => (perm3 (F := F) (fun j => (sN).view.readAt (Elt F) (LoadRect.whole S6656) g j) k _ x).trans (congrArg (fun G => permW G _) eG), ?_⟩
          refine List.forall_mem_cons.mpr ⟨fun x => (perm2 (F := F) (fun j => (sN).view.readAt (Elt F) (LoadRect.whole S6656) g j) k _ x).trans (congrArg (fun G => permW G _) eG), ?_⟩
          refine List.forall_mem_cons.mpr ⟨fun x => (perm1 (F := F) (fun j => (sN).view.readAt (Elt F) (LoadRect.whole S6656) g j) k _ x).trans (congrArg (fun G => permW G _) eG), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fi fp
      · iexact Hp
    iexists (insert (SemLoc.dma cc1_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L fi 32 fP := by
    have := hfP
    rwa [show Scf.trips k1_t1_loop.lb k1_t1_loop.ub k1_t1_loop.st = 32 from trips1_eq] at this
  sl_for (inv2W d L fi O W qT ft) $$ [Hmw Ht0 Ht1 Ht2 Ht3 Hp Hg0 Hg1 Hg2 Hg3 Hout H0 H1 H2 H3 Hw0 Hw1 Hw2 Hw3 HO]
  case region =>
    intro k _
    unfold inv2W
    iintro ⟨Hmw, Ht0, Ht1, Ht2, Ht3, ⟨%fQ, %hfQ, Hp⟩, Hg0, Hg1, Hg2, Hg3, Hcells, Hidle, %W', %hW', HO⟩
    have hin := hin_of_rows d L fi fQ hfQ
    obtain ⟨hc1, hc2, hc3, hc4⟩ := conds_iff k
    by_cases hk : k.val = 0
    · have h1 : ¬ k1_cond1 k = 1#1 := fun h => (hc1.mp h) hk
      have h2 : ¬ k1_cond2 k = 1#1 := fun h => (hc2.mp h) hk
      have h3 : ¬ k1_cond3 k = 1#1 := fun h => (hc3.mp h) hk
      have h4 : ¬ k1_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cellW_self d L ft fi k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cellW_at d L ft fi (k.val + 1) k rfl).symm)
          iexists _, _, _, _, _, _, _, _
          isplitl [Hw0 Hw1 Hw2 Hw3]
          · unfold flightRow
            isplitl [Hw0]
            · iexact Hw0
            isplitl [Hw1]
            · iexact Hw1
            isplitl [Hw2]
            · iexact Hw2
            iexact Hw3
          · ipureintro
            exact ⟨chunk_agree0 d L k ft fi fQ hfQ _ _ _ _ _ _ _, chunk_agree1 d L k ft fi fQ hfQ _ _ _ _ _ _ _,
              chunk_agree2 d L k ft fi fQ hfQ _ _ _ _ _ _ _, chunk_agree3 d L k ft fi fQ hfQ _ _ _ _ _ _ _⟩
        · iapply (Entails.of_eq (bigSep_congr fun t ht => cellW_step d L ft fi k.val t (by rw [hk]; exact Nat.succ_ne_zero _) (fun e => (Finset.ne_of_mem_erase ht) (Fin.ext (by omega)))))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k1_cond1 k = 1#1 := hc1.mpr hk
      have h2 : k1_cond2 k = 1#1 := hc2.mpr hk
      have h3 : k1_cond3 k = 1#1 := hc3.mpr hk
      have h4 : k1_cond4 k = 1#1 := hc4.mpr hk
      have hk' : k.val - 1 < k1_t2_loop.trips := Nat.lt_of_le_of_lt (Nat.sub_le _ _) k.isLt
      have hkk : (⟨k.val - 1, hk'⟩ : Fin k1_t2_loop.trips).val + 1 = k.val := by show k.val - 1 + 1 = k.val; omega
      have hne : (⟨k.val - 1, hk'⟩ : Fin k1_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cellW_self d L ft fi k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cellW_at d L ft fi k.val ⟨k.val - 1, hk'⟩ hkk)) $$ Hf
      icases Hf' with ⟨%p0, %p1, %p2, %p3, %q0, %q1, %q2, %q3, Hfl, %hA⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cellW_at d L ft fi (k.val + 1) k rfl).symm)
          iexists _, _, _, _, _, _, _, _
          isplitl [Hw0 Hw1 Hw2 Hw3]
          · unfold flightRow
            isplitl [Hw0]
            · iexact Hw0
            isplitl [Hw1]
            · iexact Hw1
            isplitl [Hw2]
            · iexact Hw2
            iexact Hw3
          · ipureintro
            exact ⟨chunk_agree0 d L k ft fi fQ hfQ _ _ _ _ _ _ _, chunk_agree1 d L k ft fi fQ hfQ _ _ _ _ _ _ _,
              chunk_agree2 d L k ft fi fQ hfQ _ _ _ _ _ _ _, chunk_agree3 d L k ft fi fQ hfQ _ _ _ _ _ _ _⟩
        · iapply (Entails.of_eq (SparseCore.bigSep_erase' (Finset.mem_erase.mpr ⟨hne, Finset.mem_univ _⟩)).symm)
          isplitl [Hw0_dst Hw1_dst Hw2_dst Hw3_dst]
          · iapply (Entails.of_eq (cellW_done d L ft fi (k.val + 1) ⟨k.val - 1, hk'⟩ (by show k.val - 1 + 1 < k.val + 1; omega)).symm)
            unfold doneRow
            isplitl [Hw0_dst]
            · iexists p0
              isplitl [Hw0_dst]
              · iexact Hw0_dst
              · ipureintro; exact hA.1
            isplitl [Hw1_dst]
            · iexists p1
              isplitl [Hw1_dst]
              · iexact Hw1_dst
              · ipureintro; exact hA.2.1
            isplitl [Hw2_dst]
            · iexists p2
              isplitl [Hw2_dst]
              · iexact Hw2_dst
              · ipureintro; exact hA.2.2.1
            iexists p3
            isplitl [Hw3_dst]
            · iexact Hw3_dst
            · ipureintro; exact hA.2.2.2
          · iapply (Entails.of_eq (bigSep_congr fun t ht => cellW_step d L ft fi k.val t (fun e => (Finset.ne_of_mem_erase ht) (Fin.ext (by show t.val = k.val - 1; omega))) (fun e => (Finset.ne_of_mem_erase (Finset.mem_of_mem_erase ht)) (Fin.ext (by omega)))))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2W
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cellW_todo d L ft fi 0 t (Nat.succ_pos _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2W
  icases HI with ⟨Hmw, Ht0, Ht1, Ht2, Ht3, ⟨%fR, %hfR, Hp⟩, Hg0, Hg1, Hg2, Hg3, Hcells, Hidle, %W2, %hW2, HO⟩
  have hl : 12 < k1_t2_loop.trips := by rw [trips2_eq]; decide
  have hll : (⟨12, hl⟩ : Fin k1_t2_loop.trips).val + 1 = Scf.trips k1_t2_loop.lb k1_t2_loop.ub k1_t2_loop.st := trips2_eq.symm
  ihave Hc := (Entails.of_eq (SparseCore.bigSep_erase' (Finset.mem_univ (⟨12, hl⟩ : Fin k1_t2_loop.trips)))) $$ Hcells
  icases Hc with ⟨Hf, Hrest⟩
  ihave Hf' := (Entails.of_eq (cellW_at d L ft fi _ ⟨12, hl⟩ hll)) $$ Hf
  icases Hf' with ⟨%p0, %p1, %p2, %p3, %q0, %q1, %q2, %q3, Hfl, %hA⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k1_t2_loop.trips))).symm)
    isplitl [Hw0_dst Hw1_dst Hw2_dst Hw3_dst]
    · unfold doneRow
      isplitl [Hw0_dst]
      · iexists p0
        isplitl [Hw0_dst]
        · iexact Hw0_dst
        · ipureintro; exact hA.1
      isplitl [Hw1_dst]
      · iexists p1
        isplitl [Hw1_dst]
        · iexact Hw1_dst
        · ipureintro; exact hA.2.1
      isplitl [Hw2_dst]
      · iexists p2
        isplitl [Hw2_dst]
        · iexact Hw2_dst
        · ipureintro; exact hA.2.2.1
      iexists p3
      isplitl [Hw3_dst]
      · iexact Hw3_dst
      · ipureintro; exact hA.2.2.2
    · iapply (Entails.of_eq (bigSep_congr (s := Finset.univ.erase (⟨12, hl⟩ : Fin k1_t2_loop.trips)) fun t ht => cellW_done d L ft fi (Scf.trips k1_t2_loop.lb k1_t2_loop.ub k1_t2_loop.st) t (by
        have hne := Finset.ne_of_mem_erase ht
        have h13 : t.val < 13 := lt_of_lt_of_eq t.isLt trips2_eq
        have h12 : t.val ≠ 12 := fun e => hne (Fin.ext e)
        show t.val + 1 < Scf.trips k1_t2_loop.lb k1_t2_loop.ub k1_t2_loop.st
        rw [show Scf.trips k1_t2_loop.lb k1_t2_loop.ub k1_t2_loop.st = 13 from trips2_eq]
        omega)))
      iexact Hrest
  isplitl [Hn]
  · iexists _; iexact Hn
  isplitl [Hp]
  · iexists fR
    isplitr
    · ipureintro; exact hfR
    · iexact Hp
  isplitl [Hw0_src]
  · iexists q0; iapply (Entails.of_eq (pts_whole d L cc1_scratch2 rfl fullShare q0)); iexact Hw0_src
  isplitl [Hw1_src]
  · iexists q1; iapply (Entails.of_eq (pts_whole d L cc1_scratch3 rfl fullShare q1)); iexact Hw1_src
  isplitl [Hw2_src]
  · iexists q2; iapply (Entails.of_eq (pts_whole d L cc1_scratch4 rfl fullShare q2)); iexact Hw2_src
  isplitl [Hw3_src]
  · iexists q3; iapply (Entails.of_eq (pts_whole d L cc1_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScV1

end
-- ==== Proof.ScOblV1.lean ====
import proofs.«202673_g7318624272670_cont_9to1c4b_526_24_alg».proof.Proof.ScTileW1
import proofs.«202673_g7318624272670_cont_9to1c4b_526_24_alg».proof.Proof.ScOwnI1
import proofs.«202673_g7318624272670_cont_9to1c4b_526_24_alg».proof.Proof.ScPayV

/-! The second gather call's task with the gathered values, as the launch theorem asks for it: a vector subcore's scoped storage opened into the
    task's two index scratches, four row buffers and nine DMA semaphores, the task run, and the storage closed again. -/

noncomputable section

namespace Cert.Proof.ScV1

open Cert.KernelIdeal Cert.KernelIdeal.Gen Cert.Proof.ScI Cert.Proof.ScI1

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.KernelIdeal.main_v0_scv : Memref Cert.KernelIdeal.sig Kind.scVector Space.hbm Cert.KernelIdeal.S26000x128 EltTy.f32)
local notation "idxW" => (Memref.whole Cert.KernelIdeal.main_v8_scv : Memref Cert.KernelIdeal.sig Kind.scVector Space.hbm Cert.KernelIdeal.S212992 EltTy.i32)
local notation "outW" => (Memref.whole Cert.KernelIdeal.main_v9_scv : Memref Cert.KernelIdeal.sig Kind.scVector Space.hbm Cert.KernelIdeal.S212992x128 EltTy.f32)
local notation "sN" => (Memref.whole Cert.KernelIdeal.cc1_scratch0 : Memref Cert.KernelIdeal.sig Kind.scVector Space.vmem Cert.KernelIdeal.S6656 EltTy.i32)
local notation "sP" => (Memref.whole Cert.KernelIdeal.cc1_scratch1 : Memref Cert.KernelIdeal.sig Kind.scVector Space.vmem Cert.KernelIdeal.S6656 EltTy.i32)
local notation "rB0" => (Memref.whole Cert.KernelIdeal.cc1_scratch2 : Memref Cert.KernelIdeal.sig Kind.scVector Space.vmem Cert.KernelIdeal.S128x128 EltTy.f32)
local notation "rB1" => (Memref.whole Cert.KernelIdeal.cc1_scratch3 : Memref Cert.KernelIdeal.sig Kind.scVector Space.vmem Cert.KernelIdeal.S128x128 EltTy.f32)
local notation "rB2" => (Memref.whole Cert.KernelIdeal.cc1_scratch4 : Memref Cert.KernelIdeal.sig Kind.scVector Space.vmem Cert.KernelIdeal.S128x128 EltTy.f32)
local notation "rB3" => (Memref.whole Cert.KernelIdeal.cc1_scratch5 : Memref Cert.KernelIdeal.sig Kind.scVector Space.vmem Cert.KernelIdeal.S128x128 EltTy.f32)

set_option maxHeartbeats 4000000 in
/-- The task with the subcore's scoped storage as the launch hands it over. -/
theorem tile_body (hF : (K (F := F)).Facts) (d : Dev nD) (L : grid1.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileResV d L ft fi qT ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileResV d L ft fi qT
            ∗ (∃ f, (sN).view.loc (thr d L) ↦{fullShare} f) ∗ (∃ f, ⌜RowsBelow d L fi 32 f⌝ ∗ (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, -, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run_val d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 1 ()
      = SparseCore.onTile hcore1 hsub1 (fun c s => cc1_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc1_scratch6 cc1_scratch7 cc1_scratch8 cc1_scratch9 cc1_scratch10 cc1_scratch11 cc1_scratch12 cc1_scratch13 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv1 : ∀ d i, ((Iv1 d i) : BitVec 32).toNat ≤ 999) :
    (K (F := F)).TileObl (D (F := F)) 𝒱 (PV Tb Iv0 Iv1) v₀ 1 := by
  intro d c i O W hO _ _
  simp only [show (PV Tb Iv0 Iv1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv1 d) (hIv1 d) O W hO).trans (wp_mono frame _ _ fun _ => obl_post)

end Cert.Proof.ScV1

end
-- ==== Proof.ScBaseK.lean ====
import proofs.«202673_g7318624272670_cont_9to1c4b_526_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«202673_g7318624272670_cont_9to1c4b_526_24_alg».proof.Proof.Gen.Kernel

noncomputable section

namespace Cert.Proof.ScK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it: two vector-subcore calls beside two TensorCore pipelines -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev URp : Type := Idealize.ShloMosaic.UR sig nD τ
abbrev UU : Type := UH × (URp × Counters)

abbrev EH : Emb UH (MT nD τ sig (HIx 2) (Elt F) ℕ UU ℕ) := embL
abbrev ER : Emb URp (MT nD τ sig (HIx 2) (Elt F) ℕ UU ℕ) := (Emb.inl : Emb URp (URp × Counters)).trans embR
instance ER_landsIn : (ER : Emb URp (MT nD τ sig (HIx 2) (Elt F) ℕ UU ℕ)).LandsIn (upEmb : UEmb _ (MT nD τ sig (HIx 2) (Elt F) ℕ UU ℕ)) := by unfold ER; infer_instance

end Cert.Proof.ScK

end
-- ==== Proof.ScSetsK0.lean ====
import proofs.«202673_g7318624272670_cont_9to1c4b_526_24_alg».proof.Proof.Gen.Kernel

/-! The pieces of the two HBM arrays a vector subcore's task touches in call 0: its 6656 words of the flat index list, and
    the 52 blocks of 128 rows of the gathered array (13 trips of 4 slots) it writes. -/

noncomputable section

namespace Cert.Proof.ScK0

open Cert.Kernel Cert.Kernel.Gen Idealize.ShloMosaic

/-- The grid point of SparseCore `c`, vector subcore `s`. -/
abbrev coordsV (c : Fin (grid0.bound 0)) (s : Fin (grid0.bound 1)) : grid0.Coords :=
  fun | 0 => c | 1 => s | ⟨_ + 2, h⟩ => absurd h (Nat.not_lt.2 (Nat.le_add_left _ _))

/-- The task's words of the flat index list, as the kernel slices them. -/
abbrev idxSl (L : grid0.Coords) : Memref sig .scVector .hbm S6656 .i32 :=
  (Memref.whole main_v5_scv : Memref sig .scVector .hbm S212992 .i32).slice (Rect.unit (s := S212992) (k0_off1 L) S6656.size (k0_off1_inb L)) (fun _ => rfl)

/-- Block `4 t + r` of the task's rows of the gathered array, as the kernel slices it for slot `r` of trip `t`. -/
abbrev chunk0 (L : grid0.Coords) (t : Fin k0_t2_loop.trips) : Memref sig .scVector .hbm S128x128 .f32 :=
  (Memref.whole main_v6_scv : Memref sig .scVector .hbm S212992x128 .f32).slice (Rect.unit (s := S212992x128) (k0_off20 L t 0#32) S128x128.size (k0_off20_inb L t 0)) (fun _ => rfl)
abbrev chunk1 (L : grid0.Coords) (t : Fin k0_t2_loop.trips) : Memref sig .scVector .hbm S128x128 .f32 :=
  (Memref.whole main_v6_scv : Memref sig .scVector .hbm S212992x128 .f32).slice (Rect.unit (s := S212992x128) (k0_off20 L t 1#32) S128x128.size (k0_off20_inb L t 1)) (fun _ => rfl)
abbrev chunk2 (L : grid0.Coords) (t : Fin k0_t2_loop.trips) : Memref sig .scVector .hbm S128x128 .f32 :=
  (Memref.whole main_v6_scv : Memref sig .scVector .hbm S212992x128 .f32).slice (Rect.unit (s := S212992x128) (k0_off20 L t 2#32) S128x128.size (k0_off20_inb L t 2)) (fun _ => rfl)
abbrev chunk3 (L : grid0.Coords) (t : Fin k0_t2_loop.trips) : Memref sig .scVector .hbm S128x128 .f32 :=
  (Memref.whole main_v6_scv : Memref sig .scVector .hbm S212992x128 .f32).slice (Rect.unit (s := S212992x128) (k0_off20 L t 3#32) S128x128.size (k0_off20_inb L t 3)) (fun _ => rfl)

end Cert.Proof.ScK0

end
-- ==== Proof.ScResK0.lean ====
import proofs.«202673_g7318624272670_cont_9to1c4b_526_24_alg».proof.Proof.ScBaseK
import proofs.«202673_g7318624272670_cont_9to1c4b_526_24_alg».proof.Proof.ScSetsK0

noncomputable section

namespace Cert.Proof.ScK0

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v5_scv : Memref Cert.Kernel.sig Kind.scVector Space.hbm Cert.Kernel.S212992 EltTy.i32)
local notation "outW" => (Memref.whole Cert.Kernel.main_v6_scv : Memref Cert.Kernel.sig Kind.scVector Space.hbm Cert.Kernel.S212992x128 EltTy.f32)
local notation "sN" => (Memref.whole Cert.Kernel.cc0_scratch0 : Memref Cert.Kernel.sig Kind.scVector Space.vmem Cert.Kernel.S6656 EltTy.i32)
local notation "sP" => (Memref.whole Cert.Kernel.cc0_scratch1 : Memref Cert.Kernel.sig Kind.scVector Space.vmem Cert.Kernel.S6656 EltTy.i32)
local notation "rB0" => (Memref.whole Cert.Kernel.cc0_scratch2 : Memref Cert.Kernel.sig Kind.scVector Space.vmem Cert.Kernel.S128x128 EltTy.f32)
local notation "rB1" => (Memref.whole Cert.Kernel.cc0_scratch3 : Memref Cert.Kernel.sig Kind.scVector Space.vmem Cert.Kernel.S128x128 EltTy.f32)
local notation "rB2" => (Memref.whole Cert.Kernel.cc0_scratch4 : Memref Cert.Kernel.sig Kind.scVector Space.vmem Cert.Kernel.S128x128 EltTy.f32)
local notation "rB3" => (Memref.whole Cert.Kernel.cc0_scratch5 : Memref Cert.Kernel.sig Kind.scVector Space.vmem Cert.Kernel.S128x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-! ## What a task is handed and hands back -/

/-- Trip `t`'s four blocks of the task's rows of the gathered array, each at some contents. -/
def chunkRow (t : Fin k0_t2_loop.trips) : sProp 𝕄 :=
  iprop((∃ f, (chunk0 L t).view.loc (thr d L) ↦[(chunk0 L t).view.set]{fullShare} f)
    ∗ (∃ f, (chunk1 L t).view.loc (thr d L) ↦[(chunk1 L t).view.set]{fullShare} f)
    ∗ (∃ f, (chunk2 L t).view.loc (thr d L) ↦[(chunk2 L t).view.set]{fullShare} f)
    ∗ (∃ f, (chunk3 L t).view.loc (thr d L) ↦[(chunk3 L t).view.set]{fullShare} f))

/-- The task's operands: four read tokens of the table (one per gather semaphore), its words of the index list at
    contents `fi`, its rows of the gathered array. The same come back, the rows at whatever the task wrote. -/
def tileRes (qT : PosShare TreeShare) (ft : Buf (Elt F) ((tblW).view.loc (thr d L))) (fi : Buf (Elt F) ((idxW).view.loc (thr d L))) : sProp 𝕄 :=
  iprop(((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ ((idxSl L).view.loc (thr d L) ↦[(idxSl L).view.set]{fullShare} fi)
    ∗ bigSep Finset.univ (chunkRow d L))

end Tile

end Cert.Proof.ScK0

end
-- ==== Proof.ScSetsK1.lean ====
import proofs.«202673_g7318624272670_cont_9to1c4b_526_24_alg».proof.Proof.Gen.Kernel

/-! The pieces of the two HBM arrays a vector subcore's task touches in call 1: its 6656 words of the flat index list, and
    the 52 blocks of 128 rows of the gathered array (13 trips of 4 slots) it writes. -/

noncomputable section

namespace Cert.Proof.ScK1

open Cert.Kernel Cert.Kernel.Gen Idealize.ShloMosaic

/-- The grid point of SparseCore `c`, vector subcore `s`. -/
abbrev coordsV (c : Fin (grid1.bound 0)) (s : Fin (grid1.bound 1)) : grid1.Coords :=
  fun | 0 => c | 1 => s | ⟨_ + 2, h⟩ => absurd h (Nat.not_lt.2 (Nat.le_add_left _ _))

/-- The task's words of the flat index list, as the kernel slices them. -/
abbrev idxSl (L : grid1.Coords) : Memref sig .scVector .hbm S6656 .i32 :=
  (Memref.whole main_v8_scv : Memref sig .scVector .hbm S212992 .i32).slice (Rect.unit (s := S212992) (k1_off1 L) S6656.size (k1_off1_inb L)) (fun _ => rfl)

/-- Block `4 t + r` of the task's rows of the gathered array, as the kernel slices it for slot `r` of trip `t`. -/
abbrev chunk0 (L : grid1.Coords) (t : Fin k1_t2_loop.trips) : Memref sig .scVector .hbm S128x128 .f32 :=
  (Memref.whole main_v9_scv : Memref sig .scVector .hbm S212992x128 .f32).slice (Rect.unit (s := S212992x128) (k1_off20 L t 0#32) S128x128.size (k1_off20_inb L t 0)) (fun _ => rfl)
abbrev chunk1 (L : grid1.Coords) (t : Fin k1_t2_loop.trips) : Memref sig .scVector .hbm S128x128 .f32 :=
  (Memref.whole main_v9_scv : Memref sig .scVector .hbm S212992x128 .f32).slice (Rect.unit (s := S212992x128) (k1_off20 L t 1#32) S128x128.size (k1_off20_inb L t 1)) (fun _ => rfl)
abbrev chunk2 (L : grid1.Coords) (t : Fin k1_t2_loop.trips) : Memref sig .scVector .hbm S128x128 .f32 :=
  (Memref.whole main_v9_scv : Memref sig .scVector .hbm S212992x128 .f32).slice (Rect.unit (s := S212992x128) (k1_off20 L t 2#32) S128x128.size (k1_off20_inb L t 2)) (fun _ => rfl)
abbrev chunk3 (L : grid1.Coords) (t : Fin k1_t2_loop.trips) : Memref sig .scVector .hbm S128x128 .f32 :=
  (Memref.whole main_v9_scv : Memref sig .scVector .hbm S212992x128 .f32).slice (Rect.unit (s := S212992x128) (k1_off20 L t 3#32) S128x128.size (k1_off20_inb L t 3)) (fun _ => rfl)

end Cert.Proof.ScK1

end
-- ==== Proof.ScResK1.lean ====
import proofs.«202673_g7318624272670_cont_9to1c4b_526_24_alg».proof.Proof.ScBaseK
import proofs.«202673_g7318624272670_cont_9to1c4b_526_24_alg».proof.Proof.ScSetsK1

noncomputable section

namespace Cert.Proof.ScK1

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v8_scv : Memref Cert.Kernel.sig Kind.scVector Space.hbm Cert.Kernel.S212992 EltTy.i32)
local notation "outW" => (Memref.whole Cert.Kernel.main_v9_scv : Memref Cert.Kernel.sig Kind.scVector Space.hbm Cert.Kernel.S212992x128 EltTy.f32)
local notation "sN" => (Memref.whole Cert.Kernel.cc1_scratch0 : Memref Cert.Kernel.sig Kind.scVector Space.vmem Cert.Kernel.S6656 EltTy.i32)
local notation "sP" => (Memref.whole Cert.Kernel.cc1_scratch1 : Memref Cert.Kernel.sig Kind.scVector Space.vmem Cert.Kernel.S6656 EltTy.i32)
local notation "rB0" => (Memref.whole Cert.Kernel.cc1_scratch2 : Memref Cert.Kernel.sig Kind.scVector Space.vmem Cert.Kernel.S128x128 EltTy.f32)
local notation "rB1" => (Memref.whole Cert.Kernel.cc1_scratch3 : Memref Cert.Kernel.sig Kind.scVector Space.vmem Cert.Kernel.S128x128 EltTy.f32)
local notation "rB2" => (Memref.whole Cert.Kernel.cc1_scratch4 : Memref Cert.Kernel.sig Kind.scVector Space.vmem Cert.Kernel.S128x128 EltTy.f32)
local notation "rB3" => (Memref.whole Cert.Kernel.cc1_scratch5 : Memref Cert.Kernel.sig Kind.scVector Space.vmem Cert.Kernel.S128x128 EltTy.f32)

variable [FloatOps F]

section Tile
variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

/-! ## What a task is handed and hands back -/

/-- Trip `t`'s four blocks of the task's rows of the gathered array, each at some contents. -/
def chunkRow (t : Fin k1_t2_loop.trips) : sProp 𝕄 :=
  iprop((∃ f, (chunk0 L t).view.loc (thr d L) ↦[(chunk0 L t).view.set]{fullShare} f)
    ∗ (∃ f, (chunk1 L t).view.loc (thr d L) ↦[(chunk1 L t).view.set]{fullShare} f)
    ∗ (∃ f, (chunk2 L t).view.loc (thr d L) ↦[(chunk2 L t).view.set]{fullShare} f)
    ∗ (∃ f, (chunk3 L t).view.loc (thr d L) ↦[(chunk3 L t).view.set]{fullShare} f))

/-- The task's operands: four read tokens of the table (one per gather semaphore), its words of the index list at
    contents `fi`, its rows of the gathered array. The same come back, the rows at whatever the task wrote. -/
def tileRes (qT : PosShare TreeShare) (ft : Buf (Elt F) ((tblW).view.loc (thr d L))) (fi : Buf (Elt F) ((idxW).view.loc (thr d L))) : sProp 𝕄 :=
  iprop(((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ ((idxSl L).view.loc (thr d L) ↦[(idxSl L).view.set]{fullShare} fi)
    ∗ bigSep Finset.univ (chunkRow d L))

end Tile

end Cert.Proof.ScK1

end
-- ==== Proof.TcBody2K.lean ====
/-
  The first TensorCore kernel body (the assembly of the first half of the batch), run once at a symbolic grid point
  and on any five whole staging memrefs.

  The body reads, for each of the 26 embedding fields, 64 row groups of 8 × 128 out of the staged block of gathered
  rows (13312 × 128: row group j of field f sits at row (26 j + f) · 8), stacks them to 512 × 128, transposes to
  128 × 512 and stores the result at rows 128 f … 128 f + 127 of the staged output block (3341 × 512); it then stores,
  at rows 3328 … 3340, the thirteen dense features scaled by (x − mn) / (mx − mn), the bounds broadcast from 13 × 1.
  Every store is preceded by a load of the rectangle it overwrites, whose value is not used.  The 27 stored
  rectangles tile the output block, so what the block holds afterwards does not depend on what it held before: it is
  the witness the run finds, a term over the four input buffers' contents alone.
-/
import proofs.«202673_g7318624272670_cont_9to1c4b_526_24_alg».proof.Proof.Gen.Kernel.Skeleton
import Idealize.ShloMosaic.Lib.Tactic
import Idealize.ShloMosaic.Lib.SparseCore.Cells

noncomputable section

namespace Cert.Proof.Tc2K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]
variable {U : Type} [URA U]

local notation "𝕄" => MT nD τ sig (HIx 2) (Elt F) ℕ U ℕ

/-- Memref `M`'s buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block's buffer `M5`, as a term over the contents `f1 … f4` of the four input
    buffers (the gathered rows, the dense features, the two bounds), WITH the proof that from the five buffers held
    whole — the output's at anything — the body runs to its return handing the inputs back as they were and the
    output's buffer at that term. -/
noncomputable def bodyRun (c : Dev nD) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (f1 : Bf (F := F) c M1) (f2 : Bf (F := F) c M2) (f3 : Bf (F := F) c M3) (f4 : Bf (F := F) c M4) :
    { W : Bf (F := F) c M5 //
      ∀ (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 f4 ∗ pt c M5 W) -∗ Q ⟨⟩))
        ⊢ wp frame (wpE (defs₀ (F := F)) Variants.none c none) E (cc2_body i M1 h1 M2 h2 M3 h3 M4 h4 M5 h5) Q } := by
  refine ⟨?_, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.Proof.Tc2K

end
-- ==== Proof.TcRegion2K.lean ====
/-
  The first TensorCore kernel region of @main (the pipeline of custom call 2, pipeline 0) as ONE STEP of @main on the
  TensorCore, inside a program that also runs SparseCore calls.

  The region is entered through the pipeline library's region rule.  What it needs of the thread at that line:
  the region boundary whole (the scoped buffers, among them the pipeline's eight staging buffers; the scoped
  semaphores at zero, among them its eight DMA semaphores; the idle operation slot), the five window arrays
  (the gathered rows, the slice of the dense features, the two bounds, the result) whole at the full share, that the
  thread owes nothing, and the rounds ghost state of the pipeline's eight staging cells with the duty tokens of the
  transfers its loop issues — dealt at launch (`Pipeline.fund_ghost`); the cells' invariants are allocated here,
  from the cells' counters at zero.  It hands back the boundary, the arrays at what the pipeline library computes
  from the proof data (the inputs unchanged, the result with the sixteen blocks written back), and the thread
  owing nothing, its recorded waits grown by the loop's own (on the staging semaphores, at index `none`).
-/
import proofs.«202673_g7318624272670_cont_9to1c4b_526_24_alg».proof.Proof.Gen.Kernel.Launch
import proofs.«202673_g7318624272670_cont_9to1c4b_526_24_alg».proof.Proof.Gen.Kernel.Points
import Idealize.ShloMosaic.Lib.SparseCore.Launch
import Idealize.ShloMosaic.Lib.Pipeline.FrameBody

noncomputable section

namespace Cert.Proof.Tc2K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- The variants every thread of the program runs under: the pipeline library's, over no kernel variant. -/
abbrev 𝒱 : Variants := Variants.lift Variants.none

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (W₀ : Dev nD → Finset (SemLoc sig × HIx 2))
  (out : (c : Dev nD) → Fin cfg2.N → (cfg2.win 4).block.Idx → Elt F (cfg2.win 4).elt)

/-- The proof data of the region on core `c`: the arrays as the region finds them; after the body each input's buffer at
    its block and the result's at `out c t`; the invariant the scoped buffers the pipeline does not stage; nothing owed,
    the waits recorded before the region within `W₀ c`; full shares. -/
def dat2 (c : Dev nD) : Dat τ (Elt F) (HIx 2) ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out c t
  Φ _ := Pipeline.scopedRest spec2 c
  q _ := fullShare
  owed _ := 0
  recorded _ := ↑(W₀ c)

/-- Proof data for the other pipeline, which this region does not run: only its type matters here. -/
def datIdle3 (c : Dev nD) : Dat τ (Elt F) (HIx 2) ℕ U ℕ cfg3 c where
  A w := V c (Pipeline.arrRef spec3 w)
  after _ _ := fun _ => Classical.arbitrary _
  Φ _ := iprop(emp)
  q _ := fullShare
  owed _ := 0

/-- The family the library's rules are stated over: this region's data at pipeline 0. -/
def dats0 : (p : Fin 2) → (c : Dev nD) → Dat τ (Elt F) (HIx 2) ℕ U ℕ (cfgs p) c
  | ⟨0, _⟩ => fun c => dat2 V W₀ out c
  | ⟨1, _⟩ => fun c => datIdle3 V c

theorem share2 (c : Dev nD) (w : Fin cfg2.W) : (dat2 (U := U) V W₀ out c).share w = fullShare := by
  unfold Dat.share; split <;> rfl

/-! ## What the proof data says, window by window -/

theorem A2 (c : Dev nD) (w : Fin cfg2.W) : (dat2 (U := U) V W₀ out c).A w = V c (Pipeline.arrRef spec2 w) := by dsimp only [dat2]
theorem after2_0 (c : Dev nD) (t : Fin cfg2.N) : (dat2 (U := U) V W₀ out c).after 0 t = iblk2 V c 0 t := by dsimp only [dat2]
theorem after2_1 (c : Dev nD) (t : Fin cfg2.N) : (dat2 (U := U) V W₀ out c).after 1 t = iblk2 V c 1 t := by dsimp only [dat2]
theorem after2_2 (c : Dev nD) (t : Fin cfg2.N) : (dat2 (U := U) V W₀ out c).after 2 t = iblk2 V c 2 t := by dsimp only [dat2]
theorem after2_3 (c : Dev nD) (t : Fin cfg2.N) : (dat2 (U := U) V W₀ out c).after 3 t = iblk2 V c 3 t := by dsimp only [dat2]
theorem after2_4 (c : Dev nD) (t : Fin cfg2.N) : (dat2 (U := U) V W₀ out c).after 4 t = out c t := by dsimp only [dat2]

/-- An input window's current staging buffer holds the array's block of the point, whether the pipeline fetched it there
    or not (the two bounds are fetched once: their block index never moves). -/
theorem before2_0 (c : Dev nD) (t : Fin cfg2.N) (d) : (dat2 (U := U) V W₀ out c).before 0 t d = iblk2 V c 0 t :=
  ((dat2 (U := U) V W₀ out c).before_in_eq_fetched 0 rfl (fun _ => rfl) (fun _ _ _ => rfl)
    (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 (U := U) V W₀ out c).before 1 t d = iblk2 V c 1 t :=
  ((dat2 (U := U) V W₀ out c).before_in_eq_fetched 1 rfl (fun _ => rfl) (fun _ _ _ => rfl)
    (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 (U := U) V W₀ out c).before 2 t d = iblk2 V c 2 t :=
  ((dat2 (U := U) V W₀ out c).before_in_eq_fetched 2 rfl (fun _ => rfl) (fun _ _ _ => rfl)
    (fun t => by rw [after2_2]; unfold Dat.blockOf iblk2; rw [A2]; try rfl) t d).trans
    (by unfold Dat.fetched Dat.blockOf iblk2; rw [A2]; try rfl)
theorem before2_3 (c : Dev nD) (t : Fin cfg2.N) (d) : (dat2 (U := U) V W₀ out c).before 3 t d = iblk2 V c 3 t :=
  ((dat2 (U := U) V W₀ out c).before_in_eq_fetched 3 rfl (fun _ => rfl) (fun _ _ _ => rfl)
    (fun t => by rw [after2_3]; unfold Dat.blockOf iblk2; rw [A2]; try rfl) t d).trans
    (by unfold Dat.fetched Dat.blockOf iblk2; rw [A2]; try rfl)

theorem Φ0 (c : Dev nD) (t) : (dats0 (U := U) V W₀ out (0 : Fin 2) c).Φ t = Pipeline.scopedRest spec2 c := rfl
theorem owed0 (c : Dev nD) (t) : (dats0 (U := U) V W₀ out (0 : Fin 2) c).owed t = 0 := rfl
theorem bound0 (c : Dev nD) (t) : (dats0 (U := U) V W₀ out (0 : Fin 2) c).bound none t = ↑(W₀ c) ∪ cfg2.waitPairs none := rfl

/-! ## The region as a step of @main -/

variable (ER : Emb (UR sig nD τ) (MT nD τ sig (HIx 2) (Elt F) ℕ U ℕ))
  [ER.LandsIn (upEmb : UEmb _ (MT nD τ sig (HIx 2) (Elt F) ℕ U ℕ))]

/-- The region's five arrays on core `c`, each whole at the full share, at contents `G`. -/
abbrev arrs2 (c : Dev nD) (G : (w : Fin cfg2.W) → Buf (Elt F) (((cfg2).spec w).arr.view.loc (c : Thread nD τ))) : sProp 𝕄 :=
  bigSep Finset.univ fun w : Fin cfg2.W => (((c : Thread nD τ).loc (Pipeline.arrRef (cfg2).spec w)) ↦{fullShare} G w : sProp 𝕄)

/-- The pipeline prefetches no table: nothing is held for it. -/
theorem prefHeld_none0 (c : Dev nD) (q) :
    (iprop(emp) : sProp 𝕄) ⊢ Pipeline.prefHeld ((pcfgs (F := F) (0 : Fin 2)).pre) c q ((cfgs (0 : Fin 2)).toPCfg_adm (Val := Elt F)).1 := by
  unfold Pipeline.prefHeld
  rw [Finset.univ_eq_empty, BI.bigSep_empty]
  exact BI.Entails.refl _

set_option backward.isDefEq.respectTransparency.types false in
/-- **Region 0 as a step of @main.**  From the region boundary, the five arrays as the region finds them, the thread owing
    nothing (its recorded waits `W₀ d`), and the pipeline's launch ghost state, the custom call of pipeline 0's entry
    runs and the continuation `k` goes on from the boundary, the arrays at the proof data's final contents and the
    thread owing nothing, its recorded waits within `W₀ d` and the loop's own. -/
theorem region0 (hbody : ∀ c, BodyObligation (dat2 (U := U) V W₀ out c) (defs₀ (F := F)) Variants.none none Set.univ)
    (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs2 d (fun w => V d (Pipeline.arrRef spec2 w))
        ∗ owes (T d) (0 : CellTallies nD τ sig (HIx 2)) (W₀ d)
        ∗ Pipeline.cellsGhost cfgs ER (0 : Fin 2) d ∗ Pipeline.toksInit cfgs ER (0 : Fin 2) d
        ∗ (iprop(boundary (T d) ∗ arrs2 d (fun w => (dat2 (U := U) V W₀ out d).arrAt w cfg2.N)
              ∗ (dat2 (U := U) V W₀ out d).owesAt none (Fin.last cfg2.N))
            -∗ wp frame (wpE (defs (F := F)) 𝒱 (T d) none) Set.univ (k ⟨⟩) Q))
      ⊢ wp frame (wpE (defs (F := F)) 𝒱 (T d) none) Set.univ (.op (.customCall (SparseCore.inner (Pipeline.entry (0 : Fin 2))) ()) k) Q := by
  classical
  have hss := Pipeline.scopedSems0_split cfgs cellOf_inj (0 : Fin 2) winFacts2.to₀ (Pipeline.OwnSemFacts.none spec2)
    (Ix := HIx 2) (Val := Elt F) (Name := ℕ) (U := U) (Lvl := ℕ) d
  rw [Pipeline.ownSems0_none] at hss
  have hsb := Pipeline.scopedBufs_split cfgs (0 : Fin 2) winFacts2.stage_scoped winFacts2.stage_inj stage_whole2 d
    (τ := τ) (Ix := HIx 2) (Val := Elt F) (Name := ℕ) (U := U) (Lvl := ℕ)
  have harr := Pipeline.arrays_eq cfgs (dats0 (U := U) V W₀ out) (0 : Fin 2) d arr_whole2 (share2 V W₀ out d)
  iintro ⟨Hb, Harr, HO, Hg, Ht, Hk⟩
  -- the program: the lifted region, then the continuation
  rw [show (Prog.op (TpuEff.customCall (SparseCore.inner (Pipeline.entry (0 : Fin 2))) ()) k
        : Prog (TpuEff nD τ sig (Elt F) (SparseCore.Sig (Pipeline.Sig Λ₀ (Fin 2) fun p => (pcfgs (F := F) p).Adm) 2) .tc) α)
      = (SparseCore.liftProg (Prog.op (TpuEff.customCall (Pipeline.entry (0 : Fin 2)) ()) fun _ => Prog.ret PUnit.unit) >>= k) from rfl,
    wp_bind]
  iapply ((sc (F := F)).wp_liftProg (Pipeline.defs (pcfgs (F := F)) (defs₀ (F := F))) 𝒱 (T d) Set.univ none _ _)
  ihave Hb' := (show (boundary (T d) : sProp 𝕄) ⊢ iprop(scopedBufs (T d) ∗ scopedSems0 (T d) ∗ opIdle (T d)) from BI.Entails.refl _) $$ Hb
  icases Hb' with ⟨Hsc, Hss, Hidl⟩
  ihave Hss' := (Entails.of_eq hss) $$ Hss
  icases Hss' with ⟨⟨Hcells, -⟩, Hidle⟩
  -- the staging cells' invariants, from their counters at zero and the launch ghost state
  iapply (fupd_wp frame (wpE (Pipeline.defs (pcfgs (F := F)) (defs₀ (F := F))) 𝒱 (T d) none) Set.univ _ _)
  imod (Pipeline.cellsInit_alloc cfgs (dats0 (U := U) V W₀ out) ER cellOf_inj (0 : Fin 2) d) $$ [Hcells Hg] with ⟨%κ, -, Hinit⟩
  · isplitl [Hcells] <;> iassumption
  imodintro
  -- the region
  iapply (Pipeline.wp_customCall_entry_frame (pcfgs (F := F)) (fun p => (cfgs p).toPCfg_adm) (dats0 (U := U) V W₀ out) none ER κ cellOf_inj (0 : Fin 2)
      (defs₀ (F := F)) Variants.none (fun j => j.elim0) d Set.univ (fun _ _ => Set.mem_univ _)
      (hbody d).loose block_pos2 none (fun u h => nomatch h)
      (X := iprop(emp)) (Y := iprop(emp)) (R := Pipeline.scopedRest spec2 d)
      (I := Pipeline.idleSems0 (Ix := HIx 2) (Val := Elt F) (Name := ℕ) (U := U) (Lvl := ℕ) cfgs cellOf_inj (0 : Fin 2) (Pipeline.OwnSemFacts.none spec2) d)
      (Entails.of_eq hsb)
      (by rw [Φ0]; iintro ⟨-, -, HR⟩; iexact HR)
      (by
        rw [hss, hsb, Φ0]
        iintro ⟨HΦ, Hcells, Hst, Hidle⟩
        isplitr; · iempintro
        isplitl [Hcells Hidle]
        · isplitl [Hcells]
          · isplitl [Hcells]; · iexact Hcells
            iempintro
          iexact Hidle
        isplitl [Hst]; · iexact Hst
        iexact HΦ)
      (k := fun _ => Prog.ret PUnit.unit)
      (Q := fun a => wp frame (wpE (defs (F := F)) 𝒱 (T d) none) Set.univ (k a) Q)) $$ [Harr HO Hinit Ht Hidle Hsc]
  · isplitl [Harr HO Hinit Ht]
    · unfold Pipeline.EntryPre Pipeline.PerCore.EntryPre
      isplitl [Harr]
      · rw [harr]; iexact Harr
      isplitl [HO]
      · unfold Dat.owesAt Pipeline.owesWithin
        rw [owed0, bound0]
        iexists (W₀ d)
        isplitr; · ipureintro; exact Set.subset_union_left
        iexact HO
      isplitr
      · iapply (Pipeline.cellsWaits_of_owed_zero cfgs (dats0 (U := U) V W₀ out) none (0 : Fin 2) d (fun _ => rfl)); iempintro
      isplitl [Hinit]; · iexact Hinit
      iexact Ht
    isplitr; · iapply (prefHeld_none0 (U := U) d _); iempintro
    isplitr; · iempintro
    isplitl [Hidle]; · iexact Hidle
    iexact Hsc
  -- after the region: the boundary reassembled, the arrays and what the thread owes handed on
  iintro ⟨Hpost, -, Hss2, Hsc2⟩
  rw [wp_ret]
  imodintro
  iapply Hk
  isplitl [Hsc2 Hss2 Hidl]
  · unfold boundary
    isplitl [Hsc2]; · iexact Hsc2
    isplitl [Hss2]; · iexact Hss2
    iexact Hidl
  unfold Pipeline.EntryPost Pipeline.PerCore.EntryPost
  icases Hpost with ⟨Ha, HO⟩
  isplitl [Ha]
  · ihave Ha' := (Entails.of_eq (harr _)) $$ Ha
    iexact Ha'
  iexact HO

end Cert.Proof.Tc2K

end
-- ==== Proof.TcOblig2K.lean ====
/-
  The body of the first TensorCore kernel over the CONTENTS its staging memrefs read: what a pipeline's body obligation
  hands the body (`owns c M q X`: the memref reads `X`) against what the run is stated over (the raw contents of the
  buffer behind it).  For a whole memref the two determine each other, so the output block's contents after the body
  are one function `out2` of what the four input memrefs read.
-/
import proofs.«202673_g7318624272670_cont_9to1c4b_526_24_alg».proof.Proof.TcBody2K
import proofs.«202673_g7318624272670_cont_9to1c4b_526_24_alg».proof.Proof.TcRegion2K
import Idealize.ShloMosaic.Lib.Pipeline.Frame

noncomputable section

namespace Cert.Proof.Tc2K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- What the output memref `M5` reads after the body, from what the four input memrefs read. -/
noncomputable def out2 (c : Dev nD) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) : Vec F S3341x512 .f32 :=
  M5.view.read (Elt F) (bodyRun (F := F) (U := U) c i M1 h1 M2 h2 M3 h3 M4 h4 M5 h5 (h1.unread x1) (h2.unread x2) (h3.unread x3) (h4.unread x4)).1

/-- A whole memref owned at what it reads is its buffer held whole at the raw contents that read it. -/
theorem owns_unread {c : Dev nD} {sp : Space} {S : Shape} {e : EltTy} {M : Memref sig .tc sp S e} (h : M.IsWhole) (X : S.Idx → Elt F e) :
    (owns (c : Thread nD τ) M fullShare X : sProp 𝕄) ⊣⊢ pt c M (h.unread X) := by
  constructor
  · unfold owns
    iintro ⟨%f, %hf, H⟩
    obtain rfl := h.eq_unread hf
    rw [h.set_eq_univ]; iexact H
  · unfold owns
    iintro H
    iexists (h.unread X)
    isplitr; · ipureintro; exact h.read_unread X
    rw [h.set_eq_univ]; iexact H

/-- The body on whole staging memrefs that read `x1 … x4` (the output's reading anything) runs to the continuation holding the
    inputs as they were and the output's memref reading `out2` of them. -/
theorem sound_body2 (c : Dev nD) (E : Set ℕ) (i : grid2.Coords)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ (∃ d, owns (c : Thread nD τ) M5 fullShare d)
        ∗ (iprop(owns (c : Thread nD τ) M1 fullShare x1 ∗ owns (c : Thread nD τ) M2 fullShare x2 ∗ owns (c : Thread nD τ) M3 fullShare x3
              ∗ owns (c : Thread nD τ) M4 fullShare x4
              ∗ owns (c : Thread nD τ) M5 fullShare (out2 (U := U) c i M1 h1 M2 h2 M3 h3 M4 h4 M5 h5 x1 x2 x3 x4)) -∗ K ⟨⟩))
      ⊢ wp frame (wpE (defs₀ (F := F)) Variants.none c none) E (cc2_body i M1 h1 M2 h2 M3 h3 M4 h4 M5 h5) K := by
  iintro ⟨H1, H2, H3, H4, ⟨%d5, H5⟩, Hk⟩
  ihave H1 := (owns_unread (U := U) h1 x1).1 $$ H1
  ihave H2 := (owns_unread (U := U) h2 x2).1 $$ H2
  ihave H3 := (owns_unread (U := U) h3 x3).1 $$ H3
  ihave H4 := (owns_unread (U := U) h4 x4).1 $$ H4
  ihave H5 := (owns_unread (U := U) h5 d5).1 $$ H5
  iapply ((bodyRun (F := F) (U := U) c i M1 h1 M2 h2 M3 h3 M4 h4 M5 h5 (h1.unread x1) (h2.unread x2) (h3.unread x3) (h4.unread x4)).2 (h5.unread d5) E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]; · iapply (owns_unread (U := U) h1 x1).2; iexact H1
  isplitl [H2]; · iapply (owns_unread (U := U) h2 x2).2; iexact H2
  isplitl [H3]; · iapply (owns_unread (U := U) h3 x3).2; iexact H3
  isplitl [H4]; · iapply (owns_unread (U := U) h4 x4).2; iexact H4
  unfold out2 owns
  iexists _
  isplitr; · ipureintro; rfl
  rw [h5.set_eq_univ]; iexact H5

/-! ## The body obligation of pipeline 0, at a generic point -/

variable (V : (c : Dev nD) → (b : Ref sig .tc) → Buf (Elt F) ((c : Thread nD τ).loc b))
  (W₀ : Dev nD → Finset (SemLoc sig × HIx 2))

/-- What the result window's current staging buffer reads after the body at point `t`: `out2` of the four input windows' blocks
    there, on the staging memrefs the pipeline calls the body with. -/
noncomputable def outAt (c : Dev nD) (t : Fin cfg2.N) : (cfg2.win 4).block.Idx → Elt F (cfg2.win 4).elt :=
  out2 (U := U) c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (iblk2 V c 0 t) (iblk2 V c 1 t) (iblk2 V c 2 t) (iblk2 V c 3 t)

/-- The body at any point: the inputs' memrefs read their blocks, so `sound_body2` applies; the invariant and what the core owes
    pass through unread. -/
theorem sound_at (c : Dev nD) (t : Fin cfg2.N) :
    iprop((dat2 (U := U) V W₀ (outAt (U := U) V) c).Φ t.castSucc ∗ (dat2 (U := U) V W₀ (outAt (U := U) V) c).owesAt none t.castSucc
        ∗ (∃ d, owns (c : Thread nD τ) (st2_0 t) fullShare ((dat2 (U := U) V W₀ (outAt (U := U) V) c).before 0 t d))
        ∗ (∃ d, owns (c : Thread nD τ) (st2_1 t) fullShare ((dat2 (U := U) V W₀ (outAt (U := U) V) c).before 1 t d))
        ∗ (∃ d, owns (c : Thread nD τ) (st2_2 t) fullShare ((dat2 (U := U) V W₀ (outAt (U := U) V) c).before 2 t d))
        ∗ (∃ d, owns (c : Thread nD τ) (st2_3 t) fullShare ((dat2 (U := U) V W₀ (outAt (U := U) V) c).before 3 t d))
        ∗ (∃ d, owns (c : Thread nD τ) (st2_4 t) fullShare ((dat2 (U := U) V W₀ (outAt (U := U) V) c).before 4 t d)))
      ⊢ wp frame (wpE (defs₀ (F := F)) Variants.none c none) Set.univ (bodyAt2 t) (fun _ =>
          iprop((dat2 (U := U) V W₀ (outAt (U := U) V) c).Φ t.succ ∗ (dat2 (U := U) V W₀ (outAt (U := U) V) c).owesAt none t.succ
            ∗ owns (c : Thread nD τ) (st2_0 t) fullShare ((dat2 (U := U) V W₀ (outAt (U := U) V) c).after 0 t)
            ∗ owns (c : Thread nD τ) (st2_1 t) fullShare ((dat2 (U := U) V W₀ (outAt (U := U) V) c).after 1 t)
            ∗ owns (c : Thread nD τ) (st2_2 t) fullShare ((dat2 (U := U) V W₀ (outAt (U := U) V) c).after 2 t)
            ∗ owns (c : Thread nD τ) (st2_3 t) fullShare ((dat2 (U := U) V W₀ (outAt (U := U) V) c).after 3 t)
            ∗ owns (c : Thread nD τ) (st2_4 t) fullShare ((dat2 (U := U) V W₀ (outAt (U := U) V) c).after 4 t))) := by
  unfold bodyAt2
  simp only [before2_0, before2_1, before2_2, before2_3]
  rw [show (dat2 (U := U) V W₀ (outAt (U := U) V) c).Φ t.succ = (dat2 (U := U) V W₀ (outAt (U := U) V) c).Φ t.castSucc from rfl,
    show (dat2 (U := U) V W₀ (outAt (U := U) V) c).owesAt none t.succ = (dat2 (U := U) V W₀ (outAt (U := U) V) c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_body2 (U := U) c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- the obligation's program is the body table's row at the point; identifying it with the kernel function's call unfolds both
set_option maxRecDepth 200000 in
set_option maxHeartbeats 2000000 in
/-- The pipeline library's body obligation of pipeline 0, at every point. -/
theorem body_obligation2 (c : Dev nD) :
    BodyObligation (dat2 (U := U) V W₀ (outAt (U := U) V) c) (defs₀ (F := F)) Variants.none none Set.univ := fun t => by
  rw [bigSep_W2, bigSep_W2]
  exact sound_at V W₀ c t

/-! ## Region 0 as a step of @main, its body obligation discharged -/

/-- **Region 0 as a step of @main**: `region0` at the body's run.  The result array ends at
    `(dat2 V W₀ (outAt V) d).arrAt 4 cfg2.N`: the array as found, with the block of each of the sixteen points
    overwritten by `outAt V d t` — what the body leaves, a function of the four input arrays' blocks at `t`. -/
theorem region0_run (ER : Emb (UR sig nD τ) (MT nD τ sig (HIx 2) (Elt F) ℕ U ℕ))
    [ER.LandsIn (upEmb : UEmb _ (MT nD τ sig (HIx 2) (Elt F) ℕ U ℕ))] (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs2 d (fun w => V d (Pipeline.arrRef spec2 w))
        ∗ owes (T d) (0 : CellTallies nD τ sig (HIx 2)) (W₀ d)
        ∗ Pipeline.cellsGhost cfgs ER (0 : Fin 2) d ∗ Pipeline.toksInit cfgs ER (0 : Fin 2) d
        ∗ (iprop(boundary (T d) ∗ arrs2 d (fun w => (dat2 (U := U) V W₀ (outAt (U := U) V) d).arrAt w cfg2.N)
              ∗ (dat2 (U := U) V W₀ (outAt (U := U) V) d).owesAt none (Fin.last cfg2.N))
            -∗ wp frame (wpE (defs (F := F)) 𝒱 (T d) none) Set.univ (k ⟨⟩) Q))
      ⊢ wp frame (wpE (defs (F := F)) 𝒱 (T d) none) Set.univ (.op (.customCall (SparseCore.inner (Pipeline.entry (0 : Fin 2))) ()) k) Q :=
  region0 V W₀ (outAt (U := U) V) ER (body_obligation2 V W₀) d k Q

end Cert.Proof.Tc2K

end
-- ==== Proof.TcBody3K.lean ====
/-
  The second TensorCore kernel body (the assembly of the second half of the batch), run once at a symbolic grid point
  and on any five whole staging memrefs; its first operand, the result array of the first kernel left in HBM, is named
  by the body's signature and touched by no operation of it.

  The body reads, for each of the 26 embedding fields, 64 row groups of 8 × 128 out of the staged block of gathered
  rows (13312 × 128: row group j of field f sits at row (26 j + f) · 8), stacks them to 512 × 128, transposes to
  128 × 512 and stores the result at rows 128 f … 128 f + 127 of the staged output block (3341 × 512); it then stores,
  at rows 3328 … 3340, the thirteen dense features scaled by (x − mn) / (mx − mn), the bounds broadcast from 13 × 1.
  Every store is preceded by a load of the rectangle it overwrites, whose value is not used.  The 27 stored
  rectangles tile the output block, so what the block holds afterwards does not depend on what it held before: it is
  the witness the run finds, a term over the four input buffers' contents alone.
-/
import proofs.«202673_g7318624272670_cont_9to1c4b_526_24_alg».proof.Proof.Gen.Kernel.Skeleton
import Idealize.ShloMosaic.Lib.Tactic
import Idealize.ShloMosaic.Lib.SparseCore.Cells

noncomputable section

namespace Cert.Proof.Tc3K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]
variable {U : Type} [URA U]

local notation "𝕄" => MT nD τ sig (HIx 2) (Elt F) ℕ U ℕ

/-- Memref `M`'s buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the output block's buffer `M5`, as a term over the contents `f1 … f4` of the four input
    buffers (the gathered rows, the dense features, the two bounds), WITH the proof that from the five buffers held
    whole — the output's at anything — the body runs to its return handing the inputs back as they were and the
    output's buffer at that term. -/
noncomputable def bodyRun (c : Dev nD) (i : grid3.Coords)
    (M0 : Memref sig .tc .hbm S3341x16384 .f32) (h0 : M0.IsWhole)
    (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (f1 : Bf (F := F) c M1) (f2 : Bf (F := F) c M2) (f3 : Bf (F := F) c M3) (f4 : Bf (F := F) c M4) :
    { W : Bf (F := F) c M5 //
      ∀ (f5 : Bf (F := F) c M5) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 f4 ∗ pt c M5 W) -∗ Q ⟨⟩))
        ⊢ wp frame (wpE (defs₀ (F := F)) Variants.none c none) E (cc3_body i M0 h0 M1 h1 M2 h2 M3 h3 M4 h4 M5 h5) Q } := by
  refine ⟨?_, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.Proof.Tc3K

end
-- ==== Proof.TcRegion3K.lean ====
/-
  The second TensorCore kernel region of @main (the pipeline of custom call 3, pipeline 1) as ONE STEP of @main on the
  TensorCore, inside a program that also runs SparseCore calls.  Its result array is the buffer the host copied the first
  region's result into: the pipeline writes back the sixteen blocks of the second half of the columns and leaves the rest.

  The region is entered through the pipeline library's region rule.  What it needs of the thread at that line:
  the region boundary whole (the scoped buffers, among them the pipeline's eight staging buffers; the scoped
  semaphores at zero, among them its eight DMA semaphores; the idle operation slot), the five window arrays
  (the gathered rows of the second half, the slice of the dense features, the two bounds, the result) whole at the full share, that the
  thread owes nothing, and the rounds ghost state of the pipeline's eight staging cells with the duty tokens of the
  transfers its loop issues — dealt at launch (`Pipeline.fund_ghost`); the cells' invariants are allocated here,
  from the cells' counters at zero.  It hands back the boundary, the arrays at what the pipeline library computes
  from the proof data (the inputs unchanged, the result with the sixteen blocks written back), and the thread
  owing nothing, its recorded waits grown by the loop's own (on the staging semaphores, at index `none`).
-/
import proofs.«202673_g7318624272670_cont_9to1c4b_526_24_alg».proof.Proof.Gen.Kernel.Launch
import proofs.«202673_g7318624272670_cont_9to1c4b_526_24_alg».proof.Proof.Gen.Kernel.Points
import Idealize.ShloMosaic.Lib.SparseCore.Launch
import Idealize.ShloMosaic.Lib.Pipeline.FrameBody

noncomputable section

namespace Cert.Proof.Tc3K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- The variants every thread of the program runs under: the pipeline library's, over no kernel variant. -/
abbrev 𝒱 : Variants := Variants.lift Variants.none

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (W₀ : Dev nD → Finset (SemLoc sig × HIx 2))
  (out : (c : Dev nD) → Fin cfg3.N → (cfg3.win 4).block.Idx → Elt F (cfg3.win 4).elt)

/-- The proof data of the region on core `c`: the arrays as the region finds them; after the body each input's buffer at
    its block and the result's at `out c t`; the invariant the scoped buffers the pipeline does not stage; nothing owed,
    the waits recorded before the region within `W₀ c`; full shares. -/
def dat3 (c : Dev nD) : Dat τ (Elt F) (HIx 2) ℕ U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out c t
  Φ _ := Pipeline.scopedRest spec3 c
  q _ := fullShare
  owed _ := 0
  recorded _ := ↑(W₀ c)

/-- Proof data for the other pipeline, which this region does not run: only its type matters here. -/
def datIdle2 (c : Dev nD) : Dat τ (Elt F) (HIx 2) ℕ U ℕ cfg2 c where
  A w := V c (Pipeline.arrRef spec2 w)
  after _ _ := fun _ => Classical.arbitrary _
  Φ _ := iprop(emp)
  q _ := fullShare
  owed _ := 0

/-- The family the library's rules are stated over: this region's data at pipeline 1. -/
def dats1 : (p : Fin 2) → (c : Dev nD) → Dat τ (Elt F) (HIx 2) ℕ U ℕ (cfgs p) c
  | ⟨0, _⟩ => fun c => datIdle2 V c
  | ⟨1, _⟩ => fun c => dat3 V W₀ out c

theorem share3 (c : Dev nD) (w : Fin cfg3.W) : (dat3 (U := U) V W₀ out c).share w = fullShare := by
  unfold Dat.share; split <;> rfl

/-! ## What the proof data says, window by window -/

theorem A3 (c : Dev nD) (w : Fin cfg3.W) : (dat3 (U := U) V W₀ out c).A w = V c (Pipeline.arrRef spec3 w) := by dsimp only [dat3]
theorem after3_0 (c : Dev nD) (t : Fin cfg3.N) : (dat3 (U := U) V W₀ out c).after 0 t = iblk3 V c 0 t := by dsimp only [dat3]
theorem after3_1 (c : Dev nD) (t : Fin cfg3.N) : (dat3 (U := U) V W₀ out c).after 1 t = iblk3 V c 1 t := by dsimp only [dat3]
theorem after3_2 (c : Dev nD) (t : Fin cfg3.N) : (dat3 (U := U) V W₀ out c).after 2 t = iblk3 V c 2 t := by dsimp only [dat3]
theorem after3_3 (c : Dev nD) (t : Fin cfg3.N) : (dat3 (U := U) V W₀ out c).after 3 t = iblk3 V c 3 t := by dsimp only [dat3]
theorem after3_4 (c : Dev nD) (t : Fin cfg3.N) : (dat3 (U := U) V W₀ out c).after 4 t = out c t := by dsimp only [dat3]

/-- An input window's current staging buffer holds the array's block of the point, whether the pipeline fetched it there
    or not (the two bounds are fetched once: their block index never moves). -/
theorem before3_0 (c : Dev nD) (t : Fin cfg3.N) (d) : (dat3 (U := U) V W₀ out c).before 0 t d = iblk3 V c 0 t :=
  ((dat3 (U := U) V W₀ out c).before_in_eq_fetched 0 rfl (fun _ => rfl) (fun _ _ _ => rfl)
    (fun t => by rw [after3_0]; unfold Dat.blockOf iblk3; rw [A3]; try rfl) t d).trans
    (by unfold Dat.fetched Dat.blockOf iblk3; rw [A3]; try rfl)
theorem before3_1 (c : Dev nD) (t : Fin cfg3.N) (d) : (dat3 (U := U) V W₀ out c).before 1 t d = iblk3 V c 1 t :=
  ((dat3 (U := U) V W₀ out c).before_in_eq_fetched 1 rfl (fun _ => rfl) (fun _ _ _ => rfl)
    (fun t => by rw [after3_1]; unfold Dat.blockOf iblk3; rw [A3]; try rfl) t d).trans
    (by unfold Dat.fetched Dat.blockOf iblk3; rw [A3]; try rfl)
theorem before3_2 (c : Dev nD) (t : Fin cfg3.N) (d) : (dat3 (U := U) V W₀ out c).before 2 t d = iblk3 V c 2 t :=
  ((dat3 (U := U) V W₀ out c).before_in_eq_fetched 2 rfl (fun _ => rfl) (fun _ _ _ => rfl)
    (fun t => by rw [after3_2]; unfold Dat.blockOf iblk3; rw [A3]; try rfl) t d).trans
    (by unfold Dat.fetched Dat.blockOf iblk3; rw [A3]; try rfl)
theorem before3_3 (c : Dev nD) (t : Fin cfg3.N) (d) : (dat3 (U := U) V W₀ out c).before 3 t d = iblk3 V c 3 t :=
  ((dat3 (U := U) V W₀ out c).before_in_eq_fetched 3 rfl (fun _ => rfl) (fun _ _ _ => rfl)
    (fun t => by rw [after3_3]; unfold Dat.blockOf iblk3; rw [A3]; try rfl) t d).trans
    (by unfold Dat.fetched Dat.blockOf iblk3; rw [A3]; try rfl)

theorem Φ1 (c : Dev nD) (t) : (dats1 (U := U) V W₀ out (1 : Fin 2) c).Φ t = Pipeline.scopedRest spec3 c := rfl
theorem owed1 (c : Dev nD) (t) : (dats1 (U := U) V W₀ out (1 : Fin 2) c).owed t = 0 := rfl
theorem bound1 (c : Dev nD) (t) : (dats1 (U := U) V W₀ out (1 : Fin 2) c).bound none t = ↑(W₀ c) ∪ cfg3.waitPairs none := rfl

/-! ## The region as a step of @main -/

variable (ER : Emb (UR sig nD τ) (MT nD τ sig (HIx 2) (Elt F) ℕ U ℕ))
  [ER.LandsIn (upEmb : UEmb _ (MT nD τ sig (HIx 2) (Elt F) ℕ U ℕ))]

/-- The region's five arrays on core `c`, each whole at the full share, at contents `G`. -/
abbrev arrs3 (c : Dev nD) (G : (w : Fin cfg3.W) → Buf (Elt F) (((cfg3).spec w).arr.view.loc (c : Thread nD τ))) : sProp 𝕄 :=
  bigSep Finset.univ fun w : Fin cfg3.W => (((c : Thread nD τ).loc (Pipeline.arrRef (cfg3).spec w)) ↦{fullShare} G w : sProp 𝕄)

/-- The pipeline prefetches no table: nothing is held for it. -/
theorem prefHeld_none1 (c : Dev nD) (q) :
    (iprop(emp) : sProp 𝕄) ⊢ Pipeline.prefHeld ((pcfgs (F := F) (1 : Fin 2)).pre) c q ((cfgs (1 : Fin 2)).toPCfg_adm (Val := Elt F)).1 := by
  unfold Pipeline.prefHeld
  rw [Finset.univ_eq_empty, BI.bigSep_empty]
  exact BI.Entails.refl _

set_option backward.isDefEq.respectTransparency.types false in
/-- **Region 1 as a step of @main.**  From the region boundary, the five arrays as the region finds them, the thread owing
    nothing (its recorded waits `W₀ d`), and the pipeline's launch ghost state, the custom call of pipeline 1's entry
    runs and the continuation `k` goes on from the boundary, the arrays at the proof data's final contents and the
    thread owing nothing, its recorded waits within `W₀ d` and the loop's own. -/
theorem region1 (hbody : ∀ c, BodyObligation (dat3 (U := U) V W₀ out c) (defs₀ (F := F)) Variants.none none Set.univ)
    (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs3 d (fun w => V d (Pipeline.arrRef spec3 w))
        ∗ owes (T d) (0 : CellTallies nD τ sig (HIx 2)) (W₀ d)
        ∗ Pipeline.cellsGhost cfgs ER (1 : Fin 2) d ∗ Pipeline.toksInit cfgs ER (1 : Fin 2) d
        ∗ (iprop(boundary (T d) ∗ arrs3 d (fun w => (dat3 (U := U) V W₀ out d).arrAt w cfg3.N)
              ∗ (dat3 (U := U) V W₀ out d).owesAt none (Fin.last cfg3.N))
            -∗ wp frame (wpE (defs (F := F)) 𝒱 (T d) none) Set.univ (k ⟨⟩) Q))
      ⊢ wp frame (wpE (defs (F := F)) 𝒱 (T d) none) Set.univ (.op (.customCall (SparseCore.inner (Pipeline.entry (1 : Fin 2))) ()) k) Q := by
  classical
  have hss := Pipeline.scopedSems0_split cfgs cellOf_inj (1 : Fin 2) winFacts3.to₀ (Pipeline.OwnSemFacts.none spec3)
    (Ix := HIx 2) (Val := Elt F) (Name := ℕ) (U := U) (Lvl := ℕ) d
  rw [Pipeline.ownSems0_none] at hss
  have hsb := Pipeline.scopedBufs_split cfgs (1 : Fin 2) winFacts3.stage_scoped winFacts3.stage_inj stage_whole3 d
    (τ := τ) (Ix := HIx 2) (Val := Elt F) (Name := ℕ) (U := U) (Lvl := ℕ)
  have harr := Pipeline.arrays_eq cfgs (dats1 (U := U) V W₀ out) (1 : Fin 2) d arr_whole3 (share3 V W₀ out d)
  iintro ⟨Hb, Harr, HO, Hg, Ht, Hk⟩
  -- the program: the lifted region, then the continuation
  rw [show (Prog.op (TpuEff.customCall (SparseCore.inner (Pipeline.entry (1 : Fin 2))) ()) k
        : Prog (TpuEff nD τ sig (Elt F) (SparseCore.Sig (Pipeline.Sig Λ₀ (Fin 2) fun p => (pcfgs (F := F) p).Adm) 2) .tc) α)
      = (SparseCore.liftProg (Prog.op (TpuEff.customCall (Pipeline.entry (1 : Fin 2)) ()) fun _ => Prog.ret PUnit.unit) >>= k) from rfl,
    wp_bind]
  iapply ((sc (F := F)).wp_liftProg (Pipeline.defs (pcfgs (F := F)) (defs₀ (F := F))) 𝒱 (T d) Set.univ none _ _)
  ihave Hb' := (show (boundary (T d) : sProp 𝕄) ⊢ iprop(scopedBufs (T d) ∗ scopedSems0 (T d) ∗ opIdle (T d)) from BI.Entails.refl _) $$ Hb
  icases Hb' with ⟨Hsc, Hss, Hidl⟩
  ihave Hss' := (Entails.of_eq hss) $$ Hss
  icases Hss' with ⟨⟨Hcells, -⟩, Hidle⟩
  -- the staging cells' invariants, from their counters at zero and the launch ghost state
  iapply (fupd_wp frame (wpE (Pipeline.defs (pcfgs (F := F)) (defs₀ (F := F))) 𝒱 (T d) none) Set.univ _ _)
  imod (Pipeline.cellsInit_alloc cfgs (dats1 (U := U) V W₀ out) ER cellOf_inj (1 : Fin 2) d) $$ [Hcells Hg] with ⟨%κ, -, Hinit⟩
  · isplitl [Hcells] <;> iassumption
  imodintro
  -- the region
  iapply (Pipeline.wp_customCall_entry_frame (pcfgs (F := F)) (fun p => (cfgs p).toPCfg_adm) (dats1 (U := U) V W₀ out) none ER κ cellOf_inj (1 : Fin 2)
      (defs₀ (F := F)) Variants.none (fun j => j.elim0) d Set.univ (fun _ _ => Set.mem_univ _)
      (hbody d).loose block_pos3 none (fun u h => nomatch h)
      (X := iprop(emp)) (Y := iprop(emp)) (R := Pipeline.scopedRest spec3 d)
      (I := Pipeline.idleSems0 (Ix := HIx 2) (Val := Elt F) (Name := ℕ) (U := U) (Lvl := ℕ) cfgs cellOf_inj (1 : Fin 2) (Pipeline.OwnSemFacts.none spec3) d)
      (Entails.of_eq hsb)
      (by rw [Φ1]; iintro ⟨-, -, HR⟩; iexact HR)
      (by
        rw [hss, hsb, Φ1]
        iintro ⟨HΦ, Hcells, Hst, Hidle⟩
        isplitr; · iempintro
        isplitl [Hcells Hidle]
        · isplitl [Hcells]
          · isplitl [Hcells]; · iexact Hcells
            iempintro
          iexact Hidle
        isplitl [Hst]; · iexact Hst
        iexact HΦ)
      (k := fun _ => Prog.ret PUnit.unit)
      (Q := fun a => wp frame (wpE (defs (F := F)) 𝒱 (T d) none) Set.univ (k a) Q)) $$ [Harr HO Hinit Ht Hidle Hsc]
  · isplitl [Harr HO Hinit Ht]
    · unfold Pipeline.EntryPre Pipeline.PerCore.EntryPre
      isplitl [Harr]
      · rw [harr]; iexact Harr
      isplitl [HO]
      · unfold Dat.owesAt Pipeline.owesWithin
        rw [owed1, bound1]
        iexists (W₀ d)
        isplitr; · ipureintro; exact Set.subset_union_left
        iexact HO
      isplitr
      · iapply (Pipeline.cellsWaits_of_owed_zero cfgs (dats1 (U := U) V W₀ out) none (1 : Fin 2) d (fun _ => rfl)); iempintro
      isplitl [Hinit]; · iexact Hinit
      iexact Ht
    isplitr; · iapply (prefHeld_none1 (U := U) d _); iempintro
    isplitr; · iempintro
    isplitl [Hidle]; · iexact Hidle
    iexact Hsc
  -- after the region: the boundary reassembled, the arrays and what the thread owes handed on
  iintro ⟨Hpost, -, Hss2, Hsc2⟩
  rw [wp_ret]
  imodintro
  iapply Hk
  isplitl [Hsc2 Hss2 Hidl]
  · unfold boundary
    isplitl [Hsc2]; · iexact Hsc2
    isplitl [Hss2]; · iexact Hss2
    iexact Hidl
  unfold Pipeline.EntryPost Pipeline.PerCore.EntryPost
  icases Hpost with ⟨Ha, HO⟩
  isplitl [Ha]
  · ihave Ha' := (Entails.of_eq (harr _)) $$ Ha
    iexact Ha'
  iexact HO

end Cert.Proof.Tc3K

end
-- ==== Proof.TcOblig3K.lean ====
/-
  The body of the second TensorCore kernel over the CONTENTS its staging memrefs read: what a pipeline's body obligation
  hands the body (`owns c M q X`: the memref reads `X`) against what the run is stated over (the raw contents of the
  buffer behind it).  For a whole memref the two determine each other, so the output block's contents after the body
  are one function `out3` of what the four input memrefs read.
-/
import proofs.«202673_g7318624272670_cont_9to1c4b_526_24_alg».proof.Proof.TcBody3K
import proofs.«202673_g7318624272670_cont_9to1c4b_526_24_alg».proof.Proof.TcRegion3K
import Idealize.ShloMosaic.Lib.Pipeline.Frame

noncomputable section

namespace Cert.Proof.Tc3K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.SparseCore (T)
open Idealize.ShloMosaic.SparseCore.Cfg (HIx)

variable {F : FTy → Type} [FloatOps F]
variable {U : Type} [URA U]

local notation "𝕄" => MT nD τ sig (HIx 2) (Elt F) ℕ U ℕ

/-- What the output memref `M5` reads after the body, from what the four input memrefs read. -/
noncomputable def out3 (c : Dev nD) (i : grid3.Coords)
    (M0 : Memref sig .tc .hbm S3341x16384 .f32) (h0 : M0.IsWhole) (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) : Vec F S3341x512 .f32 :=
  M5.view.read (Elt F) (bodyRun (F := F) (U := U) c i M0 h0 M1 h1 M2 h2 M3 h3 M4 h4 M5 h5 (h1.unread x1) (h2.unread x2) (h3.unread x3) (h4.unread x4)).1

/-- A whole memref owned at what it reads is its buffer held whole at the raw contents that read it. -/
theorem owns_unread {c : Dev nD} {sp : Space} {S : Shape} {e : EltTy} {M : Memref sig .tc sp S e} (h : M.IsWhole) (X : S.Idx → Elt F e) :
    (owns (c : Thread nD τ) M fullShare X : sProp 𝕄) ⊣⊢ pt c M (h.unread X) := by
  constructor
  · unfold owns
    iintro ⟨%f, %hf, H⟩
    obtain rfl := h.eq_unread hf
    rw [h.set_eq_univ]; iexact H
  · unfold owns
    iintro H
    iexists (h.unread X)
    isplitr; · ipureintro; exact h.read_unread X
    rw [h.set_eq_univ]; iexact H

/-- The body on whole staging memrefs that read `x1 … x4` (the output's reading anything) runs to the continuation holding the
    inputs as they were and the output's memref reading `out3` of them. -/
theorem sound_body3 (c : Dev nD) (E : Set ℕ) (i : grid3.Coords)
    (M0 : Memref sig .tc .hbm S3341x16384 .f32) (h0 : M0.IsWhole) (M1 : Memref sig .tc .vmem S13312x128 .f32) (h1 : M1.IsWhole) (M2 : Memref sig .tc .vmem S13x512 .f32) (h2 : M2.IsWhole)
    (M3 : Memref sig .tc .vmem S13x1 .f32) (h3 : M3.IsWhole) (M4 : Memref sig .tc .vmem S13x1 .f32) (h4 : M4.IsWhole)
    (M5 : Memref sig .tc .vmem S3341x512 .f32) (h5 : M5.IsWhole)
    (x1 : Vec F S13312x128 .f32) (x2 : Vec F S13x512 .f32) (x3 : Vec F S13x1 .f32) (x4 : Vec F S13x1 .f32) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ (∃ d, owns (c : Thread nD τ) M5 fullShare d)
        ∗ (iprop(owns (c : Thread nD τ) M1 fullShare x1 ∗ owns (c : Thread nD τ) M2 fullShare x2 ∗ owns (c : Thread nD τ) M3 fullShare x3
              ∗ owns (c : Thread nD τ) M4 fullShare x4
              ∗ owns (c : Thread nD τ) M5 fullShare (out3 (U := U) c i M0 h0 M1 h1 M2 h2 M3 h3 M4 h4 M5 h5 x1 x2 x3 x4)) -∗ K ⟨⟩))
      ⊢ wp frame (wpE (defs₀ (F := F)) Variants.none c none) E (cc3_body i M0 h0 M1 h1 M2 h2 M3 h3 M4 h4 M5 h5) K := by
  iintro ⟨H1, H2, H3, H4, ⟨%d5, H5⟩, Hk⟩
  ihave H1 := (owns_unread (U := U) h1 x1).1 $$ H1
  ihave H2 := (owns_unread (U := U) h2 x2).1 $$ H2
  ihave H3 := (owns_unread (U := U) h3 x3).1 $$ H3
  ihave H4 := (owns_unread (U := U) h4 x4).1 $$ H4
  ihave H5 := (owns_unread (U := U) h5 d5).1 $$ H5
  iapply ((bodyRun (F := F) (U := U) c i M0 h0 M1 h1 M2 h2 M3 h3 M4 h4 M5 h5 (h1.unread x1) (h2.unread x2) (h3.unread x3) (h4.unread x4)).2 (h5.unread d5) E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]; · iapply (owns_unread (U := U) h1 x1).2; iexact H1
  isplitl [H2]; · iapply (owns_unread (U := U) h2 x2).2; iexact H2
  isplitl [H3]; · iapply (owns_unread (U := U) h3 x3).2; iexact H3
  isplitl [H4]; · iapply (owns_unread (U := U) h4 x4).2; iexact H4
  unfold out3 owns
  iexists _
  isplitr; · ipureintro; rfl
  rw [h5.set_eq_univ]; iexact H5

/-! ## The body obligation of pipeline 1, at a generic point -/

variable (V : (c : Dev nD) → (b : Ref sig .tc) → Buf (Elt F) ((c : Thread nD τ).loc b))
  (W₀ : Dev nD → Finset (SemLoc sig × HIx 2))

/-- What the result window's current staging buffer reads after the body at point `t`: `out3` of the four input windows' blocks
    there, on the staging memrefs the pipeline calls the body with. -/
noncomputable def outAt (c : Dev nD) (t : Fin cfg3.N) : (cfg3.win 4).block.Idx → Elt F (cfg3.win 4).elt :=
  out3 (U := U) c (grid3.coords t) (Memref.whole main_v11) (Memref.isWhole_whole _) (win3_0.stage (cfg3.slots t 0)) (hstage3_0 ((cfg3.slots t 0).cast nbuf3_0))
    (win3_1.stage (cfg3.slots t 1)) (hstage3_1 ((cfg3.slots t 1).cast nbuf3_1)) (win3_2.stage (cfg3.slots t 2)) (hstage3_2 ((cfg3.slots t 2).cast nbuf3_2))
    (win3_3.stage (cfg3.slots t 3)) (hstage3_3 ((cfg3.slots t 3).cast nbuf3_3)) (win3_4.stage (cfg3.slots t 4)) (hstage3_4 ((cfg3.slots t 4).cast nbuf3_4))
    (iblk3 V c 0 t) (iblk3 V c 1 t) (iblk3 V c 2 t) (iblk3 V c 3 t)

/-- The body at any point: the inputs' memrefs read their blocks, so `sound_body3` applies; the invariant and what the core owes
    pass through unread. -/
theorem sound_at (c : Dev nD) (t : Fin cfg3.N) :
    iprop((dat3 (U := U) V W₀ (outAt (U := U) V) c).Φ t.castSucc ∗ (dat3 (U := U) V W₀ (outAt (U := U) V) c).owesAt none t.castSucc
        ∗ (∃ d, owns (c : Thread nD τ) (st3_0 t) fullShare ((dat3 (U := U) V W₀ (outAt (U := U) V) c).before 0 t d))
        ∗ (∃ d, owns (c : Thread nD τ) (st3_1 t) fullShare ((dat3 (U := U) V W₀ (outAt (U := U) V) c).before 1 t d))
        ∗ (∃ d, owns (c : Thread nD τ) (st3_2 t) fullShare ((dat3 (U := U) V W₀ (outAt (U := U) V) c).before 2 t d))
        ∗ (∃ d, owns (c : Thread nD τ) (st3_3 t) fullShare ((dat3 (U := U) V W₀ (outAt (U := U) V) c).before 3 t d))
        ∗ (∃ d, owns (c : Thread nD τ) (st3_4 t) fullShare ((dat3 (U := U) V W₀ (outAt (U := U) V) c).before 4 t d)))
      ⊢ wp frame (wpE (defs₀ (F := F)) Variants.none c none) Set.univ (bodyAt3 t) (fun _ =>
          iprop((dat3 (U := U) V W₀ (outAt (U := U) V) c).Φ t.succ ∗ (dat3 (U := U) V W₀ (outAt (U := U) V) c).owesAt none t.succ
            ∗ owns (c : Thread nD τ) (st3_0 t) fullShare ((dat3 (U := U) V W₀ (outAt (U := U) V) c).after 0 t)
            ∗ owns (c : Thread nD τ) (st3_1 t) fullShare ((dat3 (U := U) V W₀ (outAt (U := U) V) c).after 1 t)
            ∗ owns (c : Thread nD τ) (st3_2 t) fullShare ((dat3 (U := U) V W₀ (outAt (U := U) V) c).after 2 t)
            ∗ owns (c : Thread nD τ) (st3_3 t) fullShare ((dat3 (U := U) V W₀ (outAt (U := U) V) c).after 3 t)
            ∗ owns (c : Thread nD τ) (st3_4 t) fullShare ((dat3 (U := U) V W₀ (outAt (U := U) V) c).after 4 t))) := by
  unfold bodyAt3
  simp only [before3_0, before3_1, before3_2, before3_3]
  rw [show (dat3 (U := U) V W₀ (outAt (U := U) V) c).Φ t.succ = (dat3 (U := U) V W₀ (outAt (U := U) V) c).Φ t.castSucc from rfl,
    show (dat3 (U := U) V W₀ (outAt (U := U) V) c).owesAt none t.succ = (dat3 (U := U) V W₀ (outAt (U := U) V) c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_body3 (U := U) c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- the obligation's program is the body table's row at the point; identifying it with the kernel function's call unfolds both
set_option maxRecDepth 200000 in
set_option maxHeartbeats 2000000 in
/-- The pipeline library's body obligation of pipeline 1, at every point. -/
theorem body_obligation3 (c : Dev nD) :
    BodyObligation (dat3 (U := U) V W₀ (outAt (U := U) V) c) (defs₀ (F := F)) Variants.none none Set.univ := fun t => by
  rw [bigSep_W3, bigSep_W3]
  exact sound_at V W₀ c t

/-! ## Region 1 as a step of @main, its body obligation discharged -/

/-- **Region 1 as a step of @main**: `region1` at the body's run.  The result array ends at
    `(dat3 V W₀ (outAt V) d).arrAt 4 cfg3.N`: the array as found, with the block of each of the sixteen points
    overwritten by `outAt V d t` — what the body leaves, a function of the four input arrays' blocks at `t`. -/
theorem region1_run (ER : Emb (UR sig nD τ) (MT nD τ sig (HIx 2) (Elt F) ℕ U ℕ))
    [ER.LandsIn (upEmb : UEmb _ (MT nD τ sig (HIx 2) (Elt F) ℕ U ℕ))] (d : Dev nD) {α : Type}
    (k : PUnit → Prog (TpuEff nD τ sig (Elt F) (SparseCore.Sig (Pipeline.Sig Λ₀ (Fin 2) fun p => (pcfgs (F := F) p).Adm) 2) .tc) α)
    (Q : α → sProp 𝕄) :
    iprop(boundary (T d)
        ∗ arrs3 d (fun w => V d (Pipeline.arrRef spec3 w))
        ∗ owes (T d) (0 : CellTallies nD τ sig (HIx 2)) (W₀ d)
        ∗ Pipeline.cellsGhost cfgs ER (1 : Fin 2) d ∗ Pipeline.toksInit cfgs ER (1 : Fin 2) d
        ∗ (iprop(boundary (T d) ∗ arrs3 d (fun w => (dat3 (U := U) V W₀ (outAt (U := U) V) d).arrAt w cfg3.N)
              ∗ (dat3 (U := U) V W₀ (outAt (U := U) V) d).owesAt none (Fin.last cfg3.N))
            -∗ wp frame (wpE (defs (F := F)) 𝒱 (T d) none) Set.univ (k ⟨⟩) Q))
      ⊢ wp frame (wpE (defs (F := F)) 𝒱 (T d) none) Set.univ (.op (.customCall (SparseCore.inner (Pipeline.entry (1 : Fin 2))) ()) k) Q :=
  region1 V W₀ (outAt (U := U) V) ER (body_obligation3 V W₀) d k Q

end Cert.Proof.Tc3K

end
-- ==== Proof.ScPayK.lean ====
/-
  What the two SparseCore calls' handshakes carry (idealized kernel): each task is handed, and hands back unchanged, its
  read tokens of the embedding table, its words of the call's index list and its rows of the call's gathered array; a
  SparseCore's operands are its sixteen tasks' together, so nothing is split at the sequencer.
-/
import proofs.«202673_g7318624272670_cont_9to1c4b_526_24_alg».proof.Proof.ScResK0
import proofs.«202673_g7318624272670_cont_9to1c4b_526_24_alg».proof.Proof.ScResK1
import proofs.«202673_g7318624272670_cont_9to1c4b_526_24_alg».proof.Proof.TcOblig2K
import proofs.«202673_g7318624272670_cont_9to1c4b_526_24_alg».proof.Proof.TcOblig3K

noncomputable section

namespace Cert.Proof.ScK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

/-! ## What the handshakes carry -/

theorem nCore0 : (K (F := F)).nCore 0 = grid0.bound 0 := rfl
theorem nSub0 : (K (F := F)).nSub 0 = grid0.bound 1 := rfl
theorem nCore1 : (K (F := F)).nCore 1 = grid1.bound 0 := rfl
theorem nSub1 : (K (F := F)).nSub 1 = grid1.bound 1 := rfl

/-- The read share of the embedding table task `(c, i)` is handed (32 pairwise independent shares of the whole). -/
abbrev qT (c i : ℕ) : PosShare TreeShare := Transfers.shareTokN fullShare (16 * c + i)

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

/-- What a task of either call is handed, and hands back: its read tokens of the table, its words of the call's index list,
    its rows of the call's gathered array (at some contents). -/
def goRes (q : Fin 2) (d : Dev nD) (c : Fin ((K (F := F)).nCore q)) (i : Fin ((K (F := F)).nSub q)) : sProp 𝕄 :=
  match q with
  | 0 => ScK0.tileRes d (ScK0.coordsV (Fin.cast nCore0 c) (Fin.cast nSub0 i)) (qT c.val i.val) (Tb d) (Iv0 d)
  | 1 => ScK1.tileRes d (ScK1.coordsV (Fin.cast nCore1 c) (Fin.cast nSub1 i)) (qT c.val i.val) (Tb d) (Iv1 d)

/-- The handshakes' payloads: a SparseCore's operands are its sixteen tasks' together, both ways. -/
def P : (K (F := F)).Pay (nD := nD) (Val := Elt F) (Name := ℕ) (U := UU) where
  st := fun q d c => bigSep Finset.univ fun i => goRes Tb Iv0 Iv1 q d c i
  dn := fun q d c => bigSep Finset.univ fun i => goRes Tb Iv0 Iv1 q d c i
  go := fun q d c i => goRes Tb Iv0 Iv1 q d c i
  td := fun q d c i => goRes Tb Iv0 Iv1 q d c i
  x := fun _ _ => iprop(emp)

set_option synthInstance.maxHeartbeats 1000000 in
set_option maxHeartbeats 1000000 in
instance goRes_storable (q : Fin 2) (d : Dev nD) (c) (i) : BI.Storable (upEmb : UEmb _ 𝕄) (goRes Tb Iv0 Iv1 q d c i) := by
  match q, c, i with
  | 0, c, i =>
    show BI.Storable _ (ScK0.tileRes d (ScK0.coordsV (Fin.cast nCore0 c) (Fin.cast nSub0 i)) (qT c.val i.val) (Tb d) (Iv0 d))
    unfold ScK0.tileRes ScK0.chunkRow; infer_instance
  | 1, c, i =>
    show BI.Storable _ (ScK1.tileRes d (ScK1.coordsV (Fin.cast nCore1 c) (Fin.cast nSub1 i)) (qT c.val i.val) (Tb d) (Iv1 d))
    unfold ScK1.tileRes ScK1.chunkRow; infer_instance

instance P_storable : (P (F := F) Tb Iv0 Iv1).IsStorable where
  st _ d c := by unfold P; infer_instance
  dn _ d c := by unfold P; infer_instance
  go _ _ _ _ := by unfold P; infer_instance
  td _ _ _ _ := by unfold P; infer_instance

/-- A SparseCore's operands ARE its tasks' operands: nothing to split. -/
theorem vecSplit (q : Fin 2) : (K (F := F)).VecSplit' (P Tb Iv0 Iv1) q := by
  intro d c
  show (bigSep Finset.univ fun i => goRes Tb Iv0 Iv1 q d c i) ⊢ |={Set.univ}=> iprop(
      (bigSep Finset.univ fun i => goRes Tb Iv0 Iv1 q d c i)
      ∗ ((bigSep Finset.univ fun i => goRes Tb Iv0 Iv1 q d c i) -∗ (bigSep Finset.univ fun i => goRes Tb Iv0 Iv1 q d c i)))
  iintro H; imodintro
  isplitl [H]; · iexact H
  iintro H; iexact H

end Cert.Proof.ScK

end
-- ==== Proof.ScMainK.lean ====
/-
  @main on the TensorCore of the idealized kernel's program, step by step, between the launch's deal and the claim's post.
  The TensorCore's unscoped buffers are held as one set at a valuation that each host operation advances; the two
  SparseCore calls and the two TensorCore regions take their arrays out of the set and put them back, the written one at
  what the step left.
-/
import proofs.«202673_g7318624272670_cont_9to1c4b_526_24_alg».proof.Proof.ScPayK
import Idealize.ShloMosaic.Lib.Pipeline.Frame

noncomputable section

namespace Cert.Proof.ScK

open Cert.Kernel
open Cert.Kernel.Shapes2.Facts₀ Cert.Kernel.Shapes1.Facts₀

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 2) (Elt F) ℕ UU ℕ

/-! ## The host operations of @main, as the program writes them -/

abbrev op0 : HloOp τ sig (Elt F) := StableHlo.reshape main_arg2 main_v0 rfl shapeCasts_S26x1000x128_S26000x128
abbrev op1 : HloOp τ sig (Elt F) := StableHlo.unary main_arg1 main_v1 ((transpose S13x16384 [1, 0] · transposes_S16384x13_S13x16384_1_0) : (⟨S16384x13, .f32⟩ : BufTy).Contents (Elt F) → (⟨S13x16384, .f32⟩ : BufTy).Contents (Elt F))
abbrev op2 : HloOp τ sig (Elt F) := StableHlo.reshape main_arg3 main_v2 rfl shapeCasts_S13_S13x1
abbrev op3 : HloOp τ sig (Elt F) := StableHlo.reshape main_arg4 main_v3 rfl shapeCasts_S13_S13x1
abbrev op4 : HloOp τ sig (Elt F) := StableHlo.unary main_arg0 main_v4 ((extractStridedSlice S8192x26 ![0, 0] · slices_S16384x26_S8192x26_0_0) : (⟨S16384x26, .i32⟩ : BufTy).Contents (Elt F) → (⟨S8192x26, .i32⟩ : BufTy).Contents (Elt F))
abbrev op5 : HloOp τ sig (Elt F) := StableHlo.reshape main_v4 main_v5 rfl shapeCasts_S8192x26_S212992
abbrev op6 : HloOp τ sig (Elt F) := StableHlo.unary main_arg0 main_v7 ((extractStridedSlice S8192x26 ![8192, 0] · slices_S16384x26_S8192x26_8192_0) : (⟨S16384x26, .i32⟩ : BufTy).Contents (Elt F) → (⟨S8192x26, .i32⟩ : BufTy).Contents (Elt F))
abbrev op7 : HloOp τ sig (Elt F) := StableHlo.reshape main_v7 main_v8 rfl shapeCasts_S8192x26_S212992
abbrev op8 : HloOp τ sig (Elt F) := StableHlo.unary main_v1 main_v10 ((extractStridedSlice S13x8192 ![0, 0] · slices_S13x16384_S13x8192_0_0) : (⟨S13x16384, .f32⟩ : BufTy).Contents (Elt F) → (⟨S13x8192, .f32⟩ : BufTy).Contents (Elt F))
abbrev op9 : HloOp τ sig (Elt F) := StableHlo.unary main_v1 main_v12 ((extractStridedSlice S13x8192 ![0, 8192] · slices_S13x16384_S13x8192_0_8192) : (⟨S13x16384, .f32⟩ : BufTy).Contents (Elt F) → (⟨S13x8192, .f32⟩ : BufTy).Contents (Elt F))
abbrev op10 : HloOp τ sig (Elt F) := StableHlo.unary main_v11 main_v13 id
abbrev op11 : HloOp τ sig (Elt F) := StableHlo.unary main_v13 main_v14 ((transpose S16384x3341 [1, 0] · transposes_S3341x16384_S16384x3341_1_0) : (⟨S3341x16384, .f32⟩ : BufTy).Contents (Elt F) → (⟨S16384x3341, .f32⟩ : BufTy).Contents (Elt F))

/-- A TensorCore reference as a device buffer. -/
abbrev r (b : Ref sig .tc) : DevRef τ sig := Proc.devRef .tc b

/-- The TensorCore's unscoped buffers: what @main's host operations run within. -/
abbrev SS : Finset (DevRef τ sig) := Pipeline.ucRefs τ sig

variable (m : (ℓ : Loc nD τ sig) → Buf (Elt F) ℓ) (ρ : Dev nD → PrngReg)

/-- The launch valuation of device `d`. -/
def W0 (d : Dev nD) : Valuation τ sig (Elt F) := fun b => m (d, b)

/-- An operation on two TensorCore references touches TensorCore buffers only. -/
theorem sub2 (x y : Ref sig .tc) :
    ({Proc.devRef (.tc : Proc τ) x, Proc.devRef (.tc : Proc τ) y} : Finset (DevRef τ sig)) ⊆ StableHlo.tcRefs τ sig :=
  Finset.insert_subset (StableHlo.devRef_mem_tcRefs x) (Finset.singleton_subset_iff.mpr (StableHlo.devRef_mem_tcRefs y))

/-! ## The valuations along @main -/

/-- After the six host operations before the first gather call. -/
abbrev W6 (d : Dev nD) : Valuation τ sig (Elt F) :=
  (op5 (F := F)).result ((op4 (F := F)).result ((op3 (F := F)).result ((op2 (F := F)).result ((op1 (F := F)).result ((op0 (F := F)).result (W0 m d))))))
/-- After the first call (the gathered array at what the call left) and the two host operations before the second. -/
abbrev W9 (d : Dev nD) (f6 : Buf (Elt F) ((SparseCore.T d : Thread nD τ).loc main_v6)) : Valuation τ sig (Elt F) :=
  (op7 (F := F)).result ((op6 (F := F)).result (Function.update (W6 m d) (r main_v6) f6))
/-- After the second call and the slice of the dense features for the first region. -/
abbrev W11 (d : Dev nD) (f6 : Buf (Elt F) ((SparseCore.T d : Thread nD τ).loc main_v6)) (f9 : Buf (Elt F) ((SparseCore.T d : Thread nD τ).loc main_v9)) :
    Valuation τ sig (Elt F) :=
  (op8 (F := F)).result (Function.update (W9 m d f6) (r main_v9) f9)

/-- The embedding table as the tasks read it, and the two calls' index lists: what the host operations before each call
    leave in `main_v0`, `main_v5`, `main_v8` (the second call's computed from the launch contents alone). -/
def Tb (d : Dev nD) : Buf (Elt F) ((SparseCore.T d : Thread nD τ).loc main_v0) := W6 m d (r main_v0)
def Iv0 (d : Dev nD) : Buf (Elt F) ((SparseCore.T d : Thread nD τ).loc main_v5) := W6 m d (r main_v5)
def Iv1 (d : Dev nD) : Buf (Elt F) ((SparseCore.T d : Thread nD τ).loc main_v8) :=
  (op7 (F := F)).result ((op6 (F := F)).result (W6 m d)) (r main_v8)

/-- The handshakes' payloads at those contents. -/
abbrev PP : (K (F := F)).Pay (nD := nD) (Val := Elt F) (Name := ℕ) (U := UU) := P (Tb m) (Iv0 m) (Iv1 m)

/-- What the launch element deals @main for the two TensorCore regions: each pipeline's staging cells' ghost state and
    the duty tokens of its loop's transfers. -/
def Gd (d : Dev nD) : sProp 𝕄 :=
  iprop(Pipeline.cellsGhost cfgs ER (0 : Fin 2) d ∗ Pipeline.toksInit cfgs ER (0 : Fin 2) d
    ∗ Pipeline.cellsGhost cfgs ER (1 : Fin 2) d ∗ Pipeline.toksInit cfgs ER (1 : Fin 2) d)

/-- The three arrays a gather call moves: the table, the call's index list, the call's gathered rows. -/
abbrev T0 : Finset (DevRef τ sig) := {r main_v0, r main_v5, r main_v6}
abbrev T1 : Finset (DevRef τ sig) := {r main_v0, r main_v8, r main_v9}

theorem hT0 : T0 ⊆ SS := by decide
theorem hT1 : T1 ⊆ SS := by decide

theorem held_T0 (c : Thread nD τ) (W : Valuation τ sig (Elt F)) :
    (held c T0 W : sProp 𝕄) = iprop(((c.1, r main_v0) ↦{fullShare} W (r main_v0)) ∗ ((c.1, r main_v5) ↦{fullShare} W (r main_v5))
      ∗ ((c.1, r main_v6) ↦{fullShare} W (r main_v6))) := by
  unfold held T0
  rw [SparseCore.bigSep_insert' (by decide), SparseCore.bigSep_insert' (by decide), bigSep_singleton]
theorem held_T1 (c : Thread nD τ) (W : Valuation τ sig (Elt F)) :
    (held c T1 W : sProp 𝕄) = iprop(((c.1, r main_v0) ↦{fullShare} W (r main_v0)) ∗ ((c.1, r main_v8) ↦{fullShare} W (r main_v8))
      ∗ ((c.1, r main_v9) ↦{fullShare} W (r main_v9))) := by
  unfold held T1
  rw [SparseCore.bigSep_insert' (by decide), SparseCore.bigSep_insert' (by decide), bigSep_singleton]

/-- The buffers outside a set do not see an update inside it. -/
theorem held_rest_update {Tset : Finset (DevRef τ sig)} (c : Thread nD τ) (W : Valuation τ sig (Elt F)) (b : DevRef τ sig) (hb : b ∈ Tset)
    (f : b.ty.Contents (Elt F)) : (held c (SS \ Tset) (Function.update W b f) : sProp 𝕄) = held c (SS \ Tset) W :=
  StableHlo.held_congr c fun b' hb' => Function.update_of_ne (fun e => (Finset.mem_sdiff.mp hb').2 (by rw [e]; exact hb)) _ _

/-- The three arrays of the first call back into the held set, the gathered array at what the call left. -/
theorem held_put0 (c : Thread nD τ) (W : Valuation τ sig (Elt F)) (f : (r main_v6).ty.Contents (Elt F)) :
    iprop(((c.1, r main_v0) ↦{fullShare} W (r main_v0)) ∗ ((c.1, r main_v5) ↦{fullShare} W (r main_v5)) ∗ ((c.1, r main_v6) ↦{fullShare} f)
        ∗ held c (SS \ T0) W)
      ⊢ (held c SS (Function.update W (r main_v6) f) : sProp 𝕄) := by
  rw [StableHlo.held_sub_split c hT0 (Function.update W (r main_v6) f), held_T0, held_rest_update c W (r main_v6) (by decide) f,
    Function.update_of_ne (show r main_v0 ≠ r main_v6 by decide), Function.update_of_ne (show r main_v5 ≠ r main_v6 by decide), Function.update_self]
  iintro ⟨H0, H5, H6, Hr⟩
  isplitr [Hr]
  · isplitl [H0]; · iexact H0
    isplitl [H5]; · iexact H5
    iexact H6
  iexact Hr
/-- The same for the second call. -/
theorem held_put1 (c : Thread nD τ) (W : Valuation τ sig (Elt F)) (f : (r main_v9).ty.Contents (Elt F)) :
    iprop(((c.1, r main_v0) ↦{fullShare} W (r main_v0)) ∗ ((c.1, r main_v8) ↦{fullShare} W (r main_v8)) ∗ ((c.1, r main_v9) ↦{fullShare} f)
        ∗ held c (SS \ T1) W)
      ⊢ (held c SS (Function.update W (r main_v9) f) : sProp 𝕄) := by
  rw [StableHlo.held_sub_split c hT1 (Function.update W (r main_v9) f), held_T1, held_rest_update c W (r main_v9) (by decide) f,
    Function.update_of_ne (show r main_v0 ≠ r main_v9 by decide), Function.update_of_ne (show r main_v8 ≠ r main_v9 by decide), Function.update_self]
  iintro ⟨H0, H8, H9, Hr⟩
  isplitr [Hr]
  · isplitl [H0]; · iexact H0
    isplitl [H8]; · iexact H8
    iexact H9
  iexact Hr

/-! ## The two TensorCore regions' arrays in and out of the held set -/

abbrev TR0 : Finset (DevRef τ sig) := {r main_v6, r main_v10, r main_v2, r main_v3, r main_v11}
abbrev TR1 : Finset (DevRef τ sig) := {r main_v9, r main_v12, r main_v2, r main_v3, r main_v13}
theorem hTR0 : TR0 ⊆ SS := by decide
theorem hTR1 : TR1 ⊆ SS := by decide

theorem held_TR0 (d : Dev nD) (W : Valuation τ sig (Elt F)) :
    (held (SparseCore.T d) TR0 W : sProp 𝕄) = Tc2K.arrs2 (U := UU) d (fun w => W (r (Pipeline.arrRef spec2 w))) := by
  unfold held TR0 Tc2K.arrs2
  rw [SparseCore.bigSep_insert' (by decide), SparseCore.bigSep_insert' (by decide), SparseCore.bigSep_insert' (by decide),
    SparseCore.bigSep_insert' (by decide), bigSep_singleton, Gen.bigSep_W2]
theorem held_TR1 (d : Dev nD) (W : Valuation τ sig (Elt F)) :
    (held (SparseCore.T d) TR1 W : sProp 𝕄) = Tc3K.arrs3 (U := UU) d (fun w => W (r (Pipeline.arrRef spec3 w))) := by
  unfold held TR1 Tc3K.arrs3
  rw [SparseCore.bigSep_insert' (by decide), SparseCore.bigSep_insert' (by decide), SparseCore.bigSep_insert' (by decide),
    SparseCore.bigSep_insert' (by decide), bigSep_singleton, Gen.bigSep_W3]

/-- The first region's arrays back, the result at `g`. -/
theorem held_putR0 (d : Dev nD) (W : Valuation τ sig (Elt F)) (g : (r main_v11).ty.Contents (Elt F)) :
    iprop(((((SparseCore.T d : Thread nD τ).1, r main_v6) ↦{fullShare} W (r main_v6)) ∗ (((SparseCore.T d : Thread nD τ).1, r main_v10) ↦{fullShare} W (r main_v10))
        ∗ (((SparseCore.T d : Thread nD τ).1, r main_v2) ↦{fullShare} W (r main_v2)) ∗ (((SparseCore.T d : Thread nD τ).1, r main_v3) ↦{fullShare} W (r main_v3))
        ∗ (((SparseCore.T d : Thread nD τ).1, r main_v11) ↦{fullShare} g)) ∗ held (SparseCore.T d) (SS \ TR0) W)
      ⊢ (held (SparseCore.T d) SS (Function.update W (r main_v11) g) : sProp 𝕄) := by
  rw [StableHlo.held_sub_split (SparseCore.T d) hTR0 (Function.update W (r main_v11) g), held_rest_update (SparseCore.T d) W (r main_v11) (by decide) g]
  unfold held TR0
  rw [SparseCore.bigSep_insert' (by decide), SparseCore.bigSep_insert' (by decide), SparseCore.bigSep_insert' (by decide),
    SparseCore.bigSep_insert' (by decide), bigSep_singleton,
    Function.update_of_ne (show r main_v6 ≠ r main_v11 by decide), Function.update_of_ne (show r main_v10 ≠ r main_v11 by decide),
    Function.update_of_ne (show r main_v2 ≠ r main_v11 by decide), Function.update_of_ne (show r main_v3 ≠ r main_v11 by decide), Function.update_self]
/-- The second region's arrays back, the result at `g`. -/
theorem held_putR1 (d : Dev nD) (W : Valuation τ sig (Elt F)) (g : (r main_v13).ty.Contents (Elt F)) :
    iprop(((((SparseCore.T d : Thread nD τ).1, r main_v9) ↦{fullShare} W (r main_v9)) ∗ (((SparseCore.T d : Thread nD τ).1, r main_v12) ↦{fullShare} W (r main_v12))
        ∗ (((SparseCore.T d : Thread nD τ).1, r main_v2) ↦{fullShare} W (r main_v2)) ∗ (((SparseCore.T d : Thread nD τ).1, r main_v3) ↦{fullShare} W (r main_v3))
        ∗ (((SparseCore.T d : Thread nD τ).1, r main_v13) ↦{fullShare} g)) ∗ held (SparseCore.T d) (SS \ TR1) W)
      ⊢ (held (SparseCore.T d) SS (Function.update W (r main_v13) g) : sProp 𝕄) := by
  rw [StableHlo.held_sub_split (SparseCore.T d) hTR1 (Function.update W (r main_v13) g), held_rest_update (SparseCore.T d) W (r main_v13) (by decide) g]
  unfold held TR1
  rw [SparseCore.bigSep_insert' (by decide), SparseCore.bigSep_insert' (by decide), SparseCore.bigSep_insert' (by decide),
    SparseCore.bigSep_insert' (by decide), bigSep_singleton,
    Function.update_of_ne (show r main_v9 ≠ r main_v13 by decide), Function.update_of_ne (show r main_v12 ≠ r main_v13 by decide),
    Function.update_of_ne (show r main_v2 ≠ r main_v13 by decide), Function.update_of_ne (show r main_v3 ≠ r main_v13 by decide), Function.update_self]

/-- The first region's proof data at the valuation `W` the region finds and the recorded waits `Wt`. -/
abbrev D2 (W : Valuation τ sig (Elt F)) (Wt : Waits sig (HIx 2)) (d : Dev nD) :=
  Tc2K.dat2 (U := UU) (fun _ b => W (r b)) (fun _ => Wt) (Tc2K.outAt (U := UU) fun _ b => W (r b)) d
abbrev D3 (W : Valuation τ sig (Elt F)) (Wt : Waits sig (HIx 2)) (d : Dev nD) :=
  Tc3K.dat3 (U := UU) (fun _ b => W (r b)) (fun _ => Wt) (Tc3K.outAt (U := UU) fun _ b => W (r b)) d

/-- After the first region: its arrays back into the held set, the result array at what the pipeline library computes. -/
theorem putBackR0 (d : Dev nD) (W : Valuation τ sig (Elt F)) (Wt : Waits sig (HIx 2)) :
    iprop(Tc2K.arrs2 (U := UU) d (fun w => (D2 W Wt d).arrAt w cfg2.N) ∗ held (SparseCore.T d) (SS \ TR0) W)
      ⊢ (held (SparseCore.T d) SS (Function.update W (r main_v11) ((D2 W Wt d).arrAt 4 cfg2.N)) : sProp 𝕄) := by
  unfold Tc2K.arrs2
  rw [Gen.bigSep_W2]
  beta_reduce
  rw [(D2 W Wt d).arrAt_in 0 rfl, (D2 W Wt d).arrAt_in 1 rfl, (D2 W Wt d).arrAt_in 2 rfl, (D2 W Wt d).arrAt_in 3 rfl]
  exact held_putR0 d W ((D2 W Wt d).arrAt 4 cfg2.N)
theorem putBackR1 (d : Dev nD) (W : Valuation τ sig (Elt F)) (Wt : Waits sig (HIx 2)) :
    iprop(Tc3K.arrs3 (U := UU) d (fun w => (D3 W Wt d).arrAt w cfg3.N) ∗ held (SparseCore.T d) (SS \ TR1) W)
      ⊢ (held (SparseCore.T d) SS (Function.update W (r main_v13) ((D3 W Wt d).arrAt 4 cfg3.N)) : sProp 𝕄) := by
  unfold Tc3K.arrs3
  rw [Gen.bigSep_W3]
  beta_reduce
  rw [(D3 W Wt d).arrAt_in 0 rfl, (D3 W Wt d).arrAt_in 1 rfl, (D3 W Wt d).arrAt_in 2 rfl, (D3 W Wt d).arrAt_in 3 rfl]
  exact held_putR1 d W ((D3 W Wt d).arrAt 4 cfg3.N)

/-- After the first region, the slice for the second and the copy of the first region's result into the aliased buffer. -/
abbrev W14 (d : Dev nD) (f6 : Buf (Elt F) ((SparseCore.T d : Thread nD τ).loc main_v6)) (f9 : Buf (Elt F) ((SparseCore.T d : Thread nD τ).loc main_v9))
    (Wt : Waits sig (HIx 2)) : Valuation τ sig (Elt F) :=
  (op10 (F := F)).result ((op9 (F := F)).result (Function.update (W11 m d f6 f9) (r main_v11) ((D2 (W11 m d f6 f9) Wt d).arrAt 4 cfg2.N)))
/-- At @main's end. -/
abbrev W16 (d : Dev nD) (f6 : Buf (Elt F) ((SparseCore.T d : Thread nD τ).loc main_v6)) (f9 : Buf (Elt F) ((SparseCore.T d : Thread nD τ).loc main_v9))
    (Wt W1 : Waits sig (HIx 2)) : Valuation τ sig (Elt F) :=
  (op11 (F := F)).result (Function.update (W14 m d f6 f9 Wt) (r main_v13) ((D3 (W14 m d f6 f9 Wt) W1 d).arrAt 4 cfg3.N))

/-- What @main leaves the claim: the five argument arrays at their launch contents. -/
def FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ ((SparseCore.T d : Thread nD τ).loc main_arg3 ↦{fullShare} m ((SparseCore.T d : Thread nD τ).loc main_arg3))
    ∗ ((SparseCore.T d : Thread nD τ).loc main_arg4 ↦{fullShare} m ((SparseCore.T d : Thread nD τ).loc main_arg4)))

/-- Both calls are past: the TensorCore owes no start signal any more. -/
theorem Otc_two (d : Dev nD) : (K (F := F)).Otc d 2 = 0 := by
  unfold SparseCore.Cfg.Otc
  exact Finset.sum_eq_zero fun q _ => if_neg (by have := q.isLt; omega)

/-- The TensorCore's state after both calls: what it owes (nothing) with its recorded waits, and the rest. -/
theorem tcSt_split (d : Dev nD) : ∃ R : sProp 𝕄, (K (F := F)).tcSt EH d 2
    = iprop((∃ W, ⌜(K (F := F)).WBelow (SparseCore.T d) W (8 * 2)⌝ ∗ owes (SparseCore.T d) ((K (F := F)).Otc d 2) W) ∗ R) :=
  ⟨_, rfl⟩

set_option backward.isDefEq.respectTransparency.types false in
/-- **@main on device `d`'s TensorCore.**  Six host operations; the first gather call (the table, its index list and its
    gathered array handed to the SparseCores and taken back: `hcall0`); two host operations; the second call (`hcall1`); the
    slice of the dense features; the first TensorCore region (`Tc2K.region0_run`); the second slice and the copy into the
    aliased result; the second region (`Tc3K.region1_run`); the transpose.  The thread's handshake state comes back at call
    index 2 (the regions' own waits are recorded at index `none`, level 0), and the argument arrays as launched (`hfinal`:
    no operation writes them). -/
theorem hmain (κ : GSem nD τ sig → ℕ) (d : Dev nD)
    (hcall0 : iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))))
    (hcall1 : ∀ f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))))
    (hfinal : ∀ f6 f9 Wt W1, (held (SparseCore.T d) SS (W16 m d f6 f9 Wt W1) : sProp 𝕄) ⊢ FIN m d) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [show unscopedBufs d (fun b => m ((SparseCore.T d : Thread nD τ).loc b)) = held (SparseCore.T d) SS (W0 m d)
    from Pipeline.unscopedBufs_held (Ix := HIx 2) (Name := ℕ) (U := UU) (Lvl := ℕ) d (W0 m d)]
  simp only [main, wp_bind, wp_pure]
  iintro ⟨#Hctx, Hst, ⟨Hb, Hheld, -, -⟩, HG⟩
  -- host operation 0
  iapply (wp_hlo_within 𝒱 (SparseCore.T d) none Set.univ (op := op0) (S := SS) (Pipeline.sub_ucRefs _ (sub2 _ _)) (V := W0 m d)) $$ [Hb Hheld]
  · isplitl [Hb]; · iexact Hb
    iexact Hheld
  iintro ⟨Hb, Hheld⟩
  rw [wp_ret]; imodintro
  -- host operation 1
  iapply (wp_hlo_within 𝒱 (SparseCore.T d) none Set.univ (op := op1) (S := SS) (Pipeline.sub_ucRefs _ (sub2 _ _)) (V := (op0 (F := F)).result (W0 m d))) $$ [Hb Hheld]
  · isplitl [Hb]; · iexact Hb
    iexact Hheld
  iintro ⟨Hb, Hheld⟩
  rw [wp_ret]; imodintro
  -- host operation 2
  iapply (wp_hlo_within 𝒱 (SparseCore.T d) none Set.univ (op := op2) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 3
  iapply (wp_hlo_within 𝒱 (SparseCore.T d) none Set.univ (op := op3) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 4
  iapply (wp_hlo_within 𝒱 (SparseCore.T d) none Set.univ (op := op4) (S := SS) (Pipeline.sub_ucRefs _ (sub2 _ _)) (V := _)) $$ [Hb Hheld]
  · isplitl [Hb]; · iexact Hb
    iexact Hheld
  iintro ⟨Hb, Hheld⟩
  rw [wp_ret]; imodintro
  -- host operation 5
  iapply (wp_hlo_within 𝒱 (SparseCore.T d) none Set.univ (op := op5) (S := SS) (Pipeline.sub_ucRefs _ (sub2 _ _)) (V := _)) $$ [Hb Hheld]
  · isplitl [Hb]; · iexact Hb
    iexact Hheld
  iintro ⟨Hb, Hheld⟩
  rw [wp_ret]; imodintro
  -- the first gather call: the table, the index list and the gathered array out of the held set
  ihave Hh := (Entails.of_eq (StableHlo.held_sub_split (SparseCore.T d) hT0 (W6 m d))) $$ Hheld
  icases Hh with ⟨HT, Hrest⟩
  ihave HT' := (Entails.of_eq (held_T0 (F := F) (SparseCore.T d) (W6 m d))) $$ HT
  have hcall0' : iprop((((SparseCore.T d : Thread nD τ).1, r main_v0) ↦{fullShare} W6 m d (r main_v0)) ∗ (((SparseCore.T d : Thread nD τ).1, r main_v5) ↦{fullShare} W6 m d (r main_v5))
      ∗ (((SparseCore.T d : Thread nD τ).1, r main_v6) ↦{fullShare} W6 m d (r main_v6))) ⊢ _ := hcall0
  ihave Hc := hcall0' $$ HT'
  icases Hc with ⟨Hst0, Hback⟩
  iapply ((K (F := F)).wp_run (D (F := F)) 𝒱 (EH := EH) (P := PP m) κ d 0) $$ [Hst Hst0 Hback Hb Hrest HG]
  isplitr; · iexact Hctx
  isplitl [Hst]; · iexact Hst
  isplitl [Hst0]; · iexact Hst0
  iintro ⟨Hst, Hdn⟩
  ihave HT := Hback $$ Hdn
  icases HT with ⟨H0, H5, %f6, H6⟩
  -- back into the held set, the gathered array at what the call left
  ihave Hheld := (held_put0 (F := F) (SparseCore.T d) (W6 m d) f6) $$ [H0 H5 H6 Hrest]
  · isplitl [H0]; · iexact H0
    isplitl [H5]; · iexact H5
    isplitl [H6]; · iexact H6
    iexact Hrest
  -- host operation 6
  iapply (wp_hlo_within 𝒱 (SparseCore.T d) none Set.univ (op := op6) (S := SS) (Pipeline.sub_ucRefs _ (sub2 _ _)) (V := Function.update (W6 m d) (r main_v6) f6)) $$ [Hb Hheld]
  · isplitl [Hb]; · iexact Hb
    iexact Hheld
  iintro ⟨Hb, Hheld⟩
  rw [wp_ret]; imodintro
  -- host operation 7
  iapply (wp_hlo_within 𝒱 (SparseCore.T d) none Set.univ (op := op7) (S := SS) (Pipeline.sub_ucRefs _ (sub2 _ _)) (V := _)) $$ [Hb Hheld]
  · isplitl [Hb]; · iexact Hb
    iexact Hheld
  iintro ⟨Hb, Hheld⟩
  rw [wp_ret]; imodintro
  -- the second gather call
  ihave Hh := (Entails.of_eq (StableHlo.held_sub_split (SparseCore.T d) hT1 (W9 m d f6))) $$ Hheld
  icases Hh with ⟨HT, Hrest⟩
  ihave HT' := (Entails.of_eq (held_T1 (F := F) (SparseCore.T d) (W9 m d f6))) $$ HT
  have hcall1' : iprop((((SparseCore.T d : Thread nD τ).1, r main_v0) ↦{fullShare} W9 m d f6 (r main_v0)) ∗ (((SparseCore.T d : Thread nD τ).1, r main_v8) ↦{fullShare} W9 m d f6 (r main_v8))
      ∗ (((SparseCore.T d : Thread nD τ).1, r main_v9) ↦{fullShare} W9 m d f6 (r main_v9))) ⊢ _ := hcall1 f6
  ihave Hc := hcall1' $$ HT'
  icases Hc with ⟨Hst1, Hback⟩
  iapply ((K (F := F)).wp_run (D (F := F)) 𝒱 (EH := EH) (P := PP m) κ d 1) $$ [Hst Hst1 Hback Hb Hrest HG]
  isplitr; · iexact Hctx
  isplitl [Hst]; · iexact Hst
  isplitl [Hst1]; · iexact Hst1
  iintro ⟨Hst, Hdn⟩
  ihave HT := Hback $$ Hdn
  icases HT with ⟨H0, H8, %f9, H9⟩
  ihave Hheld := (held_put1 (F := F) (SparseCore.T d) (W9 m d f6) f9) $$ [H0 H8 H9 Hrest]
  · isplitl [H0]; · iexact H0
    isplitl [H8]; · iexact H8
    isplitl [H9]; · iexact H9
    iexact Hrest
  -- host operation 8
  iapply (wp_hlo_within 𝒱 (SparseCore.T d) none Set.univ (op := op8) (S := SS) (Pipeline.sub_ucRefs _ (sub2 _ _)) (V := Function.update (W9 m d f6) (r main_v9) f9)) $$ [Hb Hheld]
  · isplitl [Hb]; · iexact Hb
    iexact Hheld
  iintro ⟨Hb, Hheld⟩
  rw [wp_ret]; imodintro
  -- the first TensorCore region: its five arrays out of the held set, what the thread owes out of its handshake state
  obtain ⟨R2, hR2⟩ := tcSt_split (F := F) d
  have hR2' : (K (F := F)).tcSt EH d ((1 : Fin 2).val + 1)
      = iprop((∃ W, ⌜(K (F := F)).WBelow (SparseCore.T d) W (8 * 2)⌝ ∗ owes (SparseCore.T d) (0 : CellTallies nD τ sig (HIx 2)) W) ∗ R2) := by
    rw [show ((1 : Fin 2).val + 1) = 2 from rfl, hR2, Otc_two]
  ihave Hst' := (Entails.of_eq hR2') $$ Hst
  icases Hst' with ⟨⟨%Wt, %hWt, HO⟩, HR2⟩
  ihave HG' := (show (Gd (F := F) d : sProp 𝕄) ⊢ iprop(Pipeline.cellsGhost cfgs ER (0 : Fin 2) d ∗ Pipeline.toksInit cfgs ER (0 : Fin 2) d
    ∗ Pipeline.cellsGhost cfgs ER (1 : Fin 2) d ∗ Pipeline.toksInit cfgs ER (1 : Fin 2) d) from BI.Entails.refl _) $$ HG
  icases HG' with ⟨Hg0, Ht0, Hg1, Ht1⟩
  ihave Hh := (Entails.of_eq (StableHlo.held_sub_split (SparseCore.T d) hTR0 (W11 m d f6 f9))) $$ Hheld
  icases Hh with ⟨HT, Hrest⟩
  ihave Harr := (Entails.of_eq (held_TR0 (F := F) d (W11 m d f6 f9))) $$ HT
  iapply (Tc2K.region0_run (U := UU) (fun _ b => W11 m d f6 f9 (r b)) (fun _ => Wt) ER d (fun x => Prog.ret x) _) $$ [Hb Harr HO Hg0 Ht0 Hrest HR2 Hg1 Ht1]
  isplitl [Hb]; · iexact Hb
  isplitl [Harr]; · iexact Harr
  isplitl [HO]; · iexact HO
  isplitl [Hg0]; · iexact Hg0
  isplitl [Ht0]; · iexact Ht0
  iintro ⟨Hb, Harr, HO⟩
  rw [wp_ret]; imodintro
  ihave Hheld := (putBackR0 (F := F) d (W11 m d f6 f9) Wt) $$ [Harr Hrest]
  · isplitl [Harr]; · iexact Harr
    iexact Hrest
  ihave HO' := (show ((D2 (W11 m d f6 f9) Wt d).owesAt none (Fin.last cfg2.N) : sProp 𝕄)
    ⊢ iprop(∃ W' : Waits sig (HIx 2), ⌜(↑W' : Set (SemLoc sig × HIx 2)) ⊆ ↑Wt ∪ cfg2.waitPairs none⌝ ∗ owes (SparseCore.T d) (0 : CellTallies nD τ sig (HIx 2)) W') from BI.Entails.refl _) $$ HO
  icases HO' with ⟨%W1, %hW1, HO⟩
  -- host operation 9
  iapply (wp_hlo_within 𝒱 (SparseCore.T d) none Set.univ (op := op9) (S := SS) (Pipeline.sub_ucRefs _ (sub2 _ _)) (V := Function.update (W11 m d f6 f9) (r main_v11) ((D2 (W11 m d f6 f9) Wt d).arrAt 4 cfg2.N))) $$ [Hb Hheld]
  · isplitl [Hb]; · iexact Hb
    iexact Hheld
  iintro ⟨Hb, Hheld⟩
  rw [wp_ret]; imodintro
  -- host operation 10
  iapply (wp_hlo_within 𝒱 (SparseCore.T d) none Set.univ (op := op10) (S := SS) (Pipeline.sub_ucRefs _ (sub2 _ _)) (V := _)) $$ [Hb Hheld]
  · isplitl [Hb]; · iexact Hb
    iexact Hheld
  iintro ⟨Hb, Hheld⟩
  rw [wp_ret]; imodintro
  -- the second TensorCore region
  ihave Hh := (Entails.of_eq (StableHlo.held_sub_split (SparseCore.T d) hTR1 (W14 m d f6 f9 Wt))) $$ Hheld
  icases Hh with ⟨HT, Hrest⟩
  ihave Harr := (Entails.of_eq (held_TR1 (F := F) d (W14 m d f6 f9 Wt))) $$ HT
  iapply (Tc3K.region1_run (U := UU) (fun _ b => W14 m d f6 f9 Wt (r b)) (fun _ => W1) ER d (fun x => Prog.ret x) _) $$ [Hb Harr HO Hg1 Ht1 Hrest HR2]
  isplitl [Hb]; · iexact Hb
  isplitl [Harr]; · iexact Harr
  isplitl [HO]; · iexact HO
  isplitl [Hg1]; · iexact Hg1
  isplitl [Ht1]; · iexact Ht1
  iintro ⟨Hb, Harr, HO⟩
  rw [wp_ret]; imodintro
  ihave Hheld := (putBackR1 (F := F) d (W14 m d f6 f9 Wt) W1) $$ [Harr Hrest]
  · isplitl [Harr]; · iexact Harr
    iexact Hrest
  ihave HO' := (show ((D3 (W14 m d f6 f9 Wt) W1 d).owesAt none (Fin.last cfg3.N) : sProp 𝕄)
    ⊢ iprop(∃ W' : Waits sig (HIx 2), ⌜(↑W' : Set (SemLoc sig × HIx 2)) ⊆ ↑W1 ∪ cfg3.waitPairs none⌝ ∗ owes (SparseCore.T d) (0 : CellTallies nD τ sig (HIx 2)) W') from BI.Entails.refl _) $$ HO
  icases HO' with ⟨%W2, %hW2, HO⟩
  -- host operation 11
  iapply (wp_hlo_within 𝒱 (SparseCore.T d) none Set.univ (op := op11) (S := SS) (Pipeline.sub_ucRefs _ (sub2 _ _)) (V := Function.update (W14 m d f6 f9 Wt) (r main_v13) ((D3 (W14 m d f6 f9 Wt) W1 d).arrAt 4 cfg3.N))) $$ [Hb Hheld]
  · isplitl [Hb]; · iexact Hb
    iexact Hheld
  iintro ⟨Hb, Hheld⟩
  rw [wp_ret]; imodintro
  -- the end: the handshake state folded back (the regions' waits are at index `none`, level 0), the arguments as launched
  imodintro
  isplitl [HO HR2]
  · iapply (Entails.of_eq (show iprop((∃ W, ⌜(K (F := F)).WBelow (SparseCore.T d) W (8 * 2)⌝ ∗ owes (SparseCore.T d) (0 : CellTallies nD τ sig (HIx 2)) W) ∗ R2)
        = (K (F := F)).tcSt EH d 2 from by rw [hR2, Otc_two]))
    isplitl [HO]
    · iexists W2
      isplitr
      · ipureintro
        intro p hp
        rcases hW2 (Finset.mem_coe.mpr hp) with h | ⟨w, s, rfl⟩
        · rcases hW1 h with h' | ⟨w, s, rfl⟩
          · exact hWt p (Finset.mem_coe.mp h')
          · exact Nat.zero_le _
        · exact Nat.zero_le _
      iexact HO
    iexact HR2
  iapply (hfinal f6 f9 Wt W1); iexact Hheld

end Cert.Proof.ScK

end
-- ==== Proof.ScFinalK.lean ====
/-
  @main's last fact: no host operation, SparseCore call or TensorCore region writes an argument array, so at @main's end
  the five of them hold what the launch found.
-/
import proofs.«202673_g7318624272670_cont_9to1c4b_526_24_alg».proof.Proof.ScMainK

noncomputable section

namespace Cert.Proof.ScK

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 2) (Elt F) ℕ UU ℕ

variable (m : (ℓ : Loc nD τ sig) → Buf (Elt F) ℓ)

theorem W16_arg0 (d : Dev nD) (f6) (f9) (Wt W1 : Waits sig (HIx 2)) :
    W16 m d f6 f9 Wt W1 (r main_arg0) = m ((SparseCore.T d : Thread nD τ).loc main_arg0) := by
  unfold W16 W14 W11 W9 W6
  rw [(op11 (F := F)).result_of_not_mem _ (show r main_arg0 ∉ ({r main_v14} : Finset (DevRef τ sig)) from by decide),
    Function.update_of_ne (show r main_arg0 ≠ r main_v13 from by decide),
    (op10 (F := F)).result_of_not_mem _ (show r main_arg0 ∉ ({r main_v13} : Finset (DevRef τ sig)) from by decide),
    (op9 (F := F)).result_of_not_mem _ (show r main_arg0 ∉ ({r main_v12} : Finset (DevRef τ sig)) from by decide),
    Function.update_of_ne (show r main_arg0 ≠ r main_v11 from by decide),
    (op8 (F := F)).result_of_not_mem _ (show r main_arg0 ∉ ({r main_v10} : Finset (DevRef τ sig)) from by decide),
    Function.update_of_ne (show r main_arg0 ≠ r main_v9 from by decide),
    (op7 (F := F)).result_of_not_mem _ (show r main_arg0 ∉ ({r main_v8} : Finset (DevRef τ sig)) from by decide),
    (op6 (F := F)).result_of_not_mem _ (show r main_arg0 ∉ ({r main_v7} : Finset (DevRef τ sig)) from by decide),
    Function.update_of_ne (show r main_arg0 ≠ r main_v6 from by decide),
    (op5 (F := F)).result_of_not_mem _ (show r main_arg0 ∉ ({r main_v5} : Finset (DevRef τ sig)) from by decide),
    (op4 (F := F)).result_of_not_mem _ (show r main_arg0 ∉ ({r main_v4} : Finset (DevRef τ sig)) from by decide),
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  rfl

theorem W16_arg1 (d : Dev nD) (f6) (f9) (Wt W1 : Waits sig (HIx 2)) :
    W16 m d f6 f9 Wt W1 (r main_arg1) = m ((SparseCore.T d : Thread nD τ).loc main_arg1) := by
  unfold W16 W14 W11 W9 W6
  rw [(op11 (F := F)).result_of_not_mem _ (show r main_arg1 ∉ ({r main_v14} : Finset (DevRef τ sig)) from by decide),
    Function.update_of_ne (show r main_arg1 ≠ r main_v13 from by decide),
    (op10 (F := F)).result_of_not_mem _ (show r main_arg1 ∉ ({r main_v13} : Finset (DevRef τ sig)) from by decide),
    (op9 (F := F)).result_of_not_mem _ (show r main_arg1 ∉ ({r main_v12} : Finset (DevRef τ sig)) from by decide),
    Function.update_of_ne (show r main_arg1 ≠ r main_v11 from by decide),
    (op8 (F := F)).result_of_not_mem _ (show r main_arg1 ∉ ({r main_v10} : Finset (DevRef τ sig)) from by decide),
    Function.update_of_ne (show r main_arg1 ≠ r main_v9 from by decide),
    (op7 (F := F)).result_of_not_mem _ (show r main_arg1 ∉ ({r main_v8} : Finset (DevRef τ sig)) from by decide),
    (op6 (F := F)).result_of_not_mem _ (show r main_arg1 ∉ ({r main_v7} : Finset (DevRef τ sig)) from by decide),
    Function.update_of_ne (show r main_arg1 ≠ r main_v6 from by decide),
    (op5 (F := F)).result_of_not_mem _ (show r main_arg1 ∉ ({r main_v5} : Finset (DevRef τ sig)) from by decide),
    (op4 (F := F)).result_of_not_mem _ (show r main_arg1 ∉ ({r main_v4} : Finset (DevRef τ sig)) from by decide),
    (op3 (F := F)).result_of_not_mem _ (show r main_arg1 ∉ ({r main_v3} : Finset (DevRef τ sig)) from by decide),
    (op2 (F := F)).result_of_not_mem _ (show r main_arg1 ∉ ({r main_v2} : Finset (DevRef τ sig)) from by decide),
    (op1 (F := F)).result_of_not_mem _ (show r main_arg1 ∉ ({r main_v1} : Finset (DevRef τ sig)) from by decide),
    (op0 (F := F)).result_of_not_mem _ (show r main_arg1 ∉ ({r main_v0} : Finset (DevRef τ sig)) from by decide)]
  rfl

theorem W16_arg2 (d : Dev nD) (f6) (f9) (Wt W1 : Waits sig (HIx 2)) :
    W16 m d f6 f9 Wt W1 (r main_arg2) = m ((SparseCore.T d : Thread nD τ).loc main_arg2) := by
  unfold W16 W14 W11 W9 W6
  rw [(op11 (F := F)).result_of_not_mem _ (show r main_arg2 ∉ ({r main_v14} : Finset (DevRef τ sig)) from by decide),
    Function.update_of_ne (show r main_arg2 ≠ r main_v13 from by decide),
    (op10 (F := F)).result_of_not_mem _ (show r main_arg2 ∉ ({r main_v13} : Finset (DevRef τ sig)) from by decide),
    (op9 (F := F)).result_of_not_mem _ (show r main_arg2 ∉ ({r main_v12} : Finset (DevRef τ sig)) from by decide),
    Function.update_of_ne (show r main_arg2 ≠ r main_v11 from by decide),
    (op8 (F := F)).result_of_not_mem _ (show r main_arg2 ∉ ({r main_v10} : Finset (DevRef τ sig)) from by decide),
    Function.update_of_ne (show r main_arg2 ≠ r main_v9 from by decide),
    (op7 (F := F)).result_of_not_mem _ (show r main_arg2 ∉ ({r main_v8} : Finset (DevRef τ sig)) from by decide),
    (op6 (F := F)).result_of_not_mem _ (show r main_arg2 ∉ ({r main_v7} : Finset (DevRef τ sig)) from by decide),
    Function.update_of_ne (show r main_arg2 ≠ r main_v6 from by decide),
    (op5 (F := F)).result_of_not_mem _ (show r main_arg2 ∉ ({r main_v5} : Finset (DevRef τ sig)) from by decide),
    (op4 (F := F)).result_of_not_mem _ (show r main_arg2 ∉ ({r main_v4} : Finset (DevRef τ sig)) from by decide),
    (op3 (F := F)).result_of_not_mem _ (show r main_arg2 ∉ ({r main_v3} : Finset (DevRef τ sig)) from by decide),
    (op2 (F := F)).result_of_not_mem _ (show r main_arg2 ∉ ({r main_v2} : Finset (DevRef τ sig)) from by decide),
    (op1 (F := F)).result_of_not_mem _ (show r main_arg2 ∉ ({r main_v1} : Finset (DevRef τ sig)) from by decide),
    (op0 (F := F)).result_of_not_mem _ (show r main_arg2 ∉ ({r main_v0} : Finset (DevRef τ sig)) from by decide)]
  rfl

theorem W16_arg3 (d : Dev nD) (f6) (f9) (Wt W1 : Waits sig (HIx 2)) :
    W16 m d f6 f9 Wt W1 (r main_arg3) = m ((SparseCore.T d : Thread nD τ).loc main_arg3) := by
  unfold W16 W14 W11 W9 W6
  rw [(op11 (F := F)).result_of_not_mem _ (show r main_arg3 ∉ ({r main_v14} : Finset (DevRef τ sig)) from by decide),
    Function.update_of_ne (show r main_arg3 ≠ r main_v13 from by decide),
    (op10 (F := F)).result_of_not_mem _ (show r main_arg3 ∉ ({r main_v13} : Finset (DevRef τ sig)) from by decide),
    (op9 (F := F)).result_of_not_mem _ (show r main_arg3 ∉ ({r main_v12} : Finset (DevRef τ sig)) from by decide),
    Function.update_of_ne (show r main_arg3 ≠ r main_v11 from by decide),
    (op8 (F := F)).result_of_not_mem _ (show r main_arg3 ∉ ({r main_v10} : Finset (DevRef τ sig)) from by decide),
    Function.update_of_ne (show r main_arg3 ≠ r main_v9 from by decide),
    (op7 (F := F)).result_of_not_mem _ (show r main_arg3 ∉ ({r main_v8} : Finset (DevRef τ sig)) from by decide),
    (op6 (F := F)).result_of_not_mem _ (show r main_arg3 ∉ ({r main_v7} : Finset (DevRef τ sig)) from by decide),
    Function.update_of_ne (show r main_arg3 ≠ r main_v6 from by decide),
    (op5 (F := F)).result_of_not_mem _ (show r main_arg3 ∉ ({r main_v5} : Finset (DevRef τ sig)) from by decide),
    (op4 (F := F)).result_of_not_mem _ (show r main_arg3 ∉ ({r main_v4} : Finset (DevRef τ sig)) from by decide),
    (op3 (F := F)).result_of_not_mem _ (show r main_arg3 ∉ ({r main_v3} : Finset (DevRef τ sig)) from by decide),
    (op2 (F := F)).result_of_not_mem _ (show r main_arg3 ∉ ({r main_v2} : Finset (DevRef τ sig)) from by decide),
    (op1 (F := F)).result_of_not_mem _ (show r main_arg3 ∉ ({r main_v1} : Finset (DevRef τ sig)) from by decide),
    (op0 (F := F)).result_of_not_mem _ (show r main_arg3 ∉ ({r main_v0} : Finset (DevRef τ sig)) from by decide)]
  rfl

theorem W16_arg4 (d : Dev nD) (f6) (f9) (Wt W1 : Waits sig (HIx 2)) :
    W16 m d f6 f9 Wt W1 (r main_arg4) = m ((SparseCore.T d : Thread nD τ).loc main_arg4) := by
  unfold W16 W14 W11 W9 W6
  rw [(op11 (F := F)).result_of_not_mem _ (show r main_arg4 ∉ ({r main_v14} : Finset (DevRef τ sig)) from by decide),
    Function.update_of_ne (show r main_arg4 ≠ r main_v13 from by decide),
    (op10 (F := F)).result_of_not_mem _ (show r main_arg4 ∉ ({r main_v13} : Finset (DevRef τ sig)) from by decide),
    (op9 (F := F)).result_of_not_mem _ (show r main_arg4 ∉ ({r main_v12} : Finset (DevRef τ sig)) from by decide),
    Function.update_of_ne (show r main_arg4 ≠ r main_v11 from by decide),
    (op8 (F := F)).result_of_not_mem _ (show r main_arg4 ∉ ({r main_v10} : Finset (DevRef τ sig)) from by decide),
    Function.update_of_ne (show r main_arg4 ≠ r main_v9 from by decide),
    (op7 (F := F)).result_of_not_mem _ (show r main_arg4 ∉ ({r main_v8} : Finset (DevRef τ sig)) from by decide),
    (op6 (F := F)).result_of_not_mem _ (show r main_arg4 ∉ ({r main_v7} : Finset (DevRef τ sig)) from by decide),
    Function.update_of_ne (show r main_arg4 ≠ r main_v6 from by decide),
    (op5 (F := F)).result_of_not_mem _ (show r main_arg4 ∉ ({r main_v5} : Finset (DevRef τ sig)) from by decide),
    (op4 (F := F)).result_of_not_mem _ (show r main_arg4 ∉ ({r main_v4} : Finset (DevRef τ sig)) from by decide),
    (op3 (F := F)).result_of_not_mem _ (show r main_arg4 ∉ ({r main_v3} : Finset (DevRef τ sig)) from by decide),
    (op2 (F := F)).result_of_not_mem _ (show r main_arg4 ∉ ({r main_v2} : Finset (DevRef τ sig)) from by decide),
    (op1 (F := F)).result_of_not_mem _ (show r main_arg4 ∉ ({r main_v1} : Finset (DevRef τ sig)) from by decide),
    (op0 (F := F)).result_of_not_mem _ (show r main_arg4 ∉ ({r main_v0} : Finset (DevRef τ sig)) from by decide)]
  rfl

/-- The five argument arrays. -/
abbrev TA : Finset (DevRef τ sig) := {r main_arg0, r main_arg1, r main_arg2, r main_arg3, r main_arg4}
theorem hTA : TA ⊆ SS := by decide

/-- At @main's end the argument arrays are held at their launch contents. -/
theorem hfinal (d : Dev nD) (f6) (f9) (Wt W1 : Waits sig (HIx 2)) :
    (held (SparseCore.T d) SS (W16 m d f6 f9 Wt W1) : sProp 𝕄) ⊢ FIN m d := by
  rw [StableHlo.held_sub_split (SparseCore.T d) hTA (W16 m d f6 f9 Wt W1)]
  refine sep_elim_left.trans ?_
  unfold held TA FIN
  rw [SparseCore.bigSep_insert' (by decide), SparseCore.bigSep_insert' (by decide), SparseCore.bigSep_insert' (by decide),
    SparseCore.bigSep_insert' (by decide), bigSep_singleton,
    W16_arg0, W16_arg1, W16_arg2, W16_arg3, W16_arg4]

end Cert.Proof.ScK

end
-- ==== Proof.ScValsK.lean ====
/-
  What the second gather call finds in the table and in its index list: the first call's result array, which alone changed
  in between, is read by neither of the two host operations before the second call.
-/
import proofs.«202673_g7318624272670_cont_9to1c4b_526_24_alg».proof.Proof.ScMainK

noncomputable section

namespace Cert.Proof.ScK

open Cert.Kernel
open Cert.Kernel.Shapes2.Facts₀ Cert.Kernel.Shapes1.Facts₀

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

/-- The table is as the first call found it. -/
theorem W9_v0 (d : Dev nD) (f6) : W9 m d f6 (r main_v0) = Tb m d := by
  unfold W9 Tb
  rw [(op7 (F := F)).result_of_not_mem _ (show r main_v0 ∉ ({r main_v8} : Finset (DevRef τ sig)) from by decide),
    (op6 (F := F)).result_of_not_mem _ (show r main_v0 ∉ ({r main_v7} : Finset (DevRef τ sig)) from by decide),
    Function.update_of_ne (show r main_v0 ≠ r main_v6 from by decide)]

/-- The second call's index list is computed from the argument array alone. -/
theorem W9_v8 (d : Dev nD) (f6) : W9 m d f6 (r main_v8) = Iv1 m d := by
  unfold W9 Iv1
  show (op7 (F := F)).result _ (Proc.devRef .tc main_v8) = (op7 (F := F)).result _ (Proc.devRef .tc main_v8)
  rw [StableHlo.reshape_result, StableHlo.reshape_result, StableHlo.unary_result, StableHlo.unary_result,
    Function.update_of_ne (show r main_arg0 ≠ r main_v6 from by decide)]

/-- The second call's operand fact, from its form at the named contents. -/
theorem hcall1_of (d : Dev nD)
    (h : ∀ g : Buf (Elt F) ((SparseCore.T d : Thread nD τ).loc main_v9),
      iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄)) :
    ∀ f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))) : sProp 𝕄) := by
  intro f6
  rw [W9_v0, W9_v8]
  exact h _

end Cert.Proof.ScK

end
-- ==== Proof.ScLaunchK.lean ====
/-
  The launch of the idealized kernel's program: the launch element of the ghost state (the handshakes' rounds, the two
  pipelines' staging cells' rounds, the transfers' counters), what it deals @main, how the final memory reads the frame
  claim, and the program's run from the tasks' body obligations and @main's three remaining facts.
-/
import proofs.«202673_g7318624272670_cont_9to1c4b_526_24_alg».proof.Proof.ScMainK
import proofs.«202673_g7318624272670_cont_9to1c4b_526_24_alg».proof.Proof.ScFinalK
import proofs.«202673_g7318624272670_cont_9to1c4b_526_24_alg».proof.Proof.ScValsK

noncomputable section

namespace Cert.Proof.ScK

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element -/

/-- The handshakes' rounds, the two pipelines' staging cells' rounds with the duty tokens of their loops' transfers, and
    the transfers' counters at their unit. -/
def u₀ : UU :=
  (initOf (K (F := F)).hsCells (K (F := F)).hsToks,
    (initOf (Pipeline.cells cfgs Gen.cellOf_inj) (Pipeline.launchToks cfgs Gen.cellOf_inj), 1))

omit [FloatOps F] in
theorem bigSep_emp' {I : Type} (s : Finset I) : (bigSep s fun _ => iprop(emp)) = (iprop(emp) : sProp 𝕄) := bigSep_emp_const s

omit [FloatOps F] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem deal_one (c : Dev nD) :
    iprop((Pipeline.cellsGhost cfgs (ER (F := F)) (0 : Fin 2) c ∗ Pipeline.cellsGhost cfgs (ER (F := F)) (1 : Fin 2) c)
        ∗ ((Pipeline.toksInit cfgs (ER (F := F)) (0 : Fin 2) c : sProp 𝕄) ∗ Pipeline.toksInit cfgs (ER (F := F)) (1 : Fin 2) c))
      ⊢ Gd (F := F) c := by
  unfold Gd
  iintro ⟨⟨Hg0, Hg1⟩, Ht0, Ht1⟩
  isplitl [Hg0]; · iexact Hg0
  isplitl [Ht0]; · iexact Ht0
  isplitl [Hg1]; · iexact Hg1
  iexact Ht1

/-- Each device's share of the pipelines' ghost state is what @main's proof starts from. -/
theorem deal_Gd :
    iprop((bigSep Finset.univ fun c : Dev nD => bigSep Finset.univ fun p : Fin 2 => Pipeline.cellsGhost cfgs (ER (F := F)) p c)
        ∗ (bigSep Finset.univ fun c : Dev nD => bigSep Finset.univ fun p : Fin 2 => (Pipeline.toksInit cfgs (ER (F := F)) p c : sProp 𝕄)))
      ⊢ bigSep Finset.univ fun d : Dev nD => Gd (F := F) d := by
  rw [← bigSep_sep']
  refine bigSep_mono fun c _ => ?_
  rw [bigSep_two, bigSep_two]
  exact deal_one c

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (PP m).x q thr) := by
  unfold u₀
  iintro Hu
  have hsplit : (ownU ((initOf (K (F := F)).hsCells (K (F := F)).hsToks,
        (initOf (Pipeline.cells cfgs Gen.cellOf_inj) (Pipeline.launchToks cfgs Gen.cellOf_inj), (1 : Counters))) : UU) : sProp 𝕄)
      ⊢ iprop(BI.own (EH (initOf (K (F := F)).hsCells (K (F := F)).hsToks))
          ∗ BI.own ((ER (F := F)) (initOf (Pipeline.cells cfgs Gen.cellOf_inj) (Pipeline.launchToks cfgs Gen.cellOf_inj)))
          ∗ BI.own ((((Emb.inr : Emb Counters (URp × Counters)).trans embR) : Emb Counters (MT nD τ sig (HIx 2) (Elt F) ℕ UU ℕ)) 1)) :=
    (ownU_pair _ _).trans (BI.sep_mono (BI.Entails.refl _) (own_pair_emb (embR : Emb (URp × Counters) (MT nD τ sig (HIx 2) (Elt F) ℕ UU ℕ)) _ _))
  ihave H := hsplit $$ Hu
  icases H with ⟨HH, HR, -⟩
  imod (Pipeline.fund_ghost cfgs (ER (F := F)) Gen.cellOf_inj) $$ HR with ⟨Hg, Ht⟩
  imodintro
  isplitl [HH]; · iexact HH
  isplitl [Hg Ht]
  · iapply (deal_Gd (F := F))
    isplitl [Hg]; · iexact Hg
    iexact Ht
  show (iprop(emp) : sProp 𝕄) ⊢ bigSep Finset.univ fun _ : Thread nD τ => bigSep Finset.univ fun _ : Fin 2 => (iprop(emp) : sProp 𝕄)
  rw [show (bigSep Finset.univ fun _ : Thread nD τ => bigSep Finset.univ fun _ : Fin 2 => (iprop(emp) : sProp 𝕄)) = iprop(emp) from by
    rw [bigSep_congr fun _ _ => bigSep_emp' _, bigSep_emp']]

/-! ## The claim, read off the final memory -/

def fq (d : Dev nD) (s' : Phys nD τ sig (Elt F)) : Prop :=
  s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg3) = m ((SparseCore.T d : Thread nD τ).loc main_arg3)
  ∧ s'.mem.mem ((SparseCore.T d : Thread nD τ).loc main_arg4) = m ((SparseCore.T d : Thread nD τ).loc main_arg4)

theorem hfin (d : Dev nD) (s' : Phys nD τ sig (Elt F)) : iprop(FIN m d ∗ SI s') ⊢ (⌜fq m d s'⌝ : sProp 𝕄) := by
  unfold FIN fq
  iintro ⟨⟨H0, H1, H2, H3, H4⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare)
    (f := m ((SparseCore.T d : Thread nD τ).loc main_arg1)))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare)
    (f := m ((SparseCore.T d : Thread nD τ).loc main_arg2)))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare)
    (f := m ((SparseCore.T d : Thread nD τ).loc main_arg3)))) $$ [HSI H3]
  · isplitl [HSI] <;> iassumption
  icases H with ⟨%h3, HSI, -⟩
  ihave H := (SI_pointsTo_agree (st := s') (ℓ := (SparseCore.T d : Thread nD τ).loc main_arg4) (I := Finset.univ) (q := fullShare)
    (f := m ((SparseCore.T d : Thread nD τ).loc main_arg4))) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The frame claim's post. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-! ## The program's run -/

/-- **The run of the whole program** (every thread: the TensorCore's @main, the sequencers, the 32 vector subcores), from the
    tasks' body obligations and the three facts @main's proof leaves: every weakly fair execution from a memory with zero
    counters terminates, nothing faulting, the five argument arrays unchanged. -/
theorem run_main [∀ e, Nonempty (Elt F e)]
    (htile : ∀ q : Fin 2, (K (F := F)).TileObl (D (F := F)) 𝒱 (PP m) v₀ q)
    (hcall0 : ∀ d : Dev nD, iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄))
    (hcall1 : ∀ (d : Dev nD) f6, iprop(((SparseCore.T d : Thread nD τ).loc main_v0 ↦{fullShare} W9 m d f6 (r main_v0)) ∗ ((SparseCore.T d : Thread nD τ).loc main_v8 ↦{fullShare} W9 m d f6 (r main_v8))
        ∗ ((SparseCore.T d : Thread nD τ).loc main_v9 ↦{fullShare} W9 m d f6 (r main_v9)))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} W9 m d f6 (r main_v0)) ∗ ((SparseCore.T d : Thread nD τ).loc main_v8 ↦{fullShare} W9 m d f6 (r main_v8))
                ∗ ∃ f, (SparseCore.T d : Thread nD τ).loc main_v9 ↦{fullShare} f))) : sProp 𝕄))
    (hfinal : ∀ (d : Dev nD) f6 f9 Wt W1, (held (SparseCore.T d) SS (W16 m d f6 f9 Wt W1) : sProp 𝕄) ⊢ FIN m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q, hq with | 0, hq => nomatch hq | 1, hq => nomatch hq)
    (fun q _ => htile q)
    (fun q _ => SparseCore.Cfg.VecSplit.of_plain (vecSplit (Tb m) (Iv0 m) (Iv1 m) q))
    m ρ main (fun d => Gd (F := F) d) (FIN m) (u₀ (F := F)) (sep_elim_left.trans (hu₀ m))
    (fun κ d => hmain m ρ κ d (hcall0 d) (hcall1 d) (hfinal d)) (fq m) (hfin m) (QC m) (fun _ h => h)

/-- The same with @main's last fact discharged and the second call's operand fact taken at the named contents: what is left
    is the two calls' operand splits and the tasks' body obligations. -/
theorem run_main' [∀ e, Nonempty (Elt F e)]
    (htile : ∀ q : Fin 2, (K (F := F)).TileObl (D (F := F)) 𝒱 (PP m) v₀ q)
    (hcall0 : ∀ d : Dev nD, iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄))
    (hcall1 : ∀ (d : Dev nD) (g : Buf (Elt F) ((SparseCore.T d : Thread nD τ).loc main_v9)),
      iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄)) :
    θ_run (Cert.Kernel.defs (F := F)) (Cert.Kernel.threads (F := F)) ⟨m, fun _ => 0, ρ⟩ (QC m) :=
  run_main m ρ htile hcall0 (fun d => hcall1_of m d (hcall1 d)) (fun d => hfinal m d)

end Cert.Proof.ScK

end
-- ==== Proof.ScPartK0.lean ====
/-
  How the thirty-two tasks of the first gather share its two arrays. Task (c, s) — core c of 2, subcore s of 16 — reads
  the 6656 consecutive words of the flat index list that start at 6656·(2s + c), and writes the 6656 rows of the
  gathered array with the same numbers, in 13 trips of 4 blocks of 128 rows: block r of trip t starts at row
  6656·(2s + c) + 512·t + 128·r. The 32 word ranges are pairwise disjoint and together are the whole list; the
  32·13·4 row blocks are pairwise disjoint and together are the whole array. Hence the ownership of each array splits
  into the ownership of the pieces, and pieces held at whatever contents join back into the whole array at some
  contents.
-/
import proofs.«202673_g7318624272670_cont_9to1c4b_526_24_alg».proof.Proof.ScSetsK0
import Idealize.ShloMosaic.Lib.SparseCore.Launch
import Idealize.ShloMosaic.Rules.PointsTo

noncomputable section

namespace Cert.Proof.ScK0

open Cert.Kernel Cert.Kernel.Gen Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The loop over a task's blocks makes thirteen trips. -/
theorem trips_eq : k0_t2_loop.trips = 13 := by decide

theorem trip_lt (t : Fin k0_t2_loop.trips) : t.val < 13 := Nat.lt_of_lt_of_eq t.isLt trips_eq

/-! ## The pieces as sets of indices -/

/-- Task (c, s)'s words of the flat index list. -/
abbrev idxSet (c : Fin (grid0.bound 0)) (s : Fin (grid0.bound 1)) : Finset S212992.Idx := (idxSl (coordsV c s)).view.set

/-- Block `r` of trip `t` of task (c, s)'s rows of the gathered array. -/
abbrev chunkSet (c : Fin (grid0.bound 0)) (s : Fin (grid0.bound 1)) (t : Fin k0_t2_loop.trips) : Fin 4 → Finset S212992x128.Idx
  | 0 => (chunk0 (coordsV c s) t).view.set
  | 1 => (chunk1 (coordsV c s) t).view.set
  | 2 => (chunk2 (coordsV c s) t).view.set
  | 3 => (chunk3 (coordsV c s) t).view.set
  | ⟨_ + 4, h⟩ => absurd h (Nat.not_lt.2 (Nat.le_add_left _ _))

/-- A task's words: those with numbers from 6656·(2s + c), 6656 of them. -/
theorem mem_idxSet (c : Fin (grid0.bound 0)) (s : Fin (grid0.bound 1)) (i : S212992.Idx) :
    i ∈ idxSet c s ↔ 13312 * s.val + 6656 * c.val ≤ (i 0).val ∧ (i 0).val < 13312 * s.val + 6656 * c.val + 6656 := by
  show i ∈ ((View.whole (main_v5_scv : Ref sig .scVector)).slice
    (Rect.unit (s := S212992) (k0_off1 (coordsV c s)) S6656.size (k0_off1_inb (coordsV c s)))).set ↔ _
  rw [View.set_slice_whole, Rect.mem_set_unit, k0_off1_eq]
  constructor
  · intro h
    exact h ⟨0, Nat.one_pos⟩
  · intro h a
    obtain ⟨a, ha⟩ := a
    have ha1 : a < 1 := ha
    have ha0 : a = 0 := by omega
    subst ha0
    exact h

/-- 128 whole rows from row `b` of the gathered array. -/
theorem mem_rows {b : Nat} {inb : ∀ a, (![b, 0] : Fin 2 → Nat) a + S128x128.size a ≤ S212992x128.size a} (i : S212992x128.Idx) :
    i ∈ (Rect.unit (s := S212992x128) ![b, 0] S128x128.size inb).set ↔ b ≤ (i 0).val ∧ (i 0).val < b + 128 := by
  rw [Rect.mem_set_unit]
  constructor
  · intro h
    exact h ⟨0, by decide⟩
  · intro h a
    match a with
    | ⟨0, _⟩ => exact h
    | ⟨1, _⟩ =>
      have h128 : (i 1).val < 128 := (i 1).isLt
      exact ⟨Nat.zero_le _, by show (i 1).val < 0 + 128; omega⟩

/-- A block's rows: 128 from 6656·(2s + c) + 512·t + 128·r. -/
theorem mem_chunkSet (c : Fin (grid0.bound 0)) (s : Fin (grid0.bound 1)) (t : Fin k0_t2_loop.trips) (r : Fin 4) (i : S212992x128.Idx) :
    i ∈ chunkSet c s t r ↔ 13312 * s.val + 6656 * c.val + 512 * t.val + 128 * r.val ≤ (i 0).val
      ∧ (i 0).val < 13312 * s.val + 6656 * c.val + 512 * t.val + 128 * r.val + 128 := by
  match r with
  | ⟨0, _⟩ =>
    show i ∈ ((View.whole (main_v6_scv : Ref sig .scVector)).slice
      (Rect.unit (s := S212992x128) (k0_off20 (coordsV c s) t 0#32) S128x128.size (k0_off20_inb (coordsV c s) t 0))).set ↔ _
    rw [View.set_slice_whole]
    have e : k0_off20 (coordsV c s) t 0#32 = ![13312 * s.val + 6656 * c.val + 512 * t.val + 128 * 0, 0] :=
      k0_off20_eq (coordsV c s) t ⟨0, by decide⟩
    rw [Rect.mem_set_unit, e, ← Rect.mem_set_unit (inb := e ▸ k0_off20_inb (coordsV c s) t 0)]
    exact mem_rows i
  | ⟨1, _⟩ =>
    show i ∈ ((View.whole (main_v6_scv : Ref sig .scVector)).slice
      (Rect.unit (s := S212992x128) (k0_off20 (coordsV c s) t 1#32) S128x128.size (k0_off20_inb (coordsV c s) t 1))).set ↔ _
    rw [View.set_slice_whole]
    have e : k0_off20 (coordsV c s) t 1#32 = ![13312 * s.val + 6656 * c.val + 512 * t.val + 128 * 1, 0] :=
      k0_off20_eq (coordsV c s) t ⟨1, by decide⟩
    rw [Rect.mem_set_unit, e, ← Rect.mem_set_unit (inb := e ▸ k0_off20_inb (coordsV c s) t 1)]
    exact mem_rows i
  | ⟨2, _⟩ =>
    show i ∈ ((View.whole (main_v6_scv : Ref sig .scVector)).slice
      (Rect.unit (s := S212992x128) (k0_off20 (coordsV c s) t 2#32) S128x128.size (k0_off20_inb (coordsV c s) t 2))).set ↔ _
    rw [View.set_slice_whole]
    have e : k0_off20 (coordsV c s) t 2#32 = ![13312 * s.val + 6656 * c.val + 512 * t.val + 128 * 2, 0] :=
      k0_off20_eq (coordsV c s) t ⟨2, by decide⟩
    rw [Rect.mem_set_unit, e, ← Rect.mem_set_unit (inb := e ▸ k0_off20_inb (coordsV c s) t 2)]
    exact mem_rows i
  | ⟨3, _⟩ =>
    show i ∈ ((View.whole (main_v6_scv : Ref sig .scVector)).slice
      (Rect.unit (s := S212992x128) (k0_off20 (coordsV c s) t 3#32) S128x128.size (k0_off20_inb (coordsV c s) t 3))).set ↔ _
    rw [View.set_slice_whole]
    have e : k0_off20 (coordsV c s) t 3#32 = ![13312 * s.val + 6656 * c.val + 512 * t.val + 128 * 3, 0] :=
      k0_off20_eq (coordsV c s) t ⟨3, by decide⟩
    rw [Rect.mem_set_unit, e, ← Rect.mem_set_unit (inb := e ▸ k0_off20_inb (coordsV c s) t 3)]
    exact mem_rows i

/-! ## The word ranges partition the flat index list -/

/-- The tasks, as pairs. -/
abbrev Task : Type := Fin (grid0.bound 0) × Fin (grid0.bound 1)
/-- A task's words. -/
abbrev idxSetP (p : Task) : Finset S212992.Idx := idxSet p.1 p.2

theorem idx_disjoint : ∀ p ∈ (Finset.univ : Finset Task), ∀ p' ∈ (Finset.univ : Finset Task), p ≠ p' → Disjoint (idxSetP p) (idxSetP p') := by
  intro p _ p' _ hne
  rw [Finset.disjoint_left]
  intro i hi hi'
  rw [mem_idxSet] at hi hi'
  have h1 : p.1.val < 2 := p.1.isLt
  have h2 : p.2.val < 16 := p.2.isLt
  have h1' : p'.1.val < 2 := p'.1.isLt
  have h2' : p'.2.val < 16 := p'.2.isLt
  exact hne (Prod.ext (Fin.ext (by omega)) (Fin.ext (by omega)))

theorem idx_cover : (Finset.univ : Finset Task).biUnion idxSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩), ?_⟩
  rw [mem_idxSet]
  show 13312 * ((i 0).val / 13312) + 6656 * ((i 0).val / 6656 % 2) ≤ (i 0).val
    ∧ (i 0).val < 13312 * ((i 0).val / 13312) + 6656 * ((i 0).val / 6656 % 2) + 6656
  omega

/-! ## The row blocks partition the gathered array -/

/-- The blocks: task, trip, slot. -/
abbrev Block : Type := Fin (grid0.bound 0) × Fin (grid0.bound 1) × Fin k0_t2_loop.trips × Fin 4
/-- A block's rows. -/
abbrev chunkSetP (p : Block) : Finset S212992x128.Idx := chunkSet p.1 p.2.1 p.2.2.1 p.2.2.2

theorem chunk_disjoint : ∀ p ∈ (Finset.univ : Finset Block), ∀ p' ∈ (Finset.univ : Finset Block), p ≠ p' → Disjoint (chunkSetP p) (chunkSetP p') := by
  intro p _ p' _ hne
  rw [Finset.disjoint_left]
  intro i hi hi'
  rw [mem_chunkSet] at hi hi'
  have h1 : p.1.val < 2 := p.1.isLt
  have h2 : p.2.1.val < 16 := p.2.1.isLt
  have h3 := trip_lt p.2.2.1
  have h4 : p.2.2.2.val < 4 := p.2.2.2.isLt
  have h1' : p'.1.val < 2 := p'.1.isLt
  have h2' : p'.2.1.val < 16 := p'.2.1.isLt
  have h3' := trip_lt p'.2.2.1
  have h4' : p'.2.2.2.val < 4 := p'.2.2.2.isLt
  exact hne (Prod.ext (Fin.ext (by omega)) (Prod.ext (Fin.ext (by omega)) (Prod.ext (Fin.ext (by omega)) (Fin.ext (by omega)))))

theorem chunk_cover : (Finset.univ : Finset Block).biUnion chunkSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩,
    ⟨(i 0).val % 6656 / 512, by rw [trips_eq]; omega⟩, ⟨(i 0).val % 512 / 128, by omega⟩), ?_⟩
  rw [mem_chunkSet]
  show 13312 * ((i 0).val / 13312) + 6656 * ((i 0).val / 6656 % 2) + 512 * ((i 0).val % 6656 / 512) + 128 * ((i 0).val % 512 / 128) ≤ (i 0).val
    ∧ (i 0).val < 13312 * ((i 0).val / 13312) + 6656 * ((i 0).val / 6656 % 2) + 512 * ((i 0).val % 6656 / 512) + 128 * ((i 0).val % 512 / 128) + 128
  omega

/-! ## The ownership of the two arrays, split along the pieces and joined back -/

section PointsTo

variable {F : FTy → Type} {U : Type} [URA U]

local notation "𝕄" => MT nD τ sig (HIx 2) (Elt F) ℕ U ℕ

/-- The flat index list and the gathered array of the first call, as locations of device `d`. -/
abbrev ℓ5 (d : Dev nD) : Loc nD τ sig := (SparseCore.T d).loc main_v5
abbrev ℓ6 (d : Dev nD) : Loc nD τ sig := (SparseCore.T d).loc main_v6

/-- An iterated conjunction over four slots is its four summands. -/
theorem bigSep_univ_four {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- The flat index list, at any share and contents, is the tasks' word ranges. -/
theorem pts5_split (d : Dev nD) (q : PosShare TreeShare) (f : Buf (Elt F) (ℓ5 d)) :
    (ℓ5 d ↦{q} f : sProp 𝕄)
      = bigSep Finset.univ fun c : Fin (grid0.bound 0) => bigSep Finset.univ fun s : Fin (grid0.bound 1) => ℓ5 d ↦[idxSet c s]{q} f := by
  have h := pointsTo_biUnion (Ix := HIx 2) (Val := Elt F) (Name := ℕ) (U := U) (Lvl := ℕ) (Finset.univ : Finset Task) (ℓ := ℓ5 d) (q := q) (f := f)
    idxSetP idx_disjoint
  rw [idx_cover] at h
  refine h.trans ?_
  exact bigSep_univ_prod (fun p : Task => (ℓ5 d ↦[idxSetP p]{q} f : sProp 𝕄))

/-- The gathered array, at any share and contents, is the tasks' trips' four row blocks. -/
theorem pts6_split (d : Dev nD) (q : PosShare TreeShare) (f : Buf (Elt F) (ℓ6 d)) :
    (ℓ6 d ↦{q} f : sProp 𝕄)
      = bigSep Finset.univ fun c : Fin (grid0.bound 0) => bigSep Finset.univ fun s : Fin (grid0.bound 1) =>
          bigSep Finset.univ fun t : Fin k0_t2_loop.trips =>
            iprop((ℓ6 d ↦[chunkSet c s t 0]{q} f) ∗ (ℓ6 d ↦[chunkSet c s t 1]{q} f) ∗ (ℓ6 d ↦[chunkSet c s t 2]{q} f)
              ∗ (ℓ6 d ↦[chunkSet c s t 3]{q} f)) := by
  have h := pointsTo_biUnion (Ix := HIx 2) (Val := Elt F) (Name := ℕ) (U := U) (Lvl := ℕ) (Finset.univ : Finset Block) (ℓ := ℓ6 d) (q := q) (f := f)
    chunkSetP chunk_disjoint
  rw [chunk_cover] at h
  refine h.trans ?_
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (ℓ6 d ↦[chunkSet c s t r]{q} f : sProp 𝕄))

/-- The row blocks, each held at contents of its own, in the nested form and over the blocks as one family. -/
theorem pts6_pieces_eq (d : Dev nD) (q : PosShare TreeShare) :
    (bigSep Finset.univ fun c : Fin (grid0.bound 0) => bigSep Finset.univ fun s : Fin (grid0.bound 1) =>
        bigSep Finset.univ fun t : Fin k0_t2_loop.trips =>
          (iprop((∃ f, ℓ6 d ↦[chunkSet c s t 0]{q} f) ∗ (∃ f, ℓ6 d ↦[chunkSet c s t 1]{q} f) ∗ (∃ f, ℓ6 d ↦[chunkSet c s t 2]{q} f)
            ∗ (∃ f, ℓ6 d ↦[chunkSet c s t 3]{q} f)) : sProp 𝕄))
      = bigSep (Finset.univ : Finset Block) fun p => (iprop(∃ f, ℓ6 d ↦[chunkSetP p]{q} f) : sProp 𝕄) := by
  symm
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (iprop(∃ f, ℓ6 d ↦[chunkSet c s t r]{q} f) : sProp 𝕄))

/-- THE JOIN: the row blocks, each held whole at whatever contents, are the gathered array held whole at some contents. -/
theorem pts6_join [FloatOps F] (d : Dev nD) :
    (bigSep Finset.univ fun c : Fin (grid0.bound 0) => bigSep Finset.univ fun s : Fin (grid0.bound 1) =>
        bigSep Finset.univ fun t : Fin k0_t2_loop.trips =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))
      ⊢ (iprop(∃ f, ℓ6 d ↦{fullShare} f) : sProp 𝕄) := by
  have p0 : Block := (⟨0, by decide⟩, ⟨0, by decide⟩, ⟨0, by rw [trips_eq]; decide⟩, (0 : Fin 4))
  rw [pts6_pieces_eq]
  refine (bigSep_exists_pi Finset.univ (fun (p : Block) (f : Buf (Elt F) (ℓ6 d)) => (ℓ6 d ↦[chunkSetP p]{fullShare} f : sProp 𝕄))).trans ?_
  iintro ⟨%fs, H⟩
  have hj := pointsTo_biUnion_join (Ix := HIx 2) (Val := Elt F) (Name := ℕ) (U := U) (Lvl := ℕ) (ℓ := ℓ6 d) (q := fullShare)
    (Finset.univ : Finset Block) chunkSetP fs (fs p0) chunk_disjoint
  rw [chunk_cover] at hj
  ihave H' := hj $$ H
  icases H' with ⟨%g, -, Hg⟩
  iexists g; iexact Hg

/-! ### A piece's location as a task spells it

A task names a piece through its own view of the array; the location is the array's, whichever thread of the device
names it. -/

theorem loc_idxSl (d : Dev nD) (c' : Fin τ.nSC) (s' : Fin τ.nSub) (L : grid0.Coords) :
    (idxSl L).view.loc (V d c' s') = ℓ5 d := rfl
theorem loc_chunk0 (d : Dev nD) (c' : Fin τ.nSC) (s' : Fin τ.nSub) (L : grid0.Coords) (t : Fin k0_t2_loop.trips) :
    (chunk0 L t).view.loc (V d c' s') = ℓ6 d := rfl
theorem loc_chunk1 (d : Dev nD) (c' : Fin τ.nSC) (s' : Fin τ.nSub) (L : grid0.Coords) (t : Fin k0_t2_loop.trips) :
    (chunk1 L t).view.loc (V d c' s') = ℓ6 d := rfl
theorem loc_chunk2 (d : Dev nD) (c' : Fin τ.nSC) (s' : Fin τ.nSub) (L : grid0.Coords) (t : Fin k0_t2_loop.trips) :
    (chunk2 L t).view.loc (V d c' s') = ℓ6 d := rfl
theorem loc_chunk3 (d : Dev nD) (c' : Fin τ.nSC) (s' : Fin τ.nSub) (L : grid0.Coords) (t : Fin k0_t2_loop.trips) :
    (chunk3 L t).view.loc (V d c' s') = ℓ6 d := rfl

/-- A task's word range, as the task holds it, is that piece of the flat index list. -/
theorem pts_idxSl (d : Dev nD) (c' : Fin τ.nSC) (s' : Fin τ.nSub) (c : Fin (grid0.bound 0)) (s : Fin (grid0.bound 1))
    (q : PosShare TreeShare) (f : Buf (Elt F) (ℓ5 d)) :
    ((idxSl (coordsV c s)).view.loc (V d c' s') ↦[(idxSl (coordsV c s)).view.set]{q} f : sProp 𝕄) = ℓ5 d ↦[idxSet c s]{q} f := rfl
/-- A row block, as the task holds it, is that piece of the gathered array. -/
theorem pts_chunk0 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk0 (coordsV c s) t).view.loc (V d c' s') ↦[(chunk0 (coordsV c s) t).view.set]{q} f : sProp 𝕄) = ℓ6 d ↦[chunkSet c s t 0]{q} f := rfl
theorem pts_chunk1 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk1 (coordsV c s) t).view.loc (V d c' s') ↦[(chunk1 (coordsV c s) t).view.set]{q} f : sProp 𝕄) = ℓ6 d ↦[chunkSet c s t 1]{q} f := rfl
theorem pts_chunk2 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk2 (coordsV c s) t).view.loc (V d c' s') ↦[(chunk2 (coordsV c s) t).view.set]{q} f : sProp 𝕄) = ℓ6 d ↦[chunkSet c s t 2]{q} f := rfl
theorem pts_chunk3 (d : Dev nD) (c' : Fin τ.nSC) (s' : Fin τ.nSub) (c : Fin (grid0.bound 0)) (s : Fin (grid0.bound 1))
    (t : Fin k0_t2_loop.trips) (q : PosShare TreeShare) (f : Buf (Elt F) (ℓ6 d)) :
    ((chunk3 (coordsV c s) t).view.loc (V d c' s') ↦[(chunk3 (coordsV c s) t).view.set]{q} f : sProp 𝕄) = ℓ6 d ↦[chunkSet c s t 3]{q} f := rfl

end PointsTo

end Cert.Proof.ScK0

end
-- ==== Proof.ScCall0K.lean ====
/-
  The first gather call's operands, split among the 32 tasks and joined back: the embedding table's full share into 32
  independent read shares, one per task, each into the four read tokens of the task's gather semaphores (what is left
  of every share is kept for the way back); the index list into the tasks' word ranges; the gathered array into the
  tasks' row blocks, each handed at whatever it holds.
-/
import proofs.«202673_g7318624272670_cont_9to1c4b_526_24_alg».proof.Proof.ScMainK
import proofs.«202673_g7318624272670_cont_9to1c4b_526_24_alg».proof.Proof.ScPartK0

noncomputable section

namespace Cert.Proof.ScK

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## Regrouping -/

theorem assoc3 (A B C : sProp 𝕄) : iprop(A ∗ B ∗ C) = iprop((A ∗ B) ∗ C) :=
  BI.Entails.antisymm
    (show (iprop(A ∗ B ∗ C) : sProp 𝕄) ⊢ iprop((A ∗ B) ∗ C) from by
      iintro ⟨HA, HB, HC⟩
      isplitl [HA HB]
      · isplitl [HA]; · iexact HA
        iexact HB
      iexact HC)
    (show (iprop((A ∗ B) ∗ C) : sProp 𝕄) ⊢ iprop(A ∗ B ∗ C) from by
      iintro ⟨⟨HA, HB⟩, HC⟩
      isplitl [HA]; · iexact HA
      isplitl [HB]; · iexact HB
      iexact HC)

theorem regroup6 (a b c e x y : sProp 𝕄) : iprop(a ∗ b ∗ c ∗ e ∗ x ∗ y) = iprop((a ∗ b ∗ c ∗ e) ∗ x ∗ y) :=
  BI.Entails.antisymm
    (show (iprop(a ∗ b ∗ c ∗ e ∗ x ∗ y) : sProp 𝕄) ⊢ iprop((a ∗ b ∗ c ∗ e) ∗ x ∗ y) from by
      iintro ⟨Ha, Hb, Hc, He, Hx, Hy⟩
      isplitl [Ha Hb Hc He]
      · isplitl [Ha]; · iexact Ha
        isplitl [Hb]; · iexact Hb
        isplitl [Hc]; · iexact Hc
        iexact He
      isplitl [Hx]; · iexact Hx
      iexact Hy)
    (show (iprop((a ∗ b ∗ c ∗ e) ∗ x ∗ y) : sProp 𝕄) ⊢ iprop(a ∗ b ∗ c ∗ e ∗ x ∗ y) from by
      iintro ⟨⟨Ha, Hb, Hc, He⟩, Hx, Hy⟩
      isplitl [Ha]; · iexact Ha
      isplitl [Hb]; · iexact Hb
      isplitl [Hc]; · iexact Hc
      isplitl [He]; · iexact He
      isplitl [Hx]; · iexact Hx
      iexact Hy)

theorem weaken4 {X : Type} (P0 P1 P2 P3 : X → sProp 𝕄) (g : X) :
    (iprop(P0 g ∗ P1 g ∗ P2 g ∗ P3 g) : sProp 𝕄) ⊢ iprop((∃ f, P0 f) ∗ (∃ f, P1 f) ∗ (∃ f, P2 f) ∗ ∃ f, P3 f) := by
  iintro ⟨H0, H1, H2, H3⟩
  isplitl [H0]; · iexists g; iexact H0
  isplitl [H1]; · iexists g; iexact H1
  isplitl [H2]; · iexists g; iexact H2
  iexists g; iexact H3

/-- A double iterated conjunction of three-fold conjunctions is the three double iterated conjunctions. -/
theorem split3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i) ∗ (bigSep Finset.univ fun c => bigSep Finset.univ fun i => B c i)
          ∗ (bigSep Finset.univ fun c => bigSep Finset.univ fun i => C c i)) := by
  rw [bigSep_congr fun c _ => bigSep_sep' Finset.univ (A c) (fun i => iprop(B c i ∗ C c i)),
    bigSep_sep' Finset.univ (fun c => bigSep Finset.univ (A c)) (fun c => bigSep Finset.univ fun i => iprop(B c i ∗ C c i)),
    bigSep_congr fun c _ => bigSep_sep' Finset.univ (B c) (C c),
    bigSep_sep' Finset.univ (fun c => bigSep Finset.univ (B c)) (fun c => bigSep Finset.univ (C c))]

/-! ## Read tokens of one buffer -/

section Tokens

variable {ℓ : Loc nD τ sig} (f : Buf (Elt F) ℓ)

/-- Tokens `a, a+1, a+2, a+3` of share `q`. -/
def tok4 (q : PosShare TreeShare) (a : ℕ) : sProp 𝕄 :=
  iprop((ℓ ↦{Transfers.shareTokN q a} f) ∗ (ℓ ↦{Transfers.shareTokN q (a + 1)} f) ∗ (ℓ ↦{Transfers.shareTokN q (a + 2)} f)
    ∗ (ℓ ↦{Transfers.shareTokN q (a + 3)} f))

theorem range4 (Φ : ℕ → sProp 𝕄) : bigSep (Finset.range 4) Φ = iprop(Φ 0 ∗ Φ 1 ∗ Φ 2 ∗ Φ 3) := by
  rw [show Finset.range 4 = {0, 1, 2, 3} by decide, SparseCore.bigSep_insert' (by decide), SparseCore.bigSep_insert' (by decide),
    SparseCore.bigSep_insert' (by decide), bigSep_singleton]

/-- A share is its first four tokens and what is left. -/
theorem toks4 (q : PosShare TreeShare) :
    (ℓ ↦{q} f : sProp 𝕄) ⊣⊢ iprop((ℓ ↦{Transfers.shareDrop q 4} f) ∗ tok4 f q 0) := by
  have h := Transfers.pointsTo_toks_range (Ix := HIx 2) (Val := Elt F) (Name := ℕ) (U := UU) (Lvl := ℕ) (ℓ := ℓ) (S := Finset.univ) (f := f) q 4
  rw [range4] at h
  exact h

theorem toks4_eq (q : PosShare TreeShare) :
    (ℓ ↦{q} f : sProp 𝕄) = iprop((ℓ ↦{Transfers.shareDrop q 4} f) ∗ tok4 f q 0) :=
  (toks4 f q).1.antisymm (toks4 f q).2

theorem range32 (Φ : ℕ → sProp 𝕄) :
    bigSep (Finset.range 32) Φ = bigSep (Finset.univ : Finset (Fin 2)) fun c => bigSep (Finset.univ : Finset (Fin 16)) fun i => Φ (16 * c.val + i.val) := by
  have himg : Finset.range 32 = ((Finset.univ : Finset (Fin 2)) ×ˢ (Finset.univ : Finset (Fin 16))).image (fun p => 16 * p.1.val + p.2.val) := by decide
  rw [himg, SparseCore.bigSep_image_of_injOn (by
    intro p _ p' _ h
    obtain ⟨c, i⟩ := p; obtain ⟨c', i'⟩ := p'
    change 16 * c.val + i.val = 16 * c'.val + i'.val at h
    have := i.isLt; have := i'.isLt
    have hc : c = c' := Fin.ext (by omega)
    have hi : i = i' := Fin.ext (by omega)
    rw [hc, hi]), SparseCore.bigSep_product]

/-- The full share is 32 independent read shares (one per task) and what is left. -/
theorem toks32_eq :
    (ℓ ↦{fullShare} f : sProp 𝕄) = iprop((ℓ ↦{Transfers.shareDrop fullShare 32} f)
      ∗ bigSep (Finset.univ : Finset (Fin 2)) fun c => bigSep (Finset.univ : Finset (Fin 16)) fun i => ℓ ↦{qT c.val i.val} f) := by
  have h := Transfers.pointsTo_toks_range (Ix := HIx 2) (Val := Elt F) (Name := ℕ) (U := UU) (Lvl := ℕ) (ℓ := ℓ) (S := Finset.univ) (f := f) fullShare 32
  rw [range32] at h
  exact h.1.antisymm h.2

/-- The full share is, per task, its four read tokens, and what is left of every share. -/
theorem tbl_eq0 :
    (ℓ ↦{fullShare} f : sProp 𝕄) = iprop(((ℓ ↦{Transfers.shareDrop fullShare 32} f)
        ∗ bigSep (Finset.univ : Finset (Fin 2)) fun c => bigSep (Finset.univ : Finset (Fin 16)) fun i => ℓ ↦{Transfers.shareDrop (qT c.val i.val) 4} f)
      ∗ bigSep (Finset.univ : Finset (Fin 2)) fun c => bigSep (Finset.univ : Finset (Fin 16)) fun i => tok4 f (qT c.val i.val) 0) := by
  rw [toks32_eq f, bigSep_congr fun c _ => bigSep_congr fun i _ => toks4_eq f (qT c.val i.val)]
  rw [bigSep_congr fun c _ => bigSep_sep' Finset.univ (fun i : Fin 16 => (ℓ ↦{Transfers.shareDrop (qT c.val i.val) 4} f : sProp 𝕄)) (fun i : Fin 16 => tok4 f (qT c.val i.val) 0),
    bigSep_sep' Finset.univ (fun c : Fin 2 => bigSep Finset.univ fun i : Fin 16 => (ℓ ↦{Transfers.shareDrop (qT c.val i.val) 4} f : sProp 𝕄))
      (fun c : Fin 2 => bigSep Finset.univ fun i : Fin 16 => tok4 f (qT c.val i.val) 0)]
  exact assoc3 _ _ _

/-- `tbl_eq0` over any two index types of 2 and 16 elements. -/
theorem tbl_eq0' {n1 n2 : ℕ} (h1 : n1 = 2) (h2 : n2 = 16) :
    (ℓ ↦{fullShare} f : sProp 𝕄) = iprop(((ℓ ↦{Transfers.shareDrop fullShare 32} f)
        ∗ bigSep (Finset.univ : Finset (Fin n1)) fun c => bigSep (Finset.univ : Finset (Fin n2)) fun i => ℓ ↦{Transfers.shareDrop (qT c.val i.val) 4} f)
      ∗ bigSep (Finset.univ : Finset (Fin n1)) fun c => bigSep (Finset.univ : Finset (Fin n2)) fun i => tok4 f (qT c.val i.val) 0) := by
  subst h1 h2; exact tbl_eq0 f

end Tokens

theorem bigSep_cast {n n' : ℕ} (h : n = n') (Φ : Fin n' → sProp 𝕄) :
    (bigSep Finset.univ fun i : Fin n => Φ (Fin.cast h i)) = bigSep Finset.univ Φ := by
  subst h; rfl

/-! ## The first call's operands -/

section Call0

open Cert.Proof.ScK0 (idxSet chunkSet ℓ5 ℓ6 pts5_split pts6_split pts6_join)

variable (m : (ℓ : Loc nD τ sig) → Buf (Elt F) ℓ) (d : Dev nD)

abbrev ℓ0 (d : Dev nD) : Loc nD τ sig := (SparseCore.T d : Thread nD τ).loc main_v0

/-- Every task's four read tokens of the table. -/
abbrev TOK0 : sProp 𝕄 :=
  bigSep (Finset.univ : Finset (Fin (grid0.bound 0))) fun c => bigSep (Finset.univ : Finset (Fin (grid0.bound 1))) fun s =>
    tok4 (ℓ := ℓ0 d) (Tb m d) (qT c.val s.val) 0
/-- Every task's words of the index list. -/
abbrev IDX0 : sProp 𝕄 :=
  bigSep (Finset.univ : Finset (Fin (grid0.bound 0))) fun c => bigSep (Finset.univ : Finset (Fin (grid0.bound 1))) fun s =>
    (ℓ5 d ↦[idxSet c s]{fullShare} Iv0 m d : sProp 𝕄)
/-- Every task's row blocks of the gathered array, each at some contents. -/
abbrev ROWS0 : sProp 𝕄 :=
  bigSep (Finset.univ : Finset (Fin (grid0.bound 0))) fun c => bigSep (Finset.univ : Finset (Fin (grid0.bound 1))) fun s =>
    bigSep (Finset.univ : Finset (Fin k0_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄)

/-- A SparseCore's operands, over the grid's own index types: task by task. -/
theorem st0_tile :
    (bigSep Finset.univ fun c : Fin ((K (F := F)).nCore 0) => (PP m).st 0 d c : sProp 𝕄)
      = bigSep Finset.univ fun c : Fin (grid0.bound 0) => bigSep Finset.univ fun s : Fin (grid0.bound 1) =>
          Cert.Proof.ScK0.tileRes d (Cert.Proof.ScK0.coordsV c s) (qT c.val s.val) (Tb m d) (Iv0 m d) := by
  refine Eq.trans ?_ (bigSep_cast (nCore0 (F := F)) (fun c => bigSep Finset.univ fun s : Fin (grid0.bound 1) =>
    (Cert.Proof.ScK0.tileRes d (Cert.Proof.ScK0.coordsV c s) (qT c.val s.val) (Tb m d) (Iv0 m d) : sProp 𝕄)))
  refine bigSep_congr fun c _ => ?_
  refine Eq.trans ?_ (bigSep_cast (nSub0 (F := F)) (fun s =>
    (Cert.Proof.ScK0.tileRes d (Cert.Proof.ScK0.coordsV (Fin.cast (nCore0 (F := F)) c) s) (qT c.val s.val) (Tb m d) (Iv0 m d) : sProp 𝕄)))
  show (bigSep Finset.univ fun i => goRes (Tb m) (Iv0 m) (Iv1 m) 0 d c i) = _
  refine bigSep_congr fun i _ => ?_
  rfl
theorem dn0_tile :
    (bigSep Finset.univ fun c : Fin ((K (F := F)).nCore 0) => (PP m).dn 0 d c : sProp 𝕄)
      = bigSep Finset.univ fun c : Fin (grid0.bound 0) => bigSep Finset.univ fun s : Fin (grid0.bound 1) =>
          Cert.Proof.ScK0.tileRes d (Cert.Proof.ScK0.coordsV c s) (qT c.val s.val) (Tb m d) (Iv0 m d) := by
  refine Eq.trans ?_ (bigSep_cast (nCore0 (F := F)) (fun c => bigSep Finset.univ fun s : Fin (grid0.bound 1) =>
    (Cert.Proof.ScK0.tileRes d (Cert.Proof.ScK0.coordsV c s) (qT c.val s.val) (Tb m d) (Iv0 m d) : sProp 𝕄)))
  refine bigSep_congr fun c _ => ?_
  refine Eq.trans ?_ (bigSep_cast (nSub0 (F := F)) (fun s =>
    (Cert.Proof.ScK0.tileRes d (Cert.Proof.ScK0.coordsV (Fin.cast (nCore0 (F := F)) c) s) (qT c.val s.val) (Tb m d) (Iv0 m d) : sProp 𝕄)))
  show (bigSep Finset.univ fun i => goRes (Tb m) (Iv0 m) (Iv1 m) 0 d c i) = _
  refine bigSep_congr fun i _ => ?_
  rfl

/-- The tasks' operands regrouped: all tokens, all word ranges, all row blocks. -/
theorem tiles0_eq :
    (bigSep Finset.univ fun c : Fin (grid0.bound 0) => bigSep Finset.univ fun s : Fin (grid0.bound 1) =>
        (Cert.Proof.ScK0.tileRes d (Cert.Proof.ScK0.coordsV c s) (qT c.val s.val) (Tb m d) (Iv0 m d) : sProp 𝕄))
      = iprop(TOK0 m d ∗ IDX0 m d ∗ ROWS0 (F := F) d) := by
  have hgo : ∀ (c : Fin (grid0.bound 0)) (s : Fin (grid0.bound 1)),
      (Cert.Proof.ScK0.tileRes d (Cert.Proof.ScK0.coordsV c s) (qT c.val s.val) (Tb m d) (Iv0 m d) : sProp 𝕄)
      = iprop(tok4 (ℓ := ℓ0 d) (Tb m d) (qT c.val s.val) 0 ∗ ((ℓ5 d ↦[idxSet c s]{fullShare} Iv0 m d : sProp 𝕄)
        ∗ bigSep (Finset.univ : Finset (Fin k0_t2_loop.trips)) fun t =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))) :=
    fun c s => regroup6 _ _ _ _ _ _
  refine Eq.trans (bigSep_congr fun c _ => bigSep_congr fun s _ => hgo c s) ?_
  exact split3 (fun (c : Fin (grid0.bound 0)) (s : Fin (grid0.bound 1)) => tok4 (ℓ := ℓ0 d) (Tb m d) (qT c.val s.val) 0)
    (fun (c : Fin (grid0.bound 0)) (s : Fin (grid0.bound 1)) => (ℓ5 d ↦[idxSet c s]{fullShare} Iv0 m d : sProp 𝕄))
    (fun (c : Fin (grid0.bound 0)) (s : Fin (grid0.bound 1)) => bigSep (Finset.univ : Finset (Fin k0_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄))

/-- The row blocks at contents `g` are row blocks at some contents. -/
theorem rows_weaken (g : Buf (Elt F) (ℓ6 d)) :
    (bigSep (Finset.univ : Finset (Fin (grid0.bound 0))) fun c => bigSep (Finset.univ : Finset (Fin (grid0.bound 1))) fun s =>
        bigSep (Finset.univ : Finset (Fin k0_t2_loop.trips)) fun t =>
          (iprop((ℓ6 d ↦[chunkSet c s t 0]{fullShare} g) ∗ (ℓ6 d ↦[chunkSet c s t 1]{fullShare} g) ∗ (ℓ6 d ↦[chunkSet c s t 2]{fullShare} g)
            ∗ (ℓ6 d ↦[chunkSet c s t 3]{fullShare} g)) : sProp 𝕄))
      ⊢ ROWS0 (F := F) d :=
  bigSep_mono fun c _ => bigSep_mono fun s _ => bigSep_mono fun t _ =>
    weaken4 (fun f => (ℓ6 d ↦[chunkSet c s t 0]{fullShare} f : sProp 𝕄)) (fun f => ℓ6 d ↦[chunkSet c s t 1]{fullShare} f)
      (fun f => ℓ6 d ↦[chunkSet c s t 2]{fullShare} f) (fun f => ℓ6 d ↦[chunkSet c s t 3]{fullShare} f) g

/-- **The first call's operand split and join.** -/
theorem hcall0 :
    iprop(((SparseCore.T d : Thread nD τ).loc main_v0 ↦{fullShare} Tb m d) ∗ ((SparseCore.T d : Thread nD τ).loc main_v5 ↦{fullShare} Iv0 m d)
        ∗ ((SparseCore.T d : Thread nD τ).loc main_v6 ↦{fullShare} W6 m d (r main_v6)))
      ⊢ (iprop((bigSep Finset.univ fun c : Fin ((K (F := F)).nCore 0) => (PP m).st 0 d c)
          ∗ ((bigSep Finset.univ fun c : Fin ((K (F := F)).nCore 0) => (PP m).dn 0 d c)
              -∗ iprop(((SparseCore.T d : Thread nD τ).loc main_v0 ↦{fullShare} Tb m d) ∗ ((SparseCore.T d : Thread nD τ).loc main_v5 ↦{fullShare} Iv0 m d)
                ∗ ∃ f, (SparseCore.T d : Thread nD τ).loc main_v6 ↦{fullShare} f))) : sProp 𝕄) := by
  rw [st0_tile m d, dn0_tile m d, tiles0_eq m d,
    tbl_eq0' (ℓ := ℓ0 d) (Tb m d) (n1 := grid0.bound 0) (n2 := grid0.bound 1) rfl rfl]
  iintro ⟨⟨HR, HT⟩, H5, H6⟩
  ihave HI := (Entails.of_eq (pts5_split (U := UU) d fullShare (Iv0 m d))) $$ H5
  ihave HRw := (Entails.of_eq (pts6_split (U := UU) d fullShare (W6 m d (r main_v6)))) $$ H6
  ihave HE := (rows_weaken (F := F) d (W6 m d (r main_v6))) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv0 m d)).symm); iexact HI
  iapply (pts6_join (U := UU) (F := F) d); iexact HE

end Call0

end Cert.Proof.ScK

end
-- ==== Proof.ScPartK1.lean ====
/-
  How the thirty-two tasks of the second gather share its two arrays. Task (c, s) — core c of 2, subcore s of 16 — reads
  the 6656 consecutive words of the flat index list that start at 6656·(2s + c), and writes the 6656 rows of the
  gathered array with the same numbers, in 13 trips of 4 blocks of 128 rows: block r of trip t starts at row
  6656·(2s + c) + 512·t + 128·r. The 32 word ranges are pairwise disjoint and together are the whole list; the
  32·13·4 row blocks are pairwise disjoint and together are the whole array. Hence the ownership of each array splits
  into the ownership of the pieces, and pieces held at whatever contents join back into the whole array at some
  contents.
-/
import proofs.«202673_g7318624272670_cont_9to1c4b_526_24_alg».proof.Proof.ScSetsK1
import Idealize.ShloMosaic.Lib.SparseCore.Launch
import Idealize.ShloMosaic.Rules.PointsTo

noncomputable section

namespace Cert.Proof.ScK1

open Cert.Kernel Cert.Kernel.Gen Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- The loop over a task's blocks makes thirteen trips. -/
theorem trips_eq : k1_t2_loop.trips = 13 := by decide

theorem trip_lt (t : Fin k1_t2_loop.trips) : t.val < 13 := Nat.lt_of_lt_of_eq t.isLt trips_eq

/-! ## The pieces as sets of indices -/

/-- Task (c, s)'s words of the flat index list. -/
abbrev idxSet (c : Fin (grid1.bound 0)) (s : Fin (grid1.bound 1)) : Finset S212992.Idx := (idxSl (coordsV c s)).view.set

/-- Block `r` of trip `t` of task (c, s)'s rows of the gathered array. -/
abbrev chunkSet (c : Fin (grid1.bound 0)) (s : Fin (grid1.bound 1)) (t : Fin k1_t2_loop.trips) : Fin 4 → Finset S212992x128.Idx
  | 0 => (chunk0 (coordsV c s) t).view.set
  | 1 => (chunk1 (coordsV c s) t).view.set
  | 2 => (chunk2 (coordsV c s) t).view.set
  | 3 => (chunk3 (coordsV c s) t).view.set
  | ⟨_ + 4, h⟩ => absurd h (Nat.not_lt.2 (Nat.le_add_left _ _))

/-- A task's words: those with numbers from 6656·(2s + c), 6656 of them. -/
theorem mem_idxSet (c : Fin (grid1.bound 0)) (s : Fin (grid1.bound 1)) (i : S212992.Idx) :
    i ∈ idxSet c s ↔ 13312 * s.val + 6656 * c.val ≤ (i 0).val ∧ (i 0).val < 13312 * s.val + 6656 * c.val + 6656 := by
  show i ∈ ((View.whole (main_v8_scv : Ref sig .scVector)).slice
    (Rect.unit (s := S212992) (k1_off1 (coordsV c s)) S6656.size (k1_off1_inb (coordsV c s)))).set ↔ _
  rw [View.set_slice_whole, Rect.mem_set_unit, k1_off1_eq]
  constructor
  · intro h
    exact h ⟨0, Nat.one_pos⟩
  · intro h a
    obtain ⟨a, ha⟩ := a
    have ha1 : a < 1 := ha
    have ha0 : a = 0 := by omega
    subst ha0
    exact h

/-- 128 whole rows from row `b` of the gathered array. -/
theorem mem_rows {b : Nat} {inb : ∀ a, (![b, 0] : Fin 2 → Nat) a + S128x128.size a ≤ S212992x128.size a} (i : S212992x128.Idx) :
    i ∈ (Rect.unit (s := S212992x128) ![b, 0] S128x128.size inb).set ↔ b ≤ (i 0).val ∧ (i 0).val < b + 128 := by
  rw [Rect.mem_set_unit]
  constructor
  · intro h
    exact h ⟨0, by decide⟩
  · intro h a
    match a with
    | ⟨0, _⟩ => exact h
    | ⟨1, _⟩ =>
      have h128 : (i 1).val < 128 := (i 1).isLt
      exact ⟨Nat.zero_le _, by show (i 1).val < 0 + 128; omega⟩

/-- A block's rows: 128 from 6656·(2s + c) + 512·t + 128·r. -/
theorem mem_chunkSet (c : Fin (grid1.bound 0)) (s : Fin (grid1.bound 1)) (t : Fin k1_t2_loop.trips) (r : Fin 4) (i : S212992x128.Idx) :
    i ∈ chunkSet c s t r ↔ 13312 * s.val + 6656 * c.val + 512 * t.val + 128 * r.val ≤ (i 0).val
      ∧ (i 0).val < 13312 * s.val + 6656 * c.val + 512 * t.val + 128 * r.val + 128 := by
  match r with
  | ⟨0, _⟩ =>
    show i ∈ ((View.whole (main_v9_scv : Ref sig .scVector)).slice
      (Rect.unit (s := S212992x128) (k1_off20 (coordsV c s) t 0#32) S128x128.size (k1_off20_inb (coordsV c s) t 0))).set ↔ _
    rw [View.set_slice_whole]
    have e : k1_off20 (coordsV c s) t 0#32 = ![13312 * s.val + 6656 * c.val + 512 * t.val + 128 * 0, 0] :=
      k1_off20_eq (coordsV c s) t ⟨0, by decide⟩
    rw [Rect.mem_set_unit, e, ← Rect.mem_set_unit (inb := e ▸ k1_off20_inb (coordsV c s) t 0)]
    exact mem_rows i
  | ⟨1, _⟩ =>
    show i ∈ ((View.whole (main_v9_scv : Ref sig .scVector)).slice
      (Rect.unit (s := S212992x128) (k1_off20 (coordsV c s) t 1#32) S128x128.size (k1_off20_inb (coordsV c s) t 1))).set ↔ _
    rw [View.set_slice_whole]
    have e : k1_off20 (coordsV c s) t 1#32 = ![13312 * s.val + 6656 * c.val + 512 * t.val + 128 * 1, 0] :=
      k1_off20_eq (coordsV c s) t ⟨1, by decide⟩
    rw [Rect.mem_set_unit, e, ← Rect.mem_set_unit (inb := e ▸ k1_off20_inb (coordsV c s) t 1)]
    exact mem_rows i
  | ⟨2, _⟩ =>
    show i ∈ ((View.whole (main_v9_scv : Ref sig .scVector)).slice
      (Rect.unit (s := S212992x128) (k1_off20 (coordsV c s) t 2#32) S128x128.size (k1_off20_inb (coordsV c s) t 2))).set ↔ _
    rw [View.set_slice_whole]
    have e : k1_off20 (coordsV c s) t 2#32 = ![13312 * s.val + 6656 * c.val + 512 * t.val + 128 * 2, 0] :=
      k1_off20_eq (coordsV c s) t ⟨2, by decide⟩
    rw [Rect.mem_set_unit, e, ← Rect.mem_set_unit (inb := e ▸ k1_off20_inb (coordsV c s) t 2)]
    exact mem_rows i
  | ⟨3, _⟩ =>
    show i ∈ ((View.whole (main_v9_scv : Ref sig .scVector)).slice
      (Rect.unit (s := S212992x128) (k1_off20 (coordsV c s) t 3#32) S128x128.size (k1_off20_inb (coordsV c s) t 3))).set ↔ _
    rw [View.set_slice_whole]
    have e : k1_off20 (coordsV c s) t 3#32 = ![13312 * s.val + 6656 * c.val + 512 * t.val + 128 * 3, 0] :=
      k1_off20_eq (coordsV c s) t ⟨3, by decide⟩
    rw [Rect.mem_set_unit, e, ← Rect.mem_set_unit (inb := e ▸ k1_off20_inb (coordsV c s) t 3)]
    exact mem_rows i

/-! ## The word ranges partition the flat index list -/

/-- The tasks, as pairs. -/
abbrev Task : Type := Fin (grid1.bound 0) × Fin (grid1.bound 1)
/-- A task's words. -/
abbrev idxSetP (p : Task) : Finset S212992.Idx := idxSet p.1 p.2

theorem idx_disjoint : ∀ p ∈ (Finset.univ : Finset Task), ∀ p' ∈ (Finset.univ : Finset Task), p ≠ p' → Disjoint (idxSetP p) (idxSetP p') := by
  intro p _ p' _ hne
  rw [Finset.disjoint_left]
  intro i hi hi'
  rw [mem_idxSet] at hi hi'
  have h1 : p.1.val < 2 := p.1.isLt
  have h2 : p.2.val < 16 := p.2.isLt
  have h1' : p'.1.val < 2 := p'.1.isLt
  have h2' : p'.2.val < 16 := p'.2.isLt
  exact hne (Prod.ext (Fin.ext (by omega)) (Fin.ext (by omega)))

theorem idx_cover : (Finset.univ : Finset Task).biUnion idxSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩), ?_⟩
  rw [mem_idxSet]
  show 13312 * ((i 0).val / 13312) + 6656 * ((i 0).val / 6656 % 2) ≤ (i 0).val
    ∧ (i 0).val < 13312 * ((i 0).val / 13312) + 6656 * ((i 0).val / 6656 % 2) + 6656
  omega

/-! ## The row blocks partition the gathered array -/

/-- The blocks: task, trip, slot. -/
abbrev Block : Type := Fin (grid1.bound 0) × Fin (grid1.bound 1) × Fin k1_t2_loop.trips × Fin 4
/-- A block's rows. -/
abbrev chunkSetP (p : Block) : Finset S212992x128.Idx := chunkSet p.1 p.2.1 p.2.2.1 p.2.2.2

theorem chunk_disjoint : ∀ p ∈ (Finset.univ : Finset Block), ∀ p' ∈ (Finset.univ : Finset Block), p ≠ p' → Disjoint (chunkSetP p) (chunkSetP p') := by
  intro p _ p' _ hne
  rw [Finset.disjoint_left]
  intro i hi hi'
  rw [mem_chunkSet] at hi hi'
  have h1 : p.1.val < 2 := p.1.isLt
  have h2 : p.2.1.val < 16 := p.2.1.isLt
  have h3 := trip_lt p.2.2.1
  have h4 : p.2.2.2.val < 4 := p.2.2.2.isLt
  have h1' : p'.1.val < 2 := p'.1.isLt
  have h2' : p'.2.1.val < 16 := p'.2.1.isLt
  have h3' := trip_lt p'.2.2.1
  have h4' : p'.2.2.2.val < 4 := p'.2.2.2.isLt
  exact hne (Prod.ext (Fin.ext (by omega)) (Prod.ext (Fin.ext (by omega)) (Prod.ext (Fin.ext (by omega)) (Fin.ext (by omega)))))

theorem chunk_cover : (Finset.univ : Finset Block).biUnion chunkSetP = Finset.univ := by
  ext i
  simp only [Finset.mem_biUnion, Finset.mem_univ, true_and, iff_true]
  have hi : (i 0).val < 212992 := (i 0).isLt
  refine ⟨(⟨(i 0).val / 6656 % 2, show (i 0).val / 6656 % 2 < 2 by omega⟩, ⟨(i 0).val / 13312, show (i 0).val / 13312 < 16 by omega⟩,
    ⟨(i 0).val % 6656 / 512, by rw [trips_eq]; omega⟩, ⟨(i 0).val % 512 / 128, by omega⟩), ?_⟩
  rw [mem_chunkSet]
  show 13312 * ((i 0).val / 13312) + 6656 * ((i 0).val / 6656 % 2) + 512 * ((i 0).val % 6656 / 512) + 128 * ((i 0).val % 512 / 128) ≤ (i 0).val
    ∧ (i 0).val < 13312 * ((i 0).val / 13312) + 6656 * ((i 0).val / 6656 % 2) + 512 * ((i 0).val % 6656 / 512) + 128 * ((i 0).val % 512 / 128) + 128
  omega

/-! ## The ownership of the two arrays, split along the pieces and joined back -/

section PointsTo

variable {F : FTy → Type} {U : Type} [URA U]

local notation "𝕄" => MT nD τ sig (HIx 2) (Elt F) ℕ U ℕ

/-- The flat index list and the gathered array of the second call, as locations of device `d`. -/
abbrev ℓ5 (d : Dev nD) : Loc nD τ sig := (SparseCore.T d).loc main_v8
abbrev ℓ6 (d : Dev nD) : Loc nD τ sig := (SparseCore.T d).loc main_v9

/-- An iterated conjunction over four slots is its four summands. -/
theorem bigSep_univ_four {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- The flat index list, at any share and contents, is the tasks' word ranges. -/
theorem pts5_split (d : Dev nD) (q : PosShare TreeShare) (f : Buf (Elt F) (ℓ5 d)) :
    (ℓ5 d ↦{q} f : sProp 𝕄)
      = bigSep Finset.univ fun c : Fin (grid1.bound 0) => bigSep Finset.univ fun s : Fin (grid1.bound 1) => ℓ5 d ↦[idxSet c s]{q} f := by
  have h := pointsTo_biUnion (Ix := HIx 2) (Val := Elt F) (Name := ℕ) (U := U) (Lvl := ℕ) (Finset.univ : Finset Task) (ℓ := ℓ5 d) (q := q) (f := f)
    idxSetP idx_disjoint
  rw [idx_cover] at h
  refine h.trans ?_
  exact bigSep_univ_prod (fun p : Task => (ℓ5 d ↦[idxSetP p]{q} f : sProp 𝕄))

/-- The gathered array, at any share and contents, is the tasks' trips' four row blocks. -/
theorem pts6_split (d : Dev nD) (q : PosShare TreeShare) (f : Buf (Elt F) (ℓ6 d)) :
    (ℓ6 d ↦{q} f : sProp 𝕄)
      = bigSep Finset.univ fun c : Fin (grid1.bound 0) => bigSep Finset.univ fun s : Fin (grid1.bound 1) =>
          bigSep Finset.univ fun t : Fin k1_t2_loop.trips =>
            iprop((ℓ6 d ↦[chunkSet c s t 0]{q} f) ∗ (ℓ6 d ↦[chunkSet c s t 1]{q} f) ∗ (ℓ6 d ↦[chunkSet c s t 2]{q} f)
              ∗ (ℓ6 d ↦[chunkSet c s t 3]{q} f)) := by
  have h := pointsTo_biUnion (Ix := HIx 2) (Val := Elt F) (Name := ℕ) (U := U) (Lvl := ℕ) (Finset.univ : Finset Block) (ℓ := ℓ6 d) (q := q) (f := f)
    chunkSetP chunk_disjoint
  rw [chunk_cover] at h
  refine h.trans ?_
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (ℓ6 d ↦[chunkSet c s t r]{q} f : sProp 𝕄))

/-- The row blocks, each held at contents of its own, in the nested form and over the blocks as one family. -/
theorem pts6_pieces_eq (d : Dev nD) (q : PosShare TreeShare) :
    (bigSep Finset.univ fun c : Fin (grid1.bound 0) => bigSep Finset.univ fun s : Fin (grid1.bound 1) =>
        bigSep Finset.univ fun t : Fin k1_t2_loop.trips =>
          (iprop((∃ f, ℓ6 d ↦[chunkSet c s t 0]{q} f) ∗ (∃ f, ℓ6 d ↦[chunkSet c s t 1]{q} f) ∗ (∃ f, ℓ6 d ↦[chunkSet c s t 2]{q} f)
            ∗ (∃ f, ℓ6 d ↦[chunkSet c s t 3]{q} f)) : sProp 𝕄))
      = bigSep (Finset.univ : Finset Block) fun p => (iprop(∃ f, ℓ6 d ↦[chunkSetP p]{q} f) : sProp 𝕄) := by
  symm
  rw [bigSep_univ_prod]
  refine bigSep_congr fun c _ => ?_
  rw [bigSep_univ_prod]
  refine bigSep_congr fun s _ => ?_
  rw [bigSep_univ_prod]
  refine bigSep_congr fun t _ => ?_
  exact bigSep_univ_four (fun r : Fin 4 => (iprop(∃ f, ℓ6 d ↦[chunkSet c s t r]{q} f) : sProp 𝕄))

/-- THE JOIN: the row blocks, each held whole at whatever contents, are the gathered array held whole at some contents. -/
theorem pts6_join [FloatOps F] (d : Dev nD) :
    (bigSep Finset.univ fun c : Fin (grid1.bound 0) => bigSep Finset.univ fun s : Fin (grid1.bound 1) =>
        bigSep Finset.univ fun t : Fin k1_t2_loop.trips =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))
      ⊢ (iprop(∃ f, ℓ6 d ↦{fullShare} f) : sProp 𝕄) := by
  have p0 : Block := (⟨0, by decide⟩, ⟨0, by decide⟩, ⟨0, by rw [trips_eq]; decide⟩, (0 : Fin 4))
  rw [pts6_pieces_eq]
  refine (bigSep_exists_pi Finset.univ (fun (p : Block) (f : Buf (Elt F) (ℓ6 d)) => (ℓ6 d ↦[chunkSetP p]{fullShare} f : sProp 𝕄))).trans ?_
  iintro ⟨%fs, H⟩
  have hj := pointsTo_biUnion_join (Ix := HIx 2) (Val := Elt F) (Name := ℕ) (U := U) (Lvl := ℕ) (ℓ := ℓ6 d) (q := fullShare)
    (Finset.univ : Finset Block) chunkSetP fs (fs p0) chunk_disjoint
  rw [chunk_cover] at hj
  ihave H' := hj $$ H
  icases H' with ⟨%g, -, Hg⟩
  iexists g; iexact Hg

/-! ### A piece's location as a task spells it

A task names a piece through its own view of the array; the location is the array's, whichever thread of the device
names it. -/

theorem loc_idxSl (d : Dev nD) (c' : Fin τ.nSC) (s' : Fin τ.nSub) (L : grid1.Coords) :
    (idxSl L).view.loc (V d c' s') = ℓ5 d := rfl
theorem loc_chunk0 (d : Dev nD) (c' : Fin τ.nSC) (s' : Fin τ.nSub) (L : grid1.Coords) (t : Fin k1_t2_loop.trips) :
    (chunk0 L t).view.loc (V d c' s') = ℓ6 d := rfl
theorem loc_chunk1 (d : Dev nD) (c' : Fin τ.nSC) (s' : Fin τ.nSub) (L : grid1.Coords) (t : Fin k1_t2_loop.trips) :
    (chunk1 L t).view.loc (V d c' s') = ℓ6 d := rfl
theorem loc_chunk2 (d : Dev nD) (c' : Fin τ.nSC) (s' : Fin τ.nSub) (L : grid1.Coords) (t : Fin k1_t2_loop.trips) :
    (chunk2 L t).view.loc (V d c' s') = ℓ6 d := rfl
theorem loc_chunk3 (d : Dev nD) (c' : Fin τ.nSC) (s' : Fin τ.nSub) (L : grid1.Coords) (t : Fin k1_t2_loop.trips) :
    (chunk3 L t).view.loc (V d c' s') = ℓ6 d := rfl

/-- A task's word range, as the task holds it, is that piece of the flat index list. -/
theorem pts_idxSl (d : Dev nD) (c' : Fin τ.nSC) (s' : Fin τ.nSub) (c : Fin (grid1.bound 0)) (s : Fin (grid1.bound 1))
    (q : PosShare TreeShare) (f : Buf (Elt F) (ℓ5 d)) :
    ((idxSl (coordsV c s)).view.loc (V d c' s') ↦[(idxSl (coordsV c s)).view.set]{q} f : sProp 𝕄) = ℓ5 d ↦[idxSet c s]{q} f := rfl
/-- A row block, as the task holds it, is that piece of the gathered array. -/
theorem pts_chunk0 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk0 (coordsV c s) t).view.loc (V d c' s') ↦[(chunk0 (coordsV c s) t).view.set]{q} f : sProp 𝕄) = ℓ6 d ↦[chunkSet c s t 0]{q} f := rfl
theorem pts_chunk1 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk1 (coordsV c s) t).view.loc (V d c' s') ↦[(chunk1 (coordsV c s) t).view.set]{q} f : sProp 𝕄) = ℓ6 d ↦[chunkSet c s t 1]{q} f := rfl
theorem pts_chunk2 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk2 (coordsV c s) t).view.loc (V d c' s') ↦[(chunk2 (coordsV c s) t).view.set]{q} f : sProp 𝕄) = ℓ6 d ↦[chunkSet c s t 2]{q} f := rfl
theorem pts_chunk3 (d : Dev nD) (c' : Fin τ.nSC) (s' : Fin τ.nSub) (c : Fin (grid1.bound 0)) (s : Fin (grid1.bound 1))
    (t : Fin k1_t2_loop.trips) (q : PosShare TreeShare) (f : Buf (Elt F) (ℓ6 d)) :
    ((chunk3 (coordsV c s) t).view.loc (V d c' s') ↦[(chunk3 (coordsV c s) t).view.set]{q} f : sProp 𝕄) = ℓ6 d ↦[chunkSet c s t 3]{q} f := rfl

end PointsTo

end Cert.Proof.ScK1

end
-- ==== Proof.ScCall1K.lean ====
/-
  The second gather call's operands, split among the 32 tasks and joined back: as the first call's, the tasks' read tokens of
  the table being tokens 9 … 12 of their shares (the second kernel's gather semaphores).
-/
import proofs.«202673_g7318624272670_cont_9to1c4b_526_24_alg».proof.Proof.ScCall0K
import proofs.«202673_g7318624272670_cont_9to1c4b_526_24_alg».proof.Proof.ScPartK1

noncomputable section

namespace Cert.Proof.ScK

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

theorem swap3 (A T R : sProp 𝕄) : iprop(A ∗ T ∗ R) = iprop((A ∗ R) ∗ T) :=
  BI.Entails.antisymm
    (show (iprop(A ∗ T ∗ R) : sProp 𝕄) ⊢ iprop((A ∗ R) ∗ T) from by
      iintro ⟨HA, HT, HR⟩
      isplitl [HA HR]
      · isplitl [HA]; · iexact HA
        iexact HR
      iexact HT)
    (show (iprop((A ∗ R) ∗ T) : sProp 𝕄) ⊢ iprop(A ∗ T ∗ R) from by
      iintro ⟨⟨HA, HR⟩, HT⟩
      isplitl [HA]; · iexact HA
      isplitl [HT]; · iexact HT
      iexact HR)

/-! ## Read tokens of one buffer -/

section Tokens

variable {ℓ : Loc nD τ sig} (f : Buf (Elt F) ℓ)

/-- A share is its tokens 9 … 12 and what is left (the rest of its first thirteen tokens among it). -/
theorem toks13_eq (q : PosShare TreeShare) :
    (ℓ ↦{q} f : sProp 𝕄) = iprop(((ℓ ↦{Transfers.shareDrop q 13} f)
        ∗ bigSep ((Finset.range 13) \ {9, 10, 11, 12}) fun j => ℓ ↦{Transfers.shareTokN q j} f) ∗ tok4 f q 9) := by
  have h := Transfers.pointsTo_toks_range (Ix := HIx 2) (Val := Elt F) (Name := ℕ) (U := UU) (Lvl := ℕ) (ℓ := ℓ) (S := Finset.univ) (f := f) q 13
  rw [SparseCore.bigSep_sdiff_split' (show ({9, 10, 11, 12} : Finset ℕ) ⊆ Finset.range 13 by decide),
    show (({9, 10, 11, 12} : Finset ℕ)) = insert 9 (insert 10 (insert 11 {12})) from rfl,
    SparseCore.bigSep_insert' (by decide), SparseCore.bigSep_insert' (by decide), SparseCore.bigSep_insert' (by decide), bigSep_singleton] at h
  exact (h.1.antisymm h.2).trans (swap3 _ _ _)

/-- The full share is, per task, its read tokens 9 … 12, and what is left of every share. -/
theorem tbl_eq1 :
    (ℓ ↦{fullShare} f : sProp 𝕄) = iprop(((ℓ ↦{Transfers.shareDrop fullShare 32} f)
        ∗ bigSep (Finset.univ : Finset (Fin 2)) fun c => bigSep (Finset.univ : Finset (Fin 16)) fun i =>
            iprop((ℓ ↦{Transfers.shareDrop (qT c.val i.val) 13} f)
              ∗ bigSep ((Finset.range 13) \ {9, 10, 11, 12}) fun j => ℓ ↦{Transfers.shareTokN (qT c.val i.val) j} f))
      ∗ bigSep (Finset.univ : Finset (Fin 2)) fun c => bigSep (Finset.univ : Finset (Fin 16)) fun i => tok4 f (qT c.val i.val) 9) := by
  rw [toks32_eq f, bigSep_congr fun c _ => bigSep_congr fun i _ => toks13_eq f (qT c.val i.val)]
  rw [bigSep_congr fun c _ => bigSep_sep' Finset.univ (fun i : Fin 16 => (iprop((ℓ ↦{Transfers.shareDrop (qT c.val i.val) 13} f)
        ∗ bigSep ((Finset.range 13) \ {9, 10, 11, 12}) fun j => ℓ ↦{Transfers.shareTokN (qT c.val i.val) j} f) : sProp 𝕄)) (fun i : Fin 16 => tok4 f (qT c.val i.val) 9),
    bigSep_sep' Finset.univ (fun c : Fin 2 => bigSep Finset.univ fun i : Fin 16 => (iprop((ℓ ↦{Transfers.shareDrop (qT c.val i.val) 13} f)
        ∗ bigSep ((Finset.range 13) \ {9, 10, 11, 12}) fun j => ℓ ↦{Transfers.shareTokN (qT c.val i.val) j} f) : sProp 𝕄))
      (fun c : Fin 2 => bigSep Finset.univ fun i : Fin 16 => tok4 f (qT c.val i.val) 9)]
  exact assoc3 _ _ _

theorem tbl_eq1' {n1 n2 : ℕ} (h1 : n1 = 2) (h2 : n2 = 16) :
    (ℓ ↦{fullShare} f : sProp 𝕄) = iprop(((ℓ ↦{Transfers.shareDrop fullShare 32} f)
        ∗ bigSep (Finset.univ : Finset (Fin n1)) fun c => bigSep (Finset.univ : Finset (Fin n2)) fun i =>
            iprop((ℓ ↦{Transfers.shareDrop (qT c.val i.val) 13} f)
              ∗ bigSep ((Finset.range 13) \ {9, 10, 11, 12}) fun j => ℓ ↦{Transfers.shareTokN (qT c.val i.val) j} f))
      ∗ bigSep (Finset.univ : Finset (Fin n1)) fun c => bigSep (Finset.univ : Finset (Fin n2)) fun i => tok4 f (qT c.val i.val) 9) := by
  subst h1 h2; exact tbl_eq1 f

end Tokens

/-! ## The second call's operands -/

section Call1

open Cert.Proof.ScK1 (idxSet chunkSet ℓ5 ℓ6 pts5_split pts6_split pts6_join)

variable (m : (ℓ : Loc nD τ sig) → Buf (Elt F) ℓ) (d : Dev nD)

/-- Every task's four read tokens of the table. -/
abbrev TOK1 : sProp 𝕄 :=
  bigSep (Finset.univ : Finset (Fin (grid1.bound 0))) fun c => bigSep (Finset.univ : Finset (Fin (grid1.bound 1))) fun s =>
    tok4 (ℓ := ℓ0 d) (Tb m d) (qT c.val s.val) 9
/-- Every task's words of the index list. -/
abbrev IDX1 : sProp 𝕄 :=
  bigSep (Finset.univ : Finset (Fin (grid1.bound 0))) fun c => bigSep (Finset.univ : Finset (Fin (grid1.bound 1))) fun s =>
    (ℓ5 d ↦[idxSet c s]{fullShare} Iv1 m d : sProp 𝕄)
/-- Every task's row blocks of the gathered array, each at some contents. -/
abbrev ROWS1 : sProp 𝕄 :=
  bigSep (Finset.univ : Finset (Fin (grid1.bound 0))) fun c => bigSep (Finset.univ : Finset (Fin (grid1.bound 1))) fun s =>
    bigSep (Finset.univ : Finset (Fin k1_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄)

/-- A SparseCore's operands, over the grid's own index types: task by task. -/
theorem st1_tile :
    (bigSep Finset.univ fun c : Fin ((K (F := F)).nCore 1) => (PP m).st 1 d c : sProp 𝕄)
      = bigSep Finset.univ fun c : Fin (grid1.bound 0) => bigSep Finset.univ fun s : Fin (grid1.bound 1) =>
          Cert.Proof.ScK1.tileRes d (Cert.Proof.ScK1.coordsV c s) (qT c.val s.val) (Tb m d) (Iv1 m d) := by
  refine Eq.trans ?_ (bigSep_cast (nCore1 (F := F)) (fun c => bigSep Finset.univ fun s : Fin (grid1.bound 1) =>
    (Cert.Proof.ScK1.tileRes d (Cert.Proof.ScK1.coordsV c s) (qT c.val s.val) (Tb m d) (Iv1 m d) : sProp 𝕄)))
  refine bigSep_congr fun c _ => ?_
  refine Eq.trans ?_ (bigSep_cast (nSub1 (F := F)) (fun s =>
    (Cert.Proof.ScK1.tileRes d (Cert.Proof.ScK1.coordsV (Fin.cast (nCore1 (F := F)) c) s) (qT c.val s.val) (Tb m d) (Iv1 m d) : sProp 𝕄)))
  show (bigSep Finset.univ fun i => goRes (Tb m) (Iv0 m) (Iv1 m) 1 d c i) = _
  refine bigSep_congr fun i _ => ?_
  rfl
theorem dn1_tile :
    (bigSep Finset.univ fun c : Fin ((K (F := F)).nCore 1) => (PP m).dn 1 d c : sProp 𝕄)
      = bigSep Finset.univ fun c : Fin (grid1.bound 0) => bigSep Finset.univ fun s : Fin (grid1.bound 1) =>
          Cert.Proof.ScK1.tileRes d (Cert.Proof.ScK1.coordsV c s) (qT c.val s.val) (Tb m d) (Iv1 m d) := by
  refine Eq.trans ?_ (bigSep_cast (nCore1 (F := F)) (fun c => bigSep Finset.univ fun s : Fin (grid1.bound 1) =>
    (Cert.Proof.ScK1.tileRes d (Cert.Proof.ScK1.coordsV c s) (qT c.val s.val) (Tb m d) (Iv1 m d) : sProp 𝕄)))
  refine bigSep_congr fun c _ => ?_
  refine Eq.trans ?_ (bigSep_cast (nSub1 (F := F)) (fun s =>
    (Cert.Proof.ScK1.tileRes d (Cert.Proof.ScK1.coordsV (Fin.cast (nCore1 (F := F)) c) s) (qT c.val s.val) (Tb m d) (Iv1 m d) : sProp 𝕄)))
  show (bigSep Finset.univ fun i => goRes (Tb m) (Iv0 m) (Iv1 m) 1 d c i) = _
  refine bigSep_congr fun i _ => ?_
  rfl

/-- The tasks' operands regrouped: all tokens, all word ranges, all row blocks. -/
theorem tiles1_eq :
    (bigSep Finset.univ fun c : Fin (grid1.bound 0) => bigSep Finset.univ fun s : Fin (grid1.bound 1) =>
        (Cert.Proof.ScK1.tileRes d (Cert.Proof.ScK1.coordsV c s) (qT c.val s.val) (Tb m d) (Iv1 m d) : sProp 𝕄))
      = iprop(TOK1 m d ∗ IDX1 m d ∗ ROWS1 (F := F) d) := by
  have hgo : ∀ (c : Fin (grid1.bound 0)) (s : Fin (grid1.bound 1)),
      (Cert.Proof.ScK1.tileRes d (Cert.Proof.ScK1.coordsV c s) (qT c.val s.val) (Tb m d) (Iv1 m d) : sProp 𝕄)
      = iprop(tok4 (ℓ := ℓ0 d) (Tb m d) (qT c.val s.val) 9 ∗ ((ℓ5 d ↦[idxSet c s]{fullShare} Iv1 m d : sProp 𝕄)
        ∗ bigSep (Finset.univ : Finset (Fin k1_t2_loop.trips)) fun t =>
          (iprop((∃ f, ℓ6 d ↦[chunkSet c s t 0]{fullShare} f) ∗ (∃ f, ℓ6 d ↦[chunkSet c s t 1]{fullShare} f)
            ∗ (∃ f, ℓ6 d ↦[chunkSet c s t 2]{fullShare} f) ∗ (∃ f, ℓ6 d ↦[chunkSet c s t 3]{fullShare} f)) : sProp 𝕄))) :=
    fun c s => regroup6 _ _ _ _ _ _
  refine Eq.trans (bigSep_congr fun c _ => bigSep_congr fun s _ => hgo c s) ?_
  exact split3 (fun (c : Fin (grid1.bound 0)) (s : Fin (grid1.bound 1)) => tok4 (ℓ := ℓ0 d) (Tb m d) (qT c.val s.val) 9)
    (fun (c : Fin (grid1.bound 0)) (s : Fin (grid1.bound 1)) => (ℓ5 d ↦[idxSet c s]{fullShare} Iv1 m d : sProp 𝕄))
    (fun (c : Fin (grid1.bound 0)) (s : Fin (grid1.bound 1)) => bigSep (Finset.univ : Finset (Fin k1_t2_loop.trips)) fun t =>
      (iprop((∃ f, ℓ6 d ↦[chunkSet c s t 0]{fullShare} f) ∗ (∃ f, ℓ6 d ↦[chunkSet c s t 1]{fullShare} f)
        ∗ (∃ f, ℓ6 d ↦[chunkSet c s t 2]{fullShare} f) ∗ (∃ f, ℓ6 d ↦[chunkSet c s t 3]{fullShare} f)) : sProp 𝕄))

/-- The row blocks at contents `g` are row blocks at some contents. -/
theorem rows_weaken1 (g : Buf (Elt F) (ℓ6 d)) :
    (bigSep (Finset.univ : Finset (Fin (grid1.bound 0))) fun c => bigSep (Finset.univ : Finset (Fin (grid1.bound 1))) fun s =>
        bigSep (Finset.univ : Finset (Fin k1_t2_loop.trips)) fun t =>
          (iprop((ℓ6 d ↦[chunkSet c s t 0]{fullShare} g) ∗ (ℓ6 d ↦[chunkSet c s t 1]{fullShare} g) ∗ (ℓ6 d ↦[chunkSet c s t 2]{fullShare} g)
            ∗ (ℓ6 d ↦[chunkSet c s t 3]{fullShare} g)) : sProp 𝕄))
      ⊢ ROWS1 (F := F) d :=
  bigSep_mono fun c _ => bigSep_mono fun s _ => bigSep_mono fun t _ =>
    weaken4 (fun f => (ℓ6 d ↦[chunkSet c s t 0]{fullShare} f : sProp 𝕄)) (fun f => ℓ6 d ↦[chunkSet c s t 1]{fullShare} f)
      (fun f => ℓ6 d ↦[chunkSet c s t 2]{fullShare} f) (fun f => ℓ6 d ↦[chunkSet c s t 3]{fullShare} f) g

/-- **The second call's operand split and join**, the gathered array handed at whatever it holds (`g`). -/
theorem hcall1 (g : Buf (Elt F) ((SparseCore.T d : Thread nD τ).loc main_v9)) :
    iprop(((SparseCore.T d : Thread nD τ).loc main_v0 ↦{fullShare} Tb m d) ∗ ((SparseCore.T d : Thread nD τ).loc main_v8 ↦{fullShare} Iv1 m d)
        ∗ ((SparseCore.T d : Thread nD τ).loc main_v9 ↦{fullShare} g))
      ⊢ (iprop((bigSep Finset.univ fun c : Fin ((K (F := F)).nCore 1) => (PP m).st 1 d c)
          ∗ ((bigSep Finset.univ fun c : Fin ((K (F := F)).nCore 1) => (PP m).dn 1 d c)
              -∗ iprop(((SparseCore.T d : Thread nD τ).loc main_v0 ↦{fullShare} Tb m d) ∗ ((SparseCore.T d : Thread nD τ).loc main_v8 ↦{fullShare} Iv1 m d)
                ∗ ∃ f, (SparseCore.T d : Thread nD τ).loc main_v9 ↦{fullShare} f))) : sProp 𝕄) := by
  rw [st1_tile m d, dn1_tile m d, tiles1_eq m d,
    tbl_eq1' (ℓ := ℓ0 d) (Tb m d) (n1 := grid1.bound 0) (n2 := grid1.bound 1) rfl rfl]
  iintro ⟨⟨HR, HT⟩, H5, H6⟩
  ihave HI := (Entails.of_eq (pts5_split (U := UU) d fullShare (Iv1 m d))) $$ H5
  ihave HRw := (Entails.of_eq (pts6_split (U := UU) d fullShare (g))) $$ H6
  ihave HE := (rows_weaken1 (F := F) d (g)) $$ HRw
  isplitl [HT HI HE]
  · isplitl [HT]; · iexact HT
    isplitl [HI]; · iexact HI
    iexact HE
  iintro ⟨HT, HI, HE⟩
  isplitl [HR HT]
  · isplitl [HR]; · iexact HR
    iexact HT
  isplitl [HI]
  · iapply (Entails.of_eq (pts5_split (U := UU) d fullShare (Iv1 m d)).symm); iexact HI
  iapply (pts6_join (U := UU) (F := F) d); iexact HE

end Call1

end Cert.Proof.ScK

end
-- ==== Proof.ScChkK0.lean ====
import proofs.«202673_g7318624272670_cont_9to1c4b_526_24_alg».proof.Proof.Gen.Kernel.Skeleton

/-! The positions a trip of the permutation loop reads: lane l of group g of window t reads position
    208 t + 26 ((16 g + l) mod 8) + (16 g + l) / 8, which is below 6656 for t < 32, g < 13, l < 16. Each of the thirteen
    side conditions is this fact at one g, decided over the 32 windows. -/

noncomputable section

namespace Cert.Proof.ScK0

open Cert.Kernel Cert.Kernel.Gen Idealize.ShloMosaic

/-- The lane numbers 0..15. -/
abbrev lanes : IVec S16 32 := iota .scVector S16 32 [0] iota_S16_d0_w32_scVector
/-- Window t's first position, 208 t, as the loop computes it. -/
abbrev wbase (t : Fin k0_t1_loop.trips) : BitVec 32 := Scalar.muli (Scalar.addi 0#32 (Scalar.muli (Scf.iv 0#32 1#32 t) 1#32)) 208#32

theorem chk1 : ∀ t : Fin k0_t1_loop.trips, k0_chk1 (k0_pay10 lanes 0#32 1#32 t) := by decide +kernel
theorem chk2 : ∀ t : Fin k0_t1_loop.trips, k0_chk2 (k0_pay14 lanes 0#32 1#32 t) := by decide +kernel
theorem chk3 : ∀ t : Fin k0_t1_loop.trips, k0_chk3 (k0_pay18 lanes (wbase t) 32#32) := by decide +kernel
theorem chk4 : ∀ t : Fin k0_t1_loop.trips, k0_chk4 (k0_pay22 lanes (wbase t)) := by decide +kernel
theorem chk5 : ∀ t : Fin k0_t1_loop.trips, k0_chk5 (k0_pay27 (wbase t) (k0_pay25 lanes) (k0_pay26 lanes)) := by decide +kernel
theorem chk6 : ∀ t : Fin k0_t1_loop.trips, k0_chk6 (k0_pay31 lanes (wbase t)) := by decide +kernel
theorem chk7 : ∀ t : Fin k0_t1_loop.trips, k0_chk7 (k0_pay35 lanes (wbase t)) := by decide +kernel
theorem chk8 : ∀ t : Fin k0_t1_loop.trips, k0_chk8 (k0_pay39 lanes (wbase t)) := by decide +kernel
theorem chk9 : ∀ t : Fin k0_t1_loop.trips, k0_chk9 (k0_pay43 lanes (wbase t)) := by decide +kernel
theorem chk10 : ∀ t : Fin k0_t1_loop.trips, k0_chk10 (k0_pay47 lanes (wbase t)) := by decide +kernel
theorem chk11 : ∀ t : Fin k0_t1_loop.trips, k0_chk11 (k0_pay51 lanes (wbase t)) := by decide +kernel
theorem chk12 : ∀ t : Fin k0_t1_loop.trips, k0_chk12 (k0_pay2 (wbase t) (k0_pay53 lanes) (k0_pay54 lanes) 3#32) := by decide +kernel
theorem chk13 : ∀ t : Fin k0_t1_loop.trips, k0_chk13 (k0_pay6 (wbase t)) := by decide +kernel

end Cert.Proof.ScK0

end
-- ==== Proof.ScArithK0.lean ====
import proofs.«202673_g7318624272670_cont_9to1c4b_526_24_alg».proof.Proof.ScChkK0

/-! Word arithmetic of the permutation loop and the gather loop's guards: a stored word is a category (at most 999) plus
    1000 times a field number (at most 25), so it names a table row below 26000; the thirteen stores of a window cover its
    208 places; a slot's earlier write is waited for exactly from the second trip on. -/

noncomputable section

namespace Cert.Proof.ScK0

open Cert.Kernel Cert.Kernel.Gen Idealize.ShloMosaic

variable {F : FTy → Type}

theorem add_lt_rows (a b : BitVec 32) (ha : a.toNat ≤ 999) (hb : b.toNat ≤ 25000) : (a + b).toNat < 26000 := by
  rw [BitVec.toNat_add]; omega

theorem pay1_const : ∀ x : S16.Idx, ((k0_pay11 (F := fun _ => Unit) lanes (fun _ => 0#32)) x).toNat ≤ 25000 := by decide +kernel
theorem pay1_lt (G : IVec S16 32) (hG : ∀ x, (G x).toNat ≤ 999) (x : S16.Idx) : ((k0_pay11 (F := F) lanes G) x).toNat < 26000 := by
  have e : (k0_pay11 (F := F) lanes G) x = G x + (k0_pay11 (F := F) lanes (fun _ => 0#32)) x := by
    simp only [k0_pay11, addi, IntOp.addi, BitVec.zero_add]
  rw [e]; exact add_lt_rows _ _ (hG x) (pay1_const x)

theorem pay2_const : ∀ x : S16.Idx, ((k0_pay15 (F := fun _ => Unit) lanes (fun _ => 0#32)) x).toNat ≤ 25000 := by decide +kernel
theorem pay2_lt (G : IVec S16 32) (hG : ∀ x, (G x).toNat ≤ 999) (x : S16.Idx) : ((k0_pay15 (F := F) lanes G) x).toNat < 26000 := by
  have e : (k0_pay15 (F := F) lanes G) x = G x + (k0_pay15 (F := F) lanes (fun _ => 0#32)) x := by
    simp only [k0_pay15, addi, IntOp.addi, BitVec.zero_add]
  rw [e]; exact add_lt_rows _ _ (hG x) (pay2_const x)

theorem pay3_const : ∀ x : S16.Idx, ((k0_pay19 (F := fun _ => Unit) lanes 32#32 (fun _ => 0#32)) x).toNat ≤ 25000 := by decide +kernel
theorem pay3_lt (G : IVec S16 32) (hG : ∀ x, (G x).toNat ≤ 999) (x : S16.Idx) : ((k0_pay19 (F := F) lanes 32#32 G) x).toNat < 26000 := by
  have e : (k0_pay19 (F := F) lanes 32#32 G) x = G x + (k0_pay19 (F := F) lanes 32#32 (fun _ => 0#32)) x := by
    simp only [k0_pay19, addi, IntOp.addi, BitVec.zero_add]
  rw [e]; exact add_lt_rows _ _ (hG x) (pay3_const x)

theorem pay4_const : ∀ x : S16.Idx, ((k0_pay23 (F := fun _ => Unit) lanes (fun _ => 0#32)) x).toNat ≤ 25000 := by decide +kernel
theorem pay4_lt (G : IVec S16 32) (hG : ∀ x, (G x).toNat ≤ 999) (x : S16.Idx) : ((k0_pay23 (F := F) lanes G) x).toNat < 26000 := by
  have e : (k0_pay23 (F := F) lanes G) x = G x + (k0_pay23 (F := F) lanes (fun _ => 0#32)) x := by
    simp only [k0_pay23, addi, IntOp.addi, BitVec.zero_add]
  rw [e]; exact add_lt_rows _ _ (hG x) (pay4_const x)

theorem pay5_const : ∀ x : S16.Idx, ((k0_pay28 (F := fun _ => Unit) (k0_pay26 lanes) (fun _ => 0#32)) x).toNat ≤ 25000 := by decide +kernel
theorem pay5_lt (G : IVec S16 32) (hG : ∀ x, (G x).toNat ≤ 999) (x : S16.Idx) : ((k0_pay28 (F := F) (k0_pay26 lanes) G) x).toNat < 26000 := by
  have e : (k0_pay28 (F := F) (k0_pay26 lanes) G) x = G x + (k0_pay28 (F := F) (k0_pay26 lanes) (fun _ => 0#32)) x := by
    simp only [k0_pay28, addi, IntOp.addi, BitVec.zero_add]
  rw [e]; exact add_lt_rows _ _ (hG x) (pay5_const x)

theorem pay6_const : ∀ x : S16.Idx, ((k0_pay32 (F := fun _ => Unit) lanes (fun _ => 0#32)) x).toNat ≤ 25000 := by decide +kernel
theorem pay6_lt (G : IVec S16 32) (hG : ∀ x, (G x).toNat ≤ 999) (x : S16.Idx) : ((k0_pay32 (F := F) lanes G) x).toNat < 26000 := by
  have e : (k0_pay32 (F := F) lanes G) x = G x + (k0_pay32 (F := F) lanes (fun _ => 0#32)) x := by
    simp only [k0_pay32, addi, IntOp.addi, BitVec.zero_add]
  rw [e]; exact add_lt_rows _ _ (hG x) (pay6_const x)

theorem pay7_const : ∀ x : S16.Idx, ((k0_pay36 (F := fun _ => Unit) (k0_pay34 lanes) (fun _ => 0#32)) x).toNat ≤ 25000 := by decide +kernel
theorem pay7_lt (G : IVec S16 32) (hG : ∀ x, (G x).toNat ≤ 999) (x : S16.Idx) : ((k0_pay36 (F := F) (k0_pay34 lanes) G) x).toNat < 26000 := by
  have e : (k0_pay36 (F := F) (k0_pay34 lanes) G) x = G x + (k0_pay36 (F := F) (k0_pay34 lanes) (fun _ => 0#32)) x := by
    simp only [k0_pay36, addi, IntOp.addi, BitVec.zero_add]
  rw [e]; exact add_lt_rows _ _ (hG x) (pay7_const x)

theorem pay8_const : ∀ x : S16.Idx, ((k0_pay40 (F := fun _ => Unit) lanes (fun _ => 0#32)) x).toNat ≤ 25000 := by decide +kernel
theorem pay8_lt (G : IVec S16 32) (hG : ∀ x, (G x).toNat ≤ 999) (x : S16.Idx) : ((k0_pay40 (F := F) lanes G) x).toNat < 26000 := by
  have e : (k0_pay40 (F := F) lanes G) x = G x + (k0_pay40 (F := F) lanes (fun _ => 0#32)) x := by
    simp only [k0_pay40, addi, IntOp.addi, BitVec.zero_add]
  rw [e]; exact add_lt_rows _ _ (hG x) (pay8_const x)

theorem pay9_const : ∀ x : S16.Idx, ((k0_pay44 (F := fun _ => Unit) lanes (fun _ => 0#32)) x).toNat ≤ 25000 := by decide +kernel
theorem pay9_lt (G : IVec S16 32) (hG : ∀ x, (G x).toNat ≤ 999) (x : S16.Idx) : ((k0_pay44 (F := F) lanes G) x).toNat < 26000 := by
  have e : (k0_pay44 (F := F) lanes G) x = G x + (k0_pay44 (F := F) lanes (fun _ => 0#32)) x := by
    simp only [k0_pay44, addi, IntOp.addi, BitVec.zero_add]
  rw [e]; exact add_lt_rows _ _ (hG x) (pay9_const x)

theorem pay10_const : ∀ x : S16.Idx, ((k0_pay48 (F := fun _ => Unit) lanes (fun _ => 0#32)) x).toNat ≤ 25000 := by decide +kernel
theorem pay10_lt (G : IVec S16 32) (hG : ∀ x, (G x).toNat ≤ 999) (x : S16.Idx) : ((k0_pay48 (F := F) lanes G) x).toNat < 26000 := by
  have e : (k0_pay48 (F := F) lanes G) x = G x + (k0_pay48 (F := F) lanes (fun _ => 0#32)) x := by
    simp only [k0_pay48, addi, IntOp.addi, BitVec.zero_add]
  rw [e]; exact add_lt_rows _ _ (hG x) (pay10_const x)

theorem pay11_const : ∀ x : S16.Idx, ((k0_pay52 (F := fun _ => Unit) lanes (fun _ => 0#32)) x).toNat ≤ 25000 := by decide +kernel
theorem pay11_lt (G : IVec S16 32) (hG : ∀ x, (G x).toNat ≤ 999) (x : S16.Idx) : ((k0_pay52 (F := F) lanes G) x).toNat < 26000 := by
  have e : (k0_pay52 (F := F) lanes G) x = G x + (k0_pay52 (F := F) lanes (fun _ => 0#32)) x := by
    simp only [k0_pay52, addi, IntOp.addi, BitVec.zero_add]
  rw [e]; exact add_lt_rows _ _ (hG x) (pay11_const x)

theorem pay12_const : ∀ x : S16.Idx, ((k0_pay3 (F := fun _ => Unit) (k0_pay53 lanes) 3#32 (fun _ => 0#32)) x).toNat ≤ 25000 := by decide +kernel
theorem pay12_lt (G : IVec S16 32) (hG : ∀ x, (G x).toNat ≤ 999) (x : S16.Idx) : ((k0_pay3 (F := F) (k0_pay53 lanes) 3#32 G) x).toNat < 26000 := by
  have e : (k0_pay3 (F := F) (k0_pay53 lanes) 3#32 G) x = G x + (k0_pay3 (F := F) (k0_pay53 lanes) 3#32 (fun _ => 0#32)) x := by
    simp only [k0_pay3, addi, IntOp.addi, BitVec.zero_add]
  rw [e]; exact add_lt_rows _ _ (hG x) (pay12_const x)

theorem pay13_const : ∀ x : S16.Idx, ((k0_pay7 (F := fun _ => Unit) (fun _ => 0#32)) x).toNat ≤ 25000 := by decide +kernel
theorem pay13_lt (G : IVec S16 32) (hG : ∀ x, (G x).toNat ≤ 999) (x : S16.Idx) : ((k0_pay7 (F := F) G) x).toNat < 26000 := by
  have e : (k0_pay7 (F := F) G) x = G x + (k0_pay7 (F := F) (fun _ => 0#32)) x := by
    simp only [k0_pay7, addi, IntOp.addi, BitVec.zero_add]
  rw [e]; exact add_lt_rows _ _ (hG x) (pay13_const x)

/-- A slot's wait for its earlier write is taken exactly when the trip is not the first. -/
theorem conds_iff : ∀ k : Fin k0_t2_loop.trips, (k0_cond1 k = 1#1 ↔ k.val ≠ 0) ∧ (k0_cond2 k = 1#1 ↔ k.val ≠ 0)
    ∧ (k0_cond3 k = 1#1 ↔ k.val ≠ 0) ∧ (k0_cond4 k = 1#1 ↔ k.val ≠ 0) := by decide +kernel

theorem trips1_eq : k0_t1_loop.trips = 32 := by decide
theorem trips2_eq : k0_t2_loop.trips = 13 := by decide

theorem mem_piece1 (k : Fin k0_t1_loop.trips) (y : S6656.Idx) (h1 : 208 * k.val + 0 ≤ (y 0).val) (h2 : (y 0).val < 208 * k.val + 0 + 16) :
    y ∈ (Rect.unit (s := S6656) (k0_off2 k) S16.size (k0_off2_inb k)).set := by
  rw [Rect.mem_set_unit, k0_off2_eq]
  intro a
  obtain rfl : a = 0 := Subsingleton.elim _ _
  constructor
  · show 208 * k.val + 0 ≤ (y 0).val
    exact h1
  · show (y 0).val < 208 * k.val + 0 + 16
    exact h2

theorem mem_piece2 (k : Fin k0_t1_loop.trips) (y : S6656.Idx) (h1 : 208 * k.val + 16 ≤ (y 0).val) (h2 : (y 0).val < 208 * k.val + 16 + 16) :
    y ∈ (Rect.unit (s := S6656) (k0_off3 k) S16.size (k0_off3_inb k)).set := by
  rw [Rect.mem_set_unit, k0_off3_eq]
  intro a
  obtain rfl : a = 0 := Subsingleton.elim _ _
  constructor
  · show 208 * k.val + 16 ≤ (y 0).val
    exact h1
  · show (y 0).val < 208 * k.val + 16 + 16
    exact h2

theorem mem_piece3 (k : Fin k0_t1_loop.trips) (y : S6656.Idx) (h1 : 208 * k.val + 32 ≤ (y 0).val) (h2 : (y 0).val < 208 * k.val + 32 + 16) :
    y ∈ (Rect.unit (s := S6656) (k0_off4 k) S16.size (k0_off4_inb k)).set := by
  rw [Rect.mem_set_unit, k0_off4_eq]
  intro a
  obtain rfl : a = 0 := Subsingleton.elim _ _
  constructor
  · show 208 * k.val + 32 ≤ (y 0).val
    exact h1
  · show (y 0).val < 208 * k.val + 32 + 16
    exact h2

theorem mem_piece4 (k : Fin k0_t1_loop.trips) (y : S6656.Idx) (h1 : 208 * k.val + 48 ≤ (y 0).val) (h2 : (y 0).val < 208 * k.val + 48 + 16) :
    y ∈ (Rect.unit (s := S6656) (k0_off5 k) S16.size (k0_off5_inb k)).set := by
  rw [Rect.mem_set_unit, k0_off5_eq]
  intro a
  obtain rfl : a = 0 := Subsingleton.elim _ _
  constructor
  · show 208 * k.val + 48 ≤ (y 0).val
    exact h1
  · show (y 0).val < 208 * k.val + 48 + 16
    exact h2

theorem mem_piece5 (k : Fin k0_t1_loop.trips) (y : S6656.Idx) (h1 : 208 * k.val + 64 ≤ (y 0).val) (h2 : (y 0).val < 208 * k.val + 64 + 16) :
    y ∈ (Rect.unit (s := S6656) (k0_off6 k) S16.size (k0_off6_inb k)).set := by
  rw [Rect.mem_set_unit, k0_off6_eq]
  intro a
  obtain rfl : a = 0 := Subsingleton.elim _ _
  constructor
  · show 208 * k.val + 64 ≤ (y 0).val
    exact h1
  · show (y 0).val < 208 * k.val + 64 + 16
    exact h2

theorem mem_piece6 (k : Fin k0_t1_loop.trips) (y : S6656.Idx) (h1 : 208 * k.val + 80 ≤ (y 0).val) (h2 : (y 0).val < 208 * k.val + 80 + 16) :
    y ∈ (Rect.unit (s := S6656) (k0_off7 k) S16.size (k0_off7_inb k)).set := by
  rw [Rect.mem_set_unit, k0_off7_eq]
  intro a
  obtain rfl : a = 0 := Subsingleton.elim _ _
  constructor
  · show 208 * k.val + 80 ≤ (y 0).val
    exact h1
  · show (y 0).val < 208 * k.val + 80 + 16
    exact h2

theorem mem_piece7 (k : Fin k0_t1_loop.trips) (y : S6656.Idx) (h1 : 208 * k.val + 96 ≤ (y 0).val) (h2 : (y 0).val < 208 * k.val + 96 + 16) :
    y ∈ (Rect.unit (s := S6656) (k0_off8 k) S16.size (k0_off8_inb k)).set := by
  rw [Rect.mem_set_unit, k0_off8_eq]
  intro a
  obtain rfl : a = 0 := Subsingleton.elim _ _
  constructor
  · show 208 * k.val + 96 ≤ (y 0).val
    exact h1
  · show (y 0).val < 208 * k.val + 96 + 16
    exact h2

theorem mem_piece8 (k : Fin k0_t1_loop.trips) (y : S6656.Idx) (h1 : 208 * k.val + 112 ≤ (y 0).val) (h2 : (y 0).val < 208 * k.val + 112 + 16) :
    y ∈ (Rect.unit (s := S6656) (k0_off9 k) S16.size (k0_off9_inb k)).set := by
  rw [Rect.mem_set_unit, k0_off9_eq]
  intro a
  obtain rfl : a = 0 := Subsingleton.elim _ _
  constructor
  · show 208 * k.val + 112 ≤ (y 0).val
    exact h1
  · show (y 0).val < 208 * k.val + 112 + 16
    exact h2

theorem mem_piece9 (k : Fin k0_t1_loop.trips) (y : S6656.Idx) (h1 : 208 * k.val + 128 ≤ (y 0).val) (h2 : (y 0).val < 208 * k.val + 128 + 16) :
    y ∈ (Rect.unit (s := S6656) (k0_off10 k) S16.size (k0_off10_inb k)).set := by
  rw [Rect.mem_set_unit, k0_off10_eq]
  intro a
  obtain rfl : a = 0 := Subsingleton.elim _ _
  constructor
  · show 208 * k.val + 128 ≤ (y 0).val
    exact h1
  · show (y 0).val < 208 * k.val + 128 + 16
    exact h2

theorem mem_piece10 (k : Fin k0_t1_loop.trips) (y : S6656.Idx) (h1 : 208 * k.val + 144 ≤ (y 0).val) (h2 : (y 0).val < 208 * k.val + 144 + 16) :
    y ∈ (Rect.unit (s := S6656) (k0_off11 k) S16.size (k0_off11_inb k)).set := by
  rw [Rect.mem_set_unit, k0_off11_eq]
  intro a
  obtain rfl : a = 0 := Subsingleton.elim _ _
  constructor
  · show 208 * k.val + 144 ≤ (y 0).val
    exact h1
  · show (y 0).val < 208 * k.val + 144 + 16
    exact h2

theorem mem_piece11 (k : Fin k0_t1_loop.trips) (y : S6656.Idx) (h1 : 208 * k.val + 160 ≤ (y 0).val) (h2 : (y 0).val < 208 * k.val + 160 + 16) :
    y ∈ (Rect.unit (s := S6656) (k0_off12 k) S16.size (k0_off12_inb k)).set := by
  rw [Rect.mem_set_unit, k0_off12_eq]
  intro a
  obtain rfl : a = 0 := Subsingleton.elim _ _
  constructor
  · show 208 * k.val + 160 ≤ (y 0).val
    exact h1
  · show (y 0).val < 208 * k.val + 160 + 16
    exact h2

theorem mem_piece12 (k : Fin k0_t1_loop.trips) (y : S6656.Idx) (h1 : 208 * k.val + 176 ≤ (y 0).val) (h2 : (y 0).val < 208 * k.val + 176 + 16) :
    y ∈ (Rect.unit (s := S6656) (k0_off13 k) S16.size (k0_off13_inb k)).set := by
  rw [Rect.mem_set_unit, k0_off13_eq]
  intro a
  obtain rfl : a = 0 := Subsingleton.elim _ _
  constructor
  · show 208 * k.val + 176 ≤ (y 0).val
    exact h1
  · show (y 0).val < 208 * k.val + 176 + 16
    exact h2

theorem mem_piece13 (k : Fin k0_t1_loop.trips) (y : S6656.Idx) (h1 : 208 * k.val + 192 ≤ (y 0).val) (h2 : (y 0).val < 208 * k.val + 192 + 16) :
    y ∈ (Rect.unit (s := S6656) (k0_off14 k) S16.size (k0_off14_inb k)).set := by
  rw [Rect.mem_set_unit, k0_off14_eq]
  intro a
  obtain rfl : a = 0 := Subsingleton.elim _ _
  constructor
  · show 208 * k.val + 192 ≤ (y 0).val
    exact h1
  · show (y 0).val < 208 * k.val + 192 + 16
    exact h2

end Cert.Proof.ScK0

end
-- ==== Proof.ScTileK0.lean ====
import proofs.«202673_g7318624272670_cont_9to1c4b_526_24_alg».proof.Proof.ScBaseK
import proofs.«202673_g7318624272670_cont_9to1c4b_526_24_alg».proof.Proof.ScArithK0
import proofs.«202673_g7318624272670_cont_9to1c4b_526_24_alg».proof.Proof.ScSetsK0
import proofs.«202673_g7318624272670_cont_9to1c4b_526_24_alg».proof.Proof.ScResK0
import proofs.«202673_g7318624272670_cont_9to1c4b_526_24_alg».proof.Proof.LibWritesPred
import proofs.«202673_g7318624272670_cont_9to1c4b_526_24_alg».proof.Proof.Gen.Kernel.Skeleton

/-! One vector subcore's task of the first gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 and the windows written so far hold words
    below 26000 — what the gathers need of their index lists. Carried through the second loop: the blocks of the trip
    just past are in flight with their row buffers, all other blocks rest with the task; nothing else is claimed of the
    blocks' contents. -/

noncomputable section

namespace Cert.Proof.ScK0

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v5_scv : Memref Cert.Kernel.sig Kind.scVector Space.hbm Cert.Kernel.S212992 EltTy.i32)
local notation "outW" => (Memref.whole Cert.Kernel.main_v6_scv : Memref Cert.Kernel.sig Kind.scVector Space.hbm Cert.Kernel.S212992x128 EltTy.f32)
local notation "sN" => (Memref.whole Cert.Kernel.cc0_scratch0 : Memref Cert.Kernel.sig Kind.scVector Space.vmem Cert.Kernel.S6656 EltTy.i32)
local notation "sP" => (Memref.whole Cert.Kernel.cc0_scratch1 : Memref Cert.Kernel.sig Kind.scVector Space.vmem Cert.Kernel.S6656 EltTy.i32)
local notation "rB0" => (Memref.whole Cert.Kernel.cc0_scratch2 : Memref Cert.Kernel.sig Kind.scVector Space.vmem Cert.Kernel.S128x128 EltTy.f32)
local notation "rB1" => (Memref.whole Cert.Kernel.cc0_scratch3 : Memref Cert.Kernel.sig Kind.scVector Space.vmem Cert.Kernel.S128x128 EltTy.f32)
local notation "rB2" => (Memref.whole Cert.Kernel.cc0_scratch4 : Memref Cert.Kernel.sig Kind.scVector Space.vmem Cert.Kernel.S128x128 EltTy.f32)
local notation "rB3" => (Memref.whole Cert.Kernel.cc0_scratch5 : Memref Cert.Kernel.sig Kind.scVector Space.vmem Cert.Kernel.S128x128 EltTy.f32)

variable [FloatOps F]

section Tile
variable (d : Dev nD) (L : grid0.Coords)

/-! ## The loops' invariants -/

/-- Every word the index scratch reads is a category, at most 999. -/
def Small (g : Buf (Elt F) ((sN).view.loc (thr d L))) : Prop :=
  ∀ y, (((sN).view.readAt (Elt F) (LoadRect.whole S6656) g y) : BitVec 32).toNat ≤ 999

/-- The first `n` windows of the permuted list hold table rows: words below 26000. -/
def RowsBelow (n : Nat) (f : Buf (Elt F) ((sP).view.loc (thr d L))) : Prop :=
  ∀ y : S6656.Idx, (y 0).val < 208 * n → (((sP).view.read (Elt F) f y) : BitVec 32).toNat < 26000

def inv1 (O : CellTallies nD τ sig (HIx 2)) (W : Waits sig (HIx 2)) (n : Nat) (_ : PUnit) : sProp 𝕄 :=
  iprop(Transfers.MayWaits (thr d L) (none : HIx 2) O
    ∗ (∃ g, ⌜Small d L g⌝ ∗ (sN).view.loc (thr d L) ↦{fullShare} g)
    ∗ (∃ f, ⌜RowsBelow d L n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k0_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc0_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc0_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc0_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc0_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k0_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0)
  else iprop(emp)

def inv2 (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 0} ft) ∗ ((tblW).view.loc (thr d L) ↦{Transfers.shareTokN qT 1} ft)
    ∗ ((tblW).view.loc (thr d L) ↦{Transfers.shareTokN qT 2} ft) ∗ ((tblW).view.loc (thr d L) ↦{Transfers.shareTokN qT 3} ft)
    ∗ (∃ f, ⌜RowsBelow d L 32 f⌝ ∗ (sP).view.loc (thr d L) ↦{fullShare} f)
    ∗ semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L ((sN).view.write (Elt F) fn ((idxSl L).view.read (Elt F) fi) Finset.univ) := by
  intro y
  rw [View.write_whole_univ]
  simp only [View.readAt_apply, Memref.view_whole, View.read_whole]
  rw [View.read_apply]
  exact hfi _

theorem rowsBelow_zero (f : Buf (Elt F) ((sP).view.loc (thr d L))) : RowsBelow d L 0 f := by
  intro y hy
  rw [Nat.mul_zero] at hy
  exact absurd hy (Nat.not_lt_zero _)

/-- One window's thirteen stores keep the earlier windows and fill this one with table rows. -/
theorem rowsBelow_step (k : Fin k0_t1_loop.trips) (f : Buf (Elt F) ((sP).view.loc (thr d L))) (hf : RowsBelow d L k.val f)
    (Lp : List (View.Piece (Elt F) S6656 .i32))
    (hL : ∀ p ∈ Lp, ∀ x : p.1.shape.Idx, ((p.2 x) : BitVec 32).toNat < 26000)
    (hcov : ∀ y : S6656.Idx, 208 * k.val ≤ (y 0).val → (y 0).val < 208 * (k.val + 1) → ∃ p ∈ Lp, y ∈ p.1.set) :
    RowsBelow d L (k.val + 1) ((sP).view.writes (Elt F) f Lp) := by
  intro y hy
  refine Cert.LibWritesPred.read_writes_pred (sP).view f (fun w : Elt F .i32 => (w : BitVec 32).toNat < 26000) Lp hL y ?_
  by_cases h : (y 0).val < 208 * k.val
  · exact .inl (hf y h)
  · exact .inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc0_scratch10.sem) 0 ∗ semVal (thr d L, SemLoc.dma cc0_scratch11.sem) 0
      ∗ semVal (thr d L, SemLoc.dma cc0_scratch12.sem) 0 ∗ semVal (thr d L, SemLoc.dma cc0_scratch13.sem) 0) : sProp 𝕄) := if_pos h
theorem idle_pos (n : Nat) (h : n ≠ 0) : idle (F := F) d L n = (iprop(emp) : sProp 𝕄) := if_neg h
theorem cell_self (t : Fin k0_t2_loop.trips) : cell (F := F) d L t.val t = chunkRow d L t := if_neg (by omega)
theorem cell_next (t : Fin k0_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k0_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k0_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fP : Buf (Elt F) ((sP).view.loc (thr d L))) (h : RowsBelow d L 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h (r.emb x) ((r.emb x) 0).isLt

set_option maxHeartbeats 8000000 in
theorem tile_run (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc0_scoped0.sem) 0
        ∗ semVal (thr d L, SemLoc.dma cc0_scratch6.sem) 0 ∗ semVal (thr d L, SemLoc.dma cc0_scratch7.sem) 0
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scratch13.sem) 0
        ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') := by
  rw [cc0_gather_kernel_eq_skeleton]; unfold cc0_gather_kernel_skel k0_t1_body k0_t2_body
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L k f hf _ ?hL ?hcov
        case hL =>
          refine List.forall_mem_cons.mpr ⟨pay13_lt (F := F) _ (fun _ => hg _), ?_⟩
          refine List.forall_mem_cons.mpr ⟨pay12_lt (F := F) _ (fun _ => hg _), ?_⟩
          refine List.forall_mem_cons.mpr ⟨pay11_lt (F := F) _ (fun _ => hg _), ?_⟩
          refine List.forall_mem_cons.mpr ⟨pay10_lt (F := F) _ (fun _ => hg _), ?_⟩
          refine List.forall_mem_cons.mpr ⟨pay9_lt (F := F) _ (fun _ => hg _), ?_⟩
          refine List.forall_mem_cons.mpr ⟨pay8_lt (F := F) _ (fun _ => hg _), ?_⟩
          refine List.forall_mem_cons.mpr ⟨pay7_lt (F := F) _ (fun _ => hg _), ?_⟩
          refine List.forall_mem_cons.mpr ⟨pay6_lt (F := F) _ (fun _ => hg _), ?_⟩
          refine List.forall_mem_cons.mpr ⟨pay5_lt (F := F) _ (fun _ => hg _), ?_⟩
          refine List.forall_mem_cons.mpr ⟨pay4_lt (F := F) _ (fun _ => hg _), ?_⟩
          refine List.forall_mem_cons.mpr ⟨pay3_lt (F := F) _ (fun _ => hg _), ?_⟩
          refine List.forall_mem_cons.mpr ⟨pay2_lt (F := F) _ (fun _ => hg _), ?_⟩
          refine List.forall_mem_cons.mpr ⟨pay1_lt (F := F) _ (fun _ => hg _), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fp
      · iexact Hp
    iexists (insert (SemLoc.dma cc0_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L 32 fP := by
    have := hfP
    rwa [show Scf.trips k0_t1_loop.lb k0_t1_loop.ub k0_t1_loop.st = 32 from trips1_eq] at this
  sl_for (inv2 d L O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fQ hfQ
    obtain ⟨hc1, hc2, hc3, hc4⟩ := conds_iff k
    by_cases hk : k.val = 0
    · have h1 : ¬ k0_cond1 k = 1#1 := fun h => (hc1.mp h) hk
      have h2 : ¬ k0_cond2 k = 1#1 := fun h => (hc2.mp h) hk
      have h3 : ¬ k0_cond3 k = 1#1 := fun h => (hc3.mp h) hk
      have h4 : ¬ k0_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k0_cond1 k = 1#1 := hc1.mpr hk
      have h2 : k0_cond2 k = 1#1 := hc2.mpr hk
      have h3 : k0_cond3 k = 1#1 := hc3.mpr hk
      have h4 : k0_cond4 k = 1#1 := hc4.mpr hk
      have hk' : k.val - 1 < k0_t2_loop.trips := Nat.lt_of_le_of_lt (Nat.sub_le _ _) k.isLt
      have hkk : (⟨k.val - 1, hk'⟩ : Fin k0_t2_loop.trips).val + 1 = k.val := by show k.val - 1 + 1 = k.val; omega
      have hne : (⟨k.val - 1, hk'⟩ : Fin k0_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k0_t2_loop.trips := by rw [trips2_eq]; decide
  have hll : (⟨12, hl⟩ : Fin k0_t2_loop.trips).val + 1 = Scf.trips k0_t2_loop.lb k0_t2_loop.ub k0_t2_loop.st := trips2_eq.symm
  ihave Hc := (Entails.of_eq (SparseCore.bigSep_erase' (Finset.mem_univ (⟨12, hl⟩ : Fin k0_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k0_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k0_t2_loop.trips)) fun t ht => cell_other d L (Scf.trips k0_t2_loop.lb k0_t2_loop.ub k0_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists _; iexact Hp
  isplitl [Hw0_src]
  · iexists q0; iapply (Entails.of_eq (pts_whole d L cc0_scratch2 rfl fullShare q0)); iexact Hw0_src
  isplitl [Hw1_src]
  · iexists q1; iapply (Entails.of_eq (pts_whole d L cc0_scratch3 rfl fullShare q1)); iexact Hw1_src
  isplitl [Hw2_src]
  · iexists q2; iapply (Entails.of_eq (pts_whole d L cc0_scratch4 rfl fullShare q2)); iexact Hw2_src
  isplitl [Hw3_src]
  · iexists q3; iapply (Entails.of_eq (pts_whole d L cc0_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScK0

end
-- ==== Proof.ScOwnK0.lean ====
/-
  What a vector subcore owns during the first gather, opened. A task starts with every buffer and every semaphore that
  is the subcore's own: the buffers each whole at some contents, the semaphores each at zero. The gather names fifteen of
  them — six scratch buffers and nine transfer semaphores — and never touches the others. This module states the
  subcore's holdings as those fifteen, in the gather's order, beside the rest, as an equality: the task takes the
  fifteen and gives the same fifteen back.
-/
import proofs.«202673_g7318624272670_cont_9to1c4b_526_24_alg».proof.Proof.ScBaseK
import Idealize.ShloMosaic.Lib.SparseCore.Launch

noncomputable section

namespace Cert.Proof.ScK0

open Cert.Kernel Cert.Kernel.Gen Cert.Proof.ScK
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The gather's six scratch buffers. -/
abbrev T6 : Finset (Ref sig .scVector) := {cc0_scratch0, cc0_scratch1, cc0_scratch2, cc0_scratch3, cc0_scratch4, cc0_scratch5}
/-- The gather's nine transfer semaphores, in the order the task takes them. -/
abbrev T9 : Finset (SemLoc sig) :=
  {SemLoc.dma cc0_scoped0.sem, SemLoc.dma cc0_scratch6.sem, SemLoc.dma cc0_scratch7.sem, SemLoc.dma cc0_scratch8.sem,
    SemLoc.dma cc0_scratch9.sem, SemLoc.dma cc0_scratch10.sem, SemLoc.dma cc0_scratch11.sem, SemLoc.dma cc0_scratch12.sem,
    SemLoc.dma cc0_scratch13.sem}

/-- The six buffers as buffers of subcore (c, i). -/
abbrev bufs6 (c : Fin τ.nSC) (i : Fin τ.nSub) : Finset (DevRef τ sig) := T6.image (Proc.scVector c i).devRef
/-- The nine semaphores as cells of thread (d, c, i). -/
abbrev cells9 (d : Dev nD) (c : Fin τ.nSC) (i : Fin τ.nSub) : Finset (GSem nD τ sig) := T9.image fun sm => ((V d c i, sm) : GSem nD τ sig)

/-- The subcore's other buffers, each whole at some contents. -/
def restBufs (d : Dev nD) (c : Fin τ.nSC) (i : Fin τ.nSub) : sProp 𝕄 :=
  bigSep (ownRefs (τ := τ) (.scVector c i) \ bufs6 c i) fun b => iprop(∃ f, ((d, b) : Loc nD τ sig) ↦{fullShare} f)
/-- The thread's other semaphores, each at zero. -/
def restSems (d : Dev nD) (c : Fin τ.nSC) (i : Fin τ.nSub) : sProp 𝕄 :=
  bigSep (ownCells (V d c i) \ cells9 d c i) fun g => semVal g 0

theorem bufs6_sub (c : Fin τ.nSC) (i : Fin τ.nSub) : bufs6 c i ⊆ ownRefs (τ := τ) (.scVector c i) := by
  refine Finset.image_subset_iff.mpr fun b hb => ?_
  simp only [T6, Finset.mem_insert, Finset.mem_singleton] at hb
  rcases hb with rfl | rfl | rfl | rfl | rfl | rfl <;>
    exact SparseCore.Cfg.mem_ownRefs_of_owner (p := Proc.scVector c i) rfl

/-- Each of the nine is a semaphore scoped to a vector subcore. -/
theorem T9_scoped : ∀ sm ∈ T9, (sm : SemLoc sig).isScoped .scVector = true := by decide

theorem cells9_sub (d : Dev nD) (c : Fin τ.nSC) (i : Fin τ.nSub) : cells9 d c i ⊆ ownCells (V d c i) :=
  Finset.image_subset_iff.mpr fun sm hsm => (mem_ownCells (g := ((V d c i, sm) : GSem nD τ sig))).mpr ⟨rfl, T9_scoped sm hsm⟩

/-- Re-association, as an equality. -/
theorem sep_assoc_eq {M : Type} [URA M] (P Q R : sProp M) : iprop((P ∗ Q) ∗ R) = iprop(P ∗ Q ∗ R) :=
  Idealize.SL.BI.equiv_iff.mp ⟨Idealize.SL.BI.sep_assoc, Idealize.SL.BI.sep_assoc'⟩
/-- Six propositions beside a seventh, re-associated. -/
theorem assoc6 {M : Type} [URA M] (a b c e f g r : sProp M) : iprop((a ∗ b ∗ c ∗ e ∗ f ∗ g) ∗ r) = iprop(a ∗ b ∗ c ∗ e ∗ f ∗ g ∗ r) := by
  rw [sep_assoc_eq, sep_assoc_eq, sep_assoc_eq, sep_assoc_eq, sep_assoc_eq]
/-- Nine propositions beside a tenth, re-associated. -/
theorem assoc9 {M : Type} [URA M] (a b c e f g h j k r : sProp M) :
    iprop((a ∗ b ∗ c ∗ e ∗ f ∗ g ∗ h ∗ j ∗ k) ∗ r) = iprop(a ∗ b ∗ c ∗ e ∗ f ∗ g ∗ h ∗ j ∗ k ∗ r) := by
  rw [sep_assoc_eq, sep_assoc_eq, sep_assoc_eq, sep_assoc_eq, sep_assoc_eq, sep_assoc_eq, sep_assoc_eq, sep_assoc_eq]

/-- The six buffers are six different ones, and the nine semaphores nine. -/
theorem T6_0 : cc0_scratch0 ∉ ({cc0_scratch1, cc0_scratch2, cc0_scratch3, cc0_scratch4, cc0_scratch5} : Finset (Ref sig .scVector)) := by decide
theorem T6_1 : cc0_scratch1 ∉ ({cc0_scratch2, cc0_scratch3, cc0_scratch4, cc0_scratch5} : Finset (Ref sig .scVector)) := by decide
theorem T6_2 : cc0_scratch2 ∉ ({cc0_scratch3, cc0_scratch4, cc0_scratch5} : Finset (Ref sig .scVector)) := by decide
theorem T6_3 : cc0_scratch3 ∉ ({cc0_scratch4, cc0_scratch5} : Finset (Ref sig .scVector)) := by decide
theorem T6_4 : cc0_scratch4 ∉ ({cc0_scratch5} : Finset (Ref sig .scVector)) := by decide
theorem T9_0 : SemLoc.dma cc0_scoped0.sem ∉
    ({SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_1 : SemLoc.dma cc0_scratch6.sem ∉
    ({SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_2 : SemLoc.dma cc0_scratch7.sem ∉
    ({SemLoc.dma cc0_scratch8.sem, SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_3 : SemLoc.dma cc0_scratch8.sem ∉
    ({SemLoc.dma cc0_scratch9.sem, SemLoc.dma cc0_scratch10.sem, SemLoc.dma cc0_scratch11.sem, SemLoc.dma cc0_scratch12.sem, SemLoc.dma cc0_scratch13.sem} : Finset (SemLoc sig)) := by decide
theorem T9_4 : SemLoc.dma cc0_scratch9.sem ∉
    ({SemLoc.dma cc0_scratch10.sem, SemLoc.dma cc0_scratch11.sem, SemLoc.dma cc0_scratch12.sem, SemLoc.dma cc0_scratch13.sem} : Finset (SemLoc sig)) := by decide
theorem T9_5 : SemLoc.dma cc0_scratch10.sem ∉
    ({SemLoc.dma cc0_scratch11.sem, SemLoc.dma cc0_scratch12.sem, SemLoc.dma cc0_scratch13.sem} : Finset (SemLoc sig)) := by decide
theorem T9_6 : SemLoc.dma cc0_scratch11.sem ∉
    ({SemLoc.dma cc0_scratch12.sem, SemLoc.dma cc0_scratch13.sem} : Finset (SemLoc sig)) := by decide
theorem T9_7 : SemLoc.dma cc0_scratch12.sem ∉
    ({SemLoc.dma cc0_scratch13.sem} : Finset (SemLoc sig)) := by decide

/-- The subcore's buffers: the six, then the rest. -/
theorem bufs_split (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ restBufs d c i) := by
  unfold SparseCore.Cfg.ownBufs restBufs
  rw [SparseCore.bigSep_sdiff_split' (bufs6_sub c i),
    SparseCore.bigSep_image_of_injOn ((Proc.devRef_injective (Proc.scVector c i)).injOn),
    SparseCore.bigSep_insert' T6_0, SparseCore.bigSep_insert' T6_1, SparseCore.bigSep_insert' T6_2,
    SparseCore.bigSep_insert' T6_3, SparseCore.bigSep_insert' T6_4, bigSep_singleton]
  exact assoc6 _ _ _ _ _ _ _

/-- The thread's semaphores: the nine, then the rest. -/
theorem sems_split (d : Dev nD) (c : Fin τ.nSC) (i : Fin τ.nSub) :
    (ownSems0 (V d c i) : sProp 𝕄)
      = iprop(semVal (V d c i, SemLoc.dma cc0_scoped0.sem) 0 ∗ semVal (V d c i, SemLoc.dma cc0_scratch6.sem) 0
          ∗ semVal (V d c i, SemLoc.dma cc0_scratch7.sem) 0 ∗ semVal (V d c i, SemLoc.dma cc0_scratch8.sem) 0
          ∗ semVal (V d c i, SemLoc.dma cc0_scratch9.sem) 0 ∗ semVal (V d c i, SemLoc.dma cc0_scratch10.sem) 0
          ∗ semVal (V d c i, SemLoc.dma cc0_scratch11.sem) 0 ∗ semVal (V d c i, SemLoc.dma cc0_scratch12.sem) 0
          ∗ semVal (V d c i, SemLoc.dma cc0_scratch13.sem) 0 ∗ restSems d c i) := by
  unfold SparseCore.Cfg.ownSems0 restSems
  rw [SparseCore.bigSep_sdiff_split' (cells9_sub d c i),
    SparseCore.bigSep_image_of_injOn (fun a _ b _ e => (Prod.mk.inj e).2),
    SparseCore.bigSep_insert' T9_0, SparseCore.bigSep_insert' T9_1, SparseCore.bigSep_insert' T9_2,
    SparseCore.bigSep_insert' T9_3, SparseCore.bigSep_insert' T9_4, SparseCore.bigSep_insert' T9_5,
    SparseCore.bigSep_insert' T9_6, SparseCore.bigSep_insert' T9_7, bigSep_singleton]
  exact assoc9 _ _ _ _ _ _ _ _ _ _

/-- WHAT A TASK STARTS WITH AND ENDS WITH: the subcore's scoped buffers and semaphores are the gather's six buffers,
    each whole at some contents, and the rest, beside its nine semaphores at zero and the rest. -/
theorem own_split (hF : (K (F := F)).Facts) (d : Dev nD) (c : Fin τ.nSC) (i : Fin τ.nSub) :
    (iprop(scopedBufs (V d c i) ∗ scopedSems0 (V d c i)) : sProp 𝕄)
      = iprop(((∃ f, (V d c i).loc cc0_scratch0 ↦{fullShare} f) ∗ (∃ f, (V d c i).loc cc0_scratch1 ↦{fullShare} f)
            ∗ (∃ f, (V d c i).loc cc0_scratch2 ↦{fullShare} f) ∗ (∃ f, (V d c i).loc cc0_scratch3 ↦{fullShare} f)
            ∗ (∃ f, (V d c i).loc cc0_scratch4 ↦{fullShare} f) ∗ (∃ f, (V d c i).loc cc0_scratch5 ↦{fullShare} f)
            ∗ restBufs d c i)
          ∗ (semVal (V d c i, SemLoc.dma cc0_scoped0.sem) 0 ∗ semVal (V d c i, SemLoc.dma cc0_scratch6.sem) 0
            ∗ semVal (V d c i, SemLoc.dma cc0_scratch7.sem) 0 ∗ semVal (V d c i, SemLoc.dma cc0_scratch8.sem) 0
            ∗ semVal (V d c i, SemLoc.dma cc0_scratch9.sem) 0 ∗ semVal (V d c i, SemLoc.dma cc0_scratch10.sem) 0
            ∗ semVal (V d c i, SemLoc.dma cc0_scratch11.sem) 0 ∗ semVal (V d c i, SemLoc.dma cc0_scratch12.sem) 0
            ∗ semVal (V d c i, SemLoc.dma cc0_scratch13.sem) 0 ∗ restSems d c i)) := by
  rw [(K (F := F)).scopedBufs_V hF d c i, SparseCore.Cfg.scopedSems0_V d c i, bufs_split, sems_split]

end Cert.Proof.ScK0

end
-- ==== Proof.ScOblK0.lean ====
import proofs.«202673_g7318624272670_cont_9to1c4b_526_24_alg».proof.Proof.ScTileK0
import proofs.«202673_g7318624272670_cont_9to1c4b_526_24_alg».proof.Proof.ScOwnK0
import proofs.«202673_g7318624272670_cont_9to1c4b_526_24_alg».proof.Proof.ScPayK

/-! The first gather call's task as the launch theorem asks for it: a vector subcore's scoped storage opened into the
    task's two index scratches, four row buffers and nine DMA semaphores, the task run, and the storage closed again. -/

noncomputable section

namespace Cert.Proof.ScK0

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v5_scv : Memref Cert.Kernel.sig Kind.scVector Space.hbm Cert.Kernel.S212992 EltTy.i32)
local notation "outW" => (Memref.whole Cert.Kernel.main_v6_scv : Memref Cert.Kernel.sig Kind.scVector Space.hbm Cert.Kernel.S212992x128 EltTy.f32)
local notation "sN" => (Memref.whole Cert.Kernel.cc0_scratch0 : Memref Cert.Kernel.sig Kind.scVector Space.vmem Cert.Kernel.S6656 EltTy.i32)
local notation "sP" => (Memref.whole Cert.Kernel.cc0_scratch1 : Memref Cert.Kernel.sig Kind.scVector Space.vmem Cert.Kernel.S6656 EltTy.i32)
local notation "rB0" => (Memref.whole Cert.Kernel.cc0_scratch2 : Memref Cert.Kernel.sig Kind.scVector Space.vmem Cert.Kernel.S128x128 EltTy.f32)
local notation "rB1" => (Memref.whole Cert.Kernel.cc0_scratch3 : Memref Cert.Kernel.sig Kind.scVector Space.vmem Cert.Kernel.S128x128 EltTy.f32)
local notation "rB2" => (Memref.whole Cert.Kernel.cc0_scratch4 : Memref Cert.Kernel.sig Kind.scVector Space.vmem Cert.Kernel.S128x128 EltTy.f32)
local notation "rB3" => (Memref.whole Cert.Kernel.cc0_scratch5 : Memref Cert.Kernel.sig Kind.scVector Space.vmem Cert.Kernel.S128x128 EltTy.f32)

set_option maxHeartbeats 4000000 in
/-- The task with the subcore's scoped storage as the launch hands it over. -/
theorem tile_body (hF : (K (F := F)).Facts) (d : Dev nD) (L : grid0.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc0_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc0_scratch6 cc0_scratch7 cc0_scratch8 cc0_scratch9 cc0_scratch10 cc0_scratch11 cc0_scratch12 cc0_scratch13 cc0_scoped0)
          fun _ => iprop(tileRes d L qT ft fi ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc0_scoped0.sem) 0
            ∗ semVal (thr d L, SemLoc.dma cc0_scratch6.sem) 0 ∗ semVal (thr d L, SemLoc.dma cc0_scratch7.sem) 0
            ∗ semVal (thr d L, SemLoc.dma cc0_scratch8.sem) 0 ∗ semVal (thr d L, SemLoc.dma cc0_scratch9.sem) 0
            ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc0_scratch6 cc0_scratch7 cc0_scratch8 cc0_scratch9 cc0_scratch10 cc0_scratch11 cc0_scratch12 cc0_scratch13 cc0_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv0 : ∀ d i, ((Iv0 d i) : BitVec 32).toNat ≤ 999) :
    (K (F := F)).TileObl (D (F := F)) 𝒱 (P Tb Iv0 Iv1) v₀ 0 := by
  intro d c i O W hO _ _
  simp only [show (P Tb Iv0 Iv1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv0 d) (hIv0 d) O W hO).trans (wp_mono frame _ _ fun _ => obl_post)

end Cert.Proof.ScK0

end
-- ==== Proof.ScChkK1.lean ====
import proofs.«202673_g7318624272670_cont_9to1c4b_526_24_alg».proof.Proof.Gen.Kernel.Skeleton

/-! The positions a trip of the permutation loop reads: lane l of group g of window t reads position
    208 t + 26 ((16 g + l) mod 8) + (16 g + l) / 8, which is below 6656 for t < 32, g < 13, l < 16. Each of the thirteen
    side conditions is this fact at one g, decided over the 32 windows. -/

noncomputable section

namespace Cert.Proof.ScK1

open Cert.Kernel Cert.Kernel.Gen Idealize.ShloMosaic

/-- The lane numbers 0..15. -/
abbrev lanes : IVec S16 32 := iota .scVector S16 32 [0] iota_S16_d0_w32_scVector
/-- Window t's first position, 208 t, as the loop computes it. -/
abbrev wbase (t : Fin k1_t1_loop.trips) : BitVec 32 := Scalar.muli (Scalar.addi 0#32 (Scalar.muli (Scf.iv 0#32 1#32 t) 1#32)) 208#32

theorem chk1 : ∀ t : Fin k1_t1_loop.trips, k1_chk1 (k1_pay10 lanes 0#32 1#32 t) := by decide +kernel
theorem chk2 : ∀ t : Fin k1_t1_loop.trips, k1_chk2 (k1_pay14 lanes 0#32 1#32 t) := by decide +kernel
theorem chk3 : ∀ t : Fin k1_t1_loop.trips, k1_chk3 (k1_pay18 lanes (wbase t) 32#32) := by decide +kernel
theorem chk4 : ∀ t : Fin k1_t1_loop.trips, k1_chk4 (k1_pay22 lanes (wbase t)) := by decide +kernel
theorem chk5 : ∀ t : Fin k1_t1_loop.trips, k1_chk5 (k1_pay27 (wbase t) (k1_pay25 lanes) (k1_pay26 lanes)) := by decide +kernel
theorem chk6 : ∀ t : Fin k1_t1_loop.trips, k1_chk6 (k1_pay31 lanes (wbase t)) := by decide +kernel
theorem chk7 : ∀ t : Fin k1_t1_loop.trips, k1_chk7 (k1_pay35 lanes (wbase t)) := by decide +kernel
theorem chk8 : ∀ t : Fin k1_t1_loop.trips, k1_chk8 (k1_pay39 lanes (wbase t)) := by decide +kernel
theorem chk9 : ∀ t : Fin k1_t1_loop.trips, k1_chk9 (k1_pay43 lanes (wbase t)) := by decide +kernel
theorem chk10 : ∀ t : Fin k1_t1_loop.trips, k1_chk10 (k1_pay47 lanes (wbase t)) := by decide +kernel
theorem chk11 : ∀ t : Fin k1_t1_loop.trips, k1_chk11 (k1_pay51 lanes (wbase t)) := by decide +kernel
theorem chk12 : ∀ t : Fin k1_t1_loop.trips, k1_chk12 (k1_pay2 (wbase t) (k1_pay53 lanes) (k1_pay54 lanes) 3#32) := by decide +kernel
theorem chk13 : ∀ t : Fin k1_t1_loop.trips, k1_chk13 (k1_pay6 (wbase t)) := by decide +kernel

end Cert.Proof.ScK1

end
-- ==== Proof.ScArithK1.lean ====
import proofs.«202673_g7318624272670_cont_9to1c4b_526_24_alg».proof.Proof.ScChkK1

/-! Word arithmetic of the permutation loop and the gather loop's guards: a stored word is a category (at most 999) plus
    1000 times a field number (at most 25), so it names a table row below 26000; the thirteen stores of a window cover its
    208 places; a slot's earlier write is waited for exactly from the second trip on. -/

noncomputable section

namespace Cert.Proof.ScK1

open Cert.Kernel Cert.Kernel.Gen Idealize.ShloMosaic

variable {F : FTy → Type}

theorem add_lt_rows (a b : BitVec 32) (ha : a.toNat ≤ 999) (hb : b.toNat ≤ 25000) : (a + b).toNat < 26000 := by
  rw [BitVec.toNat_add]; omega

theorem pay1_const : ∀ x : S16.Idx, ((k1_pay11 (F := fun _ => Unit) lanes (fun _ => 0#32)) x).toNat ≤ 25000 := by decide +kernel
theorem pay1_lt (G : IVec S16 32) (hG : ∀ x, (G x).toNat ≤ 999) (x : S16.Idx) : ((k1_pay11 (F := F) lanes G) x).toNat < 26000 := by
  have e : (k1_pay11 (F := F) lanes G) x = G x + (k1_pay11 (F := F) lanes (fun _ => 0#32)) x := by
    simp only [k1_pay11, addi, IntOp.addi, BitVec.zero_add]
  rw [e]; exact add_lt_rows _ _ (hG x) (pay1_const x)

theorem pay2_const : ∀ x : S16.Idx, ((k1_pay15 (F := fun _ => Unit) lanes (fun _ => 0#32)) x).toNat ≤ 25000 := by decide +kernel
theorem pay2_lt (G : IVec S16 32) (hG : ∀ x, (G x).toNat ≤ 999) (x : S16.Idx) : ((k1_pay15 (F := F) lanes G) x).toNat < 26000 := by
  have e : (k1_pay15 (F := F) lanes G) x = G x + (k1_pay15 (F := F) lanes (fun _ => 0#32)) x := by
    simp only [k1_pay15, addi, IntOp.addi, BitVec.zero_add]
  rw [e]; exact add_lt_rows _ _ (hG x) (pay2_const x)

theorem pay3_const : ∀ x : S16.Idx, ((k1_pay19 (F := fun _ => Unit) lanes 32#32 (fun _ => 0#32)) x).toNat ≤ 25000 := by decide +kernel
theorem pay3_lt (G : IVec S16 32) (hG : ∀ x, (G x).toNat ≤ 999) (x : S16.Idx) : ((k1_pay19 (F := F) lanes 32#32 G) x).toNat < 26000 := by
  have e : (k1_pay19 (F := F) lanes 32#32 G) x = G x + (k1_pay19 (F := F) lanes 32#32 (fun _ => 0#32)) x := by
    simp only [k1_pay19, addi, IntOp.addi, BitVec.zero_add]
  rw [e]; exact add_lt_rows _ _ (hG x) (pay3_const x)

theorem pay4_const : ∀ x : S16.Idx, ((k1_pay23 (F := fun _ => Unit) lanes (fun _ => 0#32)) x).toNat ≤ 25000 := by decide +kernel
theorem pay4_lt (G : IVec S16 32) (hG : ∀ x, (G x).toNat ≤ 999) (x : S16.Idx) : ((k1_pay23 (F := F) lanes G) x).toNat < 26000 := by
  have e : (k1_pay23 (F := F) lanes G) x = G x + (k1_pay23 (F := F) lanes (fun _ => 0#32)) x := by
    simp only [k1_pay23, addi, IntOp.addi, BitVec.zero_add]
  rw [e]; exact add_lt_rows _ _ (hG x) (pay4_const x)

theorem pay5_const : ∀ x : S16.Idx, ((k1_pay28 (F := fun _ => Unit) (k1_pay26 lanes) (fun _ => 0#32)) x).toNat ≤ 25000 := by decide +kernel
theorem pay5_lt (G : IVec S16 32) (hG : ∀ x, (G x).toNat ≤ 999) (x : S16.Idx) : ((k1_pay28 (F := F) (k1_pay26 lanes) G) x).toNat < 26000 := by
  have e : (k1_pay28 (F := F) (k1_pay26 lanes) G) x = G x + (k1_pay28 (F := F) (k1_pay26 lanes) (fun _ => 0#32)) x := by
    simp only [k1_pay28, addi, IntOp.addi, BitVec.zero_add]
  rw [e]; exact add_lt_rows _ _ (hG x) (pay5_const x)

theorem pay6_const : ∀ x : S16.Idx, ((k1_pay32 (F := fun _ => Unit) lanes (fun _ => 0#32)) x).toNat ≤ 25000 := by decide +kernel
theorem pay6_lt (G : IVec S16 32) (hG : ∀ x, (G x).toNat ≤ 999) (x : S16.Idx) : ((k1_pay32 (F := F) lanes G) x).toNat < 26000 := by
  have e : (k1_pay32 (F := F) lanes G) x = G x + (k1_pay32 (F := F) lanes (fun _ => 0#32)) x := by
    simp only [k1_pay32, addi, IntOp.addi, BitVec.zero_add]
  rw [e]; exact add_lt_rows _ _ (hG x) (pay6_const x)

theorem pay7_const : ∀ x : S16.Idx, ((k1_pay36 (F := fun _ => Unit) (k1_pay34 lanes) (fun _ => 0#32)) x).toNat ≤ 25000 := by decide +kernel
theorem pay7_lt (G : IVec S16 32) (hG : ∀ x, (G x).toNat ≤ 999) (x : S16.Idx) : ((k1_pay36 (F := F) (k1_pay34 lanes) G) x).toNat < 26000 := by
  have e : (k1_pay36 (F := F) (k1_pay34 lanes) G) x = G x + (k1_pay36 (F := F) (k1_pay34 lanes) (fun _ => 0#32)) x := by
    simp only [k1_pay36, addi, IntOp.addi, BitVec.zero_add]
  rw [e]; exact add_lt_rows _ _ (hG x) (pay7_const x)

theorem pay8_const : ∀ x : S16.Idx, ((k1_pay40 (F := fun _ => Unit) lanes (fun _ => 0#32)) x).toNat ≤ 25000 := by decide +kernel
theorem pay8_lt (G : IVec S16 32) (hG : ∀ x, (G x).toNat ≤ 999) (x : S16.Idx) : ((k1_pay40 (F := F) lanes G) x).toNat < 26000 := by
  have e : (k1_pay40 (F := F) lanes G) x = G x + (k1_pay40 (F := F) lanes (fun _ => 0#32)) x := by
    simp only [k1_pay40, addi, IntOp.addi, BitVec.zero_add]
  rw [e]; exact add_lt_rows _ _ (hG x) (pay8_const x)

theorem pay9_const : ∀ x : S16.Idx, ((k1_pay44 (F := fun _ => Unit) lanes (fun _ => 0#32)) x).toNat ≤ 25000 := by decide +kernel
theorem pay9_lt (G : IVec S16 32) (hG : ∀ x, (G x).toNat ≤ 999) (x : S16.Idx) : ((k1_pay44 (F := F) lanes G) x).toNat < 26000 := by
  have e : (k1_pay44 (F := F) lanes G) x = G x + (k1_pay44 (F := F) lanes (fun _ => 0#32)) x := by
    simp only [k1_pay44, addi, IntOp.addi, BitVec.zero_add]
  rw [e]; exact add_lt_rows _ _ (hG x) (pay9_const x)

theorem pay10_const : ∀ x : S16.Idx, ((k1_pay48 (F := fun _ => Unit) lanes (fun _ => 0#32)) x).toNat ≤ 25000 := by decide +kernel
theorem pay10_lt (G : IVec S16 32) (hG : ∀ x, (G x).toNat ≤ 999) (x : S16.Idx) : ((k1_pay48 (F := F) lanes G) x).toNat < 26000 := by
  have e : (k1_pay48 (F := F) lanes G) x = G x + (k1_pay48 (F := F) lanes (fun _ => 0#32)) x := by
    simp only [k1_pay48, addi, IntOp.addi, BitVec.zero_add]
  rw [e]; exact add_lt_rows _ _ (hG x) (pay10_const x)

theorem pay11_const : ∀ x : S16.Idx, ((k1_pay52 (F := fun _ => Unit) lanes (fun _ => 0#32)) x).toNat ≤ 25000 := by decide +kernel
theorem pay11_lt (G : IVec S16 32) (hG : ∀ x, (G x).toNat ≤ 999) (x : S16.Idx) : ((k1_pay52 (F := F) lanes G) x).toNat < 26000 := by
  have e : (k1_pay52 (F := F) lanes G) x = G x + (k1_pay52 (F := F) lanes (fun _ => 0#32)) x := by
    simp only [k1_pay52, addi, IntOp.addi, BitVec.zero_add]
  rw [e]; exact add_lt_rows _ _ (hG x) (pay11_const x)

theorem pay12_const : ∀ x : S16.Idx, ((k1_pay3 (F := fun _ => Unit) (k1_pay53 lanes) 3#32 (fun _ => 0#32)) x).toNat ≤ 25000 := by decide +kernel
theorem pay12_lt (G : IVec S16 32) (hG : ∀ x, (G x).toNat ≤ 999) (x : S16.Idx) : ((k1_pay3 (F := F) (k1_pay53 lanes) 3#32 G) x).toNat < 26000 := by
  have e : (k1_pay3 (F := F) (k1_pay53 lanes) 3#32 G) x = G x + (k1_pay3 (F := F) (k1_pay53 lanes) 3#32 (fun _ => 0#32)) x := by
    simp only [k1_pay3, addi, IntOp.addi, BitVec.zero_add]
  rw [e]; exact add_lt_rows _ _ (hG x) (pay12_const x)

theorem pay13_const : ∀ x : S16.Idx, ((k1_pay7 (F := fun _ => Unit) (fun _ => 0#32)) x).toNat ≤ 25000 := by decide +kernel
theorem pay13_lt (G : IVec S16 32) (hG : ∀ x, (G x).toNat ≤ 999) (x : S16.Idx) : ((k1_pay7 (F := F) G) x).toNat < 26000 := by
  have e : (k1_pay7 (F := F) G) x = G x + (k1_pay7 (F := F) (fun _ => 0#32)) x := by
    simp only [k1_pay7, addi, IntOp.addi, BitVec.zero_add]
  rw [e]; exact add_lt_rows _ _ (hG x) (pay13_const x)

/-- A slot's wait for its earlier write is taken exactly when the trip is not the first. -/
theorem conds_iff : ∀ k : Fin k1_t2_loop.trips, (k1_cond1 k = 1#1 ↔ k.val ≠ 0) ∧ (k1_cond2 k = 1#1 ↔ k.val ≠ 0)
    ∧ (k1_cond3 k = 1#1 ↔ k.val ≠ 0) ∧ (k1_cond4 k = 1#1 ↔ k.val ≠ 0) := by decide +kernel

theorem trips1_eq : k1_t1_loop.trips = 32 := by decide
theorem trips2_eq : k1_t2_loop.trips = 13 := by decide

theorem mem_piece1 (k : Fin k1_t1_loop.trips) (y : S6656.Idx) (h1 : 208 * k.val + 0 ≤ (y 0).val) (h2 : (y 0).val < 208 * k.val + 0 + 16) :
    y ∈ (Rect.unit (s := S6656) (k1_off2 k) S16.size (k1_off2_inb k)).set := by
  rw [Rect.mem_set_unit, k1_off2_eq]
  intro a
  obtain rfl : a = 0 := Subsingleton.elim _ _
  constructor
  · show 208 * k.val + 0 ≤ (y 0).val
    exact h1
  · show (y 0).val < 208 * k.val + 0 + 16
    exact h2

theorem mem_piece2 (k : Fin k1_t1_loop.trips) (y : S6656.Idx) (h1 : 208 * k.val + 16 ≤ (y 0).val) (h2 : (y 0).val < 208 * k.val + 16 + 16) :
    y ∈ (Rect.unit (s := S6656) (k1_off3 k) S16.size (k1_off3_inb k)).set := by
  rw [Rect.mem_set_unit, k1_off3_eq]
  intro a
  obtain rfl : a = 0 := Subsingleton.elim _ _
  constructor
  · show 208 * k.val + 16 ≤ (y 0).val
    exact h1
  · show (y 0).val < 208 * k.val + 16 + 16
    exact h2

theorem mem_piece3 (k : Fin k1_t1_loop.trips) (y : S6656.Idx) (h1 : 208 * k.val + 32 ≤ (y 0).val) (h2 : (y 0).val < 208 * k.val + 32 + 16) :
    y ∈ (Rect.unit (s := S6656) (k1_off4 k) S16.size (k1_off4_inb k)).set := by
  rw [Rect.mem_set_unit, k1_off4_eq]
  intro a
  obtain rfl : a = 0 := Subsingleton.elim _ _
  constructor
  · show 208 * k.val + 32 ≤ (y 0).val
    exact h1
  · show (y 0).val < 208 * k.val + 32 + 16
    exact h2

theorem mem_piece4 (k : Fin k1_t1_loop.trips) (y : S6656.Idx) (h1 : 208 * k.val + 48 ≤ (y 0).val) (h2 : (y 0).val < 208 * k.val + 48 + 16) :
    y ∈ (Rect.unit (s := S6656) (k1_off5 k) S16.size (k1_off5_inb k)).set := by
  rw [Rect.mem_set_unit, k1_off5_eq]
  intro a
  obtain rfl : a = 0 := Subsingleton.elim _ _
  constructor
  · show 208 * k.val + 48 ≤ (y 0).val
    exact h1
  · show (y 0).val < 208 * k.val + 48 + 16
    exact h2

theorem mem_piece5 (k : Fin k1_t1_loop.trips) (y : S6656.Idx) (h1 : 208 * k.val + 64 ≤ (y 0).val) (h2 : (y 0).val < 208 * k.val + 64 + 16) :
    y ∈ (Rect.unit (s := S6656) (k1_off6 k) S16.size (k1_off6_inb k)).set := by
  rw [Rect.mem_set_unit, k1_off6_eq]
  intro a
  obtain rfl : a = 0 := Subsingleton.elim _ _
  constructor
  · show 208 * k.val + 64 ≤ (y 0).val
    exact h1
  · show (y 0).val < 208 * k.val + 64 + 16
    exact h2

theorem mem_piece6 (k : Fin k1_t1_loop.trips) (y : S6656.Idx) (h1 : 208 * k.val + 80 ≤ (y 0).val) (h2 : (y 0).val < 208 * k.val + 80 + 16) :
    y ∈ (Rect.unit (s := S6656) (k1_off7 k) S16.size (k1_off7_inb k)).set := by
  rw [Rect.mem_set_unit, k1_off7_eq]
  intro a
  obtain rfl : a = 0 := Subsingleton.elim _ _
  constructor
  · show 208 * k.val + 80 ≤ (y 0).val
    exact h1
  · show (y 0).val < 208 * k.val + 80 + 16
    exact h2

theorem mem_piece7 (k : Fin k1_t1_loop.trips) (y : S6656.Idx) (h1 : 208 * k.val + 96 ≤ (y 0).val) (h2 : (y 0).val < 208 * k.val + 96 + 16) :
    y ∈ (Rect.unit (s := S6656) (k1_off8 k) S16.size (k1_off8_inb k)).set := by
  rw [Rect.mem_set_unit, k1_off8_eq]
  intro a
  obtain rfl : a = 0 := Subsingleton.elim _ _
  constructor
  · show 208 * k.val + 96 ≤ (y 0).val
    exact h1
  · show (y 0).val < 208 * k.val + 96 + 16
    exact h2

theorem mem_piece8 (k : Fin k1_t1_loop.trips) (y : S6656.Idx) (h1 : 208 * k.val + 112 ≤ (y 0).val) (h2 : (y 0).val < 208 * k.val + 112 + 16) :
    y ∈ (Rect.unit (s := S6656) (k1_off9 k) S16.size (k1_off9_inb k)).set := by
  rw [Rect.mem_set_unit, k1_off9_eq]
  intro a
  obtain rfl : a = 0 := Subsingleton.elim _ _
  constructor
  · show 208 * k.val + 112 ≤ (y 0).val
    exact h1
  · show (y 0).val < 208 * k.val + 112 + 16
    exact h2

theorem mem_piece9 (k : Fin k1_t1_loop.trips) (y : S6656.Idx) (h1 : 208 * k.val + 128 ≤ (y 0).val) (h2 : (y 0).val < 208 * k.val + 128 + 16) :
    y ∈ (Rect.unit (s := S6656) (k1_off10 k) S16.size (k1_off10_inb k)).set := by
  rw [Rect.mem_set_unit, k1_off10_eq]
  intro a
  obtain rfl : a = 0 := Subsingleton.elim _ _
  constructor
  · show 208 * k.val + 128 ≤ (y 0).val
    exact h1
  · show (y 0).val < 208 * k.val + 128 + 16
    exact h2

theorem mem_piece10 (k : Fin k1_t1_loop.trips) (y : S6656.Idx) (h1 : 208 * k.val + 144 ≤ (y 0).val) (h2 : (y 0).val < 208 * k.val + 144 + 16) :
    y ∈ (Rect.unit (s := S6656) (k1_off11 k) S16.size (k1_off11_inb k)).set := by
  rw [Rect.mem_set_unit, k1_off11_eq]
  intro a
  obtain rfl : a = 0 := Subsingleton.elim _ _
  constructor
  · show 208 * k.val + 144 ≤ (y 0).val
    exact h1
  · show (y 0).val < 208 * k.val + 144 + 16
    exact h2

theorem mem_piece11 (k : Fin k1_t1_loop.trips) (y : S6656.Idx) (h1 : 208 * k.val + 160 ≤ (y 0).val) (h2 : (y 0).val < 208 * k.val + 160 + 16) :
    y ∈ (Rect.unit (s := S6656) (k1_off12 k) S16.size (k1_off12_inb k)).set := by
  rw [Rect.mem_set_unit, k1_off12_eq]
  intro a
  obtain rfl : a = 0 := Subsingleton.elim _ _
  constructor
  · show 208 * k.val + 160 ≤ (y 0).val
    exact h1
  · show (y 0).val < 208 * k.val + 160 + 16
    exact h2

theorem mem_piece12 (k : Fin k1_t1_loop.trips) (y : S6656.Idx) (h1 : 208 * k.val + 176 ≤ (y 0).val) (h2 : (y 0).val < 208 * k.val + 176 + 16) :
    y ∈ (Rect.unit (s := S6656) (k1_off13 k) S16.size (k1_off13_inb k)).set := by
  rw [Rect.mem_set_unit, k1_off13_eq]
  intro a
  obtain rfl : a = 0 := Subsingleton.elim _ _
  constructor
  · show 208 * k.val + 176 ≤ (y 0).val
    exact h1
  · show (y 0).val < 208 * k.val + 176 + 16
    exact h2

theorem mem_piece13 (k : Fin k1_t1_loop.trips) (y : S6656.Idx) (h1 : 208 * k.val + 192 ≤ (y 0).val) (h2 : (y 0).val < 208 * k.val + 192 + 16) :
    y ∈ (Rect.unit (s := S6656) (k1_off14 k) S16.size (k1_off14_inb k)).set := by
  rw [Rect.mem_set_unit, k1_off14_eq]
  intro a
  obtain rfl : a = 0 := Subsingleton.elim _ _
  constructor
  · show 208 * k.val + 192 ≤ (y 0).val
    exact h1
  · show (y 0).val < 208 * k.val + 192 + 16
    exact h2

end Cert.Proof.ScK1

end
-- ==== Proof.ScTileK1.lean ====
import proofs.«202673_g7318624272670_cont_9to1c4b_526_24_alg».proof.Proof.ScBaseK
import proofs.«202673_g7318624272670_cont_9to1c4b_526_24_alg».proof.Proof.ScArithK1
import proofs.«202673_g7318624272670_cont_9to1c4b_526_24_alg».proof.Proof.ScSetsK1
import proofs.«202673_g7318624272670_cont_9to1c4b_526_24_alg».proof.Proof.ScResK1
import proofs.«202673_g7318624272670_cont_9to1c4b_526_24_alg».proof.Proof.LibWritesPred
import proofs.«202673_g7318624272670_cont_9to1c4b_526_24_alg».proof.Proof.Gen.Kernel.Skeleton

/-! One vector subcore's task of the second gather call, run once at a symbolic place.

    The task copies its 6656 category words to a scratch, writes the permuted list window by window (32 windows of 208
    places: 13 groups of 16 lanes, each a lane-indexed load of the scratch plus 1000 times the field number), then runs
    13 trips of four slots: each slot gathers 128 table rows named by 128 words of the permuted list into its row buffer
    and writes the buffer to its block of the gathered array; a slot's write is waited for at the next trip, the last
    four after the loop.

    Carried through the first loop: every word of the scratch is at most 999 and the windows written so far hold words
    below 26000 — what the gathers need of their index lists. Carried through the second loop: the blocks of the trip
    just past are in flight with their row buffers, all other blocks rest with the task; nothing else is claimed of the
    blocks' contents. -/

noncomputable section

namespace Cert.Proof.ScK1

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v8_scv : Memref Cert.Kernel.sig Kind.scVector Space.hbm Cert.Kernel.S212992 EltTy.i32)
local notation "outW" => (Memref.whole Cert.Kernel.main_v9_scv : Memref Cert.Kernel.sig Kind.scVector Space.hbm Cert.Kernel.S212992x128 EltTy.f32)
local notation "sN" => (Memref.whole Cert.Kernel.cc1_scratch0 : Memref Cert.Kernel.sig Kind.scVector Space.vmem Cert.Kernel.S6656 EltTy.i32)
local notation "sP" => (Memref.whole Cert.Kernel.cc1_scratch1 : Memref Cert.Kernel.sig Kind.scVector Space.vmem Cert.Kernel.S6656 EltTy.i32)
local notation "rB0" => (Memref.whole Cert.Kernel.cc1_scratch2 : Memref Cert.Kernel.sig Kind.scVector Space.vmem Cert.Kernel.S128x128 EltTy.f32)
local notation "rB1" => (Memref.whole Cert.Kernel.cc1_scratch3 : Memref Cert.Kernel.sig Kind.scVector Space.vmem Cert.Kernel.S128x128 EltTy.f32)
local notation "rB2" => (Memref.whole Cert.Kernel.cc1_scratch4 : Memref Cert.Kernel.sig Kind.scVector Space.vmem Cert.Kernel.S128x128 EltTy.f32)
local notation "rB3" => (Memref.whole Cert.Kernel.cc1_scratch5 : Memref Cert.Kernel.sig Kind.scVector Space.vmem Cert.Kernel.S128x128 EltTy.f32)

variable [FloatOps F]

section Tile
variable (d : Dev nD) (L : grid1.Coords)

/-! ## The loops' invariants -/

/-- Every word the index scratch reads is a category, at most 999. -/
def Small (g : Buf (Elt F) ((sN).view.loc (thr d L))) : Prop :=
  ∀ y, (((sN).view.readAt (Elt F) (LoadRect.whole S6656) g y) : BitVec 32).toNat ≤ 999

/-- The first `n` windows of the permuted list hold table rows: words below 26000. -/
def RowsBelow (n : Nat) (f : Buf (Elt F) ((sP).view.loc (thr d L))) : Prop :=
  ∀ y : S6656.Idx, (y 0).val < 208 * n → (((sP).view.read (Elt F) f y) : BitVec 32).toNat < 26000

def inv1 (O : CellTallies nD τ sig (HIx 2)) (W : Waits sig (HIx 2)) (n : Nat) (_ : PUnit) : sProp 𝕄 :=
  iprop(Transfers.MayWaits (thr d L) (none : HIx 2) O
    ∗ (∃ g, ⌜Small d L g⌝ ∗ (sN).view.loc (thr d L) ↦{fullShare} g)
    ∗ (∃ f, ⌜RowsBelow d L n f⌝ ∗ (sP).view.loc (thr d L) ↦{fullShare} f)
    ∗ ∃ W', ⌜∀ p ∈ W', p ∈ W ∨ p.2 = none⌝ ∗ owes (thr d L) O W')

/-! ### The gather loop -/

/-- Trip `t`'s four writes in flight, one per slot: each delivers the block it wrote (at `o i`) and its row buffer
    (at `c i`) back at the wait. -/
def flightRow (t : Fin k1_t2_loop.trips) (o0 o1 o2 o3 : Buf (Elt F) ((outW).view.loc (thr d L)))
    (c0 : Buf (Elt F) ((rB0).view.loc (thr d L))) (c1 : Buf (Elt F) ((rB1).view.loc (thr d L)))
    (c2 : Buf (Elt F) ((rB2).view.loc (thr d L))) (c3 : Buf (Elt F) ((rB3).view.loc (thr d L))) : sProp 𝕄 :=
  iprop(Transfers.Flight countersEmb (thr d L) (SemLoc.dma cc1_scratch10.sem) (default : HIx 2) 524288
        iprop(((chunk0 L t).view.loc (thr d L) ↦[(chunk0 L t).view.set]{fullShare} o0) ∗ (rB0).view.loc (thr d L) ↦[(rB0).view.set]{fullShare} c0)
    ∗ Transfers.Flight countersEmb (thr d L) (SemLoc.dma cc1_scratch11.sem) (default : HIx 2) 524288
        iprop(((chunk1 L t).view.loc (thr d L) ↦[(chunk1 L t).view.set]{fullShare} o1) ∗ (rB1).view.loc (thr d L) ↦[(rB1).view.set]{fullShare} c1)
    ∗ Transfers.Flight countersEmb (thr d L) (SemLoc.dma cc1_scratch12.sem) (default : HIx 2) 524288
        iprop(((chunk2 L t).view.loc (thr d L) ↦[(chunk2 L t).view.set]{fullShare} o2) ∗ (rB2).view.loc (thr d L) ↦[(rB2).view.set]{fullShare} c2)
    ∗ Transfers.Flight countersEmb (thr d L) (SemLoc.dma cc1_scratch13.sem) (default : HIx 2) 524288
        iprop(((chunk3 L t).view.loc (thr d L) ↦[(chunk3 L t).view.set]{fullShare} o3) ∗ (rB3).view.loc (thr d L) ↦[(rB3).view.set]{fullShare} c3))

/-- Before trip `n`: trip `n - 1`'s blocks are in flight, every other trip's rest with the task. -/
def cell (n : Nat) (t : Fin k1_t2_loop.trips) : sProp 𝕄 :=
  if t.val + 1 = n then iprop(∃ o0 o1 o2 o3 c0 c1 c2 c3, flightRow d L t o0 o1 o2 o3 c0 c1 c2 c3) else chunkRow d L t

/-- Before the first trip the four row buffers and their write semaphores are idle. -/
def idle (n : Nat) : sProp 𝕄 :=
  if n = 0 then iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0)
  else iprop(emp)

def inv2 (O : CellTallies nD τ sig (HIx 2)) (W : Waits sig (HIx 2)) (qT : PosShare TreeShare)
    (ft : Buf (Elt F) ((tblW).view.loc (thr d L))) (n : Nat) (_ : PUnit) : sProp 𝕄 :=
  iprop(Transfers.MayWaits (thr d L) (none : HIx 2) O
    ∗ ((tblW).view.loc (thr d L) ↦{Transfers.shareTokN qT 9} ft) ∗ ((tblW).view.loc (thr d L) ↦{Transfers.shareTokN qT 10} ft)
    ∗ ((tblW).view.loc (thr d L) ↦{Transfers.shareTokN qT 11} ft) ∗ ((tblW).view.loc (thr d L) ↦{Transfers.shareTokN qT 12} ft)
    ∗ (∃ f, ⌜RowsBelow d L 32 f⌝ ∗ (sP).view.loc (thr d L) ↦{fullShare} f)
    ∗ semVal (thr d L, SemLoc.dma cc1_scratch6.sem) 0 ∗ semVal (thr d L, SemLoc.dma cc1_scratch7.sem) 0
    ∗ semVal (thr d L, SemLoc.dma cc1_scratch8.sem) 0 ∗ semVal (thr d L, SemLoc.dma cc1_scratch9.sem) 0
    ∗ bigSep Finset.univ (cell d L n)
    ∗ idle d L n
    ∗ ∃ W', ⌜∀ p ∈ W', p ∈ W ∨ p.2 = none⌝ ∗ owes (thr d L) O W')

/-! ### The task -/

theorem small_of_fetch (fi : Buf (Elt F) ((idxW).view.loc (thr d L))) (hfi : ∀ i, ((fi i) : BitVec 32).toNat ≤ 999)
    (fn : Buf (Elt F) ((sN).view.loc (thr d L))) :
    Small d L ((sN).view.write (Elt F) fn ((idxSl L).view.read (Elt F) fi) Finset.univ) := by
  intro y
  rw [View.write_whole_univ]
  simp only [View.readAt_apply, Memref.view_whole, View.read_whole]
  rw [View.read_apply]
  exact hfi _

theorem rowsBelow_zero (f : Buf (Elt F) ((sP).view.loc (thr d L))) : RowsBelow d L 0 f := by
  intro y hy
  rw [Nat.mul_zero] at hy
  exact absurd hy (Nat.not_lt_zero _)

/-- One window's thirteen stores keep the earlier windows and fill this one with table rows. -/
theorem rowsBelow_step (k : Fin k1_t1_loop.trips) (f : Buf (Elt F) ((sP).view.loc (thr d L))) (hf : RowsBelow d L k.val f)
    (Lp : List (View.Piece (Elt F) S6656 .i32))
    (hL : ∀ p ∈ Lp, ∀ x : p.1.shape.Idx, ((p.2 x) : BitVec 32).toNat < 26000)
    (hcov : ∀ y : S6656.Idx, 208 * k.val ≤ (y 0).val → (y 0).val < 208 * (k.val + 1) → ∃ p ∈ Lp, y ∈ p.1.set) :
    RowsBelow d L (k.val + 1) ((sP).view.writes (Elt F) f Lp) := by
  intro y hy
  refine Cert.LibWritesPred.read_writes_pred (sP).view f (fun w : Elt F .i32 => (w : BitVec 32).toNat < 26000) Lp hL y ?_
  by_cases h : (y 0).val < 208 * k.val
  · exact .inl (hf y h)
  · exact .inr (hcov y (Nat.le_of_not_lt h) hy)

theorem idle_zero (n : Nat) (h : n = 0) : idle (F := F) d L n = (iprop((∃ f, (rB0).view.loc (thr d L) ↦{fullShare} f) ∗ (∃ f, (rB1).view.loc (thr d L) ↦{fullShare} f)
      ∗ (∃ f, (rB2).view.loc (thr d L) ↦{fullShare} f) ∗ (∃ f, (rB3).view.loc (thr d L) ↦{fullShare} f)
      ∗ semVal (thr d L, SemLoc.dma cc1_scratch10.sem) 0 ∗ semVal (thr d L, SemLoc.dma cc1_scratch11.sem) 0
      ∗ semVal (thr d L, SemLoc.dma cc1_scratch12.sem) 0 ∗ semVal (thr d L, SemLoc.dma cc1_scratch13.sem) 0) : sProp 𝕄) := if_pos h
theorem idle_pos (n : Nat) (h : n ≠ 0) : idle (F := F) d L n = (iprop(emp) : sProp 𝕄) := if_neg h
theorem cell_self (t : Fin k1_t2_loop.trips) : cell (F := F) d L t.val t = chunkRow d L t := if_neg (by omega)
theorem cell_next (t : Fin k1_t2_loop.trips) : cell (F := F) d L (t.val + 1) t = (iprop(∃ o0 o1 o2 o3 c0 c1 c2 c3, flightRow d L t o0 o1 o2 o3 c0 c1 c2 c3) : sProp 𝕄) := if_pos rfl
theorem cell_at (n : Nat) (t : Fin k1_t2_loop.trips) (h : t.val + 1 = n) : cell (F := F) d L n t = (iprop(∃ o0 o1 o2 o3 c0 c1 c2 c3, flightRow d L t o0 o1 o2 o3 c0 c1 c2 c3) : sProp 𝕄) := if_pos h
theorem cell_other (n : Nat) (t : Fin k1_t2_loop.trips) (h : t.val + 1 ≠ n) : cell (F := F) d L n t = chunkRow d L t := if_neg h

omit [FloatOps F] in
theorem pts_whole {e : EltTy} {s : Shape} (b : Ref sig .scVector) (hb : b.ty = ⟨s, e⟩) (q : PosShare TreeShare)
    (f : Buf (Elt F) ((Memref.whole b).view.loc (thr d L))) :
    ((Memref.whole b).view.loc (thr d L) ↦[(Memref.whole b).view.set]{q} f : sProp 𝕄) = ((Memref.whole b).view.loc (thr d L) ↦{q} f) := by
  simp only [Memref.view_whole, View.set_whole]

omit [FloatOps F] in
theorem waits_insert {W' W : Waits sig (HIx 2)} (x : SemLoc sig × HIx 2) (hx : x.2 = none)
    (h : ∀ p ∈ W', p ∈ W ∨ p.2 = none) : ∀ p ∈ insert x W', p ∈ W ∨ p.2 = none := by
  intro p hp
  rcases Finset.mem_insert.mp hp with e | hp
  · exact .inr (e ▸ hx)
  · exact h p hp

/-- Words below 26000 everywhere make every slice of the list a list of table rows. -/
theorem hin_of_rows (fP : Buf (Elt F) ((sP).view.loc (thr d L))) (h : RowsBelow d L 32 fP)
    (r : Rect S6656) (hr : ∀ a, r.stride a = 1) (x : r.shape.Idx) :
    ((((sP).slice r hr).view.read (Elt F) fP x) : BitVec 32).toNat < S26000x128.size gathers_S26000x128_S128x128.axis := by
  show (((sP).view.read (Elt F) fP (r.emb x)) : BitVec 32).toNat < 26000
  exact h (r.emb x) ((r.emb x) 0).isLt

set_option maxHeartbeats 8000000 in
theorem tile_run (O : CellTallies nD τ sig (HIx 2)) (W : Waits sig (HIx 2)) (hO : ∀ g, O g none = 0)
    (qT : PosShare TreeShare) (ft : Buf (Elt F) ((tblW).view.loc (thr d L))) (fi : Buf (Elt F) ((idxW).view.loc (thr d L)))
    (hfi : ∀ i, ((fi i) : BitVec 32).toNat ≤ 999)
    (fn : Buf (Elt F) ((sN).view.loc (thr d L))) (fp : Buf (Elt F) ((sP).view.loc (thr d L)))
    (f0 : Buf (Elt F) ((rB0).view.loc (thr d L))) (f1 : Buf (Elt F) ((rB1).view.loc (thr d L)))
    (f2 : Buf (Elt F) ((rB2).view.loc (thr d L))) (f3 : Buf (Elt F) ((rB3).view.loc (thr d L))) :
    (iprop(levAts (K (F := F)).L (K (F := F)).lev ∗ tileRes d L qT ft fi
        ∗ ((sN).view.loc (thr d L) ↦{fullShare} fn) ∗ ((sP).view.loc (thr d L) ↦{fullShare} fp)
        ∗ ((rB0).view.loc (thr d L) ↦{fullShare} f0) ∗ ((rB1).view.loc (thr d L) ↦{fullShare} f1)
        ∗ ((rB2).view.loc (thr d L) ↦{fullShare} f2) ∗ ((rB3).view.loc (thr d L) ↦{fullShare} f3)
        ∗ semVal (thr d L, SemLoc.dma cc1_scoped0.sem) 0
        ∗ semVal (thr d L, SemLoc.dma cc1_scratch6.sem) 0 ∗ semVal (thr d L, SemLoc.dma cc1_scratch7.sem) 0
        ∗ semVal (thr d L, SemLoc.dma cc1_scratch8.sem) 0 ∗ semVal (thr d L, SemLoc.dma cc1_scratch9.sem) 0
        ∗ semVal (thr d L, SemLoc.dma cc1_scratch10.sem) 0 ∗ semVal (thr d L, SemLoc.dma cc1_scratch11.sem) 0
        ∗ semVal (thr d L, SemLoc.dma cc1_scratch12.sem) 0 ∗ semVal (thr d L, SemLoc.dma cc1_scratch13.sem) 0
        ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') := by
  rw [cc1_gather_kernel_eq_skeleton]; unfold cc1_gather_kernel_skel k1_t1_body k1_t2_body
  rw [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel
  unfold SparseCore.vectorLoadIdx
  unfold tileRes
  iintro ⟨#Hlv, ⟨Ht0, Ht1, Ht2, Ht3, Hi, Hout⟩, Hn, Hp, H0, H1, H2, H3, Hsem, Hg0, Hg1, Hg2, Hg3, Hw0, Hw1, Hw2, Hw3, HO⟩
  ihave Hmw := ((K (F := F)).mayWaits_none (thr := thr d L) hO) $$ Hlv
  sl_exec
  sl_for (inv1 d L O W) $$ [Hmw Hn Hp HO]
  case region =>
    intro k _
    unfold inv1
    iintro ⟨Hmw, ⟨%g, %hg, Hn⟩, ⟨%f, %hf, Hp⟩, %W', %hW', HO⟩
    have hc1 := chk1 k
    have hc2 := chk2 k
    have hc3 := chk3 k
    have hc4 := chk4 k
    have hc5 := chk5 k
    have hc6 := chk6 k
    have hc7 := chk7 k
    have hc8 := chk8 k
    have hc9 := chk9 k
    have hc10 := chk10 k
    have hc11 := chk11 k
    have hc12 := chk12 k
    have hc13 := chk13 k
    sl_exec
    sl_step
    isplitl [Hmw]
    · iexact Hmw
    isplitl [Hn]
    · iexists g
      isplitr
      · ipureintro; exact hg
      · iexact Hn
    isplitl [Hp]
    · iexists _
      isplitr
      rotate_left
      · iexact Hp
      · ipureintro
        refine rowsBelow_step d L k f hf _ ?hL ?hcov
        case hL =>
          refine List.forall_mem_cons.mpr ⟨pay13_lt (F := F) _ (fun _ => hg _), ?_⟩
          refine List.forall_mem_cons.mpr ⟨pay12_lt (F := F) _ (fun _ => hg _), ?_⟩
          refine List.forall_mem_cons.mpr ⟨pay11_lt (F := F) _ (fun _ => hg _), ?_⟩
          refine List.forall_mem_cons.mpr ⟨pay10_lt (F := F) _ (fun _ => hg _), ?_⟩
          refine List.forall_mem_cons.mpr ⟨pay9_lt (F := F) _ (fun _ => hg _), ?_⟩
          refine List.forall_mem_cons.mpr ⟨pay8_lt (F := F) _ (fun _ => hg _), ?_⟩
          refine List.forall_mem_cons.mpr ⟨pay7_lt (F := F) _ (fun _ => hg _), ?_⟩
          refine List.forall_mem_cons.mpr ⟨pay6_lt (F := F) _ (fun _ => hg _), ?_⟩
          refine List.forall_mem_cons.mpr ⟨pay5_lt (F := F) _ (fun _ => hg _), ?_⟩
          refine List.forall_mem_cons.mpr ⟨pay4_lt (F := F) _ (fun _ => hg _), ?_⟩
          refine List.forall_mem_cons.mpr ⟨pay3_lt (F := F) _ (fun _ => hg _), ?_⟩
          refine List.forall_mem_cons.mpr ⟨pay2_lt (F := F) _ (fun _ => hg _), ?_⟩
          refine List.forall_mem_cons.mpr ⟨pay1_lt (F := F) _ (fun _ => hg _), ?_⟩
          exact fun _ h => absurd h List.not_mem_nil
        case hcov =>
          intro y h1 h2
          have hd : (208 * k.val + 0 ≤ (y 0).val ∧ (y 0).val < 208 * k.val + 0 + 16) ∨ (208 * k.val + 16 ≤ (y 0).val ∧ (y 0).val < 208 * k.val + 16 + 16) ∨ (208 * k.val + 32 ≤ (y 0).val ∧ (y 0).val < 208 * k.val + 32 + 16) ∨ (208 * k.val + 48 ≤ (y 0).val ∧ (y 0).val < 208 * k.val + 48 + 16) ∨ (208 * k.val + 64 ≤ (y 0).val ∧ (y 0).val < 208 * k.val + 64 + 16) ∨ (208 * k.val + 80 ≤ (y 0).val ∧ (y 0).val < 208 * k.val + 80 + 16) ∨ (208 * k.val + 96 ≤ (y 0).val ∧ (y 0).val < 208 * k.val + 96 + 16) ∨ (208 * k.val + 112 ≤ (y 0).val ∧ (y 0).val < 208 * k.val + 112 + 16) ∨ (208 * k.val + 128 ≤ (y 0).val ∧ (y 0).val < 208 * k.val + 128 + 16) ∨ (208 * k.val + 144 ≤ (y 0).val ∧ (y 0).val < 208 * k.val + 144 + 16) ∨ (208 * k.val + 160 ≤ (y 0).val ∧ (y 0).val < 208 * k.val + 160 + 16) ∨ (208 * k.val + 176 ≤ (y 0).val ∧ (y 0).val < 208 * k.val + 176 + 16) ∨ (208 * k.val + 192 ≤ (y 0).val ∧ (y 0).val < 208 * k.val + 192 + 16) := by omega
          rcases hd with h | h | h | h | h | h | h | h | h | h | h | h | h
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_piece1 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_piece2 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_piece3 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_piece4 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_piece5 k y h.1 h.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece6 k y h.1 h.2⟩
          · exact ⟨_, List.mem_cons_of_mem _ (List.mem_cons_of_mem _ (List.mem_cons_of_mem _ (List.mem_cons_of_mem _ (List.mem_cons_of_mem _ (List.mem_cons_of_mem _ (List.mem_cons_self)))))), mem_piece7 k y h.1 h.2⟩
          · exact ⟨_, List.mem_cons_of_mem _ (List.mem_cons_of_mem _ (List.mem_cons_of_mem _ (List.mem_cons_of_mem _ (List.mem_cons_of_mem _ (List.mem_cons_self))))), mem_piece8 k y h.1 h.2⟩
          · exact ⟨_, List.mem_cons_of_mem _ (List.mem_cons_of_mem _ (List.mem_cons_of_mem _ (List.mem_cons_of_mem _ (List.mem_cons_self)))), mem_piece9 k y h.1 h.2⟩
          · exact ⟨_, List.mem_cons_of_mem _ (List.mem_cons_of_mem _ (List.mem_cons_of_mem _ (List.mem_cons_self))), mem_piece10 k y h.1 h.2⟩
          · exact ⟨_, List.mem_cons_of_mem _ (List.mem_cons_of_mem _ (List.mem_cons_self)), mem_piece11 k y h.1 h.2⟩
          · exact ⟨_, List.mem_cons_of_mem _ (List.mem_cons_self), mem_piece12 k y h.1 h.2⟩
          · exact ⟨_, List.mem_cons_self, mem_piece13 k y h.1 h.2⟩
    iexists W'
    isplitr
    · ipureintro; exact hW'
    · iexact HO
  · unfold inv1
    isplitl [Hmw]
    · iexact Hmw
    isplitl [Hn]
    · iexists _
      isplitr
      · ipureintro; exact small_of_fetch d L fi hfi fn
      · iexact Hn
    isplitl [Hp]
    · iexists fp
      isplitr
      · ipureintro; exact rowsBelow_zero d L fp
      · iexact Hp
    iexists (insert (SemLoc.dma cc1_scoped0.sem, (default : HIx 2)) W)
    isplitr
    · ipureintro; exact waits_insert _ rfl (fun p hp => .inl hp)
    · iexact HO
  iintro %_ HI
  unfold inv1
  icases HI with ⟨Hmw, ⟨%g, %hg, Hn⟩, ⟨%fP, %hfP, Hp⟩, %W1, %hW1, HO⟩
  have h32 : RowsBelow d L 32 fP := by
    have := hfP
    rwa [show Scf.trips k1_t1_loop.lb k1_t1_loop.ub k1_t1_loop.st = 32 from trips1_eq] at this
  sl_for (inv2 d L O W qT ft) $$ [Hmw Ht0 Ht1 Ht2 Ht3 Hp Hg0 Hg1 Hg2 Hg3 Hout H0 H1 H2 H3 Hw0 Hw1 Hw2 Hw3 HO]
  case region =>
    intro k _
    unfold inv2
    iintro ⟨Hmw, Ht0, Ht1, Ht2, Ht3, ⟨%fQ, %hfQ, Hp⟩, Hg0, Hg1, Hg2, Hg3, Hcells, Hidle, %W', %hW', HO⟩
    have hin := hin_of_rows d L fQ hfQ
    obtain ⟨hc1, hc2, hc3, hc4⟩ := conds_iff k
    by_cases hk : k.val = 0
    · have h1 : ¬ k1_cond1 k = 1#1 := fun h => (hc1.mp h) hk
      have h2 : ¬ k1_cond2 k = 1#1 := fun h => (hc2.mp h) hk
      have h3 : ¬ k1_cond3 k = 1#1 := fun h => (hc3.mp h) hk
      have h4 : ¬ k1_cond4 k = 1#1 := fun h => (hc4.mp h) hk
      ihave Hid := (Entails.of_eq (idle_zero d L k.val hk)) $$ Hidle
      icases Hid with ⟨⟨%e0, H0⟩, ⟨%e1, H1⟩, ⟨%e2, H2⟩, ⟨%e3, H3⟩, Hw0, Hw1, Hw2, Hw3⟩
      ihave Hc := (Entails.of_eq (SparseCore.bigSep_erase' (Finset.mem_univ k))) $$ Hcells
      icases Hc with ⟨Hk, Hrest⟩
      ihave Hk' := (Entails.of_eq (cell_self d L k)) $$ Hk
      unfold chunkRow
      icases Hk' with ⟨⟨%o0, Hc0⟩, ⟨%o1, Hc1⟩, ⟨%o2, Hc2⟩, ⟨%o3, Hc3⟩⟩
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (bigSep_congr fun t ht => (cell_other d L k.val t (by have := Finset.ne_of_mem_erase ht; intro e; exact this (Fin.ext (by omega)))).trans (cell_other d L (k.val + 1) t (by have := Finset.ne_of_mem_erase ht; intro e; exact this (Fin.ext (by omega)))).symm))
          iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl hW')))
    · have h1 : k1_cond1 k = 1#1 := hc1.mpr hk
      have h2 : k1_cond2 k = 1#1 := hc2.mpr hk
      have h3 : k1_cond3 k = 1#1 := hc3.mpr hk
      have h4 : k1_cond4 k = 1#1 := hc4.mpr hk
      have hk' : k.val - 1 < k1_t2_loop.trips := Nat.lt_of_le_of_lt (Nat.sub_le _ _) k.isLt
      have hkk : (⟨k.val - 1, hk'⟩ : Fin k1_t2_loop.trips).val + 1 = k.val := by show k.val - 1 + 1 = k.val; omega
      have hne : (⟨k.val - 1, hk'⟩ : Fin k1_t2_loop.trips) ≠ k := fun e => by have := congrArg Fin.val e; simp at this; omega
      ihave Hc := (Entails.of_eq (SparseCore.bigSep_erase' (Finset.mem_univ k))) $$ Hcells
      icases Hc with ⟨Hk, Hrest⟩
      ihave Hk' := (Entails.of_eq (cell_self d L k)) $$ Hk
      ihave Hc2 := (Entails.of_eq (SparseCore.bigSep_erase' (Finset.mem_erase.mpr ⟨hne, Finset.mem_univ _⟩))) $$ Hrest
      icases Hc2 with ⟨Hf, Hrest⟩
      ihave Hf' := (Entails.of_eq (cell_at d L k.val ⟨k.val - 1, hk'⟩ hkk)) $$ Hf
      icases Hf' with ⟨%p0, %p1, %p2, %p3, %q0, %q1, %q2, %q3, Hfl⟩
      unfold flightRow chunkRow
      icases Hfl with ⟨Hw0, Hw1, Hw2, Hw3⟩
      icases Hk' with ⟨⟨%o0, Hc0⟩, ⟨%o1, Hc1⟩, ⟨%o2, Hc2⟩, ⟨%o3, Hc3⟩⟩
      iclear Hidle
      sl_exec
      sl_step
      isplitl [Hmw]
      · iexact Hmw
      isplitl [Ht0]
      · iexact Ht0
      isplitl [Ht1]
      · iexact Ht1
      isplitl [Ht2]
      · iexact Ht2
      isplitl [Ht3]
      · iexact Ht3
      isplitl [Hp]
      · iexists fQ
        isplitr
        · ipureintro; exact hfQ
        · iexact Hp
      isplitl [Hg0]
      · iexact Hg0
      isplitl [Hg1]
      · iexact Hg1
      isplitl [Hg2]
      · iexact Hg2
      isplitl [Hg3]
      · iexact Hg3
      isplitl [Hw0 Hw1 Hw2 Hw3 Hrest Hw0_dst Hw1_dst Hw2_dst Hw3_dst]
      · iapply (Entails.of_eq (SparseCore.bigSep_erase' (Finset.mem_univ k)).symm)
        isplitl [Hw0 Hw1 Hw2 Hw3]
        · iapply (Entails.of_eq (cell_next d L k).symm)
          iexists _, _, _, _, _, _, _, _
          unfold flightRow
          isplitl [Hw0]
          · iexact Hw0
          isplitl [Hw1]
          · iexact Hw1
          isplitl [Hw2]
          · iexact Hw2
          iexact Hw3
        · iapply (Entails.of_eq (SparseCore.bigSep_erase' (Finset.mem_erase.mpr ⟨hne, Finset.mem_univ _⟩)).symm)
          isplitl [Hw0_dst Hw1_dst Hw2_dst Hw3_dst]
          · iapply (Entails.of_eq (cell_other d L (k.val + 1) ⟨k.val - 1, hk'⟩ (by show k.val - 1 + 1 ≠ k.val + 1; omega)).symm)
            unfold chunkRow
            isplitl [Hw0_dst]
            · iexists _; iexact Hw0_dst
            isplitl [Hw1_dst]
            · iexists _; iexact Hw1_dst
            isplitl [Hw2_dst]
            · iexists _; iexact Hw2_dst
            iexists _; iexact Hw3_dst
          · iapply (Entails.of_eq (bigSep_congr fun t ht => (cell_other d L k.val t (fun e => (Finset.ne_of_mem_erase ht) (Fin.ext (by show t.val = k.val - 1; omega)))).trans (cell_other d L (k.val + 1) t (fun e => (Finset.ne_of_mem_erase (Finset.mem_of_mem_erase ht)) (Fin.ext (by omega)))).symm))
            iexact Hrest
      isplitr [HO]
      · rw [idle_pos d L (k.val + 1) (Nat.succ_ne_zero _)]
        iempintro
      iexists _
      isplitr
      rotate_left
      · iexact HO
      · ipureintro
        exact waits_insert _ rfl (waits_insert _ rfl (waits_insert _ rfl (waits_insert _ rfl (waits_insert _ rfl (waits_insert _ rfl (waits_insert _ rfl (waits_insert _ rfl hW')))))))
  · unfold inv2
    isplitl [Hmw]
    · iexact Hmw
    isplitl [Ht0]
    · iexact Ht0
    isplitl [Ht1]
    · iexact Ht1
    isplitl [Ht2]
    · iexact Ht2
    isplitl [Ht3]
    · iexact Ht3
    isplitl [Hp]
    · iexists fP
      isplitr
      · ipureintro; exact h32
      · iexact Hp
    isplitl [Hg0]
    · iexact Hg0
    isplitl [Hg1]
    · iexact Hg1
    isplitl [Hg2]
    · iexact Hg2
    isplitl [Hg3]
    · iexact Hg3
    isplitl [Hout]
    · iapply (Entails.of_eq (bigSep_congr fun t _ => (cell_other d L 0 t (Nat.succ_ne_zero _)).symm))
      iexact Hout
    isplitr [HO]
    · rw [idle_zero d L 0 rfl]
      isplitl [H0]
      · iexists _; iexact H0
      isplitl [H1]
      · iexists _; iexact H1
      isplitl [H2]
      · iexists _; iexact H2
      isplitl [H3]
      · iexists _; iexact H3
      isplitl [Hw0]
      · iexact Hw0
      isplitl [Hw1]
      · iexact Hw1
      isplitl [Hw2]
      · iexact Hw2
      iexact Hw3
    iexists W1
    isplitr
    · ipureintro; exact hW1
    · iexact HO
  iintro %_ HI
  unfold inv2
  icases HI with ⟨Hmw, Ht0, Ht1, Ht2, Ht3, ⟨%fR, %hfR, Hp⟩, Hg0, Hg1, Hg2, Hg3, Hcells, Hidle, %W2, %hW2, HO⟩
  have hl : 12 < k1_t2_loop.trips := by rw [trips2_eq]; decide
  have hll : (⟨12, hl⟩ : Fin k1_t2_loop.trips).val + 1 = Scf.trips k1_t2_loop.lb k1_t2_loop.ub k1_t2_loop.st := trips2_eq.symm
  ihave Hc := (Entails.of_eq (SparseCore.bigSep_erase' (Finset.mem_univ (⟨12, hl⟩ : Fin k1_t2_loop.trips)))) $$ Hcells
  icases Hc with ⟨Hf, Hrest⟩
  ihave Hf' := (Entails.of_eq (cell_at d L _ ⟨12, hl⟩ hll)) $$ Hf
  icases Hf' with ⟨%p0, %p1, %p2, %p3, %q0, %q1, %q2, %q3, Hfl⟩
  unfold flightRow
  icases Hfl with ⟨Hw0, Hw1, Hw2, Hw3⟩
  iclear Hidle
  sl_exec
  sl_step
  isplitl [Ht0 Ht1 Ht2 Ht3 Hi Hrest Hw0_dst Hw1_dst Hw2_dst Hw3_dst]
  · isplitl [Ht0]
    · iexact Ht0
    isplitl [Ht1]
    · iexact Ht1
    isplitl [Ht2]
    · iexact Ht2
    isplitl [Ht3]
    · iexact Ht3
    isplitl [Hi]
    · iexact Hi
    iapply (Entails.of_eq (SparseCore.bigSep_erase' (Finset.mem_univ (⟨12, hl⟩ : Fin k1_t2_loop.trips))).symm)
    isplitl [Hw0_dst Hw1_dst Hw2_dst Hw3_dst]
    · unfold chunkRow
      isplitl [Hw0_dst]
      · iexists _; iexact Hw0_dst
      isplitl [Hw1_dst]
      · iexists _; iexact Hw1_dst
      isplitl [Hw2_dst]
      · iexists _; iexact Hw2_dst
      iexists _; iexact Hw3_dst
    · iapply (Entails.of_eq (bigSep_congr (s := Finset.univ.erase (⟨12, hl⟩ : Fin k1_t2_loop.trips)) fun t ht => cell_other d L (Scf.trips k1_t2_loop.lb k1_t2_loop.ub k1_t2_loop.st) t (fun e => (Finset.ne_of_mem_erase ht) (Fin.ext (by have e' : t.val + 1 = 13 := e.trans trips2_eq; show t.val = 12; omega)))))
      iexact Hrest
  isplitl [Hn]
  · iexists _; iexact Hn
  isplitl [Hp]
  · iexists _; iexact Hp
  isplitl [Hw0_src]
  · iexists q0; iapply (Entails.of_eq (pts_whole d L cc1_scratch2 rfl fullShare q0)); iexact Hw0_src
  isplitl [Hw1_src]
  · iexists q1; iapply (Entails.of_eq (pts_whole d L cc1_scratch3 rfl fullShare q1)); iexact Hw1_src
  isplitl [Hw2_src]
  · iexists q2; iapply (Entails.of_eq (pts_whole d L cc1_scratch4 rfl fullShare q2)); iexact Hw2_src
  isplitl [Hw3_src]
  · iexists q3; iapply (Entails.of_eq (pts_whole d L cc1_scratch5 rfl fullShare q3)); iexact Hw3_src
  isplitl [Hsem]
  · iexact Hsem
  isplitl [Hg0]
  · iexact Hg0
  isplitl [Hg1]
  · iexact Hg1
  isplitl [Hg2]
  · iexact Hg2
  isplitl [Hg3]
  · iexact Hg3
  isplitl [Hw0]
  · iexact Hw0
  isplitl [Hw1]
  · iexact Hw1
  isplitl [Hw2]
  · iexact Hw2
  isplitl [Hw3]
  · iexact Hw3
  iexists _
  isplitr
  rotate_left
  · iexact HO
  · ipureintro
    exact waits_insert _ rfl (waits_insert _ rfl (waits_insert _ rfl (waits_insert _ rfl hW2)))

end Tile

end Cert.Proof.ScK1

end
-- ==== Proof.ScOwnK1.lean ====
/-
  What a vector subcore owns during the second gather, opened. A task starts with every buffer and every semaphore that
  is the subcore's own: the buffers each whole at some contents, the semaphores each at zero. The gather names fifteen of
  them — six scratch buffers and nine transfer semaphores — and never touches the others. This module states the
  subcore's holdings as those fifteen, in the gather's order, beside the rest, as an equality: the task takes the
  fifteen and gives the same fifteen back.
-/
import proofs.«202673_g7318624272670_cont_9to1c4b_526_24_alg».proof.Proof.ScBaseK
import Idealize.ShloMosaic.Lib.SparseCore.Launch

noncomputable section

namespace Cert.Proof.ScK1

open Cert.Kernel Cert.Kernel.Gen Cert.Proof.ScK
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The gather's six scratch buffers. -/
abbrev T6 : Finset (Ref sig .scVector) := {cc1_scratch0, cc1_scratch1, cc1_scratch2, cc1_scratch3, cc1_scratch4, cc1_scratch5}
/-- The gather's nine transfer semaphores, in the order the task takes them. -/
abbrev T9 : Finset (SemLoc sig) :=
  {SemLoc.dma cc1_scoped0.sem, SemLoc.dma cc1_scratch6.sem, SemLoc.dma cc1_scratch7.sem, SemLoc.dma cc1_scratch8.sem,
    SemLoc.dma cc1_scratch9.sem, SemLoc.dma cc1_scratch10.sem, SemLoc.dma cc1_scratch11.sem, SemLoc.dma cc1_scratch12.sem,
    SemLoc.dma cc1_scratch13.sem}

/-- The six buffers as buffers of subcore (c, i). -/
abbrev bufs6 (c : Fin τ.nSC) (i : Fin τ.nSub) : Finset (DevRef τ sig) := T6.image (Proc.scVector c i).devRef
/-- The nine semaphores as cells of thread (d, c, i). -/
abbrev cells9 (d : Dev nD) (c : Fin τ.nSC) (i : Fin τ.nSub) : Finset (GSem nD τ sig) := T9.image fun sm => ((V d c i, sm) : GSem nD τ sig)

/-- The subcore's other buffers, each whole at some contents. -/
def restBufs (d : Dev nD) (c : Fin τ.nSC) (i : Fin τ.nSub) : sProp 𝕄 :=
  bigSep (ownRefs (τ := τ) (.scVector c i) \ bufs6 c i) fun b => iprop(∃ f, ((d, b) : Loc nD τ sig) ↦{fullShare} f)
/-- The thread's other semaphores, each at zero. -/
def restSems (d : Dev nD) (c : Fin τ.nSC) (i : Fin τ.nSub) : sProp 𝕄 :=
  bigSep (ownCells (V d c i) \ cells9 d c i) fun g => semVal g 0

theorem bufs6_sub (c : Fin τ.nSC) (i : Fin τ.nSub) : bufs6 c i ⊆ ownRefs (τ := τ) (.scVector c i) := by
  refine Finset.image_subset_iff.mpr fun b hb => ?_
  simp only [T6, Finset.mem_insert, Finset.mem_singleton] at hb
  rcases hb with rfl | rfl | rfl | rfl | rfl | rfl <;>
    exact SparseCore.Cfg.mem_ownRefs_of_owner (p := Proc.scVector c i) rfl

/-- Each of the nine is a semaphore scoped to a vector subcore. -/
theorem T9_scoped : ∀ sm ∈ T9, (sm : SemLoc sig).isScoped .scVector = true := by decide

theorem cells9_sub (d : Dev nD) (c : Fin τ.nSC) (i : Fin τ.nSub) : cells9 d c i ⊆ ownCells (V d c i) :=
  Finset.image_subset_iff.mpr fun sm hsm => (mem_ownCells (g := ((V d c i, sm) : GSem nD τ sig))).mpr ⟨rfl, T9_scoped sm hsm⟩

/-- Re-association, as an equality. -/
theorem sep_assoc_eq {M : Type} [URA M] (P Q R : sProp M) : iprop((P ∗ Q) ∗ R) = iprop(P ∗ Q ∗ R) :=
  Idealize.SL.BI.equiv_iff.mp ⟨Idealize.SL.BI.sep_assoc, Idealize.SL.BI.sep_assoc'⟩
/-- Six propositions beside a seventh, re-associated. -/
theorem assoc6 {M : Type} [URA M] (a b c e f g r : sProp M) : iprop((a ∗ b ∗ c ∗ e ∗ f ∗ g) ∗ r) = iprop(a ∗ b ∗ c ∗ e ∗ f ∗ g ∗ r) := by
  rw [sep_assoc_eq, sep_assoc_eq, sep_assoc_eq, sep_assoc_eq, sep_assoc_eq]
/-- Nine propositions beside a tenth, re-associated. -/
theorem assoc9 {M : Type} [URA M] (a b c e f g h j k r : sProp M) :
    iprop((a ∗ b ∗ c ∗ e ∗ f ∗ g ∗ h ∗ j ∗ k) ∗ r) = iprop(a ∗ b ∗ c ∗ e ∗ f ∗ g ∗ h ∗ j ∗ k ∗ r) := by
  rw [sep_assoc_eq, sep_assoc_eq, sep_assoc_eq, sep_assoc_eq, sep_assoc_eq, sep_assoc_eq, sep_assoc_eq, sep_assoc_eq]

/-- The six buffers are six different ones, and the nine semaphores nine. -/
theorem T6_0 : cc1_scratch0 ∉ ({cc1_scratch1, cc1_scratch2, cc1_scratch3, cc1_scratch4, cc1_scratch5} : Finset (Ref sig .scVector)) := by decide
theorem T6_1 : cc1_scratch1 ∉ ({cc1_scratch2, cc1_scratch3, cc1_scratch4, cc1_scratch5} : Finset (Ref sig .scVector)) := by decide
theorem T6_2 : cc1_scratch2 ∉ ({cc1_scratch3, cc1_scratch4, cc1_scratch5} : Finset (Ref sig .scVector)) := by decide
theorem T6_3 : cc1_scratch3 ∉ ({cc1_scratch4, cc1_scratch5} : Finset (Ref sig .scVector)) := by decide
theorem T6_4 : cc1_scratch4 ∉ ({cc1_scratch5} : Finset (Ref sig .scVector)) := by decide
theorem T9_0 : SemLoc.dma cc1_scoped0.sem ∉
    ({SemLoc.dma cc1_scratch6.sem, SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_1 : SemLoc.dma cc1_scratch6.sem ∉
    ({SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_2 : SemLoc.dma cc1_scratch7.sem ∉
    ({SemLoc.dma cc1_scratch8.sem, SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_3 : SemLoc.dma cc1_scratch8.sem ∉
    ({SemLoc.dma cc1_scratch9.sem, SemLoc.dma cc1_scratch10.sem, SemLoc.dma cc1_scratch11.sem, SemLoc.dma cc1_scratch12.sem, SemLoc.dma cc1_scratch13.sem} : Finset (SemLoc sig)) := by decide
theorem T9_4 : SemLoc.dma cc1_scratch9.sem ∉
    ({SemLoc.dma cc1_scratch10.sem, SemLoc.dma cc1_scratch11.sem, SemLoc.dma cc1_scratch12.sem, SemLoc.dma cc1_scratch13.sem} : Finset (SemLoc sig)) := by decide
theorem T9_5 : SemLoc.dma cc1_scratch10.sem ∉
    ({SemLoc.dma cc1_scratch11.sem, SemLoc.dma cc1_scratch12.sem, SemLoc.dma cc1_scratch13.sem} : Finset (SemLoc sig)) := by decide
theorem T9_6 : SemLoc.dma cc1_scratch11.sem ∉
    ({SemLoc.dma cc1_scratch12.sem, SemLoc.dma cc1_scratch13.sem} : Finset (SemLoc sig)) := by decide
theorem T9_7 : SemLoc.dma cc1_scratch12.sem ∉
    ({SemLoc.dma cc1_scratch13.sem} : Finset (SemLoc sig)) := by decide

/-- The subcore's buffers: the six, then the rest. -/
theorem bufs_split (d : Dev nD) (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f) ∗ (∃ f, (V d c i).loc cc1_scratch5 ↦{fullShare} f)
          ∗ restBufs d c i) := by
  unfold SparseCore.Cfg.ownBufs restBufs
  rw [SparseCore.bigSep_sdiff_split' (bufs6_sub c i),
    SparseCore.bigSep_image_of_injOn ((Proc.devRef_injective (Proc.scVector c i)).injOn),
    SparseCore.bigSep_insert' T6_0, SparseCore.bigSep_insert' T6_1, SparseCore.bigSep_insert' T6_2,
    SparseCore.bigSep_insert' T6_3, SparseCore.bigSep_insert' T6_4, bigSep_singleton]
  exact assoc6 _ _ _ _ _ _ _

/-- The thread's semaphores: the nine, then the rest. -/
theorem sems_split (d : Dev nD) (c : Fin τ.nSC) (i : Fin τ.nSub) :
    (ownSems0 (V d c i) : sProp 𝕄)
      = iprop(semVal (V d c i, SemLoc.dma cc1_scoped0.sem) 0 ∗ semVal (V d c i, SemLoc.dma cc1_scratch6.sem) 0
          ∗ semVal (V d c i, SemLoc.dma cc1_scratch7.sem) 0 ∗ semVal (V d c i, SemLoc.dma cc1_scratch8.sem) 0
          ∗ semVal (V d c i, SemLoc.dma cc1_scratch9.sem) 0 ∗ semVal (V d c i, SemLoc.dma cc1_scratch10.sem) 0
          ∗ semVal (V d c i, SemLoc.dma cc1_scratch11.sem) 0 ∗ semVal (V d c i, SemLoc.dma cc1_scratch12.sem) 0
          ∗ semVal (V d c i, SemLoc.dma cc1_scratch13.sem) 0 ∗ restSems d c i) := by
  unfold SparseCore.Cfg.ownSems0 restSems
  rw [SparseCore.bigSep_sdiff_split' (cells9_sub d c i),
    SparseCore.bigSep_image_of_injOn (fun a _ b _ e => (Prod.mk.inj e).2),
    SparseCore.bigSep_insert' T9_0, SparseCore.bigSep_insert' T9_1, SparseCore.bigSep_insert' T9_2,
    SparseCore.bigSep_insert' T9_3, SparseCore.bigSep_insert' T9_4, SparseCore.bigSep_insert' T9_5,
    SparseCore.bigSep_insert' T9_6, SparseCore.bigSep_insert' T9_7, bigSep_singleton]
  exact assoc9 _ _ _ _ _ _ _ _ _ _

/-- WHAT A TASK STARTS WITH AND ENDS WITH: the subcore's scoped buffers and semaphores are the gather's six buffers,
    each whole at some contents, and the rest, beside its nine semaphores at zero and the rest. -/
theorem own_split (hF : (K (F := F)).Facts) (d : Dev nD) (c : Fin τ.nSC) (i : Fin τ.nSub) :
    (iprop(scopedBufs (V d c i) ∗ scopedSems0 (V d c i)) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f)
            ∗ (∃ f, (V d c i).loc cc1_scratch4 ↦{fullShare} f) ∗ (∃ f, (V d c i).loc cc1_scratch5 ↦{fullShare} f)
            ∗ restBufs d c i)
          ∗ (semVal (V d c i, SemLoc.dma cc1_scoped0.sem) 0 ∗ semVal (V d c i, SemLoc.dma cc1_scratch6.sem) 0
            ∗ semVal (V d c i, SemLoc.dma cc1_scratch7.sem) 0 ∗ semVal (V d c i, SemLoc.dma cc1_scratch8.sem) 0
            ∗ semVal (V d c i, SemLoc.dma cc1_scratch9.sem) 0 ∗ semVal (V d c i, SemLoc.dma cc1_scratch10.sem) 0
            ∗ semVal (V d c i, SemLoc.dma cc1_scratch11.sem) 0 ∗ semVal (V d c i, SemLoc.dma cc1_scratch12.sem) 0
            ∗ semVal (V d c i, SemLoc.dma cc1_scratch13.sem) 0 ∗ restSems d c i)) := by
  rw [(K (F := F)).scopedBufs_V hF d c i, SparseCore.Cfg.scopedSems0_V d c i, bufs_split, sems_split]

end Cert.Proof.ScK1

end
-- ==== Proof.ScOblK1.lean ====
import proofs.«202673_g7318624272670_cont_9to1c4b_526_24_alg».proof.Proof.ScTileK1
import proofs.«202673_g7318624272670_cont_9to1c4b_526_24_alg».proof.Proof.ScOwnK1
import proofs.«202673_g7318624272670_cont_9to1c4b_526_24_alg».proof.Proof.ScPayK

/-! The second gather call's task as the launch theorem asks for it: a vector subcore's scoped storage opened into the
    task's two index scratches, four row buffers and nine DMA semaphores, the task run, and the storage closed again. -/

noncomputable section

namespace Cert.Proof.ScK1

open Cert.Kernel Cert.Kernel.Gen Cert.Proof.ScK

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.Kernel.main_v0_scv : Memref Cert.Kernel.sig Kind.scVector Space.hbm Cert.Kernel.S26000x128 EltTy.f32)
local notation "idxW" => (Memref.whole Cert.Kernel.main_v8_scv : Memref Cert.Kernel.sig Kind.scVector Space.hbm Cert.Kernel.S212992 EltTy.i32)
local notation "outW" => (Memref.whole Cert.Kernel.main_v9_scv : Memref Cert.Kernel.sig Kind.scVector Space.hbm Cert.Kernel.S212992x128 EltTy.f32)
local notation "sN" => (Memref.whole Cert.Kernel.cc1_scratch0 : Memref Cert.Kernel.sig Kind.scVector Space.vmem Cert.Kernel.S6656 EltTy.i32)
local notation "sP" => (Memref.whole Cert.Kernel.cc1_scratch1 : Memref Cert.Kernel.sig Kind.scVector Space.vmem Cert.Kernel.S6656 EltTy.i32)
local notation "rB0" => (Memref.whole Cert.Kernel.cc1_scratch2 : Memref Cert.Kernel.sig Kind.scVector Space.vmem Cert.Kernel.S128x128 EltTy.f32)
local notation "rB1" => (Memref.whole Cert.Kernel.cc1_scratch3 : Memref Cert.Kernel.sig Kind.scVector Space.vmem Cert.Kernel.S128x128 EltTy.f32)
local notation "rB2" => (Memref.whole Cert.Kernel.cc1_scratch4 : Memref Cert.Kernel.sig Kind.scVector Space.vmem Cert.Kernel.S128x128 EltTy.f32)
local notation "rB3" => (Memref.whole Cert.Kernel.cc1_scratch5 : Memref Cert.Kernel.sig Kind.scVector Space.vmem Cert.Kernel.S128x128 EltTy.f32)

set_option maxHeartbeats 4000000 in
/-- The task with the subcore's scoped storage as the launch hands it over. -/
theorem tile_body (hF : (K (F := F)).Facts) (d : Dev nD) (L : grid1.Coords) (qT : PosShare TreeShare)
    (ft : Buf (Elt F) ((tblW).view.loc (thr d L))) (fi : Buf (Elt F) ((idxW).view.loc (thr d L)))
    (hfi : ∀ i, ((fi i) : BitVec 32).toNat ≤ 999)
    (O : CellTallies nD τ sig (HIx 2)) (W : Waits sig (HIx 2)) (hO : ∀ g, O g none = 0) :
    (iprop(levAts (K (F := F)).L (K (F := F)).lev ∗ emp ∗ tileRes d L qT ft fi
        ∗ scopedBufs (thr d L) ∗ scopedSems0 (thr d L) ∗ owes (thr d L) O W) : sProp 𝕄)
      ⊢ wp frame (wpE (defs₀ (F := F)) 𝒱₀ (thr d L) none) Set.univ
          (cc1_gather_kernel L tblW (Memref.isWhole_whole _) idxW (Memref.isWhole_whole _) outW (Memref.isWhole_whole _)
            sN (Memref.isWhole_whole _) sP (Memref.isWhole_whole _) rB0 (Memref.isWhole_whole _) rB1 (Memref.isWhole_whole _)
            rB2 (Memref.isWhole_whole _) rB3 (Memref.isWhole_whole _)
            cc1_scratch6 cc1_scratch7 cc1_scratch8 cc1_scratch9 cc1_scratch10 cc1_scratch11 cc1_scratch12 cc1_scratch13 cc1_scoped0)
          fun _ => iprop(tileRes d L qT ft fi ∗ scopedBufs (thr d L) ∗ scopedSems0 (thr d L)
            ∗ ∃ W', ⌜∀ p ∈ W', p ∈ W ∨ p.2 = none⌝ ∗ owes (thr d L) O W') := by
  iintro ⟨#Hlv, -, Hres, Hsb, Hss, HO⟩
  ihave Hown := (Entails.of_eq (own_split hF d (cV L) (jV L))) $$ [Hsb Hss]
  · isplitl [Hsb]
    · iexact Hsb
    · iexact Hss
  icases Hown with ⟨⟨⟨%fn, Hn⟩, ⟨%fp, Hp⟩, ⟨%f0, H0⟩, ⟨%f1, H1⟩, ⟨%f2, H2⟩, ⟨%f3, H3⟩, HrB⟩, Hsem, Hg0, Hg1, Hg2, Hg3, Hw0, Hw1, Hw2, Hw3, HrS⟩
  iapply (wp_mono frame _ _ (Q := fun _ => iprop((tileRes d L qT ft fi
            ∗ (∃ f, (sN).view.loc (thr d L) ↦{fullShare} f) ∗ (∃ f, (sP).view.loc (thr d L) ↦{fullShare} f)
            ∗ (∃ f, (rB0).view.loc (thr d L) ↦{fullShare} f) ∗ (∃ f, (rB1).view.loc (thr d L) ↦{fullShare} f)
            ∗ (∃ f, (rB2).view.loc (thr d L) ↦{fullShare} f) ∗ (∃ f, (rB3).view.loc (thr d L) ↦{fullShare} f)
            ∗ semVal (thr d L, SemLoc.dma cc1_scoped0.sem) 0
            ∗ semVal (thr d L, SemLoc.dma cc1_scratch6.sem) 0 ∗ semVal (thr d L, SemLoc.dma cc1_scratch7.sem) 0
            ∗ semVal (thr d L, SemLoc.dma cc1_scratch8.sem) 0 ∗ semVal (thr d L, SemLoc.dma cc1_scratch9.sem) 0
            ∗ semVal (thr d L, SemLoc.dma cc1_scratch10.sem) 0 ∗ semVal (thr d L, SemLoc.dma cc1_scratch11.sem) 0
            ∗ semVal (thr d L, SemLoc.dma cc1_scratch12.sem) 0 ∗ semVal (thr d L, SemLoc.dma cc1_scratch13.sem) 0
            ∗ ∃ W', ⌜∀ p ∈ W', p ∈ W ∨ p.2 = none⌝ ∗ owes (thr d L) O W') ∗ (restBufs d (cV L) (jV L) ∗ restSems d (cV L) (jV L)))) ?hpost)
  case hpost =>
    intro _
    iintro ⟨⟨Hres, ⟨%fn, Hn⟩, ⟨%fp, Hp⟩, ⟨%f0, H0⟩, ⟨%f1, H1⟩, ⟨%f2, H2⟩, ⟨%f3, H3⟩, Hsem, Hg0, Hg1, Hg2, Hg3, Hw0, Hw1, Hw2, Hw3, HW⟩, HrB, HrS⟩
    isplitl [Hres]
    · iexact Hres
    ihave Hown := (Entails.of_eq (own_split hF d (cV L) (jV L)).symm) $$ [Hn Hp H0 H1 H2 H3 HrB Hsem Hg0 Hg1 Hg2 Hg3 Hw0 Hw1 Hw2 Hw3 HrS]
    · isplitl [Hn Hp H0 H1 H2 H3 HrB]
      · isplitl [Hn]
        · iexists fn; iexact Hn
        isplitl [Hp]
        · iexists fp; iexact Hp
        isplitl [H0]
        · iexists f0; iexact H0
        isplitl [H1]
        · iexists f1; iexact H1
        isplitl [H2]
        · iexists f2; iexact H2
        isplitl [H3]
        · iexists f3; iexact H3
        iexact HrB
      · isplitl [Hsem]
        · iexact Hsem
        isplitl [Hg0]
        · iexact Hg0
        isplitl [Hg1]
        · iexact Hg1
        isplitl [Hg2]
        · iexact Hg2
        isplitl [Hg3]
        · iexact Hg3
        isplitl [Hw0]
        · iexact Hw0
        isplitl [Hw1]
        · iexact Hw1
        isplitl [Hw2]
        · iexact Hw2
        isplitl [Hw3]
        · iexact Hw3
        iexact HrS
    icases Hown with ⟨Hsb, Hss⟩
    isplitl [Hsb]
    · iexact Hsb
    isplitl [Hss]
    · iexact Hss
    iexact HW
  iapply (wp_frame_r frame _ _)
  isplitr [HrB HrS]
  · iapply (tile_run d L O W hO qT ft fi hfi fn fp f0 f1 f2 f3)
    isplitr
    · iexact Hlv
    isplitl [Hres]
    · iexact Hres
    isplitl [Hn]
    · iexact Hn
    isplitl [Hp]
    · iexact Hp
    isplitl [H0]
    · iexact H0
    isplitl [H1]
    · iexact H1
    isplitl [H2]
    · iexact H2
    isplitl [H3]
    · iexact H3
    isplitl [Hsem]
    · iexact Hsem
    isplitl [Hg0]
    · iexact Hg0
    isplitl [Hg1]
    · iexact Hg1
    isplitl [Hg2]
    · iexact Hg2
    isplitl [Hg3]
    · iexact Hg3
    isplitl [Hw0]
    · iexact Hw0
    isplitl [Hw1]
    · iexact Hw1
    isplitl [Hw2]
    · iexact Hw2
    isplitl [Hw3]
    · iexact Hw3
    iexact HO
  · isplitl [HrB]
    · iexact HrB
    · iexact HrS

/-! ## The launch theorem's obligation -/

theorem defs₀_vector (c : Fin τ.nSC) (s : Fin τ.nSub) :
    defs₀ (F := F) (.scVector c s) 1 ()
      = SparseCore.onTile hcore1 hsub1 (fun c s => cc1_gather_kernel (coordsV c s)
          tblW (Memref.isWhole_whole _) idxW (Memref.isWhole_whole _) outW (Memref.isWhole_whole _)
          sN (Memref.isWhole_whole _) sP (Memref.isWhole_whole _) rB0 (Memref.isWhole_whole _) rB1 (Memref.isWhole_whole _)
          rB2 (Memref.isWhole_whole _) rB3 (Memref.isWhole_whole _)
          cc1_scratch6 cc1_scratch7 cc1_scratch8 cc1_scratch9 cc1_scratch10 cc1_scratch11 cc1_scratch12 cc1_scratch13 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

variable (Tb : (d : Dev nD) → Buf (Elt F) ((SparseCore.T d : Thread nD τ).loc main_v0))
  (Iv0 : (d : Dev nD) → Buf (Elt F) ((SparseCore.T d : Thread nD τ).loc main_v5)) (Iv1 : (d : Dev nD) → Buf (Elt F) ((SparseCore.T d : Thread nD τ).loc main_v8))

set_option maxHeartbeats 4000000 in
theorem tileObl (hF : (K (F := F)).Facts) (hIv1 : ∀ d i, ((Iv1 d i) : BitVec 32).toNat ≤ 999) :
    (K (F := F)).TileObl (D (F := F)) 𝒱 (P Tb Iv0 Iv1) v₀ 1 := by
  intro d c i O W hO _ _
  simp only [show (P Tb Iv0 Iv1).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector]; simp only [SparseCore.onTile, hc, and_self, ↓reduceDIte]
  exact (tile_body hF d (coordsV ⟨_, hc.1⟩ ⟨_, hc.2⟩) (qT c.val i.val) (Tb d) (Iv1 d) (hIv1 d) O W hO).trans (wp_mono frame _ _ fun _ => obl_post)

end Cert.Proof.ScK1

end
-- ==== Proof.ScRangeK.lean ====
import proofs.«202673_g7318624272670_cont_9to1c4b_526_24_alg».proof.Proof.ScMainK
import proofs.«202673_g7318624272670_cont_9to1c4b_526_24_alg».proof.Proof.IdxRange

/-! The two calls' index lists hold categories: each is a reshape of a slice of the category array, whose words the
    precondition bounds by 999. -/

noncomputable section

namespace Cert.Proof.ScK

open Cert.Kernel
open Cert.Kernel.Shapes2.Facts₀ Cert.Kernel.Shapes1.Facts₀
open Idealize.ShloMosaic
open Idealize.ShloMosaic.SparseCore (S V T)

variable {F : FTy → Type} [FloatOps F] [Cert.Pre_input_domain.Facts]

variable (m : (ℓ : Loc nD τ sig) → Buf (Elt F) ℓ)

/-- The precondition as the claims state it of a memory. -/
abbrev PreM : Prop := ∀ c : Dev nD,
  Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1

theorem Iv0_range (hpre : PreM m) (d : Dev nD) (i) : ((Iv0 m d i) : BitVec 32).toNat ≤ 999 := by
  unfold Iv0
  show (((op5 (F := F)).result _ (Proc.devRef .tc main_v5) i) : BitVec 32).toNat ≤ 999
  rw [StableHlo.reshape_result, StableHlo.unary_result,
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  exact Cert.IdxRange.idx0_range (F := F) _ _ _ _ _ (hpre d) _ _ i

theorem Iv1_range (hpre : PreM m) (d : Dev nD) (i) : ((Iv1 m d i) : BitVec 32).toNat ≤ 999 := by
  unfold Iv1
  show (((op7 (F := F)).result _ (Proc.devRef .tc main_v8) i) : BitVec 32).toNat ≤ 999
  rw [StableHlo.reshape_result, StableHlo.unary_result]
  unfold W6
  rw [(op5 (F := F)).result_of_not_mem _ (show r main_arg0 ∉ ({r main_v5} : Finset (DevRef τ sig)) from by decide),
    (op4 (F := F)).result_of_not_mem _ (show r main_arg0 ∉ ({r main_v4} : Finset (DevRef τ sig)) from by decide),
    (op3 (F := F)).result_of_not_mem _ (show r main_arg0 ∉ ({r main_v3} : Finset (DevRef τ sig)) from by decide),
    (op2 (F := F)).result_of_not_mem _ (show r main_arg0 ∉ ({r main_v2} : Finset (DevRef τ sig)) from by decide),
    (op1 (F := F)).result_of_not_mem _ (show r main_arg0 ∉ ({r main_v1} : Finset (DevRef τ sig)) from by decide),
    (op0 (F := F)).result_of_not_mem _ (show r main_arg0 ∉ ({r main_v0} : Finset (DevRef τ sig)) from by decide)]
  exact Cert.IdxRange.idx1_range (F := F) _ _ _ _ _ (hpre d) _ _ i

end Cert.Proof.ScK

end
-- ==== Proof.ScFrameK.lean ====
/-
  The frame claim of the idealized kernel: the program's run at the ideal instance, from the two tasks' body obligations (at
  the index lists' ranges the precondition gives), the two calls' operand splits and @main's proof — every weakly fair
  execution from a memory with zero counters terminates without a fault and leaves the five argument arrays unchanged.
-/
import proofs.«202673_g7318624272670_cont_9to1c4b_526_24_alg».proof.Proof.ScLaunchK
import proofs.«202673_g7318624272670_cont_9to1c4b_526_24_alg».proof.Proof.ScCall0K
import proofs.«202673_g7318624272670_cont_9to1c4b_526_24_alg».proof.Proof.ScCall1K
import proofs.«202673_g7318624272670_cont_9to1c4b_526_24_alg».proof.Proof.ScOblK0
import proofs.«202673_g7318624272670_cont_9to1c4b_526_24_alg».proof.Proof.ScOblK1
import proofs.«202673_g7318624272670_cont_9to1c4b_526_24_alg».proof.Proof.ScRangeK

noncomputable section

namespace Cert.Proof.ScK

open Cert.Kernel

open Idealize.ShloMosaic
open Idealize.ShloMosaic.SparseCore.Cfg (HIx Pay)
open Idealize.SL Idealize.SL.RA Idealize.SL.BI
open scoped Idealize.SL.BI

variable {F : FTy → Type} [FloatOps F] [Cert.Pre_input_domain.Facts]

/-- The program's run at any float instance, under the precondition. -/
theorem run_kernel [∀ e, Nonempty (Elt F e)] (m : (ℓ : Loc nD τ sig) → Buf (Elt F) ℓ) (ρ : Dev nD → PrngReg) (hpre : PreM m) :
    θ_run (Cert.Kernel.defs (F := F)) (Cert.Kernel.threads (F := F)) ⟨m, fun _ => 0, ρ⟩ (QC m) :=
  run_main' m ρ
    (fun q => match q with
      | 0 => Cert.Proof.ScK0.tileObl (Tb m) (Iv0 m) (Iv1 m) facts (Iv0_range m hpre)
      | 1 => Cert.Proof.ScK1.tileObl (Tb m) (Iv0 m) (Iv1 m) facts (Iv1_range m hpre))
    (fun d => hcall0 m d) (fun d g => hcall1 m d g)

/-- `Cert.frame_Kernel` (Defs.lean). -/
theorem frame_K : Cert.frame_Kernel := fun m ρ hpre =>
  (θ_run Cert.Kernel.defs _ _).mono (fun _ h => h) (run_kernel (F := Bits) m ρ hpre)

end Cert.Proof.ScK

end
-- ==== Proof.lean ====
/- The proof of `Cert.Claim`.

   The three programs: the kernel as printed (read at the word level), the same text read over the extended reals, and
   the jnp reference over the extended reals. The kernel program is an embedding lookup in two halves of the batch: a
   SparseCore call per half (each of 32 vector subcores copies its 6656 category words, permutes them window by window into
   field-major order adding 1000 times the field number, gathers the 128-wide table rows they name 128 at a time through
   four row buffers and writes them to its rows of the half's gathered array) and a TensorCore call per half (each grid
   point stacks, transposes and stores the 26 fields' blocks and appends the 13 rescaled dense features), then a transpose.

   The three frames: every weakly fair execution of each program terminates without a fault and leaves the five argument
   arrays unchanged (for the kernel programs from the precondition's bound 0 ≤ x_cat ≤ 999, which puts every gathered row
   inside the table). The idealization rewrites nothing. The two idealized results are one function of the arguments: the
   reference's run leaves the lookup-and-rescale function G (RefRun, RefIsG); the kernel's run, with invariants that carry
   the permuted index list exactly and every gathered block's contents, leaves the assembled and transposed array of the
   gathered rows and rescaled features (ScTileW0/W1, ScLaunchV, ScKOutV), which composes to the same G (KernelValue,
   ScBridgeI, ScAlgI, ScKBridgeV). -/
import proofs.«202673_g7318624272670_cont_9to1c4b_526_24_alg».proof.Defs
import proofs.«202673_g7318624272670_cont_9to1c4b_526_24_alg».proof.Proof.Gen.Kernel
import proofs.«202673_g7318624272670_cont_9to1c4b_526_24_alg».proof.Proof.Gen.KernelIdeal
import proofs.«202673_g7318624272670_cont_9to1c4b_526_24_alg».proof.Proof.Gen.ReferenceIdeal
import proofs.«202673_g7318624272670_cont_9to1c4b_526_24_alg».proof.Proof.Gen.Pre_input_domain
import proofs.«202673_g7318624272670_cont_9to1c4b_526_24_alg».proof.Proof.RefRun
import proofs.«202673_g7318624272670_cont_9to1c4b_526_24_alg».proof.Proof.RefIsG
import proofs.«202673_g7318624272670_cont_9to1c4b_526_24_alg».proof.Proof.KernelHost
import proofs.«202673_g7318624272670_cont_9to1c4b_526_24_alg».proof.Proof.ScFrameI
import proofs.«202673_g7318624272670_cont_9to1c4b_526_24_alg».proof.Proof.ScAlgV
import proofs.«202673_g7318624272670_cont_9to1c4b_526_24_alg».proof.Proof.ScOblV0
import proofs.«202673_g7318624272670_cont_9to1c4b_526_24_alg».proof.Proof.ScOblV1
import proofs.«202673_g7318624272670_cont_9to1c4b_526_24_alg».proof.Proof.ScFrameK
import Idealize.ShloMosaic.Adequacy
import Idealize.ShloMosaic.Init

noncomputable section

namespace Cert.Proof

open Idealize.ShloMosaic Idealize.SL.Sem

/-- The reference's frame: its run with the result dropped. -/
theorem frame_R : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.ReferenceIdeal.RefRun.run (F := Ideal) m ρ)

theorem claim : Cert.Claim := ⟨Cert.Kernel.Gen.facts, Cert.KernelIdeal.Gen.facts, Cert.ReferenceIdeal.Gen.facts, Cert.Pre_input_domain.Gen.facts,
  Cert.Proof.ScK.frame_K, Cert.Proof.ScI.frame_KI, frame_R, trivial,
  Cert.Proof.ScI.algebraic_KI
    (fun m hpre => Cert.Proof.ScV0.tileObl (Cert.Proof.ScI.Tb m) (Cert.Proof.ScI.Iv0 m) (Cert.Proof.ScI.Iv1 m) Cert.Proof.ScI.facts (Cert.Proof.ScI.Iv0_range m hpre))
    (fun m hpre => Cert.Proof.ScV1.tileObl (Cert.Proof.ScI.Tb m) (Cert.Proof.ScI.Iv0 m) (Cert.Proof.ScI.Iv1 m) Cert.Proof.ScI.facts (Cert.Proof.ScI.Iv1_range m hpre))⟩

end Cert.Proof

end
